-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_v124)) (v3 : (c : Dev Cert.KernelIdeal.nD) → Buf (Elt Ideal) ((c.tc : Thread Cert.KernelIdeal.nD Cert.KernelIdeal.τ).loc Cert.KernelIdeal.main_v125)) (v4 : (c : Dev Cert.KernelIdeal.nD) → Buf (Elt Ideal) ((c.tc : Thread Cert.KernelIdeal.nD Cert.KernelIdeal.τ).loc Cert.KernelIdeal.main_v126)) (v5 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_v124) = v2 c
          ∧ r.2.mem ((c.tc : Thread Cert.KernelIdeal.nD Cert.KernelIdeal.τ).loc Cert.KernelIdeal.main_v125) = v3 c
          ∧ r.2.mem ((c.tc : Thread Cert.KernelIdeal.nD Cert.KernelIdeal.τ).loc Cert.KernelIdeal.main_v126) = v4 c
          ∧ r.2.mem ((c.tc : Thread Cert.KernelIdeal.nD Cert.KernelIdeal.τ).loc Cert.KernelIdeal.main_v32) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_v442) = v1 c
          ∧ r.2.mem ((c.tc : Thread Cert.ReferenceIdeal.nD Cert.ReferenceIdeal.τ).loc Cert.ReferenceIdeal.main_v443) = v2 c
          ∧ r.2.mem ((c.tc : Thread Cert.ReferenceIdeal.nD Cert.ReferenceIdeal.τ).loc Cert.ReferenceIdeal.main_v444) = v3 c
          ∧ r.2.mem ((c.tc : Thread Cert.ReferenceIdeal.nD Cert.ReferenceIdeal.τ).loc Cert.ReferenceIdeal.main_v445) = v4 c
          ∧ r.2.mem ((c.tc : Thread Cert.ReferenceIdeal.nD Cert.ReferenceIdeal.τ).loc Cert.ReferenceIdeal.main_v102) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S6144x256 : Shape := ⟨2, ![6144, 256]⟩
abbrev S2048x256 : Shape := ⟨2, ![2048, 256]⟩
abbrev S16384x8192 : Shape := ⟨2, ![16384, 8192]⟩
abbrev S8192x8192 : Shape := ⟨2, ![8192, 8192]⟩
abbrev S2048x2048 : Shape := ⟨2, ![2048, 2048]⟩
abbrev S256x256 : Shape := ⟨2, ![256, 256]⟩
abbrev S256 : Shape := ⟨1, ![256]⟩
abbrev S_ : Shape := ⟨0, ![]⟩
abbrev S2x256x256 : Shape := ⟨3, ![2, 256, 256]⟩
abbrev S2x256 : Shape := ⟨2, ![2, 256]⟩
abbrev S2 : Shape := ⟨1, ![2]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S6144x256 : S_.BroadcastsInDim S6144x256 (![] : Fin 0 → Fin S6144x256.rank)
  reducesTo_S6144x256_S_d0_1 : S6144x256.ReducesTo [0, 1] S_
  bcast_S_S2048x256 : S_.BroadcastsInDim S2048x256 (![] : Fin 0 → Fin S2048x256.rank)
  reducesTo_S2048x256_S_d0_1 : S2048x256.ReducesTo [0, 1] S_
  bcast_S_S16384x8192 : S_.BroadcastsInDim S16384x8192 (![] : Fin 0 → Fin S16384x8192.rank)
  reducesTo_S16384x8192_S_d0_1 : S16384x8192.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2x256x256 .f32) (main_arg19 : FVec F S2x256 .f32) (main_arg20 : FVec F S2 .f32) (main_v81 : IVec S_ 1) (main_v84 : IVec S2 1) : IVec S_ 1 :=
  let main_c_33 : IVec S_ 1 := constantI S_ 1 1#1
  let main_v85 : IVec S_ 1 := (fun x v => Host.reduce IntOp.andi x v reducesTo_S2_S_d0 h_S_) main_v84 main_c_33
  let main_v86 : IVec S_ 1 := andi main_v81 main_v85
  let main_v87 : FVec F S2x256x256 .f32 := Host.absf main_arg18
  let main_cst_34 : FVec F S_ .f32 := constant S_ .f32 0x7F800000#32
  let main_v88 : FVec F S2x256x256 .f32 := broadcastInDim S2x256x256 ![] bcast_S_S2x256x256 main_cst_34
  let main_v89 : IVec S2x256x256 1 := cmpf .olt main_v87 main_v88
  let main_c_35 : IVec S_ 1 := constantI S_ 1 1#1
  let main_v90 : IVec S_ 1 := (fun x v => Host.reduce IntOp.andi x v reducesTo_S2x256x256_S_d0_1_2 h_S_) main_v89 main_c_35
  let main_v91 : IVec S_ 1 := andi main_v86 main_v90
  let main_v92 : FVec F S2x256 .f32 := Host.absf main_arg19
  let main_cst_36 : FVec F S_ .f32 := constant S_ .f32 0x7F800000#32
  let main_v93 : FVec F S2x256 .f32 := broadcastInDim S2x256 ![] bcast_S_S2x256 main_cst_36
  let main_v94 : IVec S2x256 1 := cmpf .olt main_v92 main_v93
  let main_c_37 : IVec S_ 1 := constantI S_ 1 1#1
  let main_v95 : IVec S_ 1 := (fun x v => Host.reduce IntOp.andi x v reducesTo_S2x256_S_d0_1 h_S_) main_v94 main_c_37
  let main_v96 : IVec S_ 1 := andi main_v91 main_v95
  let main_v97 : FVec F S2 .f32 := Host.absf main_arg20
  let main_cst_38 : FVec F S_ .f32 := constant S_ .f32 0x7F800000#32
  let main_v98 : FVec F S2 .f32 := broadcastInDim S2 ![] bcast_S_S2 main_cst_38
  let main_v99 : IVec S2 1 := cmpf .olt main_v97 main_v98
  let main_c_39 : IVec S_ 1 := constantI S_ 1 1#1
  let main_v100 : IVec S_ 1 := (fun x v => Host.reduce IntOp.andi x v reducesTo_S2_S_d0 h_S_) main_v99 main_c_39
  let main_v101 : IVec S_ 1 := andi main_v96 main_v100
  main_v101

def fn_part4 {F : FTy → Type} [FloatOps F] (main_arg15 : FVec F S2x256x256 .f32) (main_arg16 : FVec F S2x256 .f32) (main_arg17 : FVec F S2 .f32) (main_arg18 : FVec F S2x256x256 .f32) (main_arg19 : FVec F S2x256 .f32) (main_arg20 : FVec F S2 .f32) (main_v66 : IVec S_ 1) (main_v67 : FVec F S2 .f32) : IVec S_ 1 :=
  let main_cst_26 : FVec F S_ .f32 := constant S_ .f32 0x7F800000#32
  let main_v68 : FVec F S2 .f32 := broadcastInDim S2 ![] bcast_S_S2 main_cst_26
  let main_v69 : IVec S2 1 := cmpf .olt main_v67 main_v68
  let main_c_27 : IVec S_ 1 := constantI S_ 1 1#1
  let main_v70 : IVec S_ 1 := (fun x v => Host.reduce IntOp.andi x v reducesTo_S2_S_d0 h_S_) main_v69 main_c_27
  let main_v71 : IVec S_ 1 := andi main_v66 main_v70
  let main_v72 : FVec F S2x256x256 .f32 := Host.absf main_arg15
  let main_cst_28 : FVec F S_ .f32 := constant S_ .f32 0x7F800000#32
  let main_v73 : FVec F S2x256x256 .f32 := broadcastInDim S2x256x256 ![] bcast_S_S2x256x256 main_cst_28
  let main_v74 : IVec S2x256x256 1 := cmpf .olt main_v72 main_v73
  let main_c_29 : IVec S_ 1 := constantI S_ 1 1#1
  let main_v75 : IVec S_ 1 := (fun x v => Host.reduce IntOp.andi x v reducesTo_S2x256x256_S_d0_1_2 h_S_) main_v74 main_c_29
  let main_v76 : IVec S_ 1 := andi main_v71 main_v75
  let main_v77 : FVec F S2x256 .f32 := Host.absf main_arg16
  let main_cst_30 : FVec F S_ .f32 := constant S_ .f32 0x7F800000#32
  let main_v78 : FVec F S2x256 .f32 := broadcastInDim S2x256 ![] bcast_S_S2x256 main_cst_30
  let main_v79 : IVec S2x256 1 := cmpf .olt main_v77 main_v78
  let main_c_31 : IVec S_ 1 := constantI S_ 1 1#1
  let main_v80 : IVec S_ 1 := (fun x v => Host.reduce IntOp.andi x v reducesTo_S2x256_S_d0_1 h_S_) main_v79 main_c_31
  let main_v81 : IVec S_ 1 := andi main_v76 main_v80
  let main_v82 : FVec F S2 .f32 := Host.absf main_arg17
  let main_cst_32 : FVec F S_ .f32 := constant S_ .f32 0x7F800000#32
  let main_v83 : FVec F S2 .f32 := broadcastInDim S2 ![] bcast_S_S2 main_cst_32
  let main_v84 : IVec S2 1 := cmpf .olt main_v82 main_v83
  fn_part5 (F := F) main_arg18 main_arg19 main_arg20 main_v81 main_v84

def fn_part3 {F : FTy → Type} [FloatOps F] (main_arg11 : FVec F S_ .f32) (main_arg12 : FVec F S2x256x256 .f32) (main_arg13 : FVec F S2x256 .f32) (main_arg14 : FVec F S2 .f32) (main_arg15 : FVec F S2x256x256 .f32) (main_arg16 : FVec F S2x256 .f32) (main_arg17 : FVec F S2 .f32) (main_arg18 : FVec F S2x256x256 .f32) (main_arg19 : FVec F S2x256 .f32) (main_arg20 : FVec F S2 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S_ .f32 := Host.absf main_arg11
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  let main_v57 : FVec F S2x256x256 .f32 := Host.absf main_arg12
  let main_cst_22 : FVec F S_ .f32 := constant S_ .f32 0x7F800000#32
  let main_v58 : FVec F S2x256x256 .f32 := broadcastInDim S2x256x256 ![] bcast_S_S2x256x256 main_cst_22
  let main_v59 : IVec S2x256x256 1 := cmpf .olt main_v57 main_v58
  let main_c_23 : IVec S_ 1 := constantI S_ 1 1#1
  let main_v60 : IVec S_ 1 := (fun x v => Host.reduce IntOp.andi x v reducesTo_S2x256x256_S_d0_1_2 h_S_) main_v59 main_c_23
  let main_v61 : IVec S_ 1 := andi main_v56 main_v60
  let main_v62 : FVec F S2x256 .f32 := Host.absf main_arg13
  let main_cst_24 : FVec F S_ .f32 := constant S_ .f32 0x7F800000#32
  let main_v63 : FVec F S2x256 .f32 := broadcastInDim S2x256 ![] bcast_S_S2x256 main_cst_24
  let main_v64 : IVec S2x256 1 := cmpf .olt main_v62 main_v63
  let main_c_25 : IVec S_ 1 := constantI S_ 1 1#1
  let main_v65 : IVec S_ 1 := (fun x v => Host.reduce IntOp.andi x v reducesTo_S2x256_S_d0_1 h_S_) main_v64 main_c_25
  let main_v66 : IVec S_ 1 := andi main_v61 main_v65
  let main_v67 : FVec F S2 .f32 := Host.absf main_arg14
  fn_part4 (F := F) main_arg15 main_arg16 main_arg17 main_arg18 main_arg19 main_arg20 main_v66 main_v67

def fn_part2 {F : FTy → Type} [FloatOps F] (main_arg7 : FVec F S256 .f32) (main_arg8 : FVec F S_ .f32) (main_arg9 : FVec F S256x256 .f32) (main_arg10 : FVec F S256 .f32) (main_arg11 : FVec F S_ .f32) (main_arg12 : FVec F S2x256x256 .f32) (main_arg13 : FVec F S2x256 .f32) (main_arg14 : FVec F S2 .f32) (main_arg15 : FVec F S2x256x256 .f32) (main_arg16 : FVec F S2x256 .f32) (main_arg17 : FVec F S2 .f32) (main_arg18 : FVec F S2x256x256 .f32) (main_arg19 : FVec F S2x256 .f32) (main_arg20 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S256x256 .f32 := Host.absf main_arg9
  let main_cst_16 : FVec F S_ .f32 := constant S_ .f32 0x7F800000#32
  let main_v44 : FVec F S256x256 .f32 := broadcastInDim S256x256 ![] bcast_S_S256x256 main_cst_16
  let main_v45 : IVec S256x256 1 := cmpf .olt main_v43 main_v44
  let main_c_17 : IVec S_ 1 := constantI S_ 1 1#1
  let main_v46 : IVec S_ 1 := (fun x v => Host.reduce IntOp.andi x v reducesTo_S256x256_S_d0_1 h_S_) main_v45 main_c_17
  let main_v47 : IVec S_ 1 := andi main_v42 main_v46
  let main_v48 : FVec F S256 .f32 := Host.absf main_arg10
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg11 main_arg12 main_arg13 main_arg14 main_arg15 main_arg16 main_arg17 main_arg18 main_arg19 main_arg20 main_v47 main_v50

def fn_part1 {F : FTy → Type} [FloatOps F] (main_arg4 : FVec F S8192x8192 .f32) (main_arg5 : FVec F S2048x2048 .f32) (main_arg6 : FVec F S256x256 .f32) (main_arg7 : FVec F S256 .f32) (main_arg8 : FVec F S_ .f32) (main_arg9 : FVec F S256x256 .f32) (main_arg10 : FVec F S256 .f32) (main_arg11 : FVec F S_ .f32) (main_arg12 : FVec F S2x256x256 .f32) (main_arg13 : FVec F S2x256 .f32) (main_arg14 : FVec F S2 .f32) (main_arg15 : FVec F S2x256x256 .f32) (main_arg16 : FVec F S2x256 .f32) (main_arg17 : FVec F S2 .f32) (main_arg18 : FVec F S2x256x256 .f32) (main_arg19 : FVec F S2x256 .f32) (main_arg20 : FVec F S2 .f32) (main_v13 : IVec S_ 1) (main_v16 : IVec S16384x8192 1) : IVec S_ 1 :=
  let main_c_5 : IVec S_ 1 := constantI S_ 1 1#1
  let main_v17 : IVec S_ 1 := (fun x v => Host.reduce IntOp.andi x v reducesTo_S16384x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x256 .f32) (main_arg1 : FVec F S6144x256 .f32) (main_arg2 : FVec F S2048x256 .f32) (main_arg3 : FVec F S16384x8192 .f32) (main_arg4 : FVec F S8192x8192 .f32) (main_arg5 : FVec F S2048x2048 .f32) (main_arg6 : FVec F S256x256 .f32) (main_arg7 : FVec F S256 .f32) (main_arg8 : FVec F S_ .f32) (main_arg9 : FVec F S256x256 .f32) (main_arg10 : FVec F S256 .f32) (main_arg11 : FVec F S_ .f32) (main_arg12 : FVec F S2x256x256 .f32) (main_arg13 : FVec F S2x256 .f32) (main_arg14 : FVec F S2 .f32) (main_arg15 : FVec F S2x256x256 .f32) (main_arg16 : FVec F S2x256 .f32) (main_arg17 : FVec F S2 .f32) (main_arg18 : FVec F S2x256x256 .f32) (main_arg19 : FVec F S2x256 .f32) (main_arg20 : FVec F S2 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S6144x256 .f32 := Host.absf main_arg1
  let main_cst_0 : FVec F S_ .f32 := constant S_ .f32 0x7F800000#32
  let main_v5 : FVec F S6144x256 .f32 := broadcastInDim S6144x256 ![] bcast_S_S6144x256 main_cst_0
  let main_v6 : IVec S6144x256 1 := cmpf .olt main_v4 main_v5
  let main_c_1 : IVec S_ 1 := constantI S_ 1 1#1
  let main_v7 : IVec S_ 1 := (fun x v => Host.reduce IntOp.andi x v reducesTo_S6144x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S16384x8192 .f32 := Host.absf main_arg3
  let main_cst_4 : FVec F S_ .f32 := constant S_ .f32 0x7F800000#32
  let main_v15 : FVec F S16384x8192 .f32 := broadcastInDim S16384x8192 ![] bcast_S_S16384x8192 main_cst_4
  let main_v16 : IVec S16384x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x256 : Shape := ⟨2, ![8192, 256]⟩
abbrev S6144x256 : Shape := ⟨2, ![6144, 256]⟩
abbrev S2048x256 : Shape := ⟨2, ![2048, 256]⟩
abbrev S16384x8192 : Shape := ⟨2, ![16384, 8192]⟩
abbrev S8192x8192 : Shape := ⟨2, ![8192, 8192]⟩
abbrev S2048x2048 : Shape := ⟨2, ![2048, 2048]⟩
abbrev S256x256 : Shape := ⟨2, ![256, 256]⟩
abbrev S256 : Shape := ⟨1, ![256]⟩
abbrev S_ : Shape := ⟨0, ![]⟩
abbrev S2x256x256 : Shape := ⟨3, ![2, 256, 256]⟩
abbrev S2x256 : Shape := ⟨2, ![2, 256]⟩
abbrev S2 : Shape := ⟨1, ![2]⟩
abbrev S8192x16384 : Shape := ⟨2, ![8192, 16384]⟩
abbrev S16384x256 : Shape := ⟨2, ![16384, 256]⟩
abbrev S1x256x256 : Shape := ⟨3, ![1, 256, 256]⟩
abbrev S1x256 : Shape := ⟨2, ![1, 256]⟩
abbrev S1 : Shape := ⟨1, ![1]⟩
abbrev S1x1 : Shape := ⟨2, ![1, 1]⟩
abbrev S2048x1 : Shape := ⟨2, ![2048, 1]⟩
abbrev S2048x255 : Shape := ⟨2, ![2048, 255]⟩
abbrev S2048 : Shape := ⟨1, ![2048]⟩
abbrev S16384x512 : Shape := ⟨2, ![16384, 512]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩
abbrev S1024x256 : Shape := ⟨2, ![1024, 256]⟩
abbrev S1024x1 : Shape := ⟨2, ![1024, 1]⟩
abbrev S1024x255 : Shape := ⟨2, ![1024, 255]⟩
abbrev S1024 : Shape := ⟨1, ![1024]⟩

abbrev nBuf : Space → Nat
  | .hbm => 152
  | .vmem => 109
  | .smem => 0
  | _ => 0

abbrev hbmTy0_0 (i : Nat) : BufTy := match i % 128 with
  | 0 => ⟨S8192x256, .f32⟩
  | 1 => ⟨S6144x256, .f32⟩
  | 2 => ⟨S2048x256, .f32⟩
  | 3 => ⟨S16384x8192, .f32⟩
  | 4 => ⟨S8192x8192, .f32⟩
  | 5 => ⟨S2048x2048, .f32⟩
  | 6 => ⟨S256x256, .f32⟩
  | 7 => ⟨S256, .f32⟩
  | 8 => ⟨S_, .f32⟩
  | 9 => ⟨S256x256, .f32⟩
  | 10 => ⟨S256, .f32⟩
  | 11 => ⟨S_, .f32⟩
  | 12 => ⟨S2x256x256, .f32⟩
  | 13 => ⟨S2x256, .f32⟩
  | 14 => ⟨S2, .f32⟩
  | 15 => ⟨S2x256x256, .f32⟩
  | 16 => ⟨S2x256, .f32⟩
  | 17 => ⟨S2, .f32⟩
  | 18 => ⟨S2x256x256, .f32⟩
  | 19 => ⟨S2x256, .f32⟩
  | 20 => ⟨S2, .f32⟩
  | 21 => ⟨S16384x8192, .bf16⟩
  | 22 => ⟨S8192x16384, .bf16⟩
  | 23 => ⟨S8192x8192, .bf16⟩
  | 24 => ⟨S2048x2048, .bf16⟩
  | 25 => ⟨S16384x256, .f32⟩
  | 26 => ⟨S1x256x256, .f32⟩
  | 27 => ⟨S256x256, .f32⟩
  | 28 => ⟨S1x256, .f32⟩
  | 29 => ⟨S256, .f32⟩
  | 30 => ⟨S1, .f32⟩
  | 31 => ⟨S_, .f32⟩
  | 32 => ⟨S2048x256, .bf16⟩
  | 33 => ⟨S256x256, .bf16⟩
  | 34 => ⟨S1x256, .f32⟩
  | 35 => ⟨S_, .f32⟩
  | 36 => ⟨S1x1, .f32⟩
  | 37 => ⟨S2048x256, .f32⟩
  | 38 => ⟨S2048x256, .bf16⟩
  | 39 => ⟨S2048x256, .f32⟩
  | 40 => ⟨S1x256x256, .f32⟩
  | 41 => ⟨S256x256, .f32⟩
  | 42 => ⟨S1x256, .f32⟩
  | 43 => ⟨S256, .f32⟩
  | 44 => ⟨S1, .f32⟩
  | 45 => ⟨S_, .f32⟩
  | 46 => ⟨S2048x256, .bf16⟩
  | 47 => ⟨S256x256, .bf16⟩
  | 48 => ⟨S1x256, .f32⟩
  | 49 => ⟨S_, .f32⟩
  | 50 => ⟨S1x1, .f32⟩
  | 51 => ⟨S2048x256, .f32⟩
  | 52 => ⟨S2048x256, .bf16⟩
  | 53 => ⟨S2048x256, .f32⟩
  | 54 => ⟨S16384x256, .bf16⟩
  | 55 => ⟨S256x256, .bf16⟩
  | 56 => ⟨S1x256, .f32⟩
  | 57 => ⟨S_, .f32⟩
  | 58 => ⟨S1x1, .f32⟩
  | 59 => ⟨S16384x256, .f32⟩
  | 60 => ⟨S16384x256, .f32⟩
  | 61 => ⟨S16384x256, .f32⟩
  | 62 => ⟨S_, .f32⟩
  | 63 => ⟨S16384x256, .f32⟩
  | 64 => ⟨S16384x256, .f32⟩
  | 65 => ⟨S_, .f32⟩
  | 66 => ⟨S16384x256, .f32⟩
  | 67 => ⟨S16384x256, .f32⟩
  | 68 => ⟨S16384x256, .f32⟩
  | 69 => ⟨S16384x256, .bf16⟩
  | 70 => ⟨S256x256, .bf16⟩
  | 71 => ⟨S1x256, .f32⟩
  | 72 => ⟨S_, .f32⟩
  | 73 => ⟨S1x1, .f32⟩
  | 74 => ⟨S16384x256, .f32⟩
  | 75 => ⟨S16384x256, .f32⟩
  | 76 => ⟨S16384x256, .f32⟩
  | 77 => ⟨S_, .f32⟩
  | 78 => ⟨S16384x256, .f32⟩
  | 79 => ⟨S16384x256, .f32⟩
  | 80 => ⟨S_, .f32⟩
  | 81 => ⟨S16384x256, .f32⟩
  | 82 => ⟨S16384x256, .f32⟩
  | 83 => ⟨S16384x256, .f32⟩
  | 84 => ⟨S1x256x256, .f32⟩
  | 85 => ⟨S256x256, .f32⟩
  | 86 => ⟨S1x256, .f32⟩
  | 87 => ⟨S256, .f32⟩
  | 88 => ⟨S1, .f32⟩
  | 89 => ⟨S_, .f32⟩
  | 90 => ⟨S16384x256, .bf16⟩
  | 91 => ⟨S256x256, .bf16⟩
  | 92 => ⟨S1x256, .f32⟩
  | 93 => ⟨S_, .f32⟩
  | 94 => ⟨S1x1, .f32⟩
  | 95 => ⟨S16384x256, .f32⟩
  | 96 => ⟨S16384x256, .bf16⟩
  | 97 => ⟨S8192x256, .f32⟩
  | 98 => ⟨S8192x256, .bf16⟩
  | 99 => ⟨S16384x256, .f32⟩
  | 100 => ⟨S1x256x256, .f32⟩
  | 101 => ⟨S256x256, .f32⟩
  | 102 => ⟨S1x256, .f32⟩
  | 103 => ⟨S256, .f32⟩
  | 104 => ⟨S1, .f32⟩
  | 105 => ⟨S_, .f32⟩
  | 106 => ⟨S16384x256, .bf16⟩
  | 107 => ⟨S256x256, .bf16⟩
  | 108 => ⟨S1x256, .f32⟩
  | 109 => ⟨S_, .f32⟩
  | 110 => ⟨S1x1, .f32⟩
  | 111 => ⟨S16384x256, .f32⟩
  | 112 => ⟨S16384x256, .bf16⟩
  | 113 => ⟨S8192x256, .f32⟩
  | 114 => ⟨S8192x256, .bf16⟩
  | 115 => ⟨S16384x256, .f32⟩
  | 116 => ⟨S16384x512, .f32⟩
  | 117 => ⟨S16384x512, .bf16⟩
  | 118 => ⟨S8192x512, .f32⟩
  | 119 => ⟨S8192x256, .f32⟩
  | 120 => ⟨S8192x256, .f32⟩
  | 121 => ⟨S1x256x256, .f32⟩
  | 122 => ⟨S256x256, .f32⟩
  | 123 => ⟨S1x256, .f32⟩
  | 124 => ⟨S256, .f32⟩
  | 125 => ⟨S1, .f32⟩
  | 126 => ⟨S_, .f32⟩
  | 127 => ⟨S8192x256, .bf16⟩
  | _ => ⟨S8192x256, .f32⟩

abbrev hbmTy0_1 (i : Nat) : BufTy := match i % 128 with
  | 0 => ⟨S256x256, .bf16⟩
  | 1 => ⟨S1x256, .f32⟩
  | 2 => ⟨S_, .f32⟩
  | 3 => ⟨S1x1, .f32⟩
  | 4 => ⟨S8192x256, .f32⟩
  | 5 => ⟨S8192x256, .bf16⟩
  | 6 => ⟨S8192x256, .f32⟩
  | 7 => ⟨S1x256x256, .f32⟩
  | 8 => ⟨S256x256, .f32⟩
  | 9 => ⟨S1x256, .f32⟩
  | 10 => ⟨S256, .f32⟩
  | 11 => ⟨S1, .f32⟩
  | 12 => ⟨S_, .f32⟩
  | 13 => ⟨S8192x256, .bf16⟩
  | 14 => ⟨S256x256, .bf16⟩
  | 15 => ⟨S1x256, .f32⟩
  | 16 => ⟨S_, .f32⟩
  | 17 => ⟨S1x1, .f32⟩
  | 18 => ⟨S8192x256, .f32⟩
  | 19 => ⟨S8192x256, .bf16⟩
  | 20 => ⟨S8192x256, .f32⟩
  | 21 => ⟨S8192x256, .f32⟩
  | 22 => ⟨S6144x256, .f32⟩
  | 23 => ⟨S2048x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S256x256, .bf16⟩
  | .local _ .vmem, ⟨2, _⟩ => ⟨S1x256, .f32⟩
  | .local _ .vmem, ⟨3, _⟩ => ⟨S1x1, .f32⟩
  | .local _ .vmem, ⟨4, _⟩ => ⟨S2048x256, .f32⟩
  | .local _ .vmem, ⟨5, _⟩ => ⟨S2048x2048, .bf16⟩
  | .local _ .vmem, ⟨6, _⟩ => ⟨S2048x256, .bf16⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S256x256, .bf16⟩
  | .local _ .vmem, ⟨11, _⟩ => ⟨S1x256, .f32⟩
  | .local _ .vmem, ⟨12, _⟩ => ⟨S1x1, .f32⟩
  | .local _ .vmem, ⟨13, _⟩ => ⟨S2048x256, .f32⟩
  | .local _ .vmem, ⟨14, _⟩ => ⟨S2048x2048, .bf16⟩
  | .local _ .vmem, ⟨15, _⟩ => ⟨S2048x256, .bf16⟩
  | .local _ .vmem, ⟨16, _⟩ => ⟨S2048x256, .f32⟩
  | .local _ .vmem, ⟨17, _⟩ => ⟨S2048x256, .f32⟩
  | .local _ .vmem, ⟨18, _⟩ => ⟨S2048x256, .bf16⟩
  | .local _ .vmem, ⟨19, _⟩ => ⟨S2048x256, .bf16⟩
  | .local _ .vmem, ⟨20, _⟩ => ⟨S256x256, .bf16⟩
  | .local _ .vmem, ⟨21, _⟩ => ⟨S1x256, .f32⟩
  | .local _ .vmem, ⟨22, _⟩ => ⟨S1x1, .f32⟩
  | .local _ .vmem, ⟨23, _⟩ => ⟨S2048x256, .f32⟩
  | .local _ .vmem, ⟨24, _⟩ => ⟨S2048x256, .f32⟩
  | .local _ .vmem, ⟨25, _⟩ => ⟨S2048x256, .bf16⟩
  | .local _ .vmem, ⟨26, _⟩ => ⟨S2048x256, .bf16⟩
  | .local _ .vmem, ⟨27, _⟩ => ⟨S256x256, .bf16⟩
  | .local _ .vmem, ⟨28, _⟩ => ⟨S1x256, .f32⟩
  | .local _ .vmem, ⟨29, _⟩ => ⟨S1x1, .f32⟩
  | .local _ .vmem, ⟨30, _⟩ => ⟨S2048x256, .f32⟩
  | .local _ .vmem, ⟨31, _⟩ => ⟨S2048x256, .f32⟩
  | .local _ .vmem, ⟨32, _⟩ => ⟨S2048x256, .bf16⟩
  | .local _ .vmem, ⟨33, _⟩ => ⟨S2048x256, .bf16⟩
  | .local _ .vmem, ⟨34, _⟩ => ⟨S256x256, .bf16⟩
  | .local _ .vmem, ⟨35, _⟩ => ⟨S1x256, .f32⟩
  | .local _ .vmem, ⟨36, _⟩ => ⟨S1x1, .f32⟩
  | .local _ .vmem, ⟨37, _⟩ => ⟨S2048x256, .f32⟩
  | .local _ .vmem, ⟨38, _⟩ => ⟨S2048x256, .f32⟩
  | .local _ .vmem, ⟨39, _⟩ => ⟨S2048x2048, .bf16⟩
  | .local _ .vmem, ⟨40, _⟩ => ⟨S2048x2048, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .f32⟩
  | .local _ .vmem, ⟨44, _⟩ => ⟨S2048x256, .f32⟩
  | .local _ .vmem, ⟨45, _⟩ => ⟨S2048x256, .f32⟩
  | .local _ .vmem, ⟨46, _⟩ => ⟨S2048x2048, .bf16⟩
  | .local _ .vmem, ⟨47, _⟩ => ⟨S2048x2048, .bf16⟩
  | .local _ .vmem, ⟨48, _⟩ => ⟨S2048x256, .bf16⟩
  | .local _ .vmem, ⟨49, _⟩ => ⟨S2048x256, .bf16⟩
  | .local _ .vmem, ⟨50, _⟩ => ⟨S2048x256, .f32⟩
  | .local _ .vmem, ⟨51, _⟩ => ⟨S2048x256, .f32⟩
  | .local _ .vmem, ⟨52, _⟩ => ⟨S2048x256, .f32⟩
  | .local _ .vmem, ⟨53, _⟩ => ⟨S2048x256, .bf16⟩
  | .local _ .vmem, ⟨54, _⟩ => ⟨S2048x256, .bf16⟩
  | .local _ .vmem, ⟨55, _⟩ => ⟨S256x256, .bf16⟩
  | .local _ .vmem, ⟨56, _⟩ => ⟨S1x256, .f32⟩
  | .local _ .vmem, ⟨57, _⟩ => ⟨S1x1, .f32⟩
  | .local _ .vmem, ⟨58, _⟩ => ⟨S2048x256, .f32⟩
  | .local _ .vmem, ⟨59, _⟩ => ⟨S2048x256, .f32⟩
  | .local _ .vmem, ⟨60, _⟩ => ⟨S2048x2048, .bf16⟩
  | .local _ .vmem, ⟨61, _⟩ => ⟨S2048x2048, .bf16⟩
  | .local _ .vmem, ⟨62, _⟩ => ⟨S2048x256, .bf16⟩
  | .local _ .vmem, ⟨63, _⟩ => ⟨S2048x256, .bf16⟩
  | .local _ .vmem, ⟨64, _⟩ => ⟨S2048x256, .f32⟩
  | .local _ .vmem, ⟨65, _⟩ => ⟨S2048x256, .f32⟩
  | .local _ .vmem, ⟨66, _⟩ => ⟨S2048x256, .f32⟩
  | .local _ .vmem, ⟨67, _⟩ => ⟨S2048x2048, .bf16⟩
  | .local _ .vmem, ⟨68, _⟩ => ⟨S2048x2048, .bf16⟩
  | .local _ .vmem, ⟨69, _⟩ => ⟨S2048x256, .bf16⟩
  | .local _ .vmem, ⟨70, _⟩ => ⟨S2048x256, .bf16⟩
  | .local _ .vmem, ⟨71, _⟩ => ⟨S2048x256, .f32⟩
  | .local _ .vmem, ⟨72, _⟩ => ⟨S2048x256, .f32⟩
  | .local _ .vmem, ⟨73, _⟩ => ⟨S2048x256, .f32⟩
  | .local _ .vmem, ⟨74, _⟩ => ⟨S1024x2048, .bf16⟩
  | .local _ .vmem, ⟨75, _⟩ => ⟨S1024x2048, .bf16⟩
  | .local _ .vmem, ⟨76, _⟩ => ⟨S2048x512, .bf16⟩
  | .local _ .vmem, ⟨77, _⟩ => ⟨S2048x512, .bf16⟩
  | .local _ .vmem, ⟨78, _⟩ => ⟨S1024x512, .f32⟩
  | .local _ .vmem, ⟨79, _⟩ => ⟨S1024x512, .f32⟩
  | .local _ .vmem, ⟨80, _⟩ => ⟨S1024x512, .f32⟩
  | .local _ .vmem, ⟨81, _⟩ => ⟨S2048x256, .bf16⟩
  | .local _ .vmem, ⟨82, _⟩ => ⟨S2048x256, .bf16⟩
  | .local _ .vmem, ⟨83, _⟩ => ⟨S256x256, .bf16⟩
  | .local _ .vmem, ⟨84, _⟩ => ⟨S1x256, .f32⟩
  | .local _ .vmem, ⟨85, _⟩ => ⟨S1x1, .f32⟩
  | .local _ .vmem, ⟨86, _⟩ => ⟨S2048x256, .f32⟩
  | .local _ .vmem, ⟨87, _⟩ => ⟨S2048x256, .f32⟩
  | .local _ .vmem, ⟨88, _⟩ => ⟨S2048x2048, .bf16⟩
  | .local _ .vmem, ⟨89, _⟩ => ⟨S2048x2048, .bf16⟩
  | .local _ .vmem, ⟨90, _⟩ => ⟨S2048x256, .bf16⟩
  | .local _ .vmem, ⟨91, _⟩ => ⟨S2048x256, .bf16⟩
  | .local _ .vmem, ⟨92, _⟩ => ⟨S2048x256, .f32⟩
  | .local _ .vmem, ⟨93, _⟩ => ⟨S2048x256, .f32⟩
  | .local _ .vmem, ⟨94, _⟩ => ⟨S2048x256, .f32⟩
  | .local _ .vmem, ⟨95, _⟩ => ⟨S2048x256, .bf16⟩
  | .local _ .vmem, ⟨96, _⟩ => ⟨S2048x256, .bf16⟩
  | .local _ .vmem, ⟨97, _⟩ => ⟨S256x256, .bf16⟩
  | .local _ .vmem, ⟨98, _⟩ => ⟨S1x256, .f32⟩
  | .local _ .vmem, ⟨99, _⟩ => ⟨S1x1, .f32⟩
  | .local _ .vmem, ⟨100, _⟩ => ⟨S2048x256, .f32⟩
  | .local _ .vmem, ⟨101, _⟩ => ⟨S2048x256, .f32⟩
  | .local _ .vmem, ⟨102, _⟩ => ⟨S2048x2048, .bf16⟩
  | .local _ .vmem, ⟨103, _⟩ => ⟨S2048x2048, .bf16⟩
  | .local _ .vmem, ⟨104, _⟩ => ⟨S2048x256, .bf16⟩
  | .local _ .vmem, ⟨105, _⟩ => ⟨S2048x256, .bf16⟩
  | .local _ .vmem, ⟨106, _⟩ => ⟨S2048x256, .f32⟩
  | .local _ .vmem, ⟨107, _⟩ => ⟨S2048x256, .f32⟩
  | .local _ .vmem, ⟨108, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst : Ref sig .tc := ⟨.hbm, 62, rfl⟩
abbrev main_v41 : Ref sig .tc := ⟨.hbm, 63, rfl⟩
abbrev main_v42 : Ref sig .tc := ⟨.hbm, 64, rfl⟩
abbrev main_cst_0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_1 : Ref sig .tc := ⟨.hbm, 77, rfl⟩
abbrev main_v54 : Ref sig .tc := ⟨.hbm, 78, rfl⟩
abbrev main_v55 : Ref sig .tc := ⟨.hbm, 79, rfl⟩
abbrev main_cst_2 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_scratch0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc4_stg4_0 : Ref sig .tc := ⟨.vmem, 23, rfl⟩
abbrev cc4_stg4_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg4_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg4_0 : Ref sig .tc := ⟨.vmem, 37, rfl⟩
abbrev cc6_stg4_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc7_scratch0 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc8_scratch0 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg4_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc10_scratch0 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg1_1 : Ref sig .tc := ⟨.vmem, 70, rfl⟩
abbrev cc11_stg2_0 : Ref sig .tc := ⟨.vmem, 71, rfl⟩
abbrev cc11_stg2_1 : Ref sig .tc := ⟨.vmem, 72, rfl⟩
abbrev cc11_scratch0 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg2_1 : Ref sig .tc := ⟨.vmem, 79, rfl⟩
abbrev cc12_scratch0 : Ref sig .tc := ⟨.vmem, 80, rfl⟩
abbrev cc13_stg0_0 : Ref sig .tc := ⟨.vmem, 81, rfl⟩
abbrev cc13_stg0_1 : Ref sig .tc := ⟨.vmem, 82, rfl⟩
abbrev cc13_stg1_0 : Ref sig .tc := ⟨.vmem, 83, rfl⟩
abbrev cc13_stg2_0 : Ref sig .tc := ⟨.vmem, 84, rfl⟩
abbrev cc13_stg3_0 : Ref sig .tc := ⟨.vmem, 85, rfl⟩
abbrev cc13_stg4_0 : Ref sig .tc := ⟨.vmem, 86, rfl⟩
abbrev cc13_stg4_1 : Ref sig .tc := ⟨.vmem, 87, rfl⟩
abbrev cc14_stg0_0 : Ref sig .tc := ⟨.vmem, 88, rfl⟩
abbrev cc14_stg0_1 : Ref sig .tc := ⟨.vmem, 89, rfl⟩
abbrev cc14_stg1_0 : Ref sig .tc := ⟨.vmem, 90, rfl⟩
abbrev cc14_stg1_1 : Ref sig .tc := ⟨.vmem, 91, rfl⟩
abbrev cc14_stg2_0 : Ref sig .tc := ⟨.vmem, 92, rfl⟩
abbrev cc14_stg2_1 : Ref sig .tc := ⟨.vmem, 93, rfl⟩
abbrev cc14_scratch0 : Ref sig .tc := ⟨.vmem, 94, rfl⟩
abbrev cc15_stg0_0 : Ref sig .tc := ⟨.vmem, 95, rfl⟩
abbrev cc15_stg0_1 : Ref sig .tc := ⟨.vmem, 96, rfl⟩
abbrev cc15_stg1_0 : Ref sig .tc := ⟨.vmem, 97, rfl⟩
abbrev cc15_stg2_0 : Ref sig .tc := ⟨.vmem, 98, rfl⟩
abbrev cc15_stg3_0 : Ref sig .tc := ⟨.vmem, 99, rfl⟩
abbrev cc15_stg4_0 : Ref sig .tc := ⟨.vmem, 100, rfl⟩
abbrev cc15_stg4_1 : Ref sig .tc := ⟨.vmem, 101, rfl⟩
abbrev cc16_stg0_0 : Ref sig .tc := ⟨.vmem, 102, rfl⟩
abbrev cc16_stg0_1 : Ref sig .tc := ⟨.vmem, 103, rfl⟩
abbrev cc16_stg1_0 : Ref sig .tc := ⟨.vmem, 104, rfl⟩
abbrev cc16_stg1_1 : Ref sig .tc := ⟨.vmem, 105, rfl⟩
abbrev cc16_stg2_0 : Ref sig .tc := ⟨.vmem, 106, rfl⟩
abbrev cc16_stg2_1 : Ref sig .tc := ⟨.vmem, 107, rfl⟩
abbrev cc16_scratch0 : Ref sig .tc := ⟨.vmem, 108, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc3_sem0_0 : DmaSem sig := 13
abbrev cc3_sem1_0 : DmaSem sig := 14
abbrev cc3_sem2_0 : DmaSem sig := 15
abbrev cc4_sem0_0 : DmaSem sig := 16
abbrev cc4_sem0_1 : DmaSem sig := 17
abbrev cc4_sem1_0 : DmaSem sig := 18
abbrev cc4_sem2_0 : DmaSem sig := 19
abbrev cc4_sem3_0 : DmaSem sig := 20
abbrev cc4_sem4_0 : DmaSem sig := 21
abbrev cc4_sem4_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem3_0 : DmaSem sig := 27
abbrev cc5_sem4_0 : DmaSem sig := 28
abbrev cc5_sem4_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem4_0 : DmaSem sig := 35
abbrev cc6_sem4_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem1_1 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem3_0 : DmaSem sig := 53
abbrev cc9_sem4_0 : DmaSem sig := 54
abbrev cc9_sem4_1 : DmaSem sig := 55
abbrev cc10_sem0_0 : DmaSem sig := 56
abbrev cc10_sem0_1 : DmaSem sig := 57
abbrev cc10_sem1_0 : DmaSem sig := 58
abbrev cc10_sem1_1 : DmaSem sig := 59
abbrev cc10_sem2_0 : DmaSem sig := 60
abbrev cc10_sem2_1 : DmaSem sig := 61
abbrev cc11_sem0_0 : DmaSem sig := 62
abbrev cc11_sem0_1 : DmaSem sig := 63
abbrev cc11_sem1_0 : DmaSem sig := 64
abbrev cc11_sem1_1 : DmaSem sig := 65
abbrev cc11_sem2_0 : DmaSem sig := 66
abbrev cc11_sem2_1 : DmaSem sig := 67
abbrev cc12_sem0_0 : DmaSem sig := 68
abbrev cc12_sem0_1 : DmaSem sig := 69
abbrev cc12_sem1_0 : DmaSem sig := 70
abbrev cc12_sem1_1 : DmaSem sig := 71
abbrev cc12_sem2_0 : DmaSem sig := 72
abbrev cc12_sem2_1 : DmaSem sig := 73
abbrev cc13_sem0_0 : DmaSem sig := 74
abbrev cc13_sem0_1 : DmaSem sig := 75
abbrev cc13_sem1_0 : DmaSem sig := 76
abbrev cc13_sem2_0 : DmaSem sig := 77
abbrev cc13_sem3_0 : DmaSem sig := 78
abbrev cc13_sem4_0 : DmaSem sig := 79
abbrev cc13_sem4_1 : DmaSem sig := 80
abbrev cc14_sem0_0 : DmaSem sig := 81
abbrev cc14_sem0_1 : DmaSem sig := 82
abbrev cc14_sem1_0 : DmaSem sig := 83
abbrev cc14_sem1_1 : DmaSem sig := 84
abbrev cc14_sem2_0 : DmaSem sig := 85
abbrev cc14_sem2_1 : DmaSem sig := 86
abbrev cc15_sem0_0 : DmaSem sig := 87
abbrev cc15_sem0_1 : DmaSem sig := 88
abbrev cc15_sem1_0 : DmaSem sig := 89
abbrev cc15_sem2_0 : DmaSem sig := 90
abbrev cc15_sem3_0 : DmaSem sig := 91
abbrev cc15_sem4_0 : DmaSem sig := 92
abbrev cc15_sem4_1 : DmaSem sig := 93
abbrev cc16_sem0_0 : DmaSem sig := 94
abbrev cc16_sem0_1 : DmaSem sig := 95
abbrev cc16_sem1_0 : DmaSem sig := 96
abbrev cc16_sem1_1 : DmaSem sig := 97
abbrev cc16_sem2_0 : DmaSem sig := 98
abbrev cc16_sem2_1 : DmaSem sig := 99

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev grid1 : Pipeline.Grid := ⟨2, ![1, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev grid3 : Pipeline.Grid := ⟨2, ![1, 1], ![false, false]⟩

def k3_cond2 (i : grid3.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S2048x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2048x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![4, 8], ![false, false]⟩

def k7_cond2 (i : grid7.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![8, 4], ![false, false]⟩

def k8_cond2 (i : grid8.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S2048x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2048x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨2, ![4, 8], ![false, false]⟩

def k10_cond2 (i : grid10.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S2048x256 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨2, ![8, 4], ![false, false]⟩

def k11_cond2 (i : grid11.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S2048x256 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S2048x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev grid12 : Pipeline.Grid := ⟨2, ![8, 8], ![false, false]⟩

def k12_cond2 (i : grid12.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1024x2048 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S2048x512 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1024x512 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2048x256 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S256x256 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2048x256 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨2, ![4, 4], ![false, false]⟩

def k14_cond2 (i : grid14.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S2048x2048 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S2048x256 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S2048x256 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2048x256 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S256x256 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S2048x256 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨2, ![4, 4], ![false, false]⟩

def k16_cond2 (i : grid16.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 2 → Memref sig .tc .vmem S2048x2048 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S2048x256 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S2048x256 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, false]

class Facts₀ : Prop where
  bitsLt_bf16_f32 : FTy.bits .bf16 < FTy.bits .f32
  transposes_S16384x8192_S8192x16384_1_0 : S16384x8192.Transposes [1, 0] S8192x16384
  concatenates_S8192x256_S6144x256_S2048x256_S16384x256_d0 : Shape.Concatenates [S8192x256, S6144x256, S2048x256] S16384x256 0
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2_S1_0 : S2.Slices ![0] S1
  shapeCasts_S1_S_ : S1.ShapeCasts S_
  shapeCasts_S256_S1x256 : S256.ShapeCasts S1x256
  shapeCasts_S_S1x1 : S_.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x1 : S2048x256.Slices ![0, 0] S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  slices_S2048x256_o0_1_S2048x255 : S2048x256.Slices ![0, 1] S2048x255
  reduces_S2048x255_S2048 : S2048x255.Reduces [1] S2048
  shapeCasts_S2048_S2048x1 : S2048.ShapeCasts S2048x1
  broadcasts_S2048x1_S2048x255 : S2048x1.Broadcasts S2048x255
  concatenates_S2048x1_S2048x255_S2048x256_d1 : Shape.Concatenates [S2048x1, S2048x255] S2048x256 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S2048x1_S2048x256 : S2048x1.Broadcasts S2048x256
  slices_S2x256x256_S1x256x256_1_0_0 : S2x256x256.Slices ![1, 0, 0] S1x256x256
  slices_S2x256_S1x256_1_0 : S2x256.Slices ![1, 0] S1x256
  slices_S2_S1_1 : S2.Slices ![1] S1
  bcast_S_S16384x256 : S_.BroadcastsInDim S16384x256 (![] : Fin 0 → Fin S16384x256.rank)
  concatenates_S16384x256_S16384x256_S16384x512_d1 : Shape.Concatenates [S16384x256, S16384x256] S16384x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S1024x512_o0_0_S1024x256 : S1024x512.Slices ![0, 0] S1024x256
  slices_S1024x256_o0_0_S1024x1 : S1024x256.Slices ![0, 0] S1024x1
  slices_S1024x256_o0_1_S1024x255 : S1024x256.Slices ![0, 1] S1024x255
  reduces_S1024x255_S1024 : S1024x255.Reduces [1] S1024
  shapeCasts_S1024_S1024x1 : S1024.ShapeCasts S1024x1
  broadcasts_S1024x1_S1024x256 : S1024x1.Broadcasts S1024x256
  slices_S1024x512_o0_256_S1024x256 : S1024x512.Slices ![0, 256] S1024x256
  concatenates_S1024x256_S1024x256_S1024x512_d1 : Shape.Concatenates [S1024x256, S1024x256] S1024x512 1
  slices_S8192x512_S8192x256_0_0 : S8192x512.Slices ![0, 0] S8192x256
  slices_S8192x512_S8192x256_0_256 : S8192x512.Slices ![0, 256] S8192x256
  slices_S16384x256_S8192x256_0_0 : S16384x256.Slices ![0, 0] S8192x256
  slices_S16384x256_S6144x256_8192_0 : S16384x256.Slices ![8192, 0] S6144x256
  slices_S16384x256_S2048x256_14336_0 : S16384x256.Slices ![14336, 0] S2048x256
  dot_S2048x256_S256x256_S2048x256_1_1_0_0_n_n_wf : DotDims.WF S2048x256 S256x256 S2048x256 [1] [1] [0] [0] [] []
  dot_S2048x2048_S2048x256_S2048x256_1_0_0_1_n_n_wf : DotDims.WF S2048x2048 S2048x256 S2048x256 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .bf16 = 32 ∨ (Rect.block (s := S2048x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .f32 = 32 ∨ (Rect.block (s := S2048x256) S2048x256.size (cc0_transform_4 i) (hinb0_4 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .bf16 = 32 ∨ (Rect.block (s := S2048x2048) S2048x2048.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .bf16 = 32 ∨ (Rect.block (s := S2048x256) S2048x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x256.size a
  hwx1_2 : ∀ i : grid1.Coords, EltTy.bits .f32 = 32 ∨ (Rect.block (s := S2048x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .bf16 = 32 ∨ (Rect.block (s := S2048x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S2048x256.size a
  hwx2_4 : ∀ i : grid2.Coords, EltTy.bits .f32 = 32 ∨ (Rect.block (s := S2048x256) S2048x256.size (cc2_transform_4 i) (hinb2_4 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S2048x2048.size a
  hwx3_0 : ∀ i : grid3.Coords, EltTy.bits .bf16 = 32 ∨ (Rect.block (s := S2048x2048) S2048x2048.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x256.size a
  hwx3_1 : ∀ i : grid3.Coords, EltTy.bits .bf16 = 32 ∨ (Rect.block (s := S2048x256) S2048x256.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S2048x256.size a
  hwx3_2 : ∀ i : grid3.Coords, EltTy.bits .f32 = 32 ∨ (Rect.block (s := S2048x256) S2048x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S16384x256.size a
  hwx4_0 : ∀ i : grid4.Coords, EltTy.bits .bf16 = 32 ∨ (Rect.block (s := S16384x256) S2048x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S16384x256.size a
  hwx4_4 : ∀ i : grid4.Coords, EltTy.bits .f32 = 32 ∨ (Rect.block (s := S16384x256) S2048x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S16384x256.size a
  hwx5_0 : ∀ i : grid5.Coords, EltTy.bits .bf16 = 32 ∨ (Rect.block (s := S16384x256) S2048x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x256.size a ≤ S16384x256.size a
  hwx5_4 : ∀ i : grid5.Coords, EltTy.bits .f32 = 32 ∨ (Rect.block (s := S16384x256) S2048x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S16384x256.size a
  hwx6_0 : ∀ i : grid6.Coords, EltTy.bits .bf16 = 32 ∨ (Rect.block (s := S16384x256) S2048x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .bf16 = 32 ∨ (Rect.block (s := S256x256) S256x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x256.size a ≤ S16384x256.size a
  hwx6_4 : ∀ i : grid6.Coords, EltTy.bits .f32 = 32 ∨ (Rect.block (s := S16384x256) S2048x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x2048.size a ≤ S8192x16384.size a
  hwx7_0 : ∀ i : grid7.Coords, EltTy.bits .bf16 = 32 ∨ (Rect.block (s := S8192x16384) S2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S16384x256.size a
  hwx7_1 : ∀ i : grid7.Coords, EltTy.bits .bf16 = 32 ∨ (Rect.block (s := S16384x256) S2048x256.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x256.size a ≤ S8192x256.size a
  hwx7_2 : ∀ i : grid7.Coords, EltTy.bits .f32 = 32 ∨ (Rect.block (s := S8192x256) S2048x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x2048.size a ≤ S16384x8192.size a
  hwx8_0 : ∀ i : grid8.Coords, EltTy.bits .bf16 = 32 ∨ (Rect.block (s := S16384x8192) S2048x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S8192x256.size a
  hwx8_1 : ∀ i : grid8.Coords, EltTy.bits .bf16 = 32 ∨ (Rect.block (s := S8192x256) S2048x256.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x256.size a ≤ S16384x256.size a
  hwx8_2 : ∀ i : grid8.Coords, EltTy.bits .f32 = 32 ∨ (Rect.block (s := S16384x256) S2048x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x256.size a ≤ S16384x256.size a
  hwx9_0 : ∀ i : grid9.Coords, EltTy.bits .bf16 = 32 ∨ (Rect.block (s := S16384x256) S2048x256.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .bf16 = 32 ∨ (Rect.block (s := S256x256) S256x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1.size a ≤ S1x1.size a
  hwx9_3 : ∀ i : grid9.Coords, EltTy.bits .f32 = 32 ∨ (Rect.block (s := S1x1) S1x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x256.size a ≤ S16384x256.size a
  hwx9_4 : ∀ i : grid9.Coords, EltTy.bits .f32 = 32 ∨ (Rect.block (s := S16384x256) S2048x256.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x2048.size a ≤ S8192x16384.size a
  hwx10_0 : ∀ i : grid10.Coords, EltTy.bits .bf16 = 32 ∨ (Rect.block (s := S8192x16384) S2048x2048.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048x256.size a ≤ S16384x256.size a
  hwx10_1 : ∀ i : grid10.Coords, EltTy.bits .bf16 = 32 ∨ (Rect.block (s := S16384x256) S2048x256.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x256.size a ≤ S8192x256.size a
  hwx10_2 : ∀ i : grid10.Coords, EltTy.bits .f32 = 32 ∨ (Rect.block (s := S8192x256) S2048x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x2048.size a ≤ S16384x8192.size a
  hwx11_0 : ∀ i : grid11.Coords, EltTy.bits .bf16 = 32 ∨ (Rect.block (s := S16384x8192) S2048x2048.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x256.size a ≤ S8192x256.size a
  hwx11_1 : ∀ i : grid11.Coords, EltTy.bits .bf16 = 32 ∨ (Rect.block (s := S8192x256) S2048x256.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x256.size a ≤ S16384x256.size a
  hwx11_2 : ∀ i : grid11.Coords, EltTy.bits .f32 = 32 ∨ (Rect.block (s := S16384x256) S2048x256.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x2048.size a ≤ S8192x16384.size a
  hwx12_0 : ∀ i : grid12.Coords, EltTy.bits .bf16 = 32 ∨ (Rect.block (s := S8192x16384) S1024x2048.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2048x512.size a ≤ S16384x512.size a
  hwx12_1 : ∀ i : grid12.Coords, EltTy.bits .bf16 = 32 ∨ (Rect.block (s := S16384x512) S2048x512.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x512.size a ≤ S8192x512.size a
  hwx12_2 : ∀ i : grid12.Coords, EltTy.bits .f32 = 32 ∨ (Rect.block (s := S8192x512) S1024x512.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S8192x256.size a
  hwx13_0 : ∀ i : grid13.Coords, EltTy.bits .bf16 = 32 ∨ (Rect.block (s := S8192x256) S2048x256.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S256x256.size a ≤ S256x256.size a
  hwx13_1 : ∀ i : grid13.Coords, EltTy.bits .bf16 = 32 ∨ (Rect.block (s := S256x256) S256x256.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x1.size a ≤ S1x1.size a
  hwx13_3 : ∀ i : grid13.Coords, EltTy.bits .f32 = 32 ∨ (Rect.block (s := S1x1) S1x1.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2048x256.size a ≤ S8192x256.size a
  hwx13_4 : ∀ i : grid13.Coords, EltTy.bits .f32 = 32 ∨ (Rect.block (s := S8192x256) S2048x256.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2048x2048.size a ≤ S8192x8192.size a
  hwx14_0 : ∀ i : grid14.Coords, EltTy.bits .bf16 = 32 ∨ (Rect.block (s := S8192x8192) S2048x2048.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2048x256.size a ≤ S8192x256.size a
  hwx14_1 : ∀ i : grid14.Coords, EltTy.bits .bf16 = 32 ∨ (Rect.block (s := S8192x256) S2048x256.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2048x256.size a ≤ S8192x256.size a
  hwx14_2 : ∀ i : grid14.Coords, EltTy.bits .f32 = 32 ∨ (Rect.block (s := S8192x256) S2048x256.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2048x256.size a ≤ S8192x256.size a
  hwx15_0 : ∀ i : grid15.Coords, EltTy.bits .bf16 = 32 ∨ (Rect.block (s := S8192x256) S2048x256.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S256x256.size a ≤ S256x256.size a
  hwx15_1 : ∀ i : grid15.Coords, EltTy.bits .bf16 = 32 ∨ (Rect.block (s := S256x256) S256x256.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x1.size a ≤ S1x1.size a
  hwx15_3 : ∀ i : grid15.Coords, EltTy.bits .f32 = 32 ∨ (Rect.block (s := S1x1) S1x1.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S2048x256.size a ≤ S8192x256.size a
  hwx15_4 : ∀ i : grid15.Coords, EltTy.bits .f32 = 32 ∨ (Rect.block (s := S8192x256) S2048x256.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2048x2048.size a ≤ S8192x8192.size a
  hwx16_0 : ∀ i : grid16.Coords, EltTy.bits .bf16 = 32 ∨ (Rect.block (s := S8192x8192) S2048x2048.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2048x256.size a ≤ S8192x256.size a
  hwx16_1 : ∀ i : grid16.Coords, EltTy.bits .bf16 = 32 ∨ (Rect.block (s := S8192x256) S2048x256.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2048x256.size a ≤ S8192x256.size a
  hwx16_2 : ∀ i : grid16.Coords, EltTy.bits .f32 = 32 ∨ (Rect.block (s := S8192x256) S2048x256.size (cc16_transform_2 i) (hinb16_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v11) S2048x256.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2048x256.size cc0_transform_4 reads0_4 true false 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S2048x2048.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2048x256.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v25) S2048x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S2048x256.size cc2_transform_4 reads2_4 true false 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3) S2048x2048.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2048x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2048x256.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v33) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v38) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v46) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S2048x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v65) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S2048x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v1) S2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S2048x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v0) S2048x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v73) S2048x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v74) S2048x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v81) S2048x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v82) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v83) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v85) S1x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v86) S2048x256.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v1) S2048x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v87) S2048x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v88) S2048x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v0) S2048x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v89) S2048x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v90) S2048x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v1) S1024x2048.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v92) S2048x512.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v93) S1024x512.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v102) S2048x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v103) S256x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v104) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v106) S1x1.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v107) S2048x256.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v2) S2048x2048.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v108) S2048x256.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v109) S2048x256.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v116) S2048x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v117) S256x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v118) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v120) S1x1.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v121) S2048x256.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v2) S2048x2048.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v122) S2048x256.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v123) S2048x256.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev idle16 : Fin 3 → grid16.Coords → Bool := fun | 0 => fun _ => false | 1 => fun _ => false | 2 => fun i => !(k16_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S6144x256 : Shape := ⟨2, ![6144, 256]⟩
abbrev S2048x256 : Shape := ⟨2, ![2048, 256]⟩
abbrev S16384x8192 : Shape := ⟨2, ![16384, 8192]⟩
abbrev S8192x8192 : Shape := ⟨2, ![8192, 8192]⟩
abbrev S2048x2048 : Shape := ⟨2, ![2048, 2048]⟩
abbrev S256x256 : Shape := ⟨2, ![256, 256]⟩
abbrev S256 : Shape := ⟨1, ![256]⟩
abbrev S_ : Shape := ⟨0, ![]⟩
abbrev S2x256x256 : Shape := ⟨3, ![2, 256, 256]⟩
abbrev S2x256 : Shape := ⟨2, ![2, 256]⟩
abbrev S2 : Shape := ⟨1, ![2]⟩
abbrev S16384x256 : Shape := ⟨2, ![16384, 256]⟩
abbrev S1x256x256 : Shape := ⟨3, ![1, 256, 256]⟩
abbrev S1x256 : Shape := ⟨2, ![1, 256]⟩
abbrev S1 : Shape := ⟨1, ![1]⟩
abbrev S2048x1 : Shape := ⟨2, ![2048, 1]⟩
abbrev S2048x255 : Shape := ⟨2, ![2048, 255]⟩
abbrev S2048 : Shape := ⟨1, ![2048]⟩
abbrev S16384x1 : Shape := ⟨2, ![16384, 1]⟩
abbrev S16384x255 : Shape := ⟨2, ![16384, 255]⟩
abbrev S16384 : Shape := ⟨1, ![16384]⟩
abbrev S8192x16384 : Shape := ⟨2, ![8192, 16384]⟩
abbrev S8192x1 : Shape := ⟨2, ![8192, 1]⟩
abbrev S8192x255 : Shape := ⟨2, ![8192, 255]⟩
abbrev S8192 : Shape := ⟨1, ![8192]⟩

abbrev nBuf : Space → Nat
  | .hbm => 539
  | .vmem => 0
  | .smem => 0
  | _ => 0

abbrev hbmTy0_0 (i : Nat) : BufTy := match i % 128 with
  | 0 => ⟨S8192x256, .f32⟩
  | 1 => ⟨S6144x256, .f32⟩
  | 2 => ⟨S2048x256, .f32⟩
  | 3 => ⟨S16384x8192, .f32⟩
  | 4 => ⟨S8192x8192, .f32⟩
  | 5 => ⟨S2048x2048, .f32⟩
  | 6 => ⟨S256x256, .f32⟩
  | 7 => ⟨S256, .f32⟩
  | 8 => ⟨S_, .f32⟩
  | 9 => ⟨S256x256, .f32⟩
  | 10 => ⟨S256, .f32⟩
  | 11 => ⟨S_, .f32⟩
  | 12 => ⟨S2x256x256, .f32⟩
  | 13 => ⟨S2x256, .f32⟩
  | 14 => ⟨S2, .f32⟩
  | 15 => ⟨S2x256x256, .f32⟩
  | 16 => ⟨S2x256, .f32⟩
  | 17 => ⟨S2, .f32⟩
  | 18 => ⟨S2x256x256, .f32⟩
  | 19 => ⟨S2x256, .f32⟩
  | 20 => ⟨S2, .f32⟩
  | 21 => ⟨S16384x256, .f32⟩
  | 22 => ⟨S1x256x256, .f32⟩
  | 23 => ⟨S256x256, .f32⟩
  | 24 => ⟨S1x256, .f32⟩
  | 25 => ⟨S256, .f32⟩
  | 26 => ⟨S1, .f32⟩
  | 27 => ⟨S_, .f32⟩
  | 28 => ⟨S256x256, .f32⟩
  | 29 => ⟨S2048x256, .f32⟩
  | 30 => ⟨S1x256, .f32⟩
  | 31 => ⟨S2048x256, .f32⟩
  | 32 => ⟨S2048x256, .f32⟩
  | 33 => ⟨S2048x1, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x255, .f32⟩
  | 49 => ⟨S2048x255, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x1, .f32⟩
  | 61 => ⟨S2048x1, .f32⟩
  | 62 => ⟨S2048x255, .f32⟩
  | 63 => ⟨S2048x255, .f32⟩
  | 64 => ⟨S2048x256, .f32⟩
  | 65 => ⟨S2048x256, .f32⟩
  | 66 => ⟨S2048x1, .f32⟩
  | 67 => ⟨S2048x1, .f32⟩
  | 68 => ⟨S2048x255, .f32⟩
  | 69 => ⟨S2048x255, .f32⟩
  | 70 => ⟨S_, .f32⟩
  | 71 => ⟨S2048, .f32⟩
  | 72 => ⟨S2048x1, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x1, .f32⟩
  | 79 => ⟨S2048x256, .f32⟩
  | 80 => ⟨S2048x256, .f32⟩
  | 81 => ⟨S1x256x256, .f32⟩
  | 82 => ⟨S256x256, .f32⟩
  | 83 => ⟨S1x256, .f32⟩
  | 84 => ⟨S256, .f32⟩
  | 85 => ⟨S1, .f32⟩
  | 86 => ⟨S_, .f32⟩
  | 87 => ⟨S256x256, .f32⟩
  | 88 => ⟨S2048x256, .f32⟩
  | 89 => ⟨S1x256, .f32⟩
  | 90 => ⟨S2048x256, .f32⟩
  | 91 => ⟨S2048x256, .f32⟩
  | 92 => ⟨S2048x1, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048x1, .f32⟩
  | 106 => ⟨S2048x1, .f32⟩
  | 107 => ⟨S2048x255, .f32⟩
  | 108 => ⟨S2048x255, .f32⟩
  | 109 => ⟨S_, .f32⟩
  | 110 => ⟨S2048, .f32⟩
  | 111 => ⟨S2048x1, .f32⟩
  | 112 => ⟨S_, .f32⟩
  | 113 => ⟨S2048x1, .f32⟩
  | 114 => ⟨S2048x1, .f32⟩
  | 115 => ⟨S2048x1, .f32⟩
  | 116 => ⟨S_, .f32⟩
  | 117 => ⟨S2048x1, .f32⟩
  | 118 => ⟨S2048x1, .f32⟩
  | 119 => ⟨S2048x1, .f32⟩
  | 120 => ⟨S2048x1, .f32⟩
  | 121 => ⟨S2048x255, .f32⟩
  | 122 => ⟨S2048x255, .f32⟩
  | 123 => ⟨S2048x256, .f32⟩
  | 124 => ⟨S2048x256, .f32⟩
  | 125 => ⟨S2048x1, .f32⟩
  | 126 => ⟨S2048x1, .f32⟩
  | 127 => ⟨S2048x255, .f32⟩
  | _ => ⟨S8192x256, .f32⟩

abbrev hbmTy0_1 (i : Nat) : BufTy := match i % 128 with
  | 0 => ⟨S2048x255, .f32⟩
  | 1 => ⟨S_, .f32⟩
  | 2 => ⟨S2048, .f32⟩
  | 3 => ⟨S2048x1, .f32⟩
  | 4 => ⟨S2048x1, .f32⟩
  | 5 => ⟨S2048x1, .f32⟩
  | 6 => ⟨S_, .f32⟩
  | 7 => ⟨S2048x1, .f32⟩
  | 8 => ⟨S2048x1, .f32⟩
  | 9 => ⟨S2048x1, .f32⟩
  | 10 => ⟨S2048x256, .f32⟩
  | 11 => ⟨S2048x256, .f32⟩
  | 12 => ⟨S256x256, .f32⟩
  | 13 => ⟨S16384x256, .f32⟩
  | 14 => ⟨S1x256, .f32⟩
  | 15 => ⟨S16384x256, .f32⟩
  | 16 => ⟨S16384x256, .f32⟩
  | 17 => ⟨S16384x1, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x255, .f32⟩
  | 33 => ⟨S16384x255, .f32⟩
  | 34 => ⟨S_, .f32⟩
  | 35 => ⟨S16384, .f32⟩
  | 36 => ⟨S16384x1, .f32⟩
  | 37 => ⟨S_, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x1, .f32⟩
  | 46 => ⟨S16384x255, .f32⟩
  | 47 => ⟨S16384x255, .f32⟩
  | 48 => ⟨S16384x256, .f32⟩
  | 49 => ⟨S16384x256, .f32⟩
  | 50 => ⟨S16384x256, .f32⟩
  | 51 => ⟨S_, .f32⟩
  | 52 => ⟨S16384x256, .f32⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S256x256, .f32⟩
  | 59 => ⟨S16384x256, .f32⟩
  | 60 => ⟨S1x256, .f32⟩
  | 61 => ⟨S16384x256, .f32⟩
  | 62 => ⟨S16384x256, .f32⟩
  | 63 => ⟨S16384x1, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x255, .f32⟩
  | 79 => ⟨S16384x255, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x1, .f32⟩
  | 92 => ⟨S16384x255, .f32⟩
  | 93 => ⟨S16384x255, .f32⟩
  | 94 => ⟨S16384x256, .f32⟩
  | 95 => ⟨S16384x256, .f32⟩
  | 96 => ⟨S16384x256, .f32⟩
  | 97 => ⟨S_, .f32⟩
  | 98 => ⟨S16384x256, .f32⟩
  | 99 => ⟨S16384x256, .f32⟩
  | 100 => ⟨S_, .f32⟩
  | 101 => ⟨S16384x256, .f32⟩
  | 102 => ⟨S16384x256, .f32⟩
  | 103 => ⟨S16384x256, .f32⟩
  | 104 => ⟨S1x256x256, .f32⟩
  | 105 => ⟨S256x256, .f32⟩
  | 106 => ⟨S1x256, .f32⟩
  | 107 => ⟨S256, .f32⟩
  | 108 => ⟨S1, .f32⟩
  | 109 => ⟨S_, .f32⟩
  | 110 => ⟨S256x256, .f32⟩
  | 111 => ⟨S16384x256, .f32⟩
  | 112 => ⟨S1x256, .f32⟩
  | 113 => ⟨S16384x256, .f32⟩
  | 114 => ⟨S16384x256, .f32⟩
  | 115 => ⟨S16384x1, .f32⟩
  | 116 => ⟨S16384x1, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S_, .f32⟩
  | _ => ⟨S8192x256, .f32⟩

abbrev hbmTy0_2 (i : Nat) : BufTy := match i % 128 with
  | 0 => ⟨S16384x1, .f32⟩
  | 1 => ⟨S16384x1, .f32⟩
  | 2 => ⟨S16384x255, .f32⟩
  | 3 => ⟨S16384x255, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1, .f32⟩
  | 16 => ⟨S16384x255, .f32⟩
  | 17 => ⟨S16384x255, .f32⟩
  | 18 => ⟨S16384x256, .f32⟩
  | 19 => ⟨S8192x16384, .f32⟩
  | 20 => ⟨S8192x256, .f32⟩
  | 21 => ⟨S8192x1, .f32⟩
  | 22 => ⟨S8192x1, .f32⟩
  | 23 => ⟨S8192x255, .f32⟩
  | 24 => ⟨S8192x255, .f32⟩
  | 25 => ⟨S_, .f32⟩
  | 26 => ⟨S8192, .f32⟩
  | 27 => ⟨S8192x1, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x256, .f32⟩
  | 35 => ⟨S8192x256, .f32⟩
  | 36 => ⟨S16384x256, .f32⟩
  | 37 => ⟨S16384x1, .f32⟩
  | 38 => ⟨S16384x1, .f32⟩
  | 39 => ⟨S16384x255, .f32⟩
  | 40 => ⟨S16384x255, .f32⟩
  | 41 => ⟨S_, .f32⟩
  | 42 => ⟨S16384, .f32⟩
  | 43 => ⟨S16384x1, .f32⟩
  | 44 => ⟨S16384x1, .f32⟩
  | 45 => ⟨S16384x1, .f32⟩
  | 46 => ⟨S_, .f32⟩
  | 47 => ⟨S16384x1, .f32⟩
  | 48 => ⟨S16384x1, .f32⟩
  | 49 => ⟨S16384x1, .f32⟩
  | 50 => ⟨S16384x256, .f32⟩
  | 51 => ⟨S16384x256, .f32⟩
  | 52 => ⟨S1x256x256, .f32⟩
  | 53 => ⟨S256x256, .f32⟩
  | 54 => ⟨S1x256, .f32⟩
  | 55 => ⟨S256, .f32⟩
  | 56 => ⟨S1, .f32⟩
  | 57 => ⟨S_, .f32⟩
  | 58 => ⟨S256x256, .f32⟩
  | 59 => ⟨S16384x256, .f32⟩
  | 60 => ⟨S1x256, .f32⟩
  | 61 => ⟨S16384x256, .f32⟩
  | 62 => ⟨S16384x256, .f32⟩
  | 63 => ⟨S16384x1, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x255, .f32⟩
  | 79 => ⟨S16384x255, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x1, .f32⟩
  | 92 => ⟨S16384x255, .f32⟩
  | 93 => ⟨S16384x255, .f32⟩
  | 94 => ⟨S16384x256, .f32⟩
  | 95 => ⟨S8192x16384, .f32⟩
  | 96 => ⟨S8192x256, .f32⟩
  | 97 => ⟨S8192x1, .f32⟩
  | 98 => ⟨S8192x1, .f32⟩
  | 99 => ⟨S8192x255, .f32⟩
  | 100 => ⟨S8192x255, .f32⟩
  | 101 => ⟨S_, .f32⟩
  | 102 => ⟨S8192, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x256, .f32⟩
  | 111 => ⟨S8192x256, .f32⟩
  | 112 => ⟨S16384x256, .f32⟩
  | 113 => ⟨S16384x1, .f32⟩
  | 114 => ⟨S16384x1, .f32⟩
  | 115 => ⟨S16384x255, .f32⟩
  | 116 => ⟨S16384x255, .f32⟩
  | 117 => ⟨S_, .f32⟩
  | 118 => ⟨S16384, .f32⟩
  | 119 => ⟨S16384x1, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S16384x1, .f32⟩
  | 126 => ⟨S16384x256, .f32⟩
  | 127 => ⟨S16384x256, .f32⟩
  | _ => ⟨S8192x256, .f32⟩

abbrev hbmTy0_3 (i : Nat) : BufTy := match i % 128 with
  | 0 => ⟨S8192x16384, .f32⟩
  | 1 => ⟨S8192x256, .f32⟩
  | 2 => ⟨S8192x1, .f32⟩
  | 3 => ⟨S8192x1, .f32⟩
  | 4 => ⟨S8192x255, .f32⟩
  | 5 => ⟨S8192x255, .f32⟩
  | 6 => ⟨S_, .f32⟩
  | 7 => ⟨S8192, .f32⟩
  | 8 => ⟨S8192x1, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x256, .f32⟩
  | 16 => ⟨S8192x256, .f32⟩
  | 17 => ⟨S8192x16384, .f32⟩
  | 18 => ⟨S8192x256, .f32⟩
  | 19 => ⟨S8192x1, .f32⟩
  | 20 => ⟨S8192x1, .f32⟩
  | 21 => ⟨S8192x255, .f32⟩
  | 22 => ⟨S8192x255, .f32⟩
  | 23 => ⟨S_, .f32⟩
  | 24 => ⟨S8192, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x256, .f32⟩
  | 33 => ⟨S8192x256, .f32⟩
  | 34 => ⟨S1x256x256, .f32⟩
  | 35 => ⟨S256x256, .f32⟩
  | 36 => ⟨S1x256, .f32⟩
  | 37 => ⟨S256, .f32⟩
  | 38 => ⟨S1, .f32⟩
  | 39 => ⟨S_, .f32⟩
  | 40 => ⟨S256x256, .f32⟩
  | 41 => ⟨S8192x256, .f32⟩
  | 42 => ⟨S1x256, .f32⟩
  | 43 => ⟨S8192x256, .f32⟩
  | 44 => ⟨S8192x256, .f32⟩
  | 45 => ⟨S8192x1, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x255, .f32⟩
  | 61 => ⟨S8192x255, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1, .f32⟩
  | 73 => ⟨S8192x1, .f32⟩
  | 74 => ⟨S8192x255, .f32⟩
  | 75 => ⟨S8192x255, .f32⟩
  | 76 => ⟨S8192x256, .f32⟩
  | 77 => ⟨S8192x256, .f32⟩
  | 78 => ⟨S8192x1, .f32⟩
  | 79 => ⟨S8192x1, .f32⟩
  | 80 => ⟨S8192x255, .f32⟩
  | 81 => ⟨S8192x255, .f32⟩
  | 82 => ⟨S_, .f32⟩
  | 83 => ⟨S8192, .f32⟩
  | 84 => ⟨S8192x1, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1, .f32⟩
  | 91 => ⟨S8192x256, .f32⟩
  | 92 => ⟨S8192x256, .f32⟩
  | 93 => ⟨S1x256x256, .f32⟩
  | 94 => ⟨S256x256, .f32⟩
  | 95 => ⟨S1x256, .f32⟩
  | 96 => ⟨S256, .f32⟩
  | 97 => ⟨S1, .f32⟩
  | 98 => ⟨S_, .f32⟩
  | 99 => ⟨S256x256, .f32⟩
  | 100 => ⟨S8192x256, .f32⟩
  | 101 => ⟨S1x256, .f32⟩
  | 102 => ⟨S8192x256, .f32⟩
  | 103 => ⟨S8192x256, .f32⟩
  | 104 => ⟨S8192x1, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x255, .f32⟩
  | 120 => ⟨S8192x255, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x1, .f32⟩
  | _ => ⟨S8192x256, .f32⟩

abbrev hbmTy0_4 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x1, .f32⟩
  | 5 => ⟨S8192x255, .f32⟩
  | 6 => ⟨S8192x255, .f32⟩
  | 7 => ⟨S8192x256, .f32⟩
  | 8 => ⟨S8192x256, .f32⟩
  | 9 => ⟨S8192x1, .f32⟩
  | 10 => ⟨S8192x1, .f32⟩
  | 11 => ⟨S8192x255, .f32⟩
  | 12 => ⟨S8192x255, .f32⟩
  | 13 => ⟨S_, .f32⟩
  | 14 => ⟨S8192, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x256, .f32⟩
  | 23 => ⟨S8192x256, .f32⟩
  | 24 => ⟨S8192x256, .f32⟩
  | 25 => ⟨S6144x256, .f32⟩
  | 26 => ⟨S2048x256, .f32⟩
  | _ => ⟨S8192x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_9 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_10 : Ref sig .tc := ⟨.hbm, 109, rfl⟩
abbrev main_v77 : Ref sig .tc := ⟨.hbm, 110, rfl⟩
abbrev main_v78 : Ref sig .tc := ⟨.hbm, 111, rfl⟩
abbrev main_cst_11 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_12 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_13 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_14 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_15 : Ref sig .tc := ⟨.hbm, 148, rfl⟩
abbrev main_v111 : Ref sig .tc := ⟨.hbm, 149, rfl⟩
abbrev main_v112 : Ref sig .tc := ⟨.hbm, 150, rfl⟩
abbrev main_cst_16 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_17 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_18 : Ref sig .tc := ⟨.hbm, 162, rfl⟩
abbrev main_v122 : Ref sig .tc := ⟨.hbm, 163, rfl⟩
abbrev main_v123 : Ref sig .tc := ⟨.hbm, 164, rfl⟩
abbrev main_cst_19 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_20 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_21 : Ref sig .tc := ⟨.hbm, 179, rfl⟩
abbrev main_v136 : Ref sig .tc := ⟨.hbm, 180, rfl⟩
abbrev main_v137 : Ref sig .tc := ⟨.hbm, 181, rfl⟩
abbrev main_cst_22 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_23 : Ref sig .tc := ⟨.hbm, 194, rfl⟩
abbrev main_v149 : Ref sig .tc := ⟨.hbm, 195, rfl⟩
abbrev main_v150 : Ref sig .tc := ⟨.hbm, 196, rfl⟩
abbrev main_cst_24 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_25 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_26 : Ref sig .tc := ⟨.hbm, 208, rfl⟩
abbrev main_v160 : Ref sig .tc := ⟨.hbm, 209, rfl⟩
abbrev main_v161 : Ref sig .tc := ⟨.hbm, 210, rfl⟩
abbrev main_cst_27 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_28 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_29 : Ref sig .tc := ⟨.hbm, 225, rfl⟩
abbrev main_v174 : Ref sig .tc := ⟨.hbm, 226, rfl⟩
abbrev main_v175 : Ref sig .tc := ⟨.hbm, 227, rfl⟩
abbrev main_cst_30 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_31 : Ref sig .tc := ⟨.hbm, 246, rfl⟩
abbrev main_v193 : Ref sig .tc := ⟨.hbm, 247, rfl⟩
abbrev main_v194 : Ref sig .tc := ⟨.hbm, 248, rfl⟩
abbrev main_cst_32 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_33 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_34 : Ref sig .tc := ⟨.hbm, 260, rfl⟩
abbrev main_v204 : Ref sig .tc := ⟨.hbm, 261, rfl⟩
abbrev main_v205 : Ref sig .tc := ⟨.hbm, 262, rfl⟩
abbrev main_cst_35 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_36 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_cst_37 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_38 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_cst_39 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_40 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_cst_41 : Ref sig .tc := ⟨.hbm, 322, rfl⟩
abbrev main_v259 : Ref sig .tc := ⟨.hbm, 323, rfl⟩
abbrev main_v260 : Ref sig .tc := ⟨.hbm, 324, rfl⟩
abbrev main_cst_42 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_cst_43 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_cst_44 : Ref sig .tc := ⟨.hbm, 336, rfl⟩
abbrev main_v270 : Ref sig .tc := ⟨.hbm, 337, rfl⟩
abbrev main_v271 : Ref sig .tc := ⟨.hbm, 338, rfl⟩
abbrev main_cst_45 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_cst_46 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_cst_47 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_cst_48 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_cst_49 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_cst_50 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_cst_51 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_cst_52 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_cst_53 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_cst_54 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_cst_55 : Ref sig .tc := ⟨.hbm, 432, rfl⟩
abbrev main_v355 : Ref sig .tc := ⟨.hbm, 433, rfl⟩
abbrev main_v356 : Ref sig .tc := ⟨.hbm, 434, rfl⟩
abbrev main_cst_56 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_cst_57 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_cst_58 : Ref sig .tc := ⟨.hbm, 446, rfl⟩
abbrev main_v366 : Ref sig .tc := ⟨.hbm, 447, rfl⟩
abbrev main_v367 : Ref sig .tc := ⟨.hbm, 448, rfl⟩
abbrev main_cst_59 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_cst_60 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_v382 : Ref sig .tc := ⟨.hbm, 465, rfl⟩
abbrev main_cst_61 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_v386 : Ref sig .tc := ⟨.hbm, 470, rfl⟩
abbrev main_cst_62 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩
abbrev main_v404 : Ref sig .tc := ⟨.hbm, 489, rfl⟩
abbrev main_v405 : Ref sig .tc := ⟨.hbm, 490, rfl⟩
abbrev main_cst_63 : Ref sig .tc := ⟨.hbm, 491, rfl⟩
abbrev main_v406 : Ref sig .tc := ⟨.hbm, 492, rfl⟩
abbrev main_v407 : Ref sig .tc := ⟨.hbm, 493, rfl⟩
abbrev main_cst_64 : Ref sig .tc := ⟨.hbm, 494, rfl⟩
abbrev main_v408 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_v412 : Ref sig .tc := ⟨.hbm, 499, rfl⟩
abbrev main_cst_65 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_cst_66 : Ref sig .tc := ⟨.hbm, 505, rfl⟩
abbrev main_v417 : Ref sig .tc := ⟨.hbm, 506, rfl⟩
abbrev main_v418 : Ref sig .tc := ⟨.hbm, 507, rfl⟩
abbrev main_cst_67 : Ref sig .tc := ⟨.hbm, 508, rfl⟩
abbrev main_v419 : Ref sig .tc := ⟨.hbm, 509, rfl⟩
abbrev main_v420 : Ref sig .tc := ⟨.hbm, 510, rfl⟩
abbrev main_v421 : Ref sig .tc := ⟨.hbm, 511, rfl⟩
abbrev main_cst_68 : Ref sig .tc := ⟨.hbm, 512, rfl⟩
abbrev main_v422 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_v427 : Ref sig .tc := ⟨.hbm, 518, rfl⟩
abbrev main_v428 : Ref sig .tc := ⟨.hbm, 519, rfl⟩
abbrev main_v429 : Ref sig .tc := ⟨.hbm, 520, rfl⟩
abbrev main_v430 : Ref sig .tc := ⟨.hbm, 521, rfl⟩
abbrev main_v431 : Ref sig .tc := ⟨.hbm, 522, rfl⟩
abbrev main_v432 : Ref sig .tc := ⟨.hbm, 523, rfl⟩
abbrev main_v433 : Ref sig .tc := ⟨.hbm, 524, rfl⟩
abbrev main_cst_69 : Ref sig .tc := ⟨.hbm, 525, rfl⟩
abbrev main_v434 : Ref sig .tc := ⟨.hbm, 526, rfl⟩
abbrev main_v435 : Ref sig .tc := ⟨.hbm, 527, rfl⟩
abbrev main_v436 : Ref sig .tc := ⟨.hbm, 528, rfl⟩
abbrev main_v437 : Ref sig .tc := ⟨.hbm, 529, rfl⟩
abbrev main_cst_70 : Ref sig .tc := ⟨.hbm, 530, rfl⟩
abbrev main_v438 : Ref sig .tc := ⟨.hbm, 531, rfl⟩
abbrev main_v439 : Ref sig .tc := ⟨.hbm, 532, rfl⟩
abbrev main_v440 : Ref sig .tc := ⟨.hbm, 533, rfl⟩
abbrev main_v441 : Ref sig .tc := ⟨.hbm, 534, rfl⟩
abbrev main_v442 : Ref sig .tc := ⟨.hbm, 535, rfl⟩
abbrev main_v443 : Ref sig .tc := ⟨.hbm, 536, rfl⟩
abbrev main_v444 : Ref sig .tc := ⟨.hbm, 537, rfl⟩
abbrev main_v445 : Ref sig .tc := ⟨.hbm, 538, rfl⟩

abbrev nD : Nat := 1
abbrev τ : Topo := Topo.v7x

variable {F : FTy → Type} [FloatOps F]

class Facts₀ : Prop where
  concatenates_S8192x256_S6144x256_S2048x256_S16384x256_d0 : Shape.Concatenates [S8192x256, S6144x256, S2048x256] S16384x256 0
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2_S1_0 : S2.Slices ![0] S1
  shapeCasts_S1_S_ : S1.ShapeCasts S_
  transposes_S256x256_S256x256_1_0 : S256x256.Transposes [1, 0] S256x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  slices_S2048x256_S2048x1_0_0 : S2048x256.Slices ![0, 0] S2048x1
  bcast_S_S2048x1 : S_.BroadcastsInDim S2048x1 (![] : Fin 0 → Fin S2048x1.rank)
  slices_S2048x256_S2048x255_0_1 : S2048x256.Slices ![0, 1] S2048x255
  reducesTo_S2048x255_S2048_d1 : S2048x255.ReducesTo [1] S2048
  h_S_ : 0 < S_.numel
  bcast_S2048_S2048x1_0 : S2048.BroadcastsInDim S2048x1 (![0] : Fin 1 → Fin S2048x1.rank)
  bcast_S2048x1_S2048x255_0_1 : S2048x1.BroadcastsInDim S2048x255 (![0, 1] : Fin 2 → Fin S2048x255.rank)
  concatenates_S2048x1_S2048x255_S2048x256_d1 : Shape.Concatenates [S2048x1, S2048x255] S2048x256 1
  bcast_S2048x1_S2048x256_0_1 : S2048x1.BroadcastsInDim S2048x256 (![0, 1] : Fin 2 → Fin S2048x256.rank)
  slices_S2x256x256_S1x256x256_1_0_0 : S2x256x256.Slices ![1, 0, 0] S1x256x256
  slices_S2x256_S1x256_1_0 : S2x256.Slices ![1, 0] S1x256
  slices_S2_S1_1 : S2.Slices ![1] S1
  bcast_S1x256_S16384x256_0_1 : S1x256.BroadcastsInDim S16384x256 (![0, 1] : Fin 2 → Fin S16384x256.rank)
  slices_S16384x256_S16384x1_0_0 : S16384x256.Slices ![0, 0] S16384x1
  bcast_S_S16384x1 : S_.BroadcastsInDim S16384x1 (![] : Fin 0 → Fin S16384x1.rank)
  slices_S16384x256_S16384x255_0_1 : S16384x256.Slices ![0, 1] S16384x255
  reducesTo_S16384x255_S16384_d1 : S16384x255.ReducesTo [1] S16384
  bcast_S16384_S16384x1_0 : S16384.BroadcastsInDim S16384x1 (![0] : Fin 1 → Fin S16384x1.rank)
  bcast_S16384x1_S16384x255_0_1 : S16384x1.BroadcastsInDim S16384x255 (![0, 1] : Fin 2 → Fin S16384x255.rank)
  concatenates_S16384x1_S16384x255_S16384x256_d1 : Shape.Concatenates [S16384x1, S16384x255] S16384x256 1
  bcast_S_S16384x256 : S_.BroadcastsInDim S16384x256 (![] : Fin 0 → Fin S16384x256.rank)
  transposes_S16384x8192_S8192x16384_1_0 : S16384x8192.Transposes [1, 0] S8192x16384
  slices_S8192x256_S8192x1_0_0 : S8192x256.Slices ![0, 0] S8192x1
  slices_S8192x256_S8192x255_0_1 : S8192x256.Slices ![0, 1] S8192x255
  reducesTo_S8192x255_S8192_d1 : S8192x255.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S16384x1_S16384x256_0_1 : S16384x1.BroadcastsInDim S16384x256 (![0, 1] : Fin 2 → Fin S16384x256.rank)
  bcast_S1x256_S8192x256_0_1 : S1x256.BroadcastsInDim S8192x256 (![0, 1] : Fin 2 → Fin S8192x256.rank)
  bcast_S8192x1_S8192x255_0_1 : S8192x1.BroadcastsInDim S8192x255 (![0, 1] : Fin 2 → Fin S8192x255.rank)
  concatenates_S8192x1_S8192x255_S8192x256_d1 : Shape.Concatenates [S8192x1, S8192x255] S8192x256 1
  slices_S16384x256_S8192x256_0_0 : S16384x256.Slices ![0, 0] S8192x256
  slices_S16384x256_S6144x256_8192_0 : S16384x256.Slices ![8192, 0] S6144x256
  slices_S16384x256_S2048x256_14336_0 : S16384x256.Slices ![14336, 0] S2048x256
  dot_S2048x256_S256x256_S2048x256_1_0_0_1_n_n_wf : DotDims.WF S2048x256 S256x256 S2048x256 [1] [0] [0] [1] [] []
  dot_S2048x2048_S2048x256_S2048x256_1_0_0_1_n_n_wf : DotDims.WF S2048x2048 S2048x256 S2048x256 [1] [0] [0] [1] [] []
  dot_S16384x256_S256x256_S16384x256_1_0_0_1_n_n_wf : DotDims.WF S16384x256 S256x256 S16384x256 [1] [0] [0] [1] [] []
  dot_S8192x16384_S16384x256_S8192x256_1_0_0_1_n_n_wf : DotDims.WF S8192x16384 S16384x256 S8192x256 [1] [0] [0] [1] [] []
  dot_S16384x8192_S8192x256_S16384x256_1_0_0_1_n_n_wf : DotDims.WF S16384x8192 S8192x256 S16384x256 [1] [0] [0] [1] [] []
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S8192x16384_S16384x256_S8192x256_1_0_0_1_n_n : DotDims S8192x16384 S16384x256 S8192x256 where
  lhsContracting := [1]
  rhsContracting := [0]
  lhsNonContracting := [0]
  rhsNonContracting := [1]
  lhsBatch := []
  rhsBatch := []
  wf := dot_S8192x16384_S16384x256_S8192x256_1_0_0_1_n_n_wf
def dot_S16384x8192_S8192x256_S16384x256_1_0_0_1_n_n : DotDims S16384x8192 S8192x256 S16384x256 where
  lhsContracting := [1]
  rhsContracting := [0]
  lhsNonContracting := [0]
  rhsNonContracting := [1]
  lhsBatch := []
  rhsBatch := []
  wf := dot_S16384x8192_S8192x256_S16384x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Lin0.lean ====
/- The class-A half of region 0 of @main (custom_call 0, `cc0__linear_kernel`, pipeline 0), at a parameter
   `V` — the TensorCore's buffer contents when the region is entered: each window's block at a point
   (`iblk0`), the output's buffer after the body (`out0_4`), the body's triple (`sound_kernel0`), the
   proof data (`dat0`) and the body obligation (`body_obligation0`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S1x1 := Rect.unit (s := S1x1) ![0, 0] S1x1.size inb_S1x1_S1x1_0_0
abbrev r0_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out0_4 (x0 : Vec F S2048x256 .bf16) (x1 : Vec F S256x256 .bf16) (x2 : Vec F S1x256 .f32) (x3 : Vec F S1x1 .f32) : Vec F S2048x256 .f32 :=
  View.canon [⟨r0_4, k0_pay1 (View.ld x0 r0_0) (View.ld x1 r0_1) (View.ld x2 r0_2) (View.ld x3 r0_3)⟩]

/-- The store tiles the buffer (checked by evaluation), so it covers it. -/
theorem cover0_4 (p0 : Vec F S2048x256 .f32) (y : S2048x256.Idx) :
    ∃ pc ∈ ([⟨r0_4, p0⟩] : List (View.Piece (Elt F) S2048x256 .f32)), y ∈ pc.1.set :=
  View.cover_of_tiled [⟨r0_4, p0⟩] S2048x256.size (by rfl) y

/-! ## The body's triple -/

set_option maxHeartbeats 1000000 in
/-- The kernel body on whole staging memrefs, the inputs' at read contents `xW` and the output's at anything, runs to
    the continuation holding the inputs' as they were and the output's at `out0_4` of the inputs'. The body reads
    the output buffer once before it stores the whole of it; the value read is not used. -/
theorem sound_kernel0 (c : Dev nD) (E : Set ℕ) (i : grid0.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2 x3)) -∗ K ⟨⟩))
      ⊢ wp frame (wpE (defs₀ (F := F)) Variants.none c none) E (cc0__linear_kernel i arg0 harg0 arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.AggDef1.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 1 (`cc1__agg_kernel`, pipeline 1), at the entry contents `V`: what it computes -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer is loaded and stored whole -/

abbrev r1_A : Rect S2048x2048 := Rect.unit (s := S2048x2048) ![0, 0] S2048x2048.size inb_S2048x2048_S2048x2048_0_0
abbrev r1_X : Rect S2048x256 := Rect.unit (s := S2048x256) ![0, 0] S2048x256.size inb_S2048x256_S2048x256_0_0
abbrev r1_out : Rect S2048x256 := Rect.unit (s := S2048x256) ![0, 0] S2048x256.size inb_S2048x256_S2048x256_0_0

/-- The scratch accumulator, a whole scoped buffer of the kernel's own, passed beside the windows. -/
abbrev scM1 : Memref sig .tc .vmem S2048x256 .f32 := Memref.whole cc1_scratch0

/-! ## What the accumulator holds after each point -/

/-- The payload last stored into the accumulator at point `n`: the zero piece plus the product of the point's blocks. -/
def accP1 (c : Dev nD) (n : ℕ) (hn : n < cfg1.N) : FVec F S2048x256 .f32 :=
  k1_pay2 (k1_pay1 (F := F)) (View.ld (iblk1 V c 0 ⟨n, hn⟩ : Vec F S2048x2048 .bf16) r1_A) (View.ld (iblk1 V c 1 ⟨n, hn⟩ : Vec F S2048x256 .bf16) r1_X)

/-- What the accumulator holds after point `n`. -/
def acc1 (c : Dev nD) (n : ℕ) (hn : n < cfg1.N) : Vec F S2048x256 .f32 :=
  View.canon [⟨r1_out, accP1 V c n hn⟩]

theorem accP1_first (c : Dev nD) (t : Fin cfg1.N) (h : t.val % 1 = 0) :
    accP1 V c t.val t.isLt = k1_pay2 (k1_pay1 (F := F)) (View.ld (iblk1 V c 0 t : Vec F S2048x2048 .bf16) r1_A) (View.ld (iblk1 V c 1 t : Vec F S2048x256 .bf16) r1_X) := rfl

theorem acc1_eq (c : Dev nD) (n : ℕ) (hn : n < cfg1.N) : acc1 V c n hn = View.canon [⟨r1_out, accP1 V c n hn⟩] := rfl

/-- The region invariant before position `n`: before the first point the class's; afterwards the accumulator at what
    the point before left, the rest of the scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at the normalisation of the accumulator's payload (consulted
    only at the points that store it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨r1_out, k1_pay3 (accP1 V c t.val t.isLt)⟩]
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = View.canon [⟨r1_out, k1_pay3 (accP1 V c t.val t.isLt)⟩] := by dsimp only [dat1]

/-- At a point that stores the output (the last inner step), its buffer holds the normalised accumulator payload. -/
theorem after1_2_last (c : Dev nD) (t : Fin cfg1.N) (h : t.val % 1 = 0) :
    (dat1 V c).after 2 t = View.canon [⟨r1_out, k1_pay3 (accP1 V c t.val t.isLt)⟩] := after1_2 V c t

end Cert.Kernel.Hand

end
-- ==== Proof.K.Lin2.lean ====
/- The class-A half of region 2 of @main (custom_call 2, `cc2__linear_kernel`, pipeline 2), at a parameter
   `V` — the TensorCore's buffer contents when the region is entered: each window's block at a point
   (`iblk2`), the output's buffer after the body (`out2_4`), the body's triple (`sound_kernel2`), the
   proof data (`dat2`) and the body obligation (`body_obligation2`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S1x1 := Rect.unit (s := S1x1) ![0, 0] S1x1.size inb_S1x1_S1x1_0_0
abbrev r2_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out2_4 (x0 : Vec F S2048x256 .bf16) (x1 : Vec F S256x256 .bf16) (x2 : Vec F S1x256 .f32) (x3 : Vec F S1x1 .f32) : Vec F S2048x256 .f32 :=
  View.canon [⟨r2_4, k2_pay1 (View.ld x0 r2_0) (View.ld x1 r2_1) (View.ld x2 r2_2) (View.ld x3 r2_3)⟩]

/-- The store tiles the buffer (checked by evaluation), so it covers it. -/
theorem cover2_4 (p0 : Vec F S2048x256 .f32) (y : S2048x256.Idx) :
    ∃ pc ∈ ([⟨r2_4, p0⟩] : List (View.Piece (Elt F) S2048x256 .f32)), y ∈ pc.1.set :=
  View.cover_of_tiled [⟨r2_4, p0⟩] S2048x256.size (by rfl) y

/-! ## The body's triple -/

set_option maxHeartbeats 1000000 in
/-- The kernel body on whole staging memrefs, the inputs' at read contents `xW` and the output's at anything, runs to
    the continuation holding the inputs' as they were and the output's at `out2_4` of the inputs'. The body reads
    the output buffer once before it stores the whole of it; the value read is not used. -/
theorem sound_kernel2 (c : Dev nD) (E : Set ℕ) (i : grid2.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__linear_kernel i arg0 harg0 arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.AggDef3.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3 (`cc3__agg_kernel`, pipeline 3), at the entry contents `V`: what it computes -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer is loaded and stored whole -/

abbrev r3_A : Rect S2048x2048 := Rect.unit (s := S2048x2048) ![0, 0] S2048x2048.size inb_S2048x2048_S2048x2048_0_0
abbrev r3_X : Rect S2048x256 := Rect.unit (s := S2048x256) ![0, 0] S2048x256.size inb_S2048x256_S2048x256_0_0
abbrev r3_out : Rect S2048x256 := Rect.unit (s := S2048x256) ![0, 0] S2048x256.size inb_S2048x256_S2048x256_0_0

/-- The scratch accumulator, a whole scoped buffer of the kernel's own, passed beside the windows. -/
abbrev scM3 : Memref sig .tc .vmem S2048x256 .f32 := Memref.whole cc3_scratch0

/-! ## What the accumulator holds after each point -/

/-- The payload last stored into the accumulator at point `n`: the zero piece plus the product of the point's blocks. -/
def accP3 (c : Dev nD) (n : ℕ) (hn : n < cfg3.N) : FVec F S2048x256 .f32 :=
  k3_pay2 (k3_pay1 (F := F)) (View.ld (iblk3 V c 0 ⟨n, hn⟩ : Vec F S2048x2048 .bf16) r3_A) (View.ld (iblk3 V c 1 ⟨n, hn⟩ : Vec F S2048x256 .bf16) r3_X)

/-- What the accumulator holds after point `n`. -/
def acc3 (c : Dev nD) (n : ℕ) (hn : n < cfg3.N) : Vec F S2048x256 .f32 :=
  View.canon [⟨r3_out, accP3 V c n hn⟩]

theorem accP3_first (c : Dev nD) (t : Fin cfg3.N) (h : t.val % 1 = 0) :
    accP3 V c t.val t.isLt = k3_pay2 (k3_pay1 (F := F)) (View.ld (iblk3 V c 0 t : Vec F S2048x2048 .bf16) r3_A) (View.ld (iblk3 V c 1 t : Vec F S2048x256 .bf16) r3_X) := rfl

theorem acc3_eq (c : Dev nD) (n : ℕ) (hn : n < cfg3.N) : acc3 V c n hn = View.canon [⟨r3_out, accP3 V c n hn⟩] := rfl

/-- The region invariant before position `n`: before the first point the class's; afterwards the accumulator at what
    the point before left, the rest of the scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at the normalisation of the accumulator's payload (consulted
    only at the points that store it); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => View.canon [⟨r3_out, k3_pay3 (accP3 V c t.val t.isLt)⟩]
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = View.canon [⟨r3_out, k3_pay3 (accP3 V c t.val t.isLt)⟩] := by dsimp only [dat3]

/-- At a point that stores the output (the last inner step), its buffer holds the normalised accumulator payload. -/
theorem after3_2_last (c : Dev nD) (t : Fin cfg3.N) (h : t.val % 1 = 0) :
    (dat3 V c).after 2 t = View.canon [⟨r3_out, k3_pay3 (accP3 V c t.val t.isLt)⟩] := after3_2 V c t

end Cert.Kernel.Hand

end
-- ==== Proof.K.Lin4.lean ====
/- The class-A half of region 4 of @main (custom_call 4, `cc4__linear_kernel`, pipeline 4), at a parameter
   `V` — the TensorCore's buffer contents when the region is entered: each window's block at a point
   (`iblk4`), the output's buffer after the body (`out4_4`), the body's triple (`sound_kernel4`), the
   proof data (`dat4`) and the body obligation (`body_obligation4`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x256 := Rect.unit (s := S2048x256) ![0, 0] S2048x256.size inb_S2048x256_S2048x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S1x1 := Rect.unit (s := S1x1) ![0, 0] S1x1.size inb_S1x1_S1x1_0_0
abbrev r4_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out4_4 (x0 : Vec F S2048x256 .bf16) (x1 : Vec F S256x256 .bf16) (x2 : Vec F S1x256 .f32) (x3 : Vec F S1x1 .f32) : Vec F S2048x256 .f32 :=
  View.canon [⟨r4_4, k4_pay1 (View.ld x0 r4_0) (View.ld x1 r4_1) (View.ld x2 r4_2) (View.ld x3 r4_3)⟩]

/-- The store tiles the buffer (checked by evaluation), so it covers it. -/
theorem cover4_4 (p0 : Vec F S2048x256 .f32) (y : S2048x256.Idx) :
    ∃ pc ∈ ([⟨r4_4, p0⟩] : List (View.Piece (Elt F) S2048x256 .f32)), y ∈ pc.1.set :=
  View.cover_of_tiled [⟨r4_4, p0⟩] S2048x256.size (by rfl) y

/-! ## The body's triple -/

set_option maxHeartbeats 1000000 in
/-- The kernel body on whole staging memrefs, the inputs' at read contents `xW` and the output's at anything, runs to
    the continuation holding the inputs' as they were and the output's at `out4_4` of the inputs'. The body reads
    the output buffer once before it stores the whole of it; the value read is not used. -/
theorem sound_kernel4 (c : Dev nD) (E : Set ℕ) (i : grid4.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out4_4 x0 x1 x2 x3)) -∗ K ⟨⟩))
      ⊢ wp frame (wpE (defs₀ (F := F)) Variants.none c none) E (cc4__linear_kernel i arg0 harg0 arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and the output's at `out4_4` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Lin5.lean ====
/- The class-A half of region 5 of @main (custom_call 5, `cc5__linear_kernel`, pipeline 5), at a parameter
   `V` — the TensorCore's buffer contents when the region is entered: each window's block at a point
   (`iblk5`), the output's buffer after the body (`out5_4`), the body's triple (`sound_kernel5`), the
   proof data (`dat5`) and the body obligation (`body_obligation5`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2048x256 := Rect.unit (s := S2048x256) ![0, 0] S2048x256.size inb_S2048x256_S2048x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S1x1 := Rect.unit (s := S1x1) ![0, 0] S1x1.size inb_S1x1_S1x1_0_0
abbrev r5_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out5_4 (x0 : Vec F S2048x256 .bf16) (x1 : Vec F S256x256 .bf16) (x2 : Vec F S1x256 .f32) (x3 : Vec F S1x1 .f32) : Vec F S2048x256 .f32 :=
  View.canon [⟨r5_4, k5_pay1 (View.ld x0 r5_0) (View.ld x1 r5_1) (View.ld x2 r5_2) (View.ld x3 r5_3)⟩]

/-- The store tiles the buffer (checked by evaluation), so it covers it. -/
theorem cover5_4 (p0 : Vec F S2048x256 .f32) (y : S2048x256.Idx) :
    ∃ pc ∈ ([⟨r5_4, p0⟩] : List (View.Piece (Elt F) S2048x256 .f32)), y ∈ pc.1.set :=
  View.cover_of_tiled [⟨r5_4, p0⟩] S2048x256.size (by rfl) y

/-! ## The body's triple -/

set_option maxHeartbeats 1000000 in
/-- The kernel body on whole staging memrefs, the inputs' at read contents `xW` and the output's at anything, runs to
    the continuation holding the inputs' as they were and the output's at `out5_4` of the inputs'. The body reads
    the output buffer once before it stores the whole of it; the value read is not used. -/
theorem sound_kernel5 (c : Dev nD) (E : Set ℕ) (i : grid5.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E (cc5__linear_kernel i arg0 harg0 arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and the output's at `out5_4` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Lin6.lean ====
/- The class-A half of region 6 of @main (custom_call 6, `cc6__linear_kernel`, pipeline 6), at a parameter
   `V` — the TensorCore's buffer contents when the region is entered: each window's block at a point
   (`iblk6`), the output's buffer after the body (`out6_4`), the body's triple (`sound_kernel6`), the
   proof data (`dat6`) and the body obligation (`body_obligation6`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2048x256 := Rect.unit (s := S2048x256) ![0, 0] S2048x256.size inb_S2048x256_S2048x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0
abbrev r6_3 : Rect S1x1 := Rect.unit (s := S1x1) ![0, 0] S1x1.size inb_S1x1_S1x1_0_0
abbrev r6_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out6_4 (x0 : Vec F S2048x256 .bf16) (x1 : Vec F S256x256 .bf16) (x2 : Vec F S1x256 .f32) (x3 : Vec F S1x1 .f32) : Vec F S2048x256 .f32 :=
  View.canon [⟨r6_4, k6_pay1 (View.ld x0 r6_0) (View.ld x1 r6_1) (View.ld x2 r6_2) (View.ld x3 r6_3)⟩]

/-- The store tiles the buffer (checked by evaluation), so it covers it. -/
theorem cover6_4 (p0 : Vec F S2048x256 .f32) (y : S2048x256.Idx) :
    ∃ pc ∈ ([⟨r6_4, p0⟩] : List (View.Piece (Elt F) S2048x256 .f32)), y ∈ pc.1.set :=
  View.cover_of_tiled [⟨r6_4, p0⟩] S2048x256.size (by rfl) y

/-! ## The body's triple -/

set_option maxHeartbeats 1000000 in
/-- The kernel body on whole staging memrefs, the inputs' at read contents `xW` and the output's at anything, runs to
    the continuation holding the inputs' as they were and the output's at `out6_4` of the inputs'. The body reads
    the output buffer once before it stores the whole of it; the value read is not used. -/
theorem sound_kernel6 (c : Dev nD) (E : Set ℕ) (i : grid6.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out6_4 x0 x1 x2 x3)) -∗ K ⟨⟩))
      ⊢ wp frame (wpE (defs₀ (F := F)) Variants.none c none) E (cc6__linear_kernel i arg0 harg0 arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at
    point `t` each input's buffer at its block and the output's at `out6_4` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.AggDef7.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 7 (`cc7__agg_kernel`, pipeline 7), at the entry contents `V`: what it computes -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each buffer is loaded and stored whole -/

abbrev r7_A : Rect S2048x2048 := Rect.unit (s := S2048x2048) ![0, 0] S2048x2048.size inb_S2048x2048_S2048x2048_0_0
abbrev r7_X : Rect S2048x256 := Rect.unit (s := S2048x256) ![0, 0] S2048x256.size inb_S2048x256_S2048x256_0_0
abbrev r7_out : Rect S2048x256 := Rect.unit (s := S2048x256) ![0, 0] S2048x256.size inb_S2048x256_S2048x256_0_0

/-- The scratch accumulator, a whole scoped buffer of the kernel's own, passed beside the windows. -/
abbrev scM7 : Memref sig .tc .vmem S2048x256 .f32 := Memref.whole cc7_scratch0

/-! ## What the accumulator holds after each point -/

/-- The payload last stored into the accumulator at point `n`: at the first inner step the zero piece plus the
    product of the point's blocks, at a later one what the point before left, loaded whole, plus the product. -/
def accP7 (c : Dev nD) : (n : ℕ) → n < cfg7.N → FVec F S2048x256 .f32
  | 0, hn => k7_pay2 (k7_pay1 (F := F)) (View.ld (iblk7 V c 0 ⟨0, hn⟩ : Vec F S2048x2048 .bf16) r7_A) (View.ld (iblk7 V c 1 ⟨0, hn⟩ : Vec F S2048x256 .bf16) r7_X)
  | n + 1, hn =>
    if (n + 1) % 8 = 0 then
      k7_pay2 (k7_pay1 (F := F)) (View.ld (iblk7 V c 0 ⟨n + 1, hn⟩ : Vec F S2048x2048 .bf16) r7_A) (View.ld (iblk7 V c 1 ⟨n + 1, hn⟩ : Vec F S2048x256 .bf16) r7_X)
    else
      k7_pay2 (View.ld (View.canon [(⟨r7_out, accP7 c n (Nat.lt_of_succ_lt hn)⟩ : View.Piece (Elt F) S2048x256 .f32)]) r7_out)
        (View.ld (iblk7 V c 0 ⟨n + 1, hn⟩ : Vec F S2048x2048 .bf16) r7_A) (View.ld (iblk7 V c 1 ⟨n + 1, hn⟩ : Vec F S2048x256 .bf16) r7_X)

/-- What the accumulator holds after point `n`. -/
def acc7 (c : Dev nD) (n : ℕ) (hn : n < cfg7.N) : Vec F S2048x256 .f32 :=
  View.canon [⟨r7_out, accP7 V c n hn⟩]

/-- At a first inner step. -/
theorem accP7_first (c : Dev nD) (t : Fin cfg7.N) (h : t.val % 8 = 0) :
    accP7 V c t.val t.isLt = k7_pay2 (k7_pay1 (F := F)) (View.ld (iblk7 V c 0 t : Vec F S2048x2048 .bf16) r7_A) (View.ld (iblk7 V c 1 t : Vec F S2048x256 .bf16) r7_X) := by
  obtain ⟨n, hn⟩ := t
  cases n with
  | zero => rfl
  | succ n => exact if_pos h

/-- At a later inner step: over what the point before left. -/
theorem accP7_step (c : Dev nD) (t : Fin cfg7.N) (h : ¬t.val % 8 = 0) :
    accP7 V c t.val t.isLt = k7_pay2 (View.ld (acc7 V c (t.val - 1) (by have := t.isLt; omega)) r7_out)
      (View.ld (iblk7 V c 0 t : Vec F S2048x2048 .bf16) r7_A) (View.ld (iblk7 V c 1 t : Vec F S2048x256 .bf16) r7_X) := by
  obtain ⟨n, hn⟩ := t
  cases n with
  | zero => exact absurd (Nat.zero_mod _) h
  | succ n => exact if_neg h

theorem acc7_eq (c : Dev nD) (n : ℕ) (hn : n < cfg7.N) : acc7 V c n hn = View.canon [⟨r7_out, accP7 V c n hn⟩] := rfl

/-- The region invariant before position `n`: before the first point the class's; afterwards the accumulator at what
    the point before left, the rest of the scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core `c`: the arrays as the region finds them (`V`); after the body at point
    `t` each input's buffer at its block and the output's at the normalisation of the accumulator's payload (consulted
    only at the points that store it); the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => View.canon [⟨r7_out, k7_pay3 (accP7 V c t.val t.isLt)⟩]
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = View.canon [⟨r7_out, k7_pay3 (accP7 V c t.val t.isLt)⟩] := by dsimp only [dat7]

/-- At a point that stores the output (the last inner step), its buffer holds the normalised accumulator payload. -/
theorem after7_2_last (c : Dev nD) (t : Fin cfg7.N) (h : t.val % 8 = 7) :
    (dat7 V c).after 2 t = View.canon [⟨r7_out, k7_pay3 (accP7 V c t.val t.isLt)⟩] := after7_2 V c t

end Cert.Kernel.Hand

end
-- ==== Proof.K.AggDef8.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 8 (`cc8__agg_kernel`, pipeline 8), at the entry contents `V`: what it computes -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: each buffer is loaded and stored whole -/

abbrev r8_A : Rect S2048x2048 := Rect.unit (s := S2048x2048) ![0, 0] S2048x2048.size inb_S2048x2048_S2048x2048_0_0
abbrev r8_X : Rect S2048x256 := Rect.unit (s := S2048x256) ![0, 0] S2048x256.size inb_S2048x256_S2048x256_0_0
abbrev r8_out : Rect S2048x256 := Rect.unit (s := S2048x256) ![0, 0] S2048x256.size inb_S2048x256_S2048x256_0_0

/-- The scratch accumulator, a whole scoped buffer of the kernel's own, passed beside the windows. -/
abbrev scM8 : Memref sig .tc .vmem S2048x256 .f32 := Memref.whole cc8_scratch0

/-! ## What the accumulator holds after each point -/

/-- The payload last stored into the accumulator at point `n`: at the first inner step the zero piece plus the
    product of the point's blocks, at a later one what the point before left, loaded whole, plus the product. -/
def accP8 (c : Dev nD) : (n : ℕ) → n < cfg8.N → FVec F S2048x256 .f32
  | 0, hn => k8_pay2 (k8_pay1 (F := F)) (View.ld (iblk8 V c 0 ⟨0, hn⟩ : Vec F S2048x2048 .bf16) r8_A) (View.ld (iblk8 V c 1 ⟨0, hn⟩ : Vec F S2048x256 .bf16) r8_X)
  | n + 1, hn =>
    if (n + 1) % 4 = 0 then
      k8_pay2 (k8_pay1 (F := F)) (View.ld (iblk8 V c 0 ⟨n + 1, hn⟩ : Vec F S2048x2048 .bf16) r8_A) (View.ld (iblk8 V c 1 ⟨n + 1, hn⟩ : Vec F S2048x256 .bf16) r8_X)
    else
      k8_pay2 (View.ld (View.canon [(⟨r8_out, accP8 c n (Nat.lt_of_succ_lt hn)⟩ : View.Piece (Elt F) S2048x256 .f32)]) r8_out)
        (View.ld (iblk8 V c 0 ⟨n + 1, hn⟩ : Vec F S2048x2048 .bf16) r8_A) (View.ld (iblk8 V c 1 ⟨n + 1, hn⟩ : Vec F S2048x256 .bf16) r8_X)

/-- What the accumulator holds after point `n`. -/
def acc8 (c : Dev nD) (n : ℕ) (hn : n < cfg8.N) : Vec F S2048x256 .f32 :=
  View.canon [⟨r8_out, accP8 V c n hn⟩]

/-- At a first inner step. -/
theorem accP8_first (c : Dev nD) (t : Fin cfg8.N) (h : t.val % 4 = 0) :
    accP8 V c t.val t.isLt = k8_pay2 (k8_pay1 (F := F)) (View.ld (iblk8 V c 0 t : Vec F S2048x2048 .bf16) r8_A) (View.ld (iblk8 V c 1 t : Vec F S2048x256 .bf16) r8_X) := by
  obtain ⟨n, hn⟩ := t
  cases n with
  | zero => rfl
  | succ n => exact if_pos h

/-- At a later inner step: over what the point before left. -/
theorem accP8_step (c : Dev nD) (t : Fin cfg8.N) (h : ¬t.val % 4 = 0) :
    accP8 V c t.val t.isLt = k8_pay2 (View.ld (acc8 V c (t.val - 1) (by have := t.isLt; omega)) r8_out)
      (View.ld (iblk8 V c 0 t : Vec F S2048x2048 .bf16) r8_A) (View.ld (iblk8 V c 1 t : Vec F S2048x256 .bf16) r8_X) := by
  obtain ⟨n, hn⟩ := t
  cases n with
  | zero => exact absurd (Nat.zero_mod _) h
  | succ n => exact if_neg h

theorem acc8_eq (c : Dev nD) (n : ℕ) (hn : n < cfg8.N) : acc8 V c n hn = View.canon [⟨r8_out, accP8 V c n hn⟩] := rfl

/-- The region invariant before position `n`: before the first point the class's; afterwards the accumulator at what
    the point before left, the rest of the scoped buffers unopened, the generator register at some state. -/
def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of pipeline 8 on core `c`: the arrays as the region finds them (`V`); after the body at point
    `t` each input's buffer at its block and the output's at the normalisation of the accumulator's payload (consulted
    only at the points that store it); the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => View.canon [⟨r8_out, k8_pay3 (accP8 V c t.val t.isLt)⟩]
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = View.canon [⟨r8_out, k8_pay3 (accP8 V c t.val t.isLt)⟩] := by dsimp only [dat8]

/-- At a point that stores the output (the last inner step), its buffer holds the normalised accumulator payload. -/
theorem after8_2_last (c : Dev nD) (t : Fin cfg8.N) (h : t.val % 4 = 3) :
    (dat8 V c).after 2 t = View.canon [⟨r8_out, k8_pay3 (accP8 V c t.val t.isLt)⟩] := after8_2 V c t

end Cert.Kernel.Hand

end
-- ==== Proof.K.Lin9.lean ====
/- The class-A half of region 9 of @main (custom_call 9, `cc9__linear_kernel`, pipeline 9), at a parameter
   `V` — the TensorCore's buffer contents when the region is entered: each window's block at a point
   (`iblk9`), the output's buffer after the body (`out9_4`), the body's triple (`sound_kernel9`), the
   proof data (`dat9`) and the body obligation (`body_obligation9`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): unfetched, the block
    index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S1x1 := Rect.unit (s := S1x1) ![0, 0] S1x1.size inb_S1x1_S1x1_0_0
abbrev r9_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out9_4 (x0 : Vec F S2048x256 .bf16) (x1 : Vec F S256x256 .bf16) (x2 : Vec F S1x256 .f32) (x3 : Vec F S1x1 .f32) : Vec F S2048x256 .f32 :=
  View.canon [⟨r9_4, k9_pay1 (View.ld x0 r9_0) (View.ld x1 r9_1) (View.ld x2 r9_2) (View.ld x3 r9_3)⟩]

/-- The store tiles the buffer (checked by evaluation), so it covers it. -/
theorem cover9_4 (p0 : Vec F S2048x256 .f32) (y : S2048x256.Idx) :
    ∃ pc ∈ ([⟨r9_4, p0⟩] : List (View.Piece (Elt F) S2048x256 .f32)), y ∈ pc.1.set :=
  View.cover_of_tiled [⟨r9_4, p0⟩] S2048x256.size (by rfl) y

/-! ## The body's triple -/

set_option maxHeartbeats 1000000 in
/-- The kernel body on whole staging memrefs, the inputs' at read contents `xW` and the output's at anything, runs to
    the continuation holding the inputs' as they were and the output's at `out9_4` of the inputs'. The body reads
    the output buffer once before it stores the whole of it; the value read is not used. -/
theorem sound_kernel9 (c : Dev nD) (E : Set ℕ) (i : grid9.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out9_4 x0 x1 x2 x3)) -∗ K ⟨⟩))
      ⊢ wp frame (wpE (defs₀ (F := F)) Variants.none c none) E (cc9__linear_kernel i arg0 harg0 arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays as the region finds them (`V`); after the body at
    point `t` each input's buffer at its block and the output's at `out9_4` of the input blocks; the invariant
    the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.AggDef10.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 10 (`cc10__agg_kernel`, pipeline 10), at the entry contents `V`: what it computes -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: each buffer is loaded and stored whole -/

abbrev r10_A : Rect S2048x2048 := Rect.unit (s := S2048x2048) ![0, 0] S2048x2048.size inb_S2048x2048_S2048x2048_0_0
abbrev r10_X : Rect S2048x256 := Rect.unit (s := S2048x256) ![0, 0] S2048x256.size inb_S2048x256_S2048x256_0_0
abbrev r10_out : Rect S2048x256 := Rect.unit (s := S2048x256) ![0, 0] S2048x256.size inb_S2048x256_S2048x256_0_0

/-- The scratch accumulator, a whole scoped buffer of the kernel's own, passed beside the windows. -/
abbrev scM10 : Memref sig .tc .vmem S2048x256 .f32 := Memref.whole cc10_scratch0

/-! ## What the accumulator holds after each point -/

/-- The payload last stored into the accumulator at point `n`: at the first inner step the zero piece plus the
    product of the point's blocks, at a later one what the point before left, loaded whole, plus the product. -/
def accP10 (c : Dev nD) : (n : ℕ) → n < cfg10.N → FVec F S2048x256 .f32
  | 0, hn => k10_pay2 (k10_pay1 (F := F)) (View.ld (iblk10 V c 0 ⟨0, hn⟩ : Vec F S2048x2048 .bf16) r10_A) (View.ld (iblk10 V c 1 ⟨0, hn⟩ : Vec F S2048x256 .bf16) r10_X)
  | n + 1, hn =>
    if (n + 1) % 8 = 0 then
      k10_pay2 (k10_pay1 (F := F)) (View.ld (iblk10 V c 0 ⟨n + 1, hn⟩ : Vec F S2048x2048 .bf16) r10_A) (View.ld (iblk10 V c 1 ⟨n + 1, hn⟩ : Vec F S2048x256 .bf16) r10_X)
    else
      k10_pay2 (View.ld (View.canon [(⟨r10_out, accP10 c n (Nat.lt_of_succ_lt hn)⟩ : View.Piece (Elt F) S2048x256 .f32)]) r10_out)
        (View.ld (iblk10 V c 0 ⟨n + 1, hn⟩ : Vec F S2048x2048 .bf16) r10_A) (View.ld (iblk10 V c 1 ⟨n + 1, hn⟩ : Vec F S2048x256 .bf16) r10_X)

/-- What the accumulator holds after point `n`. -/
def acc10 (c : Dev nD) (n : ℕ) (hn : n < cfg10.N) : Vec F S2048x256 .f32 :=
  View.canon [⟨r10_out, accP10 V c n hn⟩]

/-- At a first inner step. -/
theorem accP10_first (c : Dev nD) (t : Fin cfg10.N) (h : t.val % 8 = 0) :
    accP10 V c t.val t.isLt = k10_pay2 (k10_pay1 (F := F)) (View.ld (iblk10 V c 0 t : Vec F S2048x2048 .bf16) r10_A) (View.ld (iblk10 V c 1 t : Vec F S2048x256 .bf16) r10_X) := by
  obtain ⟨n, hn⟩ := t
  cases n with
  | zero => rfl
  | succ n => exact if_pos h

/-- At a later inner step: over what the point before left. -/
theorem accP10_step (c : Dev nD) (t : Fin cfg10.N) (h : ¬t.val % 8 = 0) :
    accP10 V c t.val t.isLt = k10_pay2 (View.ld (acc10 V c (t.val - 1) (by have := t.isLt; omega)) r10_out)
      (View.ld (iblk10 V c 0 t : Vec F S2048x2048 .bf16) r10_A) (View.ld (iblk10 V c 1 t : Vec F S2048x256 .bf16) r10_X) := by
  obtain ⟨n, hn⟩ := t
  cases n with
  | zero => exact absurd (Nat.zero_mod _) h
  | succ n => exact if_neg h

theorem acc10_eq (c : Dev nD) (n : ℕ) (hn : n < cfg10.N) : acc10 V c n hn = View.canon [⟨r10_out, accP10 V c n hn⟩] := rfl

/-- The region invariant before position `n`: before the first point the class's; afterwards the accumulator at what
    the point before left, the rest of the scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10 fullShare (acc10 V c n hn)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the accumulator at that point's contents. -/
theorem PhiS10_succ (c : Dev nD) (n : ℕ) (hn : n < cfg10.N) :
    PhiS10 V c (n + 1) hn = iprop(iprop(owns (c : Thread nD τ) scM10 fullShare (acc10 V c n hn)
      ∗ Pipeline.scopedRestBut (Ix := Unit) (Name := ℕ) (U := UR sig nD τ) (Lvl := ℕ) (Val := Elt F) spec10 c [cc10_scratch0]) ∗ (∃ r, prngReg c r)) := rfl

/-- Before a point that is not the first: the accumulator at what the point before left. -/
theorem PhiS10_pos (c : Dev nD) (n : ℕ) (h : n ≤ cfg10.N) (hz : n ≠ 0) :
    PhiS10 V c n h = iprop(iprop(owns (c : Thread nD τ) scM10 fullShare (acc10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The pipeline's proof data -/

/-- The proof data of pipeline 10 on core `c`: the arrays as the region finds them (`V`); after the body at point
    `t` each input's buffer at its block and the output's at the normalisation of the accumulator's payload (consulted
    only at the points that store it); the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => View.canon [⟨r10_out, k10_pay3 (accP10 V c t.val t.isLt)⟩]
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = View.canon [⟨r10_out, k10_pay3 (accP10 V c t.val t.isLt)⟩] := by dsimp only [dat10]

/-- At a point that stores the output (the last inner step), its buffer holds the normalised accumulator payload. -/
theorem after10_2_last (c : Dev nD) (t : Fin cfg10.N) (h : t.val % 8 = 7) :
    (dat10 V c).after 2 t = View.canon [⟨r10_out, k10_pay3 (accP10 V c t.val t.isLt)⟩] := after10_2 V c t

end Cert.Kernel.Hand

end
-- ==== Proof.K.AggDef11.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 11 (`cc11__agg_kernel`, pipeline 11), at the entry contents `V`: what it computes -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: each buffer is loaded and stored whole -/

abbrev r11_A : Rect S2048x2048 := Rect.unit (s := S2048x2048) ![0, 0] S2048x2048.size inb_S2048x2048_S2048x2048_0_0
abbrev r11_X : Rect S2048x256 := Rect.unit (s := S2048x256) ![0, 0] S2048x256.size inb_S2048x256_S2048x256_0_0
abbrev r11_out : Rect S2048x256 := Rect.unit (s := S2048x256) ![0, 0] S2048x256.size inb_S2048x256_S2048x256_0_0

/-- The scratch accumulator, a whole scoped buffer of the kernel's own, passed beside the windows. -/
abbrev scM11 : Memref sig .tc .vmem S2048x256 .f32 := Memref.whole cc11_scratch0

/-! ## What the accumulator holds after each point -/

/-- The payload last stored into the accumulator at point `n`: at the first inner step the zero piece plus the
    product of the point's blocks, at a later one what the point before left, loaded whole, plus the product. -/
def accP11 (c : Dev nD) : (n : ℕ) → n < cfg11.N → FVec F S2048x256 .f32
  | 0, hn => k11_pay2 (k11_pay1 (F := F)) (View.ld (iblk11 V c 0 ⟨0, hn⟩ : Vec F S2048x2048 .bf16) r11_A) (View.ld (iblk11 V c 1 ⟨0, hn⟩ : Vec F S2048x256 .bf16) r11_X)
  | n + 1, hn =>
    if (n + 1) % 4 = 0 then
      k11_pay2 (k11_pay1 (F := F)) (View.ld (iblk11 V c 0 ⟨n + 1, hn⟩ : Vec F S2048x2048 .bf16) r11_A) (View.ld (iblk11 V c 1 ⟨n + 1, hn⟩ : Vec F S2048x256 .bf16) r11_X)
    else
      k11_pay2 (View.ld (View.canon [(⟨r11_out, accP11 c n (Nat.lt_of_succ_lt hn)⟩ : View.Piece (Elt F) S2048x256 .f32)]) r11_out)
        (View.ld (iblk11 V c 0 ⟨n + 1, hn⟩ : Vec F S2048x2048 .bf16) r11_A) (View.ld (iblk11 V c 1 ⟨n + 1, hn⟩ : Vec F S2048x256 .bf16) r11_X)

/-- What the accumulator holds after point `n`. -/
def acc11 (c : Dev nD) (n : ℕ) (hn : n < cfg11.N) : Vec F S2048x256 .f32 :=
  View.canon [⟨r11_out, accP11 V c n hn⟩]

/-- At a first inner step. -/
theorem accP11_first (c : Dev nD) (t : Fin cfg11.N) (h : t.val % 4 = 0) :
    accP11 V c t.val t.isLt = k11_pay2 (k11_pay1 (F := F)) (View.ld (iblk11 V c 0 t : Vec F S2048x2048 .bf16) r11_A) (View.ld (iblk11 V c 1 t : Vec F S2048x256 .bf16) r11_X) := by
  obtain ⟨n, hn⟩ := t
  cases n with
  | zero => rfl
  | succ n => exact if_pos h

/-- At a later inner step: over what the point before left. -/
theorem accP11_step (c : Dev nD) (t : Fin cfg11.N) (h : ¬t.val % 4 = 0) :
    accP11 V c t.val t.isLt = k11_pay2 (View.ld (acc11 V c (t.val - 1) (by have := t.isLt; omega)) r11_out)
      (View.ld (iblk11 V c 0 t : Vec F S2048x2048 .bf16) r11_A) (View.ld (iblk11 V c 1 t : Vec F S2048x256 .bf16) r11_X) := by
  obtain ⟨n, hn⟩ := t
  cases n with
  | zero => exact absurd (Nat.zero_mod _) h
  | succ n => exact if_neg h

theorem acc11_eq (c : Dev nD) (n : ℕ) (hn : n < cfg11.N) : acc11 V c n hn = View.canon [⟨r11_out, accP11 V c n hn⟩] := rfl

/-- The region invariant before position `n`: before the first point the class's; afterwards the accumulator at what
    the point before left, the rest of the scoped buffers unopened, the generator register at some state. -/
def PhiS11 (c : Dev nD) : (n : ℕ) → n ≤ cfg11.N → sProp 𝕄
  | 0, _ => Pipeline.ΦA spec11 c
  | n + 1, hn => iprop(iprop(owns (c : Thread nD τ) scM11 fullShare (acc11 V c n hn)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulator at that point's contents. -/
theorem PhiS11_succ (c : Dev nD) (n : ℕ) (hn : n < cfg11.N) :
    PhiS11 V c (n + 1) hn = iprop(iprop(owns (c : Thread nD τ) scM11 fullShare (acc11 V c n hn)
      ∗ Pipeline.scopedRestBut (Ix := Unit) (Name := ℕ) (U := UR sig nD τ) (Lvl := ℕ) (Val := Elt F) spec11 c [cc11_scratch0]) ∗ (∃ r, prngReg c r)) := rfl

/-- Before a point that is not the first: the accumulator at what the point before left. -/
theorem PhiS11_pos (c : Dev nD) (n : ℕ) (h : n ≤ cfg11.N) (hz : n ≠ 0) :
    PhiS11 V c n h = iprop(iprop(owns (c : Thread nD τ) scM11 fullShare (acc11 V c (n - 1) (by omega))
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-! ## The pipeline's proof data -/

/-- The proof data of pipeline 11 on core `c`: the arrays as the region finds them (`V`); after the body at point
    `t` each input's buffer at its block and the output's at the normalisation of the accumulator's payload (consulted
    only at the points that store it); the invariant `PhiS11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => View.canon [⟨r11_out, k11_pay3 (accP11 V c t.val t.isLt)⟩]
  Φ t := PhiS11 V c t.val (Nat.le_of_lt_succ t.isLt)
  q _ := fullShare
  owed _ := 0

/-- The proof data's arrays are the region-entry contents. -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = View.canon [⟨r11_out, k11_pay3 (accP11 V c t.val t.isLt)⟩] := by dsimp only [dat11]

/-- At a point that stores the output (the last inner step), its buffer holds the normalised accumulator payload. -/
theorem after11_2_last (c : Dev nD) (t : Fin cfg11.N) (h : t.val % 4 = 3) :
    (dat11 V c).after 2 t = View.canon [⟨r11_out, k11_pay3 (accP11 V c t.val t.isLt)⟩] := after11_2 V c t

end Cert.Kernel.Hand

end
-- ==== Proof.K.AggDef12.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 12 (`cc12__agg_kernel`, pipeline 12), at the entry contents `V`: what it computes -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: each buffer is loaded and stored whole -/

abbrev r12_A : Rect S1024x2048 := Rect.unit (s := S1024x2048) ![0, 0] S1024x2048.size inb_S1024x2048_S1024x2048_0_0
abbrev r12_X : Rect S2048x512 := Rect.unit (s := S2048x512) ![0, 0] S2048x512.size inb_S2048x512_S2048x512_0_0
abbrev r12_out : Rect S1024x512 := Rect.unit (s := S1024x512) ![0, 0] S1024x512.size inb_S1024x512_S1024x512_0_0

/-- The scratch accumulator, a whole scoped buffer of the kernel's own, passed beside the windows. -/
abbrev scM12 : Memref sig .tc .vmem S1024x512 .f32 := Memref.whole cc12_scratch0

/-! ## What the accumulator holds after each point -/

/-- The payload last stored into the accumulator at point `n`: at the first inner step the zero piece plus the
    product of the point's blocks, at a later one what the point before left, loaded whole, plus the product. -/
def accP12 (c : Dev nD) : (n : ℕ) → n < cfg12.N → FVec F S1024x512 .f32
  | 0, hn => k12_pay2 (k12_pay1 (F := F)) (View.ld (iblk12 V c 0 ⟨0, hn⟩ : Vec F S1024x2048 .bf16) r12_A) (View.ld (iblk12 V c 1 ⟨0, hn⟩ : Vec F S2048x512 .bf16) r12_X)
  | n + 1, hn =>
    if (n + 1) % 8 = 0 then
      k12_pay2 (k12_pay1 (F := F)) (View.ld (iblk12 V c 0 ⟨n + 1, hn⟩ : Vec F S1024x2048 .bf16) r12_A) (View.ld (iblk12 V c 1 ⟨n + 1, hn⟩ : Vec F S2048x512 .bf16) r12_X)
    else
      k12_pay2 (View.ld (View.canon [(⟨r12_out, accP12 c n (Nat.lt_of_succ_lt hn)⟩ : View.Piece (Elt F) S1024x512 .f32)]) r12_out)
        (View.ld (iblk12 V c 0 ⟨n + 1, hn⟩ : Vec F S1024x2048 .bf16) r12_A) (View.ld (iblk12 V c 1 ⟨n + 1, hn⟩ : Vec F S2048x512 .bf16) r12_X)

/-- What the accumulator holds after point `n`. -/
def acc12 (c : Dev nD) (n : ℕ) (hn : n < cfg12.N) : Vec F S1024x512 .f32 :=
  View.canon [⟨r12_out, accP12 V c n hn⟩]

/-- At a first inner step. -/
theorem accP12_first (c : Dev nD) (t : Fin cfg12.N) (h : t.val % 8 = 0) :
    accP12 V c t.val t.isLt = k12_pay2 (k12_pay1 (F := F)) (View.ld (iblk12 V c 0 t : Vec F S1024x2048 .bf16) r12_A) (View.ld (iblk12 V c 1 t : Vec F S2048x512 .bf16) r12_X) := by
  obtain ⟨n, hn⟩ := t
  cases n with
  | zero => rfl
  | succ n => exact if_pos h

/-- At a later inner step: over what the point before left. -/
theorem accP12_step (c : Dev nD) (t : Fin cfg12.N) (h : ¬t.val % 8 = 0) :
    accP12 V c t.val t.isLt = k12_pay2 (View.ld (acc12 V c (t.val - 1) (by have := t.isLt; omega)) r12_out)
      (View.ld (iblk12 V c 0 t : Vec F S1024x2048 .bf16) r12_A) (View.ld (iblk12 V c 1 t : Vec F S2048x512 .bf16) r12_X) := by
  obtain ⟨n, hn⟩ := t
  cases n with
  | zero => exact absurd (Nat.zero_mod _) h
  | succ n => exact if_neg h

theorem acc12_eq (c : Dev nD) (n : ℕ) (hn : n < cfg12.N) : acc12 V c n hn = View.canon [⟨r12_out, accP12 V c n hn⟩] := rfl

/-- The region invariant before position `n`: before the first point the class's; afterwards the accumulator at what
    the point before left, the rest of the scoped buffers unopened, the generator register at some state. -/
def PhiS12 (c : Dev nD) : (n : ℕ) → n ≤ cfg12.N → sProp 𝕄
  | 0, _ => Pipeline.ΦA spec12 c
  | n + 1, hn => iprop(iprop(owns (c : Thread nD τ) scM12 fullShare (acc12 V c n hn)
      ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl

/-- After point `n` (before point `n + 1`): the accumulator at that point's contents. -/
theorem PhiS12_succ (c : Dev nD) (n : ℕ) (hn : n < cfg12.N) :
    PhiS12 V c (n + 1) hn = iprop(iprop(owns (c : Thread nD τ) scM12 fullShare (acc12 V c n hn)
      ∗ Pipeline.scopedRestBut (Ix := Unit) (Name := ℕ) (U := UR sig nD τ) (Lvl := ℕ) (Val := Elt F) spec12 c [cc12_scratch0]) ∗ (∃ r, prngReg c r)) := rfl

/-- Before a point that is not the first: the accumulator at what the point before left. -/
theorem PhiS12_pos (c : Dev nD) (n : ℕ) (h : n ≤ cfg12.N) (hz : n ≠ 0) :
    PhiS12 V c n h = iprop(iprop(owns (c : Thread nD τ) scM12 fullShare (acc12 V c (n - 1) (by omega))
      ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The pipeline's proof data -/

/-- The proof data of pipeline 12 on core `c`: the arrays as the region finds them (`V`); after the body at point
    `t` each input's buffer at its block and the output's at the normalisation of the accumulator's payload (consulted
    only at the points that store it); the invariant `PhiS12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => View.canon [⟨r12_out, k12_pay3 (accP12 V c t.val t.isLt)⟩]
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at `t.val`. -/
theorem PhiS12_castSucc (c : Dev nD) (t : Fin cfg12.N) :
    (dat12 V c).Φ t.castSucc = PhiS12 V c t.val (Nat.le_of_lt t.isLt) := by
  dsimp only [dat12]; simp only [Fin.coe_castSucc]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = View.canon [⟨r12_out, k12_pay3 (accP12 V c t.val t.isLt)⟩] := by dsimp only [dat12]

/-- At a point that stores the output (the last inner step), its buffer holds the normalised accumulator payload. -/
theorem after12_2_last (c : Dev nD) (t : Fin cfg12.N) (h : t.val % 8 = 7) :
    (dat12 V c).after 2 t = View.canon [⟨r12_out, k12_pay3 (accP12 V c t.val t.isLt)⟩] := after12_2 V c t

end Cert.Kernel.Hand

end
-- ==== Proof.K.Lin13.lean ====
/- The class-A half of region 13 of @main (custom_call 13, `cc13__linear_kernel`, pipeline 13), at a parameter
   `V` — the TensorCore's buffer contents when the region is entered: each window's block at a point
   (`iblk13`), the output's buffer after the body (`out13_4`), the body's triple (`sound_kernel13`), the
   proof data (`dat13`) and the body obligation (`body_obligation13`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): unfetched, the block
    index has not moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): unfetched, the block
    index has not moved; the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): unfetched, the block
    index has not moved; the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): unfetched, the block
    index has not moved; the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

abbrev r13_0 : Rect S2048x256 := Rect.unit (s := S2048x256) ![0, 0] S2048x256.size inb_S2048x256_S2048x256_0_0
abbrev r13_1 : Rect S256x256 := Rect.unit (s := S256x256) ![0, 0] S256x256.size inb_S256x256_S256x256_0_0
abbrev r13_2 : Rect S1x256 := Rect.unit (s := S1x256) ![0, 0] S1x256.size inb_S1x256_S1x256_0_0
abbrev r13_3 : Rect S1x1 := Rect.unit (s := S1x1) ![0, 0] S1x1.size inb_S1x1_S1x1_0_0
abbrev r13_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out13_4 (x0 : Vec F S2048x256 .bf16) (x1 : Vec F S256x256 .bf16) (x2 : Vec F S1x256 .f32) (x3 : Vec F S1x1 .f32) : Vec F S2048x256 .f32 :=
  View.canon [⟨r13_4, k13_pay1 (View.ld x0 r13_0) (View.ld x1 r13_1) (View.ld x2 r13_2) (View.ld x3 r13_3)⟩]

/-- The store tiles the buffer (checked by evaluation), so it covers it. -/
theorem cover13_4 (p0 : Vec F S2048x256 .f32) (y : S2048x256.Idx) :
    ∃ pc ∈ ([⟨r13_4, p0⟩] : List (View.Piece (Elt F) S2048x256 .f32)), y ∈ pc.1.set :=
  View.cover_of_tiled [⟨r13_4, p0⟩] S2048x256.size (by rfl) y

/-! ## The body's triple -/

set_option maxHeartbeats 1000000 in
/-- The kernel body on whole staging memrefs, the inputs' at read contents `xW` and the output's at anything, runs to
    the continuation holding the inputs' as they were and the output's at `out13_4` of the inputs'. The body reads
    the output buffer once before it stores the whole of it; the value read is not used. -/
theorem sound_kernel13 (c : Dev nD) (E : Set ℕ) (i : grid13.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out13_4 x0 x1 x2 x3)) -∗ K ⟨⟩))
      ⊢ wp frame (wpE (defs₀ (F := F)) Variants.none c none) E (cc13__linear_kernel i arg0 harg0 arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The pipeline's proof data -/

/-- The proof data of pipeline 13 on core `c`: the arrays as the region finds them (`V`); after the body at
    point `t` each input's buffer at its block and the output's at `out13_4` of the input blocks; the invariant
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so `sound_kernel13` applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.AggDef14.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 14 (`cc14__agg_kernel`, pipeline 14), at the entry contents `V`: what it computes -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The body's accesses: each buffer is loaded and stored whole -/

abbrev r14_A : Rect S2048x2048 := Rect.unit (s := S2048x2048) ![0, 0] S2048x2048.size inb_S2048x2048_S2048x2048_0_0
abbrev r14_X : Rect S2048x256 := Rect.unit (s := S2048x256) ![0, 0] S2048x256.size inb_S2048x256_S2048x256_0_0
abbrev r14_out : Rect S2048x256 := Rect.unit (s := S2048x256) ![0, 0] S2048x256.size inb_S2048x256_S2048x256_0_0

/-- The scratch accumulator, a whole scoped buffer of the kernel's own, passed beside the windows. -/
abbrev scM14 : Memref sig .tc .vmem S2048x256 .f32 := Memref.whole cc14_scratch0

/-! ## What the accumulator holds after each point -/

/-- The payload last stored into the accumulator at point `n`: at the first inner step the zero piece plus the
    product of the point's blocks, at a later one what the point before left, loaded whole, plus the product. -/
def accP14 (c : Dev nD) : (n : ℕ) → n < cfg14.N → FVec F S2048x256 .f32
  | 0, hn => k14_pay2 (k14_pay1 (F := F)) (View.ld (iblk14 V c 0 ⟨0, hn⟩ : Vec F S2048x2048 .bf16) r14_A) (View.ld (iblk14 V c 1 ⟨0, hn⟩ : Vec F S2048x256 .bf16) r14_X)
  | n + 1, hn =>
    if (n + 1) % 4 = 0 then
      k14_pay2 (k14_pay1 (F := F)) (View.ld (iblk14 V c 0 ⟨n + 1, hn⟩ : Vec F S2048x2048 .bf16) r14_A) (View.ld (iblk14 V c 1 ⟨n + 1, hn⟩ : Vec F S2048x256 .bf16) r14_X)
    else
      k14_pay2 (View.ld (View.canon [(⟨r14_out, accP14 c n (Nat.lt_of_succ_lt hn)⟩ : View.Piece (Elt F) S2048x256 .f32)]) r14_out)
        (View.ld (iblk14 V c 0 ⟨n + 1, hn⟩ : Vec F S2048x2048 .bf16) r14_A) (View.ld (iblk14 V c 1 ⟨n + 1, hn⟩ : Vec F S2048x256 .bf16) r14_X)

/-- What the accumulator holds after point `n`. -/
def acc14 (c : Dev nD) (n : ℕ) (hn : n < cfg14.N) : Vec F S2048x256 .f32 :=
  View.canon [⟨r14_out, accP14 V c n hn⟩]

/-- At a first inner step. -/
theorem accP14_first (c : Dev nD) (t : Fin cfg14.N) (h : t.val % 4 = 0) :
    accP14 V c t.val t.isLt = k14_pay2 (k14_pay1 (F := F)) (View.ld (iblk14 V c 0 t : Vec F S2048x2048 .bf16) r14_A) (View.ld (iblk14 V c 1 t : Vec F S2048x256 .bf16) r14_X) := by
  obtain ⟨n, hn⟩ := t
  cases n with
  | zero => rfl
  | succ n => exact if_pos h

/-- At a later inner step: over what the point before left. -/
theorem accP14_step (c : Dev nD) (t : Fin cfg14.N) (h : ¬t.val % 4 = 0) :
    accP14 V c t.val t.isLt = k14_pay2 (View.ld (acc14 V c (t.val - 1) (by have := t.isLt; omega)) r14_out)
      (View.ld (iblk14 V c 0 t : Vec F S2048x2048 .bf16) r14_A) (View.ld (iblk14 V c 1 t : Vec F S2048x256 .bf16) r14_X) := by
  obtain ⟨n, hn⟩ := t
  cases n with
  | zero => exact absurd (Nat.zero_mod _) h
  | succ n => exact if_neg h

theorem acc14_eq (c : Dev nD) (n : ℕ) (hn : n < cfg14.N) : acc14 V c n hn = View.canon [⟨r14_out, accP14 V c n hn⟩] := rfl

/-- The region invariant before position `n`: before the first point the class's; afterwards the accumulator at what
    the point before left, the rest of the scoped buffers unopened, the generator register at some state. -/
def PhiS14 (c : Dev nD) : (n : ℕ) → n ≤ cfg14.N → sProp 𝕄
  | 0, _ => Pipeline.ΦA spec14 c
  | n + 1, hn => iprop(iprop(owns (c : Thread nD τ) scM14 fullShare (acc14 V c n hn)
      ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl

/-- After point `n` (before point `n + 1`): the accumulator at that point's contents. -/
theorem PhiS14_succ (c : Dev nD) (n : ℕ) (hn : n < cfg14.N) :
    PhiS14 V c (n + 1) hn = iprop(iprop(owns (c : Thread nD τ) scM14 fullShare (acc14 V c n hn)
      ∗ Pipeline.scopedRestBut (Ix := Unit) (Name := ℕ) (U := UR sig nD τ) (Lvl := ℕ) (Val := Elt F) spec14 c [cc14_scratch0]) ∗ (∃ r, prngReg c r)) := rfl

/-- Before a point that is not the first: the accumulator at what the point before left. -/
theorem PhiS14_pos (c : Dev nD) (n : ℕ) (h : n ≤ cfg14.N) (hz : n ≠ 0) :
    PhiS14 V c n h = iprop(iprop(owns (c : Thread nD τ) scM14 fullShare (acc14 V c (n - 1) (by omega))
      ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-! ## The pipeline's proof data -/

/-- The proof data of pipeline 14 on core `c`: the arrays as the region finds them (`V`); after the body at point
    `t` each input's buffer at its block and the output's at the normalisation of the accumulator's payload (consulted
    only at the points that store it); the invariant `PhiS14`; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => View.canon [⟨r14_out, k14_pay3 (accP14 V c t.val t.isLt)⟩]
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- The invariant at a point's start, restated at `t.val`. -/
theorem PhiS14_castSucc (c : Dev nD) (t : Fin cfg14.N) :
    (dat14 V c).Φ t.castSucc = PhiS14 V c t.val (Nat.le_of_lt t.isLt) := by
  dsimp only [dat14]; simp only [Fin.coe_castSucc]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = View.canon [⟨r14_out, k14_pay3 (accP14 V c t.val t.isLt)⟩] := by dsimp only [dat14]

/-- At a point that stores the output (the last inner step), its buffer holds the normalised accumulator payload. -/
theorem after14_2_last (c : Dev nD) (t : Fin cfg14.N) (h : t.val % 4 = 3) :
    (dat14 V c).after 2 t = View.canon [⟨r14_out, k14_pay3 (accP14 V c t.val t.isLt)⟩] := after14_2 V c t

end Cert.Kernel.Hand

end
-- ==== Proof.K.Lin15.lean ====
/- The class-A half of region 15 of @main (custom_call 15, `cc15__linear_kernel`, pipeline 15), at a parameter
   `V` — the TensorCore's buffer contents when the region is entered: each window's block at a point
   (`iblk15`), the output's buffer after the body (`out15_4`), the body's triple (`sound_kernel15`), the
   proof data (`dat15`) and the body obligation (`body_obligation15`). -/
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): unfetched, the block
    index has not moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is `V`'s (`hA`) and whose body leaves the block in place (`hafter`): unfetched, the block
    index has not moved; the window is uncut and never idle. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is `V`'s (`hA`) and whose body leaves the block in place (`hafter`): unfetched, the block
    index has not moved; the window is uncut and never idle. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- Input window 3's current staging buffer holds its block at every point, fetched there or not, for any proof
    data whose array is `V`'s (`hA`) and whose body leaves the block in place (`hafter`): unfetched, the block
    index has not moved; the window is uncut and never idle. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

abbrev r15_0 : Rect S2048x256 := Rect.unit (s := S2048x256) ![0, 0] S2048x256.size inb_S2048x256_S2048x256_0_0
abbrev r15_1 : Rect S256x256 := Rect.unit (s := S256x256) ![0, 0] S256x256.size inb_S256x256_S256x256_0_0
abbrev r15_2 : Rect S1x256 := Rect.unit (s := S1x256) ![0, 0] S1x256.size inb_S1x256_S1x256_0_0
abbrev r15_3 : Rect S1x1 := Rect.unit (s := S1x1) ![0, 0] S1x1.size inb_S1x1_S1x1_0_0
abbrev r15_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out15_4 (x0 : Vec F S2048x256 .bf16) (x1 : Vec F S256x256 .bf16) (x2 : Vec F S1x256 .f32) (x3 : Vec F S1x1 .f32) : Vec F S2048x256 .f32 :=
  View.canon [⟨r15_4, k15_pay1 (View.ld x0 r15_0) (View.ld x1 r15_1) (View.ld x2 r15_2) (View.ld x3 r15_3)⟩]

/-- The store tiles the buffer (checked by evaluation), so it covers it. -/
theorem cover15_4 (p0 : Vec F S2048x256 .f32) (y : S2048x256.Idx) :
    ∃ pc ∈ ([⟨r15_4, p0⟩] : List (View.Piece (Elt F) S2048x256 .f32)), y ∈ pc.1.set :=
  View.cover_of_tiled [⟨r15_4, p0⟩] S2048x256.size (by rfl) y

/-! ## The body's triple -/

set_option maxHeartbeats 1000000 in
/-- The kernel body on whole staging memrefs, the inputs' at read contents `xW` and the output's at anything, runs to
    the continuation holding the inputs' as they were and the output's at `out15_4` of the inputs'. The body reads
    the output buffer once before it stores the whole of it; the value read is not used. -/
theorem sound_kernel15 (c : Dev nD) (E : Set ℕ) (i : grid15.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out15_4 x0 x1 x2 x3)) -∗ K ⟨⟩))
      ⊢ wp frame (wpE (defs₀ (F := F)) Variants.none c none) E (cc15__linear_kernel i arg0 harg0 arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-! ## The pipeline's proof data -/

/-- The proof data of pipeline 15 on core `c`: the arrays as the region finds them (`V`); after the body at
    point `t` each input's buffer at its block and the output's at `out15_4` of the input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = out15_4 (iblk15 V c 0 t) (iblk15 V c 1 t) (iblk15 V c 2 t) (iblk15 V c 3 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- The body at any point: the inputs' memrefs hold their blocks, so `sound_kernel15` applies; the invariant and
    the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.AggDef16.lean ====
import proofs.«103499_j73031623901527_2_alg».proof.Proof.Gen.Kernel.Launch
import proofs.«103499_j73031623901527_2_alg».proof.Proof.Gen.Kernel.Skeleton
import proofs.«103499_j73031623901527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 16 (`cc16__agg_kernel`, pipeline 16), at the entry contents `V`: what it computes -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The body's accesses: each buffer is loaded and stored whole -/

abbrev r16_A : Rect S2048x2048 := Rect.unit (s := S2048x2048) ![0, 0] S2048x2048.size inb_S2048x2048_S2048x2048_0_0
abbrev r16_X : Rect S2048x256 := Rect.unit (s := S2048x256) ![0, 0] S2048x256.size inb_S2048x256_S2048x256_0_0
abbrev r16_out : Rect S2048x256 := Rect.unit (s := S2048x256) ![0, 0] S2048x256.size inb_S2048x256_S2048x256_0_0

/-- The scratch accumulator, a whole scoped buffer of the kernel's own, passed beside the windows. -/
abbrev scM16 : Memref sig .tc .vmem S2048x256 .f32 := Memref.whole cc16_scratch0

/-! ## What the accumulator holds after each point -/

/-- The payload last stored into the accumulator at point `n`: at the first inner step the zero piece plus the
    product of the point's blocks, at a later one what the point before left, loaded whole, plus the product. -/
def accP16 (c : Dev nD) : (n : ℕ) → n < cfg16.N → FVec F S2048x256 .f32
  | 0, hn => k16_pay2 (k16_pay1 (F := F)) (View.ld (iblk16 V c 0 ⟨0, hn⟩ : Vec F S2048x2048 .bf16) r16_A) (View.ld (iblk16 V c 1 ⟨0, hn⟩ : Vec F S2048x256 .bf16) r16_X)
  | n + 1, hn =>
    if (n + 1) % 4 = 0 then
      k16_pay2 (k16_pay1 (F := F)) (View.ld (iblk16 V c 0 ⟨n + 1, hn⟩ : Vec F S2048x2048 .bf16) r16_A) (View.ld (iblk16 V c 1 ⟨n + 1, hn⟩ : Vec F S2048x256 .bf16) r16_X)
    else
      k16_pay2 (View.ld (View.canon [(⟨r16_out, accP16 c n (Nat.lt_of_succ_lt hn)⟩ : View.Piece (Elt F) S2048x256 .f32)]) r16_out)
        (View.ld (iblk16 V c 0 ⟨n + 1, hn⟩ : Vec F S2048x2048 .bf16) r16_A) (View.ld (iblk16 V c 1 ⟨n + 1, hn⟩ : Vec F S2048x256 .bf16) r16_X)

/-- What the accumulator holds after point `n`. -/
def acc16 (c : Dev nD) (n : ℕ) (hn : n < cfg16.N) : Vec F S2048x256 .f32 :=
  View.canon [⟨r16_out, accP16 V c n hn⟩]

/-- At a first inner step. -/
theorem accP16_first (c : Dev nD) (t : Fin cfg16.N) (h : t.val % 4 = 0) :
    accP16 V c t.val t.isLt = k16_pay2 (k16_pay1 (F := F)) (View.ld (iblk16 V c 0 t : Vec F S2048x2048 .bf16) r16_A) (View.ld (iblk16 V c 1 t : Vec F S2048x256 .bf16) r16_X) := by
  obtain ⟨n, hn⟩ := t
  cases n with
  | zero => rfl
  | succ n => exact if_pos h

/-- At a later inner step: over what the point before left. -/
theorem accP16_step (c : Dev nD) (t : Fin cfg16.N) (h : ¬t.val % 4 = 0) :
    accP16 V c t.val t.isLt = k16_pay2 (View.ld (acc16 V c (t.val - 1) (by have := t.isLt; omega)) r16_out)
      (View.ld (iblk16 V c 0 t : Vec F S2048x2048 .bf16) r16_A) (View.ld (iblk16 V c 1 t : Vec F S2048x256 .bf16) r16_X) := by
  obtain ⟨n, hn⟩ := t
  cases n with
  | zero => exact absurd (Nat.zero_mod _) h
  | succ n => exact if_neg h

theorem acc16_eq (c : Dev nD) (n : ℕ) (hn : n < cfg16.N) : acc16 V c n hn = View.canon [⟨r16_out, accP16 V c n hn⟩] := rfl

/-- The region invariant before position `n`: before the first point the class's; afterwards the accumulator at what
    the point before left, the rest of the scoped buffers unopened, the generator register at some state. -/
def PhiS16 (c : Dev nD) : (n : ℕ) → n ≤ cfg16.N → sProp 𝕄
  | 0, _ => Pipeline.ΦA spec16 c
  | n + 1, hn => iprop(iprop(owns (c : Thread nD τ) scM16 fullShare (acc16 V c n hn)
      ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl

/-- After point `n` (before point `n + 1`): the accumulator at that point's contents. -/
theorem PhiS16_succ (c : Dev nD) (n : ℕ) (hn : n < cfg16.N) :
    PhiS16 V c (n + 1) hn = iprop(iprop(owns (c : Thread nD τ) scM16 fullShare (acc16 V c n hn)
      ∗ Pipeline.scopedRestBut (Ix := Unit) (Name := ℕ) (U := UR sig nD τ) (Lvl := ℕ) (Val := Elt F) spec16 c [cc16_scratch0]) ∗ (∃ r, prngReg c r)) := rfl

/-- Before a point that is not the first: the accumulator at what the point before left. -/
theorem PhiS16_pos (c : Dev nD) (n : ℕ) (h : n ≤ cfg16.N) (hz : n ≠ 0) :
    PhiS16 V c n h = iprop(iprop(owns (c : Thread nD τ) scM16 fullShare (acc16 V c (n - 1) (by omega))
      ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-! ## The pipeline's proof data -/

/-- The proof data of pipeline 16 on core `c`: the arrays as the region finds them (`V`); after the body at point
    `t` each input's buffer at its block and the output's at the normalisation of the accumulator's payload (consulted
    only at the points that store it); the invariant `PhiS16`; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => View.canon [⟨r16_out, k16_pay3 (accP16 V c t.val t.isLt)⟩]
  Φ t := PhiS16 V c t.val (Nat.le_of_lt_succ t.isLt)
  q _ := fullShare
  owed _ := 0

/-- The proof data's arrays are the region-entry contents. -/
theorem A_eq16 (c : Dev nD) (w : Fin cfg16.W) : (dat16 V c).A w = V c (Pipeline.arrRef spec16 w) := by
  dsimp only [dat16]

/-- The invariant at a point's start, restated at `t.val`. -/
theorem PhiS16_castSucc (c : Dev nD) (t : Fin cfg16.N) :
    (dat16 V c).Φ t.castSucc = PhiS16 V c t.val (Nat.le_of_lt t.isLt) := by
  dsimp only [dat16]; simp only [Fin.coe_castSucc]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) :
    (dat16 V c).after 2 t = View.canon [⟨r16_out, k16_pay3 (accP16 V c t.val t.isLt)⟩] := by dsimp only [dat16]

/-- At a point that stores the output (the last inner step), its buffer holds the normalised accumulator payload. -/
theorem after16_2_last (c : Dev nD) (t : Fin cfg16.N) (h : t.val % 4 = 3) :
    (dat16 V c).after 2 t = View.canon [⟨r16_out, k16_pay3 (accP16 V c t.val t.isLt)⟩] := after16_2 V c t

end Cert.Kernel.Hand

end
-- ==== Proof.K.Run1.lean ====
/- The run of @main, first part: the TensorCore's buffer contents at each of the 36 boundaries between @main's 35
   items (18 stretches of host operations alternating with the 17 kernel regions), as a fold from the launch memory —
   a stretch's `StableHlo.after`, a region's arrays at what its write-backs leave (`Pipeline.withArrays`) —; each
   argument array read back through the fold to its launch contents (no stretch writes one, no region has one as a
   window's array); every pipeline's proof data at its region's entry contents; the thread state between items. -/
import proofs.«103499_j73031623901527_2_alg».proof.Proof.K.Lin0
import proofs.«103499_j73031623901527_2_alg».proof.Proof.K.AggDef1
import proofs.«103499_j73031623901527_2_alg».proof.Proof.K.Lin2
import proofs.«103499_j73031623901527_2_alg».proof.Proof.K.AggDef3
import proofs.«103499_j73031623901527_2_alg».proof.Proof.K.Lin4
import proofs.«103499_j73031623901527_2_alg».proof.Proof.K.Lin5
import proofs.«103499_j73031623901527_2_alg».proof.Proof.K.Lin6
import proofs.«103499_j73031623901527_2_alg».proof.Proof.K.AggDef7
import proofs.«103499_j73031623901527_2_alg».proof.Proof.K.AggDef8
import proofs.«103499_j73031623901527_2_alg».proof.Proof.K.Lin9
import proofs.«103499_j73031623901527_2_alg».proof.Proof.K.AggDef10
import proofs.«103499_j73031623901527_2_alg».proof.Proof.K.AggDef11
import proofs.«103499_j73031623901527_2_alg».proof.Proof.K.AggDef12
import proofs.«103499_j73031623901527_2_alg».proof.Proof.K.Lin13
import proofs.«103499_j73031623901527_2_alg».proof.Proof.K.AggDef14
import proofs.«103499_j73031623901527_2_alg».proof.Proof.K.Lin15
import proofs.«103499_j73031623901527_2_alg».proof.Proof.K.AggDef16
import proofs.«103499_j73031623901527_2_alg».proof.Proof.K.RegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W_host_keep_0 (c : Dev nD) (b : Ref sig .tc) (h : b ∉ hostOps0_W) :
    W1 m ρ c (Proc.devRef .tc b) = W0 m ρ c (Proc.devRef .tc b) := W1_of m ρ c b h
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W_host_keep_1 (c : Dev nD) (b : Ref sig .tc) (h : b ∉ hostOps1_W) :
    W3 m ρ c (Proc.devRef .tc b) = W2 m ρ c (Proc.devRef .tc b) := W3_of m ρ c b h
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W_host_keep_2 (c : Dev nD) (b : Ref sig .tc) (h : b ∉ hostOps2_W) :
    W5 m ρ c (Proc.devRef .tc b) = W4 m ρ c (Proc.devRef .tc b) := W5_of m ρ c b h
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W_host_keep_3 (c : Dev nD) (b : Ref sig .tc) (h : b ∉ hostOps3_W) :
    W7 m ρ c (Proc.devRef .tc b) = W6 m ρ c (Proc.devRef .tc b) := W7_of m ρ c b h
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- A reference `hostOps4` does not write keeps its contents. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
theorem W_host_keep_4 (c : Dev nD) (b : Ref sig .tc) (h : b ∉ hostOps4_W) :
    W9 m ρ c (Proc.devRef .tc b) = W8 m ρ c (Proc.devRef .tc b) := W9_of m ρ c b h
/-- At region 4's exit: its arrays at what the pipeline leaves (the inputs as entered, the output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- A reference `hostOps5` does not write keeps its contents. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
theorem W_host_keep_5 (c : Dev nD) (b : Ref sig .tc) (h : b ∉ hostOps5_W) :
    W11 m ρ c (Proc.devRef .tc b) = W10 m ρ c (Proc.devRef .tc b) := W11_of m ρ c b h
/-- At region 5's exit: its arrays at what the pipeline leaves (the inputs as entered, the output's write-backs
    folded: `Dat.arrAt … N`), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- A reference `hostOps6` does not write keeps its contents. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
theorem W_host_keep_6 (c : Dev nD) (b : Ref sig .tc) (h : b ∉ hostOps6_W) :
    W13 m ρ c (Proc.devRef .tc b) = W12 m ρ c (Proc.devRef .tc b) := W13_of m ρ c b h
/-- At region 6's exit: its arrays at what the pipeline leaves (the inputs as entered, the output's write-backs
    folded: `Dat.arrAt … N`), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7` (region 7's entry). -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- A reference `hostOps7` does not write keeps its contents. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
theorem W_host_keep_7 (c : Dev nD) (b : Ref sig .tc) (h : b ∉ hostOps7_W) :
    W15 m ρ c (Proc.devRef .tc b) = W14 m ρ c (Proc.devRef .tc b) := W15_of m ρ c b h
/-- At region 7's exit: its arrays at what the pipeline leaves (the inputs as entered, the output's write-backs
    folded: `Dat.arrAt … N`), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8` (region 8's entry). -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- A reference `hostOps8` does not write keeps its contents. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
theorem W_host_keep_8 (c : Dev nD) (b : Ref sig .tc) (h : b ∉ hostOps8_W) :
    W17 m ρ c (Proc.devRef .tc b) = W16 m ρ c (Proc.devRef .tc b) := W17_of m ρ c b h
/-- At region 8's exit: its arrays at what the pipeline leaves (the inputs as entered, the output's write-backs
    folded: `Dat.arrAt … N`), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After `hostOps9` (region 9's entry). -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b
/-- A reference `hostOps9` does not write keeps its contents. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
theorem W_host_keep_9 (c : Dev nD) (b : Ref sig .tc) (h : b ∉ hostOps9_W) :
    W19 m ρ c (Proc.devRef .tc b) = W18 m ρ c (Proc.devRef .tc b) := W19_of m ρ c b h
/-- At region 9's exit: its arrays at what the pipeline leaves (the inputs as entered, the output's write-backs
    folded: `Dat.arrAt … N`), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After `hostOps10` (region 10's entry). -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b
/-- A reference `hostOps10` does not write keeps its contents. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
theorem W_host_keep_10 (c : Dev nD) (b : Ref sig .tc) (h : b ∉ hostOps10_W) :
    W21 m ρ c (Proc.devRef .tc b) = W20 m ρ c (Proc.devRef .tc b) := W21_of m ρ c b h
/-- At region 10's exit: its arrays at what the pipeline leaves (the inputs as entered, the output's write-backs
    folded: `Dat.arrAt … N`), every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m ρ c b
/-- At region 10's exit each of its arrays holds what the pipeline leaves and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After `hostOps11` (region 11's entry). -/
abbrev W23 : Dev nD → Valuation τ sig (Elt F) := fun c => StableHlo.after hostOps11 (W22 m ρ c)
/-- The same read at the TensorCore's references. -/
abbrev V23 : (c : Dev nD) → (b : Ref sig .tc) → Buf (Elt F) ((c : Thread nD τ).loc b) := fun c b => W23 m ρ c b
/-- A reference `hostOps11` does not write keeps its contents. -/
theorem W23_of (c : Dev nD) (r : Ref sig .tc) (h : r ∉ hostOps11_W) :
    W23 m ρ c (Proc.devRef .tc r) = W22 m ρ c (Proc.devRef .tc r) :=
  StableHlo.after_of_writes_sub hostOps11 _ hostOps11_writes h
theorem W_host_keep_11 (c : Dev nD) (b : Ref sig .tc) (h : b ∉ hostOps11_W) :
    W23 m ρ c (Proc.devRef .tc b) = W22 m ρ c (Proc.devRef .tc b) := W23_of m ρ c b h
/-- At region 11's exit: its arrays at what the pipeline leaves (the inputs as entered, the output's write-backs
    folded: `Dat.arrAt … N`), every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m ρ c b
/-- At region 11's exit each of its arrays holds what the pipeline leaves and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After `hostOps12` (region 12's entry). -/
abbrev W25 : Dev nD → Valuation τ sig (Elt F) := fun c => StableHlo.after hostOps12 (W24 m ρ c)
/-- The same read at the TensorCore's references. -/
abbrev V25 : (c : Dev nD) → (b : Ref sig .tc) → Buf (Elt F) ((c : Thread nD τ).loc b) := fun c b => W25 m ρ c b
/-- A reference `hostOps12` does not write keeps its contents. -/
theorem W25_of (c : Dev nD) (r : Ref sig .tc) (h : r ∉ hostOps12_W) :
    W25 m ρ c (Proc.devRef .tc r) = W24 m ρ c (Proc.devRef .tc r) :=
  StableHlo.after_of_writes_sub hostOps12 _ hostOps12_writes h
theorem W_host_keep_12 (c : Dev nD) (b : Ref sig .tc) (h : b ∉ hostOps12_W) :
    W25 m ρ c (Proc.devRef .tc b) = W24 m ρ c (Proc.devRef .tc b) := W25_of m ρ c b h
/-- At region 12's exit: its arrays at what the pipeline leaves (the inputs as entered, the output's write-backs
    folded: `Dat.arrAt … N`), every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m ρ c b
/-- At region 12's exit each of its arrays holds what the pipeline leaves and every other buffer what it held at entry. -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After `hostOps13` (region 13's entry). -/
abbrev W27 : Dev nD → Valuation τ sig (Elt F) := fun c => StableHlo.after hostOps13 (W26 m ρ c)
/-- The same read at the TensorCore's references. -/
abbrev V27 : (c : Dev nD) → (b : Ref sig .tc) → Buf (Elt F) ((c : Thread nD τ).loc b) := fun c b => W27 m ρ c b
/-- A reference `hostOps13` does not write keeps its contents. -/
theorem W27_of (c : Dev nD) (r : Ref sig .tc) (h : r ∉ hostOps13_W) :
    W27 m ρ c (Proc.devRef .tc r) = W26 m ρ c (Proc.devRef .tc r) :=
  StableHlo.after_of_writes_sub hostOps13 _ hostOps13_writes h
theorem W_host_keep_13 (c : Dev nD) (b : Ref sig .tc) (h : b ∉ hostOps13_W) :
    W27 m ρ c (Proc.devRef .tc b) = W26 m ρ c (Proc.devRef .tc b) := W27_of m ρ c b h
/-- At region 13's exit: its arrays at what the pipeline leaves (the inputs as entered, the output's write-backs
    folded: `Dat.arrAt … N`), every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
abbrev V28 : (c : Dev nD) → (b : Ref sig .tc) → Buf (Elt F) ((c : Thread nD τ).loc b) := fun c b => W28 m ρ c b
/-- At region 13's exit each of its arrays holds what the pipeline leaves and every other buffer what it held at entry. -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After `hostOps14` (region 14's entry). -/
abbrev W29 : Dev nD → Valuation τ sig (Elt F) := fun c => StableHlo.after hostOps14 (W28 m ρ c)
/-- The same read at the TensorCore's references. -/
abbrev V29 : (c : Dev nD) → (b : Ref sig .tc) → Buf (Elt F) ((c : Thread nD τ).loc b) := fun c b => W29 m ρ c b
/-- A reference `hostOps14` does not write keeps its contents. -/
theorem W29_of (c : Dev nD) (r : Ref sig .tc) (h : r ∉ hostOps14_W) :
    W29 m ρ c (Proc.devRef .tc r) = W28 m ρ c (Proc.devRef .tc r) :=
  StableHlo.after_of_writes_sub hostOps14 _ hostOps14_writes h
theorem W_host_keep_14 (c : Dev nD) (b : Ref sig .tc) (h : b ∉ hostOps14_W) :
    W29 m ρ c (Proc.devRef .tc b) = W28 m ρ c (Proc.devRef .tc b) := W29_of m ρ c b h
/-- At region 14's exit: its arrays at what the pipeline leaves (the inputs as entered, the output's write-backs
    folded: `Dat.arrAt … N`), every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references (region 14's exit contents). -/
abbrev V30 : (c : Dev nD) → (b : Ref sig .tc) → Buf (Elt F) ((c : Thread nD τ).loc b) := fun c b => W30 m ρ c b
/-- At region 14's exit each of its arrays holds what the pipeline leaves and every other buffer what it held at entry. -/
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After `hostOps15` (region 15's entry). -/
abbrev W31 : Dev nD → Valuation τ sig (Elt F) := fun c => StableHlo.after hostOps15 (W30 m ρ c)
/-- The same read at the TensorCore's references. -/
abbrev V31 : (c : Dev nD) → (b : Ref sig .tc) → Buf (Elt F) ((c : Thread nD τ).loc b) := fun c b => W31 m ρ c b
/-- A reference `hostOps15` does not write keeps its contents. -/
theorem W31_of (c : Dev nD) (r : Ref sig .tc) (h : r ∉ hostOps15_W) :
    W31 m ρ c (Proc.devRef .tc r) = W30 m ρ c (Proc.devRef .tc r) :=
  StableHlo.after_of_writes_sub hostOps15 _ hostOps15_writes h
theorem W_host_keep_15 (c : Dev nD) (b : Ref sig .tc) (h : b ∉ hostOps15_W) :
    W31 m ρ c (Proc.devRef .tc b) = W30 m ρ c (Proc.devRef .tc b) := W31_of m ρ c b h
/-- At region 15's exit: its arrays at what the pipeline leaves (the inputs as entered, the output's write-backs
    folded: `Dat.arrAt … N`), every other buffer as entered. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
/-- The same read at the TensorCore's references (region 15's exit contents). -/
abbrev V32 : (c : Dev nD) → (b : Ref sig .tc) → Buf (Elt F) ((c : Thread nD τ).loc b) := fun c b => W32 m ρ c b
/-- At region 15's exit each of its arrays holds what the pipeline leaves and every other buffer what it held at entry. -/
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After `hostOps16` (region 16's entry). -/
abbrev W33 : Dev nD → Valuation τ sig (Elt F) := fun c => StableHlo.after hostOps16 (W32 m ρ c)
/-- The same read at the TensorCore's references. -/
abbrev V33 : (c : Dev nD) → (b : Ref sig .tc) → Buf (Elt F) ((c : Thread nD τ).loc b) := fun c b => W33 m ρ c b
/-- A reference `hostOps16` does not write keeps its contents. -/
theorem W33_of (c : Dev nD) (r : Ref sig .tc) (h : r ∉ hostOps16_W) :
    W33 m ρ c (Proc.devRef .tc r) = W32 m ρ c (Proc.devRef .tc r) :=
  StableHlo.after_of_writes_sub hostOps16 _ hostOps16_writes h
theorem W_host_keep_16 (c : Dev nD) (b : Ref sig .tc) (h : b ∉ hostOps16_W) :
    W33 m ρ c (Proc.devRef .tc b) = W32 m ρ c (Proc.devRef .tc b) := W33_of m ρ c b h
/-- At region 16's exit: its arrays at what the pipeline leaves (the inputs as entered, the output's write-backs
    folded: `Dat.arrAt … N`), every other buffer as entered. -/
def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
/-- The same read at the TensorCore's references (region 16's exit contents). -/
abbrev V34 : (c : Dev nD) → (b : Ref sig .tc) → Buf (Elt F) ((c : Thread nD τ).loc b) := fun c b => W34 m ρ c b
/-- At region 16's exit each of its arrays holds what the pipeline leaves and every other buffer what it held at entry. -/
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- After `hostOps17` (the return). -/
abbrev W35 : Dev nD → Valuation τ sig (Elt F) := fun c => StableHlo.after hostOps17 (W34 m ρ c)
/-- The same read at the TensorCore's references. -/
abbrev V35 : (c : Dev nD) → (b : Ref sig .tc) → Buf (Elt F) ((c : Thread nD τ).loc b) := fun c b => W35 m ρ c b
/-- A reference `hostOps17` does not write keeps its contents. -/
theorem W35_of (c : Dev nD) (r : Ref sig .tc) (h : r ∉ hostOps17_W) :
    W35 m ρ c (Proc.devRef .tc r) = W34 m ρ c (Proc.devRef .tc r) :=
  StableHlo.after_of_writes_sub hostOps17 _ hostOps17_writes h
theorem W_host_keep_17 (c : Dev nD) (b : Ref sig .tc) (h : b ∉ hostOps17_W) :
    W35 m ρ c (Proc.devRef .tc b) = W34 m ρ c (Proc.devRef .tc b) := W35_of m ρ c b h

/-! ### The arguments end as launched: no host operation writes one and no region has one as a window's array, so
    the fold at an argument's buffer walks back to the launch memory -/

theorem W35_main_arg0 (c : Dev nD) : W35 m ρ c (Proc.devRef .tc main_arg0) = m ((c : Thread nD τ).loc main_arg0) :=
  (W35_of m ρ c main_arg0 (by decide)).trans <|
  (W34_of_ne m ρ c main_arg0 (by decide)).trans <|
  (W33_of m ρ c main_arg0 (by decide)).trans <|
  (W32_of_ne m ρ c main_arg0 (by decide)).trans <|
  (W31_of m ρ c main_arg0 (by decide)).trans <|
  (W30_of_ne m ρ c main_arg0 (by decide)).trans <|
  (W29_of m ρ c main_arg0 (by decide)).trans <|
  (W28_of_ne m ρ c main_arg0 (by decide)).trans <|
  (W27_of m ρ c main_arg0 (by decide)).trans <|
  (W26_of_ne m ρ c main_arg0 (by decide)).trans <|
  (W25_of m ρ c main_arg0 (by decide)).trans <|
  (W24_of_ne m ρ c main_arg0 (by decide)).trans <|
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W35_main_arg1 (c : Dev nD) : W35 m ρ c (Proc.devRef .tc main_arg1) = m ((c : Thread nD τ).loc main_arg1) :=
  (W35_of m ρ c main_arg1 (by decide)).trans <|
  (W34_of_ne m ρ c main_arg1 (by decide)).trans <|
  (W33_of m ρ c main_arg1 (by decide)).trans <|
  (W32_of_ne m ρ c main_arg1 (by decide)).trans <|
  (W31_of m ρ c main_arg1 (by decide)).trans <|
  (W30_of_ne m ρ c main_arg1 (by decide)).trans <|
  (W29_of m ρ c main_arg1 (by decide)).trans <|
  (W28_of_ne m ρ c main_arg1 (by decide)).trans <|
  (W27_of m ρ c main_arg1 (by decide)).trans <|
  (W26_of_ne m ρ c main_arg1 (by decide)).trans <|
  (W25_of m ρ c main_arg1 (by decide)).trans <|
  (W24_of_ne m ρ c main_arg1 (by decide)).trans <|
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W35_main_arg2 (c : Dev nD) : W35 m ρ c (Proc.devRef .tc main_arg2) = m ((c : Thread nD τ).loc main_arg2) :=
  (W35_of m ρ c main_arg2 (by decide)).trans <|
  (W34_of_ne m ρ c main_arg2 (by decide)).trans <|
  (W33_of m ρ c main_arg2 (by decide)).trans <|
  (W32_of_ne m ρ c main_arg2 (by decide)).trans <|
  (W31_of m ρ c main_arg2 (by decide)).trans <|
  (W30_of_ne m ρ c main_arg2 (by decide)).trans <|
  (W29_of m ρ c main_arg2 (by decide)).trans <|
  (W28_of_ne m ρ c main_arg2 (by decide)).trans <|
  (W27_of m ρ c main_arg2 (by decide)).trans <|
  (W26_of_ne m ρ c main_arg2 (by decide)).trans <|
  (W25_of m ρ c main_arg2 (by decide)).trans <|
  (W24_of_ne m ρ c main_arg2 (by decide)).trans <|
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W35_main_arg3 (c : Dev nD) : W35 m ρ c (Proc.devRef .tc main_arg3) = m ((c : Thread nD τ).loc main_arg3) :=
  (W35_of m ρ c main_arg3 (by decide)).trans <|
  (W34_of_ne m ρ c main_arg3 (by decide)).trans <|
  (W33_of m ρ c main_arg3 (by decide)).trans <|
  (W32_of_ne m ρ c main_arg3 (by decide)).trans <|
  (W31_of m ρ c main_arg3 (by decide)).trans <|
  (W30_of_ne m ρ c main_arg3 (by decide)).trans <|
  (W29_of m ρ c main_arg3 (by decide)).trans <|
  (W28_of_ne m ρ c main_arg3 (by decide)).trans <|
  (W27_of m ρ c main_arg3 (by decide)).trans <|
  (W26_of_ne m ρ c main_arg3 (by decide)).trans <|
  (W25_of m ρ c main_arg3 (by decide)).trans <|
  (W24_of_ne m ρ c main_arg3 (by decide)).trans <|
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W35_main_arg4 (c : Dev nD) : W35 m ρ c (Proc.devRef .tc main_arg4) = m ((c : Thread nD τ).loc main_arg4) :=
  (W35_of m ρ c main_arg4 (by decide)).trans <|
  (W34_of_ne m ρ c main_arg4 (by decide)).trans <|
  (W33_of m ρ c main_arg4 (by decide)).trans <|
  (W32_of_ne m ρ c main_arg4 (by decide)).trans <|
  (W31_of m ρ c main_arg4 (by decide)).trans <|
  (W30_of_ne m ρ c main_arg4 (by decide)).trans <|
  (W29_of m ρ c main_arg4 (by decide)).trans <|
  (W28_of_ne m ρ c main_arg4 (by decide)).trans <|
  (W27_of m ρ c main_arg4 (by decide)).trans <|
  (W26_of_ne m ρ c main_arg4 (by decide)).trans <|
  (W25_of m ρ c main_arg4 (by decide)).trans <|
  (W24_of_ne m ρ c main_arg4 (by decide)).trans <|
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl
theorem W35_main_arg5 (c : Dev nD) : W35 m ρ c (Proc.devRef .tc main_arg5) = m ((c : Thread nD τ).loc main_arg5) :=
  (W35_of m ρ c main_arg5 (by decide)).trans <|
  (W34_of_ne m ρ c main_arg5 (by decide)).trans <|
  (W33_of m ρ c main_arg5 (by decide)).trans <|
  (W32_of_ne m ρ c main_arg5 (by decide)).trans <|
  (W31_of m ρ c main_arg5 (by decide)).trans <|
  (W30_of_ne m ρ c main_arg5 (by decide)).trans <|
  (W29_of m ρ c main_arg5 (by decide)).trans <|
  (W28_of_ne m ρ c main_arg5 (by decide)).trans <|
  (W27_of m ρ c main_arg5 (by decide)).trans <|
  (W26_of_ne m ρ c main_arg5 (by decide)).trans <|
  (W25_of m ρ c main_arg5 (by decide)).trans <|
  (W24_of_ne m ρ c main_arg5 (by decide)).trans <|
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W35_main_arg6 (c : Dev nD) : W35 m ρ c (Proc.devRef .tc main_arg6) = m ((c : Thread nD τ).loc main_arg6) :=
  (W35_of m ρ c main_arg6 (by decide)).trans <|
  (W34_of_ne m ρ c main_arg6 (by decide)).trans <|
  (W33_of m ρ c main_arg6 (by decide)).trans <|
  (W32_of_ne m ρ c main_arg6 (by decide)).trans <|
  (W31_of m ρ c main_arg6 (by decide)).trans <|
  (W30_of_ne m ρ c main_arg6 (by decide)).trans <|
  (W29_of m ρ c main_arg6 (by decide)).trans <|
  (W28_of_ne m ρ c main_arg6 (by decide)).trans <|
  (W27_of m ρ c main_arg6 (by decide)).trans <|
  (W26_of_ne m ρ c main_arg6 (by decide)).trans <|
  (W25_of m ρ c main_arg6 (by decide)).trans <|
  (W24_of_ne m ρ c main_arg6 (by decide)).trans <|
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem W35_main_arg7 (c : Dev nD) : W35 m ρ c (Proc.devRef .tc main_arg7) = m ((c : Thread nD τ).loc main_arg7) :=
  (W35_of m ρ c main_arg7 (by decide)).trans <|
  (W34_of_ne m ρ c main_arg7 (by decide)).trans <|
  (W33_of m ρ c main_arg7 (by decide)).trans <|
  (W32_of_ne m ρ c main_arg7 (by decide)).trans <|
  (W31_of m ρ c main_arg7 (by decide)).trans <|
  (W30_of_ne m ρ c main_arg7 (by decide)).trans <|
  (W29_of m ρ c main_arg7 (by decide)).trans <|
  (W28_of_ne m ρ c main_arg7 (by decide)).trans <|
  (W27_of m ρ c main_arg7 (by decide)).trans <|
  (W26_of_ne m ρ c main_arg7 (by decide)).trans <|
  (W25_of m ρ c main_arg7 (by decide)).trans <|
  (W24_of_ne m ρ c main_arg7 (by decide)).trans <|
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W35_main_arg8 (c : Dev nD) : W35 m ρ c (Proc.devRef .tc main_arg8) = m ((c : Thread nD τ).loc main_arg8) :=
  (W35_of m ρ c main_arg8 (by decide)).trans <|
  (W34_of_ne m ρ c main_arg8 (by decide)).trans <|
  (W33_of m ρ c main_arg8 (by decide)).trans <|
  (W32_of_ne m ρ c main_arg8 (by decide)).trans <|
  (W31_of m ρ c main_arg8 (by decide)).trans <|
  (W30_of_ne m ρ c main_arg8 (by decide)).trans <|
  (W29_of m ρ c main_arg8 (by decide)).trans <|
  (W28_of_ne m ρ c main_arg8 (by decide)).trans <|
  (W27_of m ρ c main_arg8 (by decide)).trans <|
  (W26_of_ne m ρ c main_arg8 (by decide)).trans <|
  (W25_of m ρ c main_arg8 (by decide)).trans <|
  (W24_of_ne m ρ c main_arg8 (by decide)).trans <|
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W35_main_arg9 (c : Dev nD) : W35 m ρ c (Proc.devRef .tc main_arg9) = m ((c : Thread nD τ).loc main_arg9) :=
  (W35_of m ρ c main_arg9 (by decide)).trans <|
  (W34_of_ne m ρ c main_arg9 (by decide)).trans <|
  (W33_of m ρ c main_arg9 (by decide)).trans <|
  (W32_of_ne m ρ c main_arg9 (by decide)).trans <|
  (W31_of m ρ c main_arg9 (by decide)).trans <|
  (W30_of_ne m ρ c main_arg9 (by decide)).trans <|
  (W29_of m ρ c main_arg9 (by decide)).trans <|
  (W28_of_ne m ρ c main_arg9 (by decide)).trans <|
  (W27_of m ρ c main_arg9 (by decide)).trans <|
  (W26_of_ne m ρ c main_arg9 (by decide)).trans <|
  (W25_of m ρ c main_arg9 (by decide)).trans <|
  (W24_of_ne m ρ c main_arg9 (by decide)).trans <|
  (W23_of m ρ c main_arg9 (by decide)).trans <|
  (W22_of_ne m ρ c main_arg9 (by decide)).trans <|
  (W21_of m ρ c main_arg9 (by decide)).trans <|
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W35_main_arg10 (c : Dev nD) : W35 m ρ c (Proc.devRef .tc main_arg10) = m ((c : Thread nD τ).loc main_arg10) :=
  (W35_of m ρ c main_arg10 (by decide)).trans <|
  (W34_of_ne m ρ c main_arg10 (by decide)).trans <|
  (W33_of m ρ c main_arg10 (by decide)).trans <|
  (W32_of_ne m ρ c main_arg10 (by decide)).trans <|
  (W31_of m ρ c main_arg10 (by decide)).trans <|
  (W30_of_ne m ρ c main_arg10 (by decide)).trans <|
  (W29_of m ρ c main_arg10 (by decide)).trans <|
  (W28_of_ne m ρ c main_arg10 (by decide)).trans <|
  (W27_of m ρ c main_arg10 (by decide)).trans <|
  (W26_of_ne m ρ c main_arg10 (by decide)).trans <|
  (W25_of m ρ c main_arg10 (by decide)).trans <|
  (W24_of_ne m ρ c main_arg10 (by decide)).trans <|
  (W23_of m ρ c main_arg10 (by decide)).trans <|
  (W22_of_ne m ρ c main_arg10 (by decide)).trans <|
  (W21_of m ρ c main_arg10 (by decide)).trans <|
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W35_main_arg11 (c : Dev nD) : W35 m ρ c (Proc.devRef .tc main_arg11) = m ((c : Thread nD τ).loc main_arg11) :=
  (W35_of m ρ c main_arg11 (by decide)).trans <|
  (W34_of_ne m ρ c main_arg11 (by decide)).trans <|
  (W33_of m ρ c main_arg11 (by decide)).trans <|
  (W32_of_ne m ρ c main_arg11 (by decide)).trans <|
  (W31_of m ρ c main_arg11 (by decide)).trans <|
  (W30_of_ne m ρ c main_arg11 (by decide)).trans <|
  (W29_of m ρ c main_arg11 (by decide)).trans <|
  (W28_of_ne m ρ c main_arg11 (by decide)).trans <|
  (W27_of m ρ c main_arg11 (by decide)).trans <|
  (W26_of_ne m ρ c main_arg11 (by decide)).trans <|
  (W25_of m ρ c main_arg11 (by decide)).trans <|
  (W24_of_ne m ρ c main_arg11 (by decide)).trans <|
  (W23_of m ρ c main_arg11 (by decide)).trans <|
  (W22_of_ne m ρ c main_arg11 (by decide)).trans <|
  (W21_of m ρ c main_arg11 (by decide)).trans <|
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W35_main_arg12 (c : Dev nD) : W35 m ρ c (Proc.devRef .tc main_arg12) = m ((c : Thread nD τ).loc main_arg12) :=
  (W35_of m ρ c main_arg12 (by decide)).trans <|
  (W34_of_ne m ρ c main_arg12 (by decide)).trans <|
  (W33_of m ρ c main_arg12 (by decide)).trans <|
  (W32_of_ne m ρ c main_arg12 (by decide)).trans <|
  (W31_of m ρ c main_arg12 (by decide)).trans <|
  (W30_of_ne m ρ c main_arg12 (by decide)).trans <|
  (W29_of m ρ c main_arg12 (by decide)).trans <|
  (W28_of_ne m ρ c main_arg12 (by decide)).trans <|
  (W27_of m ρ c main_arg12 (by decide)).trans <|
  (W26_of_ne m ρ c main_arg12 (by decide)).trans <|
  (W25_of m ρ c main_arg12 (by decide)).trans <|
  (W24_of_ne m ρ c main_arg12 (by decide)).trans <|
  (W23_of m ρ c main_arg12 (by decide)).trans <|
  (W22_of_ne m ρ c main_arg12 (by decide)).trans <|
  (W21_of m ρ c main_arg12 (by decide)).trans <|
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W35_main_arg13 (c : Dev nD) : W35 m ρ c (Proc.devRef .tc main_arg13) = m ((c : Thread nD τ).loc main_arg13) :=
  (W35_of m ρ c main_arg13 (by decide)).trans <|
  (W34_of_ne m ρ c main_arg13 (by decide)).trans <|
  (W33_of m ρ c main_arg13 (by decide)).trans <|
  (W32_of_ne m ρ c main_arg13 (by decide)).trans <|
  (W31_of m ρ c main_arg13 (by decide)).trans <|
  (W30_of_ne m ρ c main_arg13 (by decide)).trans <|
  (W29_of m ρ c main_arg13 (by decide)).trans <|
  (W28_of_ne m ρ c main_arg13 (by decide)).trans <|
  (W27_of m ρ c main_arg13 (by decide)).trans <|
  (W26_of_ne m ρ c main_arg13 (by decide)).trans <|
  (W25_of m ρ c main_arg13 (by decide)).trans <|
  (W24_of_ne m ρ c main_arg13 (by decide)).trans <|
  (W23_of m ρ c main_arg13 (by decide)).trans <|
  (W22_of_ne m ρ c main_arg13 (by decide)).trans <|
  (W21_of m ρ c main_arg13 (by decide)).trans <|
  (W20_of_ne m ρ c main_arg13 (by decide)).trans <|
  (W19_of m ρ c main_arg13 (by decide)).trans <|
  (W18_of_ne m ρ c main_arg13 (by decide)).trans <|
  (W17_of m ρ c main_arg13 (by decide)).trans <|
  (W16_of_ne m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl
theorem W35_main_arg14 (c : Dev nD) : W35 m ρ c (Proc.devRef .tc main_arg14) = m ((c : Thread nD τ).loc main_arg14) :=
  (W35_of m ρ c main_arg14 (by decide)).trans <|
  (W34_of_ne m ρ c main_arg14 (by decide)).trans <|
  (W33_of m ρ c main_arg14 (by decide)).trans <|
  (W32_of_ne m ρ c main_arg14 (by decide)).trans <|
  (W31_of m ρ c main_arg14 (by decide)).trans <|
  (W30_of_ne m ρ c main_arg14 (by decide)).trans <|
  (W29_of m ρ c main_arg14 (by decide)).trans <|
  (W28_of_ne m ρ c main_arg14 (by decide)).trans <|
  (W27_of m ρ c main_arg14 (by decide)).trans <|
  (W26_of_ne m ρ c main_arg14 (by decide)).trans <|
  (W25_of m ρ c main_arg14 (by decide)).trans <|
  (W24_of_ne m ρ c main_arg14 (by decide)).trans <|
  (W23_of m ρ c main_arg14 (by decide)).trans <|
  (W22_of_ne m ρ c main_arg14 (by decide)).trans <|
  (W21_of m ρ c main_arg14 (by decide)).trans <|
  (W20_of_ne m ρ c main_arg14 (by decide)).trans <|
  (W19_of m ρ c main_arg14 (by decide)).trans <|
  (W18_of_ne m ρ c main_arg14 (by decide)).trans <|
  (W17_of m ρ c main_arg14 (by decide)).trans <|
  (W16_of_ne m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl
theorem W35_main_arg15 (c : Dev nD) : W35 m ρ c (Proc.devRef .tc main_arg15) = m ((c : Thread nD τ).loc main_arg15) :=
  (W35_of m ρ c main_arg15 (by decide)).trans <|
  (W34_of_ne m ρ c main_arg15 (by decide)).trans <|
  (W33_of m ρ c main_arg15 (by decide)).trans <|
  (W32_of_ne m ρ c main_arg15 (by decide)).trans <|
  (W31_of m ρ c main_arg15 (by decide)).trans <|
  (W30_of_ne m ρ c main_arg15 (by decide)).trans <|
  (W29_of m ρ c main_arg15 (by decide)).trans <|
  (W28_of_ne m ρ c main_arg15 (by decide)).trans <|
  (W27_of m ρ c main_arg15 (by decide)).trans <|
  (W26_of_ne m ρ c main_arg15 (by decide)).trans <|
  (W25_of m ρ c main_arg15 (by decide)).trans <|
  (W24_of_ne m ρ c main_arg15 (by decide)).trans <|
  (W23_of m ρ c main_arg15 (by decide)).trans <|
  (W22_of_ne m ρ c main_arg15 (by decide)).trans <|
  (W21_of m ρ c main_arg15 (by decide)).trans <|
  (W20_of_ne m ρ c main_arg15 (by decide)).trans <|
  (W19_of m ρ c main_arg15 (by decide)).trans <|
  (W18_of_ne m ρ c main_arg15 (by decide)).trans <|
  (W17_of m ρ c main_arg15 (by decide)).trans <|
  (W16_of_ne m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl
theorem W35_main_arg16 (c : Dev nD) : W35 m ρ c (Proc.devRef .tc main_arg16) = m ((c : Thread nD τ).loc main_arg16) :=
  (W35_of m ρ c main_arg16 (by decide)).trans <|
  (W34_of_ne m ρ c main_arg16 (by decide)).trans <|
  (W33_of m ρ c main_arg16 (by decide)).trans <|
  (W32_of_ne m ρ c main_arg16 (by decide)).trans <|
  (W31_of m ρ c main_arg16 (by decide)).trans <|
  (W30_of_ne m ρ c main_arg16 (by decide)).trans <|
  (W29_of m ρ c main_arg16 (by decide)).trans <|
  (W28_of_ne m ρ c main_arg16 (by decide)).trans <|
  (W27_of m ρ c main_arg16 (by decide)).trans <|
  (W26_of_ne m ρ c main_arg16 (by decide)).trans <|
  (W25_of m ρ c main_arg16 (by decide)).trans <|
  (W24_of_ne m ρ c main_arg16 (by decide)).trans <|
  (W23_of m ρ c main_arg16 (by decide)).trans <|
  (W22_of_ne m ρ c main_arg16 (by decide)).trans <|
  (W21_of m ρ c main_arg16 (by decide)).trans <|
  (W20_of_ne m ρ c main_arg16 (by decide)).trans <|
  (W19_of m ρ c main_arg16 (by decide)).trans <|
  (W18_of_ne m ρ c main_arg16 (by decide)).trans <|
  (W17_of m ρ c main_arg16 (by decide)).trans <|
  (W16_of_ne m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl
theorem W35_main_arg17 (c : Dev nD) : W35 m ρ c (Proc.devRef .tc main_arg17) = m ((c : Thread nD τ).loc main_arg17) :=
  (W35_of m ρ c main_arg17 (by decide)).trans <|
  (W34_of_ne m ρ c main_arg17 (by decide)).trans <|
  (W33_of m ρ c main_arg17 (by decide)).trans <|
  (W32_of_ne m ρ c main_arg17 (by decide)).trans <|
  (W31_of m ρ c main_arg17 (by decide)).trans <|
  (W30_of_ne m ρ c main_arg17 (by decide)).trans <|
  (W29_of m ρ c main_arg17 (by decide)).trans <|
  (W28_of_ne m ρ c main_arg17 (by decide)).trans <|
  (W27_of m ρ c main_arg17 (by decide)).trans <|
  (W26_of_ne m ρ c main_arg17 (by decide)).trans <|
  (W25_of m ρ c main_arg17 (by decide)).trans <|
  (W24_of_ne m ρ c main_arg17 (by decide)).trans <|
  (W23_of m ρ c main_arg17 (by decide)).trans <|
  (W22_of_ne m ρ c main_arg17 (by decide)).trans <|
  (W21_of m ρ c main_arg17 (by decide)).trans <|
  (W20_of_ne m ρ c main_arg17 (by decide)).trans <|
  (W19_of m ρ c main_arg17 (by decide)).trans <|
  (W18_of_ne m ρ c main_arg17 (by decide)).trans <|
  (W17_of m ρ c main_arg17 (by decide)).trans <|
  (W16_of_ne m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans rfl
theorem W35_main_arg18 (c : Dev nD) : W35 m ρ c (Proc.devRef .tc main_arg18) = m ((c : Thread nD τ).loc main_arg18) :=
  (W35_of m ρ c main_arg18 (by decide)).trans <|
  (W34_of_ne m ρ c main_arg18 (by decide)).trans <|
  (W33_of m ρ c main_arg18 (by decide)).trans <|
  (W32_of_ne m ρ c main_arg18 (by decide)).trans <|
  (W31_of m ρ c main_arg18 (by decide)).trans <|
  (W30_of_ne m ρ c main_arg18 (by decide)).trans <|
  (W29_of m ρ c main_arg18 (by decide)).trans <|
  (W28_of_ne m ρ c main_arg18 (by decide)).trans <|
  (W27_of m ρ c main_arg18 (by decide)).trans <|
  (W26_of_ne m ρ c main_arg18 (by decide)).trans <|
  (W25_of m ρ c main_arg18 (by decide)).trans <|
  (W24_of_ne m ρ c main_arg18 (by decide)).trans <|
  (W23_of m ρ c main_arg18 (by decide)).trans <|
  (W22_of_ne m ρ c main_arg18 (by decide)).trans <|
  (W21_of m ρ c main_arg18 (by decide)).trans <|
  (W20_of_ne m ρ c main_arg18 (by decide)).trans <|
  (W19_of m ρ c main_arg18 (by decide)).trans <|
  (W18_of_ne m ρ c main_arg18 (by decide)).trans <|
  (W17_of m ρ c main_arg18 (by decide)).trans <|
  (W16_of_ne m ρ c main_arg18 (by decide)).trans <|
  (W15_of m ρ c main_arg18 (by decide)).trans <|
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of_ne m ρ c main_arg18 (by decide)).trans <|
  (W3_of m ρ c main_arg18 (by decide)).trans <|
  (W2_of_ne m ρ c main_arg18 (by decide)).trans <|
  (W1_of m ρ c main_arg18 (by decide)).trans rfl
theorem W35_main_arg19 (c : Dev nD) : W35 m ρ c (Proc.devRef .tc main_arg19) = m ((c : Thread nD τ).loc main_arg19) :=
  (W35_of m ρ c main_arg19 (by decide)).trans <|
  (W34_of_ne m ρ c main_arg19 (by decide)).trans <|
  (W33_of m ρ c main_arg19 (by decide)).trans <|
  (W32_of_ne m ρ c main_arg19 (by decide)).trans <|
  (W31_of m ρ c main_arg19 (by decide)).trans <|
  (W30_of_ne m ρ c main_arg19 (by decide)).trans <|
  (W29_of m ρ c main_arg19 (by decide)).trans <|
  (W28_of_ne m ρ c main_arg19 (by decide)).trans <|
  (W27_of m ρ c main_arg19 (by decide)).trans <|
  (W26_of_ne m ρ c main_arg19 (by decide)).trans <|
  (W25_of m ρ c main_arg19 (by decide)).trans <|
  (W24_of_ne m ρ c main_arg19 (by decide)).trans <|
  (W23_of m ρ c main_arg19 (by decide)).trans <|
  (W22_of_ne m ρ c main_arg19 (by decide)).trans <|
  (W21_of m ρ c main_arg19 (by decide)).trans <|
  (W20_of_ne m ρ c main_arg19 (by decide)).trans <|
  (W19_of m ρ c main_arg19 (by decide)).trans <|
  (W18_of_ne m ρ c main_arg19 (by decide)).trans <|
  (W17_of m ρ c main_arg19 (by decide)).trans <|
  (W16_of_ne m ρ c main_arg19 (by decide)).trans <|
  (W15_of m ρ c main_arg19 (by decide)).trans <|
  (W14_of_ne m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of_ne m ρ c main_arg19 (by decide)).trans <|
  (W7_of m ρ c main_arg19 (by decide)).trans <|
  (W6_of_ne m ρ c main_arg19 (by decide)).trans <|
  (W5_of m ρ c main_arg19 (by decide)).trans <|
  (W4_of_ne m ρ c main_arg19 (by decide)).trans <|
  (W3_of m ρ c main_arg19 (by decide)).trans <|
  (W2_of_ne m ρ c main_arg19 (by decide)).trans <|
  (W1_of m ρ c main_arg19 (by decide)).trans rfl
theorem W35_main_arg20 (c : Dev nD) : W35 m ρ c (Proc.devRef .tc main_arg20) = m ((c : Thread nD τ).loc main_arg20) :=
  (W35_of m ρ c main_arg20 (by decide)).trans <|
  (W34_of_ne m ρ c main_arg20 (by decide)).trans <|
  (W33_of m ρ c main_arg20 (by decide)).trans <|
  (W32_of_ne m ρ c main_arg20 (by decide)).trans <|
  (W31_of m ρ c main_arg20 (by decide)).trans <|
  (W30_of_ne m ρ c main_arg20 (by decide)).trans <|
  (W29_of m ρ c main_arg20 (by decide)).trans <|
  (W28_of_ne m ρ c main_arg20 (by decide)).trans <|
  (W27_of m ρ c main_arg20 (by decide)).trans <|
  (W26_of_ne m ρ c main_arg20 (by decide)).trans <|
  (W25_of m ρ c main_arg20 (by decide)).trans <|
  (W24_of_ne m ρ c main_arg20 (by decide)).trans <|
  (W23_of m ρ c main_arg20 (by decide)).trans <|
  (W22_of_ne m ρ c main_arg20 (by decide)).trans <|
  (W21_of m ρ c main_arg20 (by decide)).trans <|
  (W20_of_ne m ρ c main_arg20 (by decide)).trans <|
  (W19_of m ρ c main_arg20 (by decide)).trans <|
  (W18_of_ne m ρ c main_arg20 (by decide)).trans <|
  (W17_of m ρ c main_arg20 (by decide)).trans <|
  (W16_of_ne m ρ c main_arg20 (by decide)).trans <|
  (W15_of m ρ c main_arg20 (by decide)).trans <|
  (W14_of_ne m ρ c main_arg20 (by decide)).trans <|
  (W13_of m ρ c main_arg20 (by decide)).trans <|
  (W12_of_ne m ρ c main_arg20 (by decide)).trans <|
  (W11_of m ρ c main_arg20 (by decide)).trans <|
  (W10_of_ne m ρ c main_arg20 (by decide)).trans <|
  (W9_of m ρ c main_arg20 (by decide)).trans <|
  (W8_of_ne m ρ c main_arg20 (by decide)).trans <|
  (W7_of m ρ c main_arg20 (by decide)).trans <|
  (W6_of_ne m ρ c main_arg20 (by decide)).trans <|
  (W5_of m ρ c main_arg20 (by decide)).trans <|
  (W4_of_ne m ρ c main_arg20 (by decide)).trans <|
  (W3_of m ρ c main_arg20 (by decide)).trans <|
  (W2_of_ne m ρ c main_arg20 (by decide)).trans <|
  (W1_of m ρ c main_arg20 (by decide)).trans rfl

/-! ## The proof data family and the thread state -/

/-- The prefetched tables' admissible contents: no pipeline has a table. -/
abbrev adm : (p : Fin 17) → (pcfgs (F := F) p).Adm := fun p => (cfgs p).toPCfg_adm
/-- Every pipeline's proof data, each at its region's entry contents — a literal `match`, so that
    `Pipeline.pin pcfgs adm p` at a numeral reduces to the printed configuration. -/
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨_ + 17, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W35`, the
    generator register at some state. -/
abbrev Tₙ (c : Dev nD) : sProp 𝕄 := iprop(StableHlo.held (c : Thread nD τ) (Pipeline.ucRefs τ sig) (W35 m ρ c) ∗ ∃ r, prngReg c r)

end Cert.Kernel.Hand

end
-- ==== Proof.K.AggLib.lean ====
/- General facts about the canonical contents of a buffer overwritten whole: the last covering
   piece alone decides them, and a load through that piece's rectangle reads its payload. -/
import Idealize.ShloMosaic.Lib.Pipeline.FrameBody

noncomputable section

namespace Cert.Kernel.Hand

open Idealize.ShloMosaic

variable {s : Shape} {e : EltTy} {Val : EltTy → Type}

/-- When the last write's rectangle holds every index, the earlier writes are shadowed. -/
theorem agg_canon_cover [∀ e, Nonempty (Val e)] (r : Rect s) (hr : ∀ y : s.Idx, y ∈ r.set) (w : r.shape.Idx → Val e)
    (L : List (View.Piece Val s e)) : View.canon (⟨r, w⟩ :: L) = View.canon [⟨r, w⟩] := by
  funext y
  obtain ⟨x, rfl⟩ : ∃ x, r.emb x = y := r.exists_idx_of_mem (hr y)
  rw [View.canon_cons_emb, View.canon_cons_emb]

/-- A load through the rectangle of the one piece written reads that piece's payload. -/
theorem agg_ld_canon [∀ e, Nonempty (Val e)] (r : Rect s) (w : r.shape.Idx → Val e) :
    View.ld (View.canon [(⟨r, w⟩ : View.Piece Val s e)]) r = w :=
  funext fun x => View.canon_cons_emb r w [] x

/-- A rectangle that alone tiles the shape holds every index. -/
theorem agg_mem_of_tiled (r : Rect s) (size : Fin s.rank → Nat)
    (h : View.Piece.tiled ([⟨r, fun _ => ()⟩] : List (View.Piece (fun _ => Unit) s e)) size = true) (y : s.Idx) : y ∈ r.set := by
  obtain ⟨pc, hm, hy⟩ := View.cover_of_tiled ([⟨r, fun _ => ()⟩] : List (View.Piece (fun _ => Unit) s e)) size h y
  rw [List.mem_singleton] at hm; subst hm; exact hy

end Cert.Kernel.Hand

end
-- ==== Proof.K.Agg1.lean ====
import proofs.«103499_j73031623901527_2_alg».proof.Proof.K.AggDef1
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 1 (`cc1__agg_kernel`, pipeline 1), at the entry contents `V`: the body obligation -/

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator's (and the output's) rectangle is the whole buffer. -/
theorem mem_r1_out (y : S2048x256.Idx) : y ∈ r1_out.set :=
  agg_mem_of_tiled (e := .f32) r1_out S2048x256.size (by rfl) y

/-- The class's invariant with the accumulator split off the scoped rest, owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- What a buffer reads after a list of writes whose last piece covers it: that piece alone. -/
theorem agg_read_writes_cons_1 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions: the grid is one point, both hold there -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at the one point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := by decide +kernel

/-! ## The body's triple -/

set_option maxHeartbeats 1000000 in
/-- The body at the one point (the accumulator zeroed, added to and normalised into the output): on whole memrefs,
    the inputs at read contents, the output and the accumulator at anything, it runs to the continuation holding the
    inputs as they were, the accumulator at the zero piece plus the product, the output at its normalisation. -/
theorem sound_kernel1 (c : Dev nD) (E : Set ℕ) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond1_0 i) (hc1 : cond1_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg4 fullShare d) ∗ (∃ d, owns (c : Thread nD τ) arg5 fullShare d)
        ∗ (iprop(owns (c : Thread nD τ) arg2 fullShare xa ∗ owns (c : Thread nD τ) arg3 fullShare xx
            ∗ owns (c : Thread nD τ) arg4 fullShare (View.canon [⟨r1_out, k1_pay3 (k1_pay2 (k1_pay1 (F := F)) (View.ld xa r1_A) (View.ld xx r1_X))⟩])
            ∗ owns (c : Thread nD τ) arg5 fullShare (View.canon [⟨r1_out, k1_pay2 (k1_pay1 (F := F)) (View.ld xa r1_A) (View.ld xx r1_X)⟩])) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel1.sl.v16 sound_kernel1.sl.H5_2 sound_kernel1.sl.v3 sound_kernel1.sl.H5_1
    simp only [View.readCov_cons_toLoadRect, View.readAt_eq_ld]
    exact agg_read_writes_cons_1 _ _ r1_out mem_r1_out _ _
  iexists _; isplitr
  swap; · iexact H5
  ipureintro
  unfold sound_kernel1.sl.H5_2 sound_kernel1.sl.v3 sound_kernel1.sl.H5_1
  simp only [View.readCov_cons_toLoadRect, View.readAt_eq_ld]
  exact agg_read_writes_cons_1 _ _ r1_out mem_r1_out _ _

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at the one point: the inputs' memrefs hold their blocks, the invariant hands the accumulator at anything,
    the triple applies, and the invariant takes the accumulator back at this point's contents; the scoped rest, the
    generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hz : t.val = 0 := by have h1 := t.isLt; have h2 : cfg1.N = 1 := N_1; omega
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [acc1_eq, accP1_first V c t (Nat.mod_one _)]
  rw [PhiS1_castSucc V c t, PhiS1_zero V c _ _ hz, PhiA1_eq]
  iintro ⟨⟨⟨HS, HR⟩, Hg⟩, Ho, ⟨%d0, H0⟩, ⟨%d1, H1⟩, ⟨%d2, H2⟩⟩
  iapply (sound_kernel1 c Set.univ (grid1.coords t) _ _ _ _ _ _ _ _ (hcond1_0 t) (hcond1_1 t) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 1 := N_1; omega)

end Cert.Kernel.Hand

end
-- ==== Proof.K.Agg3.lean ====
import proofs.«103499_j73031623901527_2_alg».proof.Proof.K.AggDef3
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3 (`cc3__agg_kernel`, pipeline 3), at the entry contents `V`: the body obligation -/

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The accumulator's (and the output's) rectangle is the whole buffer. -/
theorem mem_r3_out (y : S2048x256.Idx) : y ∈ r3_out.set :=
  agg_mem_of_tiled (e := .f32) r3_out S2048x256.size (by rfl) y

/-- The class's invariant with the accumulator split off the scoped rest, owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- What a buffer reads after a list of writes whose last piece covers it: that piece alone. -/
theorem agg_read_writes_cons_3 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions: the grid is one point, both hold there -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at the one point. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := by decide +kernel

/-! ## The body's triple -/

set_option maxHeartbeats 1000000 in
/-- The body at the one point (the accumulator zeroed, added to and normalised into the output): on whole memrefs,
    the inputs at read contents, the output and the accumulator at anything, it runs to the continuation holding the
    inputs as they were, the accumulator at the zero piece plus the product, the output at its normalisation. -/
theorem sound_kernel3 (c : Dev nD) (E : Set ℕ) (i : grid3.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond3_0 i) (hc1 : cond3_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg4 fullShare d) ∗ (∃ d, owns (c : Thread nD τ) arg5 fullShare d)
        ∗ (iprop(owns (c : Thread nD τ) arg2 fullShare xa ∗ owns (c : Thread nD τ) arg3 fullShare xx
            ∗ owns (c : Thread nD τ) arg4 fullShare (View.canon [⟨r3_out, k3_pay3 (k3_pay2 (k3_pay1 (F := F)) (View.ld xa r3_A) (View.ld xx r3_X))⟩])
            ∗ owns (c : Thread nD τ) arg5 fullShare (View.canon [⟨r3_out, k3_pay2 (k3_pay1 (F := F)) (View.ld xa r3_A) (View.ld xx r3_X)⟩])) -∗ K ⟨⟩))
      ⊢ wp frame (wpE (defs₀ (F := F)) Variants.none c none) E (cc3__agg_kernel i arg2 harg2 arg3 harg3 arg4 harg4 arg5 harg5) K := by
  simp only [cc3__agg_kernel_eq_skeleton]; unfold cc3__agg_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel3.sl.v16 sound_kernel3.sl.H5_2 sound_kernel3.sl.v3 sound_kernel3.sl.H5_1
    simp only [View.readCov_cons_toLoadRect, View.readAt_eq_ld]
    exact agg_read_writes_cons_3 _ _ r3_out mem_r3_out _ _
  iexists _; isplitr
  swap; · iexact H5
  ipureintro
  unfold sound_kernel3.sl.H5_2 sound_kernel3.sl.v3 sound_kernel3.sl.H5_1
  simp only [View.readCov_cons_toLoadRect, View.readAt_eq_ld]
  exact agg_read_writes_cons_3 _ _ r3_out mem_r3_out _ _

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at the one point: the inputs' memrefs hold their blocks, the invariant hands the accumulator at anything,
    the triple applies, and the invariant takes the accumulator back at this point's contents; the scoped rest, the
    generator register and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hz : t.val = 0 := by have h1 := t.isLt; have h2 : cfg3.N = 1 := N_3; omega
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [acc3_eq, accP3_first V c t (Nat.mod_one _)]
  rw [PhiS3_castSucc V c t, PhiS3_zero V c _ _ hz, PhiA3_eq]
  iintro ⟨⟨⟨HS, HR⟩, Hg⟩, Ho, ⟨%d0, H0⟩, ⟨%d1, H1⟩, ⟨%d2, H2⟩⟩
  iapply (sound_kernel3 c Set.univ (grid3.coords t) _ _ _ _ _ _ _ _ (hcond3_0 t) (hcond3_1 t) (iblk3 V c 0 t) (iblk3 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 1 := N_3; omega)

end Cert.Kernel.Hand

end
-- ==== Proof.K.RunRa.lean ====
/- The run of @main, the kernel regions 0 … 3 as segments over the thread state "every unscoped buffer at the
   boundary's contents, the generator register at some state, nothing owed". -/
import proofs.«103499_j73031623901527_2_alg».proof.Proof.K.Run1
import proofs.«103499_j73031623901527_2_alg».proof.Proof.K.Agg1
import proofs.«103499_j73031623901527_2_alg».proof.Proof.K.Agg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register and the
    scoped rest into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register and the
    scoped rest into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register and the
    scoped rest into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`.
    Its arrays split out of the unscoped buffers and put back at the exit contents; the generator register and the
    scoped rest into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Agg7.lean ====
import proofs.«103499_j73031623901527_2_alg».proof.Proof.K.AggDef7
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 7 (`cc7__agg_kernel`, pipeline 7), at the entry contents `V`: the body obligation -/

/-- An input window's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The accumulator's (and the output's) rectangle is the whole buffer. -/
theorem mem_r7_out (y : S2048x256.Idx) : y ∈ r7_out.set :=
  agg_mem_of_tiled (e := .f32) r7_out S2048x256.size (by rfl) y

/-- The class's invariant with the accumulator split off the scoped rest, owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- What a buffer reads after a list of writes whose last piece covers it: that piece alone. -/
theorem agg_read_writes_cons_7 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- The condition of its second: the inner coordinate is the last (the output is stored). -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

/-- The inputs are never idle. -/
theorem liveAt7_0 : ∀ t : Fin cfg7.N, cfg7.idle 0 (grid7.coords t) = false := fun _ => rfl
theorem liveAt7_1 : ∀ t : Fin cfg7.N, cfg7.idle 1 (grid7.coords t) = false := fun _ => rfl
/-- Where the output is not stored its window is idle and not written back; where it is stored it is live. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The body's triple, per control case -/

set_option maxHeartbeats 1000000 in
/-- At a first inner step that is not the last: the accumulator, at anything, is zeroed and the product added. -/
theorem sound_kernel7_A (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond7_0 i) (hc1 : ¬cond7_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r7_out, k7_pay2 (k7_pay1 (F := F)) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel7_A.sl.v3 sound_kernel7_A.sl.H5_1
  simp only [View.readCov_cons_toLoadRect, View.readAt_eq_ld]
  exact agg_read_writes_cons_7 _ _ r7_out mem_r7_out _ _

set_option maxHeartbeats 1000000 in
/-- At a middle inner step: the product is added to what the accumulator held. -/
theorem sound_kernel7_B (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond7_0 i) (hc1 : ¬cond7_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r7_out, k7_pay2 (View.ld xs r7_out) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_7 _ _ r7_out mem_r7_out _ _

set_option maxHeartbeats 1000000 in
/-- At a last inner step that is not the first: the product is added and the output stored, normalised. -/
theorem sound_kernel7_C (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond7_0 i) (hc1 : cond7_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r7_out, k7_pay3 (k7_pay2 (View.ld xs r7_out) (View.ld xa r7_A) (View.ld xx r7_X))⟩])
            ∗ owns (c : Thread nD τ) arg5 fullShare (View.canon [⟨r7_out, k7_pay2 (View.ld xs r7_out) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel7_C.sl.v16 sound_kernel7_C.sl.H5_1
    simp only [View.readCov_cons_toLoadRect, View.readAt_eq_ld]
    exact agg_read_writes_cons_7 _ _ r7_out mem_r7_out _ _
  iexists _; isplitr
  swap; · iexact H5
  ipureintro
  unfold sound_kernel7_C.sl.H5_1
  simp only [View.readCov_cons_toLoadRect, View.readAt_eq_ld]
  exact agg_read_writes_cons_7 _ _ r7_out mem_r7_out _ _

/-! ## The body obligation, at a generic point -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [acc7_eq]
  by_cases h0 : t.val % 8 = 0
  · have h1 : ¬t.val % 8 = 7 := by omega
    rw [Dat.leavesExact_idle (dat7 V c) 2 t (idleAt7_2 t (fun h => h1 ((hcond7_1 t).mp h))) (noFlush7_2 t (fun h => h1 ((hcond7_1 t).mp h)))]
    rw [accP7_first V c t h0]
    by_cases hz : t.val = 0
    · rw [PhiS7_castSucc V c t, PhiS7_zero V c _ _ hz, PhiA7_eq]
      iintro ⟨⟨⟨HS, HR⟩, Hg⟩, Ho, ⟨%d0, H0⟩, ⟨%d1, H1⟩, H2⟩
      iapply (sound_kernel7_A c Set.univ (grid7.coords t) _ _ _ _ _ _ _ _ ((hcond7_0 t).mpr h0) (fun h => h1 ((hcond7_1 t).mp h)) (iblk7 V c 0 t) (iblk7 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS7_castSucc V c t, PhiS7_pos V c _ _ hz]
      iintro ⟨⟨⟨HS, HR⟩, Hg⟩, Ho, ⟨%d0, H0⟩, ⟨%d1, H1⟩, H2⟩
      iapply (sound_kernel7_A c Set.univ (grid7.coords t) _ _ _ _ _ _ _ _ ((hcond7_0 t).mpr h0) (fun h => h1 ((hcond7_1 t).mp h)) (iblk7 V c 0 t) (iblk7 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP7_step V c t h0]
    rw [PhiS7_castSucc V c t, PhiS7_pos V c _ _ hz]
    by_cases h1 : t.val % 8 = 7
    · rw [show (dat7 V c).leavesExact 2 t = owns (c : Thread nD τ) (st7_2 t) fullShare ((dat7 V c).after 2 t) from by
        unfold Dat.leavesExact; rw [liveAt7_2 t ((hcond7_1 t).mpr h1)], after7_2]
      rw [accP7_step V c t h0]
      iintro ⟨⟨⟨HS, HR⟩, Hg⟩, Ho, ⟨%d0, H0⟩, ⟨%d1, H1⟩, ⟨%d2, H2⟩⟩
      iapply (sound_kernel7_C c Set.univ (grid7.coords t) _ _ _ _ _ _ _ _ (fun h => h0 ((hcond7_0 t).mp h)) ((hcond7_1 t).mpr h1) (iblk7 V c 0 t) (iblk7 V c 1 t) (acc7 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat7 V c) 2 t (idleAt7_2 t (fun h => h1 ((hcond7_1 t).mp h))) (noFlush7_2 t (fun h => h1 ((hcond7_1 t).mp h)))]
      iintro ⟨⟨⟨HS, HR⟩, Hg⟩, Ho, ⟨%d0, H0⟩, ⟨%d1, H1⟩, H2⟩
      iapply (sound_kernel7_B c Set.univ (grid7.coords t) _ _ _ _ _ _ _ _ (fun h => h0 ((hcond7_0 t).mp h)) (fun h => h1 ((hcond7_1 t).mp h)) (iblk7 V c 0 t) (iblk7 V c 1 t) (acc7 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region (`ΦA`) is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives `ΦA` back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, HR⟩, Hg⟩
  isplitl [HS HR]
  · isplitl [HS]
    · iexists _; iexact HS
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.Kernel.Hand

end
-- ==== Proof.K.Agg8.lean ====
import proofs.«103499_j73031623901527_2_alg».proof.Proof.K.AggDef8
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 8 (`cc8__agg_kernel`, pipeline 8), at the entry contents `V`: the body obligation -/

/-- An input window's current staging buffer holds its block at every point, fetched there or not, for any proof
    data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- The accumulator's (and the output's) rectangle is the whole buffer. -/
theorem mem_r8_out (y : S2048x256.Idx) : y ∈ r8_out.set :=
  agg_mem_of_tiled (e := .f32) r8_out S2048x256.size (by rfl) y

/-- The class's invariant with the accumulator split off the scoped rest, owned at some contents. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- What a buffer reads after a list of writes whose last piece covers it: that piece alone. -/
theorem agg_read_writes_cons_8 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 4 = 0 :=
  (by decide +kernel : ∀ t : Fin grid8.N, cond8_0 (grid8.coords t) ↔ t.val % 4 = 0)
/-- The condition of its second: the inner coordinate is the last (the output is stored). -/
abbrev cond8_1 (i : grid8.Coords) : Prop := k8_cond2 i = 1#1
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle -/

/-- The inputs are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
/-- Where the output is not stored its window is idle and not written back; where it is stored it is live. -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem liveAt8_2 : ∀ t : Fin cfg8.N, cond8_1 (grid8.coords t) → cfg8.idle 2 (grid8.coords t) = false := by decide +kernel

/-! ## The body's triple, per control case -/

set_option maxHeartbeats 1000000 in
/-- At a first inner step that is not the last: the accumulator, at anything, is zeroed and the product added. -/
theorem sound_kernel8_A (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond8_0 i) (hc1 : ¬cond8_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r8_out, k8_pay2 (k8_pay1 (F := F)) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel8_A.sl.v3 sound_kernel8_A.sl.H5_1
  simp only [View.readCov_cons_toLoadRect, View.readAt_eq_ld]
  exact agg_read_writes_cons_8 _ _ r8_out mem_r8_out _ _

set_option maxHeartbeats 1000000 in
/-- At a middle inner step: the product is added to what the accumulator held. -/
theorem sound_kernel8_B (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond8_0 i) (hc1 : ¬cond8_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r8_out, k8_pay2 (View.ld xs r8_out) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_8 _ _ r8_out mem_r8_out _ _

set_option maxHeartbeats 1000000 in
/-- At a last inner step that is not the first: the product is added and the output stored, normalised. -/
theorem sound_kernel8_C (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond8_0 i) (hc1 : cond8_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r8_out, k8_pay3 (k8_pay2 (View.ld xs r8_out) (View.ld xa r8_A) (View.ld xx r8_X))⟩])
            ∗ owns (c : Thread nD τ) arg5 fullShare (View.canon [⟨r8_out, k8_pay2 (View.ld xs r8_out) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel8_C.sl.v16 sound_kernel8_C.sl.H5_1
    simp only [View.readCov_cons_toLoadRect, View.readAt_eq_ld]
    exact agg_read_writes_cons_8 _ _ r8_out mem_r8_out _ _
  iexists _; isplitr
  swap; · iexact H5
  ipureintro
  unfold sound_kernel8_C.sl.H5_1
  simp only [View.readCov_cons_toLoadRect, View.readAt_eq_ld]
  exact agg_read_writes_cons_8 _ _ r8_out mem_r8_out _ _

/-! ## The body obligation, at a generic point -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  rw [acc8_eq]
  by_cases h0 : t.val % 4 = 0
  · have h1 : ¬t.val % 4 = 3 := by omega
    rw [Dat.leavesExact_idle (dat8 V c) 2 t (idleAt8_2 t (fun h => h1 ((hcond8_1 t).mp h))) (noFlush8_2 t (fun h => h1 ((hcond8_1 t).mp h)))]
    rw [accP8_first V c t h0]
    by_cases hz : t.val = 0
    · rw [PhiS8_castSucc V c t, PhiS8_zero V c _ _ hz, PhiA8_eq]
      iintro ⟨⟨⟨HS, HR⟩, Hg⟩, Ho, ⟨%d0, H0⟩, ⟨%d1, H1⟩, H2⟩
      iapply (sound_kernel8_A c Set.univ (grid8.coords t) _ _ _ _ _ _ _ _ ((hcond8_0 t).mpr h0) (fun h => h1 ((hcond8_1 t).mp h)) (iblk8 V c 0 t) (iblk8 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS8_castSucc V c t, PhiS8_pos V c _ _ hz]
      iintro ⟨⟨⟨HS, HR⟩, Hg⟩, Ho, ⟨%d0, H0⟩, ⟨%d1, H1⟩, H2⟩
      iapply (sound_kernel8_A c Set.univ (grid8.coords t) _ _ _ _ _ _ _ _ ((hcond8_0 t).mpr h0) (fun h => h1 ((hcond8_1 t).mp h)) (iblk8 V c 0 t) (iblk8 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP8_step V c t h0]
    rw [PhiS8_castSucc V c t, PhiS8_pos V c _ _ hz]
    by_cases h1 : t.val % 4 = 3
    · rw [show (dat8 V c).leavesExact 2 t = owns (c : Thread nD τ) (st8_2 t) fullShare ((dat8 V c).after 2 t) from by
        unfold Dat.leavesExact; rw [liveAt8_2 t ((hcond8_1 t).mpr h1)], after8_2]
      rw [accP8_step V c t h0]
      iintro ⟨⟨⟨HS, HR⟩, Hg⟩, Ho, ⟨%d0, H0⟩, ⟨%d1, H1⟩, ⟨%d2, H2⟩⟩
      iapply (sound_kernel8_C c Set.univ (grid8.coords t) _ _ _ _ _ _ _ _ (fun h => h0 ((hcond8_0 t).mp h)) ((hcond8_1 t).mpr h1) (iblk8 V c 0 t) (iblk8 V c 1 t) (acc8 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat8 V c) 2 t (idleAt8_2 t (fun h => h1 ((hcond8_1 t).mp h))) (noFlush8_2 t (fun h => h1 ((hcond8_1 t).mp h)))]
      iintro ⟨⟨⟨HS, HR⟩, Hg⟩, Ho, ⟨%d0, H0⟩, ⟨%d1, H1⟩, H2⟩
      iapply (sound_kernel8_B c Set.univ (grid8.coords t) _ _ _ _ _ _ _ _ (fun h => h0 ((hcond8_0 t).mp h)) (fun h => h1 ((hcond8_1 t).mp h)) (iblk8 V c 0 t) (iblk8 V c 1 t) (acc8 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region (`ΦA`) is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives `ΦA` back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, HR⟩, Hg⟩
  isplitl [HS HR]
  · isplitl [HS]
    · iexists _; iexact HS
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 32 := N_8; omega)

end Cert.Kernel.Hand

end
-- ==== Proof.K.RunRb.lean ====
/- The run of @main, the kernel regions 4 … 8 as segments over the thread state "every unscoped buffer at the
   boundary's contents, the generator register at some state, nothing owed". -/
import proofs.«103499_j73031623901527_2_alg».proof.Proof.K.Run1
import proofs.«103499_j73031623901527_2_alg».proof.Proof.K.Agg7
import proofs.«103499_j73031623901527_2_alg».proof.Proof.K.Agg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`.
    Its arrays split out of the unscoped buffers and put back at the exit contents; the generator register and the
    scoped rest into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`.
    Its arrays split out of the unscoped buffers and put back at the exit contents; the generator register and the
    scoped rest into the region's invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 6 (custom_call 6) over the thread state: entered from every unscoped buffer at `W13`, left at `W14`.
    Its arrays split out of the unscoped buffers and put back at the exit contents; the generator register and the
    scoped rest into the region's invariant and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 7 (custom_call 7) over the thread state: entered from every unscoped buffer at `W15`, left at `W16`.
    Its arrays split out of the unscoped buffers and put back at the exit contents; the generator register and the
    scoped rest into the region's invariant and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V15 m ρ) c)
    unfold Pipeline.ΦA
    iintro ⟨Hp, -, Hr⟩
    isplitl [Hr]; · iexact Hr
    iexact Hp
  hout c := by
    rw [Pipeline.ownSems0_none]
    refine BIBase.Entails.trans (hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 8 (custom_call 8) over the thread state: entered from every unscoped buffer at `W17`, left at `W18`.
    Its arrays split out of the unscoped buffers and put back at the exit contents; the generator register and the
    scoped rest into the region's invariant and out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V17 m ρ) c)
    unfold Pipeline.ΦA
    iintro ⟨Hp, -, Hr⟩
    isplitl [Hr]; · iexact Hr
    iexact Hp
  hout c := by
    rw [Pipeline.ownSems0_none]
    refine BIBase.Entails.trans (hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Agg10.lean ====
import proofs.«103499_j73031623901527_2_alg».proof.Proof.K.AggDef10
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 10 (`cc10__agg_kernel`, pipeline 10), at the entry contents `V`: the body obligation -/

/-- An input window's current staging buffer holds its block at every point, fetched there or not, for any proof
    data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The accumulator's (and the output's) rectangle is the whole buffer. -/
theorem mem_r10_out (y : S2048x256.Idx) : y ∈ r10_out.set :=
  agg_mem_of_tiled (e := .f32) r10_out S2048x256.size (by rfl) y

/-- The class's invariant with the accumulator split off the scoped rest, owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- What a buffer reads after a list of writes whose last piece covers it: that piece alone. -/
theorem agg_read_writes_cons_10 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
/-- The condition of its second: the inner coordinate is the last (the output is stored). -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

/-! ## Where the windows are idle -/

/-- The inputs are never idle. -/
theorem liveAt10_0 : ∀ t : Fin cfg10.N, cfg10.idle 0 (grid10.coords t) = false := fun _ => rfl
theorem liveAt10_1 : ∀ t : Fin cfg10.N, cfg10.idle 1 (grid10.coords t) = false := fun _ => rfl
/-- Where the output is not stored its window is idle and not written back; where it is stored it is live. -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
theorem liveAt10_2 : ∀ t : Fin cfg10.N, cond10_1 (grid10.coords t) → cfg10.idle 2 (grid10.coords t) = false := by decide +kernel

/-! ## The body's triple, per control case -/

set_option maxHeartbeats 1000000 in
/-- At a first inner step that is not the last: the accumulator, at anything, is zeroed and the product added. -/
theorem sound_kernel10_A (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond10_0 i) (hc1 : ¬cond10_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r10_out, k10_pay2 (k10_pay1 (F := F)) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel10_A.sl.v3 sound_kernel10_A.sl.H5_1
  simp only [View.readCov_cons_toLoadRect, View.readAt_eq_ld]
  exact agg_read_writes_cons_10 _ _ r10_out mem_r10_out _ _

set_option maxHeartbeats 1000000 in
/-- At a middle inner step: the product is added to what the accumulator held. -/
theorem sound_kernel10_B (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond10_0 i) (hc1 : ¬cond10_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r10_out, k10_pay2 (View.ld xs r10_out) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_10 _ _ r10_out mem_r10_out _ _

set_option maxHeartbeats 1000000 in
/-- At a last inner step that is not the first: the product is added and the output stored, normalised. -/
theorem sound_kernel10_C (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond10_0 i) (hc1 : cond10_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r10_out, k10_pay3 (k10_pay2 (View.ld xs r10_out) (View.ld xa r10_A) (View.ld xx r10_X))⟩])
            ∗ owns (c : Thread nD τ) arg5 fullShare (View.canon [⟨r10_out, k10_pay2 (View.ld xs r10_out) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel10_C.sl.v16 sound_kernel10_C.sl.H5_1
    simp only [View.readCov_cons_toLoadRect, View.readAt_eq_ld]
    exact agg_read_writes_cons_10 _ _ r10_out mem_r10_out _ _
  iexists _; isplitr
  swap; · iexact H5
  ipureintro
  unfold sound_kernel10_C.sl.H5_1
  simp only [View.readCov_cons_toLoadRect, View.readAt_eq_ld]
  exact agg_read_writes_cons_10 _ _ r10_out mem_r10_out _ _

/-! ## The body obligation, at a generic point -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [acc10_eq]
  by_cases h0 : t.val % 8 = 0
  · have h1 : ¬t.val % 8 = 7 := by omega
    rw [Dat.leavesExact_idle (dat10 V c) 2 t (idleAt10_2 t (fun h => h1 ((hcond10_1 t).mp h))) (noFlush10_2 t (fun h => h1 ((hcond10_1 t).mp h)))]
    rw [accP10_first V c t h0]
    by_cases hz : t.val = 0
    · rw [PhiS10_castSucc V c t, PhiS10_zero V c _ _ hz, PhiA10_eq]
      iintro ⟨⟨⟨HS, HR⟩, Hg⟩, Ho, ⟨%d0, H0⟩, ⟨%d1, H1⟩, H2⟩
      iapply (sound_kernel10_A c Set.univ (grid10.coords t) _ _ _ _ _ _ _ _ ((hcond10_0 t).mpr h0) (fun h => h1 ((hcond10_1 t).mp h)) (iblk10 V c 0 t) (iblk10 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS10_castSucc V c t, PhiS10_pos V c _ _ hz]
      iintro ⟨⟨⟨HS, HR⟩, Hg⟩, Ho, ⟨%d0, H0⟩, ⟨%d1, H1⟩, H2⟩
      iapply (sound_kernel10_A c Set.univ (grid10.coords t) _ _ _ _ _ _ _ _ ((hcond10_0 t).mpr h0) (fun h => h1 ((hcond10_1 t).mp h)) (iblk10 V c 0 t) (iblk10 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP10_step V c t h0]
    rw [PhiS10_castSucc V c t, PhiS10_pos V c _ _ hz]
    by_cases h1 : t.val % 8 = 7
    · rw [show (dat10 V c).leavesExact 2 t = owns (c : Thread nD τ) (st10_2 t) fullShare ((dat10 V c).after 2 t) from by
        unfold Dat.leavesExact; rw [liveAt10_2 t ((hcond10_1 t).mpr h1)], after10_2]
      rw [accP10_step V c t h0]
      iintro ⟨⟨⟨HS, HR⟩, Hg⟩, Ho, ⟨%d0, H0⟩, ⟨%d1, H1⟩, ⟨%d2, H2⟩⟩
      iapply (sound_kernel10_C c Set.univ (grid10.coords t) _ _ _ _ _ _ _ _ (fun h => h0 ((hcond10_0 t).mp h)) ((hcond10_1 t).mpr h1) (iblk10 V c 0 t) (iblk10 V c 1 t) (acc10 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat10 V c) 2 t (idleAt10_2 t (fun h => h1 ((hcond10_1 t).mp h))) (noFlush10_2 t (fun h => h1 ((hcond10_1 t).mp h)))]
      iintro ⟨⟨⟨HS, HR⟩, Hg⟩, Ho, ⟨%d0, H0⟩, ⟨%d1, H1⟩, H2⟩
      iapply (sound_kernel10_B c Set.univ (grid10.coords t) _ _ _ _ _ _ _ _ (fun h => h0 ((hcond10_0 t).mp h)) (fun h => h1 ((hcond10_1 t).mp h)) (iblk10 V c 0 t) (iblk10 V c 1 t) (acc10 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region (`ΦA`) is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives `ΦA` back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS, HR⟩, Hg⟩
  isplitl [HS HR]
  · isplitl [HS]
    · iexists _; iexact HS
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 32 := N_10; omega)

end Cert.Kernel.Hand

end
-- ==== Proof.K.Agg11.lean ====
import proofs.«103499_j73031623901527_2_alg».proof.Proof.K.AggDef11
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 11 (`cc11__agg_kernel`, pipeline 11), at the entry contents `V`: the body obligation -/

/-- An input window's current staging buffer holds its block at every point, fetched there or not, for any proof
    data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- The accumulator's (and the output's) rectangle is the whole buffer. -/
theorem mem_r11_out (y : S2048x256.Idx) : y ∈ r11_out.set :=
  agg_mem_of_tiled (e := .f32) r11_out S2048x256.size (by rfl) y

/-- The class's invariant with the accumulator split off the scoped rest, owned at some contents. -/
theorem PhiA11_eq (c : Dev nD) :
    (Pipeline.ΦA spec11 c : sProp 𝕄)
      = iprop(iprop(iprop((∃ d, owns (c : Thread nD τ) scM11 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; try rfl

/-- What a buffer reads after a list of writes whose last piece covers it: that piece alone. -/
theorem agg_read_writes_cons_11 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond11_0 (i : grid11.Coords) : Prop := (Scalar.cmpi .ne (Scalar.extui (Scalar.cmpi .eq (BitVec.ofNat 32 (i 1).val) 0#32)) 0#32) = 1#1
theorem hcond11_0 : ∀ t : Fin cfg11.N, cond11_0 (grid11.coords t) ↔ t.val % 4 = 0 :=
  (by decide +kernel : ∀ t : Fin grid11.N, cond11_0 (grid11.coords t) ↔ t.val % 4 = 0)
/-- The condition of its second: the inner coordinate is the last (the output is stored). -/
abbrev cond11_1 (i : grid11.Coords) : Prop := k11_cond2 i = 1#1
theorem hcond11_1 : ∀ t : Fin cfg11.N, cond11_1 (grid11.coords t) ↔ t.val % 4 = 3 :=
  (by decide +kernel : ∀ t : Fin grid11.N, cond11_1 (grid11.coords t) ↔ t.val % 4 = 3)

/-! ## Where the windows are idle -/

/-- The inputs are never idle. -/
theorem liveAt11_0 : ∀ t : Fin cfg11.N, cfg11.idle 0 (grid11.coords t) = false := fun _ => rfl
theorem liveAt11_1 : ∀ t : Fin cfg11.N, cfg11.idle 1 (grid11.coords t) = false := fun _ => rfl
/-- Where the output is not stored its window is idle and not written back; where it is stored it is live. -/
theorem idleAt11_2 : ∀ t : Fin cfg11.N, ¬cond11_1 (grid11.coords t) → cfg11.idle 2 (grid11.coords t) = true := by decide +kernel
theorem noFlush11_2 : ∀ t : Fin cfg11.N, ¬cond11_1 (grid11.coords t) → (cfg11.win 2).flush t = false := by decide +kernel
theorem liveAt11_2 : ∀ t : Fin cfg11.N, cond11_1 (grid11.coords t) → cfg11.idle 2 (grid11.coords t) = false := by decide +kernel

/-! ## The body's triple, per control case -/

set_option maxHeartbeats 1000000 in
/-- At a first inner step that is not the last: the accumulator, at anything, is zeroed and the product added. -/
theorem sound_kernel11_A (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond11_0 i) (hc1 : ¬cond11_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r11_out, k11_pay2 (k11_pay1 (F := F)) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel11_A.sl.v3 sound_kernel11_A.sl.H5_1
  simp only [View.readCov_cons_toLoadRect, View.readAt_eq_ld]
  exact agg_read_writes_cons_11 _ _ r11_out mem_r11_out _ _

set_option maxHeartbeats 1000000 in
/-- At a middle inner step: the product is added to what the accumulator held. -/
theorem sound_kernel11_B (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond11_0 i) (hc1 : ¬cond11_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r11_out, k11_pay2 (View.ld xs r11_out) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_11 _ _ r11_out mem_r11_out _ _

set_option maxHeartbeats 1000000 in
/-- At a last inner step that is not the first: the product is added and the output stored, normalised. -/
theorem sound_kernel11_C (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond11_0 i) (hc1 : cond11_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r11_out, k11_pay3 (k11_pay2 (View.ld xs r11_out) (View.ld xa r11_A) (View.ld xx r11_X))⟩])
            ∗ owns (c : Thread nD τ) arg5 fullShare (View.canon [⟨r11_out, k11_pay2 (View.ld xs r11_out) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel11_C.sl.v16 sound_kernel11_C.sl.H5_1
    simp only [View.readCov_cons_toLoadRect, View.readAt_eq_ld]
    exact agg_read_writes_cons_11 _ _ r11_out mem_r11_out _ _
  iexists _; isplitr
  swap; · iexact H5
  ipureintro
  unfold sound_kernel11_C.sl.H5_1
  simp only [View.readCov_cons_toLoadRect, View.readAt_eq_ld]
  exact agg_read_writes_cons_11 _ _ r11_out mem_r11_out _ _

/-! ## The body obligation, at a generic point -/

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (st11_0 t) fullShare ((dat11 V c).after 0 t) from by
    unfold Dat.leavesExact; rw [liveAt11_0 t], after11_0]
  rw [show (dat11 V c).leavesExact 1 t = owns (c : Thread nD τ) (st11_1 t) fullShare ((dat11 V c).after 1 t) from by
    unfold Dat.leavesExact; rw [liveAt11_1 t], after11_1]
  rw [acc11_eq]
  by_cases h0 : t.val % 4 = 0
  · have h1 : ¬t.val % 4 = 3 := by omega
    rw [Dat.leavesExact_idle (dat11 V c) 2 t (idleAt11_2 t (fun h => h1 ((hcond11_1 t).mp h))) (noFlush11_2 t (fun h => h1 ((hcond11_1 t).mp h)))]
    rw [accP11_first V c t h0]
    by_cases hz : t.val = 0
    · rw [PhiS11_castSucc V c t, PhiS11_zero V c _ _ hz, PhiA11_eq]
      iintro ⟨⟨⟨HS, HR⟩, Hg⟩, Ho, ⟨%d0, H0⟩, ⟨%d1, H1⟩, H2⟩
      iapply (sound_kernel11_A c Set.univ (grid11.coords t) _ _ _ _ _ _ _ _ ((hcond11_0 t).mpr h0) (fun h => h1 ((hcond11_1 t).mp h)) (iblk11 V c 0 t) (iblk11 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS11_castSucc V c t, PhiS11_pos V c _ _ hz]
      iintro ⟨⟨⟨HS, HR⟩, Hg⟩, Ho, ⟨%d0, H0⟩, ⟨%d1, H1⟩, H2⟩
      iapply (sound_kernel11_A c Set.univ (grid11.coords t) _ _ _ _ _ _ _ _ ((hcond11_0 t).mpr h0) (fun h => h1 ((hcond11_1 t).mp h)) (iblk11 V c 0 t) (iblk11 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP11_step V c t h0]
    rw [PhiS11_castSucc V c t, PhiS11_pos V c _ _ hz]
    by_cases h1 : t.val % 4 = 3
    · rw [show (dat11 V c).leavesExact 2 t = owns (c : Thread nD τ) (st11_2 t) fullShare ((dat11 V c).after 2 t) from by
        unfold Dat.leavesExact; rw [liveAt11_2 t ((hcond11_1 t).mpr h1)], after11_2]
      rw [accP11_step V c t h0]
      iintro ⟨⟨⟨HS, HR⟩, Hg⟩, Ho, ⟨%d0, H0⟩, ⟨%d1, H1⟩, ⟨%d2, H2⟩⟩
      iapply (sound_kernel11_C c Set.univ (grid11.coords t) _ _ _ _ _ _ _ _ (fun h => h0 ((hcond11_0 t).mp h)) ((hcond11_1 t).mpr h1) (iblk11 V c 0 t) (iblk11 V c 1 t) (acc11 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat11 V c) 2 t (idleAt11_2 t (fun h => h1 ((hcond11_1 t).mp h))) (noFlush11_2 t (fun h => h1 ((hcond11_1 t).mp h)))]
      iintro ⟨⟨⟨HS, HR⟩, Hg⟩, Ho, ⟨%d0, H0⟩, ⟨%d1, H1⟩, H2⟩
      iapply (sound_kernel11_B c Set.univ (grid11.coords t) _ _ _ _ _ _ _ _ (fun h => h0 ((hcond11_0 t).mp h)) (fun h => h1 ((hcond11_1 t).mp h)) (iblk11 V c 0 t) (iblk11 V c 1 t) (acc11 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region (`ΦA`) is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives `ΦA` back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, HR⟩, Hg⟩
  isplitl [HS HR]
  · isplitl [HS]
    · iexists _; iexact HS
    iexact HR
  iexact Hg

/-- The same after the last point. -/
theorem hout11 (c : Dev nD) : (dat11 V c).Φ (Fin.last cfg11.N) ⊢ Pipeline.ΦA spec11 c :=
  Phi_out11 V c _ (by rw [Fin.val_last]; have : cfg11.N = 32 := N_11; omega)

end Cert.Kernel.Hand

end
-- ==== Proof.K.Agg12.lean ====
import proofs.«103499_j73031623901527_2_alg».proof.Proof.K.AggDef12
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 12 (`cc12__agg_kernel`, pipeline 12), at the entry contents `V`: the body obligation -/

/-- An input window's current staging buffer holds its block at every point, fetched there or not, for any proof
    data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- The accumulator's (and the output's) rectangle is the whole buffer. -/
theorem mem_r12_out (y : S1024x512.Idx) : y ∈ r12_out.set :=
  agg_mem_of_tiled (e := .f32) r12_out S1024x512.size (by rfl) y

/-- The class's invariant with the accumulator split off the scoped rest, owned at some contents. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

/-- What a buffer reads after a list of writes whose last piece covers it: that piece alone. -/
theorem agg_read_writes_cons_12 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)
/-- The condition of its second: the inner coordinate is the last (the output is stored). -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

/-! ## Where the windows are idle -/

/-- The inputs are never idle. -/
theorem liveAt12_0 : ∀ t : Fin cfg12.N, cfg12.idle 0 (grid12.coords t) = false := fun _ => rfl
theorem liveAt12_1 : ∀ t : Fin cfg12.N, cfg12.idle 1 (grid12.coords t) = false := fun _ => rfl
/-- Where the output is not stored its window is idle and not written back; where it is stored it is live. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
theorem liveAt12_2 : ∀ t : Fin cfg12.N, cond12_1 (grid12.coords t) → cfg12.idle 2 (grid12.coords t) = false := by decide +kernel

/-! ## The body's triple, per control case -/

set_option maxHeartbeats 1000000 in
/-- At a first inner step that is not the last: the accumulator, at anything, is zeroed and the product added. -/
theorem sound_kernel12_A (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond12_0 i) (hc1 : ¬cond12_1 i)
    (xa : Vec F S1024x2048 .bf16) (xx : Vec F S2048x512 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r12_out, k12_pay2 (k12_pay1 (F := F)) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel12_A.sl.v3 sound_kernel12_A.sl.H5_1
  simp only [View.readCov_cons_toLoadRect, View.readAt_eq_ld]
  exact agg_read_writes_cons_12 _ _ r12_out mem_r12_out _ _

set_option maxHeartbeats 1000000 in
/-- At a middle inner step: the product is added to what the accumulator held. -/
theorem sound_kernel12_B (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond12_0 i) (hc1 : ¬cond12_1 i)
    (xa : Vec F S1024x2048 .bf16) (xx : Vec F S2048x512 .bf16) (xs : Vec F S1024x512 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r12_out, k12_pay2 (View.ld xs r12_out) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_12 _ _ r12_out mem_r12_out _ _

set_option maxHeartbeats 1000000 in
/-- At a last inner step that is not the first: the product is added and the output stored, normalised. -/
theorem sound_kernel12_C (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond12_0 i) (hc1 : cond12_1 i)
    (xa : Vec F S1024x2048 .bf16) (xx : Vec F S2048x512 .bf16) (xs : Vec F S1024x512 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r12_out, k12_pay3 (k12_pay2 (View.ld xs r12_out) (View.ld xa r12_A) (View.ld xx r12_X))⟩])
            ∗ owns (c : Thread nD τ) arg5 fullShare (View.canon [⟨r12_out, k12_pay2 (View.ld xs r12_out) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel12_C.sl.v16 sound_kernel12_C.sl.H5_1
    simp only [View.readCov_cons_toLoadRect, View.readAt_eq_ld]
    exact agg_read_writes_cons_12 _ _ r12_out mem_r12_out _ _
  iexists _; isplitr
  swap; · iexact H5
  ipureintro
  unfold sound_kernel12_C.sl.H5_1
  simp only [View.readCov_cons_toLoadRect, View.readAt_eq_ld]
  exact agg_read_writes_cons_12 _ _ r12_out mem_r12_out _ _

/-! ## The body obligation, at a generic point -/

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [acc12_eq]
  by_cases h0 : t.val % 8 = 0
  · have h1 : ¬t.val % 8 = 7 := by omega
    rw [Dat.leavesExact_idle (dat12 V c) 2 t (idleAt12_2 t (fun h => h1 ((hcond12_1 t).mp h))) (noFlush12_2 t (fun h => h1 ((hcond12_1 t).mp h)))]
    rw [accP12_first V c t h0]
    by_cases hz : t.val = 0
    · rw [PhiS12_castSucc V c t, PhiS12_zero V c _ _ hz, PhiA12_eq]
      iintro ⟨⟨⟨HS, HR⟩, Hg⟩, Ho, ⟨%d0, H0⟩, ⟨%d1, H1⟩, H2⟩
      iapply (sound_kernel12_A c Set.univ (grid12.coords t) _ _ _ _ _ _ _ _ ((hcond12_0 t).mpr h0) (fun h => h1 ((hcond12_1 t).mp h)) (iblk12 V c 0 t) (iblk12 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS12_castSucc V c t, PhiS12_pos V c _ _ hz]
      iintro ⟨⟨⟨HS, HR⟩, Hg⟩, Ho, ⟨%d0, H0⟩, ⟨%d1, H1⟩, H2⟩
      iapply (sound_kernel12_A c Set.univ (grid12.coords t) _ _ _ _ _ _ _ _ ((hcond12_0 t).mpr h0) (fun h => h1 ((hcond12_1 t).mp h)) (iblk12 V c 0 t) (iblk12 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP12_step V c t h0]
    rw [PhiS12_castSucc V c t, PhiS12_pos V c _ _ hz]
    by_cases h1 : t.val % 8 = 7
    · rw [show (dat12 V c).leavesExact 2 t = owns (c : Thread nD τ) (st12_2 t) fullShare ((dat12 V c).after 2 t) from by
        unfold Dat.leavesExact; rw [liveAt12_2 t ((hcond12_1 t).mpr h1)], after12_2]
      rw [accP12_step V c t h0]
      iintro ⟨⟨⟨HS, HR⟩, Hg⟩, Ho, ⟨%d0, H0⟩, ⟨%d1, H1⟩, ⟨%d2, H2⟩⟩
      iapply (sound_kernel12_C c Set.univ (grid12.coords t) _ _ _ _ _ _ _ _ (fun h => h0 ((hcond12_0 t).mp h)) ((hcond12_1 t).mpr h1) (iblk12 V c 0 t) (iblk12 V c 1 t) (acc12 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat12 V c) 2 t (idleAt12_2 t (fun h => h1 ((hcond12_1 t).mp h))) (noFlush12_2 t (fun h => h1 ((hcond12_1 t).mp h)))]
      iintro ⟨⟨⟨HS, HR⟩, Hg⟩, Ho, ⟨%d0, H0⟩, ⟨%d1, H1⟩, H2⟩
      iapply (sound_kernel12_B c Set.univ (grid12.coords t) _ _ _ _ _ _ _ _ (fun h => h0 ((hcond12_0 t).mp h)) (fun h => h1 ((hcond12_1 t).mp h)) (iblk12 V c 0 t) (iblk12 V c 1 t) (acc12 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region (`ΦA`) is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives `ΦA` back: the accumulator's named contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS, HR⟩, Hg⟩
  isplitl [HS HR]
  · isplitl [HS]
    · iexists _; iexact HS
    iexact HR
  iexact Hg

/-- The same after the last point. -/
theorem hout12 (c : Dev nD) : (dat12 V c).Φ (Fin.last cfg12.N) ⊢ Pipeline.ΦA spec12 c :=
  Phi_out12 V c _ (by rw [Fin.val_last]; have : cfg12.N = 64 := N_12; omega)

end Cert.Kernel.Hand

end
-- ==== Proof.K.RunRc.lean ====
/- The run of @main, the kernel regions 9 … 12 as segments over the thread state "every unscoped buffer at the
   boundary's contents, the generator register at some state, nothing owed". -/
import proofs.«103499_j73031623901527_2_alg».proof.Proof.K.Run1
import proofs.«103499_j73031623901527_2_alg».proof.Proof.K.Agg10
import proofs.«103499_j73031623901527_2_alg».proof.Proof.K.Agg11
import proofs.«103499_j73031623901527_2_alg».proof.Proof.K.Agg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 9 (custom_call 9) over the thread state: entered from every unscoped buffer at `W19`, left at `W20`.
    Its arrays split out of the unscoped buffers and put back at the exit contents; the generator register and the
    scoped rest into the region's invariant and out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 10 (custom_call 10) over the thread state: entered from every unscoped buffer at `W21`, left at `W22`.
    Its arrays split out of the unscoped buffers and put back at the exit contents; the generator register and the
    scoped rest into the region's invariant and out; nothing owed; no semaphore of the kernel's own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (V21 m ρ) c)
    unfold Pipeline.ΦA
    iintro ⟨Hp, -, Hr⟩
    isplitl [Hr]; · iexact Hr
    iexact Hp
  hout c := by
    rw [Pipeline.ownSems0_none]
    refine BIBase.Entails.trans (hout10 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 11 (custom_call 11) over the thread state: entered from every unscoped buffer at `W23`, left at `W24`.
    Its arrays split out of the unscoped buffers and put back at the exit contents; the generator register and the
    scoped rest into the region's invariant and out; nothing owed; no semaphore of the kernel's own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (V23 m ρ) c)
    unfold Pipeline.ΦA
    iintro ⟨Hp, -, Hr⟩
    isplitl [Hr]; · iexact Hr
    iexact Hp
  hout c := by
    rw [Pipeline.ownSems0_none]
    refine BIBase.Entails.trans (hout11 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 12 (custom_call 12) over the thread state: entered from every unscoped buffer at `W25`, left at `W26`.
    Its arrays split out of the unscoped buffers and put back at the exit contents; the generator register and the
    scoped rest into the region's invariant and out; nothing owed; no semaphore of the kernel's own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (V25 m ρ) c)
    unfold Pipeline.ΦA
    iintro ⟨Hp, -, Hr⟩
    isplitl [Hr]; · iexact Hr
    iexact Hp
  hout c := by
    rw [Pipeline.ownSems0_none]
    refine BIBase.Entails.trans (hout12 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Agg14.lean ====
import proofs.«103499_j73031623901527_2_alg».proof.Proof.K.AggDef14
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 14 (`cc14__agg_kernel`, pipeline 14), at the entry contents `V`: the body obligation -/

/-- An input window's current staging buffer holds its block at every point, fetched there or not, for any proof
    data whose array is `V`'s and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- The accumulator's (and the output's) rectangle is the whole buffer. -/
theorem mem_r14_out (y : S2048x256.Idx) : y ∈ r14_out.set :=
  agg_mem_of_tiled (e := .f32) r14_out S2048x256.size (by rfl) y

/-- The class's invariant with the accumulator split off the scoped rest, owned at some contents. -/
theorem PhiA14_eq (c : Dev nD) :
    (Pipeline.ΦA spec14 c : sProp 𝕄)
      = iprop(iprop(iprop((∃ d, owns (c : Thread nD τ) scM14 fullShare d))
          ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

/-- What a buffer reads after a list of writes whose last piece covers it: that piece alone. -/
theorem agg_read_writes_cons_14 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond14_0 (i : grid14.Coords) : Prop := (Scalar.cmpi .ne (Scalar.extui (Scalar.cmpi .eq (BitVec.ofNat 32 (i 1).val) 0#32)) 0#32) = 1#1
theorem hcond14_0 : ∀ t : Fin cfg14.N, cond14_0 (grid14.coords t) ↔ t.val % 4 = 0 :=
  (by decide +kernel : ∀ t : Fin grid14.N, cond14_0 (grid14.coords t) ↔ t.val % 4 = 0)
/-- The condition of its second: the inner coordinate is the last (the output is stored). -/
abbrev cond14_1 (i : grid14.Coords) : Prop := k14_cond2 i = 1#1
theorem hcond14_1 : ∀ t : Fin cfg14.N, cond14_1 (grid14.coords t) ↔ t.val % 4 = 3 :=
  (by decide +kernel : ∀ t : Fin grid14.N, cond14_1 (grid14.coords t) ↔ t.val % 4 = 3)

/-! ## Where the windows are idle -/

/-- The inputs are never idle. -/
theorem liveAt14_0 : ∀ t : Fin cfg14.N, cfg14.idle 0 (grid14.coords t) = false := fun _ => rfl
theorem liveAt14_1 : ∀ t : Fin cfg14.N, cfg14.idle 1 (grid14.coords t) = false := fun _ => rfl
/-- Where the output is not stored its window is idle and not written back; where it is stored it is live. -/
theorem idleAt14_2 : ∀ t : Fin cfg14.N, ¬cond14_1 (grid14.coords t) → cfg14.idle 2 (grid14.coords t) = true := by decide +kernel
theorem noFlush14_2 : ∀ t : Fin cfg14.N, ¬cond14_1 (grid14.coords t) → (cfg14.win 2).flush t = false := by decide +kernel
theorem liveAt14_2 : ∀ t : Fin cfg14.N, cond14_1 (grid14.coords t) → cfg14.idle 2 (grid14.coords t) = false := by decide +kernel

/-! ## The body's triple, per control case -/

set_option maxHeartbeats 1000000 in
/-- At a first inner step that is not the last: the accumulator, at anything, is zeroed and the product added. -/
theorem sound_kernel14_A (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond14_0 i) (hc1 : ¬cond14_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r14_out, k14_pay2 (k14_pay1 (F := F)) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel14_A.sl.v3 sound_kernel14_A.sl.H5_1
  simp only [View.readCov_cons_toLoadRect, View.readAt_eq_ld]
  exact agg_read_writes_cons_14 _ _ r14_out mem_r14_out _ _

set_option maxHeartbeats 1000000 in
/-- At a middle inner step: the product is added to what the accumulator held. -/
theorem sound_kernel14_B (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond14_0 i) (hc1 : ¬cond14_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r14_out, k14_pay2 (View.ld xs r14_out) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_14 _ _ r14_out mem_r14_out _ _

set_option maxHeartbeats 1000000 in
/-- At a last inner step that is not the first: the product is added and the output stored, normalised. -/
theorem sound_kernel14_C (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond14_0 i) (hc1 : cond14_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r14_out, k14_pay3 (k14_pay2 (View.ld xs r14_out) (View.ld xa r14_A) (View.ld xx r14_X))⟩])
            ∗ owns (c : Thread nD τ) arg5 fullShare (View.canon [⟨r14_out, k14_pay2 (View.ld xs r14_out) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel14_C.sl.v16 sound_kernel14_C.sl.H5_1
    simp only [View.readCov_cons_toLoadRect, View.readAt_eq_ld]
    exact agg_read_writes_cons_14 _ _ r14_out mem_r14_out _ _
  iexists _; isplitr
  swap; · iexact H5
  ipureintro
  unfold sound_kernel14_C.sl.H5_1
  simp only [View.readCov_cons_toLoadRect, View.readAt_eq_ld]
  exact agg_read_writes_cons_14 _ _ r14_out mem_r14_out _ _

/-! ## The body obligation, at a generic point -/

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  rw [acc14_eq]
  by_cases h0 : t.val % 4 = 0
  · have h1 : ¬t.val % 4 = 3 := by omega
    rw [Dat.leavesExact_idle (dat14 V c) 2 t (idleAt14_2 t (fun h => h1 ((hcond14_1 t).mp h))) (noFlush14_2 t (fun h => h1 ((hcond14_1 t).mp h)))]
    rw [accP14_first V c t h0]
    by_cases hz : t.val = 0
    · rw [PhiS14_castSucc V c t, PhiS14_zero V c _ _ hz, PhiA14_eq]
      iintro ⟨⟨⟨HS, HR⟩, Hg⟩, Ho, ⟨%d0, H0⟩, ⟨%d1, H1⟩, H2⟩
      iapply (sound_kernel14_A c Set.univ (grid14.coords t) _ _ _ _ _ _ _ _ ((hcond14_0 t).mpr h0) (fun h => h1 ((hcond14_1 t).mp h)) (iblk14 V c 0 t) (iblk14 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS14_castSucc V c t, PhiS14_pos V c _ _ hz]
      iintro ⟨⟨⟨HS, HR⟩, Hg⟩, Ho, ⟨%d0, H0⟩, ⟨%d1, H1⟩, H2⟩
      iapply (sound_kernel14_A c Set.univ (grid14.coords t) _ _ _ _ _ _ _ _ ((hcond14_0 t).mpr h0) (fun h => h1 ((hcond14_1 t).mp h)) (iblk14 V c 0 t) (iblk14 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP14_step V c t h0]
    rw [PhiS14_castSucc V c t, PhiS14_pos V c _ _ hz]
    by_cases h1 : t.val % 4 = 3
    · rw [show (dat14 V c).leavesExact 2 t = owns (c : Thread nD τ) (st14_2 t) fullShare ((dat14 V c).after 2 t) from by
        unfold Dat.leavesExact; rw [liveAt14_2 t ((hcond14_1 t).mpr h1)], after14_2]
      rw [accP14_step V c t h0]
      iintro ⟨⟨⟨HS, HR⟩, Hg⟩, Ho, ⟨%d0, H0⟩, ⟨%d1, H1⟩, ⟨%d2, H2⟩⟩
      iapply (sound_kernel14_C c Set.univ (grid14.coords t) _ _ _ _ _ _ _ _ (fun h => h0 ((hcond14_0 t).mp h)) ((hcond14_1 t).mpr h1) (iblk14 V c 0 t) (iblk14 V c 1 t) (acc14 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat14 V c) 2 t (idleAt14_2 t (fun h => h1 ((hcond14_1 t).mp h))) (noFlush14_2 t (fun h => h1 ((hcond14_1 t).mp h)))]
      iintro ⟨⟨⟨HS, HR⟩, Hg⟩, Ho, ⟨%d0, H0⟩, ⟨%d1, H1⟩, H2⟩
      iapply (sound_kernel14_B c Set.univ (grid14.coords t) _ _ _ _ _ _ _ _ (fun h => h0 ((hcond14_0 t).mp h)) (fun h => h1 ((hcond14_1 t).mp h)) (iblk14 V c 0 t) (iblk14 V c 1 t) (acc14 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region (`ΦA`) is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives `ΦA` back: the accumulator's named contents are forgotten. -/
theorem Phi_out14 (c : Dev nD) (t : Fin (cfg14.N + 1)) (ht : t.val ≠ 0) : (dat14 V c).Φ t ⊢ Pipeline.ΦA spec14 c := by
  rw [show (dat14 V c).Φ t = PhiS14 V c t.val (Nat.le_of_lt_succ t.isLt) from rfl, PhiS14_pos V c _ _ ht, PhiA14_eq]
  iintro ⟨⟨HS, HR⟩, Hg⟩
  isplitl [HS HR]
  · isplitl [HS]
    · iexists _; iexact HS
    iexact HR
  iexact Hg

/-- The same after the last point. -/
theorem hout14 (c : Dev nD) : (dat14 V c).Φ (Fin.last cfg14.N) ⊢ Pipeline.ΦA spec14 c :=
  Phi_out14 V c _ (by rw [Fin.val_last]; have : cfg14.N = 16 := N_14; omega)

end Cert.Kernel.Hand

end
-- ==== Proof.K.Agg16.lean ====
import proofs.«103499_j73031623901527_2_alg».proof.Proof.K.AggDef16
import proofs.«103499_j73031623901527_2_alg».proof.Proof.K.AggLib
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 16 (`cc16__agg_kernel`, pipeline 16), at the entry contents `V`: the body obligation -/

/-- An input window's current staging buffer holds its block at every point, fetched there or not, for any proof
    data whose array is `V`'s and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- The accumulator's (and the output's) rectangle is the whole buffer. -/
theorem mem_r16_out (y : S2048x256.Idx) : y ∈ r16_out.set :=
  agg_mem_of_tiled (e := .f32) r16_out S2048x256.size (by rfl) y

/-- The class's invariant with the accumulator split off the scoped rest, owned at some contents. -/
theorem PhiA16_eq (c : Dev nD) :
    (Pipeline.ΦA spec16 c : sProp 𝕄)
      = iprop(iprop(iprop((∃ d, owns (c : Thread nD τ) scM16 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

/-- What a buffer reads after a list of writes whose last piece covers it: that piece alone. -/
theorem agg_read_writes_cons_16 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond16_0 (i : grid16.Coords) : Prop := (Scalar.cmpi .ne (Scalar.extui (Scalar.cmpi .eq (BitVec.ofNat 32 (i 1).val) 0#32)) 0#32) = 1#1
theorem hcond16_0 : ∀ t : Fin cfg16.N, cond16_0 (grid16.coords t) ↔ t.val % 4 = 0 :=
  (by decide +kernel : ∀ t : Fin grid16.N, cond16_0 (grid16.coords t) ↔ t.val % 4 = 0)
/-- The condition of its second: the inner coordinate is the last (the output is stored). -/
abbrev cond16_1 (i : grid16.Coords) : Prop := k16_cond2 i = 1#1
theorem hcond16_1 : ∀ t : Fin cfg16.N, cond16_1 (grid16.coords t) ↔ t.val % 4 = 3 :=
  (by decide +kernel : ∀ t : Fin grid16.N, cond16_1 (grid16.coords t) ↔ t.val % 4 = 3)

/-! ## Where the windows are idle -/

/-- The inputs are never idle. -/
theorem liveAt16_0 : ∀ t : Fin cfg16.N, cfg16.idle 0 (grid16.coords t) = false := fun _ => rfl
theorem liveAt16_1 : ∀ t : Fin cfg16.N, cfg16.idle 1 (grid16.coords t) = false := fun _ => rfl
/-- Where the output is not stored its window is idle and not written back; where it is stored it is live. -/
theorem idleAt16_2 : ∀ t : Fin cfg16.N, ¬cond16_1 (grid16.coords t) → cfg16.idle 2 (grid16.coords t) = true := by decide +kernel
theorem noFlush16_2 : ∀ t : Fin cfg16.N, ¬cond16_1 (grid16.coords t) → (cfg16.win 2).flush t = false := by decide +kernel
theorem liveAt16_2 : ∀ t : Fin cfg16.N, cond16_1 (grid16.coords t) → cfg16.idle 2 (grid16.coords t) = false := by decide +kernel

/-! ## The body's triple, per control case -/

set_option maxHeartbeats 1000000 in
/-- At a first inner step that is not the last: the accumulator, at anything, is zeroed and the product added. -/
theorem sound_kernel16_A (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond16_0 i) (hc1 : ¬cond16_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r16_out, k16_pay2 (k16_pay1 (F := F)) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel16_A.sl.v3 sound_kernel16_A.sl.H5_1
  simp only [View.readCov_cons_toLoadRect, View.readAt_eq_ld]
  exact agg_read_writes_cons_16 _ _ r16_out mem_r16_out _ _

set_option maxHeartbeats 1000000 in
/-- At a middle inner step: the product is added to what the accumulator held. -/
theorem sound_kernel16_B (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond16_0 i) (hc1 : ¬cond16_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r16_out, k16_pay2 (View.ld xs r16_out) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_16 _ _ r16_out mem_r16_out _ _

set_option maxHeartbeats 1000000 in
/-- At a last inner step that is not the first: the product is added and the output stored, normalised. -/
theorem sound_kernel16_C (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond16_0 i) (hc1 : cond16_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r16_out, k16_pay3 (k16_pay2 (View.ld xs r16_out) (View.ld xa r16_A) (View.ld xx r16_X))⟩])
            ∗ owns (c : Thread nD τ) arg5 fullShare (View.canon [⟨r16_out, k16_pay2 (View.ld xs r16_out) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel16_C.sl.v16 sound_kernel16_C.sl.H5_1
    simp only [View.readCov_cons_toLoadRect, View.readAt_eq_ld]
    exact agg_read_writes_cons_16 _ _ r16_out mem_r16_out _ _
  iexists _; isplitr
  swap; · iexact H5
  ipureintro
  unfold sound_kernel16_C.sl.H5_1
  simp only [View.readCov_cons_toLoadRect, View.readAt_eq_ld]
  exact agg_read_writes_cons_16 _ _ r16_out mem_r16_out _ _

/-! ## The body obligation, at a generic point -/

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [acc16_eq]
  by_cases h0 : t.val % 4 = 0
  · have h1 : ¬t.val % 4 = 3 := by omega
    rw [Dat.leavesExact_idle (dat16 V c) 2 t (idleAt16_2 t (fun h => h1 ((hcond16_1 t).mp h))) (noFlush16_2 t (fun h => h1 ((hcond16_1 t).mp h)))]
    rw [accP16_first V c t h0]
    by_cases hz : t.val = 0
    · rw [PhiS16_castSucc V c t, PhiS16_zero V c _ _ hz, PhiA16_eq]
      iintro ⟨⟨⟨HS, HR⟩, Hg⟩, Ho, ⟨%d0, H0⟩, ⟨%d1, H1⟩, H2⟩
      iapply (sound_kernel16_A c Set.univ (grid16.coords t) _ _ _ _ _ _ _ _ ((hcond16_0 t).mpr h0) (fun h => h1 ((hcond16_1 t).mp h)) (iblk16 V c 0 t) (iblk16 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS16_castSucc V c t, PhiS16_pos V c _ _ hz]
      iintro ⟨⟨⟨HS, HR⟩, Hg⟩, Ho, ⟨%d0, H0⟩, ⟨%d1, H1⟩, H2⟩
      iapply (sound_kernel16_A c Set.univ (grid16.coords t) _ _ _ _ _ _ _ _ ((hcond16_0 t).mpr h0) (fun h => h1 ((hcond16_1 t).mp h)) (iblk16 V c 0 t) (iblk16 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP16_step V c t h0]
    rw [PhiS16_castSucc V c t, PhiS16_pos V c _ _ hz]
    by_cases h1 : t.val % 4 = 3
    · rw [show (dat16 V c).leavesExact 2 t = owns (c : Thread nD τ) (st16_2 t) fullShare ((dat16 V c).after 2 t) from by
        unfold Dat.leavesExact; rw [liveAt16_2 t ((hcond16_1 t).mpr h1)], after16_2]
      rw [accP16_step V c t h0]
      iintro ⟨⟨⟨HS, HR⟩, Hg⟩, Ho, ⟨%d0, H0⟩, ⟨%d1, H1⟩, ⟨%d2, H2⟩⟩
      iapply (sound_kernel16_C c Set.univ (grid16.coords t) _ _ _ _ _ _ _ _ (fun h => h0 ((hcond16_0 t).mp h)) ((hcond16_1 t).mpr h1) (iblk16 V c 0 t) (iblk16 V c 1 t) (acc16 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat16 V c) 2 t (idleAt16_2 t (fun h => h1 ((hcond16_1 t).mp h))) (noFlush16_2 t (fun h => h1 ((hcond16_1 t).mp h)))]
      iintro ⟨⟨⟨HS, HR⟩, Hg⟩, Ho, ⟨%d0, H0⟩, ⟨%d1, H1⟩, H2⟩
      iapply (sound_kernel16_B c Set.univ (grid16.coords t) _ _ _ _ _ _ _ _ (fun h => h0 ((hcond16_0 t).mp h)) (fun h => h1 ((hcond16_1 t).mp h)) (iblk16 V c 0 t) (iblk16 V c 1 t) (acc16 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the launch hands the region (`ΦA`) is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After any point but the first the invariant gives `ΦA` back: the accumulator's named contents are forgotten. -/
theorem Phi_out16 (c : Dev nD) (t : Fin (cfg16.N + 1)) (ht : t.val ≠ 0) : (dat16 V c).Φ t ⊢ Pipeline.ΦA spec16 c := by
  rw [show (dat16 V c).Φ t = PhiS16 V c t.val (Nat.le_of_lt_succ t.isLt) from rfl, PhiS16_pos V c _ _ ht, PhiA16_eq]
  iintro ⟨⟨HS, HR⟩, Hg⟩
  isplitl [HS HR]
  · isplitl [HS]
    · iexists _; iexact HS
    iexact HR
  iexact Hg

/-- The same after the last point. -/
theorem hout16 (c : Dev nD) : (dat16 V c).Φ (Fin.last cfg16.N) ⊢ Pipeline.ΦA spec16 c :=
  Phi_out16 V c _ (by rw [Fin.val_last]; have : cfg16.N = 16 := N_16; omega)

end Cert.Kernel.Hand

end
-- ==== Proof.K.RunRd.lean ====
/- The run of @main, the kernel regions 13 … 16 as segments over the thread state "every unscoped buffer at the
   boundary's contents, the generator register at some state, nothing owed". -/
import proofs.«103499_j73031623901527_2_alg».proof.Proof.K.Run1
import proofs.«103499_j73031623901527_2_alg».proof.Proof.K.Agg14
import proofs.«103499_j73031623901527_2_alg».proof.Proof.K.Agg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 13 (custom_call 13) over the thread state: entered from every unscoped buffer at `W27`, left at `W28`.
    Its arrays split out of the unscoped buffers and put back at the exit contents; the generator register and the
    scoped rest into the region's invariant and out; nothing owed; no semaphore of the kernel's own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 14 (custom_call 14) over the thread state: entered from every unscoped buffer at `W29`, left at `W30`.
    Its arrays split out of the unscoped buffers and put back at the exit contents; the generator register and the
    scoped rest into the region's invariant and out; nothing owed; no semaphore of the kernel's own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (V29 m ρ) c)
    unfold Pipeline.ΦA
    iintro ⟨Hp, -, Hr⟩
    isplitl [Hr]; · iexact Hr
    iexact Hp
  hout c := by
    rw [Pipeline.ownSems0_none]
    refine BIBase.Entails.trans (hout14 (V29 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 15 (custom_call 15) over the thread state: entered from every unscoped buffer at `W31`, left at `W32`.
    Its arrays split out of the unscoped buffers and put back at the exit contents; the generator register and the
    scoped rest into the region's invariant and out; nothing owed; no semaphore of the kernel's own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 16 (custom_call 16) over the thread state: entered from every unscoped buffer at `W33`, left at `W34`.
    Its arrays split out of the unscoped buffers and put back at the exit contents; the generator register and the
    scoped rest into the region's invariant and out; nothing owed; no semaphore of the kernel's own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin16 (V33 m ρ) c)
    unfold Pipeline.ΦA
    iintro ⟨Hp, -, Hr⟩
    isplitl [Hr]; · iexact Hr
    iexact Hp
  hout c := by
    rw [Pipeline.ownSems0_none]
    refine BIBase.Entails.trans (hout16 (V33 m ρ) c) ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- The run of @main: its 35 items as segments (a host segment per stretch from its boundary's contents, a region per
   pallas_call), @main as their run, the launch (every weakly fair execution terminates, nothing faulting, and every final
   state holds each unscoped buffer at the last boundary's contents `W35`), and the frame: each argument array as launched. -/
import proofs.«103499_j73031623901527_2_alg».proof.Proof.K.RunRa
import proofs.«103499_j73031623901527_2_alg».proof.Proof.K.RunRb
import proofs.«103499_j73031623901527_2_alg».proof.Proof.K.RunRc
import proofs.«103499_j73031623901527_2_alg».proof.Proof.K.RunRd
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 35 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ),
    .host (hseg hostOps16 hostOps16_sub hostOps16_fresh (W32 m ρ)),
    .region (reg16 m ρ),
    .host (hseg hostOps17 hostOps17_sub hostOps17_fresh (W34 m ρ)) ]
/-- @main IS the run of the segments: the chain of its items, then the segments' run against that chain by the
    kernel's definitional check. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W35 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun _ h => h)

/-- THE FRAME: every final state has the argument arrays as launched — each argument's buffer is unscoped, so the run
    gives it at `W35`, which is its launch contents (`W35_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W35_main_arg0 m ρ c),
    (h c _ (mem_uc main_arg1 (by decide))).trans (W35_main_arg1 m ρ c),
    (h c _ (mem_uc main_arg2 (by decide))).trans (W35_main_arg2 m ρ c),
    (h c _ (mem_uc main_arg3 (by decide))).trans (W35_main_arg3 m ρ c),
    (h c _ (mem_uc main_arg4 (by decide))).trans (W35_main_arg4 m ρ c),
    (h c _ (mem_uc main_arg5 (by decide))).trans (W35_main_arg5 m ρ c),
    (h c _ (mem_uc main_arg6 (by decide))).trans (W35_main_arg6 m ρ c),
    (h c _ (mem_uc main_arg7 (by decide))).trans (W35_main_arg7 m ρ c),
    (h c _ (mem_uc main_arg8 (by decide))).trans (W35_main_arg8 m ρ c),
    (h c _ (mem_uc main_arg9 (by decide))).trans (W35_main_arg9 m ρ c),
    (h c _ (mem_uc main_arg10 (by decide))).trans (W35_main_arg10 m ρ c),
    (h c _ (mem_uc main_arg11 (by decide))).trans (W35_main_arg11 m ρ c),
    (h c _ (mem_uc main_arg12 (by decide))).trans (W35_main_arg12 m ρ c),
    (h c _ (mem_uc main_arg13 (by decide))).trans (W35_main_arg13 m ρ c),
    (h c _ (mem_uc main_arg14 (by decide))).trans (W35_main_arg14 m ρ c),
    (h c _ (mem_uc main_arg15 (by decide))).trans (W35_main_arg15 m ρ c),
    (h c _ (mem_uc main_arg16 (by decide))).trans (W35_main_arg16 m ρ c),
    (h c _ (mem_uc main_arg17 (by decide))).trans (W35_main_arg17 m ρ c),
    (h c _ (mem_uc main_arg18 (by decide))).trans (W35_main_arg18 m ρ c),
    (h c _ (mem_uc main_arg19 (by decide))).trans (W35_main_arg19 m ρ c),
    (h c _ (mem_uc main_arg20 (by decide))).trans (W35_main_arg20 m ρ c)⟩) (run_all m ρ)

/-- info: 'Cert.Kernel.Hand.frame' depends on axioms: [propext, Classical.choice, Quot.sound] -/
#guard_msgs in #print axioms frame

end Cert.Kernel.Hand

end
-- ==== Proof.KI.Lin0.lean ====
/- The class-A half of region 0 of @main (custom_call 0, `cc0__linear_kernel`, pipeline 0), at a parameter
   `V` — the TensorCore's buffer contents when the region is entered: each window's block at a point
   (`iblk0`), the output's buffer after the body (`out0_4`), the body's triple (`sound_kernel0`), the
   proof data (`dat0`) and the body obligation (`body_obligation0`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S1x1 := Rect.unit (s := S1x1) ![0, 0] S1x1.size inb_S1x1_S1x1_0_0
abbrev r0_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out0_4 (x0 : Vec F S2048x256 .bf16) (x1 : Vec F S256x256 .bf16) (x2 : Vec F S1x256 .f32) (x3 : Vec F S1x1 .f32) : Vec F S2048x256 .f32 :=
  View.canon [⟨r0_4, k0_pay1 (View.ld x0 r0_0) (View.ld x1 r0_1) (View.ld x2 r0_2) (View.ld x3 r0_3)⟩]

/-- The store tiles the buffer (checked by evaluation), so it covers it. -/
theorem cover0_4 (p0 : Vec F S2048x256 .f32) (y : S2048x256.Idx) :
    ∃ pc ∈ ([⟨r0_4, p0⟩] : List (View.Piece (Elt F) S2048x256 .f32)), y ∈ pc.1.set :=
  View.cover_of_tiled [⟨r0_4, p0⟩] S2048x256.size (by rfl) y

/-! ## The body's triple -/

set_option maxHeartbeats 1000000 in
/-- The kernel body on whole staging memrefs, the inputs' at read contents `xW` and the output's at anything, runs to
    the continuation holding the inputs' as they were and the output's at `out0_4` of the inputs'. The body reads
    the output buffer once before it stores the whole of it; the value read is not used. -/
theorem sound_kernel0 (c : Dev nD) (E : Set ℕ) (i : grid0.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2 x3)) -∗ K ⟨⟩))
      ⊢ wp frame (wpE (defs₀ (F := F)) Variants.none c none) E (cc0__linear_kernel i arg0 harg0 arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.AggDef1.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 1 (`cc1__agg_kernel`, pipeline 1), at the entry contents `V`: what it computes -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer is loaded and stored whole -/

abbrev r1_A : Rect S2048x2048 := Rect.unit (s := S2048x2048) ![0, 0] S2048x2048.size inb_S2048x2048_S2048x2048_0_0
abbrev r1_X : Rect S2048x256 := Rect.unit (s := S2048x256) ![0, 0] S2048x256.size inb_S2048x256_S2048x256_0_0
abbrev r1_out : Rect S2048x256 := Rect.unit (s := S2048x256) ![0, 0] S2048x256.size inb_S2048x256_S2048x256_0_0

/-- The scratch accumulator, a whole scoped buffer of the kernel's own, passed beside the windows. -/
abbrev scM1 : Memref sig .tc .vmem S2048x256 .f32 := Memref.whole cc1_scratch0

/-! ## What the accumulator holds after each point -/

/-- The payload last stored into the accumulator at point `n`: the zero piece plus the product of the point's blocks. -/
def accP1 (c : Dev nD) (n : ℕ) (hn : n < cfg1.N) : FVec F S2048x256 .f32 :=
  k1_pay2 (k1_pay1 (F := F)) (View.ld (iblk1 V c 0 ⟨n, hn⟩ : Vec F S2048x2048 .bf16) r1_A) (View.ld (iblk1 V c 1 ⟨n, hn⟩ : Vec F S2048x256 .bf16) r1_X)

/-- What the accumulator holds after point `n`. -/
def acc1 (c : Dev nD) (n : ℕ) (hn : n < cfg1.N) : Vec F S2048x256 .f32 :=
  View.canon [⟨r1_out, accP1 V c n hn⟩]

theorem accP1_first (c : Dev nD) (t : Fin cfg1.N) (h : t.val % 1 = 0) :
    accP1 V c t.val t.isLt = k1_pay2 (k1_pay1 (F := F)) (View.ld (iblk1 V c 0 t : Vec F S2048x2048 .bf16) r1_A) (View.ld (iblk1 V c 1 t : Vec F S2048x256 .bf16) r1_X) := rfl

theorem acc1_eq (c : Dev nD) (n : ℕ) (hn : n < cfg1.N) : acc1 V c n hn = View.canon [⟨r1_out, accP1 V c n hn⟩] := rfl

/-- The region invariant before position `n`: before the first point the class's; afterwards the accumulator at what
    the point before left, the rest of the scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at the normalisation of the accumulator's payload (consulted
    only at the points that store it); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => View.canon [⟨r1_out, k1_pay3 (accP1 V c t.val t.isLt)⟩]
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = View.canon [⟨r1_out, k1_pay3 (accP1 V c t.val t.isLt)⟩] := by dsimp only [dat1]

/-- At a point that stores the output (the last inner step), its buffer holds the normalised accumulator payload. -/
theorem after1_2_last (c : Dev nD) (t : Fin cfg1.N) (h : t.val % 1 = 0) :
    (dat1 V c).after 2 t = View.canon [⟨r1_out, k1_pay3 (accP1 V c t.val t.isLt)⟩] := after1_2 V c t

end Cert.KernelIdeal.Hand

end
-- ==== Proof.KI.Lin2.lean ====
/- The class-A half of region 2 of @main (custom_call 2, `cc2__linear_kernel`, pipeline 2), at a parameter
   `V` — the TensorCore's buffer contents when the region is entered: each window's block at a point
   (`iblk2`), the output's buffer after the body (`out2_4`), the body's triple (`sound_kernel2`), the
   proof data (`dat2`) and the body obligation (`body_obligation2`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S1x1 := Rect.unit (s := S1x1) ![0, 0] S1x1.size inb_S1x1_S1x1_0_0
abbrev r2_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out2_4 (x0 : Vec F S2048x256 .bf16) (x1 : Vec F S256x256 .bf16) (x2 : Vec F S1x256 .f32) (x3 : Vec F S1x1 .f32) : Vec F S2048x256 .f32 :=
  View.canon [⟨r2_4, k2_pay1 (View.ld x0 r2_0) (View.ld x1 r2_1) (View.ld x2 r2_2) (View.ld x3 r2_3)⟩]

/-- The store tiles the buffer (checked by evaluation), so it covers it. -/
theorem cover2_4 (p0 : Vec F S2048x256 .f32) (y : S2048x256.Idx) :
    ∃ pc ∈ ([⟨r2_4, p0⟩] : List (View.Piece (Elt F) S2048x256 .f32)), y ∈ pc.1.set :=
  View.cover_of_tiled [⟨r2_4, p0⟩] S2048x256.size (by rfl) y

/-! ## The body's triple -/

set_option maxHeartbeats 1000000 in
/-- The kernel body on whole staging memrefs, the inputs' at read contents `xW` and the output's at anything, runs to
    the continuation holding the inputs' as they were and the output's at `out2_4` of the inputs'. The body reads
    the output buffer once before it stores the whole of it; the value read is not used. -/
theorem sound_kernel2 (c : Dev nD) (E : Set ℕ) (i : grid2.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E (cc2__linear_kernel i arg0 harg0 arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.AggDef3.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3 (`cc3__agg_kernel`, pipeline 3), at the entry contents `V`: what it computes -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each buffer is loaded and stored whole -/

abbrev r3_A : Rect S2048x2048 := Rect.unit (s := S2048x2048) ![0, 0] S2048x2048.size inb_S2048x2048_S2048x2048_0_0
abbrev r3_X : Rect S2048x256 := Rect.unit (s := S2048x256) ![0, 0] S2048x256.size inb_S2048x256_S2048x256_0_0
abbrev r3_out : Rect S2048x256 := Rect.unit (s := S2048x256) ![0, 0] S2048x256.size inb_S2048x256_S2048x256_0_0

/-- The scratch accumulator, a whole scoped buffer of the kernel's own, passed beside the windows. -/
abbrev scM3 : Memref sig .tc .vmem S2048x256 .f32 := Memref.whole cc3_scratch0

/-! ## What the accumulator holds after each point -/

/-- The payload last stored into the accumulator at point `n`: the zero piece plus the product of the point's blocks. -/
def accP3 (c : Dev nD) (n : ℕ) (hn : n < cfg3.N) : FVec F S2048x256 .f32 :=
  k3_pay2 (k3_pay1 (F := F)) (View.ld (iblk3 V c 0 ⟨n, hn⟩ : Vec F S2048x2048 .bf16) r3_A) (View.ld (iblk3 V c 1 ⟨n, hn⟩ : Vec F S2048x256 .bf16) r3_X)

/-- What the accumulator holds after point `n`. -/
def acc3 (c : Dev nD) (n : ℕ) (hn : n < cfg3.N) : Vec F S2048x256 .f32 :=
  View.canon [⟨r3_out, accP3 V c n hn⟩]

theorem accP3_first (c : Dev nD) (t : Fin cfg3.N) (h : t.val % 1 = 0) :
    accP3 V c t.val t.isLt = k3_pay2 (k3_pay1 (F := F)) (View.ld (iblk3 V c 0 t : Vec F S2048x2048 .bf16) r3_A) (View.ld (iblk3 V c 1 t : Vec F S2048x256 .bf16) r3_X) := rfl

theorem acc3_eq (c : Dev nD) (n : ℕ) (hn : n < cfg3.N) : acc3 V c n hn = View.canon [⟨r3_out, accP3 V c n hn⟩] := rfl

/-- The region invariant before position `n`: before the first point the class's; afterwards the accumulator at what
    the point before left, the rest of the scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point
    `t` each input's buffer at its block and the output's at the normalisation of the accumulator's payload (consulted
    only at the points that store it); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => View.canon [⟨r3_out, k3_pay3 (accP3 V c t.val t.isLt)⟩]
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = View.canon [⟨r3_out, k3_pay3 (accP3 V c t.val t.isLt)⟩] := by dsimp only [dat3]

/-- At a point that stores the output (the last inner step), its buffer holds the normalised accumulator payload. -/
theorem after3_2_last (c : Dev nD) (t : Fin cfg3.N) (h : t.val % 1 = 0) :
    (dat3 V c).after 2 t = View.canon [⟨r3_out, k3_pay3 (accP3 V c t.val t.isLt)⟩] := after3_2 V c t

end Cert.KernelIdeal.Hand

end
-- ==== Proof.KI.Lin4.lean ====
/- The class-A half of region 4 of @main (custom_call 4, `cc4__linear_kernel`, pipeline 4), at a parameter
   `V` — the TensorCore's buffer contents when the region is entered: each window's block at a point
   (`iblk4`), the output's buffer after the body (`out4_4`), the body's triple (`sound_kernel4`), the
   proof data (`dat4`) and the body obligation (`body_obligation4`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x256 := Rect.unit (s := S2048x256) ![0, 0] S2048x256.size inb_S2048x256_S2048x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0
abbrev r4_3 : Rect S1x1 := Rect.unit (s := S1x1) ![0, 0] S1x1.size inb_S1x1_S1x1_0_0
abbrev r4_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out4_4 (x0 : Vec F S2048x256 .bf16) (x1 : Vec F S256x256 .bf16) (x2 : Vec F S1x256 .f32) (x3 : Vec F S1x1 .f32) : Vec F S2048x256 .f32 :=
  View.canon [⟨r4_4, k4_pay1 (View.ld x0 r4_0) (View.ld x1 r4_1) (View.ld x2 r4_2) (View.ld x3 r4_3)⟩]

/-- The store tiles the buffer (checked by evaluation), so it covers it. -/
theorem cover4_4 (p0 : Vec F S2048x256 .f32) (y : S2048x256.Idx) :
    ∃ pc ∈ ([⟨r4_4, p0⟩] : List (View.Piece (Elt F) S2048x256 .f32)), y ∈ pc.1.set :=
  View.cover_of_tiled [⟨r4_4, p0⟩] S2048x256.size (by rfl) y

/-! ## The body's triple -/

set_option maxHeartbeats 1000000 in
/-- The kernel body on whole staging memrefs, the inputs' at read contents `xW` and the output's at anything, runs to
    the continuation holding the inputs' as they were and the output's at `out4_4` of the inputs'. The body reads
    the output buffer once before it stores the whole of it; the value read is not used. -/
theorem sound_kernel4 (c : Dev nD) (E : Set ℕ) (i : grid4.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out4_4 x0 x1 x2 x3)) -∗ K ⟨⟩))
      ⊢ wp frame (wpE (defs₀ (F := F)) Variants.none c none) E (cc4__linear_kernel i arg0 harg0 arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and the output's at `out4_4` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Lin5.lean ====
/- The class-A half of region 5 of @main (custom_call 5, `cc5__linear_kernel`, pipeline 5), at a parameter
   `V` — the TensorCore's buffer contents when the region is entered: each window's block at a point
   (`iblk5`), the output's buffer after the body (`out5_4`), the body's triple (`sound_kernel5`), the
   proof data (`dat5`) and the body obligation (`body_obligation5`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2048x256 := Rect.unit (s := S2048x256) ![0, 0] S2048x256.size inb_S2048x256_S2048x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S1x1 := Rect.unit (s := S1x1) ![0, 0] S1x1.size inb_S1x1_S1x1_0_0
abbrev r5_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out5_4 (x0 : Vec F S2048x256 .bf16) (x1 : Vec F S256x256 .bf16) (x2 : Vec F S1x256 .f32) (x3 : Vec F S1x1 .f32) : Vec F S2048x256 .f32 :=
  View.canon [⟨r5_4, k5_pay1 (View.ld x0 r5_0) (View.ld x1 r5_1) (View.ld x2 r5_2) (View.ld x3 r5_3)⟩]

/-- The store tiles the buffer (checked by evaluation), so it covers it. -/
theorem cover5_4 (p0 : Vec F S2048x256 .f32) (y : S2048x256.Idx) :
    ∃ pc ∈ ([⟨r5_4, p0⟩] : List (View.Piece (Elt F) S2048x256 .f32)), y ∈ pc.1.set :=
  View.cover_of_tiled [⟨r5_4, p0⟩] S2048x256.size (by rfl) y

/-! ## The body's triple -/

set_option maxHeartbeats 1000000 in
/-- The kernel body on whole staging memrefs, the inputs' at read contents `xW` and the output's at anything, runs to
    the continuation holding the inputs' as they were and the output's at `out5_4` of the inputs'. The body reads
    the output buffer once before it stores the whole of it; the value read is not used. -/
theorem sound_kernel5 (c : Dev nD) (E : Set ℕ) (i : grid5.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E (cc5__linear_kernel i arg0 harg0 arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and the output's at `out5_4` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Lin6.lean ====
/- The class-A half of region 6 of @main (custom_call 6, `cc6__linear_kernel`, pipeline 6), at a parameter
   `V` — the TensorCore's buffer contents when the region is entered: each window's block at a point
   (`iblk6`), the output's buffer after the body (`out6_4`), the body's triple (`sound_kernel6`), the
   proof data (`dat6`) and the body obligation (`body_obligation6`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S2048x256 := Rect.unit (s := S2048x256) ![0, 0] S2048x256.size inb_S2048x256_S2048x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0
abbrev r6_3 : Rect S1x1 := Rect.unit (s := S1x1) ![0, 0] S1x1.size inb_S1x1_S1x1_0_0
abbrev r6_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out6_4 (x0 : Vec F S2048x256 .bf16) (x1 : Vec F S256x256 .bf16) (x2 : Vec F S1x256 .f32) (x3 : Vec F S1x1 .f32) : Vec F S2048x256 .f32 :=
  View.canon [⟨r6_4, k6_pay1 (View.ld x0 r6_0) (View.ld x1 r6_1) (View.ld x2 r6_2) (View.ld x3 r6_3)⟩]

/-- The store tiles the buffer (checked by evaluation), so it covers it. -/
theorem cover6_4 (p0 : Vec F S2048x256 .f32) (y : S2048x256.Idx) :
    ∃ pc ∈ ([⟨r6_4, p0⟩] : List (View.Piece (Elt F) S2048x256 .f32)), y ∈ pc.1.set :=
  View.cover_of_tiled [⟨r6_4, p0⟩] S2048x256.size (by rfl) y

/-! ## The body's triple -/

set_option maxHeartbeats 1000000 in
/-- The kernel body on whole staging memrefs, the inputs' at read contents `xW` and the output's at anything, runs to
    the continuation holding the inputs' as they were and the output's at `out6_4` of the inputs'. The body reads
    the output buffer once before it stores the whole of it; the value read is not used. -/
theorem sound_kernel6 (c : Dev nD) (E : Set ℕ) (i : grid6.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out6_4 x0 x1 x2 x3)) -∗ K ⟨⟩))
      ⊢ wp frame (wpE (defs₀ (F := F)) Variants.none c none) E (cc6__linear_kernel i arg0 harg0 arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at
    point `t` each input's buffer at its block and the output's at `out6_4` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.AggDef7.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 7 (`cc7__agg_kernel`, pipeline 7), at the entry contents `V`: what it computes -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each buffer is loaded and stored whole -/

abbrev r7_A : Rect S2048x2048 := Rect.unit (s := S2048x2048) ![0, 0] S2048x2048.size inb_S2048x2048_S2048x2048_0_0
abbrev r7_X : Rect S2048x256 := Rect.unit (s := S2048x256) ![0, 0] S2048x256.size inb_S2048x256_S2048x256_0_0
abbrev r7_out : Rect S2048x256 := Rect.unit (s := S2048x256) ![0, 0] S2048x256.size inb_S2048x256_S2048x256_0_0

/-- The scratch accumulator, a whole scoped buffer of the kernel's own, passed beside the windows. -/
abbrev scM7 : Memref sig .tc .vmem S2048x256 .f32 := Memref.whole cc7_scratch0

/-! ## What the accumulator holds after each point -/

/-- The payload last stored into the accumulator at point `n`: at the first inner step the zero piece plus the
    product of the point's blocks, at a later one what the point before left, loaded whole, plus the product. -/
def accP7 (c : Dev nD) : (n : ℕ) → n < cfg7.N → FVec F S2048x256 .f32
  | 0, hn => k7_pay2 (k7_pay1 (F := F)) (View.ld (iblk7 V c 0 ⟨0, hn⟩ : Vec F S2048x2048 .bf16) r7_A) (View.ld (iblk7 V c 1 ⟨0, hn⟩ : Vec F S2048x256 .bf16) r7_X)
  | n + 1, hn =>
    if (n + 1) % 8 = 0 then
      k7_pay2 (k7_pay1 (F := F)) (View.ld (iblk7 V c 0 ⟨n + 1, hn⟩ : Vec F S2048x2048 .bf16) r7_A) (View.ld (iblk7 V c 1 ⟨n + 1, hn⟩ : Vec F S2048x256 .bf16) r7_X)
    else
      k7_pay2 (View.ld (View.canon [(⟨r7_out, accP7 c n (Nat.lt_of_succ_lt hn)⟩ : View.Piece (Elt F) S2048x256 .f32)]) r7_out)
        (View.ld (iblk7 V c 0 ⟨n + 1, hn⟩ : Vec F S2048x2048 .bf16) r7_A) (View.ld (iblk7 V c 1 ⟨n + 1, hn⟩ : Vec F S2048x256 .bf16) r7_X)

/-- What the accumulator holds after point `n`. -/
def acc7 (c : Dev nD) (n : ℕ) (hn : n < cfg7.N) : Vec F S2048x256 .f32 :=
  View.canon [⟨r7_out, accP7 V c n hn⟩]

/-- At a first inner step. -/
theorem accP7_first (c : Dev nD) (t : Fin cfg7.N) (h : t.val % 8 = 0) :
    accP7 V c t.val t.isLt = k7_pay2 (k7_pay1 (F := F)) (View.ld (iblk7 V c 0 t : Vec F S2048x2048 .bf16) r7_A) (View.ld (iblk7 V c 1 t : Vec F S2048x256 .bf16) r7_X) := by
  obtain ⟨n, hn⟩ := t
  cases n with
  | zero => rfl
  | succ n => exact if_pos h

/-- At a later inner step: over what the point before left. -/
theorem accP7_step (c : Dev nD) (t : Fin cfg7.N) (h : ¬t.val % 8 = 0) :
    accP7 V c t.val t.isLt = k7_pay2 (View.ld (acc7 V c (t.val - 1) (by have := t.isLt; omega)) r7_out)
      (View.ld (iblk7 V c 0 t : Vec F S2048x2048 .bf16) r7_A) (View.ld (iblk7 V c 1 t : Vec F S2048x256 .bf16) r7_X) := by
  obtain ⟨n, hn⟩ := t
  cases n with
  | zero => exact absurd (Nat.zero_mod _) h
  | succ n => exact if_neg h

theorem acc7_eq (c : Dev nD) (n : ℕ) (hn : n < cfg7.N) : acc7 V c n hn = View.canon [⟨r7_out, accP7 V c n hn⟩] := rfl

/-- The region invariant before position `n`: before the first point the class's; afterwards the accumulator at what
    the point before left, the rest of the scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The pipeline's proof data -/

/-- The proof data of pipeline 7 on core `c`: the arrays as the region finds them (`V`); after the body at point
    `t` each input's buffer at its block and the output's at the normalisation of the accumulator's payload (consulted
    only at the points that store it); the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => View.canon [⟨r7_out, k7_pay3 (accP7 V c t.val t.isLt)⟩]
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = View.canon [⟨r7_out, k7_pay3 (accP7 V c t.val t.isLt)⟩] := by dsimp only [dat7]

/-- At a point that stores the output (the last inner step), its buffer holds the normalised accumulator payload. -/
theorem after7_2_last (c : Dev nD) (t : Fin cfg7.N) (h : t.val % 8 = 7) :
    (dat7 V c).after 2 t = View.canon [⟨r7_out, k7_pay3 (accP7 V c t.val t.isLt)⟩] := after7_2 V c t

end Cert.KernelIdeal.Hand

end
-- ==== Proof.KI.AggDef8.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 8 (`cc8__agg_kernel`, pipeline 8), at the entry contents `V`: what it computes -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's accesses: each buffer is loaded and stored whole -/

abbrev r8_A : Rect S2048x2048 := Rect.unit (s := S2048x2048) ![0, 0] S2048x2048.size inb_S2048x2048_S2048x2048_0_0
abbrev r8_X : Rect S2048x256 := Rect.unit (s := S2048x256) ![0, 0] S2048x256.size inb_S2048x256_S2048x256_0_0
abbrev r8_out : Rect S2048x256 := Rect.unit (s := S2048x256) ![0, 0] S2048x256.size inb_S2048x256_S2048x256_0_0

/-- The scratch accumulator, a whole scoped buffer of the kernel's own, passed beside the windows. -/
abbrev scM8 : Memref sig .tc .vmem S2048x256 .f32 := Memref.whole cc8_scratch0

/-! ## What the accumulator holds after each point -/

/-- The payload last stored into the accumulator at point `n`: at the first inner step the zero piece plus the
    product of the point's blocks, at a later one what the point before left, loaded whole, plus the product. -/
def accP8 (c : Dev nD) : (n : ℕ) → n < cfg8.N → FVec F S2048x256 .f32
  | 0, hn => k8_pay2 (k8_pay1 (F := F)) (View.ld (iblk8 V c 0 ⟨0, hn⟩ : Vec F S2048x2048 .bf16) r8_A) (View.ld (iblk8 V c 1 ⟨0, hn⟩ : Vec F S2048x256 .bf16) r8_X)
  | n + 1, hn =>
    if (n + 1) % 4 = 0 then
      k8_pay2 (k8_pay1 (F := F)) (View.ld (iblk8 V c 0 ⟨n + 1, hn⟩ : Vec F S2048x2048 .bf16) r8_A) (View.ld (iblk8 V c 1 ⟨n + 1, hn⟩ : Vec F S2048x256 .bf16) r8_X)
    else
      k8_pay2 (View.ld (View.canon [(⟨r8_out, accP8 c n (Nat.lt_of_succ_lt hn)⟩ : View.Piece (Elt F) S2048x256 .f32)]) r8_out)
        (View.ld (iblk8 V c 0 ⟨n + 1, hn⟩ : Vec F S2048x2048 .bf16) r8_A) (View.ld (iblk8 V c 1 ⟨n + 1, hn⟩ : Vec F S2048x256 .bf16) r8_X)

/-- What the accumulator holds after point `n`. -/
def acc8 (c : Dev nD) (n : ℕ) (hn : n < cfg8.N) : Vec F S2048x256 .f32 :=
  View.canon [⟨r8_out, accP8 V c n hn⟩]

/-- At a first inner step. -/
theorem accP8_first (c : Dev nD) (t : Fin cfg8.N) (h : t.val % 4 = 0) :
    accP8 V c t.val t.isLt = k8_pay2 (k8_pay1 (F := F)) (View.ld (iblk8 V c 0 t : Vec F S2048x2048 .bf16) r8_A) (View.ld (iblk8 V c 1 t : Vec F S2048x256 .bf16) r8_X) := by
  obtain ⟨n, hn⟩ := t
  cases n with
  | zero => rfl
  | succ n => exact if_pos h

/-- At a later inner step: over what the point before left. -/
theorem accP8_step (c : Dev nD) (t : Fin cfg8.N) (h : ¬t.val % 4 = 0) :
    accP8 V c t.val t.isLt = k8_pay2 (View.ld (acc8 V c (t.val - 1) (by have := t.isLt; omega)) r8_out)
      (View.ld (iblk8 V c 0 t : Vec F S2048x2048 .bf16) r8_A) (View.ld (iblk8 V c 1 t : Vec F S2048x256 .bf16) r8_X) := by
  obtain ⟨n, hn⟩ := t
  cases n with
  | zero => exact absurd (Nat.zero_mod _) h
  | succ n => exact if_neg h

theorem acc8_eq (c : Dev nD) (n : ℕ) (hn : n < cfg8.N) : acc8 V c n hn = View.canon [⟨r8_out, accP8 V c n hn⟩] := rfl

/-- The region invariant before position `n`: before the first point the class's; afterwards the accumulator at what
    the point before left, the rest of the scoped buffers unopened, the generator register at some state. -/
def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The pipeline's proof data -/

/-- The proof data of pipeline 8 on core `c`: the arrays as the region finds them (`V`); after the body at point
    `t` each input's buffer at its block and the output's at the normalisation of the accumulator's payload (consulted
    only at the points that store it); the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => View.canon [⟨r8_out, k8_pay3 (accP8 V c t.val t.isLt)⟩]
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = View.canon [⟨r8_out, k8_pay3 (accP8 V c t.val t.isLt)⟩] := by dsimp only [dat8]

/-- At a point that stores the output (the last inner step), its buffer holds the normalised accumulator payload. -/
theorem after8_2_last (c : Dev nD) (t : Fin cfg8.N) (h : t.val % 4 = 3) :
    (dat8 V c).after 2 t = View.canon [⟨r8_out, k8_pay3 (accP8 V c t.val t.isLt)⟩] := after8_2 V c t

end Cert.KernelIdeal.Hand

end
-- ==== Proof.KI.Lin9.lean ====
/- The class-A half of region 9 of @main (custom_call 9, `cc9__linear_kernel`, pipeline 9), at a parameter
   `V` — the TensorCore's buffer contents when the region is entered: each window's block at a point
   (`iblk9`), the output's buffer after the body (`out9_4`), the body's triple (`sound_kernel9`), the
   proof data (`dat9`) and the body obligation (`body_obligation9`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): unfetched, the block
    index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S1x256 := Rect.unit (s := S1x256) ![0, 0] S1x256.size inb_S1x256_S1x256_0_0
abbrev r9_3 : Rect S1x1 := Rect.unit (s := S1x1) ![0, 0] S1x1.size inb_S1x1_S1x1_0_0
abbrev r9_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out9_4 (x0 : Vec F S2048x256 .bf16) (x1 : Vec F S256x256 .bf16) (x2 : Vec F S1x256 .f32) (x3 : Vec F S1x1 .f32) : Vec F S2048x256 .f32 :=
  View.canon [⟨r9_4, k9_pay1 (View.ld x0 r9_0) (View.ld x1 r9_1) (View.ld x2 r9_2) (View.ld x3 r9_3)⟩]

/-- The store tiles the buffer (checked by evaluation), so it covers it. -/
theorem cover9_4 (p0 : Vec F S2048x256 .f32) (y : S2048x256.Idx) :
    ∃ pc ∈ ([⟨r9_4, p0⟩] : List (View.Piece (Elt F) S2048x256 .f32)), y ∈ pc.1.set :=
  View.cover_of_tiled [⟨r9_4, p0⟩] S2048x256.size (by rfl) y

/-! ## The body's triple -/

set_option maxHeartbeats 1000000 in
/-- The kernel body on whole staging memrefs, the inputs' at read contents `xW` and the output's at anything, runs to
    the continuation holding the inputs' as they were and the output's at `out9_4` of the inputs'. The body reads
    the output buffer once before it stores the whole of it; the value read is not used. -/
theorem sound_kernel9 (c : Dev nD) (E : Set ℕ) (i : grid9.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out9_4 x0 x1 x2 x3)) -∗ K ⟨⟩))
      ⊢ wp frame (wpE (defs₀ (F := F)) Variants.none c none) E (cc9__linear_kernel i arg0 harg0 arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays as the region finds them (`V`); after the body at
    point `t` each input's buffer at its block and the output's at `out9_4` of the input blocks; the invariant
    the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.AggDef10.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 10 (`cc10__agg_kernel`, pipeline 10), at the entry contents `V`: what it computes -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's accesses: each buffer is loaded and stored whole -/

abbrev r10_A : Rect S2048x2048 := Rect.unit (s := S2048x2048) ![0, 0] S2048x2048.size inb_S2048x2048_S2048x2048_0_0
abbrev r10_X : Rect S2048x256 := Rect.unit (s := S2048x256) ![0, 0] S2048x256.size inb_S2048x256_S2048x256_0_0
abbrev r10_out : Rect S2048x256 := Rect.unit (s := S2048x256) ![0, 0] S2048x256.size inb_S2048x256_S2048x256_0_0

/-- The scratch accumulator, a whole scoped buffer of the kernel's own, passed beside the windows. -/
abbrev scM10 : Memref sig .tc .vmem S2048x256 .f32 := Memref.whole cc10_scratch0

/-! ## What the accumulator holds after each point -/

/-- The payload last stored into the accumulator at point `n`: at the first inner step the zero piece plus the
    product of the point's blocks, at a later one what the point before left, loaded whole, plus the product. -/
def accP10 (c : Dev nD) : (n : ℕ) → n < cfg10.N → FVec F S2048x256 .f32
  | 0, hn => k10_pay2 (k10_pay1 (F := F)) (View.ld (iblk10 V c 0 ⟨0, hn⟩ : Vec F S2048x2048 .bf16) r10_A) (View.ld (iblk10 V c 1 ⟨0, hn⟩ : Vec F S2048x256 .bf16) r10_X)
  | n + 1, hn =>
    if (n + 1) % 8 = 0 then
      k10_pay2 (k10_pay1 (F := F)) (View.ld (iblk10 V c 0 ⟨n + 1, hn⟩ : Vec F S2048x2048 .bf16) r10_A) (View.ld (iblk10 V c 1 ⟨n + 1, hn⟩ : Vec F S2048x256 .bf16) r10_X)
    else
      k10_pay2 (View.ld (View.canon [(⟨r10_out, accP10 c n (Nat.lt_of_succ_lt hn)⟩ : View.Piece (Elt F) S2048x256 .f32)]) r10_out)
        (View.ld (iblk10 V c 0 ⟨n + 1, hn⟩ : Vec F S2048x2048 .bf16) r10_A) (View.ld (iblk10 V c 1 ⟨n + 1, hn⟩ : Vec F S2048x256 .bf16) r10_X)

/-- What the accumulator holds after point `n`. -/
def acc10 (c : Dev nD) (n : ℕ) (hn : n < cfg10.N) : Vec F S2048x256 .f32 :=
  View.canon [⟨r10_out, accP10 V c n hn⟩]

/-- At a first inner step. -/
theorem accP10_first (c : Dev nD) (t : Fin cfg10.N) (h : t.val % 8 = 0) :
    accP10 V c t.val t.isLt = k10_pay2 (k10_pay1 (F := F)) (View.ld (iblk10 V c 0 t : Vec F S2048x2048 .bf16) r10_A) (View.ld (iblk10 V c 1 t : Vec F S2048x256 .bf16) r10_X) := by
  obtain ⟨n, hn⟩ := t
  cases n with
  | zero => rfl
  | succ n => exact if_pos h

/-- At a later inner step: over what the point before left. -/
theorem accP10_step (c : Dev nD) (t : Fin cfg10.N) (h : ¬t.val % 8 = 0) :
    accP10 V c t.val t.isLt = k10_pay2 (View.ld (acc10 V c (t.val - 1) (by have := t.isLt; omega)) r10_out)
      (View.ld (iblk10 V c 0 t : Vec F S2048x2048 .bf16) r10_A) (View.ld (iblk10 V c 1 t : Vec F S2048x256 .bf16) r10_X) := by
  obtain ⟨n, hn⟩ := t
  cases n with
  | zero => exact absurd (Nat.zero_mod _) h
  | succ n => exact if_neg h

theorem acc10_eq (c : Dev nD) (n : ℕ) (hn : n < cfg10.N) : acc10 V c n hn = View.canon [⟨r10_out, accP10 V c n hn⟩] := rfl

/-- The region invariant before position `n`: before the first point the class's; afterwards the accumulator at what
    the point before left, the rest of the scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10 fullShare (acc10 V c n hn)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the accumulator at that point's contents. -/
theorem PhiS10_succ (c : Dev nD) (n : ℕ) (hn : n < cfg10.N) :
    PhiS10 V c (n + 1) hn = iprop(iprop(owns (c : Thread nD τ) scM10 fullShare (acc10 V c n hn)
      ∗ Pipeline.scopedRestBut (Ix := Unit) (Name := ℕ) (U := UR sig nD τ) (Lvl := ℕ) (Val := Elt F) spec10 c [cc10_scratch0]) ∗ (∃ r, prngReg c r)) := rfl

/-- Before a point that is not the first: the accumulator at what the point before left. -/
theorem PhiS10_pos (c : Dev nD) (n : ℕ) (h : n ≤ cfg10.N) (hz : n ≠ 0) :
    PhiS10 V c n h = iprop(iprop(owns (c : Thread nD τ) scM10 fullShare (acc10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The pipeline's proof data -/

/-- The proof data of pipeline 10 on core `c`: the arrays as the region finds them (`V`); after the body at point
    `t` each input's buffer at its block and the output's at the normalisation of the accumulator's payload (consulted
    only at the points that store it); the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => View.canon [⟨r10_out, k10_pay3 (accP10 V c t.val t.isLt)⟩]
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = View.canon [⟨r10_out, k10_pay3 (accP10 V c t.val t.isLt)⟩] := by dsimp only [dat10]

/-- At a point that stores the output (the last inner step), its buffer holds the normalised accumulator payload. -/
theorem after10_2_last (c : Dev nD) (t : Fin cfg10.N) (h : t.val % 8 = 7) :
    (dat10 V c).after 2 t = View.canon [⟨r10_out, k10_pay3 (accP10 V c t.val t.isLt)⟩] := after10_2 V c t

end Cert.KernelIdeal.Hand

end
-- ==== Proof.KI.AggDef11.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 11 (`cc11__agg_kernel`, pipeline 11), at the entry contents `V`: what it computes -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's accesses: each buffer is loaded and stored whole -/

abbrev r11_A : Rect S2048x2048 := Rect.unit (s := S2048x2048) ![0, 0] S2048x2048.size inb_S2048x2048_S2048x2048_0_0
abbrev r11_X : Rect S2048x256 := Rect.unit (s := S2048x256) ![0, 0] S2048x256.size inb_S2048x256_S2048x256_0_0
abbrev r11_out : Rect S2048x256 := Rect.unit (s := S2048x256) ![0, 0] S2048x256.size inb_S2048x256_S2048x256_0_0

/-- The scratch accumulator, a whole scoped buffer of the kernel's own, passed beside the windows. -/
abbrev scM11 : Memref sig .tc .vmem S2048x256 .f32 := Memref.whole cc11_scratch0

/-! ## What the accumulator holds after each point -/

/-- The payload last stored into the accumulator at point `n`: at the first inner step the zero piece plus the
    product of the point's blocks, at a later one what the point before left, loaded whole, plus the product. -/
def accP11 (c : Dev nD) : (n : ℕ) → n < cfg11.N → FVec F S2048x256 .f32
  | 0, hn => k11_pay2 (k11_pay1 (F := F)) (View.ld (iblk11 V c 0 ⟨0, hn⟩ : Vec F S2048x2048 .bf16) r11_A) (View.ld (iblk11 V c 1 ⟨0, hn⟩ : Vec F S2048x256 .bf16) r11_X)
  | n + 1, hn =>
    if (n + 1) % 4 = 0 then
      k11_pay2 (k11_pay1 (F := F)) (View.ld (iblk11 V c 0 ⟨n + 1, hn⟩ : Vec F S2048x2048 .bf16) r11_A) (View.ld (iblk11 V c 1 ⟨n + 1, hn⟩ : Vec F S2048x256 .bf16) r11_X)
    else
      k11_pay2 (View.ld (View.canon [(⟨r11_out, accP11 c n (Nat.lt_of_succ_lt hn)⟩ : View.Piece (Elt F) S2048x256 .f32)]) r11_out)
        (View.ld (iblk11 V c 0 ⟨n + 1, hn⟩ : Vec F S2048x2048 .bf16) r11_A) (View.ld (iblk11 V c 1 ⟨n + 1, hn⟩ : Vec F S2048x256 .bf16) r11_X)

/-- What the accumulator holds after point `n`. -/
def acc11 (c : Dev nD) (n : ℕ) (hn : n < cfg11.N) : Vec F S2048x256 .f32 :=
  View.canon [⟨r11_out, accP11 V c n hn⟩]

/-- At a first inner step. -/
theorem accP11_first (c : Dev nD) (t : Fin cfg11.N) (h : t.val % 4 = 0) :
    accP11 V c t.val t.isLt = k11_pay2 (k11_pay1 (F := F)) (View.ld (iblk11 V c 0 t : Vec F S2048x2048 .bf16) r11_A) (View.ld (iblk11 V c 1 t : Vec F S2048x256 .bf16) r11_X) := by
  obtain ⟨n, hn⟩ := t
  cases n with
  | zero => rfl
  | succ n => exact if_pos h

/-- At a later inner step: over what the point before left. -/
theorem accP11_step (c : Dev nD) (t : Fin cfg11.N) (h : ¬t.val % 4 = 0) :
    accP11 V c t.val t.isLt = k11_pay2 (View.ld (acc11 V c (t.val - 1) (by have := t.isLt; omega)) r11_out)
      (View.ld (iblk11 V c 0 t : Vec F S2048x2048 .bf16) r11_A) (View.ld (iblk11 V c 1 t : Vec F S2048x256 .bf16) r11_X) := by
  obtain ⟨n, hn⟩ := t
  cases n with
  | zero => exact absurd (Nat.zero_mod _) h
  | succ n => exact if_neg h

theorem acc11_eq (c : Dev nD) (n : ℕ) (hn : n < cfg11.N) : acc11 V c n hn = View.canon [⟨r11_out, accP11 V c n hn⟩] := rfl

/-- The region invariant before position `n`: before the first point the class's; afterwards the accumulator at what
    the point before left, the rest of the scoped buffers unopened, the generator register at some state. -/
def PhiS11 (c : Dev nD) : (n : ℕ) → n ≤ cfg11.N → sProp 𝕄
  | 0, _ => Pipeline.ΦA spec11 c
  | n + 1, hn => iprop(iprop(owns (c : Thread nD τ) scM11 fullShare (acc11 V c n hn)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

/-- After point `n` (before point `n + 1`): the accumulator at that point's contents. -/
theorem PhiS11_succ (c : Dev nD) (n : ℕ) (hn : n < cfg11.N) :
    PhiS11 V c (n + 1) hn = iprop(iprop(owns (c : Thread nD τ) scM11 fullShare (acc11 V c n hn)
      ∗ Pipeline.scopedRestBut (Ix := Unit) (Name := ℕ) (U := UR sig nD τ) (Lvl := ℕ) (Val := Elt F) spec11 c [cc11_scratch0]) ∗ (∃ r, prngReg c r)) := rfl

/-- Before a point that is not the first: the accumulator at what the point before left. -/
theorem PhiS11_pos (c : Dev nD) (n : ℕ) (h : n ≤ cfg11.N) (hz : n ≠ 0) :
    PhiS11 V c n h = iprop(iprop(owns (c : Thread nD τ) scM11 fullShare (acc11 V c (n - 1) (by omega))
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-! ## The pipeline's proof data -/

/-- The proof data of pipeline 11 on core `c`: the arrays as the region finds them (`V`); after the body at point
    `t` each input's buffer at its block and the output's at the normalisation of the accumulator's payload (consulted
    only at the points that store it); the invariant `PhiS11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => View.canon [⟨r11_out, k11_pay3 (accP11 V c t.val t.isLt)⟩]
  Φ t := PhiS11 V c t.val (Nat.le_of_lt_succ t.isLt)
  q _ := fullShare
  owed _ := 0

/-- The proof data's arrays are the region-entry contents. -/
theorem A_eq11 (c : Dev nD) (w : Fin cfg11.W) : (dat11 V c).A w = V c (Pipeline.arrRef spec11 w) := by
  dsimp only [dat11]

/-- The invariant at a point's start, restated at `t.val`. -/
theorem PhiS11_castSucc (c : Dev nD) (t : Fin cfg11.N) :
    (dat11 V c).Φ t.castSucc = PhiS11 V c t.val (Nat.le_of_lt t.isLt) := by
  dsimp only [dat11]; simp only [Fin.coe_castSucc]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = View.canon [⟨r11_out, k11_pay3 (accP11 V c t.val t.isLt)⟩] := by dsimp only [dat11]

/-- At a point that stores the output (the last inner step), its buffer holds the normalised accumulator payload. -/
theorem after11_2_last (c : Dev nD) (t : Fin cfg11.N) (h : t.val % 4 = 3) :
    (dat11 V c).after 2 t = View.canon [⟨r11_out, k11_pay3 (accP11 V c t.val t.isLt)⟩] := after11_2 V c t

end Cert.KernelIdeal.Hand

end
-- ==== Proof.KI.AggDef12.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 12 (`cc12__agg_kernel`, pipeline 12), at the entry contents `V`: what it computes -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! ## The body's accesses: each buffer is loaded and stored whole -/

abbrev r12_A : Rect S1024x2048 := Rect.unit (s := S1024x2048) ![0, 0] S1024x2048.size inb_S1024x2048_S1024x2048_0_0
abbrev r12_X : Rect S2048x512 := Rect.unit (s := S2048x512) ![0, 0] S2048x512.size inb_S2048x512_S2048x512_0_0
abbrev r12_out : Rect S1024x512 := Rect.unit (s := S1024x512) ![0, 0] S1024x512.size inb_S1024x512_S1024x512_0_0

/-- The scratch accumulator, a whole scoped buffer of the kernel's own, passed beside the windows. -/
abbrev scM12 : Memref sig .tc .vmem S1024x512 .f32 := Memref.whole cc12_scratch0

/-! ## What the accumulator holds after each point -/

/-- The payload last stored into the accumulator at point `n`: at the first inner step the zero piece plus the
    product of the point's blocks, at a later one what the point before left, loaded whole, plus the product. -/
def accP12 (c : Dev nD) : (n : ℕ) → n < cfg12.N → FVec F S1024x512 .f32
  | 0, hn => k12_pay2 (k12_pay1 (F := F)) (View.ld (iblk12 V c 0 ⟨0, hn⟩ : Vec F S1024x2048 .bf16) r12_A) (View.ld (iblk12 V c 1 ⟨0, hn⟩ : Vec F S2048x512 .bf16) r12_X)
  | n + 1, hn =>
    if (n + 1) % 8 = 0 then
      k12_pay2 (k12_pay1 (F := F)) (View.ld (iblk12 V c 0 ⟨n + 1, hn⟩ : Vec F S1024x2048 .bf16) r12_A) (View.ld (iblk12 V c 1 ⟨n + 1, hn⟩ : Vec F S2048x512 .bf16) r12_X)
    else
      k12_pay2 (View.ld (View.canon [(⟨r12_out, accP12 c n (Nat.lt_of_succ_lt hn)⟩ : View.Piece (Elt F) S1024x512 .f32)]) r12_out)
        (View.ld (iblk12 V c 0 ⟨n + 1, hn⟩ : Vec F S1024x2048 .bf16) r12_A) (View.ld (iblk12 V c 1 ⟨n + 1, hn⟩ : Vec F S2048x512 .bf16) r12_X)

/-- What the accumulator holds after point `n`. -/
def acc12 (c : Dev nD) (n : ℕ) (hn : n < cfg12.N) : Vec F S1024x512 .f32 :=
  View.canon [⟨r12_out, accP12 V c n hn⟩]

/-- At a first inner step. -/
theorem accP12_first (c : Dev nD) (t : Fin cfg12.N) (h : t.val % 8 = 0) :
    accP12 V c t.val t.isLt = k12_pay2 (k12_pay1 (F := F)) (View.ld (iblk12 V c 0 t : Vec F S1024x2048 .bf16) r12_A) (View.ld (iblk12 V c 1 t : Vec F S2048x512 .bf16) r12_X) := by
  obtain ⟨n, hn⟩ := t
  cases n with
  | zero => rfl
  | succ n => exact if_pos h

/-- At a later inner step: over what the point before left. -/
theorem accP12_step (c : Dev nD) (t : Fin cfg12.N) (h : ¬t.val % 8 = 0) :
    accP12 V c t.val t.isLt = k12_pay2 (View.ld (acc12 V c (t.val - 1) (by have := t.isLt; omega)) r12_out)
      (View.ld (iblk12 V c 0 t : Vec F S1024x2048 .bf16) r12_A) (View.ld (iblk12 V c 1 t : Vec F S2048x512 .bf16) r12_X) := by
  obtain ⟨n, hn⟩ := t
  cases n with
  | zero => exact absurd (Nat.zero_mod _) h
  | succ n => exact if_neg h

theorem acc12_eq (c : Dev nD) (n : ℕ) (hn : n < cfg12.N) : acc12 V c n hn = View.canon [⟨r12_out, accP12 V c n hn⟩] := rfl

/-- The region invariant before position `n`: before the first point the class's; afterwards the accumulator at what
    the point before left, the rest of the scoped buffers unopened, the generator register at some state. -/
def PhiS12 (c : Dev nD) : (n : ℕ) → n ≤ cfg12.N → sProp 𝕄
  | 0, _ => Pipeline.ΦA spec12 c
  | n + 1, hn => iprop(iprop(owns (c : Thread nD τ) scM12 fullShare (acc12 V c n hn)
      ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl

/-- After point `n` (before point `n + 1`): the accumulator at that point's contents. -/
theorem PhiS12_succ (c : Dev nD) (n : ℕ) (hn : n < cfg12.N) :
    PhiS12 V c (n + 1) hn = iprop(iprop(owns (c : Thread nD τ) scM12 fullShare (acc12 V c n hn)
      ∗ Pipeline.scopedRestBut (Ix := Unit) (Name := ℕ) (U := UR sig nD τ) (Lvl := ℕ) (Val := Elt F) spec12 c [cc12_scratch0]) ∗ (∃ r, prngReg c r)) := rfl

/-- Before a point that is not the first: the accumulator at what the point before left. -/
theorem PhiS12_pos (c : Dev nD) (n : ℕ) (h : n ≤ cfg12.N) (hz : n ≠ 0) :
    PhiS12 V c n h = iprop(iprop(owns (c : Thread nD τ) scM12 fullShare (acc12 V c (n - 1) (by omega))
      ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The pipeline's proof data -/

/-- The proof data of pipeline 12 on core `c`: the arrays as the region finds them (`V`); after the body at point
    `t` each input's buffer at its block and the output's at the normalisation of the accumulator's payload (consulted
    only at the points that store it); the invariant `PhiS12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => View.canon [⟨r12_out, k12_pay3 (accP12 V c t.val t.isLt)⟩]
  Φ t := PhiS12 V c t.val (Nat.le_of_lt_succ t.isLt)
  q _ := fullShare
  owed _ := 0

/-- The proof data's arrays are the region-entry contents. -/
theorem A_eq12 (c : Dev nD) (w : Fin cfg12.W) : (dat12 V c).A w = V c (Pipeline.arrRef spec12 w) := by
  dsimp only [dat12]

/-- The invariant at a point's start, restated at `t.val`. -/
theorem PhiS12_castSucc (c : Dev nD) (t : Fin cfg12.N) :
    (dat12 V c).Φ t.castSucc = PhiS12 V c t.val (Nat.le_of_lt t.isLt) := by
  dsimp only [dat12]; simp only [Fin.coe_castSucc]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = View.canon [⟨r12_out, k12_pay3 (accP12 V c t.val t.isLt)⟩] := by dsimp only [dat12]

/-- At a point that stores the output (the last inner step), its buffer holds the normalised accumulator payload. -/
theorem after12_2_last (c : Dev nD) (t : Fin cfg12.N) (h : t.val % 8 = 7) :
    (dat12 V c).after 2 t = View.canon [⟨r12_out, k12_pay3 (accP12 V c t.val t.isLt)⟩] := after12_2 V c t

end Cert.KernelIdeal.Hand

end
-- ==== Proof.KI.Lin13.lean ====
/- The class-A half of region 13 of @main (custom_call 13, `cc13__linear_kernel`, pipeline 13), at a parameter
   `V` — the TensorCore's buffer contents when the region is entered: each window's block at a point
   (`iblk13`), the output's buffer after the body (`out13_4`), the body's triple (`sound_kernel13`), the
   proof data (`dat13`) and the body obligation (`body_obligation13`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): unfetched, the block
    index has not moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): unfetched, the block
    index has not moved; the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): unfetched, the block
    index has not moved; the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): unfetched, the block
    index has not moved; the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

abbrev r13_0 : Rect S2048x256 := Rect.unit (s := S2048x256) ![0, 0] S2048x256.size inb_S2048x256_S2048x256_0_0
abbrev r13_1 : Rect S256x256 := Rect.unit (s := S256x256) ![0, 0] S256x256.size inb_S256x256_S256x256_0_0
abbrev r13_2 : Rect S1x256 := Rect.unit (s := S1x256) ![0, 0] S1x256.size inb_S1x256_S1x256_0_0
abbrev r13_3 : Rect S1x1 := Rect.unit (s := S1x1) ![0, 0] S1x1.size inb_S1x1_S1x1_0_0
abbrev r13_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out13_4 (x0 : Vec F S2048x256 .bf16) (x1 : Vec F S256x256 .bf16) (x2 : Vec F S1x256 .f32) (x3 : Vec F S1x1 .f32) : Vec F S2048x256 .f32 :=
  View.canon [⟨r13_4, k13_pay1 (View.ld x0 r13_0) (View.ld x1 r13_1) (View.ld x2 r13_2) (View.ld x3 r13_3)⟩]

/-- The store tiles the buffer (checked by evaluation), so it covers it. -/
theorem cover13_4 (p0 : Vec F S2048x256 .f32) (y : S2048x256.Idx) :
    ∃ pc ∈ ([⟨r13_4, p0⟩] : List (View.Piece (Elt F) S2048x256 .f32)), y ∈ pc.1.set :=
  View.cover_of_tiled [⟨r13_4, p0⟩] S2048x256.size (by rfl) y

/-! ## The body's triple -/

set_option maxHeartbeats 1000000 in
/-- The kernel body on whole staging memrefs, the inputs' at read contents `xW` and the output's at anything, runs to
    the continuation holding the inputs' as they were and the output's at `out13_4` of the inputs'. The body reads
    the output buffer once before it stores the whole of it; the value read is not used. -/
theorem sound_kernel13 (c : Dev nD) (E : Set ℕ) (i : grid13.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out13_4 x0 x1 x2 x3)) -∗ K ⟨⟩))
      ⊢ wp frame (wpE (defs₀ (F := F)) Variants.none c none) E (cc13__linear_kernel i arg0 harg0 arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The pipeline's proof data -/

/-- The proof data of pipeline 13 on core `c`: the arrays as the region finds them (`V`); after the body at
    point `t` each input's buffer at its block and the output's at `out13_4` of the input blocks; the invariant
    the scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so `sound_kernel13` applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.AggDef14.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 14 (`cc14__agg_kernel`, pipeline 14), at the entry contents `V`: what it computes -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-! ## The body's accesses: each buffer is loaded and stored whole -/

abbrev r14_A : Rect S2048x2048 := Rect.unit (s := S2048x2048) ![0, 0] S2048x2048.size inb_S2048x2048_S2048x2048_0_0
abbrev r14_X : Rect S2048x256 := Rect.unit (s := S2048x256) ![0, 0] S2048x256.size inb_S2048x256_S2048x256_0_0
abbrev r14_out : Rect S2048x256 := Rect.unit (s := S2048x256) ![0, 0] S2048x256.size inb_S2048x256_S2048x256_0_0

/-- The scratch accumulator, a whole scoped buffer of the kernel's own, passed beside the windows. -/
abbrev scM14 : Memref sig .tc .vmem S2048x256 .f32 := Memref.whole cc14_scratch0

/-! ## What the accumulator holds after each point -/

/-- The payload last stored into the accumulator at point `n`: at the first inner step the zero piece plus the
    product of the point's blocks, at a later one what the point before left, loaded whole, plus the product. -/
def accP14 (c : Dev nD) : (n : ℕ) → n < cfg14.N → FVec F S2048x256 .f32
  | 0, hn => k14_pay2 (k14_pay1 (F := F)) (View.ld (iblk14 V c 0 ⟨0, hn⟩ : Vec F S2048x2048 .bf16) r14_A) (View.ld (iblk14 V c 1 ⟨0, hn⟩ : Vec F S2048x256 .bf16) r14_X)
  | n + 1, hn =>
    if (n + 1) % 4 = 0 then
      k14_pay2 (k14_pay1 (F := F)) (View.ld (iblk14 V c 0 ⟨n + 1, hn⟩ : Vec F S2048x2048 .bf16) r14_A) (View.ld (iblk14 V c 1 ⟨n + 1, hn⟩ : Vec F S2048x256 .bf16) r14_X)
    else
      k14_pay2 (View.ld (View.canon [(⟨r14_out, accP14 c n (Nat.lt_of_succ_lt hn)⟩ : View.Piece (Elt F) S2048x256 .f32)]) r14_out)
        (View.ld (iblk14 V c 0 ⟨n + 1, hn⟩ : Vec F S2048x2048 .bf16) r14_A) (View.ld (iblk14 V c 1 ⟨n + 1, hn⟩ : Vec F S2048x256 .bf16) r14_X)

/-- What the accumulator holds after point `n`. -/
def acc14 (c : Dev nD) (n : ℕ) (hn : n < cfg14.N) : Vec F S2048x256 .f32 :=
  View.canon [⟨r14_out, accP14 V c n hn⟩]

/-- At a first inner step. -/
theorem accP14_first (c : Dev nD) (t : Fin cfg14.N) (h : t.val % 4 = 0) :
    accP14 V c t.val t.isLt = k14_pay2 (k14_pay1 (F := F)) (View.ld (iblk14 V c 0 t : Vec F S2048x2048 .bf16) r14_A) (View.ld (iblk14 V c 1 t : Vec F S2048x256 .bf16) r14_X) := by
  obtain ⟨n, hn⟩ := t
  cases n with
  | zero => rfl
  | succ n => exact if_pos h

/-- At a later inner step: over what the point before left. -/
theorem accP14_step (c : Dev nD) (t : Fin cfg14.N) (h : ¬t.val % 4 = 0) :
    accP14 V c t.val t.isLt = k14_pay2 (View.ld (acc14 V c (t.val - 1) (by have := t.isLt; omega)) r14_out)
      (View.ld (iblk14 V c 0 t : Vec F S2048x2048 .bf16) r14_A) (View.ld (iblk14 V c 1 t : Vec F S2048x256 .bf16) r14_X) := by
  obtain ⟨n, hn⟩ := t
  cases n with
  | zero => exact absurd (Nat.zero_mod _) h
  | succ n => exact if_neg h

theorem acc14_eq (c : Dev nD) (n : ℕ) (hn : n < cfg14.N) : acc14 V c n hn = View.canon [⟨r14_out, accP14 V c n hn⟩] := rfl

/-- The region invariant before position `n`: before the first point the class's; afterwards the accumulator at what
    the point before left, the rest of the scoped buffers unopened, the generator register at some state. -/
def PhiS14 (c : Dev nD) : (n : ℕ) → n ≤ cfg14.N → sProp 𝕄
  | 0, _ => Pipeline.ΦA spec14 c
  | n + 1, hn => iprop(iprop(owns (c : Thread nD τ) scM14 fullShare (acc14 V c n hn)
      ∗ Pipeline.scopedRestBut (Ix := Unit) (Name := ℕ) (U := UR sig nD τ) (Lvl := ℕ) (Val := Elt F) spec14 c [cc14_scratch0]) ∗ (∃ r, prngReg c r))

theorem PhiS14_zero (c : Dev nD) (n : ℕ) (h : n ≤ cfg14.N) (hz : n = 0) : PhiS14 V c n h = Pipeline.ΦA spec14 c := by
  subst hz; rfl

/-- After point `n` (before point `n + 1`): the accumulator at that point's contents. -/
theorem PhiS14_succ (c : Dev nD) (n : ℕ) (hn : n < cfg14.N) :
    PhiS14 V c (n + 1) hn = iprop(iprop(owns (c : Thread nD τ) scM14 fullShare (acc14 V c n hn)
      ∗ Pipeline.scopedRestBut (Ix := Unit) (Name := ℕ) (U := UR sig nD τ) (Lvl := ℕ) (Val := Elt F) spec14 c [cc14_scratch0]) ∗ (∃ r, prngReg c r)) := rfl

/-- Before a point that is not the first: the accumulator at what the point before left. -/
theorem PhiS14_pos (c : Dev nD) (n : ℕ) (h : n ≤ cfg14.N) (hz : n ≠ 0) :
    PhiS14 V c n h = iprop(iprop(owns (c : Thread nD τ) scM14 fullShare (acc14 V c (n - 1) (by omega))
      ∗ Pipeline.scopedRestBut (Ix := Unit) (Name := ℕ) (U := UR sig nD τ) (Lvl := ℕ) (Val := Elt F) spec14 c [cc14_scratch0]) ∗ (∃ r, prngReg c r)) := by
  cases n with
  | zero => exact absurd rfl hz
  | succ n => rfl

/-! ## The pipeline's proof data -/

/-- The proof data of pipeline 14 on core `c`: the arrays as the region finds them (`V`); after the body at point
    `t` each input's buffer at its block and the output's at the normalisation of the accumulator's payload (consulted
    only at the points that store it); the invariant `PhiS14`; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => View.canon [⟨r14_out, k14_pay3 (accP14 V c t.val t.isLt)⟩]
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- The invariant at a point's start, restated at `t.val`. -/
theorem PhiS14_castSucc (c : Dev nD) (t : Fin cfg14.N) :
    (dat14 V c).Φ t.castSucc = PhiS14 V c t.val (Nat.le_of_lt t.isLt) := by
  dsimp only [dat14]; simp only [Fin.coe_castSucc]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = View.canon [⟨r14_out, k14_pay3 (accP14 V c t.val t.isLt)⟩] := by dsimp only [dat14]

/-- At a point that stores the output (the last inner step), its buffer holds the normalised accumulator payload. -/
theorem after14_2_last (c : Dev nD) (t : Fin cfg14.N) (h : t.val % 4 = 3) :
    (dat14 V c).after 2 t = View.canon [⟨r14_out, k14_pay3 (accP14 V c t.val t.isLt)⟩] := after14_2 V c t

end Cert.KernelIdeal.Hand

end
-- ==== Proof.KI.Lin15.lean ====
/- The class-A half of region 15 of @main (custom_call 15, `cc15__linear_kernel`, pipeline 15), at a parameter
   `V` — the TensorCore's buffer contents when the region is entered: each window's block at a point
   (`iblk15`), the output's buffer after the body (`out15_4`), the body's triple (`sound_kernel15`), the
   proof data (`dat15`) and the body obligation (`body_obligation15`). -/
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): unfetched, the block
    index has not moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is `V`'s (`hA`) and whose body leaves the block in place (`hafter`): unfetched, the block
    index has not moved; the window is uncut and never idle. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is `V`'s (`hA`) and whose body leaves the block in place (`hafter`): unfetched, the block
    index has not moved; the window is uncut and never idle. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- Input window 3's current staging buffer holds its block at every point, fetched there or not, for any proof
    data whose array is `V`'s (`hA`) and whose body leaves the block in place (`hafter`): unfetched, the block
    index has not moved; the window is uncut and never idle. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

abbrev r15_0 : Rect S2048x256 := Rect.unit (s := S2048x256) ![0, 0] S2048x256.size inb_S2048x256_S2048x256_0_0
abbrev r15_1 : Rect S256x256 := Rect.unit (s := S256x256) ![0, 0] S256x256.size inb_S256x256_S256x256_0_0
abbrev r15_2 : Rect S1x256 := Rect.unit (s := S1x256) ![0, 0] S1x256.size inb_S1x256_S1x256_0_0
abbrev r15_3 : Rect S1x1 := Rect.unit (s := S1x1) ![0, 0] S1x1.size inb_S1x1_S1x1_0_0
abbrev r15_4 : Rect S2048x256 := Rect.unit (s := S2048x256) ![0, 0] S2048x256.size inb_S2048x256_S2048x256_0_0

/-! ## What the body leaves in the output window's buffer -/

/-- Window 4's staging buffer after the body, from the input windows' blocks: its one store, of the whole
    buffer, as a piece. -/
def out15_4 (x0 : Vec F S2048x256 .bf16) (x1 : Vec F S256x256 .bf16) (x2 : Vec F S1x256 .f32) (x3 : Vec F S1x1 .f32) : Vec F S2048x256 .f32 :=
  View.canon [⟨r15_4, k15_pay1 (View.ld x0 r15_0) (View.ld x1 r15_1) (View.ld x2 r15_2) (View.ld x3 r15_3)⟩]

/-- The store tiles the buffer (checked by evaluation), so it covers it. -/
theorem cover15_4 (p0 : Vec F S2048x256 .f32) (y : S2048x256.Idx) :
    ∃ pc ∈ ([⟨r15_4, p0⟩] : List (View.Piece (Elt F) S2048x256 .f32)), y ∈ pc.1.set :=
  View.cover_of_tiled [⟨r15_4, p0⟩] S2048x256.size (by rfl) y

/-! ## The body's triple -/

set_option maxHeartbeats 1000000 in
/-- The kernel body on whole staging memrefs, the inputs' at read contents `xW` and the output's at anything, runs to
    the continuation holding the inputs' as they were and the output's at `out15_4` of the inputs'. The body reads
    the output buffer once before it stores the whole of it; the value read is not used. -/
theorem sound_kernel15 (c : Dev nD) (E : Set ℕ) (i : grid15.Coords) (arg0 : Memref sig .tc .vmem S2048x256 .bf16) (harg0 : arg0.IsWhole) (arg1 : Memref sig .tc .vmem S256x256 .bf16) (harg1 : arg1.IsWhole) (arg2 : Memref sig .tc .vmem S1x256 .f32) (harg2 : arg2.IsWhole) (arg3 : Memref sig .tc .vmem S1x1 .f32) (harg3 : arg3.IsWhole) (arg4 : Memref sig .tc .vmem S2048x256 .f32) (harg4 : arg4.IsWhole)
    (x0 : Vec F S2048x256 .bf16) (x1 : Vec F S256x256 .bf16) (x2 : Vec F S1x256 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out15_4 x0 x1 x2 x3)) -∗ K ⟨⟩))
      ⊢ wp frame (wpE (defs₀ (F := F)) Variants.none c none) E (cc15__linear_kernel i arg0 harg0 arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover15_4 _)

/-! ## The pipeline's proof data -/

/-- The proof data of pipeline 15 on core `c`: the arrays as the region finds them (`V`); after the body at
    point `t` each input's buffer at its block and the output's at `out15_4` of the input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = out15_4 (iblk15 V c 0 t) (iblk15 V c 1 t) (iblk15 V c 2 t) (iblk15 V c 3 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t))

/-- The body at any point: the inputs' memrefs hold their blocks, so `sound_kernel15` applies; the invariant and
    the core's `owes` pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3]
  rw [show (dat15 V c).Φ t.succ = (dat15 V c).Φ t.castSucc from rfl,
    show (dat15 V c).owesAt () t.succ = (dat15 V c).owesAt () t.castSucc from rfl,
    after15_0, after15_1, after15_2, after15_3, after15_4]
  iintro ⟨HΦ, Ho, ⟨%d0, H0⟩, ⟨%d1, H1⟩, ⟨%d2, H2⟩, ⟨%d3, H3⟩, ⟨%d4, H4⟩⟩
  iapply (sound_kernel15 c Set.univ _ _ _ _ _ _ _ _ _ _ _ (iblk15 V c 0 t) (iblk15 V c 1 t) (iblk15 V c 2 t) (iblk15 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.AggDef16.lean ====
import proofs.«103499_j73031623901527_2_alg».proof.Proof.Gen.KernelIdeal.Launch
import proofs.«103499_j73031623901527_2_alg».proof.Proof.Gen.KernelIdeal.Skeleton
import proofs.«103499_j73031623901527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 16 (`cc16__agg_kernel`, pipeline 16), at the entry contents `V`: what it computes -/

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-! ## The body's accesses: each buffer is loaded and stored whole -/

abbrev r16_A : Rect S2048x2048 := Rect.unit (s := S2048x2048) ![0, 0] S2048x2048.size inb_S2048x2048_S2048x2048_0_0
abbrev r16_X : Rect S2048x256 := Rect.unit (s := S2048x256) ![0, 0] S2048x256.size inb_S2048x256_S2048x256_0_0
abbrev r16_out : Rect S2048x256 := Rect.unit (s := S2048x256) ![0, 0] S2048x256.size inb_S2048x256_S2048x256_0_0

/-- The scratch accumulator, a whole scoped buffer of the kernel's own, passed beside the windows. -/
abbrev scM16 : Memref sig .tc .vmem S2048x256 .f32 := Memref.whole cc16_scratch0

/-! ## What the accumulator holds after each point -/

/-- The payload last stored into the accumulator at point `n`: at the first inner step the zero piece plus the
    product of the point's blocks, at a later one what the point before left, loaded whole, plus the product. -/
def accP16 (c : Dev nD) : (n : ℕ) → n < cfg16.N → FVec F S2048x256 .f32
  | 0, hn => k16_pay2 (k16_pay1 (F := F)) (View.ld (iblk16 V c 0 ⟨0, hn⟩ : Vec F S2048x2048 .bf16) r16_A) (View.ld (iblk16 V c 1 ⟨0, hn⟩ : Vec F S2048x256 .bf16) r16_X)
  | n + 1, hn =>
    if (n + 1) % 4 = 0 then
      k16_pay2 (k16_pay1 (F := F)) (View.ld (iblk16 V c 0 ⟨n + 1, hn⟩ : Vec F S2048x2048 .bf16) r16_A) (View.ld (iblk16 V c 1 ⟨n + 1, hn⟩ : Vec F S2048x256 .bf16) r16_X)
    else
      k16_pay2 (View.ld (View.canon [(⟨r16_out, accP16 c n (Nat.lt_of_succ_lt hn)⟩ : View.Piece (Elt F) S2048x256 .f32)]) r16_out)
        (View.ld (iblk16 V c 0 ⟨n + 1, hn⟩ : Vec F S2048x2048 .bf16) r16_A) (View.ld (iblk16 V c 1 ⟨n + 1, hn⟩ : Vec F S2048x256 .bf16) r16_X)

/-- What the accumulator holds after point `n`. -/
def acc16 (c : Dev nD) (n : ℕ) (hn : n < cfg16.N) : Vec F S2048x256 .f32 :=
  View.canon [⟨r16_out, accP16 V c n hn⟩]

/-- At a first inner step. -/
theorem accP16_first (c : Dev nD) (t : Fin cfg16.N) (h : t.val % 4 = 0) :
    accP16 V c t.val t.isLt = k16_pay2 (k16_pay1 (F := F)) (View.ld (iblk16 V c 0 t : Vec F S2048x2048 .bf16) r16_A) (View.ld (iblk16 V c 1 t : Vec F S2048x256 .bf16) r16_X) := by
  obtain ⟨n, hn⟩ := t
  cases n with
  | zero => rfl
  | succ n => exact if_pos h

/-- At a later inner step: over what the point before left. -/
theorem accP16_step (c : Dev nD) (t : Fin cfg16.N) (h : ¬t.val % 4 = 0) :
    accP16 V c t.val t.isLt = k16_pay2 (View.ld (acc16 V c (t.val - 1) (by have := t.isLt; omega)) r16_out)
      (View.ld (iblk16 V c 0 t : Vec F S2048x2048 .bf16) r16_A) (View.ld (iblk16 V c 1 t : Vec F S2048x256 .bf16) r16_X) := by
  obtain ⟨n, hn⟩ := t
  cases n with
  | zero => exact absurd (Nat.zero_mod _) h
  | succ n => exact if_neg h

theorem acc16_eq (c : Dev nD) (n : ℕ) (hn : n < cfg16.N) : acc16 V c n hn = View.canon [⟨r16_out, accP16 V c n hn⟩] := rfl

/-- The region invariant before position `n`: before the first point the class's; afterwards the accumulator at what
    the point before left, the rest of the scoped buffers unopened, the generator register at some state. -/
def PhiS16 (c : Dev nD) : (n : ℕ) → n ≤ cfg16.N → sProp 𝕄
  | 0, _ => Pipeline.ΦA spec16 c
  | n + 1, hn => iprop(iprop(owns (c : Thread nD τ) scM16 fullShare (acc16 V c n hn)
      ∗ Pipeline.scopedRestBut (Ix := Unit) (Name := ℕ) (U := UR sig nD τ) (Lvl := ℕ) (Val := Elt F) spec16 c [cc16_scratch0]) ∗ (∃ r, prngReg c r))

theorem PhiS16_zero (c : Dev nD) (n : ℕ) (h : n ≤ cfg16.N) (hz : n = 0) : PhiS16 V c n h = Pipeline.ΦA spec16 c := by
  subst hz; rfl

/-- After point `n` (before point `n + 1`): the accumulator at that point's contents. -/
theorem PhiS16_succ (c : Dev nD) (n : ℕ) (hn : n < cfg16.N) :
    PhiS16 V c (n + 1) hn = iprop(iprop(owns (c : Thread nD τ) scM16 fullShare (acc16 V c n hn)
      ∗ Pipeline.scopedRestBut (Ix := Unit) (Name := ℕ) (U := UR sig nD τ) (Lvl := ℕ) (Val := Elt F) spec16 c [cc16_scratch0]) ∗ (∃ r, prngReg c r)) := rfl

/-- Before a point that is not the first: the accumulator at what the point before left. -/
theorem PhiS16_pos (c : Dev nD) (n : ℕ) (h : n ≤ cfg16.N) (hz : n ≠ 0) :
    PhiS16 V c n h = iprop(iprop(owns (c : Thread nD τ) scM16 fullShare (acc16 V c (n - 1) (by omega))
      ∗ Pipeline.scopedRestBut (Ix := Unit) (Name := ℕ) (U := UR sig nD τ) (Lvl := ℕ) (Val := Elt F) spec16 c [cc16_scratch0]) ∗ (∃ r, prngReg c r)) := by
  cases n with
  | zero => exact absurd rfl hz
  | succ n => rfl

/-! ## The pipeline's proof data -/

/-- The proof data of pipeline 16 on core `c`: the arrays as the region finds them (`V`); after the body at point
    `t` each input's buffer at its block and the output's at the normalisation of the accumulator's payload (consulted
    only at the points that store it); the invariant `PhiS16`; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => View.canon [⟨r16_out, k16_pay3 (accP16 V c t.val t.isLt)⟩]
  Φ t := PhiS16 V c t.val (Nat.le_of_lt_succ t.isLt)
  q _ := fullShare
  owed _ := 0

/-- The proof data's arrays are the region-entry contents. -/
theorem A_eq16 (c : Dev nD) (w : Fin cfg16.W) : (dat16 V c).A w = V c (Pipeline.arrRef spec16 w) := by
  dsimp only [dat16]

/-- The invariant at a point's start, restated at `t.val`. -/
theorem PhiS16_castSucc (c : Dev nD) (t : Fin cfg16.N) :
    (dat16 V c).Φ t.castSucc = PhiS16 V c t.val (Nat.le_of_lt t.isLt) := by
  dsimp only [dat16]; simp only [Fin.coe_castSucc]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) :
    (dat16 V c).after 2 t = View.canon [⟨r16_out, k16_pay3 (accP16 V c t.val t.isLt)⟩] := by dsimp only [dat16]

/-- At a point that stores the output (the last inner step), its buffer holds the normalised accumulator payload. -/
theorem after16_2_last (c : Dev nD) (t : Fin cfg16.N) (h : t.val % 4 = 3) :
    (dat16 V c).after 2 t = View.canon [⟨r16_out, k16_pay3 (accP16 V c t.val t.isLt)⟩] := after16_2 V c t

end Cert.KernelIdeal.Hand

end
-- ==== Proof.KI.Run1.lean ====
/- The run of @main, first part: the TensorCore's buffer contents at each of the 36 boundaries between @main's 35
   items (18 stretches of host operations alternating with the 17 kernel regions), as a fold from the launch memory —
   a stretch's `StableHlo.after`, a region's arrays at what its write-backs leave (`Pipeline.withArrays`) —; each
   argument array read back through the fold to its launch contents (no stretch writes one, no region has one as a
   window's array); every pipeline's proof data at its region's entry contents; the thread state between items. -/
import proofs.«103499_j73031623901527_2_alg».proof.Proof.KI.Lin0
import proofs.«103499_j73031623901527_2_alg».proof.Proof.KI.AggDef1
import proofs.«103499_j73031623901527_2_alg».proof.Proof.KI.Lin2
import proofs.«103499_j73031623901527_2_alg».proof.Proof.KI.AggDef3
import proofs.«103499_j73031623901527_2_alg».proof.Proof.KI.Lin4
import proofs.«103499_j73031623901527_2_alg».proof.Proof.KI.Lin5
import proofs.«103499_j73031623901527_2_alg».proof.Proof.KI.Lin6
import proofs.«103499_j73031623901527_2_alg».proof.Proof.KI.AggDef7
import proofs.«103499_j73031623901527_2_alg».proof.Proof.KI.AggDef8
import proofs.«103499_j73031623901527_2_alg».proof.Proof.KI.Lin9
import proofs.«103499_j73031623901527_2_alg».proof.Proof.KI.AggDef10
import proofs.«103499_j73031623901527_2_alg».proof.Proof.KI.AggDef11
import proofs.«103499_j73031623901527_2_alg».proof.Proof.KI.AggDef12
import proofs.«103499_j73031623901527_2_alg».proof.Proof.KI.Lin13
import proofs.«103499_j73031623901527_2_alg».proof.Proof.KI.AggDef14
import proofs.«103499_j73031623901527_2_alg».proof.Proof.KI.Lin15
import proofs.«103499_j73031623901527_2_alg».proof.Proof.KI.AggDef16
import proofs.«103499_j73031623901527_2_alg».proof.Proof.KI.RegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W_host_keep_0 (c : Dev nD) (b : Ref sig .tc) (h : b ∉ hostOps0_W) :
    W1 m ρ c (Proc.devRef .tc b) = W0 m ρ c (Proc.devRef .tc b) := W1_of m ρ c b h
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W_host_keep_1 (c : Dev nD) (b : Ref sig .tc) (h : b ∉ hostOps1_W) :
    W3 m ρ c (Proc.devRef .tc b) = W2 m ρ c (Proc.devRef .tc b) := W3_of m ρ c b h
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W_host_keep_2 (c : Dev nD) (b : Ref sig .tc) (h : b ∉ hostOps2_W) :
    W5 m ρ c (Proc.devRef .tc b) = W4 m ρ c (Proc.devRef .tc b) := W5_of m ρ c b h
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W_host_keep_3 (c : Dev nD) (b : Ref sig .tc) (h : b ∉ hostOps3_W) :
    W7 m ρ c (Proc.devRef .tc b) = W6 m ρ c (Proc.devRef .tc b) := W7_of m ρ c b h
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- A reference `hostOps4` does not write keeps its contents. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
theorem W_host_keep_4 (c : Dev nD) (b : Ref sig .tc) (h : b ∉ hostOps4_W) :
    W9 m ρ c (Proc.devRef .tc b) = W8 m ρ c (Proc.devRef .tc b) := W9_of m ρ c b h
/-- At region 4's exit: its arrays at what the pipeline leaves (the inputs as entered, the output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- A reference `hostOps5` does not write keeps its contents. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
theorem W_host_keep_5 (c : Dev nD) (b : Ref sig .tc) (h : b ∉ hostOps5_W) :
    W11 m ρ c (Proc.devRef .tc b) = W10 m ρ c (Proc.devRef .tc b) := W11_of m ρ c b h
/-- At region 5's exit: its arrays at what the pipeline leaves (the inputs as entered, the output's write-backs
    folded: `Dat.arrAt … N`), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- A reference `hostOps6` does not write keeps its contents. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
theorem W_host_keep_6 (c : Dev nD) (b : Ref sig .tc) (h : b ∉ hostOps6_W) :
    W13 m ρ c (Proc.devRef .tc b) = W12 m ρ c (Proc.devRef .tc b) := W13_of m ρ c b h
/-- At region 6's exit: its arrays at what the pipeline leaves (the inputs as entered, the output's write-backs
    folded: `Dat.arrAt … N`), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7` (region 7's entry). -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- A reference `hostOps7` does not write keeps its contents. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
theorem W_host_keep_7 (c : Dev nD) (b : Ref sig .tc) (h : b ∉ hostOps7_W) :
    W15 m ρ c (Proc.devRef .tc b) = W14 m ρ c (Proc.devRef .tc b) := W15_of m ρ c b h
/-- At region 7's exit: its arrays at what the pipeline leaves (the inputs as entered, the output's write-backs
    folded: `Dat.arrAt … N`), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8` (region 8's entry). -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- A reference `hostOps8` does not write keeps its contents. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
theorem W_host_keep_8 (c : Dev nD) (b : Ref sig .tc) (h : b ∉ hostOps8_W) :
    W17 m ρ c (Proc.devRef .tc b) = W16 m ρ c (Proc.devRef .tc b) := W17_of m ρ c b h
/-- At region 8's exit: its arrays at what the pipeline leaves (the inputs as entered, the output's write-backs
    folded: `Dat.arrAt … N`), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After `hostOps9` (region 9's entry). -/
abbrev W19 : Dev nD → Valuation τ sig (Elt F) := fun c => StableHlo.after hostOps9 (W18 m ρ c)
/-- The same read at the TensorCore's references. -/
abbrev V19 : (c : Dev nD) → (b : Ref sig .tc) → Buf (Elt F) ((c : Thread nD τ).loc b) := fun c b => W19 m ρ c b
/-- A reference `hostOps9` does not write keeps its contents. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
theorem W_host_keep_9 (c : Dev nD) (b : Ref sig .tc) (h : b ∉ hostOps9_W) :
    W19 m ρ c (Proc.devRef .tc b) = W18 m ρ c (Proc.devRef .tc b) := W19_of m ρ c b h
/-- At region 9's exit: its arrays at what the pipeline leaves (the inputs as entered, the output's write-backs
    folded: `Dat.arrAt … N`), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After `hostOps10` (region 10's entry). -/
abbrev W21 : Dev nD → Valuation τ sig (Elt F) := fun c => StableHlo.after hostOps10 (W20 m ρ c)
/-- The same read at the TensorCore's references. -/
abbrev V21 : (c : Dev nD) → (b : Ref sig .tc) → Buf (Elt F) ((c : Thread nD τ).loc b) := fun c b => W21 m ρ c b
/-- A reference `hostOps10` does not write keeps its contents. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
theorem W_host_keep_10 (c : Dev nD) (b : Ref sig .tc) (h : b ∉ hostOps10_W) :
    W21 m ρ c (Proc.devRef .tc b) = W20 m ρ c (Proc.devRef .tc b) := W21_of m ρ c b h
/-- At region 10's exit: its arrays at what the pipeline leaves (the inputs as entered, the output's write-backs
    folded: `Dat.arrAt … N`), every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
abbrev V22 : (c : Dev nD) → (b : Ref sig .tc) → Buf (Elt F) ((c : Thread nD τ).loc b) := fun c b => W22 m ρ c b
/-- At region 10's exit each of its arrays holds what the pipeline leaves and every other buffer what it held at entry. -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After `hostOps11` (region 11's entry). -/
abbrev W23 : Dev nD → Valuation τ sig (Elt F) := fun c => StableHlo.after hostOps11 (W22 m ρ c)
/-- The same read at the TensorCore's references. -/
abbrev V23 : (c : Dev nD) → (b : Ref sig .tc) → Buf (Elt F) ((c : Thread nD τ).loc b) := fun c b => W23 m ρ c b
/-- A reference `hostOps11` does not write keeps its contents. -/
theorem W23_of (c : Dev nD) (r : Ref sig .tc) (h : r ∉ hostOps11_W) :
    W23 m ρ c (Proc.devRef .tc r) = W22 m ρ c (Proc.devRef .tc r) :=
  StableHlo.after_of_writes_sub hostOps11 _ hostOps11_writes h
theorem W_host_keep_11 (c : Dev nD) (b : Ref sig .tc) (h : b ∉ hostOps11_W) :
    W23 m ρ c (Proc.devRef .tc b) = W22 m ρ c (Proc.devRef .tc b) := W23_of m ρ c b h
/-- At region 11's exit: its arrays at what the pipeline leaves (the inputs as entered, the output's write-backs
    folded: `Dat.arrAt … N`), every other buffer as entered. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
abbrev V24 : (c : Dev nD) → (b : Ref sig .tc) → Buf (Elt F) ((c : Thread nD τ).loc b) := fun c b => W24 m ρ c b
/-- At region 11's exit each of its arrays holds what the pipeline leaves and every other buffer what it held at entry. -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After `hostOps12` (region 12's entry). -/
abbrev W25 : Dev nD → Valuation τ sig (Elt F) := fun c => StableHlo.after hostOps12 (W24 m ρ c)
/-- The same read at the TensorCore's references. -/
abbrev V25 : (c : Dev nD) → (b : Ref sig .tc) → Buf (Elt F) ((c : Thread nD τ).loc b) := fun c b => W25 m ρ c b
/-- A reference `hostOps12` does not write keeps its contents. -/
theorem W25_of (c : Dev nD) (r : Ref sig .tc) (h : r ∉ hostOps12_W) :
    W25 m ρ c (Proc.devRef .tc r) = W24 m ρ c (Proc.devRef .tc r) :=
  StableHlo.after_of_writes_sub hostOps12 _ hostOps12_writes h
theorem W_host_keep_12 (c : Dev nD) (b : Ref sig .tc) (h : b ∉ hostOps12_W) :
    W25 m ρ c (Proc.devRef .tc b) = W24 m ρ c (Proc.devRef .tc b) := W25_of m ρ c b h
/-- At region 12's exit: its arrays at what the pipeline leaves (the inputs as entered, the output's write-backs
    folded: `Dat.arrAt … N`), every other buffer as entered. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
abbrev V26 : (c : Dev nD) → (b : Ref sig .tc) → Buf (Elt F) ((c : Thread nD τ).loc b) := fun c b => W26 m ρ c b
/-- At region 12's exit each of its arrays holds what the pipeline leaves and every other buffer what it held at entry. -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After `hostOps13` (region 13's entry). -/
abbrev W27 : Dev nD → Valuation τ sig (Elt F) := fun c => StableHlo.after hostOps13 (W26 m ρ c)
/-- The same read at the TensorCore's references. -/
abbrev V27 : (c : Dev nD) → (b : Ref sig .tc) → Buf (Elt F) ((c : Thread nD τ).loc b) := fun c b => W27 m ρ c b
/-- A reference `hostOps13` does not write keeps its contents. -/
theorem W27_of (c : Dev nD) (r : Ref sig .tc) (h : r ∉ hostOps13_W) :
    W27 m ρ c (Proc.devRef .tc r) = W26 m ρ c (Proc.devRef .tc r) :=
  StableHlo.after_of_writes_sub hostOps13 _ hostOps13_writes h
theorem W_host_keep_13 (c : Dev nD) (b : Ref sig .tc) (h : b ∉ hostOps13_W) :
    W27 m ρ c (Proc.devRef .tc b) = W26 m ρ c (Proc.devRef .tc b) := W27_of m ρ c b h
/-- At region 13's exit: its arrays at what the pipeline leaves (the inputs as entered, the output's write-backs
    folded: `Dat.arrAt … N`), every other buffer as entered. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
abbrev V28 : (c : Dev nD) → (b : Ref sig .tc) → Buf (Elt F) ((c : Thread nD τ).loc b) := fun c b => W28 m ρ c b
/-- At region 13's exit each of its arrays holds what the pipeline leaves and every other buffer what it held at entry. -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After `hostOps14` (region 14's entry). -/
abbrev W29 : Dev nD → Valuation τ sig (Elt F) := fun c => StableHlo.after hostOps14 (W28 m ρ c)
/-- The same read at the TensorCore's references. -/
abbrev V29 : (c : Dev nD) → (b : Ref sig .tc) → Buf (Elt F) ((c : Thread nD τ).loc b) := fun c b => W29 m ρ c b
/-- A reference `hostOps14` does not write keeps its contents. -/
theorem W29_of (c : Dev nD) (r : Ref sig .tc) (h : r ∉ hostOps14_W) :
    W29 m ρ c (Proc.devRef .tc r) = W28 m ρ c (Proc.devRef .tc r) :=
  StableHlo.after_of_writes_sub hostOps14 _ hostOps14_writes h
theorem W_host_keep_14 (c : Dev nD) (b : Ref sig .tc) (h : b ∉ hostOps14_W) :
    W29 m ρ c (Proc.devRef .tc b) = W28 m ρ c (Proc.devRef .tc b) := W29_of m ρ c b h
/-- At region 14's exit: its arrays at what the pipeline leaves (the inputs as entered, the output's write-backs
    folded: `Dat.arrAt … N`), every other buffer as entered. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
/-- The same read at the TensorCore's references (region 14's exit contents). -/
abbrev V30 : (c : Dev nD) → (b : Ref sig .tc) → Buf (Elt F) ((c : Thread nD τ).loc b) := fun c b => W30 m ρ c b
/-- At region 14's exit each of its arrays holds what the pipeline leaves and every other buffer what it held at entry. -/
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)

/-- After `hostOps15` (region 15's entry). -/
abbrev W31 : Dev nD → Valuation τ sig (Elt F) := fun c => StableHlo.after hostOps15 (W30 m ρ c)
/-- The same read at the TensorCore's references. -/
abbrev V31 : (c : Dev nD) → (b : Ref sig .tc) → Buf (Elt F) ((c : Thread nD τ).loc b) := fun c b => W31 m ρ c b
/-- A reference `hostOps15` does not write keeps its contents. -/
theorem W31_of (c : Dev nD) (r : Ref sig .tc) (h : r ∉ hostOps15_W) :
    W31 m ρ c (Proc.devRef .tc r) = W30 m ρ c (Proc.devRef .tc r) :=
  StableHlo.after_of_writes_sub hostOps15 _ hostOps15_writes h
theorem W_host_keep_15 (c : Dev nD) (b : Ref sig .tc) (h : b ∉ hostOps15_W) :
    W31 m ρ c (Proc.devRef .tc b) = W30 m ρ c (Proc.devRef .tc b) := W31_of m ρ c b h
/-- At region 15's exit: its arrays at what the pipeline leaves (the inputs as entered, the output's write-backs
    folded: `Dat.arrAt … N`), every other buffer as entered. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
/-- The same read at the TensorCore's references (region 15's exit contents). -/
abbrev V32 : (c : Dev nD) → (b : Ref sig .tc) → Buf (Elt F) ((c : Thread nD τ).loc b) := fun c b => W32 m ρ c b
/-- At region 15's exit each of its arrays holds what the pipeline leaves and every other buffer what it held at entry. -/
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)

/-- After `hostOps16` (region 16's entry). -/
abbrev W33 : Dev nD → Valuation τ sig (Elt F) := fun c => StableHlo.after hostOps16 (W32 m ρ c)
/-- The same read at the TensorCore's references. -/
abbrev V33 : (c : Dev nD) → (b : Ref sig .tc) → Buf (Elt F) ((c : Thread nD τ).loc b) := fun c b => W33 m ρ c b
/-- A reference `hostOps16` does not write keeps its contents. -/
theorem W33_of (c : Dev nD) (r : Ref sig .tc) (h : r ∉ hostOps16_W) :
    W33 m ρ c (Proc.devRef .tc r) = W32 m ρ c (Proc.devRef .tc r) :=
  StableHlo.after_of_writes_sub hostOps16 _ hostOps16_writes h
theorem W_host_keep_16 (c : Dev nD) (b : Ref sig .tc) (h : b ∉ hostOps16_W) :
    W33 m ρ c (Proc.devRef .tc b) = W32 m ρ c (Proc.devRef .tc b) := W33_of m ρ c b h
/-- At region 16's exit: its arrays at what the pipeline leaves (the inputs as entered, the output's write-backs
    folded: `Dat.arrAt … N`), every other buffer as entered. -/
def W34 (c : Dev nD) : Valuation τ sig (Elt F) :=
  Pipeline.withArrays spec16 c (W33 m ρ c) fun w => (dat16 (V33 m ρ) c).arrAt w cfg16.N
theorem W34_arr (c : Dev nD) (w : Fin cfg16.W) :
    W34 m ρ c (Proc.devRef .tc (Pipeline.arrRef spec16 w)) = (dat16 (V33 m ρ) c).arrAt w cfg16.N := by
  unfold W34; exact Pipeline.withArrays_arr spec16 launch16.win.arr_inj c _ _ w
theorem W34_of_ne (c : Dev nD) (b : Ref sig .tc) (hb : ∀ w, Pipeline.arrRef spec16 w ≠ b) :
    W34 m ρ c (Proc.devRef .tc b) = W33 m ρ c (Proc.devRef .tc b) := by
  unfold W34; exact Pipeline.withArrays_of_ne spec16 c _ _ b hb
/-- The same read at the TensorCore's references (region 16's exit contents). -/
abbrev V34 : (c : Dev nD) → (b : Ref sig .tc) → Buf (Elt F) ((c : Thread nD τ).loc b) := fun c b => W34 m ρ c b
/-- At region 16's exit each of its arrays holds what the pipeline leaves and every other buffer what it held at entry. -/
theorem hF16 (c : Dev nD) (w : Fin cfg16.W) : (dat16 (V33 m ρ) c).arrAt w cfg16.N = V34 m ρ c (Pipeline.arrRef spec16 w) :=
  (W34_arr m ρ c w).symm
theorem hrest16 (c : Dev nD) : ∀ b, b ∉ Finset.univ.image (Pipeline.arrRef spec16) → V34 m ρ c b = V33 m ρ c b :=
  fun b hb => W34_of_ne m ρ c b fun w e => hb (Finset.mem_image.mpr ⟨w, Finset.mem_univ _, e⟩)

/-- After `hostOps17` (the return). -/
abbrev W35 : Dev nD → Valuation τ sig (Elt F) := fun c => StableHlo.after hostOps17 (W34 m ρ c)
/-- The same read at the TensorCore's references. -/
abbrev V35 : (c : Dev nD) → (b : Ref sig .tc) → Buf (Elt F) ((c : Thread nD τ).loc b) := fun c b => W35 m ρ c b
/-- A reference `hostOps17` does not write keeps its contents. -/
theorem W35_of (c : Dev nD) (r : Ref sig .tc) (h : r ∉ hostOps17_W) :
    W35 m ρ c (Proc.devRef .tc r) = W34 m ρ c (Proc.devRef .tc r) :=
  StableHlo.after_of_writes_sub hostOps17 _ hostOps17_writes h
theorem W_host_keep_17 (c : Dev nD) (b : Ref sig .tc) (h : b ∉ hostOps17_W) :
    W35 m ρ c (Proc.devRef .tc b) = W34 m ρ c (Proc.devRef .tc b) := W35_of m ρ c b h

/-! ### The arguments end as launched: no host operation writes one and no region has one as a window's array, so
    the fold at an argument's buffer walks back to the launch memory -/

theorem W35_main_arg0 (c : Dev nD) : W35 m ρ c (Proc.devRef .tc main_arg0) = m ((c : Thread nD τ).loc main_arg0) :=
  (W35_of m ρ c main_arg0 (by decide)).trans <|
  (W34_of_ne m ρ c main_arg0 (by decide)).trans <|
  (W33_of m ρ c main_arg0 (by decide)).trans <|
  (W32_of_ne m ρ c main_arg0 (by decide)).trans <|
  (W31_of m ρ c main_arg0 (by decide)).trans <|
  (W30_of_ne m ρ c main_arg0 (by decide)).trans <|
  (W29_of m ρ c main_arg0 (by decide)).trans <|
  (W28_of_ne m ρ c main_arg0 (by decide)).trans <|
  (W27_of m ρ c main_arg0 (by decide)).trans <|
  (W26_of_ne m ρ c main_arg0 (by decide)).trans <|
  (W25_of m ρ c main_arg0 (by decide)).trans <|
  (W24_of_ne m ρ c main_arg0 (by decide)).trans <|
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W35_main_arg1 (c : Dev nD) : W35 m ρ c (Proc.devRef .tc main_arg1) = m ((c : Thread nD τ).loc main_arg1) :=
  (W35_of m ρ c main_arg1 (by decide)).trans <|
  (W34_of_ne m ρ c main_arg1 (by decide)).trans <|
  (W33_of m ρ c main_arg1 (by decide)).trans <|
  (W32_of_ne m ρ c main_arg1 (by decide)).trans <|
  (W31_of m ρ c main_arg1 (by decide)).trans <|
  (W30_of_ne m ρ c main_arg1 (by decide)).trans <|
  (W29_of m ρ c main_arg1 (by decide)).trans <|
  (W28_of_ne m ρ c main_arg1 (by decide)).trans <|
  (W27_of m ρ c main_arg1 (by decide)).trans <|
  (W26_of_ne m ρ c main_arg1 (by decide)).trans <|
  (W25_of m ρ c main_arg1 (by decide)).trans <|
  (W24_of_ne m ρ c main_arg1 (by decide)).trans <|
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W35_main_arg2 (c : Dev nD) : W35 m ρ c (Proc.devRef .tc main_arg2) = m ((c : Thread nD τ).loc main_arg2) :=
  (W35_of m ρ c main_arg2 (by decide)).trans <|
  (W34_of_ne m ρ c main_arg2 (by decide)).trans <|
  (W33_of m ρ c main_arg2 (by decide)).trans <|
  (W32_of_ne m ρ c main_arg2 (by decide)).trans <|
  (W31_of m ρ c main_arg2 (by decide)).trans <|
  (W30_of_ne m ρ c main_arg2 (by decide)).trans <|
  (W29_of m ρ c main_arg2 (by decide)).trans <|
  (W28_of_ne m ρ c main_arg2 (by decide)).trans <|
  (W27_of m ρ c main_arg2 (by decide)).trans <|
  (W26_of_ne m ρ c main_arg2 (by decide)).trans <|
  (W25_of m ρ c main_arg2 (by decide)).trans <|
  (W24_of_ne m ρ c main_arg2 (by decide)).trans <|
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W35_main_arg3 (c : Dev nD) : W35 m ρ c (Proc.devRef .tc main_arg3) = m ((c : Thread nD τ).loc main_arg3) :=
  (W35_of m ρ c main_arg3 (by decide)).trans <|
  (W34_of_ne m ρ c main_arg3 (by decide)).trans <|
  (W33_of m ρ c main_arg3 (by decide)).trans <|
  (W32_of_ne m ρ c main_arg3 (by decide)).trans <|
  (W31_of m ρ c main_arg3 (by decide)).trans <|
  (W30_of_ne m ρ c main_arg3 (by decide)).trans <|
  (W29_of m ρ c main_arg3 (by decide)).trans <|
  (W28_of_ne m ρ c main_arg3 (by decide)).trans <|
  (W27_of m ρ c main_arg3 (by decide)).trans <|
  (W26_of_ne m ρ c main_arg3 (by decide)).trans <|
  (W25_of m ρ c main_arg3 (by decide)).trans <|
  (W24_of_ne m ρ c main_arg3 (by decide)).trans <|
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W35_main_arg4 (c : Dev nD) : W35 m ρ c (Proc.devRef .tc main_arg4) = m ((c : Thread nD τ).loc main_arg4) :=
  (W35_of m ρ c main_arg4 (by decide)).trans <|
  (W34_of_ne m ρ c main_arg4 (by decide)).trans <|
  (W33_of m ρ c main_arg4 (by decide)).trans <|
  (W32_of_ne m ρ c main_arg4 (by decide)).trans <|
  (W31_of m ρ c main_arg4 (by decide)).trans <|
  (W30_of_ne m ρ c main_arg4 (by decide)).trans <|
  (W29_of m ρ c main_arg4 (by decide)).trans <|
  (W28_of_ne m ρ c main_arg4 (by decide)).trans <|
  (W27_of m ρ c main_arg4 (by decide)).trans <|
  (W26_of_ne m ρ c main_arg4 (by decide)).trans <|
  (W25_of m ρ c main_arg4 (by decide)).trans <|
  (W24_of_ne m ρ c main_arg4 (by decide)).trans <|
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl
theorem W35_main_arg5 (c : Dev nD) : W35 m ρ c (Proc.devRef .tc main_arg5) = m ((c : Thread nD τ).loc main_arg5) :=
  (W35_of m ρ c main_arg5 (by decide)).trans <|
  (W34_of_ne m ρ c main_arg5 (by decide)).trans <|
  (W33_of m ρ c main_arg5 (by decide)).trans <|
  (W32_of_ne m ρ c main_arg5 (by decide)).trans <|
  (W31_of m ρ c main_arg5 (by decide)).trans <|
  (W30_of_ne m ρ c main_arg5 (by decide)).trans <|
  (W29_of m ρ c main_arg5 (by decide)).trans <|
  (W28_of_ne m ρ c main_arg5 (by decide)).trans <|
  (W27_of m ρ c main_arg5 (by decide)).trans <|
  (W26_of_ne m ρ c main_arg5 (by decide)).trans <|
  (W25_of m ρ c main_arg5 (by decide)).trans <|
  (W24_of_ne m ρ c main_arg5 (by decide)).trans <|
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W35_main_arg6 (c : Dev nD) : W35 m ρ c (Proc.devRef .tc main_arg6) = m ((c : Thread nD τ).loc main_arg6) :=
  (W35_of m ρ c main_arg6 (by decide)).trans <|
  (W34_of_ne m ρ c main_arg6 (by decide)).trans <|
  (W33_of m ρ c main_arg6 (by decide)).trans <|
  (W32_of_ne m ρ c main_arg6 (by decide)).trans <|
  (W31_of m ρ c main_arg6 (by decide)).trans <|
  (W30_of_ne m ρ c main_arg6 (by decide)).trans <|
  (W29_of m ρ c main_arg6 (by decide)).trans <|
  (W28_of_ne m ρ c main_arg6 (by decide)).trans <|
  (W27_of m ρ c main_arg6 (by decide)).trans <|
  (W26_of_ne m ρ c main_arg6 (by decide)).trans <|
  (W25_of m ρ c main_arg6 (by decide)).trans <|
  (W24_of_ne m ρ c main_arg6 (by decide)).trans <|
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem W35_main_arg7 (c : Dev nD) : W35 m ρ c (Proc.devRef .tc main_arg7) = m ((c : Thread nD τ).loc main_arg7) :=
  (W35_of m ρ c main_arg7 (by decide)).trans <|
  (W34_of_ne m ρ c main_arg7 (by decide)).trans <|
  (W33_of m ρ c main_arg7 (by decide)).trans <|
  (W32_of_ne m ρ c main_arg7 (by decide)).trans <|
  (W31_of m ρ c main_arg7 (by decide)).trans <|
  (W30_of_ne m ρ c main_arg7 (by decide)).trans <|
  (W29_of m ρ c main_arg7 (by decide)).trans <|
  (W28_of_ne m ρ c main_arg7 (by decide)).trans <|
  (W27_of m ρ c main_arg7 (by decide)).trans <|
  (W26_of_ne m ρ c main_arg7 (by decide)).trans <|
  (W25_of m ρ c main_arg7 (by decide)).trans <|
  (W24_of_ne m ρ c main_arg7 (by decide)).trans <|
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W35_main_arg8 (c : Dev nD) : W35 m ρ c (Proc.devRef .tc main_arg8) = m ((c : Thread nD τ).loc main_arg8) :=
  (W35_of m ρ c main_arg8 (by decide)).trans <|
  (W34_of_ne m ρ c main_arg8 (by decide)).trans <|
  (W33_of m ρ c main_arg8 (by decide)).trans <|
  (W32_of_ne m ρ c main_arg8 (by decide)).trans <|
  (W31_of m ρ c main_arg8 (by decide)).trans <|
  (W30_of_ne m ρ c main_arg8 (by decide)).trans <|
  (W29_of m ρ c main_arg8 (by decide)).trans <|
  (W28_of_ne m ρ c main_arg8 (by decide)).trans <|
  (W27_of m ρ c main_arg8 (by decide)).trans <|
  (W26_of_ne m ρ c main_arg8 (by decide)).trans <|
  (W25_of m ρ c main_arg8 (by decide)).trans <|
  (W24_of_ne m ρ c main_arg8 (by decide)).trans <|
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W35_main_arg9 (c : Dev nD) : W35 m ρ c (Proc.devRef .tc main_arg9) = m ((c : Thread nD τ).loc main_arg9) :=
  (W35_of m ρ c main_arg9 (by decide)).trans <|
  (W34_of_ne m ρ c main_arg9 (by decide)).trans <|
  (W33_of m ρ c main_arg9 (by decide)).trans <|
  (W32_of_ne m ρ c main_arg9 (by decide)).trans <|
  (W31_of m ρ c main_arg9 (by decide)).trans <|
  (W30_of_ne m ρ c main_arg9 (by decide)).trans <|
  (W29_of m ρ c main_arg9 (by decide)).trans <|
  (W28_of_ne m ρ c main_arg9 (by decide)).trans <|
  (W27_of m ρ c main_arg9 (by decide)).trans <|
  (W26_of_ne m ρ c main_arg9 (by decide)).trans <|
  (W25_of m ρ c main_arg9 (by decide)).trans <|
  (W24_of_ne m ρ c main_arg9 (by decide)).trans <|
  (W23_of m ρ c main_arg9 (by decide)).trans <|
  (W22_of_ne m ρ c main_arg9 (by decide)).trans <|
  (W21_of m ρ c main_arg9 (by decide)).trans <|
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W35_main_arg10 (c : Dev nD) : W35 m ρ c (Proc.devRef .tc main_arg10) = m ((c : Thread nD τ).loc main_arg10) :=
  (W35_of m ρ c main_arg10 (by decide)).trans <|
  (W34_of_ne m ρ c main_arg10 (by decide)).trans <|
  (W33_of m ρ c main_arg10 (by decide)).trans <|
  (W32_of_ne m ρ c main_arg10 (by decide)).trans <|
  (W31_of m ρ c main_arg10 (by decide)).trans <|
  (W30_of_ne m ρ c main_arg10 (by decide)).trans <|
  (W29_of m ρ c main_arg10 (by decide)).trans <|
  (W28_of_ne m ρ c main_arg10 (by decide)).trans <|
  (W27_of m ρ c main_arg10 (by decide)).trans <|
  (W26_of_ne m ρ c main_arg10 (by decide)).trans <|
  (W25_of m ρ c main_arg10 (by decide)).trans <|
  (W24_of_ne m ρ c main_arg10 (by decide)).trans <|
  (W23_of m ρ c main_arg10 (by decide)).trans <|
  (W22_of_ne m ρ c main_arg10 (by decide)).trans <|
  (W21_of m ρ c main_arg10 (by decide)).trans <|
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W35_main_arg11 (c : Dev nD) : W35 m ρ c (Proc.devRef .tc main_arg11) = m ((c : Thread nD τ).loc main_arg11) :=
  (W35_of m ρ c main_arg11 (by decide)).trans <|
  (W34_of_ne m ρ c main_arg11 (by decide)).trans <|
  (W33_of m ρ c main_arg11 (by decide)).trans <|
  (W32_of_ne m ρ c main_arg11 (by decide)).trans <|
  (W31_of m ρ c main_arg11 (by decide)).trans <|
  (W30_of_ne m ρ c main_arg11 (by decide)).trans <|
  (W29_of m ρ c main_arg11 (by decide)).trans <|
  (W28_of_ne m ρ c main_arg11 (by decide)).trans <|
  (W27_of m ρ c main_arg11 (by decide)).trans <|
  (W26_of_ne m ρ c main_arg11 (by decide)).trans <|
  (W25_of m ρ c main_arg11 (by decide)).trans <|
  (W24_of_ne m ρ c main_arg11 (by decide)).trans <|
  (W23_of m ρ c main_arg11 (by decide)).trans <|
  (W22_of_ne m ρ c main_arg11 (by decide)).trans <|
  (W21_of m ρ c main_arg11 (by decide)).trans <|
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W35_main_arg12 (c : Dev nD) : W35 m ρ c (Proc.devRef .tc main_arg12) = m ((c : Thread nD τ).loc main_arg12) :=
  (W35_of m ρ c main_arg12 (by decide)).trans <|
  (W34_of_ne m ρ c main_arg12 (by decide)).trans <|
  (W33_of m ρ c main_arg12 (by decide)).trans <|
  (W32_of_ne m ρ c main_arg12 (by decide)).trans <|
  (W31_of m ρ c main_arg12 (by decide)).trans <|
  (W30_of_ne m ρ c main_arg12 (by decide)).trans <|
  (W29_of m ρ c main_arg12 (by decide)).trans <|
  (W28_of_ne m ρ c main_arg12 (by decide)).trans <|
  (W27_of m ρ c main_arg12 (by decide)).trans <|
  (W26_of_ne m ρ c main_arg12 (by decide)).trans <|
  (W25_of m ρ c main_arg12 (by decide)).trans <|
  (W24_of_ne m ρ c main_arg12 (by decide)).trans <|
  (W23_of m ρ c main_arg12 (by decide)).trans <|
  (W22_of_ne m ρ c main_arg12 (by decide)).trans <|
  (W21_of m ρ c main_arg12 (by decide)).trans <|
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W35_main_arg13 (c : Dev nD) : W35 m ρ c (Proc.devRef .tc main_arg13) = m ((c : Thread nD τ).loc main_arg13) :=
  (W35_of m ρ c main_arg13 (by decide)).trans <|
  (W34_of_ne m ρ c main_arg13 (by decide)).trans <|
  (W33_of m ρ c main_arg13 (by decide)).trans <|
  (W32_of_ne m ρ c main_arg13 (by decide)).trans <|
  (W31_of m ρ c main_arg13 (by decide)).trans <|
  (W30_of_ne m ρ c main_arg13 (by decide)).trans <|
  (W29_of m ρ c main_arg13 (by decide)).trans <|
  (W28_of_ne m ρ c main_arg13 (by decide)).trans <|
  (W27_of m ρ c main_arg13 (by decide)).trans <|
  (W26_of_ne m ρ c main_arg13 (by decide)).trans <|
  (W25_of m ρ c main_arg13 (by decide)).trans <|
  (W24_of_ne m ρ c main_arg13 (by decide)).trans <|
  (W23_of m ρ c main_arg13 (by decide)).trans <|
  (W22_of_ne m ρ c main_arg13 (by decide)).trans <|
  (W21_of m ρ c main_arg13 (by decide)).trans <|
  (W20_of_ne m ρ c main_arg13 (by decide)).trans <|
  (W19_of m ρ c main_arg13 (by decide)).trans <|
  (W18_of_ne m ρ c main_arg13 (by decide)).trans <|
  (W17_of m ρ c main_arg13 (by decide)).trans <|
  (W16_of_ne m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl
theorem W35_main_arg14 (c : Dev nD) : W35 m ρ c (Proc.devRef .tc main_arg14) = m ((c : Thread nD τ).loc main_arg14) :=
  (W35_of m ρ c main_arg14 (by decide)).trans <|
  (W34_of_ne m ρ c main_arg14 (by decide)).trans <|
  (W33_of m ρ c main_arg14 (by decide)).trans <|
  (W32_of_ne m ρ c main_arg14 (by decide)).trans <|
  (W31_of m ρ c main_arg14 (by decide)).trans <|
  (W30_of_ne m ρ c main_arg14 (by decide)).trans <|
  (W29_of m ρ c main_arg14 (by decide)).trans <|
  (W28_of_ne m ρ c main_arg14 (by decide)).trans <|
  (W27_of m ρ c main_arg14 (by decide)).trans <|
  (W26_of_ne m ρ c main_arg14 (by decide)).trans <|
  (W25_of m ρ c main_arg14 (by decide)).trans <|
  (W24_of_ne m ρ c main_arg14 (by decide)).trans <|
  (W23_of m ρ c main_arg14 (by decide)).trans <|
  (W22_of_ne m ρ c main_arg14 (by decide)).trans <|
  (W21_of m ρ c main_arg14 (by decide)).trans <|
  (W20_of_ne m ρ c main_arg14 (by decide)).trans <|
  (W19_of m ρ c main_arg14 (by decide)).trans <|
  (W18_of_ne m ρ c main_arg14 (by decide)).trans <|
  (W17_of m ρ c main_arg14 (by decide)).trans <|
  (W16_of_ne m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl
theorem W35_main_arg15 (c : Dev nD) : W35 m ρ c (Proc.devRef .tc main_arg15) = m ((c : Thread nD τ).loc main_arg15) :=
  (W35_of m ρ c main_arg15 (by decide)).trans <|
  (W34_of_ne m ρ c main_arg15 (by decide)).trans <|
  (W33_of m ρ c main_arg15 (by decide)).trans <|
  (W32_of_ne m ρ c main_arg15 (by decide)).trans <|
  (W31_of m ρ c main_arg15 (by decide)).trans <|
  (W30_of_ne m ρ c main_arg15 (by decide)).trans <|
  (W29_of m ρ c main_arg15 (by decide)).trans <|
  (W28_of_ne m ρ c main_arg15 (by decide)).trans <|
  (W27_of m ρ c main_arg15 (by decide)).trans <|
  (W26_of_ne m ρ c main_arg15 (by decide)).trans <|
  (W25_of m ρ c main_arg15 (by decide)).trans <|
  (W24_of_ne m ρ c main_arg15 (by decide)).trans <|
  (W23_of m ρ c main_arg15 (by decide)).trans <|
  (W22_of_ne m ρ c main_arg15 (by decide)).trans <|
  (W21_of m ρ c main_arg15 (by decide)).trans <|
  (W20_of_ne m ρ c main_arg15 (by decide)).trans <|
  (W19_of m ρ c main_arg15 (by decide)).trans <|
  (W18_of_ne m ρ c main_arg15 (by decide)).trans <|
  (W17_of m ρ c main_arg15 (by decide)).trans <|
  (W16_of_ne m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl
theorem W35_main_arg16 (c : Dev nD) : W35 m ρ c (Proc.devRef .tc main_arg16) = m ((c : Thread nD τ).loc main_arg16) :=
  (W35_of m ρ c main_arg16 (by decide)).trans <|
  (W34_of_ne m ρ c main_arg16 (by decide)).trans <|
  (W33_of m ρ c main_arg16 (by decide)).trans <|
  (W32_of_ne m ρ c main_arg16 (by decide)).trans <|
  (W31_of m ρ c main_arg16 (by decide)).trans <|
  (W30_of_ne m ρ c main_arg16 (by decide)).trans <|
  (W29_of m ρ c main_arg16 (by decide)).trans <|
  (W28_of_ne m ρ c main_arg16 (by decide)).trans <|
  (W27_of m ρ c main_arg16 (by decide)).trans <|
  (W26_of_ne m ρ c main_arg16 (by decide)).trans <|
  (W25_of m ρ c main_arg16 (by decide)).trans <|
  (W24_of_ne m ρ c main_arg16 (by decide)).trans <|
  (W23_of m ρ c main_arg16 (by decide)).trans <|
  (W22_of_ne m ρ c main_arg16 (by decide)).trans <|
  (W21_of m ρ c main_arg16 (by decide)).trans <|
  (W20_of_ne m ρ c main_arg16 (by decide)).trans <|
  (W19_of m ρ c main_arg16 (by decide)).trans <|
  (W18_of_ne m ρ c main_arg16 (by decide)).trans <|
  (W17_of m ρ c main_arg16 (by decide)).trans <|
  (W16_of_ne m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl
theorem W35_main_arg17 (c : Dev nD) : W35 m ρ c (Proc.devRef .tc main_arg17) = m ((c : Thread nD τ).loc main_arg17) :=
  (W35_of m ρ c main_arg17 (by decide)).trans <|
  (W34_of_ne m ρ c main_arg17 (by decide)).trans <|
  (W33_of m ρ c main_arg17 (by decide)).trans <|
  (W32_of_ne m ρ c main_arg17 (by decide)).trans <|
  (W31_of m ρ c main_arg17 (by decide)).trans <|
  (W30_of_ne m ρ c main_arg17 (by decide)).trans <|
  (W29_of m ρ c main_arg17 (by decide)).trans <|
  (W28_of_ne m ρ c main_arg17 (by decide)).trans <|
  (W27_of m ρ c main_arg17 (by decide)).trans <|
  (W26_of_ne m ρ c main_arg17 (by decide)).trans <|
  (W25_of m ρ c main_arg17 (by decide)).trans <|
  (W24_of_ne m ρ c main_arg17 (by decide)).trans <|
  (W23_of m ρ c main_arg17 (by decide)).trans <|
  (W22_of_ne m ρ c main_arg17 (by decide)).trans <|
  (W21_of m ρ c main_arg17 (by decide)).trans <|
  (W20_of_ne m ρ c main_arg17 (by decide)).trans <|
  (W19_of m ρ c main_arg17 (by decide)).trans <|
  (W18_of_ne m ρ c main_arg17 (by decide)).trans <|
  (W17_of m ρ c main_arg17 (by decide)).trans <|
  (W16_of_ne m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of_ne m ρ c main_arg17 (by decide)).trans <|
  (W3_of m ρ c main_arg17 (by decide)).trans <|
  (W2_of_ne m ρ c main_arg17 (by decide)).trans <|
  (W1_of m ρ c main_arg17 (by decide)).trans rfl
theorem W35_main_arg18 (c : Dev nD) : W35 m ρ c (Proc.devRef .tc main_arg18) = m ((c : Thread nD τ).loc main_arg18) :=
  (W35_of m ρ c main_arg18 (by decide)).trans <|
  (W34_of_ne m ρ c main_arg18 (by decide)).trans <|
  (W33_of m ρ c main_arg18 (by decide)).trans <|
  (W32_of_ne m ρ c main_arg18 (by decide)).trans <|
  (W31_of m ρ c main_arg18 (by decide)).trans <|
  (W30_of_ne m ρ c main_arg18 (by decide)).trans <|
  (W29_of m ρ c main_arg18 (by decide)).trans <|
  (W28_of_ne m ρ c main_arg18 (by decide)).trans <|
  (W27_of m ρ c main_arg18 (by decide)).trans <|
  (W26_of_ne m ρ c main_arg18 (by decide)).trans <|
  (W25_of m ρ c main_arg18 (by decide)).trans <|
  (W24_of_ne m ρ c main_arg18 (by decide)).trans <|
  (W23_of m ρ c main_arg18 (by decide)).trans <|
  (W22_of_ne m ρ c main_arg18 (by decide)).trans <|
  (W21_of m ρ c main_arg18 (by decide)).trans <|
  (W20_of_ne m ρ c main_arg18 (by decide)).trans <|
  (W19_of m ρ c main_arg18 (by decide)).trans <|
  (W18_of_ne m ρ c main_arg18 (by decide)).trans <|
  (W17_of m ρ c main_arg18 (by decide)).trans <|
  (W16_of_ne m ρ c main_arg18 (by decide)).trans <|
  (W15_of m ρ c main_arg18 (by decide)).trans <|
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of_ne m ρ c main_arg18 (by decide)).trans <|
  (W3_of m ρ c main_arg18 (by decide)).trans <|
  (W2_of_ne m ρ c main_arg18 (by decide)).trans <|
  (W1_of m ρ c main_arg18 (by decide)).trans rfl
theorem W35_main_arg19 (c : Dev nD) : W35 m ρ c (Proc.devRef .tc main_arg19) = m ((c : Thread nD τ).loc main_arg19) :=
  (W35_of m ρ c main_arg19 (by decide)).trans <|
  (W34_of_ne m ρ c main_arg19 (by decide)).trans <|
  (W33_of m ρ c main_arg19 (by decide)).trans <|
  (W32_of_ne m ρ c main_arg19 (by decide)).trans <|
  (W31_of m ρ c main_arg19 (by decide)).trans <|
  (W30_of_ne m ρ c main_arg19 (by decide)).trans <|
  (W29_of m ρ c main_arg19 (by decide)).trans <|
  (W28_of_ne m ρ c main_arg19 (by decide)).trans <|
  (W27_of m ρ c main_arg19 (by decide)).trans <|
  (W26_of_ne m ρ c main_arg19 (by decide)).trans <|
  (W25_of m ρ c main_arg19 (by decide)).trans <|
  (W24_of_ne m ρ c main_arg19 (by decide)).trans <|
  (W23_of m ρ c main_arg19 (by decide)).trans <|
  (W22_of_ne m ρ c main_arg19 (by decide)).trans <|
  (W21_of m ρ c main_arg19 (by decide)).trans <|
  (W20_of_ne m ρ c main_arg19 (by decide)).trans <|
  (W19_of m ρ c main_arg19 (by decide)).trans <|
  (W18_of_ne m ρ c main_arg19 (by decide)).trans <|
  (W17_of m ρ c main_arg19 (by decide)).trans <|
  (W16_of_ne m ρ c main_arg19 (by decide)).trans <|
  (W15_of m ρ c main_arg19 (by decide)).trans <|
  (W14_of_ne m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of_ne m ρ c main_arg19 (by decide)).trans <|
  (W7_of m ρ c main_arg19 (by decide)).trans <|
  (W6_of_ne m ρ c main_arg19 (by decide)).trans <|
  (W5_of m ρ c main_arg19 (by decide)).trans <|
  (W4_of_ne m ρ c main_arg19 (by decide)).trans <|
  (W3_of m ρ c main_arg19 (by decide)).trans <|
  (W2_of_ne m ρ c main_arg19 (by decide)).trans <|
  (W1_of m ρ c main_arg19 (by decide)).trans rfl
theorem W35_main_arg20 (c : Dev nD) : W35 m ρ c (Proc.devRef .tc main_arg20) = m ((c : Thread nD τ).loc main_arg20) :=
  (W35_of m ρ c main_arg20 (by decide)).trans <|
  (W34_of_ne m ρ c main_arg20 (by decide)).trans <|
  (W33_of m ρ c main_arg20 (by decide)).trans <|
  (W32_of_ne m ρ c main_arg20 (by decide)).trans <|
  (W31_of m ρ c main_arg20 (by decide)).trans <|
  (W30_of_ne m ρ c main_arg20 (by decide)).trans <|
  (W29_of m ρ c main_arg20 (by decide)).trans <|
  (W28_of_ne m ρ c main_arg20 (by decide)).trans <|
  (W27_of m ρ c main_arg20 (by decide)).trans <|
  (W26_of_ne m ρ c main_arg20 (by decide)).trans <|
  (W25_of m ρ c main_arg20 (by decide)).trans <|
  (W24_of_ne m ρ c main_arg20 (by decide)).trans <|
  (W23_of m ρ c main_arg20 (by decide)).trans <|
  (W22_of_ne m ρ c main_arg20 (by decide)).trans <|
  (W21_of m ρ c main_arg20 (by decide)).trans <|
  (W20_of_ne m ρ c main_arg20 (by decide)).trans <|
  (W19_of m ρ c main_arg20 (by decide)).trans <|
  (W18_of_ne m ρ c main_arg20 (by decide)).trans <|
  (W17_of m ρ c main_arg20 (by decide)).trans <|
  (W16_of_ne m ρ c main_arg20 (by decide)).trans <|
  (W15_of m ρ c main_arg20 (by decide)).trans <|
  (W14_of_ne m ρ c main_arg20 (by decide)).trans <|
  (W13_of m ρ c main_arg20 (by decide)).trans <|
  (W12_of_ne m ρ c main_arg20 (by decide)).trans <|
  (W11_of m ρ c main_arg20 (by decide)).trans <|
  (W10_of_ne m ρ c main_arg20 (by decide)).trans <|
  (W9_of m ρ c main_arg20 (by decide)).trans <|
  (W8_of_ne m ρ c main_arg20 (by decide)).trans <|
  (W7_of m ρ c main_arg20 (by decide)).trans <|
  (W6_of_ne m ρ c main_arg20 (by decide)).trans <|
  (W5_of m ρ c main_arg20 (by decide)).trans <|
  (W4_of_ne m ρ c main_arg20 (by decide)).trans <|
  (W3_of m ρ c main_arg20 (by decide)).trans <|
  (W2_of_ne m ρ c main_arg20 (by decide)).trans <|
  (W1_of m ρ c main_arg20 (by decide)).trans rfl

/-! ## The proof data family and the thread state -/

/-- The prefetched tables' admissible contents: no pipeline has a table. -/
abbrev adm : (p : Fin 17) → (pcfgs (F := F) p).Adm := fun p => (cfgs p).toPCfg_adm
/-- Every pipeline's proof data, each at its region's entry contents — a literal `match`, so that
    `Pipeline.pin pcfgs adm p` at a numeral reduces to the printed configuration. -/
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨16, _⟩ => fun c => dat16 (V33 m ρ) c
  | ⟨_ + 17, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W35`, the
    generator register at some state. -/
abbrev Tₙ (c : Dev nD) : sProp 𝕄 := iprop(StableHlo.held (c : Thread nD τ) (Pipeline.ucRefs τ sig) (W35 m ρ c) ∗ ∃ r, prngReg c r)

end Cert.KernelIdeal.Hand

end
-- ==== Proof.KI.AggLib.lean ====
/- General facts about the canonical contents of a buffer overwritten whole: the last covering
   piece alone decides them, and a load through that piece's rectangle reads its payload. -/
import Idealize.ShloMosaic.Lib.Pipeline.FrameBody

noncomputable section

namespace Cert.KernelIdeal.Hand

open Idealize.ShloMosaic

variable {s : Shape} {e : EltTy} {Val : EltTy → Type}

/-- When the last write's rectangle holds every index, the earlier writes are shadowed. -/
theorem agg_canon_cover [∀ e, Nonempty (Val e)] (r : Rect s) (hr : ∀ y : s.Idx, y ∈ r.set) (w : r.shape.Idx → Val e)
    (L : List (View.Piece Val s e)) : View.canon (⟨r, w⟩ :: L) = View.canon [⟨r, w⟩] := by
  funext y
  obtain ⟨x, rfl⟩ : ∃ x, r.emb x = y := r.exists_idx_of_mem (hr y)
  rw [View.canon_cons_emb, View.canon_cons_emb]

/-- A load through the rectangle of the one piece written reads that piece's payload. -/
theorem agg_ld_canon [∀ e, Nonempty (Val e)] (r : Rect s) (w : r.shape.Idx → Val e) :
    View.ld (View.canon [(⟨r, w⟩ : View.Piece Val s e)]) r = w :=
  funext fun x => View.canon_cons_emb r w [] x

/-- A rectangle that alone tiles the shape holds every index. -/
theorem agg_mem_of_tiled (r : Rect s) (size : Fin s.rank → Nat)
    (h : View.Piece.tiled ([⟨r, fun _ => ()⟩] : List (View.Piece (fun _ => Unit) s e)) size = true) (y : s.Idx) : y ∈ r.set := by
  obtain ⟨pc, hm, hy⟩ := View.cover_of_tiled ([⟨r, fun _ => ()⟩] : List (View.Piece (fun _ => Unit) s e)) size h y
  rw [List.mem_singleton] at hm; subst hm; exact hy

end Cert.KernelIdeal.Hand

end
-- ==== Proof.KI.Agg1.lean ====
import proofs.«103499_j73031623901527_2_alg».proof.Proof.KI.AggDef1
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 1 (`cc1__agg_kernel`, pipeline 1), at the entry contents `V`: the body obligation -/

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator's (and the output's) rectangle is the whole buffer. -/
theorem mem_r1_out (y : S2048x256.Idx) : y ∈ r1_out.set :=
  agg_mem_of_tiled (e := .f32) r1_out S2048x256.size (by rfl) y

/-- The class's invariant with the accumulator split off the scoped rest, owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- What a buffer reads after a list of writes whose last piece covers it: that piece alone. -/
theorem agg_read_writes_cons_1 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions: the grid is one point, both hold there -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at the one point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := by decide +kernel

/-! ## The body's triple -/

set_option maxHeartbeats 1000000 in
/-- The body at the one point (the accumulator zeroed, added to and normalised into the output): on whole memrefs,
    the inputs at read contents, the output and the accumulator at anything, it runs to the continuation holding the
    inputs as they were, the accumulator at the zero piece plus the product, the output at its normalisation. -/
theorem sound_kernel1 (c : Dev nD) (E : Set ℕ) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond1_0 i) (hc1 : cond1_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg4 fullShare d) ∗ (∃ d, owns (c : Thread nD τ) arg5 fullShare d)
        ∗ (iprop(owns (c : Thread nD τ) arg2 fullShare xa ∗ owns (c : Thread nD τ) arg3 fullShare xx
            ∗ owns (c : Thread nD τ) arg4 fullShare (View.canon [⟨r1_out, k1_pay3 (k1_pay2 (k1_pay1 (F := F)) (View.ld xa r1_A) (View.ld xx r1_X))⟩])
            ∗ owns (c : Thread nD τ) arg5 fullShare (View.canon [⟨r1_out, k1_pay2 (k1_pay1 (F := F)) (View.ld xa r1_A) (View.ld xx r1_X)⟩])) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel1.sl.v16 sound_kernel1.sl.H5_2 sound_kernel1.sl.v3 sound_kernel1.sl.H5_1
    simp only [View.readCov_cons_toLoadRect, View.readAt_eq_ld]
    exact agg_read_writes_cons_1 _ _ r1_out mem_r1_out _ _
  iexists _; isplitr
  swap; · iexact H5
  ipureintro
  unfold sound_kernel1.sl.H5_2 sound_kernel1.sl.v3 sound_kernel1.sl.H5_1
  simp only [View.readCov_cons_toLoadRect, View.readAt_eq_ld]
  exact agg_read_writes_cons_1 _ _ r1_out mem_r1_out _ _

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at the one point: the inputs' memrefs hold their blocks, the invariant hands the accumulator at anything,
    the triple applies, and the invariant takes the accumulator back at this point's contents; the scoped rest, the
    generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hz : t.val = 0 := by have h1 := t.isLt; have h2 : cfg1.N = 1 := N_1; omega
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [acc1_eq, accP1_first V c t (Nat.mod_one _)]
  rw [PhiS1_castSucc V c t, PhiS1_zero V c _ _ hz, PhiA1_eq]
  iintro ⟨⟨⟨HS, HR⟩, Hg⟩, Ho, ⟨%d0, H0⟩, ⟨%d1, H1⟩, ⟨%d2, H2⟩⟩
  iapply (sound_kernel1 c Set.univ (grid1.coords t) _ _ _ _ _ _ _ _ (hcond1_0 t) (hcond1_1 t) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 1 := N_1; omega)

end Cert.KernelIdeal.Hand

end
-- ==== Proof.KI.Agg3.lean ====
import proofs.«103499_j73031623901527_2_alg».proof.Proof.KI.AggDef3
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 3 (`cc3__agg_kernel`, pipeline 3), at the entry contents `V`: the body obligation -/

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- The accumulator's (and the output's) rectangle is the whole buffer. -/
theorem mem_r3_out (y : S2048x256.Idx) : y ∈ r3_out.set :=
  agg_mem_of_tiled (e := .f32) r3_out S2048x256.size (by rfl) y

/-- The class's invariant with the accumulator split off the scoped rest, owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- What a buffer reads after a list of writes whose last piece covers it: that piece alone. -/
theorem agg_read_writes_cons_3 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions: the grid is one point, both hold there -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at the one point. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := by decide +kernel

/-! ## The body's triple -/

set_option maxHeartbeats 1000000 in
/-- The body at the one point (the accumulator zeroed, added to and normalised into the output): on whole memrefs,
    the inputs at read contents, the output and the accumulator at anything, it runs to the continuation holding the
    inputs as they were, the accumulator at the zero piece plus the product, the output at its normalisation. -/
theorem sound_kernel3 (c : Dev nD) (E : Set ℕ) (i : grid3.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond3_0 i) (hc1 : cond3_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg4 fullShare d) ∗ (∃ d, owns (c : Thread nD τ) arg5 fullShare d)
        ∗ (iprop(owns (c : Thread nD τ) arg2 fullShare xa ∗ owns (c : Thread nD τ) arg3 fullShare xx
            ∗ owns (c : Thread nD τ) arg4 fullShare (View.canon [⟨r3_out, k3_pay3 (k3_pay2 (k3_pay1 (F := F)) (View.ld xa r3_A) (View.ld xx r3_X))⟩])
            ∗ owns (c : Thread nD τ) arg5 fullShare (View.canon [⟨r3_out, k3_pay2 (k3_pay1 (F := F)) (View.ld xa r3_A) (View.ld xx r3_X)⟩])) -∗ K ⟨⟩))
      ⊢ wp frame (wpE (defs₀ (F := F)) Variants.none c none) E (cc3__agg_kernel i arg2 harg2 arg3 harg3 arg4 harg4 arg5 harg5) K := by
  simp only [cc3__agg_kernel_eq_skeleton]; unfold cc3__agg_kernel_skel
  unfold owns
  iintro ⟨⟨%f2, %hf2, H2⟩, ⟨%f3, %hf3, H3⟩, ⟨%d4, %f4, -, H4⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel3.sl.v16 sound_kernel3.sl.H5_2 sound_kernel3.sl.v3 sound_kernel3.sl.H5_1
    simp only [View.readCov_cons_toLoadRect, View.readAt_eq_ld]
    exact agg_read_writes_cons_3 _ _ r3_out mem_r3_out _ _
  iexists _; isplitr
  swap; · iexact H5
  ipureintro
  unfold sound_kernel3.sl.H5_2 sound_kernel3.sl.v3 sound_kernel3.sl.H5_1
  simp only [View.readCov_cons_toLoadRect, View.readAt_eq_ld]
  exact agg_read_writes_cons_3 _ _ r3_out mem_r3_out _ _

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at the one point: the inputs' memrefs hold their blocks, the invariant hands the accumulator at anything,
    the triple applies, and the invariant takes the accumulator back at this point's contents; the scoped rest, the
    generator register and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hz : t.val = 0 := by have h1 := t.isLt; have h2 : cfg3.N = 1 := N_3; omega
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [acc3_eq, accP3_first V c t (Nat.mod_one _)]
  rw [PhiS3_castSucc V c t, PhiS3_zero V c _ _ hz, PhiA3_eq]
  iintro ⟨⟨⟨HS, HR⟩, Hg⟩, Ho, ⟨%d0, H0⟩, ⟨%d1, H1⟩, ⟨%d2, H2⟩⟩
  iapply (sound_kernel3 c Set.univ (grid3.coords t) _ _ _ _ _ _ _ _ (hcond3_0 t) (hcond3_1 t) (iblk3 V c 0 t) (iblk3 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (`ΦA`) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 1 := N_3; omega)

end Cert.KernelIdeal.Hand

end
-- ==== Proof.KI.RunRa.lean ====
/- The run of @main, the kernel regions 0 … 3 as segments over the thread state "every unscoped buffer at the
   boundary's contents, the generator register at some state, nothing owed". -/
import proofs.«103499_j73031623901527_2_alg».proof.Proof.KI.Run1
import proofs.«103499_j73031623901527_2_alg».proof.Proof.KI.Agg1
import proofs.«103499_j73031623901527_2_alg».proof.Proof.KI.Agg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register and the
    scoped rest into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register and the
    scoped rest into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register and the
    scoped rest into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`.
    Its arrays split out of the unscoped buffers and put back at the exit contents; the generator register and the
    scoped rest into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Agg7.lean ====
import proofs.«103499_j73031623901527_2_alg».proof.Proof.KI.AggDef7
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 7 (`cc7__agg_kernel`, pipeline 7), at the entry contents `V`: the body obligation -/

/-- An input window's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The accumulator's (and the output's) rectangle is the whole buffer. -/
theorem mem_r7_out (y : S2048x256.Idx) : y ∈ r7_out.set :=
  agg_mem_of_tiled (e := .f32) r7_out S2048x256.size (by rfl) y

/-- The class's invariant with the accumulator split off the scoped rest, owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- What a buffer reads after a list of writes whose last piece covers it: that piece alone. -/
theorem agg_read_writes_cons_7 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- The condition of its second: the inner coordinate is the last (the output is stored). -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

/-- The inputs are never idle. -/
theorem liveAt7_0 : ∀ t : Fin cfg7.N, cfg7.idle 0 (grid7.coords t) = false := fun _ => rfl
theorem liveAt7_1 : ∀ t : Fin cfg7.N, cfg7.idle 1 (grid7.coords t) = false := fun _ => rfl
/-- Where the output is not stored its window is idle and not written back; where it is stored it is live. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-! ## The body's triple, per control case -/

set_option maxHeartbeats 1000000 in
/-- At a first inner step that is not the last: the accumulator, at anything, is zeroed and the product added. -/
theorem sound_kernel7_A (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond7_0 i) (hc1 : ¬cond7_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r7_out, k7_pay2 (k7_pay1 (F := F)) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel7_A.sl.v3 sound_kernel7_A.sl.H5_1
  simp only [View.readCov_cons_toLoadRect, View.readAt_eq_ld]
  exact agg_read_writes_cons_7 _ _ r7_out mem_r7_out _ _

set_option maxHeartbeats 1000000 in
/-- At a middle inner step: the product is added to what the accumulator held. -/
theorem sound_kernel7_B (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond7_0 i) (hc1 : ¬cond7_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r7_out, k7_pay2 (View.ld xs r7_out) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_7 _ _ r7_out mem_r7_out _ _

set_option maxHeartbeats 1000000 in
/-- At a last inner step that is not the first: the product is added and the output stored, normalised. -/
theorem sound_kernel7_C (c : Dev nD) (E : Set ℕ) (i : grid7.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond7_0 i) (hc1 : cond7_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r7_out, k7_pay3 (k7_pay2 (View.ld xs r7_out) (View.ld xa r7_A) (View.ld xx r7_X))⟩])
            ∗ owns (c : Thread nD τ) arg5 fullShare (View.canon [⟨r7_out, k7_pay2 (View.ld xs r7_out) (View.ld xa r7_A) (View.ld xx r7_X)⟩])) -∗ K ⟨⟩))
      ⊢ wp frame (wpE (defs₀ (F := F)) Variants.none c none) E (cc7__agg_kernel i arg2 harg2 arg3 harg3 arg4 harg4 arg5 harg5) K := by
  simp only [cc7__agg_kernel_eq_skeleton]; unfold cc7__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel7_C.sl.v16 sound_kernel7_C.sl.H5_1
    simp only [View.readCov_cons_toLoadRect, View.readAt_eq_ld]
    exact agg_read_writes_cons_7 _ _ r7_out mem_r7_out _ _
  iexists _; isplitr
  swap; · iexact H5
  ipureintro
  unfold sound_kernel7_C.sl.H5_1
  simp only [View.readCov_cons_toLoadRect, View.readAt_eq_ld]
  exact agg_read_writes_cons_7 _ _ r7_out mem_r7_out _ _

/-! ## The body obligation, at a generic point -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [acc7_eq]
  by_cases h0 : t.val % 8 = 0
  · have h1 : ¬t.val % 8 = 7 := by omega
    rw [Dat.leavesExact_idle (dat7 V c) 2 t (idleAt7_2 t (fun h => h1 ((hcond7_1 t).mp h))) (noFlush7_2 t (fun h => h1 ((hcond7_1 t).mp h)))]
    rw [accP7_first V c t h0]
    by_cases hz : t.val = 0
    · rw [PhiS7_castSucc V c t, PhiS7_zero V c _ _ hz, PhiA7_eq]
      iintro ⟨⟨⟨HS, HR⟩, Hg⟩, Ho, ⟨%d0, H0⟩, ⟨%d1, H1⟩, H2⟩
      iapply (sound_kernel7_A c Set.univ (grid7.coords t) _ _ _ _ _ _ _ _ ((hcond7_0 t).mpr h0) (fun h => h1 ((hcond7_1 t).mp h)) (iblk7 V c 0 t) (iblk7 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS7_castSucc V c t, PhiS7_pos V c _ _ hz]
      iintro ⟨⟨⟨HS, HR⟩, Hg⟩, Ho, ⟨%d0, H0⟩, ⟨%d1, H1⟩, H2⟩
      iapply (sound_kernel7_A c Set.univ (grid7.coords t) _ _ _ _ _ _ _ _ ((hcond7_0 t).mpr h0) (fun h => h1 ((hcond7_1 t).mp h)) (iblk7 V c 0 t) (iblk7 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP7_step V c t h0]
    rw [PhiS7_castSucc V c t, PhiS7_pos V c _ _ hz]
    by_cases h1 : t.val % 8 = 7
    · rw [show (dat7 V c).leavesExact 2 t = owns (c : Thread nD τ) (st7_2 t) fullShare ((dat7 V c).after 2 t) from by
        unfold Dat.leavesExact; rw [liveAt7_2 t ((hcond7_1 t).mpr h1)], after7_2]
      rw [accP7_step V c t h0]
      iintro ⟨⟨⟨HS, HR⟩, Hg⟩, Ho, ⟨%d0, H0⟩, ⟨%d1, H1⟩, ⟨%d2, H2⟩⟩
      iapply (sound_kernel7_C c Set.univ (grid7.coords t) _ _ _ _ _ _ _ _ (fun h => h0 ((hcond7_0 t).mp h)) ((hcond7_1 t).mpr h1) (iblk7 V c 0 t) (iblk7 V c 1 t) (acc7 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat7 V c) 2 t (idleAt7_2 t (fun h => h1 ((hcond7_1 t).mp h))) (noFlush7_2 t (fun h => h1 ((hcond7_1 t).mp h)))]
      iintro ⟨⟨⟨HS, HR⟩, Hg⟩, Ho, ⟨%d0, H0⟩, ⟨%d1, H1⟩, H2⟩
      iapply (sound_kernel7_B c Set.univ (grid7.coords t) _ _ _ _ _ _ _ _ (fun h => h0 ((hcond7_0 t).mp h)) (fun h => h1 ((hcond7_1 t).mp h)) (iblk7 V c 0 t) (iblk7 V c 1 t) (acc7 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region (`ΦA`) is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives `ΦA` back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS, HR⟩, Hg⟩
  isplitl [HS HR]
  · isplitl [HS]
    · iexists _; iexact HS
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.KernelIdeal.Hand

end
-- ==== Proof.KI.Agg8.lean ====
import proofs.«103499_j73031623901527_2_alg».proof.Proof.KI.AggDef8
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 8 (`cc8__agg_kernel`, pipeline 8), at the entry contents `V`: the body obligation -/

/-- An input window's current staging buffer holds its block at every point, fetched there or not, for any proof
    data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- The accumulator's (and the output's) rectangle is the whole buffer. -/
theorem mem_r8_out (y : S2048x256.Idx) : y ∈ r8_out.set :=
  agg_mem_of_tiled (e := .f32) r8_out S2048x256.size (by rfl) y

/-- The class's invariant with the accumulator split off the scoped rest, owned at some contents. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- What a buffer reads after a list of writes whose last piece covers it: that piece alone. -/
theorem agg_read_writes_cons_8 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 4 = 0 :=
  (by decide +kernel : ∀ t : Fin grid8.N, cond8_0 (grid8.coords t) ↔ t.val % 4 = 0)
/-- The condition of its second: the inner coordinate is the last (the output is stored). -/
abbrev cond8_1 (i : grid8.Coords) : Prop := k8_cond2 i = 1#1
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the windows are idle -/

/-- The inputs are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
/-- Where the output is not stored its window is idle and not written back; where it is stored it is live. -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem liveAt8_2 : ∀ t : Fin cfg8.N, cond8_1 (grid8.coords t) → cfg8.idle 2 (grid8.coords t) = false := by decide +kernel

/-! ## The body's triple, per control case -/

set_option maxHeartbeats 1000000 in
/-- At a first inner step that is not the last: the accumulator, at anything, is zeroed and the product added. -/
theorem sound_kernel8_A (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond8_0 i) (hc1 : ¬cond8_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r8_out, k8_pay2 (k8_pay1 (F := F)) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel8_A.sl.v3 sound_kernel8_A.sl.H5_1
  simp only [View.readCov_cons_toLoadRect, View.readAt_eq_ld]
  exact agg_read_writes_cons_8 _ _ r8_out mem_r8_out _ _

set_option maxHeartbeats 1000000 in
/-- At a middle inner step: the product is added to what the accumulator held. -/
theorem sound_kernel8_B (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond8_0 i) (hc1 : ¬cond8_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r8_out, k8_pay2 (View.ld xs r8_out) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_8 _ _ r8_out mem_r8_out _ _

set_option maxHeartbeats 1000000 in
/-- At a last inner step that is not the first: the product is added and the output stored, normalised. -/
theorem sound_kernel8_C (c : Dev nD) (E : Set ℕ) (i : grid8.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond8_0 i) (hc1 : cond8_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r8_out, k8_pay3 (k8_pay2 (View.ld xs r8_out) (View.ld xa r8_A) (View.ld xx r8_X))⟩])
            ∗ owns (c : Thread nD τ) arg5 fullShare (View.canon [⟨r8_out, k8_pay2 (View.ld xs r8_out) (View.ld xa r8_A) (View.ld xx r8_X)⟩])) -∗ K ⟨⟩))
      ⊢ wp frame (wpE (defs₀ (F := F)) Variants.none c none) E (cc8__agg_kernel i arg2 harg2 arg3 harg3 arg4 harg4 arg5 harg5) K := by
  simp only [cc8__agg_kernel_eq_skeleton]; unfold cc8__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel8_C.sl.v16 sound_kernel8_C.sl.H5_1
    simp only [View.readCov_cons_toLoadRect, View.readAt_eq_ld]
    exact agg_read_writes_cons_8 _ _ r8_out mem_r8_out _ _
  iexists _; isplitr
  swap; · iexact H5
  ipureintro
  unfold sound_kernel8_C.sl.H5_1
  simp only [View.readCov_cons_toLoadRect, View.readAt_eq_ld]
  exact agg_read_writes_cons_8 _ _ r8_out mem_r8_out _ _

/-! ## The body obligation, at a generic point -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  rw [acc8_eq]
  by_cases h0 : t.val % 4 = 0
  · have h1 : ¬t.val % 4 = 3 := by omega
    rw [Dat.leavesExact_idle (dat8 V c) 2 t (idleAt8_2 t (fun h => h1 ((hcond8_1 t).mp h))) (noFlush8_2 t (fun h => h1 ((hcond8_1 t).mp h)))]
    rw [accP8_first V c t h0]
    by_cases hz : t.val = 0
    · rw [PhiS8_castSucc V c t, PhiS8_zero V c _ _ hz, PhiA8_eq]
      iintro ⟨⟨⟨HS, HR⟩, Hg⟩, Ho, ⟨%d0, H0⟩, ⟨%d1, H1⟩, H2⟩
      iapply (sound_kernel8_A c Set.univ (grid8.coords t) _ _ _ _ _ _ _ _ ((hcond8_0 t).mpr h0) (fun h => h1 ((hcond8_1 t).mp h)) (iblk8 V c 0 t) (iblk8 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS8_castSucc V c t, PhiS8_pos V c _ _ hz]
      iintro ⟨⟨⟨HS, HR⟩, Hg⟩, Ho, ⟨%d0, H0⟩, ⟨%d1, H1⟩, H2⟩
      iapply (sound_kernel8_A c Set.univ (grid8.coords t) _ _ _ _ _ _ _ _ ((hcond8_0 t).mpr h0) (fun h => h1 ((hcond8_1 t).mp h)) (iblk8 V c 0 t) (iblk8 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP8_step V c t h0]
    rw [PhiS8_castSucc V c t, PhiS8_pos V c _ _ hz]
    by_cases h1 : t.val % 4 = 3
    · rw [show (dat8 V c).leavesExact 2 t = owns (c : Thread nD τ) (st8_2 t) fullShare ((dat8 V c).after 2 t) from by
        unfold Dat.leavesExact; rw [liveAt8_2 t ((hcond8_1 t).mpr h1)], after8_2]
      rw [accP8_step V c t h0]
      iintro ⟨⟨⟨HS, HR⟩, Hg⟩, Ho, ⟨%d0, H0⟩, ⟨%d1, H1⟩, ⟨%d2, H2⟩⟩
      iapply (sound_kernel8_C c Set.univ (grid8.coords t) _ _ _ _ _ _ _ _ (fun h => h0 ((hcond8_0 t).mp h)) ((hcond8_1 t).mpr h1) (iblk8 V c 0 t) (iblk8 V c 1 t) (acc8 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat8 V c) 2 t (idleAt8_2 t (fun h => h1 ((hcond8_1 t).mp h))) (noFlush8_2 t (fun h => h1 ((hcond8_1 t).mp h)))]
      iintro ⟨⟨⟨HS, HR⟩, Hg⟩, Ho, ⟨%d0, H0⟩, ⟨%d1, H1⟩, H2⟩
      iapply (sound_kernel8_B c Set.univ (grid8.coords t) _ _ _ _ _ _ _ _ (fun h => h0 ((hcond8_0 t).mp h)) (fun h => h1 ((hcond8_1 t).mp h)) (iblk8 V c 0 t) (iblk8 V c 1 t) (acc8 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region (`ΦA`) is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives `ΦA` back: the accumulator's named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, HR⟩, Hg⟩
  isplitl [HS HR]
  · isplitl [HS]
    · iexists _; iexact HS
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 32 := N_8; omega)

end Cert.KernelIdeal.Hand

end
-- ==== Proof.KI.RunRb.lean ====
/- The run of @main, the kernel regions 4 … 8 as segments over the thread state "every unscoped buffer at the
   boundary's contents, the generator register at some state, nothing owed". -/
import proofs.«103499_j73031623901527_2_alg».proof.Proof.KI.Run1
import proofs.«103499_j73031623901527_2_alg».proof.Proof.KI.Agg7
import proofs.«103499_j73031623901527_2_alg».proof.Proof.KI.Agg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`.
    Its arrays split out of the unscoped buffers and put back at the exit contents; the generator register and the
    scoped rest into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`.
    Its arrays split out of the unscoped buffers and put back at the exit contents; the generator register and the
    scoped rest into the region's invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 6 (custom_call 6) over the thread state: entered from every unscoped buffer at `W13`, left at `W14`.
    Its arrays split out of the unscoped buffers and put back at the exit contents; the generator register and the
    scoped rest into the region's invariant and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 7 (custom_call 7) over the thread state: entered from every unscoped buffer at `W15`, left at `W16`.
    Its arrays split out of the unscoped buffers and put back at the exit contents; the generator register and the
    scoped rest into the region's invariant and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V15 m ρ) c)
    unfold Pipeline.ΦA
    iintro ⟨Hp, -, Hr⟩
    isplitl [Hr]; · iexact Hr
    iexact Hp
  hout c := by
    rw [Pipeline.ownSems0_none]
    refine BIBase.Entails.trans (hout7 (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 8 (custom_call 8) over the thread state: entered from every unscoped buffer at `W17`, left at `W18`.
    Its arrays split out of the unscoped buffers and put back at the exit contents; the generator register and the
    scoped rest into the region's invariant and out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V17 m ρ) c)
    unfold Pipeline.ΦA
    iintro ⟨Hp, -, Hr⟩
    isplitl [Hr]; · iexact Hr
    iexact Hp
  hout c := by
    rw [Pipeline.ownSems0_none]
    refine BIBase.Entails.trans (hout8 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Agg10.lean ====
import proofs.«103499_j73031623901527_2_alg».proof.Proof.KI.AggDef10
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 10 (`cc10__agg_kernel`, pipeline 10), at the entry contents `V`: the body obligation -/

/-- An input window's current staging buffer holds its block at every point, fetched there or not, for any proof
    data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The accumulator's (and the output's) rectangle is the whole buffer. -/
theorem mem_r10_out (y : S2048x256.Idx) : y ∈ r10_out.set :=
  agg_mem_of_tiled (e := .f32) r10_out S2048x256.size (by rfl) y

/-- The class's invariant with the accumulator split off the scoped rest, owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- What a buffer reads after a list of writes whose last piece covers it: that piece alone. -/
theorem agg_read_writes_cons_10 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
/-- The condition of its second: the inner coordinate is the last (the output is stored). -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

/-! ## Where the windows are idle -/

/-- The inputs are never idle. -/
theorem liveAt10_0 : ∀ t : Fin cfg10.N, cfg10.idle 0 (grid10.coords t) = false := fun _ => rfl
theorem liveAt10_1 : ∀ t : Fin cfg10.N, cfg10.idle 1 (grid10.coords t) = false := fun _ => rfl
/-- Where the output is not stored its window is idle and not written back; where it is stored it is live. -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
theorem liveAt10_2 : ∀ t : Fin cfg10.N, cond10_1 (grid10.coords t) → cfg10.idle 2 (grid10.coords t) = false := by decide +kernel

/-! ## The body's triple, per control case -/

set_option maxHeartbeats 1000000 in
/-- At a first inner step that is not the last: the accumulator, at anything, is zeroed and the product added. -/
theorem sound_kernel10_A (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond10_0 i) (hc1 : ¬cond10_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r10_out, k10_pay2 (k10_pay1 (F := F)) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel10_A.sl.v3 sound_kernel10_A.sl.H5_1
  simp only [View.readCov_cons_toLoadRect, View.readAt_eq_ld]
  exact agg_read_writes_cons_10 _ _ r10_out mem_r10_out _ _

set_option maxHeartbeats 1000000 in
/-- At a middle inner step: the product is added to what the accumulator held. -/
theorem sound_kernel10_B (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond10_0 i) (hc1 : ¬cond10_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r10_out, k10_pay2 (View.ld xs r10_out) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_10 _ _ r10_out mem_r10_out _ _

set_option maxHeartbeats 1000000 in
/-- At a last inner step that is not the first: the product is added and the output stored, normalised. -/
theorem sound_kernel10_C (c : Dev nD) (E : Set ℕ) (i : grid10.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond10_0 i) (hc1 : cond10_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r10_out, k10_pay3 (k10_pay2 (View.ld xs r10_out) (View.ld xa r10_A) (View.ld xx r10_X))⟩])
            ∗ owns (c : Thread nD τ) arg5 fullShare (View.canon [⟨r10_out, k10_pay2 (View.ld xs r10_out) (View.ld xa r10_A) (View.ld xx r10_X)⟩])) -∗ K ⟨⟩))
      ⊢ wp frame (wpE (defs₀ (F := F)) Variants.none c none) E (cc10__agg_kernel i arg2 harg2 arg3 harg3 arg4 harg4 arg5 harg5) K := by
  simp only [cc10__agg_kernel_eq_skeleton]; unfold cc10__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel10_C.sl.v16 sound_kernel10_C.sl.H5_1
    simp only [View.readCov_cons_toLoadRect, View.readAt_eq_ld]
    exact agg_read_writes_cons_10 _ _ r10_out mem_r10_out _ _
  iexists _; isplitr
  swap; · iexact H5
  ipureintro
  unfold sound_kernel10_C.sl.H5_1
  simp only [View.readCov_cons_toLoadRect, View.readAt_eq_ld]
  exact agg_read_writes_cons_10 _ _ r10_out mem_r10_out _ _

/-! ## The body obligation, at a generic point -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [acc10_eq]
  by_cases h0 : t.val % 8 = 0
  · have h1 : ¬t.val % 8 = 7 := by omega
    rw [Dat.leavesExact_idle (dat10 V c) 2 t (idleAt10_2 t (fun h => h1 ((hcond10_1 t).mp h))) (noFlush10_2 t (fun h => h1 ((hcond10_1 t).mp h)))]
    rw [accP10_first V c t h0]
    by_cases hz : t.val = 0
    · rw [PhiS10_castSucc V c t, PhiS10_zero V c _ _ hz, PhiA10_eq]
      iintro ⟨⟨⟨HS, HR⟩, Hg⟩, Ho, ⟨%d0, H0⟩, ⟨%d1, H1⟩, H2⟩
      iapply (sound_kernel10_A c Set.univ (grid10.coords t) _ _ _ _ _ _ _ _ ((hcond10_0 t).mpr h0) (fun h => h1 ((hcond10_1 t).mp h)) (iblk10 V c 0 t) (iblk10 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS10_castSucc V c t, PhiS10_pos V c _ _ hz]
      iintro ⟨⟨⟨HS, HR⟩, Hg⟩, Ho, ⟨%d0, H0⟩, ⟨%d1, H1⟩, H2⟩
      iapply (sound_kernel10_A c Set.univ (grid10.coords t) _ _ _ _ _ _ _ _ ((hcond10_0 t).mpr h0) (fun h => h1 ((hcond10_1 t).mp h)) (iblk10 V c 0 t) (iblk10 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP10_step V c t h0]
    rw [PhiS10_castSucc V c t, PhiS10_pos V c _ _ hz]
    by_cases h1 : t.val % 8 = 7
    · rw [show (dat10 V c).leavesExact 2 t = owns (c : Thread nD τ) (st10_2 t) fullShare ((dat10 V c).after 2 t) from by
        unfold Dat.leavesExact; rw [liveAt10_2 t ((hcond10_1 t).mpr h1)], after10_2]
      rw [accP10_step V c t h0]
      iintro ⟨⟨⟨HS, HR⟩, Hg⟩, Ho, ⟨%d0, H0⟩, ⟨%d1, H1⟩, ⟨%d2, H2⟩⟩
      iapply (sound_kernel10_C c Set.univ (grid10.coords t) _ _ _ _ _ _ _ _ (fun h => h0 ((hcond10_0 t).mp h)) ((hcond10_1 t).mpr h1) (iblk10 V c 0 t) (iblk10 V c 1 t) (acc10 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat10 V c) 2 t (idleAt10_2 t (fun h => h1 ((hcond10_1 t).mp h))) (noFlush10_2 t (fun h => h1 ((hcond10_1 t).mp h)))]
      iintro ⟨⟨⟨HS, HR⟩, Hg⟩, Ho, ⟨%d0, H0⟩, ⟨%d1, H1⟩, H2⟩
      iapply (sound_kernel10_B c Set.univ (grid10.coords t) _ _ _ _ _ _ _ _ (fun h => h0 ((hcond10_0 t).mp h)) (fun h => h1 ((hcond10_1 t).mp h)) (iblk10 V c 0 t) (iblk10 V c 1 t) (acc10 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region (`ΦA`) is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives `ΦA` back: the accumulator's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS, HR⟩, Hg⟩
  isplitl [HS HR]
  · isplitl [HS]
    · iexists _; iexact HS
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 32 := N_10; omega)

end Cert.KernelIdeal.Hand

end
-- ==== Proof.KI.Agg11.lean ====
import proofs.«103499_j73031623901527_2_alg».proof.Proof.KI.AggDef11
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 11 (`cc11__agg_kernel`, pipeline 11), at the entry contents `V`: the body obligation -/

/-- An input window's current staging buffer holds its block at every point, fetched there or not, for any proof
    data whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- The accumulator's (and the output's) rectangle is the whole buffer. -/
theorem mem_r11_out (y : S2048x256.Idx) : y ∈ r11_out.set :=
  agg_mem_of_tiled (e := .f32) r11_out S2048x256.size (by rfl) y

/-- The class's invariant with the accumulator split off the scoped rest, owned at some contents. -/
theorem PhiA11_eq (c : Dev nD) :
    (Pipeline.ΦA spec11 c : sProp 𝕄)
      = iprop(iprop(iprop((∃ d, owns (c : Thread nD τ) scM11 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; try rfl

/-- What a buffer reads after a list of writes whose last piece covers it: that piece alone. -/
theorem agg_read_writes_cons_11 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond11_0 (i : grid11.Coords) : Prop := (Scalar.cmpi .ne (Scalar.extui (Scalar.cmpi .eq (BitVec.ofNat 32 (i 1).val) 0#32)) 0#32) = 1#1
theorem hcond11_0 : ∀ t : Fin cfg11.N, cond11_0 (grid11.coords t) ↔ t.val % 4 = 0 :=
  (by decide +kernel : ∀ t : Fin grid11.N, cond11_0 (grid11.coords t) ↔ t.val % 4 = 0)
/-- The condition of its second: the inner coordinate is the last (the output is stored). -/
abbrev cond11_1 (i : grid11.Coords) : Prop := k11_cond2 i = 1#1
theorem hcond11_1 : ∀ t : Fin cfg11.N, cond11_1 (grid11.coords t) ↔ t.val % 4 = 3 :=
  (by decide +kernel : ∀ t : Fin grid11.N, cond11_1 (grid11.coords t) ↔ t.val % 4 = 3)

/-! ## Where the windows are idle -/

/-- The inputs are never idle. -/
theorem liveAt11_0 : ∀ t : Fin cfg11.N, cfg11.idle 0 (grid11.coords t) = false := fun _ => rfl
theorem liveAt11_1 : ∀ t : Fin cfg11.N, cfg11.idle 1 (grid11.coords t) = false := fun _ => rfl
/-- Where the output is not stored its window is idle and not written back; where it is stored it is live. -/
theorem idleAt11_2 : ∀ t : Fin cfg11.N, ¬cond11_1 (grid11.coords t) → cfg11.idle 2 (grid11.coords t) = true := by decide +kernel
theorem noFlush11_2 : ∀ t : Fin cfg11.N, ¬cond11_1 (grid11.coords t) → (cfg11.win 2).flush t = false := by decide +kernel
theorem liveAt11_2 : ∀ t : Fin cfg11.N, cond11_1 (grid11.coords t) → cfg11.idle 2 (grid11.coords t) = false := by decide +kernel

/-! ## The body's triple, per control case -/

set_option maxHeartbeats 1000000 in
/-- At a first inner step that is not the last: the accumulator, at anything, is zeroed and the product added. -/
theorem sound_kernel11_A (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond11_0 i) (hc1 : ¬cond11_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r11_out, k11_pay2 (k11_pay1 (F := F)) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel11_A.sl.v3 sound_kernel11_A.sl.H5_1
  simp only [View.readCov_cons_toLoadRect, View.readAt_eq_ld]
  exact agg_read_writes_cons_11 _ _ r11_out mem_r11_out _ _

set_option maxHeartbeats 1000000 in
/-- At a middle inner step: the product is added to what the accumulator held. -/
theorem sound_kernel11_B (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond11_0 i) (hc1 : ¬cond11_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r11_out, k11_pay2 (View.ld xs r11_out) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_11 _ _ r11_out mem_r11_out _ _

set_option maxHeartbeats 1000000 in
/-- At a last inner step that is not the first: the product is added and the output stored, normalised. -/
theorem sound_kernel11_C (c : Dev nD) (E : Set ℕ) (i : grid11.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond11_0 i) (hc1 : cond11_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r11_out, k11_pay3 (k11_pay2 (View.ld xs r11_out) (View.ld xa r11_A) (View.ld xx r11_X))⟩])
            ∗ owns (c : Thread nD τ) arg5 fullShare (View.canon [⟨r11_out, k11_pay2 (View.ld xs r11_out) (View.ld xa r11_A) (View.ld xx r11_X)⟩])) -∗ K ⟨⟩))
      ⊢ wp frame (wpE (defs₀ (F := F)) Variants.none c none) E (cc11__agg_kernel i arg2 harg2 arg3 harg3 arg4 harg4 arg5 harg5) K := by
  simp only [cc11__agg_kernel_eq_skeleton]; unfold cc11__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel11_C.sl.v16 sound_kernel11_C.sl.H5_1
    simp only [View.readCov_cons_toLoadRect, View.readAt_eq_ld]
    exact agg_read_writes_cons_11 _ _ r11_out mem_r11_out _ _
  iexists _; isplitr
  swap; · iexact H5
  ipureintro
  unfold sound_kernel11_C.sl.H5_1
  simp only [View.readCov_cons_toLoadRect, View.readAt_eq_ld]
  exact agg_read_writes_cons_11 _ _ r11_out mem_r11_out _ _

/-! ## The body obligation, at a generic point -/

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (st11_0 t) fullShare ((dat11 V c).after 0 t) from by
    unfold Dat.leavesExact; rw [liveAt11_0 t], after11_0]
  rw [show (dat11 V c).leavesExact 1 t = owns (c : Thread nD τ) (st11_1 t) fullShare ((dat11 V c).after 1 t) from by
    unfold Dat.leavesExact; rw [liveAt11_1 t], after11_1]
  rw [acc11_eq]
  by_cases h0 : t.val % 4 = 0
  · have h1 : ¬t.val % 4 = 3 := by omega
    rw [Dat.leavesExact_idle (dat11 V c) 2 t (idleAt11_2 t (fun h => h1 ((hcond11_1 t).mp h))) (noFlush11_2 t (fun h => h1 ((hcond11_1 t).mp h)))]
    rw [accP11_first V c t h0]
    by_cases hz : t.val = 0
    · rw [PhiS11_castSucc V c t, PhiS11_zero V c _ _ hz, PhiA11_eq]
      iintro ⟨⟨⟨HS, HR⟩, Hg⟩, Ho, ⟨%d0, H0⟩, ⟨%d1, H1⟩, H2⟩
      iapply (sound_kernel11_A c Set.univ (grid11.coords t) _ _ _ _ _ _ _ _ ((hcond11_0 t).mpr h0) (fun h => h1 ((hcond11_1 t).mp h)) (iblk11 V c 0 t) (iblk11 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS11_castSucc V c t, PhiS11_pos V c _ _ hz]
      iintro ⟨⟨⟨HS, HR⟩, Hg⟩, Ho, ⟨%d0, H0⟩, ⟨%d1, H1⟩, H2⟩
      iapply (sound_kernel11_A c Set.univ (grid11.coords t) _ _ _ _ _ _ _ _ ((hcond11_0 t).mpr h0) (fun h => h1 ((hcond11_1 t).mp h)) (iblk11 V c 0 t) (iblk11 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP11_step V c t h0]
    rw [PhiS11_castSucc V c t, PhiS11_pos V c _ _ hz]
    by_cases h1 : t.val % 4 = 3
    · rw [show (dat11 V c).leavesExact 2 t = owns (c : Thread nD τ) (st11_2 t) fullShare ((dat11 V c).after 2 t) from by
        unfold Dat.leavesExact; rw [liveAt11_2 t ((hcond11_1 t).mpr h1)], after11_2]
      rw [accP11_step V c t h0]
      iintro ⟨⟨⟨HS, HR⟩, Hg⟩, Ho, ⟨%d0, H0⟩, ⟨%d1, H1⟩, ⟨%d2, H2⟩⟩
      iapply (sound_kernel11_C c Set.univ (grid11.coords t) _ _ _ _ _ _ _ _ (fun h => h0 ((hcond11_0 t).mp h)) ((hcond11_1 t).mpr h1) (iblk11 V c 0 t) (iblk11 V c 1 t) (acc11 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat11 V c) 2 t (idleAt11_2 t (fun h => h1 ((hcond11_1 t).mp h))) (noFlush11_2 t (fun h => h1 ((hcond11_1 t).mp h)))]
      iintro ⟨⟨⟨HS, HR⟩, Hg⟩, Ho, ⟨%d0, H0⟩, ⟨%d1, H1⟩, H2⟩
      iapply (sound_kernel11_B c Set.univ (grid11.coords t) _ _ _ _ _ _ _ _ (fun h => h0 ((hcond11_0 t).mp h)) (fun h => h1 ((hcond11_1 t).mp h)) (iblk11 V c 0 t) (iblk11 V c 1 t) (acc11 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region (`ΦA`) is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives `ΦA` back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS, HR⟩, Hg⟩
  isplitl [HS HR]
  · isplitl [HS]
    · iexists _; iexact HS
    iexact HR
  iexact Hg

/-- The same after the last point. -/
theorem hout11 (c : Dev nD) : (dat11 V c).Φ (Fin.last cfg11.N) ⊢ Pipeline.ΦA spec11 c :=
  Phi_out11 V c _ (by rw [Fin.val_last]; have : cfg11.N = 32 := N_11; omega)

end Cert.KernelIdeal.Hand

end
-- ==== Proof.KI.Agg12.lean ====
import proofs.«103499_j73031623901527_2_alg».proof.Proof.KI.AggDef12
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 12 (`cc12__agg_kernel`, pipeline 12), at the entry contents `V`: the body obligation -/

/-- An input window's current staging buffer holds its block at every point, fetched there or not, for any proof
    data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- The accumulator's (and the output's) rectangle is the whole buffer. -/
theorem mem_r12_out (y : S1024x512.Idx) : y ∈ r12_out.set :=
  agg_mem_of_tiled (e := .f32) r12_out S1024x512.size (by rfl) y

/-- The class's invariant with the accumulator split off the scoped rest, owned at some contents. -/
theorem PhiA12_eq (c : Dev nD) :
    (Pipeline.ΦA spec12 c : sProp 𝕄)
      = iprop(iprop(iprop((∃ d, owns (c : Thread nD τ) scM12 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12, owns_whole]; try rfl

/-- What a buffer reads after a list of writes whose last piece covers it: that piece alone. -/
theorem agg_read_writes_cons_12 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)
/-- The condition of its second: the inner coordinate is the last (the output is stored). -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

/-! ## Where the windows are idle -/

/-- The inputs are never idle. -/
theorem liveAt12_0 : ∀ t : Fin cfg12.N, cfg12.idle 0 (grid12.coords t) = false := fun _ => rfl
theorem liveAt12_1 : ∀ t : Fin cfg12.N, cfg12.idle 1 (grid12.coords t) = false := fun _ => rfl
/-- Where the output is not stored its window is idle and not written back; where it is stored it is live. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
theorem liveAt12_2 : ∀ t : Fin cfg12.N, cond12_1 (grid12.coords t) → cfg12.idle 2 (grid12.coords t) = false := by decide +kernel

/-! ## The body's triple, per control case -/

set_option maxHeartbeats 1000000 in
/-- At a first inner step that is not the last: the accumulator, at anything, is zeroed and the product added. -/
theorem sound_kernel12_A (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : cond12_0 i) (hc1 : ¬cond12_1 i)
    (xa : Vec F S1024x2048 .bf16) (xx : Vec F S2048x512 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r12_out, k12_pay2 (k12_pay1 (F := F)) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel12_A.sl.v3 sound_kernel12_A.sl.H5_1
  simp only [View.readCov_cons_toLoadRect, View.readAt_eq_ld]
  exact agg_read_writes_cons_12 _ _ r12_out mem_r12_out _ _

set_option maxHeartbeats 1000000 in
/-- At a middle inner step: the product is added to what the accumulator held. -/
theorem sound_kernel12_B (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond12_0 i) (hc1 : ¬cond12_1 i)
    (xa : Vec F S1024x2048 .bf16) (xx : Vec F S2048x512 .bf16) (xs : Vec F S1024x512 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r12_out, k12_pay2 (View.ld xs r12_out) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_12 _ _ r12_out mem_r12_out _ _

set_option maxHeartbeats 1000000 in
/-- At a last inner step that is not the first: the product is added and the output stored, normalised. -/
theorem sound_kernel12_C (c : Dev nD) (E : Set ℕ) (i : grid12.Coords)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (hc0 : ¬cond12_0 i) (hc1 : cond12_1 i)
    (xa : Vec F S1024x2048 .bf16) (xx : Vec F S2048x512 .bf16) (xs : Vec F S1024x512 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r12_out, k12_pay3 (k12_pay2 (View.ld xs r12_out) (View.ld xa r12_A) (View.ld xx r12_X))⟩])
            ∗ owns (c : Thread nD τ) arg5 fullShare (View.canon [⟨r12_out, k12_pay2 (View.ld xs r12_out) (View.ld xa r12_A) (View.ld xx r12_X)⟩])) -∗ K ⟨⟩))
      ⊢ wp frame (wpE (defs₀ (F := F)) Variants.none c none) E (cc12__agg_kernel i arg2 harg2 arg3 harg3 arg4 harg4 arg5 harg5) K := by
  simp only [cc12__agg_kernel_eq_skeleton]; unfold cc12__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel12_C.sl.v16 sound_kernel12_C.sl.H5_1
    simp only [View.readCov_cons_toLoadRect, View.readAt_eq_ld]
    exact agg_read_writes_cons_12 _ _ r12_out mem_r12_out _ _
  iexists _; isplitr
  swap; · iexact H5
  ipureintro
  unfold sound_kernel12_C.sl.H5_1
  simp only [View.readCov_cons_toLoadRect, View.readAt_eq_ld]
  exact agg_read_writes_cons_12 _ _ r12_out mem_r12_out _ _

/-! ## The body obligation, at a generic point -/

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [acc12_eq]
  by_cases h0 : t.val % 8 = 0
  · have h1 : ¬t.val % 8 = 7 := by omega
    rw [Dat.leavesExact_idle (dat12 V c) 2 t (idleAt12_2 t (fun h => h1 ((hcond12_1 t).mp h))) (noFlush12_2 t (fun h => h1 ((hcond12_1 t).mp h)))]
    rw [accP12_first V c t h0]
    by_cases hz : t.val = 0
    · rw [PhiS12_castSucc V c t, PhiS12_zero V c _ _ hz, PhiA12_eq]
      iintro ⟨⟨⟨HS, HR⟩, Hg⟩, Ho, ⟨%d0, H0⟩, ⟨%d1, H1⟩, H2⟩
      iapply (sound_kernel12_A c Set.univ (grid12.coords t) _ _ _ _ _ _ _ _ ((hcond12_0 t).mpr h0) (fun h => h1 ((hcond12_1 t).mp h)) (iblk12 V c 0 t) (iblk12 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS12_castSucc V c t, PhiS12_pos V c _ _ hz]
      iintro ⟨⟨⟨HS, HR⟩, Hg⟩, Ho, ⟨%d0, H0⟩, ⟨%d1, H1⟩, H2⟩
      iapply (sound_kernel12_A c Set.univ (grid12.coords t) _ _ _ _ _ _ _ _ ((hcond12_0 t).mpr h0) (fun h => h1 ((hcond12_1 t).mp h)) (iblk12 V c 0 t) (iblk12 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP12_step V c t h0]
    rw [PhiS12_castSucc V c t, PhiS12_pos V c _ _ hz]
    by_cases h1 : t.val % 8 = 7
    · rw [show (dat12 V c).leavesExact 2 t = owns (c : Thread nD τ) (st12_2 t) fullShare ((dat12 V c).after 2 t) from by
        unfold Dat.leavesExact; rw [liveAt12_2 t ((hcond12_1 t).mpr h1)], after12_2]
      rw [accP12_step V c t h0]
      iintro ⟨⟨⟨HS, HR⟩, Hg⟩, Ho, ⟨%d0, H0⟩, ⟨%d1, H1⟩, ⟨%d2, H2⟩⟩
      iapply (sound_kernel12_C c Set.univ (grid12.coords t) _ _ _ _ _ _ _ _ (fun h => h0 ((hcond12_0 t).mp h)) ((hcond12_1 t).mpr h1) (iblk12 V c 0 t) (iblk12 V c 1 t) (acc12 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat12 V c) 2 t (idleAt12_2 t (fun h => h1 ((hcond12_1 t).mp h))) (noFlush12_2 t (fun h => h1 ((hcond12_1 t).mp h)))]
      iintro ⟨⟨⟨HS, HR⟩, Hg⟩, Ho, ⟨%d0, H0⟩, ⟨%d1, H1⟩, H2⟩
      iapply (sound_kernel12_B c Set.univ (grid12.coords t) _ _ _ _ _ _ _ _ (fun h => h0 ((hcond12_0 t).mp h)) (fun h => h1 ((hcond12_1 t).mp h)) (iblk12 V c 0 t) (iblk12 V c 1 t) (acc12 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region (`ΦA`) is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After any point but the first the invariant gives `ΦA` back: the accumulator's named contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS, HR⟩, Hg⟩
  isplitl [HS HR]
  · isplitl [HS]
    · iexists _; iexact HS
    iexact HR
  iexact Hg

/-- The same after the last point. -/
theorem hout12 (c : Dev nD) : (dat12 V c).Φ (Fin.last cfg12.N) ⊢ Pipeline.ΦA spec12 c :=
  Phi_out12 V c _ (by rw [Fin.val_last]; have : cfg12.N = 64 := N_12; omega)

end Cert.KernelIdeal.Hand

end
-- ==== Proof.KI.RunRc.lean ====
/- The run of @main, the kernel regions 9 … 12 as segments over the thread state "every unscoped buffer at the
   boundary's contents, the generator register at some state, nothing owed". -/
import proofs.«103499_j73031623901527_2_alg».proof.Proof.KI.Run1
import proofs.«103499_j73031623901527_2_alg».proof.Proof.KI.Agg10
import proofs.«103499_j73031623901527_2_alg».proof.Proof.KI.Agg11
import proofs.«103499_j73031623901527_2_alg».proof.Proof.KI.Agg12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 9 (custom_call 9) over the thread state: entered from every unscoped buffer at `W19`, left at `W20`.
    Its arrays split out of the unscoped buffers and put back at the exit contents; the generator register and the
    scoped rest into the region's invariant and out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 10 (custom_call 10) over the thread state: entered from every unscoped buffer at `W21`, left at `W22`.
    Its arrays split out of the unscoped buffers and put back at the exit contents; the generator register and the
    scoped rest into the region's invariant and out; nothing owed; no semaphore of the kernel's own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (V21 m ρ) c)
    unfold Pipeline.ΦA
    iintro ⟨Hp, -, Hr⟩
    isplitl [Hr]; · iexact Hr
    iexact Hp
  hout c := by
    rw [Pipeline.ownSems0_none]
    refine BIBase.Entails.trans (hout10 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 11 (custom_call 11) over the thread state: entered from every unscoped buffer at `W23`, left at `W24`.
    Its arrays split out of the unscoped buffers and put back at the exit contents; the generator register and the
    scoped rest into the region's invariant and out; nothing owed; no semaphore of the kernel's own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (V23 m ρ) c)
    unfold Pipeline.ΦA
    iintro ⟨Hp, -, Hr⟩
    isplitl [Hr]; · iexact Hr
    iexact Hp
  hout c := by
    rw [Pipeline.ownSems0_none]
    refine BIBase.Entails.trans (hout11 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 12 (custom_call 12) over the thread state: entered from every unscoped buffer at `W25`, left at `W26`.
    Its arrays split out of the unscoped buffers and put back at the exit contents; the generator register and the
    scoped rest into the region's invariant and out; nothing owed; no semaphore of the kernel's own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (V25 m ρ) c)
    unfold Pipeline.ΦA
    iintro ⟨Hp, -, Hr⟩
    isplitl [Hr]; · iexact Hr
    iexact Hp
  hout c := by
    rw [Pipeline.ownSems0_none]
    refine BIBase.Entails.trans (hout12 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Agg14.lean ====
import proofs.«103499_j73031623901527_2_alg».proof.Proof.KI.AggDef14
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 14 (`cc14__agg_kernel`, pipeline 14), at the entry contents `V`: the body obligation -/

/-- An input window's current staging buffer holds its block at every point, fetched there or not, for any proof
    data whose array is `V`'s and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- The accumulator's (and the output's) rectangle is the whole buffer. -/
theorem mem_r14_out (y : S2048x256.Idx) : y ∈ r14_out.set :=
  agg_mem_of_tiled (e := .f32) r14_out S2048x256.size (by rfl) y

/-- The class's invariant with the accumulator split off the scoped rest, owned at some contents. -/
theorem PhiA14_eq (c : Dev nD) :
    (Pipeline.ΦA spec14 c : sProp 𝕄)
      = iprop(iprop(iprop((∃ d, owns (c : Thread nD τ) scM14 fullShare d))
          ∗ Pipeline.scopedRestBut (Ix := Unit) (Name := ℕ) (U := UR sig nD τ) (Lvl := ℕ) (Val := Elt F) spec14 c [cc14_scratch0]) ∗ (∃ r, prngReg c r)) := by
  unfold Pipeline.ΦA; rw [scopedRest14_split]; simp only [scM14, owns_whole]; try rfl

/-- What a buffer reads after a list of writes whose last piece covers it: that piece alone. -/
theorem agg_read_writes_cons_14 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond14_0 (i : grid14.Coords) : Prop := (Scalar.cmpi .ne (Scalar.extui (Scalar.cmpi .eq (BitVec.ofNat 32 (i 1).val) 0#32)) 0#32) = 1#1
theorem hcond14_0 : ∀ t : Fin cfg14.N, cond14_0 (grid14.coords t) ↔ t.val % 4 = 0 :=
  (by decide +kernel : ∀ t : Fin grid14.N, cond14_0 (grid14.coords t) ↔ t.val % 4 = 0)
/-- The condition of its second: the inner coordinate is the last (the output is stored). -/
abbrev cond14_1 (i : grid14.Coords) : Prop := k14_cond2 i = 1#1
theorem hcond14_1 : ∀ t : Fin cfg14.N, cond14_1 (grid14.coords t) ↔ t.val % 4 = 3 :=
  (by decide +kernel : ∀ t : Fin grid14.N, cond14_1 (grid14.coords t) ↔ t.val % 4 = 3)

/-! ## Where the windows are idle -/

/-- The inputs are never idle. -/
theorem liveAt14_0 : ∀ t : Fin cfg14.N, cfg14.idle 0 (grid14.coords t) = false := fun _ => rfl
theorem liveAt14_1 : ∀ t : Fin cfg14.N, cfg14.idle 1 (grid14.coords t) = false := fun _ => rfl
/-- Where the output is not stored its window is idle and not written back; where it is stored it is live. -/
theorem idleAt14_2 : ∀ t : Fin cfg14.N, ¬cond14_1 (grid14.coords t) → cfg14.idle 2 (grid14.coords t) = true := by decide +kernel
theorem noFlush14_2 : ∀ t : Fin cfg14.N, ¬cond14_1 (grid14.coords t) → (cfg14.win 2).flush t = false := by decide +kernel
theorem liveAt14_2 : ∀ t : Fin cfg14.N, cond14_1 (grid14.coords t) → cfg14.idle 2 (grid14.coords t) = false := by decide +kernel

/-! ## The body's triple, per control case -/

set_option maxHeartbeats 1000000 in
/-- At a first inner step that is not the last: the accumulator, at anything, is zeroed and the product added. -/
theorem sound_kernel14_A (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond14_0 i) (hc1 : ¬cond14_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r14_out, k14_pay2 (k14_pay1 (F := F)) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel14_A.sl.v3 sound_kernel14_A.sl.H5_1
  simp only [View.readCov_cons_toLoadRect, View.readAt_eq_ld]
  exact agg_read_writes_cons_14 _ _ r14_out mem_r14_out _ _

set_option maxHeartbeats 1000000 in
/-- At a middle inner step: the product is added to what the accumulator held. -/
theorem sound_kernel14_B (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond14_0 i) (hc1 : ¬cond14_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r14_out, k14_pay2 (View.ld xs r14_out) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_14 _ _ r14_out mem_r14_out _ _

set_option maxHeartbeats 1000000 in
/-- At a last inner step that is not the first: the product is added and the output stored, normalised. -/
theorem sound_kernel14_C (c : Dev nD) (E : Set ℕ) (i : grid14.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond14_0 i) (hc1 : cond14_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r14_out, k14_pay3 (k14_pay2 (View.ld xs r14_out) (View.ld xa r14_A) (View.ld xx r14_X))⟩])
            ∗ owns (c : Thread nD τ) arg5 fullShare (View.canon [⟨r14_out, k14_pay2 (View.ld xs r14_out) (View.ld xa r14_A) (View.ld xx r14_X)⟩])) -∗ K ⟨⟩))
      ⊢ wp frame (wpE (defs₀ (F := F)) Variants.none c none) E (cc14__agg_kernel i arg2 harg2 arg3 harg3 arg4 harg4 arg5 harg5) K := by
  simp only [cc14__agg_kernel_eq_skeleton]; unfold cc14__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel14_C.sl.v16 sound_kernel14_C.sl.H5_1
    simp only [View.readCov_cons_toLoadRect, View.readAt_eq_ld]
    exact agg_read_writes_cons_14 _ _ r14_out mem_r14_out _ _
  iexists _; isplitr
  swap; · iexact H5
  ipureintro
  unfold sound_kernel14_C.sl.H5_1
  simp only [View.readCov_cons_toLoadRect, View.readAt_eq_ld]
  exact agg_read_writes_cons_14 _ _ r14_out mem_r14_out _ _

/-! ## The body obligation, at a generic point -/

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  rw [acc14_eq]
  by_cases h0 : t.val % 4 = 0
  · have h1 : ¬t.val % 4 = 3 := by omega
    rw [Dat.leavesExact_idle (dat14 V c) 2 t (idleAt14_2 t (fun h => h1 ((hcond14_1 t).mp h))) (noFlush14_2 t (fun h => h1 ((hcond14_1 t).mp h)))]
    rw [accP14_first V c t h0]
    by_cases hz : t.val = 0
    · rw [PhiS14_castSucc V c t, PhiS14_zero V c _ _ hz, PhiA14_eq]
      iintro ⟨⟨⟨HS, HR⟩, Hg⟩, Ho, ⟨%d0, H0⟩, ⟨%d1, H1⟩, H2⟩
      iapply (sound_kernel14_A c Set.univ (grid14.coords t) _ _ _ _ _ _ _ _ ((hcond14_0 t).mpr h0) (fun h => h1 ((hcond14_1 t).mp h)) (iblk14 V c 0 t) (iblk14 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS14_castSucc V c t, PhiS14_pos V c _ _ hz]
      iintro ⟨⟨⟨HS, HR⟩, Hg⟩, Ho, ⟨%d0, H0⟩, ⟨%d1, H1⟩, H2⟩
      iapply (sound_kernel14_A c Set.univ (grid14.coords t) _ _ _ _ _ _ _ _ ((hcond14_0 t).mpr h0) (fun h => h1 ((hcond14_1 t).mp h)) (iblk14 V c 0 t) (iblk14 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP14_step V c t h0]
    rw [PhiS14_castSucc V c t, PhiS14_pos V c _ _ hz]
    by_cases h1 : t.val % 4 = 3
    · rw [show (dat14 V c).leavesExact 2 t = owns (c : Thread nD τ) (st14_2 t) fullShare ((dat14 V c).after 2 t) from by
        unfold Dat.leavesExact; rw [liveAt14_2 t ((hcond14_1 t).mpr h1)], after14_2]
      rw [accP14_step V c t h0]
      iintro ⟨⟨⟨HS, HR⟩, Hg⟩, Ho, ⟨%d0, H0⟩, ⟨%d1, H1⟩, ⟨%d2, H2⟩⟩
      iapply (sound_kernel14_C c Set.univ (grid14.coords t) _ _ _ _ _ _ _ _ (fun h => h0 ((hcond14_0 t).mp h)) ((hcond14_1 t).mpr h1) (iblk14 V c 0 t) (iblk14 V c 1 t) (acc14 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat14 V c) 2 t (idleAt14_2 t (fun h => h1 ((hcond14_1 t).mp h))) (noFlush14_2 t (fun h => h1 ((hcond14_1 t).mp h)))]
      iintro ⟨⟨⟨HS, HR⟩, Hg⟩, Ho, ⟨%d0, H0⟩, ⟨%d1, H1⟩, H2⟩
      iapply (sound_kernel14_B c Set.univ (grid14.coords t) _ _ _ _ _ _ _ _ (fun h => h0 ((hcond14_0 t).mp h)) (fun h => h1 ((hcond14_1 t).mp h)) (iblk14 V c 0 t) (iblk14 V c 1 t) (acc14 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region (`ΦA`) is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives `ΦA` back: the accumulator's named contents are forgotten. -/
theorem Phi_out14 (c : Dev nD) (t : Fin (cfg14.N + 1)) (ht : t.val ≠ 0) : (dat14 V c).Φ t ⊢ Pipeline.ΦA spec14 c := by
  rw [show (dat14 V c).Φ t = PhiS14 V c t.val (Nat.le_of_lt_succ t.isLt) from rfl, PhiS14_pos V c _ _ ht, PhiA14_eq]
  iintro ⟨⟨HS, HR⟩, Hg⟩
  isplitl [HS HR]
  · isplitl [HS]
    · iexists _; iexact HS
    iexact HR
  iexact Hg

/-- The same after the last point. -/
theorem hout14 (c : Dev nD) : (dat14 V c).Φ (Fin.last cfg14.N) ⊢ Pipeline.ΦA spec14 c :=
  Phi_out14 V c _ (by rw [Fin.val_last]; have : cfg14.N = 16 := N_14; omega)

end Cert.KernelIdeal.Hand

end
-- ==== Proof.KI.Agg16.lean ====
import proofs.«103499_j73031623901527_2_alg».proof.Proof.KI.AggDef16
import proofs.«103499_j73031623901527_2_alg».proof.Proof.KI.AggLib
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of custom_call 16 (`cc16__agg_kernel`, pipeline 16), at the entry contents `V`: the body obligation -/

/-- An input window's current staging buffer holds its block at every point, fetched there or not, for any proof
    data whose array is `V`'s and whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- The accumulator's (and the output's) rectangle is the whole buffer. -/
theorem mem_r16_out (y : S2048x256.Idx) : y ∈ r16_out.set :=
  agg_mem_of_tiled (e := .f32) r16_out S2048x256.size (by rfl) y

/-- The class's invariant with the accumulator split off the scoped rest, owned at some contents. -/
theorem PhiA16_eq (c : Dev nD) :
    (Pipeline.ΦA spec16 c : sProp 𝕄)
      = iprop(iprop(iprop((∃ d, owns (c : Thread nD τ) scM16 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16, owns_whole]; try rfl

/-- What a buffer reads after a list of writes whose last piece covers it: that piece alone. -/
theorem agg_read_writes_cons_16 {sig : RefSig} {κ : Kind} {sp : Space} {s : Shape} {e : EltTy} {Val : EltTy → Type} [∀ e, Nonempty (Val e)]
    (v : View sig κ sp s e) (f : v.ty.Contents Val) (r : Rect s) (hr : ∀ y : s.Idx, y ∈ r.set) (w : r.shape.Idx → Val e)
    (L : List (View.Piece Val s e)) : v.read Val (v.writes Val f (⟨r, w⟩ :: L)) = View.canon [⟨r, w⟩] :=
  (View.read_writes_eq_canon v f (⟨r, w⟩ :: L) (fun y => ⟨⟨r, w⟩, List.mem_cons_self, hr y⟩)).trans (agg_canon_cover r hr w L)

/-! ## The body's branch conditions, in closed form over the grid (row-major, the inner coordinate last) -/

/-- The condition of the body's first `scf.if`: the inner coordinate is 0 (the accumulator is zeroed). -/
abbrev cond16_0 (i : grid16.Coords) : Prop := (Scalar.cmpi .ne (Scalar.extui (Scalar.cmpi .eq (BitVec.ofNat 32 (i 1).val) 0#32)) 0#32) = 1#1
theorem hcond16_0 : ∀ t : Fin cfg16.N, cond16_0 (grid16.coords t) ↔ t.val % 4 = 0 :=
  (by decide +kernel : ∀ t : Fin grid16.N, cond16_0 (grid16.coords t) ↔ t.val % 4 = 0)
/-- The condition of its second: the inner coordinate is the last (the output is stored). -/
abbrev cond16_1 (i : grid16.Coords) : Prop := k16_cond2 i = 1#1
theorem hcond16_1 : ∀ t : Fin cfg16.N, cond16_1 (grid16.coords t) ↔ t.val % 4 = 3 :=
  (by decide +kernel : ∀ t : Fin grid16.N, cond16_1 (grid16.coords t) ↔ t.val % 4 = 3)

/-! ## Where the windows are idle -/

/-- The inputs are never idle. -/
theorem liveAt16_0 : ∀ t : Fin cfg16.N, cfg16.idle 0 (grid16.coords t) = false := fun _ => rfl
theorem liveAt16_1 : ∀ t : Fin cfg16.N, cfg16.idle 1 (grid16.coords t) = false := fun _ => rfl
/-- Where the output is not stored its window is idle and not written back; where it is stored it is live. -/
theorem idleAt16_2 : ∀ t : Fin cfg16.N, ¬cond16_1 (grid16.coords t) → cfg16.idle 2 (grid16.coords t) = true := by decide +kernel
theorem noFlush16_2 : ∀ t : Fin cfg16.N, ¬cond16_1 (grid16.coords t) → (cfg16.win 2).flush t = false := by decide +kernel
theorem liveAt16_2 : ∀ t : Fin cfg16.N, cond16_1 (grid16.coords t) → cfg16.idle 2 (grid16.coords t) = false := by decide +kernel

/-! ## The body's triple, per control case -/

set_option maxHeartbeats 1000000 in
/-- At a first inner step that is not the last: the accumulator, at anything, is zeroed and the product added. -/
theorem sound_kernel16_A (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : cond16_0 i) (hc1 : ¬cond16_1 i)
    (xa : Vec F S2048x2048 .bf16) (xx : Vec F S2048x256 .bf16) (K : PUnit → sProp 𝕄) :
    iprop(owns (c : Thread nD τ) arg2 fullShare xa ∗ owns (c : Thread nD τ) arg3 fullShare xx
        ∗ (∃ d, owns (c : Thread nD τ) arg5 fullShare d)
        ∗ (iprop(owns (c : Thread nD τ) arg2 fullShare xa ∗ owns (c : Thread nD τ) arg3 fullShare xx
            ∗ owns (c : Thread nD τ) arg5 fullShare (View.canon [⟨r16_out, k16_pay2 (k16_pay1 (F := F)) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%d5, %f5, -, H5⟩, Hk⟩
  subst hf2; subst hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  unfold sound_kernel16_A.sl.v3 sound_kernel16_A.sl.H5_1
  simp only [View.readCov_cons_toLoadRect, View.readAt_eq_ld]
  exact agg_read_writes_cons_16 _ _ r16_out mem_r16_out _ _

set_option maxHeartbeats 1000000 in
/-- At a middle inner step: the product is added to what the accumulator held. -/
theorem sound_kernel16_B (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond16_0 i) (hc1 : ¬cond16_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ owns (c : Thread nD τ) arg5 fullShare xs
        ∗ (iprop(owns (c : Thread nD τ) arg2 fullShare xa ∗ owns (c : Thread nD τ) arg3 fullShare xx
            ∗ owns (c : Thread nD τ) arg5 fullShare (View.canon [⟨r16_out, k16_pay2 (View.ld xs r16_out) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  simp only [View.readCov_cons_toLoadRect, View.readAt_eq_ld]
  exact agg_read_writes_cons_16 _ _ r16_out mem_r16_out _ _

set_option maxHeartbeats 1000000 in
/-- At a last inner step that is not the first: the product is added and the output stored, normalised. -/
theorem sound_kernel16_C (c : Dev nD) (E : Set ℕ) (i : grid16.Coords)
    (arg2 : Memref sig .tc .vmem S2048x2048 .bf16) (harg2 : arg2.IsWhole) (arg3 : Memref sig .tc .vmem S2048x256 .bf16) (harg3 : arg3.IsWhole)
    (arg4 : Memref sig .tc .vmem S2048x256 .f32) (harg4 : arg4.IsWhole) (arg5 : Memref sig .tc .vmem S2048x256 .f32) (harg5 : arg5.IsWhole)
    (hc0 : ¬cond16_0 i) (hc1 : cond16_1 i)
    (xa : Vec F S2048x2048 .bf16) (xx : Vec F S2048x256 .bf16) (xs : Vec F S2048x256 .f32) (K : PUnit → sProp 𝕄) :
    iprop(owns (c : Thread nD τ) arg2 fullShare xa ∗ owns (c : Thread nD τ) arg3 fullShare xx
        ∗ (∃ d, owns (c : Thread nD τ) arg4 fullShare d)
        ∗ owns (c : Thread nD τ) arg5 fullShare xs
        ∗ (iprop(owns (c : Thread nD τ) arg2 fullShare xa ∗ owns (c : Thread nD τ) arg3 fullShare xx
            ∗ owns (c : Thread nD τ) arg4 fullShare (View.canon [⟨r16_out, k16_pay3 (k16_pay2 (View.ld xs r16_out) (View.ld xa r16_A) (View.ld xx r16_X))⟩])
            ∗ owns (c : Thread nD τ) arg5 fullShare (View.canon [⟨r16_out, k16_pay2 (View.ld xs r16_out) (View.ld xa r16_A) (View.ld xx r16_X)⟩])) -∗ K ⟨⟩))
      ⊢ wp frame (wpE (defs₀ (F := F)) Variants.none c none) E (cc16__agg_kernel i arg2 harg2 arg3 harg3 arg4 harg4 arg5 harg5) K := by
  simp only [cc16__agg_kernel_eq_skeleton]; unfold cc16__agg_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel16_C.sl.v16 sound_kernel16_C.sl.H5_1
    simp only [View.readCov_cons_toLoadRect, View.readAt_eq_ld]
    exact agg_read_writes_cons_16 _ _ r16_out mem_r16_out _ _
  iexists _; isplitr
  swap; · iexact H5
  ipureintro
  unfold sound_kernel16_C.sl.H5_1
  simp only [View.readCov_cons_toLoadRect, View.readAt_eq_ld]
  exact agg_read_writes_cons_16 _ _ r16_out mem_r16_out _ _

/-! ## The body obligation, at a generic point -/

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t)

set_option maxHeartbeats 4800000 in
/-- The body at any point: the inputs' memrefs hold their blocks; the closed forms say which case the point is in; the
    invariant hands the body the accumulator at what the point before left (at anything at the first point) and takes
    it back at this point's contents; where the output is not stored its buffer is handed back untouched; the scoped
    rest, the generator register and the core's `owes` pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).owesAt () t.succ = (dat16 V c).owesAt () t.castSucc from rfl]
  rw [show (dat16 V c).Φ t.succ = PhiS16 V c (t.val + 1) t.isLt from rfl, PhiS16_succ]
  rw [show (dat16 V c).leavesExact 0 t = owns (c : Thread nD τ) (st16_0 t) fullShare ((dat16 V c).after 0 t) from by
    unfold Dat.leavesExact; rw [liveAt16_0 t], after16_0]
  rw [show (dat16 V c).leavesExact 1 t = owns (c : Thread nD τ) (st16_1 t) fullShare ((dat16 V c).after 1 t) from by
    unfold Dat.leavesExact; rw [liveAt16_1 t], after16_1]
  rw [acc16_eq]
  by_cases h0 : t.val % 4 = 0
  · have h1 : ¬t.val % 4 = 3 := by omega
    rw [Dat.leavesExact_idle (dat16 V c) 2 t (idleAt16_2 t (fun h => h1 ((hcond16_1 t).mp h))) (noFlush16_2 t (fun h => h1 ((hcond16_1 t).mp h)))]
    rw [accP16_first V c t h0]
    by_cases hz : t.val = 0
    · rw [PhiS16_castSucc V c t, PhiS16_zero V c _ _ hz, PhiA16_eq]
      iintro ⟨⟨⟨HS, HR⟩, Hg⟩, Ho, ⟨%d0, H0⟩, ⟨%d1, H1⟩, H2⟩
      iapply (sound_kernel16_A c Set.univ (grid16.coords t) _ _ _ _ _ _ _ _ ((hcond16_0 t).mpr h0) (fun h => h1 ((hcond16_1 t).mp h)) (iblk16 V c 0 t) (iblk16 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS16_castSucc V c t, PhiS16_pos V c _ _ hz]
      iintro ⟨⟨⟨HS, HR⟩, Hg⟩, Ho, ⟨%d0, H0⟩, ⟨%d1, H1⟩, H2⟩
      iapply (sound_kernel16_A c Set.univ (grid16.coords t) _ _ _ _ _ _ _ _ ((hcond16_0 t).mpr h0) (fun h => h1 ((hcond16_1 t).mp h)) (iblk16 V c 0 t) (iblk16 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    rw [accP16_step V c t h0]
    rw [PhiS16_castSucc V c t, PhiS16_pos V c _ _ hz]
    by_cases h1 : t.val % 4 = 3
    · rw [show (dat16 V c).leavesExact 2 t = owns (c : Thread nD τ) (st16_2 t) fullShare ((dat16 V c).after 2 t) from by
        unfold Dat.leavesExact; rw [liveAt16_2 t ((hcond16_1 t).mpr h1)], after16_2]
      rw [accP16_step V c t h0]
      iintro ⟨⟨⟨HS, HR⟩, Hg⟩, Ho, ⟨%d0, H0⟩, ⟨%d1, H1⟩, ⟨%d2, H2⟩⟩
      iapply (sound_kernel16_C c Set.univ (grid16.coords t) _ _ _ _ _ _ _ _ (fun h => h0 ((hcond16_0 t).mp h)) ((hcond16_1 t).mpr h1) (iblk16 V c 0 t) (iblk16 V c 1 t) (acc16 V c (t.val - 1) (by have := t.isLt; omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat16 V c) 2 t (idleAt16_2 t (fun h => h1 ((hcond16_1 t).mp h))) (noFlush16_2 t (fun h => h1 ((hcond16_1 t).mp h)))]
      iintro ⟨⟨⟨HS, HR⟩, Hg⟩, Ho, ⟨%d0, H0⟩, ⟨%d1, H1⟩, H2⟩
      iapply (sound_kernel16_B c Set.univ (grid16.coords t) _ _ _ _ _ _ _ _ (fun h => h0 ((hcond16_0 t).mp h)) (fun h => h1 ((hcond16_1 t).mp h)) (iblk16 V c 0 t) (iblk16 V c 1 t) (acc16 V c (t.val - 1) (by have := t.isLt; omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The library's body obligation, at every point. -/
theorem body_obligation16 (c : Dev nD) : BodyObligation (dat16 (F := F) V c) (defs₀ (F := F)) Variants.none () Set.univ := fun t => by
  rw [bigSep_W16, bigSep_W16]
  exact sound_body16 V c t

/-- What the launch hands the region (`ΦA`) is the invariant before the first point. -/
theorem hin16 (c : Dev nD) : Pipeline.ΦA spec16 c ⊢ (dat16 V c).Φ 0 := by
  rw [show (dat16 V c).Φ 0 = PhiS16 V c 0 (Nat.zero_le _) from rfl, PhiS16_zero V c 0 _ rfl]
  try exact Idealize.SL.BI.Entails.refl _

/-- After any point but the first the invariant gives `ΦA` back: the accumulator's named contents are forgotten. -/
theorem Phi_out16 (c : Dev nD) (t : Fin (cfg16.N + 1)) (ht : t.val ≠ 0) : (dat16 V c).Φ t ⊢ Pipeline.ΦA spec16 c := by
  rw [show (dat16 V c).Φ t = PhiS16 V c t.val (Nat.le_of_lt_succ t.isLt) from rfl, PhiS16_pos V c _ _ ht, PhiA16_eq]
  iintro ⟨⟨HS, HR⟩, Hg⟩
  isplitl [HS HR]
  · isplitl [HS]
    · iexists _; iexact HS
    iexact HR
  iexact Hg

/-- The same after the last point. -/
theorem hout16 (c : Dev nD) : (dat16 V c).Φ (Fin.last cfg16.N) ⊢ Pipeline.ΦA spec16 c :=
  Phi_out16 V c _ (by rw [Fin.val_last]; have : cfg16.N = 16 := N_16; omega)

end Cert.KernelIdeal.Hand

end
-- ==== Proof.KI.RunRd.lean ====
/- The run of @main, the kernel regions 13 … 16 as segments over the thread state "every unscoped buffer at the
   boundary's contents, the generator register at some state, nothing owed". -/
import proofs.«103499_j73031623901527_2_alg».proof.Proof.KI.Run1
import proofs.«103499_j73031623901527_2_alg».proof.Proof.KI.Agg14
import proofs.«103499_j73031623901527_2_alg».proof.Proof.KI.Agg16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 13 (custom_call 13) over the thread state: entered from every unscoped buffer at `W27`, left at `W28`.
    Its arrays split out of the unscoped buffers and put back at the exit contents; the generator register and the
    scoped rest into the region's invariant and out; nothing owed; no semaphore of the kernel's own. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 14 (custom_call 14) over the thread state: entered from every unscoped buffer at `W29`, left at `W30`.
    Its arrays split out of the unscoped buffers and put back at the exit contents; the generator register and the
    scoped rest into the region's invariant and out; nothing owed; no semaphore of the kernel's own. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (V29 m ρ) c)
    unfold Pipeline.ΦA
    iintro ⟨Hp, -, Hr⟩
    isplitl [Hr]; · iexact Hr
    iexact Hp
  hout c := by
    rw [Pipeline.ownSems0_none]
    refine BIBase.Entails.trans (hout14 (V29 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 15 (custom_call 15) over the thread state: entered from every unscoped buffer at `W31`, left at `W32`.
    Its arrays split out of the unscoped buffers and put back at the exit contents; the generator register and the
    scoped rest into the region's invariant and out; nothing owed; no semaphore of the kernel's own. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 16 (custom_call 16) over the thread state: entered from every unscoped buffer at `W33`, left at `W34`.
    Its arrays split out of the unscoped buffers and put back at the exit contents; the generator register and the
    scoped rest into the region's invariant and out; nothing owed; no semaphore of the kernel's own. -/
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (V33 m ρ) c).loose
  hwaits := Pipeline.hwaits_of_owed_zero _ _ _ _ L lv 16 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec16 c (V33 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin16 (V33 m ρ) c)
    unfold Pipeline.ΦA
    iintro ⟨Hp, -, Hr⟩
    isplitl [Hr]; · iexact Hr
    iexact Hp
  hout c := by
    rw [Pipeline.ownSems0_none]
    refine BIBase.Entails.trans (hout16 (V33 m ρ) c) ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (V33 m ρ c) (V34 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- The run of @main: its 35 items as segments (a host segment per stretch from its boundary's contents, a region per
   pallas_call), @main as their run, the launch (every weakly fair execution terminates, nothing faulting, and every final
   state holds each unscoped buffer at the last boundary's contents `W35`), and the frame: each argument array as launched. -/
import proofs.«103499_j73031623901527_2_alg».proof.Proof.KI.RunRa
import proofs.«103499_j73031623901527_2_alg».proof.Proof.KI.RunRb
import proofs.«103499_j73031623901527_2_alg».proof.Proof.KI.RunRc
import proofs.«103499_j73031623901527_2_alg».proof.Proof.KI.RunRd
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 35 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)),
    .region (reg14 m ρ),
    .host (hseg hostOps15 hostOps15_sub hostOps15_fresh (W30 m ρ)),
    .region (reg15 m ρ),
    .host (hseg hostOps16 hostOps16_sub hostOps16_fresh (W32 m ρ)),
    .region (reg16 m ρ),
    .host (hseg hostOps17 hostOps17_sub hostOps17_fresh (W34 m ρ)) ]
/-- @main IS the run of the segments: the chain of its items, then the segments' run against that chain by the
    kernel's definitional check. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W35 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W35 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m ρ c b)
    (hfin := fun c s' => by
      iintro ⟨⟨Hh, -⟩, HSI⟩
      unfold StableHlo.held
      imodintro
      iapply (pointsTo_read_all (Pipeline.ucRefs τ sig) (fun b => (((c : Thread nD τ)).1, b)) (W35 m ρ c) s')
      isplitl [Hh] <;> iassumption)
    (hQ := fun _ h => h)

/-- THE FRAME: every final state has the argument arrays as launched — each argument's buffer is unscoped, so the run
    gives it at `W35`, which is its launch contents (`W35_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (W35_main_arg0 m ρ c),
    (h c _ (mem_uc main_arg1 (by decide))).trans (W35_main_arg1 m ρ c),
    (h c _ (mem_uc main_arg2 (by decide))).trans (W35_main_arg2 m ρ c),
    (h c _ (mem_uc main_arg3 (by decide))).trans (W35_main_arg3 m ρ c),
    (h c _ (mem_uc main_arg4 (by decide))).trans (W35_main_arg4 m ρ c),
    (h c _ (mem_uc main_arg5 (by decide))).trans (W35_main_arg5 m ρ c),
    (h c _ (mem_uc main_arg6 (by decide))).trans (W35_main_arg6 m ρ c),
    (h c _ (mem_uc main_arg7 (by decide))).trans (W35_main_arg7 m ρ c),
    (h c _ (mem_uc main_arg8 (by decide))).trans (W35_main_arg8 m ρ c),
    (h c _ (mem_uc main_arg9 (by decide))).trans (W35_main_arg9 m ρ c),
    (h c _ (mem_uc main_arg10 (by decide))).trans (W35_main_arg10 m ρ c),
    (h c _ (mem_uc main_arg11 (by decide))).trans (W35_main_arg11 m ρ c),
    (h c _ (mem_uc main_arg12 (by decide))).trans (W35_main_arg12 m ρ c),
    (h c _ (mem_uc main_arg13 (by decide))).trans (W35_main_arg13 m ρ c),
    (h c _ (mem_uc main_arg14 (by decide))).trans (W35_main_arg14 m ρ c),
    (h c _ (mem_uc main_arg15 (by decide))).trans (W35_main_arg15 m ρ c),
    (h c _ (mem_uc main_arg16 (by decide))).trans (W35_main_arg16 m ρ c),
    (h c _ (mem_uc main_arg17 (by decide))).trans (W35_main_arg17 m ρ c),
    (h c _ (mem_uc main_arg18 (by decide))).trans (W35_main_arg18 m ρ c),
    (h c _ (mem_uc main_arg19 (by decide))).trans (W35_main_arg19 m ρ c),
    (h c _ (mem_uc main_arg20 (by decide))).trans (W35_main_arg20 m ρ c)⟩) (run_all m ρ)

/-- info: 'Cert.KernelIdeal.Hand.frame' depends on axioms: [propext, Classical.choice, Quot.sound] -/
#guard_msgs in #print axioms frame

end Cert.KernelIdeal.Hand

end
-- ==== Proof.RefFrame.lean ====
/-
  The reference program's frame: its generated run terminates without a fault with every argument array as launched;
  the frame claim is that run with the results dropped.
-/
import proofs.«103499_j73031623901527_2_alg».proof.Defs
import proofs.«103499_j73031623901527_2_alg».proof.Proof.Gen.ReferenceIdeal
import proofs.«103499_j73031623901527_2_alg».proof.Proof.Gen.Pre_finite_inputs
import proofs.«103499_j73031623901527_2_alg».proof.Proof.Gen.ReferenceIdeal.Run

noncomputable section

open Idealize.ShloMosaic Idealize.ShloMosaic.TcCoe Idealize.SL.Sem

namespace Cert.Proof.RefFrame

theorem frame_ri : Cert.frame_ReferenceIdeal := fun m ρ _ =>
  (θ_run Cert.ReferenceIdeal.defs _ _).mono (fun _ h c => (h c).2.2.2.2.2.2) (Cert.ReferenceIdeal.Value.run (F := Ideal) m ρ)

end Cert.Proof.RefFrame

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.Spec.lean ====
/-
  The mathematics both programs compute, row by row, on arrays of extended reals.

  A Lorentz linear layer sends a row x to y = x·Wᵀ + b, keeps a "time" coordinate t = σ(y₀)·s + 1.1 in column 0 and
  rescales the remaining 255 coordinates by sqrt((t² − 1) / max(Σ_{k≥1} y_k², ε)).  A Lorentz aggregation sends the rows
  u of a matrix product to u / sqrt(max(|u₀² − Σ_{k≥1} u_k²|, ε)).  Both are functions of ONE row, so a block of rows of the
  result is the same function of that block of rows; and the matrix product is a sum over the contracted axis, which
  may be taken tile by tile.
-/
import proofs.«103499_j73031623901527_2_alg».proof.Proof.LibRowsLayer

noncomputable section

namespace Cert.Lorentz

open Idealize.ShloMosaic Idealize.ShloMosaic.ValueIdx Cert.Sage
open scoped BigOperators

/-- The three float literals of both programs, at their exact binary values: 1.1f, 1e-8f, 1.0f. -/
def c11 : EReal := Ideal.ofBits .f32 0x3F8CCCCD#32
def eps : EReal := Ideal.ofBits .f32 0x322BCC77#32
def one : EReal := Ideal.ofBits .f32 0x3F800000#32

variable {n k : Nat}

/-- Column `j + 1` of a 256-wide row, for `j < 255`. -/
abbrev tailCol (j : Fin 255) : Fin 256 := ⟨j.val + 1, by omega⟩

/-- `x·Wᵀ + b` at entry (p, q): Σ_j x(p, j)·W(q, j) + b(q). -/
def pre (x : Arr2 n 256) (W : Arr2 256 256) (b : Arr1 256) : Arr2 n 256 :=
  fun i => (∑ j : Fin 256, x (ix2 (rowOf i) j) * W (ix2 (colOf i) j)) + b (ix1 (colOf i))

/-- Σ_{j ≥ 1} y(p, j)²: the squared norm of the space-like part of row p. -/
def tailSq (y : Arr2 n 256) (p : Fin n) : EReal := ∑ j : Fin 255, y (ix2 p (tailCol j)) * y (ix2 p (tailCol j))

/-- The time coordinate of row p: σ(y(p, 0))·s + 1.1, with s the exponential of the layer's log-scale. -/
def timeOf (y : Arr2 n 256) (s : EReal) (p : Fin n) : EReal := Ideal.logistic (y (ix2 p (0 : Fin 256))) * s + c11

/-- The factor the space-like part of row p is rescaled by: sqrt((t² − 1) / max(Σ_{j≥1} y_j², ε)). -/
def scaleOf (y : Arr2 n 256) (s : EReal) (p : Fin n) : EReal :=
  Ideal.sqrt (Ideal.div (timeOf y s p * timeOf y s p - one) (max (tailSq y p) eps))

/-- The Lorentz re-projection of every row: column 0 becomes the time coordinate, the others are rescaled. -/
def proj (y : Arr2 n 256) (s : EReal) : Arr2 n 256 := fun i =>
  if (i 1).val = 0 then timeOf y s (rowOf i) else y i * scaleOf y s (rowOf i)

/-- The Lorentz linear layer. -/
def linear (x : Arr2 n 256) (W : Arr2 256 256) (b : Arr1 256) (s : EReal) : Arr2 n 256 := proj (pre x W b) s

/-- The denominator of row p's normalisation: sqrt(max(|u₀² − Σ_{j≥1} u_j²|, ε)), with |d| = max d (−d). -/
def denOf (u : Arr2 n 256) (p : Fin n) : EReal :=
  Ideal.sqrt (max (max (u (ix2 p (0 : Fin 256)) * u (ix2 p (0 : Fin 256)) - tailSq u p)
    (-(u (ix2 p (0 : Fin 256)) * u (ix2 p (0 : Fin 256)) - tailSq u p))) eps)

/-- Every row divided by its Lorentz norm. -/
def norm (u : Arr2 n 256) : Arr2 n 256 := fun i => Ideal.div (u i) (denOf u (rowOf i))

/-- The Lorentz aggregation: the rows of adj·x, normalised. -/
def agg (adj : Arr2 n k) (x : Arr2 k 256) : Arr2 n 256 := norm (rowsMul adj x)

/-- Two arrays side by side, [n,256] ++ [n,256] = [n,512], and the two halves of a 512-wide array. -/
def beside (h l : Arr2 n 256) : Arr2 n 512 := fun i =>
  if hq : (i 1).val < 256 then h (ix2 (rowOf i) ⟨(i 1).val, hq⟩) else l (ix2 (rowOf i) ⟨(i 1).val - 256, by have := idx2_lt1 i; omega⟩)
def leftHalf (u : Arr2 n 512) : Arr2 n 256 := fun i => u (ix2 (rowOf i) ⟨(i 1).val, by have := idx2_lt1 i; omega⟩)
def rightHalf (u : Arr2 n 512) : Arr2 n 256 := fun i => u (ix2 (rowOf i) ⟨(i 1).val + 256, by have := idx2_lt1 i; omega⟩)

/-- A 512-wide array whose two halves are normalised separately. -/
def norm2 (u : Arr2 n 512) : Arr2 n 512 := beside (norm (leftHalf u)) (norm (rightHalf u))

/-- Row functions see only their row: a block of rows of the result is the function of that block of rows. -/
theorem proj_rows {N : Nat} (Y : Arr2 N 256) (y : Arr2 n 256) (s : EReal) (I : (⟨2, ![N, 256]⟩ : Shape).Idx)
    (i : (⟨2, ![n, 256]⟩ : Shape).Idx) (hc : (I 1).val = (i 1).val)
    (hy : ∀ q : Fin 256, Y (ix2 (rowOf I) q) = y (ix2 (rowOf i) q)) : proj Y s I = proj y s i := by
  have hI : I = ix2 (rowOf I) (colOf I) := eq_ix2 I
  have hi : i = ix2 (rowOf i) (colOf i) := eq_ix2 i
  have hcol : colOf I = colOf i := Fin.ext hc
  have hYi : Y I = y i := by rw [hI, hi, hcol]; exact hy _
  have ht : timeOf Y s (rowOf I) = timeOf y s (rowOf i) := by unfold timeOf; rw [hy]
  have hq : tailSq Y (rowOf I) = tailSq y (rowOf i) := by unfold tailSq; simp only [hy]
  unfold proj scaleOf
  rw [ht, hq, hYi, hc]

theorem norm_rows {N : Nat} (U : Arr2 N 256) (u : Arr2 n 256) (I : (⟨2, ![N, 256]⟩ : Shape).Idx)
    (i : (⟨2, ![n, 256]⟩ : Shape).Idx) (hc : (I 1).val = (i 1).val)
    (hu : ∀ q : Fin 256, U (ix2 (rowOf I) q) = u (ix2 (rowOf i) q)) : norm U I = norm u i := by
  have hI : I = ix2 (rowOf I) (colOf I) := eq_ix2 I
  have hi : i = ix2 (rowOf i) (colOf i) := eq_ix2 i
  have hcol : colOf I = colOf i := Fin.ext hc
  have hUi : U I = u i := by rw [hI, hi, hcol]; exact hu _
  have hq : tailSq U (rowOf I) = tailSq u (rowOf i) := by unfold tailSq; simp only [hu]
  unfold norm denOf
  rw [hq, hUi, hu]

/-! ## The whole model, over the argument arrays -/

/-- Layer l of a stack of two weight matrices [2,256,256], of two bias rows [2,256], and the exponential of entry l of
    two log-scales [2]. -/
def layerW (Ws : (⟨3, ![2, 256, 256]⟩ : Shape).Idx → EReal) (l : Fin 2) : Arr2 256 256 :=
  fun i => Ws (ix3 l (rowOf i) (colOf i))
def layerB (bs : Arr2 2 256) (l : Fin 2) : Arr1 256 := fun j => bs (ix2 l ⟨(j 0).val, (j 0).isLt⟩)
def layerS (ss : Arr1 2) (l : Fin 2) : EReal := Ideal.exp (ss (ix1 l))
/-- The exponential of a scalar log-scale. -/
def scalarS (s : (⟨0, ![]⟩ : Shape).Idx → EReal) : EReal := Ideal.exp (s ix0)

/-- The three embedding tables stacked: rows 0..8191, 8192..14335, 14336..16383. -/
def stack3 (d : Arr2 8192 256) (p : Arr2 6144 256) (m : Arr2 2048 256) : Arr2 16384 256 := fun i =>
  if h1 : (i 0).val < 8192 then d (ix2 ⟨(i 0).val, h1⟩ (colOf i))
  else if h2 : (i 0).val < 14336 then p (ix2 ⟨(i 0).val - 8192, by omega⟩ (colOf i))
  else m (ix2 ⟨(i 0).val - 14336, by have := idx2_lt0 i; omega⟩ (colOf i))

/-- Rows off .. off + n − 1 of an array. -/
def rowsFrom {N : Nat} (off : Nat) (u : Arr2 N 256) (h : off + n ≤ N) : Arr2 n 256 :=
  fun i => u (ix2 ⟨off + (i 0).val, by have := idx2_lt0 i; omega⟩ (colOf i))

/-- The gate: σ(g)·e entry by entry, σ(x) = 1 / (1 + e^(−x)). -/
def gate (g e : Arr2 n 256) : Arr2 n 256 := fun i => Ideal.div 1 (1 + Ideal.exp (-(g i))) * e i

/-- The transposed array. -/
def tr {a b : Nat} (H : Arr2 a b) : Arr2 b a := fun i => H (ix2 (colOf i) (rowOf i))

/-- One hypergraph layer: nodes → hyperedges (Hᵀ) → nodes (H), after a Lorentz linear layer. -/
def hyperLayer (H : Arr2 16384 8192) (x : Arr2 16384 256) (W : Arr2 256 256) (b : Arr1 256) (s : EReal) : Arr2 16384 256 :=
  agg H (agg (tr H) (linear x W b s))

/-- One graph layer on the hyperedges. -/
def graphLayer {N : Nat} (A : Arr2 N N) (x : Arr2 N 256) (W : Arr2 256 256) (b : Arr1 256) (s : EReal) : Arr2 N 256 :=
  agg A (linear x W b s)

section Model
variable (dis : Arr2 8192 256) (pro : Arr2 6144 256) (med : Arr2 2048 256) (H : Arr2 16384 8192) (A : Arr2 8192 8192)
  (ddi : Arr2 2048 2048) (Wh : Arr2 256 256) (bh : Arr1 256) (sh : (⟨0, ![]⟩ : Shape).Idx → EReal)
  (Wl : Arr2 256 256) (bl : Arr1 256) (sl : (⟨0, ![]⟩ : Shape).Idx → EReal)
  (Whg : (⟨3, ![2, 256, 256]⟩ : Shape).Idx → EReal) (bhg : Arr2 2 256) (shg : Arr1 2)
  (Wg : (⟨3, ![2, 256, 256]⟩ : Shape).Idx → EReal) (bg : Arr2 2 256) (sg : Arr1 2)
  (Wd : (⟨3, ![2, 256, 256]⟩ : Shape).Idx → EReal) (bd : Arr2 2 256) (sd : Arr1 2)

/-- Two graph layers on the drug-interaction graph, from the medicine embeddings. -/
def ddiMed : Arr2 2048 256 :=
  graphLayer ddi (graphLayer ddi med (layerW Wd 0) (layerB bd 0) (layerS sd 0)) (layerW Wd 1) (layerB bd 1) (layerS sd 1)
/-- The two gated copies of the stacked embeddings. -/
def hGated : Arr2 16384 256 := gate (linear (stack3 dis pro med) Wh bh (scalarS sh)) (stack3 dis pro med)
def lGated : Arr2 16384 256 := gate (linear (stack3 dis pro med) Wl bl (scalarS sl)) (stack3 dis pro med)
/-- Two hypergraph layers from the first gated copy. -/
def hEmbed : Arr2 16384 256 :=
  hyperLayer H (hyperLayer H (hGated dis pro med Wh bh sh) (layerW Whg 0) (layerB bhg 0) (layerS shg 0))
    (layerW Whg 1) (layerB bhg 1) (layerS shg 1)
/-- The hyperedge representation of the result. -/
def hyperRep : Arr2 8192 256 := agg (tr H) (hEmbed dis pro med H Wh bh sh Whg bhg shg)
/-- Two graph layers on the hyperedges, from the second gated copy carried to the hyperedges. -/
def linearRep : Arr2 8192 256 :=
  graphLayer A (graphLayer A (agg (tr H) (lGated dis pro med Wl bl sl)) (layerW Wg 0) (layerB bg 0) (layerS sg 0))
    (layerW Wg 1) (layerB bg 1) (layerS sg 1)
end Model

end Cert.Lorentz

end
-- ==== Proof.Layout.lean ====
/-
  The layout operations both host programs use to prepare a layer's operands, read at coordinates: the transposed
  incidence matrix, layer l of a stack of weights / biases / log-scales, the gate.
-/
import proofs.«103499_j73031623901527_2_alg».proof.Proof.Spec
import Idealize.ShloMosaic.Lib.IdealHost
import Idealize.ShloMosaic.Lib.Pipeline.Value
import Idealize.ShloMosaic.Lib.ValueLayout

noncomputable section

namespace Cert.Lorentz

open Idealize.ShloMosaic Idealize.ShloMosaic.ValueIdx Cert.Sage
open scoped BigOperators

/-- The transpose operation is the transposed array. -/
theorem transpose_tr {a b : Nat} (H : Arr2 a b) (h : (⟨2, ![a, b]⟩ : Shape).Transposes [1, 0] ⟨2, ![b, a]⟩) :
    transpose ⟨2, ![b, a]⟩ [1, 0] H h = tr H := by
  funext i
  obtain ⟨p, q, rfl⟩ : ∃ (p : Fin b) (q : Fin a), i = ix2 p q := ⟨_, _, eq_ix2 i⟩
  exact transpose_apply _ H h _ (ix2 q p) (fun d => by match d with | ⟨0, _⟩ => rfl | ⟨1, _⟩ => rfl)

/-- Layer l of a stack of two matrices: the slice [l:l+1, :, :] recast as a matrix. -/
theorem slice_layerW (Ws : (⟨3, ![2, 256, 256]⟩ : Shape).Idx → EReal) (l : Fin 2) (o : Nat) (ho : o = l.val)
    (hs : (⟨3, ![2, 256, 256]⟩ : Shape).Slices ![o, 0, 0] ⟨3, ![1, 256, 256]⟩)
    (hc : (⟨3, ![1, 256, 256]⟩ : Shape).ShapeCasts ⟨2, ![256, 256]⟩) :
    shapeCast ⟨2, ![256, 256]⟩ (extractStridedSlice ⟨3, ![1, 256, 256]⟩ ![o, 0, 0] Ws hs) hc = layerW Ws l := by
  subst ho
  funext i
  obtain ⟨p, q, rfl⟩ : ∃ (p : Fin 256) (q : Fin 256), i = ix2 p q := ⟨_, _, eq_ix2 i⟩
  rw [shapeCast_apply _ hc (ix2 p q) (ix3 (0 : Fin 1) p q) (by
    rw [Shape.rowMajor_val_three, Shape.rowMajor_val_two]
    show ((0 : ℕ) * 256 + p.val) * 256 + q.val = p.val * 256 + q.val
    omega)]
  exact extractStridedSlice_apply _ Ws hs _ (ix3 l p q) (fun d => by
    match d with
    | ⟨0, _⟩ => show l.val = l.val + 0; omega
    | ⟨1, _⟩ => exact (Nat.zero_add _).symm
    | ⟨2, _⟩ => exact (Nat.zero_add _).symm)

/-- Row l of a stack of two bias rows, recast as a vector. -/
theorem slice_layerB (bs : Arr2 2 256) (l : Fin 2) (o : Nat) (ho : o = l.val)
    (hs : (⟨2, ![2, 256]⟩ : Shape).Slices ![o, 0] ⟨2, ![1, 256]⟩)
    (hc : (⟨2, ![1, 256]⟩ : Shape).ShapeCasts ⟨1, ![256]⟩) :
    shapeCast ⟨1, ![256]⟩ (extractStridedSlice ⟨2, ![1, 256]⟩ ![o, 0] bs hs) hc = layerB bs l := by
  subst ho
  funext j
  obtain ⟨q, rfl⟩ : ∃ q : Fin 256, j = ix1 q := ⟨_, eq_ix1 j⟩
  rw [shapeCast_apply _ hc (ix1 q) (ix2 (0 : Fin 1) q) (by
    rw [Shape.rowMajor_val_two, Shape.rowMajor_val_one]
    show 0 * 256 + q.val = q.val
    omega)]
  exact extractStridedSlice_apply _ bs hs _ (ix2 l q) (fun d => by
    match d with
    | ⟨0, _⟩ => show l.val = l.val + 0; omega
    | ⟨1, _⟩ => exact (Nat.zero_add _).symm)

/-- Entry l of two log-scales, recast as a scalar, exponentiated: the layer's scale. -/
theorem slice_layerS (ss : Arr1 2) (l : Fin 2) (o : Nat) (ho : o = l.val)
    (hs : (⟨1, ![2]⟩ : Shape).Slices ![o] ⟨1, ![1]⟩) (hc : (⟨1, ![1]⟩ : Shape).ShapeCasts ⟨0, ![]⟩) :
    Host.exp (F := Ideal) (φ := .f32) (shapeCast ⟨0, ![]⟩ (extractStridedSlice ⟨1, ![1]⟩ ![o] ss hs) hc) ix0 = layerS ss l := by
  subst ho
  show Ideal.exp (shapeCast ⟨0, ![]⟩ (extractStridedSlice ⟨1, ![1]⟩ ![l.val] ss hs) hc ix0) = _
  rw [shapeCast_apply _ hc ix0 (ix1 (0 : Fin 1)) (by
    rw [Shape.rowMajor_val_one]
    rfl)]
  unfold layerS
  congr 1
  exact extractStridedSlice_apply _ ss hs _ (ix1 l) (fun d => by
    match d with
    | ⟨0, _⟩ => show l.val = l.val + 0; omega)

/-- The gate in the host's operations: (1 / (1 + e^(−g)))·e with the float one spread over the array. -/
theorem host_gate {n : Nat} (g e : Arr2 n 256)
    (hb : (⟨0, ![]⟩ : Shape).BroadcastsInDim ⟨2, ![n, 256]⟩ ![]) :
    mulf (F := Ideal) (φ := .f32) (Host.divf (broadcastInDim ⟨2, ![n, 256]⟩ ![] hb (constant (F := Ideal) ⟨0, ![]⟩ .f32 0x3F800000#32))
      (addf (broadcastInDim ⟨2, ![n, 256]⟩ ![] hb (constant (F := Ideal) ⟨0, ![]⟩ .f32 0x3F800000#32)) (Host.exp (Host.negf g)))) e
      = gate g e := by
  funext i
  show Ideal.div (broadcastInDim ⟨2, ![n, 256]⟩ ![] hb (constant (F := Ideal) ⟨0, ![]⟩ .f32 0x3F800000#32) i)
      (broadcastInDim ⟨2, ![n, 256]⟩ ![] hb (constant (F := Ideal) ⟨0, ![]⟩ .f32 0x3F800000#32) i + Ideal.exp (-(g i))) * e i = _
  rw [broadcastInDim_scalar_apply, constant_apply, Ideal.ofBits_one_f32]
  rfl

/-- A slice of n whole rows starting at row off. -/
theorem slice_rowsFrom {N n : Nat} (off : Nat) (u : Arr2 N 256) (hle : off + n ≤ N)
    (hs : (⟨2, ![N, 256]⟩ : Shape).Slices ![off, 0] ⟨2, ![n, 256]⟩) :
    extractStridedSlice ⟨2, ![n, 256]⟩ ![off, 0] u hs = rowsFrom off u hle := by
  funext i
  obtain ⟨r, q, rfl⟩ : ∃ (r : Fin n) (q : Fin 256), i = ix2 r q := ⟨_, _, eq_ix2 i⟩
  exact extractStridedSlice_apply _ u hs _ (ix2 ⟨off + r.val, by have := r.isLt; omega⟩ q) (fun d => by
    match d with
    | ⟨0, _⟩ => rfl
    | ⟨1, _⟩ => exact (Nat.zero_add _).symm)

end Cert.Lorentz

end
-- ==== Proof.Halves.lean ====
/-
  Two feature arrays side by side share one matrix product: A·[h | l] = [A·h | A·l], and normalising the two halves
  separately gives the two aggregations. With the layout operations that put two arrays side by side and cut a
  512-wide array in halves, read at coordinates.
-/
import proofs.«103499_j73031623901527_2_alg».proof.Proof.Spec
import Idealize.ShloMosaic.Lib.Pipeline.Value

noncomputable section

namespace Cert.Lorentz

open Idealize.ShloMosaic Idealize.ShloMosaic.ValueIdx Cert.Sage
open scoped BigOperators

variable {n k : Nat}

theorem beside_left (h l : Arr2 n 256) (p : Fin n) (q : Fin 512) (hq : q.val < 256) :
    beside h l (ix2 p q) = h (ix2 p ⟨q.val, hq⟩) := by
  unfold beside
  rw [dif_pos (show (ix2 p q 1).val < 256 from hq)]
  rfl

theorem beside_right (h l : Arr2 n 256) (p : Fin n) (q : Fin 512) (hq : ¬ q.val < 256) :
    beside h l (ix2 p q) = l (ix2 p ⟨q.val - 256, by have := q.isLt; omega⟩) := by
  unfold beside
  rw [dif_neg (show ¬ (ix2 p q 1).val < 256 from hq)]
  rfl

theorem leftHalf_beside (h l : Arr2 n 256) : leftHalf (beside h l) = h := by
  funext i
  obtain ⟨p, q, rfl⟩ : ∃ (p : Fin n) (q : Fin 256), i = ix2 p q := ⟨_, _, eq_ix2 i⟩
  unfold leftHalf
  exact beside_left h l p ⟨q.val, by have := q.isLt; omega⟩ q.isLt

theorem rightHalf_beside (h l : Arr2 n 256) : rightHalf (beside h l) = l := by
  funext i
  obtain ⟨p, q, rfl⟩ : ∃ (p : Fin n) (q : Fin 256), i = ix2 p q := ⟨_, _, eq_ix2 i⟩
  unfold rightHalf
  refine (beside_right h l p ⟨q.val + 256, by have := q.isLt; omega⟩ (by show ¬ (q.val + 256 < 256); omega)).trans ?_
  exact congrArg l (congrArg (ix2 p) (Fin.ext (by show q.val + 256 - 256 = q.val; omega)))

/-- The matrix product of A with two arrays side by side is the two products side by side. -/
theorem rowsMul_beside (A : Arr2 n k) (h l : Arr2 k 256) :
    rowsMul A (beside h l) = beside (rowsMul A h) (rowsMul A l) := by
  funext i
  obtain ⟨p, q, rfl⟩ : ∃ (p : Fin n) (q : Fin 512), i = ix2 p q := ⟨_, _, eq_ix2 i⟩
  by_cases hq : q.val < 256
  · rw [beside_left _ _ p q hq]
    unfold rowsMul
    exact Finset.sum_congr rfl fun j _ => congrArg (A (ix2 p j) * ·) (beside_left h l j q hq)
  · rw [beside_right _ _ p q hq]
    unfold rowsMul
    exact Finset.sum_congr rfl fun j _ => congrArg (A (ix2 p j) * ·) (beside_right h l j q hq)

/-- The left half of the jointly computed, separately normalised product is the aggregation of the left operand. -/
theorem leftHalf_agg2 (A : Arr2 n k) (h l : Arr2 k 256) : leftHalf (norm2 (rowsMul A (beside h l))) = agg A h := by
  unfold norm2 agg
  rw [leftHalf_beside, rowsMul_beside, leftHalf_beside]

theorem rightHalf_agg2 (A : Arr2 n k) (h l : Arr2 k 256) : rightHalf (norm2 (rowsMul A (beside h l))) = agg A l := by
  unfold norm2 agg
  rw [rightHalf_beside, rowsMul_beside, rightHalf_beside]

/-- Two [n,256] arrays concatenated along the columns are the arrays side by side. -/
theorem concat_beside (h l : Arr2 n 256)
    (hc : Shape.Concatenates [(⟨2, ![n, 256]⟩ : Shape), ⟨2, ![n, 256]⟩] ⟨2, ![n, 512]⟩ 1) :
    concatenate ⟨2, ![n, 512]⟩ 1 [⟨⟨2, ![n, 256]⟩, h⟩, ⟨⟨2, ![n, 256]⟩, l⟩] hc = beside h l := by
  funext i
  obtain ⟨p, q, rfl⟩ : ∃ (p : Fin n) (q : Fin 512), i = ix2 p q := ⟨_, _, eq_ix2 i⟩
  by_cases hq : q.val < 256
  · rw [beside_left _ _ p q hq]
    exact concatenate_pair_apply_left (1 : Fin 2) h l hc (ix2 p q) rfl (ix2 p ⟨q.val, hq⟩)
      (fun b => by match b with | ⟨0, _⟩ => rfl | ⟨1, _⟩ => rfl)
  · rw [beside_right _ _ p q hq]
    exact concatenate_pair_apply_right (1 : Fin 2) h l hc (ix2 p q) rfl rfl (ix2 p ⟨q.val - 256, by have := q.isLt; omega⟩)
      (fun b hb => by match b with | ⟨0, _⟩ => rfl | ⟨1, _⟩ => exact absurd rfl hb)
      (by show q.val - 256 + 256 = q.val; omega)

/-- Columns 0..255 and 256..511 of a 512-wide array, sliced out. -/
theorem slice_leftHalf (u : Arr2 n 512) (hs : (⟨2, ![n, 512]⟩ : Shape).Slices ![0, 0] ⟨2, ![n, 256]⟩) :
    extractStridedSlice ⟨2, ![n, 256]⟩ ![0, 0] u hs = leftHalf u := by
  funext i
  obtain ⟨p, q, rfl⟩ : ∃ (p : Fin n) (q : Fin 256), i = ix2 p q := ⟨_, _, eq_ix2 i⟩
  exact extractStridedSlice_apply _ u hs _ (ix2 p ⟨q.val, by have := q.isLt; omega⟩) (fun d => by
    match d with
    | ⟨0, _⟩ => exact (Nat.zero_add _).symm
    | ⟨1, _⟩ => exact (Nat.zero_add _).symm)

theorem slice_rightHalf (u : Arr2 n 512) (hs : (⟨2, ![n, 512]⟩ : Shape).Slices ![0, 256] ⟨2, ![n, 256]⟩) :
    extractStridedSlice ⟨2, ![n, 256]⟩ ![0, 256] u hs = rightHalf u := by
  funext i
  obtain ⟨p, q, rfl⟩ : ∃ (p : Fin n) (q : Fin 256), i = ix2 p q := ⟨_, _, eq_ix2 i⟩
  exact extractStridedSlice_apply _ u hs _ (ix2 p ⟨q.val + 256, by have := q.isLt; omega⟩) (fun d => by
    match d with
    | ⟨0, _⟩ => exact (Nat.zero_add _).symm
    | ⟨1, _⟩ => show q.val + 256 = 256 + q.val; omega)

/-- A scalar recast as a [1,1] array, at its one entry. -/
theorem shapeCast_scalar_11 {α : Type} (s : (⟨0, ![]⟩ : Shape).Idx → α) (hc : (⟨0, ![]⟩ : Shape).ShapeCasts ⟨2, ![1, 1]⟩) :
    shapeCast ⟨2, ![1, 1]⟩ s hc (ix2 (0 : Fin 1) (0 : Fin 1)) = s ix0 :=
  shapeCast_apply s hc _ ix0 (by rw [Shape.rowMajor_val_two]; rfl)

end Cert.Lorentz

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Ref.RefParts.lean ====
/-
  The host program's spellings of the model's parameters and arrangements, read at coordinates: a layer of a stack of
  weights, biases or log-scales; three tables stacked; a transposed array; a block of rows; the gate.
-/
import proofs.«103499_j73031623901527_2_alg».proof.Proof.Spec
import proofs.«103499_j73031623901527_2_alg».proof.Proof.LibKeepdims
import Idealize.ShloMosaic.Lib.IdealHost
import Idealize.ShloMosaic.Lib.Pipeline.Value
import Idealize.ShloMosaic.Lib.ValueLayout
import Idealize.ShloMosaic.Lib.ValueIdxCoords
import Idealize.ShloMosaic.PureOps.Ideal.Laws

noncomputable section

namespace Cert.Lorentz

open Idealize.ShloMosaic Idealize.ShloMosaic.ValueIdx Cert.Sage
open scoped BigOperators

variable {n : Nat}

/-- Matrix o of a stack of two, sliced out as [1,256,256] and recast as [256,256]. -/
theorem ref_layerW (Ws : (⟨3, ![2, 256, 256]⟩ : Shape).Idx → EReal) (o : Nat) (ho : o < 2)
    (hs : (⟨3, ![2, 256, 256]⟩ : Shape).Slices ![o, 0, 0] ⟨3, ![1, 256, 256]⟩)
    (hc : (⟨3, ![1, 256, 256]⟩ : Shape).ShapeCasts ⟨2, ![256, 256]⟩) :
    shapeCast ⟨2, ![256, 256]⟩ (extractStridedSlice ⟨3, ![1, 256, 256]⟩ ![o, 0, 0] Ws hs) hc = layerW Ws ⟨o, ho⟩ := by
  funext i
  obtain ⟨p, q, rfl⟩ : ∃ (p : Fin 256) (q : Fin 256), i = ix2 p q := ⟨_, _, eq_ix2 i⟩
  rw [shapeCast_1ab_ab_apply]
  exact extractStridedSlice_apply _ Ws hs _ (ix3 ⟨o, ho⟩ p q) fun a => by
    match a with
    | ⟨0, _⟩ => show o = o + 0; rfl
    | ⟨1, _⟩ => show p.val = 0 + p.val; omega
    | ⟨2, _⟩ => show q.val = 0 + q.val; omega

/-- Row o of a stack of two bias rows, sliced out as [1,256] and recast as [256]. -/
theorem ref_layerB (bs : Arr2 2 256) (o : Nat) (ho : o < 2)
    (hs : (⟨2, ![2, 256]⟩ : Shape).Slices ![o, 0] ⟨2, ![1, 256]⟩)
    (hc : (⟨2, ![1, 256]⟩ : Shape).ShapeCasts ⟨1, ![256]⟩) :
    shapeCast ⟨1, ![256]⟩ (extractStridedSlice ⟨2, ![1, 256]⟩ ![o, 0] bs hs) hc = layerB bs ⟨o, ho⟩ := by
  funext j
  obtain ⟨q, rfl⟩ : ∃ q : Fin 256, j = ix1 q := ⟨_, eq_ix1 j⟩
  rw [shapeCast_1a_a_apply]
  exact extractStridedSlice_apply _ bs hs _ (ix2 ⟨o, ho⟩ q) fun a => by
    match a with
    | ⟨0, _⟩ => show o = o + 0; rfl
    | ⟨1, _⟩ => show q.val = 0 + q.val; omega

/-- Entry o of two log-scales, sliced out as [1] and recast as a scalar. -/
theorem ref_layerS (ss : Arr1 2) (o : Nat) (ho : o < 2)
    (hs : (⟨1, ![2]⟩ : Shape).Slices ![o] ⟨1, ![1]⟩) (hc : (⟨1, ![1]⟩ : Shape).ShapeCasts ⟨0, ![]⟩) :
    Ideal.exp (shapeCast ⟨0, ![]⟩ (extractStridedSlice ⟨1, ![1]⟩ ![o] ss hs) hc ix0) = layerS ss ⟨o, ho⟩ := by
  unfold layerS
  congr 1
  show extractStridedSlice ⟨1, ![1]⟩ ![o] ss hs (Shape.reshapeEquiv hc ix0) = _
  generalize Shape.reshapeEquiv hc ix0 = j
  obtain rfl := eq_ix1_u0 j
  exact extractStridedSlice_apply _ ss hs _ (ix1 ⟨o, ho⟩) fun a => by
    match a with
    | ⟨0, _⟩ => show o = o + 0; rfl

/-- The three tables put one under another. -/
theorem ref_stack3 (d : Arr2 8192 256) (p : Arr2 6144 256) (m : Arr2 2048 256)
    (h : Shape.Concatenates [(⟨2, ![8192, 256]⟩ : Shape), ⟨2, ![6144, 256]⟩, ⟨2, ![2048, 256]⟩] ⟨2, ![16384, 256]⟩ 0) :
    concatenate ⟨2, ![16384, 256]⟩ 0 [⟨⟨2, ![8192, 256]⟩, d⟩, ⟨⟨2, ![6144, 256]⟩, p⟩, ⟨⟨2, ![2048, 256]⟩, m⟩] h
      = stack3 d p m := by
  funext i
  obtain ⟨r, q, rfl⟩ : ∃ (r : Fin 16384) (q : Fin 256), i = ix2 r q := ⟨_, _, eq_ix2 i⟩
  unfold stack3
  by_cases h1 : r.val < 8192
  · rw [dif_pos (show ((ix2 r q) 0).val < 8192 from h1)]
    exact concatenate_apply_piece (t := ⟨2, ![16384, 256]⟩) (0 : Fin 2) [⟨⟨2, ![8192, 256]⟩, d⟩, ⟨⟨2, ![6144, 256]⟩, p⟩, ⟨⟨2, ![2048, 256]⟩, m⟩] h (ix2 r q) 0 (by show (0 : ℕ) < 3; omega) _ d rfl rfl 0 rfl (ix2 ⟨r.val, h1⟩ q)
      (fun b hb => by match b with | ⟨0, _⟩ => exact absurd rfl hb | ⟨1, _⟩ => rfl)
      (by show 0 + r.val = r.val; omega)
  · by_cases h2 : r.val < 14336
    · rw [dif_neg (show ¬ ((ix2 r q) 0).val < 8192 from h1), dif_pos (show ((ix2 r q) 0).val < 14336 from h2)]
      exact concatenate_apply_piece (t := ⟨2, ![16384, 256]⟩) (0 : Fin 2) [⟨⟨2, ![8192, 256]⟩, d⟩, ⟨⟨2, ![6144, 256]⟩, p⟩, ⟨⟨2, ![2048, 256]⟩, m⟩] h (ix2 r q) 1 (by show (1 : ℕ) < 3; omega) _ p rfl rfl 8192 rfl
        (ix2 ⟨r.val - 8192, by omega⟩ q)
        (fun b hb => by match b with | ⟨0, _⟩ => exact absurd rfl hb | ⟨1, _⟩ => rfl)
        (by show 8192 + (r.val - 8192) = r.val; omega)
    · rw [dif_neg (show ¬ ((ix2 r q) 0).val < 8192 from h1), dif_neg (show ¬ ((ix2 r q) 0).val < 14336 from h2)]
      exact concatenate_apply_piece (t := ⟨2, ![16384, 256]⟩) (0 : Fin 2) [⟨⟨2, ![8192, 256]⟩, d⟩, ⟨⟨2, ![6144, 256]⟩, p⟩, ⟨⟨2, ![2048, 256]⟩, m⟩] h (ix2 r q) 2 (by show (2 : ℕ) < 3; omega) _ m rfl rfl 14336 rfl
        (ix2 ⟨r.val - 14336, by have := r.isLt; omega⟩ q)
        (fun b hb => by match b with | ⟨0, _⟩ => exact absurd rfl hb | ⟨1, _⟩ => rfl)
        (by show 14336 + (r.val - 14336) = r.val; omega)

/-- The host's transpose of a matrix. -/
theorem ref_tr {a b : Nat} (H : Arr2 a b) (ht : (⟨2, ![a, b]⟩ : Shape).Transposes [1, 0] ⟨2, ![b, a]⟩) :
    transpose ⟨2, ![b, a]⟩ [1, 0] H ht = tr H := by
  funext i
  obtain ⟨p, q, rfl⟩ : ∃ (p : Fin b) (q : Fin a), i = ix2 p q := ⟨_, _, eq_ix2 i⟩
  exact transpose_apply _ H ht _ (ix2 q p) (fun c => by match c with | ⟨0, _⟩ => rfl | ⟨1, _⟩ => rfl)

/-- A block of whole rows sliced out of an array. -/
theorem ref_rowsFrom {N : Nat} (off : Nat) (u : Arr2 N 256) (h : off + n ≤ N)
    (hs : (⟨2, ![N, 256]⟩ : Shape).Slices ![off, 0] ⟨2, ![n, 256]⟩) :
    extractStridedSlice ⟨2, ![n, 256]⟩ ![off, 0] u hs = rowsFrom off u h := by
  funext i
  obtain ⟨p, q, rfl⟩ : ∃ (p : Fin n) (q : Fin 256), i = ix2 p q := ⟨_, _, eq_ix2 i⟩
  exact extractStridedSlice_apply _ u hs _ (ix2 ⟨off + p.val, by have := p.isLt; omega⟩ q) fun a => by
    match a with
    | ⟨0, _⟩ => rfl
    | ⟨1, _⟩ => show q.val = 0 + q.val; omega

/-- The host's gate: e times 1 / (1 + exp(−g)), the float one spread over the array. -/
theorem ref_gate (g e : Arr2 n 256) (hb : (⟨0, ![]⟩ : Shape).BroadcastsInDim ⟨2, ![n, 256]⟩ ![]) :
    mulf (F := Ideal) (φ := .f32)
      (Host.divf (broadcastInDim ⟨2, ![n, 256]⟩ ![] hb (constant (F := Ideal) ⟨0, ![]⟩ .f32 0x3F800000#32))
        (addf (broadcastInDim ⟨2, ![n, 256]⟩ ![] hb (constant (F := Ideal) ⟨0, ![]⟩ .f32 0x3F800000#32))
          (Host.exp (Host.negf g)))) e = gate g e := by
  funext i
  rw [mulf_apply, hostDivf_apply, addf_apply, broadcastInDim_scalar_apply hb, constant_apply, Ideal.ofBits_one_f32]
  rfl

end Cert.Lorentz

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.Val.LinPay.lean ====
/-
  The body of a Lorentz linear kernel, read entry by entry at the ideal values.

  The body forms y = x·Wᵀ + b (a rows-against-rows matrix product into zeros, plus the bias row broadcast down the
  rows), cuts y into its column 0 and its columns 1..255, computes the time coordinate t = σ(y₀)·s + 1.1 and the
  factor sqrt((t² − 1) / max(Σ_{k≥1} y_k², ε)) as columns, and puts the time column beside the rescaled columns.
  Entry (p, q) of the result is therefore entry (p, q) of the Lorentz linear layer of the specification.
-/
import proofs.«103499_j73031623901527_2_alg».proof.Proof.Gen.KernelIdeal.Skeleton
import proofs.«103499_j73031623901527_2_alg».proof.Proof.Spec
import proofs.«103499_j73031623901527_2_alg».proof.Proof.LibRowLanes
import proofs.«103499_j73031623901527_2_alg».proof.Proof.LibKeepdims
import Idealize.ShloMosaic.Lib.Pipeline.Value
import Idealize.ShloMosaic.Lib.ValueLayout
import Idealize.ShloMosaic.Lib.ValueIdx

noncomputable section

namespace Cert.KernelIdeal.Val

open Cert.KernelIdeal Cert.KernelIdeal.Gen Cert.Lorentz Cert.Sage Idealize.ShloMosaic Idealize.ShloMosaic.ValueIdx
open scoped BigOperators

/-- The one row of a [1, 256] array, as a vector of 256 entries. -/
def rowVec (b : Arr2 1 256) : Arr1 256 := fun j => b (ix2 (0 : Fin 1) ⟨(j 0).val, (j 0).isLt⟩)

/-! ## The dimension numbers of the body's matrix product: rows against rows -/

abbrev Dlin : DotDims S2048x256 S256x256 S2048x256 := dot_S2048x256_S256x256_S2048x256_1_1_0_0_n_n

theorem Dlin_l0 (i : S2048x256.Idx) (k : Dlin.contr.Idx) : (Dlin.lhsIdx i k 0).val = (i 0).val := by
  simp [DotDims.lhsIdx, Dlin, dot_S2048x256_S256x256_S2048x256_1_1_0_0_n_n]; rfl
theorem Dlin_l1 (i : S2048x256.Idx) (k : Dlin.contr.Idx) : (Dlin.lhsIdx i k 1).val = (k ⟨0, by decide⟩).val := by
  simp [DotDims.lhsIdx, Dlin, dot_S2048x256_S256x256_S2048x256_1_1_0_0_n_n]; rfl
theorem Dlin_r0 (i : S2048x256.Idx) (k : Dlin.contr.Idx) : (Dlin.rhsIdx i k 0).val = (i 1).val := by
  simp [DotDims.rhsIdx, Dlin, dot_S2048x256_S256x256_S2048x256_1_1_0_0_n_n]; rfl
theorem Dlin_r1 (i : S2048x256.Idx) (k : Dlin.contr.Idx) : (Dlin.rhsIdx i k 1).val = (k ⟨0, by decide⟩).val := by
  simp [DotDims.rhsIdx, Dlin, dot_S2048x256_S256x256_S2048x256_1_1_0_0_n_n]; rfl

/-! ## y = x·Wᵀ + b -/

/-- The body's pre-activation: the matrix product into zeros plus the bias row broadcast down the rows. -/
def preBody (x : FVec Ideal S2048x256 .bf16) (W : FVec Ideal S256x256 .bf16) (b : FVec Ideal S1x256 .f32) :
    FVec Ideal S2048x256 .f32 :=
  addf (matmul Dlin none (shapeCast S2048x256 x shapeCasts_S2048x256_S2048x256) (shapeCast S256x256 W shapeCasts_S256x256_S256x256)
      (constant S2048x256 .f32 0x00000000#32))
    (broadcastTo S2048x256 (shapeCast S1x256 b shapeCasts_S1x256_S1x256) broadcasts_S1x256_S2048x256)

theorem preBody_eq (x : FVec Ideal S2048x256 .bf16) (W : FVec Ideal S256x256 .bf16) (b : FVec Ideal S1x256 .f32) :
    preBody x W b = pre (n := 2048) x W (rowVec b) := by
  funext i
  obtain ⟨p, q, rfl⟩ : ∃ (p : Fin 2048) (q : Fin 256), i = ix2 p q := ⟨i 0, i 1, eq_ix2 i⟩
  unfold preBody
  rw [shapeCast_self, shapeCast_self, shapeCast_self, addf_apply,
    Cert.LibRowLanes.matmul_zero_rows_rows Dlin rfl rfl Dlin_l0 Dlin_l1 Dlin_r0 Dlin_r1 none x W p q,
    broadcastTo_1b_ab_apply b broadcasts_S1x256_S2048x256 p q]
  rfl

/-! ## The Lorentz re-projection of y -/

section body
variable (Y : FVec Ideal S2048x256 .f32) (s : FVec Ideal S1x1 .f32)

/-- Column 0 of y. -/
def headCol : FVec Ideal S2048x1 .f32 := extractStridedSlice S2048x1 ![0, 0] Y slices_S2048x256_o0_0_S2048x1
/-- Columns 1..255 of y. -/
def tailCols : FVec Ideal S2048x255 .f32 := extractStridedSlice S2048x255 ![0, 1] Y slices_S2048x256_o0_1_S2048x255

/-- The time column: σ(y₀)·s + 1.1. -/
def timeCol : FVec Ideal S2048x1 .f32 :=
  addf (mulf (logistic (headCol Y)) (broadcastTo S2048x1 (shapeCast S1x1 s shapeCasts_S1x1_S1x1) broadcasts_S1x1_S2048x1))
    (broadcast S2048x1 (Scalar.ofBits .f32 0x3F8CCCCD#32))

/-- The column of max(Σ_{k≥1} y_k², ε). -/
def sqCol : FVec Ideal S2048x1 .f32 :=
  maximumf (shapeCast S2048x1
      (multiReduction .add [1] S2048 (mulf (tailCols Y) (tailCols Y)) 0x00000000#32 reduces_S2048x255_S2048 (.inl rfl) rfl)
      shapeCasts_S2048_S2048x1)
    (broadcast S2048x1 (Scalar.ofBits .f32 0x322BCC77#32))

/-- The column of factors sqrt((t² − 1) / max(Σ_{k≥1} y_k², ε)). -/
def scaleCol : FVec Ideal S2048x1 .f32 :=
  sqrt (divf (subf (mulf (timeCol Y s) (timeCol Y s)) (broadcast S2048x1 (Scalar.ofBits .f32 0x3F800000#32))) (sqCol Y))

/-- The body after the pre-activation: the time column beside the rescaled columns. -/
def projBody : FVec Ideal S2048x256 .f32 :=
  concatenate S2048x256 1
    [⟨S2048x1, timeCol Y s⟩, ⟨S2048x255, mulf (tailCols Y) (broadcastTo S2048x255 (scaleCol Y s) broadcasts_S2048x1_S2048x255)⟩]
    concatenates_S2048x1_S2048x255_S2048x256_d1

theorem headCol_apply (p : Fin 2048) : headCol Y (ix2 p (0 : Fin 1)) = Y (ix2 p (0 : Fin 256)) :=
  slice2_axis1_apply 0 Y slices_S2048x256_o0_0_S2048x1 p (0 : Fin 1) (0 : Fin 256) rfl

theorem tailCols_apply (p : Fin 2048) (j : Fin 255) : tailCols Y (ix2 p j) = Y (ix2 p (tailCol j)) :=
  slice2_axis1_apply 1 Y slices_S2048x256_o0_1_S2048x255 p j (tailCol j) (Nat.add_comm _ _)

theorem scalarCol_apply (p : Fin 2048) :
    broadcastTo S2048x1 (shapeCast S1x1 s shapeCasts_S1x1_S1x1) broadcasts_S1x1_S2048x1 (ix2 p (0 : Fin 1))
      = s (ix2 (0 : Fin 1) (0 : Fin 1)) := by
  rw [shapeCast_self]
  refine broadcastTo_apply s broadcasts_S1x1_S2048x1 (ix2 p (0 : Fin 1)) (ix2 (0 : Fin 1) (0 : Fin 1)) fun a => ?_
  match a with
  | ⟨0, _⟩ => rfl
  | ⟨1, _⟩ => rfl

theorem timeCol_apply (p : Fin 2048) :
    timeCol Y s (ix2 p (0 : Fin 1)) = timeOf (n := 2048) Y (s (ix2 (0 : Fin 1) (0 : Fin 1))) p := by
  unfold timeCol timeOf
  rw [addf_apply, mulf_apply, scalarCol_apply]
  show Ideal.logistic (headCol Y (ix2 p (0 : Fin 1))) * _ + _ = _
  rw [headCol_apply]
  rfl

theorem sqCol_apply (p : Fin 2048) : sqCol Y (ix2 p (0 : Fin 1)) = max (tailSq (n := 2048) Y p) eps := by
  unfold sqCol tailSq
  rw [maximumf_apply, Cert.LibKeepdims.shapeCast_a_a1_apply]
  refine congrArg₂ max ?_ rfl
  refine (Cert.LibRowLanes.sum_row_apply (mulf (tailCols Y) (tailCols Y)) 0x00000000#32 reduces_S2048x255_S2048 (.inl rfl) rfl p).trans ?_
  refine Finset.sum_congr rfl fun j _ => ?_
  rw [mulf_apply, tailCols_apply]

theorem scaleCol_apply (p : Fin 2048) :
    scaleCol Y s (ix2 p (0 : Fin 1)) = scaleOf (n := 2048) Y (s (ix2 (0 : Fin 1) (0 : Fin 1))) p := by
  unfold scaleCol scaleOf
  show Ideal.sqrt (Ideal.div (timeCol Y s (ix2 p (0 : Fin 1)) * timeCol Y s (ix2 p (0 : Fin 1)) - _) (sqCol Y (ix2 p (0 : Fin 1)))) = _
  rw [timeCol_apply, sqCol_apply]
  rfl

/-- The body after the pre-activation is the Lorentz re-projection, entry by entry. -/
theorem projBody_eq : projBody Y s = proj (n := 2048) Y (s (ix2 (0 : Fin 1) (0 : Fin 1))) := by
  funext i
  obtain ⟨p, q, rfl⟩ : ∃ (p : Fin 2048) (q : Fin 256), i = ix2 p q := ⟨i 0, i 1, eq_ix2 i⟩
  unfold projBody proj
  by_cases hq : q.val = 0
  · rw [if_pos (show ((ix2 p q : (⟨2, ![2048, 256]⟩ : Shape).Idx) 1).val = 0 from hq)]
    refine (concatenate_pair_apply_left (t := S2048x256) (s₁ := S2048x1) (s₂ := S2048x255) (1 : Fin 2) (timeCol Y s)
      (mulf (tailCols Y) (broadcastTo S2048x255 (scaleCol Y s) broadcasts_S2048x1_S2048x255))
      concatenates_S2048x1_S2048x255_S2048x256_d1 (ix2 p q) rfl
      (ix2 p (0 : Fin 1)) fun b => ?_).trans (timeCol_apply Y s p)
    match b with
    | ⟨0, _⟩ => rfl
    | ⟨1, _⟩ => exact hq.symm
  · rw [if_neg (show ¬ ((ix2 p q : (⟨2, ![2048, 256]⟩ : Shape).Idx) 1).val = 0 from hq)]
    have hj : q.val - 1 < 255 := by have := q.isLt; omega
    have hqj : q = tailCol ⟨q.val - 1, hj⟩ := Fin.ext (by show q.val = q.val - 1 + 1; omega)
    refine (concatenate_pair_apply_right (t := S2048x256) (s₁ := S2048x1) (s₂ := S2048x255) (1 : Fin 2) (timeCol Y s)
      (mulf (tailCols Y) (broadcastTo S2048x255 (scaleCol Y s) broadcasts_S2048x1_S2048x255))
      concatenates_S2048x1_S2048x255_S2048x256_d1 (ix2 p q) rfl rfl
      (ix2 p (⟨q.val - 1, hj⟩ : Fin 255)) (fun b hb => ?_) ?_).trans ?_
    · match b with
      | ⟨0, _⟩ => rfl
      | ⟨1, _⟩ => exact absurd rfl hb
    · show q.val - 1 + 1 = q.val
      omega
    · rw [mulf_apply, tailCols_apply, Cert.LibKeepdims.broadcastTo_a1_ab_apply, scaleCol_apply, ← hqj]

end body

/-! ## The payload -/

/-- The body's stored value is the Lorentz linear layer of the four loaded blocks. -/
theorem k0_pay1_eq (x : FVec Ideal S2048x256 .bf16) (W : FVec Ideal S256x256 .bf16) (b : FVec Ideal S1x256 .f32)
    (s : FVec Ideal S1x1 .f32) :
    k0_pay1 (F := Ideal) x W b s = Cert.Lorentz.linear (n := 2048) x W (rowVec b) (s (ix2 (0 : Fin 1) (0 : Fin 1))) := by
  have h : k0_pay1 (F := Ideal) x W b s = projBody (preBody x W b) s := rfl
  rw [h, projBody_eq, preBody_eq]
  rfl

theorem k2_pay1_eq_k0 : @k2_pay1 Ideal _ = @k0_pay1 Ideal _ := rfl
theorem k4_pay1_eq_k0 : @k4_pay1 Ideal _ = @k0_pay1 Ideal _ := rfl
theorem k5_pay1_eq_k0 : @k5_pay1 Ideal _ = @k0_pay1 Ideal _ := rfl
theorem k6_pay1_eq_k0 : @k6_pay1 Ideal _ = @k0_pay1 Ideal _ := rfl
theorem k9_pay1_eq_k0 : @k9_pay1 Ideal _ = @k0_pay1 Ideal _ := rfl
theorem k13_pay1_eq_k0 : @k13_pay1 Ideal _ = @k0_pay1 Ideal _ := rfl
theorem k15_pay1_eq_k0 : @k15_pay1 Ideal _ = @k0_pay1 Ideal _ := rfl

/-! ## The layer reads one row: a block of rows of the layer is the layer of the block of rows -/

theorem pre_rows {N n : Nat} (X : Arr2 N 256) (x : Arr2 n 256) (W : Arr2 256 256) (b : Arr1 256)
    (I : (⟨2, ![N, 256]⟩ : Shape).Idx) (i : (⟨2, ![n, 256]⟩ : Shape).Idx) (hc : (I 1).val = (i 1).val)
    (hx : ∀ q : Fin 256, X (ix2 (rowOf I) q) = x (ix2 (rowOf i) q)) : pre X W b I = pre x W b i := by
  have hcol : colOf I = colOf i := Fin.ext hc
  unfold pre
  rw [hcol]
  simp only [hx]

theorem linear_rows {N n : Nat} (X : Arr2 N 256) (x : Arr2 n 256) (W : Arr2 256 256) (b : Arr1 256) (s : EReal)
    (I : (⟨2, ![N, 256]⟩ : Shape).Idx) (i : (⟨2, ![n, 256]⟩ : Shape).Idx) (hc : (I 1).val = (i 1).val)
    (hx : ∀ q : Fin 256, X (ix2 (rowOf I) q) = x (ix2 (rowOf i) q)) : linear X W b s I = linear x W b s i := by
  unfold linear
  refine proj_rows (pre X W b) (pre x W b) s I i hc fun q => ?_
  exact pre_rows X x W b (ix2 (rowOf I) q) (ix2 (rowOf i) q) rfl fun q' => hx q'

end Cert.KernelIdeal.Val

end
-- ==== Proof.Val.Bridge0.lean ====
/- The kernel side of the value bridge, the vocabulary: the 21 argument arrays of core `c` as the model's arrays, the
   model's intermediate arrays stage by stage, and the host's recast of a vector as one row read back. -/
import proofs.«103499_j73031623901527_2_alg».proof.Proof.KI.Run1
import proofs.«103499_j73031623901527_2_alg».proof.Proof.Layout
import proofs.«103499_j73031623901527_2_alg».proof.Proof.Halves
import proofs.«103499_j73031623901527_2_alg».proof.Proof.Ref.RefParts
import proofs.«103499_j73031623901527_2_alg».proof.Proof.Val.LinPay

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-! ## The 21 argument arrays: the launch memory of core `c` at each argument, at the model's type -/

abbrev aDis : Arr2 8192 256 := m ((c : Thread nD τ).loc main_arg0)
abbrev aPro : Arr2 6144 256 := m ((c : Thread nD τ).loc main_arg1)
abbrev aMed : Arr2 2048 256 := m ((c : Thread nD τ).loc main_arg2)
abbrev aH : Arr2 16384 8192 := m ((c : Thread nD τ).loc main_arg3)
abbrev aA : Arr2 8192 8192 := m ((c : Thread nD τ).loc main_arg4)
abbrev aDdi : Arr2 2048 2048 := m ((c : Thread nD τ).loc main_arg5)
abbrev aWh : Arr2 256 256 := m ((c : Thread nD τ).loc main_arg6)
abbrev aBh : Arr1 256 := m ((c : Thread nD τ).loc main_arg7)
abbrev aSh : (⟨0, ![]⟩ : Shape).Idx → EReal := m ((c : Thread nD τ).loc main_arg8)
abbrev aWl : Arr2 256 256 := m ((c : Thread nD τ).loc main_arg9)
abbrev aBl : Arr1 256 := m ((c : Thread nD τ).loc main_arg10)
abbrev aSl : (⟨0, ![]⟩ : Shape).Idx → EReal := m ((c : Thread nD τ).loc main_arg11)
abbrev aWhg : (⟨3, ![2, 256, 256]⟩ : Shape).Idx → EReal := m ((c : Thread nD τ).loc main_arg12)
abbrev aBhg : Arr2 2 256 := m ((c : Thread nD τ).loc main_arg13)
abbrev aShg : Arr1 2 := m ((c : Thread nD τ).loc main_arg14)
abbrev aWg : (⟨3, ![2, 256, 256]⟩ : Shape).Idx → EReal := m ((c : Thread nD τ).loc main_arg15)
abbrev aBg : Arr2 2 256 := m ((c : Thread nD τ).loc main_arg16)
abbrev aSg : Arr1 2 := m ((c : Thread nD τ).loc main_arg17)
abbrev aWd : (⟨3, ![2, 256, 256]⟩ : Shape).Idx → EReal := m ((c : Thread nD τ).loc main_arg18)
abbrev aBd : Arr2 2 256 := m ((c : Thread nD τ).loc main_arg19)
abbrev aSd : Arr1 2 := m ((c : Thread nD τ).loc main_arg20)

/-! ## The model's arrays, stage by stage -/

/-- The three embedding tables stacked. -/
abbrev mE : Arr2 16384 256 := stack3 (aDis m c) (aPro m c) (aMed m c)
/-- The first layer on the medicine embeddings. -/
abbrev mL0 : Arr2 2048 256 := linear (aMed m c) (layerW (aWd m c) 0) (layerB (aBd m c) 0) (layerS (aSd m c) 0)
/-- … aggregated over the interaction graph. -/
abbrev mD1 : Arr2 2048 256 := agg (aDdi m c) (mL0 m c)
/-- The second layer. -/
abbrev mL2 : Arr2 2048 256 := linear (mD1 m c) (layerW (aWd m c) 1) (layerB (aBd m c) 1) (layerS (aSd m c) 1)
/-- … aggregated: the interaction-graph representation of the medicines. -/
abbrev mD3 : Arr2 2048 256 := agg (aDdi m c) (mL2 m c)
/-- The first gate's layer. -/
abbrev mG4 : Arr2 16384 256 := linear (mE m c) (aWh m c) (aBh m c) (scalarS (aSh m c))
/-- The first gated copy. -/
abbrev mHG : Arr2 16384 256 := gate (mG4 m c) (mE m c)
/-- The second gate's layer. -/
abbrev mG5 : Arr2 16384 256 := linear (mE m c) (aWl m c) (aBl m c) (scalarS (aSl m c))
/-- The second gated copy. -/
abbrev mLG : Arr2 16384 256 := gate (mG5 m c) (mE m c)
/-- The first hypergraph layer: its linear layer, -/
abbrev mL6 : Arr2 16384 256 := linear (mHG m c) (layerW (aWhg m c) 0) (layerB (aBhg m c) 0) (layerS (aShg m c) 0)
/-- carried to the hyperedges, -/
abbrev mA7 : Arr2 8192 256 := agg (tr (aH m c)) (mL6 m c)
/-- and back to the nodes. -/
abbrev mA8 : Arr2 16384 256 := agg (aH m c) (mA7 m c)
/-- The second hypergraph layer: its linear layer, -/
abbrev mL9 : Arr2 16384 256 := linear (mA8 m c) (layerW (aWhg m c) 1) (layerB (aBhg m c) 1) (layerS (aShg m c) 1)
/-- carried to the hyperedges, -/
abbrev mA10 : Arr2 8192 256 := agg (tr (aH m c)) (mL9 m c)
/-- and back to the nodes: the node embeddings. -/
abbrev mA11 : Arr2 16384 256 := agg (aH m c) (mA10 m c)
/-- The node embeddings beside the second gated copy. -/
abbrev mB12 : Arr2 16384 512 := beside (mA11 m c) (mLG m c)
/-- Both carried to the hyperedges at once, each half normalised. -/
abbrev mN12 : Arr2 8192 512 := norm2 (rowsMul (tr (aH m c)) (mB12 m c))
/-- The left half: the hyperedge representation. -/
abbrev mR1 : Arr2 8192 256 := agg (tr (aH m c)) (mA11 m c)
/-- The right half: the second gated copy on the hyperedges. -/
abbrev mP13 : Arr2 8192 256 := agg (tr (aH m c)) (mLG m c)
/-- The first graph layer on the hyperedges: its linear layer, -/
abbrev mL13 : Arr2 8192 256 := linear (mP13 m c) (layerW (aWg m c) 0) (layerB (aBg m c) 0) (layerS (aSg m c) 0)
/-- aggregated. -/
abbrev mA14 : Arr2 8192 256 := agg (aA m c) (mL13 m c)
/-- The second graph layer: its linear layer, -/
abbrev mL15 : Arr2 8192 256 := linear (mA14 m c) (layerW (aWg m c) 1) (layerB (aBg m c) 1) (layerS (aSg m c) 1)
/-- aggregated: the graph representation. -/
abbrev mA16 : Arr2 8192 256 := agg (aA m c) (mL15 m c)

/-! ## Two readings of the host's operations -/

/-- Rounding to a narrower format is the identity on the reals. -/
theorem truncf_ideal {s : Shape} {φ ψ : FTy} (a : FVec Ideal s φ) (h : ψ.bits < φ.bits) : (truncf ψ a h : FVec Ideal s ψ) = a :=
  funext fun i => truncf_apply a h i

/-- A vector of 256 entries recast as one row, read back as a vector. -/
theorem rowVec_shapeCast (b : Arr1 256) (hc : (⟨1, ![256]⟩ : Shape).ShapeCasts ⟨2, ![1, 256]⟩) :
    rowVec (shapeCast ⟨2, ![1, 256]⟩ b hc) = b := by
  funext j
  obtain ⟨q, rfl⟩ : ∃ q : Fin 256, j = ix1 q := ⟨_, eq_ix1 j⟩
  show shapeCast ⟨2, ![1, 256]⟩ b hc (ix2 (0 : Fin 1) ⟨((ix1 q : (⟨1, ![256]⟩ : Shape).Idx) 0).val, ((ix1 q : (⟨1, ![256]⟩ : Shape).Idx) 0).isLt⟩) = b (ix1 q)
  exact shapeCast_apply b hc _ (ix1 q) (by
    rw [Shape.rowMajor_val_two, Shape.rowMajor_val_one]
    show q.val = 0 * 256 + q.val
    omega)

end Cert.KernelIdeal.Val

end
-- ==== Proof.Val.Bridge1.lean ====
/- The kernel side of the value bridge, boundary 1: what the first stretch of host operations leaves in the buffers the
   regions read, over the launch memory. -/
import proofs.«103499_j73031623901527_2_alg».proof.Proof.Val.Bridge0

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-! ## Boundary 1: the first stretch's results, over the launch memory -/

/-- The incidence matrix (the rounding to the narrower format is the identity on the reals). -/
theorem val_v0_1 : (W1 m ρ c (Proc.devRef .tc main_v0) : S16384x8192.Idx → EReal) = aH m c := by
  after_results
  rfl

/-- The transposed incidence matrix. -/
theorem val_v1_1 : (W1 m ρ c (Proc.devRef .tc main_v1) : S8192x16384.Idx → EReal) = tr (aH m c) := by
  after_results
  exact transpose_tr _ _

/-- The hyperedge graph. -/
theorem val_v2_1 : (W1 m ρ c (Proc.devRef .tc main_v2) : S8192x8192.Idx → EReal) = aA m c := by
  after_results
  rfl

/-- The interaction graph. -/
theorem val_v3_1 : (W1 m ρ c (Proc.devRef .tc main_v3) : S2048x2048.Idx → EReal) = aDdi m c := by
  after_results
  rfl

/-- The three embedding tables stacked. -/
theorem val_v4_1 : (W1 m ρ c (Proc.devRef .tc main_v4) : S16384x256.Idx → EReal) = mE m c := by
  after_results
  exact ref_stack3 _ _ _ _

/-- The medicine embeddings. -/
theorem val_v11_1 : (W1 m ρ c (Proc.devRef .tc main_v11) : S2048x256.Idx → EReal) = aMed m c := by
  after_results
  rfl

/-- Matrix 0 of the stack, sliced out and recast. -/
theorem val_v12_1 : (W1 m ρ c (Proc.devRef .tc main_v12) : S256x256.Idx → EReal) = layerW (aWd m c) 0 := by
  after_results
  refine Eq.trans (truncf_ideal _ _) ?_
  exact slice_layerW _ 0 0 rfl _ _

/-- Bias row 0 of the stack, sliced out and recast as one row. -/
theorem val_v13_1 : rowVec (W1 m ρ c (Proc.devRef .tc main_v13) : S1x256.Idx → EReal) = layerB (aBd m c) 0 := by
  after_results
  exact (rowVec_shapeCast _ _).trans (slice_layerB _ 0 0 rfl _ _)

/-- The exponential of log-scale 0 of the stack. -/
theorem val_v15_1 : (W1 m ρ c (Proc.devRef .tc main_v15) : S1x1.Idx → EReal) (ix2 (0 : Fin 1) (0 : Fin 1)) = layerS (aSd m c) 0 := by
  after_results
  exact (shapeCast_scalar_11 _ _).trans (slice_layerS _ 0 0 rfl _ _)

end Cert.KernelIdeal.Val

end
-- ==== Proof.Val.LinRegion0.lean ====
/-
  Region 0 of the program: a Lorentz linear layer over 2048 rows, computed in one block of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin0
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The layer of the arrays region 0 finds: input rows, weights, bias row, scale. -/
def G0 (c : Dev nD) : S2048x256.Idx → EReal :=
  linear (n := 2048) (V c (Pipeline.arrRef spec0 0) : S2048x256.Idx → EReal) (V c (Pipeline.arrRef spec0 1) : S256x256.Idx → EReal)
    (rowVec (V c (Pipeline.arrRef spec0 2) : S1x256.Idx → EReal)) ((V c (Pipeline.arrRef spec0 3) : S1x1.Idx → EReal) (ix2 (0 : Fin 1) (0 : Fin 1)))

/-- The printed index maps, decided over the grid: the row windows are at block (t, 0), the others at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The input window's block at point t is rows 2048·t … of the input array. -/
theorem iblk0_0_apply (c : Dev nD) (t : Fin cfg0.N) (x : S2048x256.Idx) (k : S2048x256.Idx)
    (hk0 : (k 0).val = 2048 * t.val + (x 0).val) (hk1 : (k 1).val = (x 1).val) :
    (iblk0 V c 0 t : S2048x256.Idx → EReal) x = (V c (Pipeline.arrRef spec0 0) : S2048x256.Idx → EReal) k := by
  obtain ⟨e0, e1, -⟩ := idx_facts0 t
  unfold iblk0
  rw [View.read_apply]
  show (V c (Pipeline.arrRef spec0 0) : S2048x256.Idx → EReal) _ = _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 256 + 1 * (x 1).val = (k 1).val; rw [e1, hk1]; omega

/-- The weights', bias row's and scale's windows are the whole arrays at every point. -/
theorem iblk0_1_eq (c : Dev nD) (t : Fin cfg0.N) :
    (iblk0 V c 1 t : S256x256.Idx → EReal) = (V c (Pipeline.arrRef spec0 1) : S256x256.Idx → EReal) := by
  obtain ⟨-, -, e0, e1, -⟩ := idx_facts0 t
  funext x
  unfold iblk0
  rw [View.read_apply]
  show (V c (Pipeline.arrRef spec0 1) : S256x256.Idx → EReal) _ = _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

theorem iblk0_2_eq (c : Dev nD) (t : Fin cfg0.N) :
    (iblk0 V c 2 t : S1x256.Idx → EReal) = (V c (Pipeline.arrRef spec0 2) : S1x256.Idx → EReal) := by
  obtain ⟨-, -, -, -, e0, e1, -⟩ := idx_facts0 t
  funext x
  unfold iblk0
  rw [View.read_apply]
  show (V c (Pipeline.arrRef spec0 2) : S1x256.Idx → EReal) _ = _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

theorem iblk0_3_eq (c : Dev nD) (t : Fin cfg0.N) :
    (iblk0 V c 3 t : S1x1.Idx → EReal) = (V c (Pipeline.arrRef spec0 3) : S1x1.Idx → EReal) := by
  obtain ⟨-, -, -, -, -, -, e0, e1, -⟩ := idx_facts0 t
  funext x
  unfold iblk0
  rw [View.read_apply]
  show (V c (Pipeline.arrRef spec0 3) : S1x1.Idx → EReal) _ = _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 1 + 1 * (x 1).val = (x 1).val; rw [e1]; omega

/-- What the body leaves at point t is the layer of the four blocks. -/
theorem out0_4_eq (x0 : Vec Ideal S2048x256 .bf16) (x1 : Vec Ideal S256x256 .bf16) (x2 : Vec Ideal S1x256 .f32) (x3 : Vec Ideal S1x1 .f32) :
    out0_4 (F := Ideal) x0 x1 x2 x3 = linear (n := 2048) x0 x1 (rowVec x2) (x3 (ix2 (0 : Fin 1) (0 : Fin 1))) := by
  unfold out0_4
  rw [View.canon_unit_zero hz0]
  simp only [View.ld_unit_zero (S := S2048x256) hz0, View.ld_unit_zero (S := S256x256) hz0, View.ld_unit_zero (S := S1x256) hz0,
    View.ld_unit_zero (S := S1x1) hz0]
  exact k0_pay1_eq x0 x1 x2 x3

/-- WHAT POINT t WRITES BACK is block t of the layer of the whole arrays. -/
theorem flushed0_eq (c : Dev nD) (t : Fin cfg0.N) :
    (dat0 (F := Ideal) V c).flushed 4 t = ((cfg0.win 4).blk t).view.read (Elt Ideal) (G0 V c) := by
  show (cfg0.win 4).cut (grid0.coords t) ((dat0 (F := Ideal) V c).after 4 t) = _
  rw [after0_4, out0_4_eq, iblk0_1_eq, iblk0_2_eq, iblk0_3_eq]
  obtain ⟨-, -, -, -, -, -, -, -, e0, e1⟩ := idx_facts0 t
  funext j
  show linear (n := 2048) (iblk0 V c 0 t : S2048x256.Idx → EReal) _ _ _ j = G0 V c (((cfg0.win 4).blk t).view.emb j)
  unfold G0
  have h0 : ((((cfg0.win 4).blk t).view.emb j : S2048x256.Idx) 0).val = 2048 * t.val + (j 0).val := by
    show win0_4.index t (0 : Fin 2) * 2048 + 1 * (j 0).val = _; rw [e0]; omega
  have h1 : ((((cfg0.win 4).blk t).view.emb j : S2048x256.Idx) 1).val = (j 1).val := by
    show win0_4.index t (1 : Fin 2) * 256 + 1 * (j 1).val = _; rw [e1]; omega
  refine (linear_rows (N := 2048) (n := 2048) _ _ _ _ _ (((cfg0.win 4).blk t).view.emb j) j h1 fun q => ?_).symm
  exact (iblk0_0_apply V c t (ix2 (rowOf j) q) (ix2 (rowOf (((cfg0.win 4).blk t).view.emb j : S2048x256.Idx)) q) h0 rfl).symm

/-- An index of the output array is in point t's block iff each coordinate is in the block's range on its axis. -/
theorem mem_blk0 (t : Fin cfg0.N) (i : S2048x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v16).slice (win0_4.rect t)).set ↔ _
  rw [View.set_slice_whole, Rect.mem_set_unit]
  exact Iff.rfl

/-- THE ARRAY after the run: the layer of the arrays the region found. -/
theorem lin_arrAt0_G (c : Dev nD) : (dat0 (F := Ideal) V c).arrAt 4 cfg0.N = G0 V c := by
  refine (dat0 (F := Ideal) V c).arrAt_eq_of_cover 4 (G0 V c) (fun t _ => flushed0_eq V c t) fun i => ?_
  have hi0 : (i 0).val < 2048 := (i 0).isLt
  have hi1 : (i 1).val < 256 := (i 1).isLt
  refine ⟨⟨(i 0).val / 2048, by show (i 0).val / 2048 < 1; omega⟩, flush0_4 _, ?_⟩
  rw [mem_blk0]
  obtain ⟨-, -, -, -, -, -, -, -, e0, e1⟩ := idx_facts0 ⟨(i 0).val / 2048, by show (i 0).val / 2048 < 1; omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ (i 0).val ∧ (i 0).val < (i 0).val / 2048 * 2048 + 2048; omega
  | ⟨1, _⟩ =>
    show win0_4.index _ (1 : Fin 2) * 256 ≤ (i 1).val ∧ (i 1).val < win0_4.index _ (1 : Fin 2) * 256 + 256
    rw [e1]; omega

/-- The same, with the layer written out. -/
theorem lin_arrAt0 (c : Dev nD) : (dat0 (F := Ideal) V c).arrAt 4 cfg0.N
    = linear (n := 2048) (V c (Pipeline.arrRef spec0 0) : S2048x256.Idx → EReal) (V c (Pipeline.arrRef spec0 1) : S256x256.Idx → EReal)
        (rowVec (V c (Pipeline.arrRef spec0 2) : S1x256.Idx → EReal))
        ((V c (Pipeline.arrRef spec0 3) : S1x1.Idx → EReal) (ix2 (0 : Fin 1) (0 : Fin 1))) :=
  lin_arrAt0_G V c

end Cert.KernelIdeal.Val

end
-- ==== Proof.Val.LinRegion2.lean ====
/-
  Region 2 of the program: a Lorentz linear layer over 2048 rows, computed in one block of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin2
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The layer of the arrays region 2 finds: input rows, weights, bias row, scale. -/
def G2 (c : Dev nD) : S2048x256.Idx → EReal :=
  linear (n := 2048) (V c (Pipeline.arrRef spec2 0) : S2048x256.Idx → EReal) (V c (Pipeline.arrRef spec2 1) : S256x256.Idx → EReal)
    (rowVec (V c (Pipeline.arrRef spec2 2) : S1x256.Idx → EReal)) ((V c (Pipeline.arrRef spec2 3) : S1x1.Idx → EReal) (ix2 (0 : Fin 1) (0 : Fin 1)))

/-- The printed index maps, decided over the grid: the row windows are at block (t, 0), the others at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The input window's block at point t is rows 2048·t … of the input array. -/
theorem iblk2_0_apply (c : Dev nD) (t : Fin cfg2.N) (x : S2048x256.Idx) (k : S2048x256.Idx)
    (hk0 : (k 0).val = 2048 * t.val + (x 0).val) (hk1 : (k 1).val = (x 1).val) :
    (iblk2 V c 0 t : S2048x256.Idx → EReal) x = (V c (Pipeline.arrRef spec2 0) : S2048x256.Idx → EReal) k := by
  obtain ⟨e0, e1, -⟩ := idx_facts2 t
  unfold iblk2
  rw [View.read_apply]
  show (V c (Pipeline.arrRef spec2 0) : S2048x256.Idx → EReal) _ = _
  congr 1
  funext a
  apply Fin.ext
  match a with
  | ⟨0, _⟩ => show win2_0.index t (0 : Fin 2) * 2048 + 1 * (x 0).val = (k 0).val; rw [e0, hk0]; omega
  | ⟨1, _⟩ => show win2_0.index t (1 : Fin 2) * 256 + 1 * (x 1).val = (k 1).val; rw [e1, hk1]; omega

/-- The weights', bias row's and scale's windows are the whole arrays at every point. -/
theorem iblk2_1_eq (c : Dev nD) (t : Fin cfg2.N) :
    (iblk2 V c 1 t : S256x256.Idx → EReal) = (V c (Pipeline.arrRef spec2 1) : S256x256.Idx → EReal) := by
  obtain ⟨-, -, e0, e1, -⟩ := idx_facts2 t
  funext x
  unfold iblk2
  rw [View.read_apply]
  show (V c (Pipeline.arrRef spec2 1) : S256x256.Idx → EReal) _ = _
  congr 1
  funext a
  apply Fin.ext
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

theorem iblk2_2_eq (c : Dev nD) (t : Fin cfg2.N) :
    (iblk2 V c 2 t : S1x256.Idx → EReal) = (V c (Pipeline.arrRef spec2 2) : S1x256.Idx → EReal) := by
  obtain ⟨-, -, -, -, e0, e1, -⟩ := idx_facts2 t
  funext x
  unfold iblk2
  rw [View.read_apply]
  show (V c (Pipeline.arrRef spec2 2) : S1x256.Idx → EReal) _ = _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

theorem iblk2_3_eq (c : Dev nD) (t : Fin cfg2.N) :
    (iblk2 V c 3 t : S1x1.Idx → EReal) = (V c (Pipeline.arrRef spec2 3) : S1x1.Idx → EReal) := by
  obtain ⟨-, -, -, -, -, -, e0, e1, -⟩ := idx_facts2 t
  funext x
  unfold iblk2
  rw [View.read_apply]
  show (V c (Pipeline.arrRef spec2 3) : S1x1.Idx → EReal) _ = _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 1 + 1 * (x 1).val = (x 1).val; rw [e1]; omega

/-- What the body leaves at point t is the layer of the four blocks. -/
theorem out2_4_eq (x0 : Vec Ideal S2048x256 .bf16) (x1 : Vec Ideal S256x256 .bf16) (x2 : Vec Ideal S1x256 .f32) (x3 : Vec Ideal S1x1 .f32) :
    out2_4 (F := Ideal) x0 x1 x2 x3 = linear (n := 2048) x0 x1 (rowVec x2) (x3 (ix2 (0 : Fin 1) (0 : Fin 1))) := by
  unfold out2_4
  rw [View.canon_unit_zero hz2]
  simp only [View.ld_unit_zero (S := S2048x256) hz2, View.ld_unit_zero (S := S256x256) hz2, View.ld_unit_zero (S := S1x256) hz2,
    View.ld_unit_zero (S := S1x1) hz2]
  exact k0_pay1_eq x0 x1 x2 x3

/-- WHAT POINT t WRITES BACK is block t of the layer of the whole arrays. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 (F := Ideal) V c).after 4 t) = _
  rw [after2_4, out2_4_eq, iblk2_1_eq, iblk2_2_eq, iblk2_3_eq]
  obtain ⟨-, -, -, -, -, -, -, -, e0, e1⟩ := idx_facts2 t
  funext j
  show linear (n := 2048) (iblk2 V c 0 t : S2048x256.Idx → EReal) _ _ _ j = G2 V c (((cfg2.win 4).blk t).view.emb j)
  unfold G2
  have h0 : ((((cfg2.win 4).blk t).view.emb j : S2048x256.Idx) 0).val = 2048 * t.val + (j 0).val := by
    show win2_4.index t (0 : Fin 2) * 2048 + 1 * (j 0).val = _; rw [e0]; omega
  have h1 : ((((cfg2.win 4).blk t).view.emb j : S2048x256.Idx) 1).val = (j 1).val := by
    show win2_4.index t (1 : Fin 2) * 256 + 1 * (j 1).val = _; rw [e1]; omega
  refine (linear_rows (N := 2048) (n := 2048) _ _ _ _ _ (((cfg2.win 4).blk t).view.emb j) j h1 fun q => ?_).symm
  exact (iblk2_0_apply V c t (ix2 (rowOf j) q) (ix2 (rowOf (((cfg2.win 4).blk t).view.emb j : S2048x256.Idx)) q) h0 rfl).symm

/-- An index of the output array is in point t's block iff each coordinate is in the block's range on its axis. -/
theorem mem_blk2 (t : Fin cfg2.N) (i : S2048x256.Idx) :
    i ∈ ((cfg2.win 4).blk t).view.set ↔ ∀ a : Fin 2, win2_4.index t a * S2048x256.size a ≤ (i a).val ∧ (i a).val < win2_4.index t a * S2048x256.size a + S2048x256.size a := by
  show i ∈ ((View.whole main_v30).slice (win2_4.rect t)).set ↔ _
  rw [View.set_slice_whole, Rect.mem_set_unit]
  exact Iff.rfl

/-- THE ARRAY after the run: the layer of the arrays the region found. -/
theorem lin_arrAt2_G (c : Dev nD) : (dat2 (F := Ideal) V c).arrAt 4 cfg2.N = G2 V c := by
  refine (dat2 (F := Ideal) V c).arrAt_eq_of_cover 4 (G2 V c) (fun t _ => flushed2_eq V c t) fun i => ?_
  have hi0 : (i 0).val < 2048 := (i 0).isLt
  have hi1 : (i 1).val < 256 := (i 1).isLt
  refine ⟨⟨(i 0).val / 2048, by show (i 0).val / 2048 < 1; omega⟩, flush2_4 _, ?_⟩
  rw [mem_blk2]
  obtain ⟨-, -, -, -, -, -, -, -, e0, e1⟩ := idx_facts2 ⟨(i 0).val / 2048, by show (i 0).val / 2048 < 1; omega⟩
  intro a
  match a with
  | ⟨0, _⟩ =>
    show win2_4.index _ (0 : Fin 2) * 2048 ≤ (i 0).val ∧ (i 0).val < win2_4.index _ (0 : Fin 2) * 2048 + 2048
    rw [e0]; show (i 0).val / 2048 * 2048 ≤ (i 0).val ∧ (i 0).val < (i 0).val / 2048 * 2048 + 2048; omega
  | ⟨1, _⟩ =>
    show win2_4.index _ (1 : Fin 2) * 256 ≤ (i 1).val ∧ (i 1).val < win2_4.index _ (1 : Fin 2) * 256 + 256
    rw [e1]; omega

/-- The same, with the layer written out. -/
theorem lin_arrAt2 (c : Dev nD) : (dat2 (F := Ideal) V c).arrAt 4 cfg2.N
    = linear (n := 2048) (V c (Pipeline.arrRef spec2 0) : S2048x256.Idx → EReal) (V c (Pipeline.arrRef spec2 1) : S256x256.Idx → EReal)
        (rowVec (V c (Pipeline.arrRef spec2 2) : S1x256.Idx → EReal))
        ((V c (Pipeline.arrRef spec2 3) : S1x1.Idx → EReal) (ix2 (0 : Fin 1) (0 : Fin 1))) :=
  lin_arrAt2_G V c

end Cert.KernelIdeal.Val

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«103499_j73031623901527_2_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.Val.AggPay.lean ====
/-
  The three pure values of an aggregation kernel body, read index by index on the extended reals.

  The first is the zero array; the second adds to an accumulator the row-column product of the two blocks;
  the third divides every row by its Lorentz norm sqrt(max(|u₀² − Σ_{j≥1} u_j²|, ε)) — for the 512-wide
  blocks, each 256-wide half by its own norm.
-/
import proofs.«103499_j73031623901527_2_alg».proof.Proof.Gen.KernelIdeal.Skeleton
import proofs.«103499_j73031623901527_2_alg».proof.Proof.Spec
import proofs.«103499_j73031623901527_2_alg».proof.Proof.LibRowsDot
import proofs.«103499_j73031623901527_2_alg».proof.Proof.LibRowLanes
import proofs.«103499_j73031623901527_2_alg».proof.Proof.LibKeepdims

noncomputable section

namespace Cert.KernelIdeal.Val

open Cert.KernelIdeal Cert.KernelIdeal.Gen Cert.Lorentz Cert.Sage Idealize.ShloMosaic Idealize.ShloMosaic.ValueIdx
open scoped BigOperators

/-! ## Pointwise operations the library leaves to unfolding -/

theorem sqrt_apply {s : Shape} {φ : FTy} (v : FVec Ideal s φ) (i : s.Idx) : sqrt v i = Ideal.sqrt (v i) := rfl
theorem absf_apply {s : Shape} {φ : FTy} (v : FVec Ideal s φ) (i : s.Idx) : absf v i = max (v i) (-(v i)) := rfl

/-! ## The normalisation of the rows of an [n, 256] array -/

/-- The program's spelling of the normalisation: column 0 squared less the squares of columns 1..255, its absolute
    value clipped below at ε, the square root kept as a column and spread over the row, and the row divided by it. -/
def normProg {n : ℕ} (u : FVec Ideal ⟨2, ![n, 256]⟩ .f32)
    (h0 : (⟨2, ![n, 256]⟩ : Shape).Slices ![0, 0] ⟨2, ![n, 1]⟩)
    (h1 : (⟨2, ![n, 256]⟩ : Shape).Slices ![0, 1] ⟨2, ![n, 255]⟩)
    (hr : (⟨2, ![n, 255]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩)
    (hb : (⟨2, ![n, 1]⟩ : Shape).Broadcasts ⟨2, ![n, 256]⟩) : FVec Ideal ⟨2, ![n, 256]⟩ .f32 :=
  divf u (broadcastTo ⟨2, ![n, 256]⟩ (sqrt (maximumf (absf (subf
      (mulf (extractStridedSlice ⟨2, ![n, 1]⟩ ![0, 0] u h0) (extractStridedSlice ⟨2, ![n, 1]⟩ ![0, 0] u h0))
      (shapeCast ⟨2, ![n, 1]⟩ (multiReduction .add [1] ⟨1, ![n]⟩
        (mulf (extractStridedSlice ⟨2, ![n, 255]⟩ ![0, 1] u h1) (extractStridedSlice ⟨2, ![n, 255]⟩ ![0, 1] u h1))
        0x00000000#32 hr hφ hacc) hc)))
      (broadcast ⟨2, ![n, 1]⟩ (Scalar.ofBits (F := Ideal) .f32 0x322BCC77#32)))) hb)

/-- It is `norm`. -/
theorem normProg_eq {n : ℕ} (u : FVec Ideal ⟨2, ![n, 256]⟩ .f32)
    (h0 : (⟨2, ![n, 256]⟩ : Shape).Slices ![0, 0] ⟨2, ![n, 1]⟩)
    (h1 : (⟨2, ![n, 256]⟩ : Shape).Slices ![0, 1] ⟨2, ![n, 255]⟩)
    (hr : (⟨2, ![n, 255]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩)
    (hb : (⟨2, ![n, 1]⟩ : Shape).Broadcasts ⟨2, ![n, 256]⟩) :
    normProg u h0 h1 hr hφ hacc hc hb = Cert.Lorentz.norm u := by
  funext i
  obtain ⟨p, q, rfl⟩ : ∃ (p : Fin n) (q : Fin 256), i = ix2 p q := ⟨i 0, i 1, eq_ix2 i⟩
  have e0 : extractStridedSlice ⟨2, ![n, 1]⟩ ![0, 0] u h0 (ix2 p (0 : Fin 1)) = u (ix2 p (0 : Fin 256)) :=
    slice2_axis1_apply 0 u h0 p 0 0 rfl
  have e1 : ∀ j : Fin 255, extractStridedSlice ⟨2, ![n, 255]⟩ ![0, 1] u h1 (ix2 p j) = u (ix2 p (tailCol j)) :=
    fun j => slice2_axis1_apply 1 u h1 p j (tailCol j) (by show j.val + 1 = 1 + j.val; omega)
  have es : shapeCast ⟨2, ![n, 1]⟩ (multiReduction .add [1] ⟨1, ![n]⟩
        (mulf (extractStridedSlice ⟨2, ![n, 255]⟩ ![0, 1] u h1) (extractStridedSlice ⟨2, ![n, 255]⟩ ![0, 1] u h1))
        0x00000000#32 hr hφ hacc) hc (ix2 p (0 : Fin 1)) = tailSq u p := by
    rw [Cert.LibKeepdims.shapeCast_a_a1_apply, Cert.LibRowLanes.sum_row_apply]
    unfold tailSq
    refine Finset.sum_congr rfl fun j _ => ?_
    rw [mulf_apply, e1]
  unfold normProg
  rw [divf_apply, Cert.LibKeepdims.broadcastTo_a1_ab_apply, sqrt_apply, maximumf_apply, absf_apply, subf_apply,
    mulf_apply, broadcast_apply, e0, es]
  rfl

/-! ## Blocks of 2048 rows -/

/-- The first value is zero everywhere. -/
theorem k1_pay1_apply (i : S2048x256.Idx) : k1_pay1 (F := Ideal) i = 0 := by
  show shapeCast S2048x256 (broadcast S2048x256 (Scalar.ofBits (F := Ideal) .f32 0x00000000#32)) shapeCasts_S2048x256_S2048x256 i = 0
  rw [shapeCast_self, broadcast_apply]
  exact Ideal.ofBits_zero_f32

/-- The coordinate facts of the plain product's dimension numbers. -/
theorem dotA_l0 (i : S2048x256.Idx) (q : dot_S2048x2048_S2048x256_S2048x256_1_0_0_1_n_n.contr.Idx) :
    (dot_S2048x2048_S2048x256_S2048x256_1_0_0_1_n_n.lhsIdx i q 0).val = (i 0).val := by
  simp [DotDims.lhsIdx, dot_S2048x2048_S2048x256_S2048x256_1_0_0_1_n_n]; rfl
theorem dotA_l1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val := by
  simp [DotDims.lhsIdx, dot_S2048x2048_S2048x256_S2048x256_1_0_0_1_n_n]; rfl
theorem dotA_r0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val := by
  simp [DotDims.rhsIdx, dot_S2048x2048_S2048x256_S2048x256_1_0_0_1_n_n]; rfl
theorem dotA_r1 (i : S2048x256.Idx) (q : dot_S2048x2048_S2048x256_S2048x256_1_0_0_1_n_n.contr.Idx) :
    (dot_S2048x2048_S2048x256_S2048x256_1_0_0_1_n_n.rhsIdx i q 1).val = (i 1).val := by
  simp [DotDims.rhsIdx, dot_S2048x2048_S2048x256_S2048x256_1_0_0_1_n_n]; rfl

/-- The second value: the accumulator plus the row-column product of the two blocks. -/
theorem k1_pay2_apply (acc : FVec Ideal S2048x256 .f32) (a : FVec Ideal S2048x2048 .bf16) (x : FVec Ideal S2048x256 .bf16)
    (i : S2048x256.Idx) :
    k1_pay2 (F := Ideal) acc a x i = acc i + rowsMul (n := 2048) (k := 2048) (c := 256) a x i := by
  show shapeCast S2048x256 (addf acc (matmul dot_S2048x2048_S2048x256_S2048x256_1_0_0_1_n_n none
      (shapeCast S2048x2048 a shapeCasts_S2048x2048_S2048x2048) (shapeCast S2048x256 x shapeCasts_S2048x256_S2048x256)
      (constant S2048x256 .f32 0x00000000#32))) shapeCasts_S2048x256_S2048x256 i = _
  rw [shapeCast_self, shapeCast_self, shapeCast_self, addf_apply]
  congr 1
  rw [eq_ix2 i]
  exact matmul_zero_rows dot_S2048x2048_S2048x256_S2048x256_1_0_0_1_n_n rfl rfl dotA_l0 dotA_l1 dotA_r0 dotA_r1 none a x (i 0) (i 1)

/-- The third value: every row divided by its Lorentz norm. -/
theorem k1_pay3_apply (u : FVec Ideal S2048x256 .f32) (i : S2048x256.Idx) :
    k1_pay3 (F := Ideal) u i = Cert.Lorentz.norm (n := 2048) u i :=
  congrFun (normProg_eq (n := 2048) u slices_S2048x256_o0_0_S2048x1 slices_S2048x256_o0_1_S2048x255 reduces_S2048x255_S2048 (.inl rfl) rfl
    shapeCasts_S2048_S2048x1 broadcasts_S2048x1_S2048x256) i

/-- The other 2048-row kernels print the same three values. -/
theorem k3_pay1_eq : k3_pay1 (F := Ideal) = k1_pay1 (F := Ideal) := rfl
theorem k3_pay2_eq : k3_pay2 (F := Ideal) = k1_pay2 (F := Ideal) := rfl
theorem k3_pay3_eq : k3_pay3 (F := Ideal) = k1_pay3 (F := Ideal) := rfl
theorem k7_pay1_eq : k7_pay1 (F := Ideal) = k1_pay1 (F := Ideal) := rfl
theorem k7_pay2_eq : k7_pay2 (F := Ideal) = k1_pay2 (F := Ideal) := rfl
theorem k7_pay3_eq : k7_pay3 (F := Ideal) = k1_pay3 (F := Ideal) := rfl
theorem k8_pay1_eq : k8_pay1 (F := Ideal) = k1_pay1 (F := Ideal) := rfl
theorem k8_pay2_eq : k8_pay2 (F := Ideal) = k1_pay2 (F := Ideal) := rfl
theorem k8_pay3_eq : k8_pay3 (F := Ideal) = k1_pay3 (F := Ideal) := rfl
theorem k10_pay1_eq : k10_pay1 (F := Ideal) = k1_pay1 (F := Ideal) := rfl
theorem k10_pay2_eq : k10_pay2 (F := Ideal) = k1_pay2 (F := Ideal) := rfl
theorem k10_pay3_eq : k10_pay3 (F := Ideal) = k1_pay3 (F := Ideal) := rfl
theorem k11_pay1_eq : k11_pay1 (F := Ideal) = k1_pay1 (F := Ideal) := rfl
theorem k11_pay2_eq : k11_pay2 (F := Ideal) = k1_pay2 (F := Ideal) := rfl
theorem k11_pay3_eq : k11_pay3 (F := Ideal) = k1_pay3 (F := Ideal) := rfl
theorem k14_pay1_eq : k14_pay1 (F := Ideal) = k1_pay1 (F := Ideal) := rfl
theorem k14_pay2_eq : k14_pay2 (F := Ideal) = k1_pay2 (F := Ideal) := rfl
theorem k14_pay3_eq : k14_pay3 (F := Ideal) = k1_pay3 (F := Ideal) := rfl
theorem k16_pay1_eq : k16_pay1 (F := Ideal) = k1_pay1 (F := Ideal) := rfl
theorem k16_pay2_eq : k16_pay2 (F := Ideal) = k1_pay2 (F := Ideal) := rfl
theorem k16_pay3_eq : k16_pay3 (F := Ideal) = k1_pay3 (F := Ideal) := rfl

/-! ## Blocks of 1024 rows and 512 columns -/

theorem k12_pay1_apply (i : S1024x512.Idx) : k12_pay1 (F := Ideal) i = 0 := by
  show shapeCast S1024x512 (broadcast S1024x512 (Scalar.ofBits (F := Ideal) .f32 0x00000000#32)) shapeCasts_S1024x512_S1024x512 i = 0
  rw [shapeCast_self, broadcast_apply]
  exact Ideal.ofBits_zero_f32

theorem dotB_l0 (i : S1024x512.Idx) (q : dot_S1024x2048_S2048x512_S1024x512_1_0_0_1_n_n.contr.Idx) :
    (dot_S1024x2048_S2048x512_S1024x512_1_0_0_1_n_n.lhsIdx i q 0).val = (i 0).val := by
  simp [DotDims.lhsIdx, dot_S1024x2048_S2048x512_S1024x512_1_0_0_1_n_n]; rfl
theorem dotB_l1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val := by
  simp [DotDims.lhsIdx, dot_S1024x2048_S2048x512_S1024x512_1_0_0_1_n_n]; rfl
theorem dotB_r0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val := by
  simp [DotDims.rhsIdx, dot_S1024x2048_S2048x512_S1024x512_1_0_0_1_n_n]; rfl
theorem dotB_r1 (i : S1024x512.Idx) (q : dot_S1024x2048_S2048x512_S1024x512_1_0_0_1_n_n.contr.Idx) :
    (dot_S1024x2048_S2048x512_S1024x512_1_0_0_1_n_n.rhsIdx i q 1).val = (i 1).val := by
  simp [DotDims.rhsIdx, dot_S1024x2048_S2048x512_S1024x512_1_0_0_1_n_n]; rfl

theorem k12_pay2_apply (acc : FVec Ideal S1024x512 .f32) (a : FVec Ideal S1024x2048 .bf16) (x : FVec Ideal S2048x512 .bf16)
    (i : S1024x512.Idx) :
    k12_pay2 (F := Ideal) acc a x i = acc i + rowsMul (n := 1024) (k := 2048) (c := 512) a x i := by
  show shapeCast S1024x512 (addf acc (matmul dot_S1024x2048_S2048x512_S1024x512_1_0_0_1_n_n none
      (shapeCast S1024x2048 a shapeCasts_S1024x2048_S1024x2048) (shapeCast S2048x512 x shapeCasts_S2048x512_S2048x512)
      (constant S1024x512 .f32 0x00000000#32))) shapeCasts_S1024x512_S1024x512 i = _
  rw [shapeCast_self, shapeCast_self, shapeCast_self, addf_apply]
  congr 1
  rw [eq_ix2 i]
  exact matmul_zero_rows dot_S1024x2048_S2048x512_S1024x512_1_0_0_1_n_n rfl rfl dotB_l0 dotB_l1 dotB_r0 dotB_r1 none a x (i 0) (i 1)

/-- Columns 0..255 of a 512-wide array, as the program cuts them. -/
theorem slice_left (u : FVec Ideal S1024x512 .f32) :
    extractStridedSlice S1024x256 ![0, 0] u slices_S1024x512_o0_0_S1024x256 = leftHalf (n := 1024) u := by
  funext i
  obtain ⟨p, q, rfl⟩ : ∃ (p : Fin 1024) (q : Fin 256), i = ix2 p q := ⟨i 0, i 1, eq_ix2 i⟩
  exact slice2_axis1_apply 0 u slices_S1024x512_o0_0_S1024x256 p q _ (by show q.val = 0 + q.val; omega)

/-- Columns 256..511 likewise. -/
theorem slice_right (u : FVec Ideal S1024x512 .f32) :
    extractStridedSlice S1024x256 ![0, 256] u slices_S1024x512_o0_256_S1024x256 = rightHalf (n := 1024) u := by
  funext i
  obtain ⟨p, q, rfl⟩ : ∃ (p : Fin 1024) (q : Fin 256), i = ix2 p q := ⟨i 0, i 1, eq_ix2 i⟩
  exact slice2_axis1_apply 256 u slices_S1024x512_o0_256_S1024x256 p q _ (by show q.val + 256 = 256 + q.val; omega)

/-- The third value of the 512-wide kernel: each half normalised by its own Lorentz norm, side by side. -/
theorem k12_pay3_apply (u : FVec Ideal S1024x512 .f32) (i : S1024x512.Idx) :
    k12_pay3 (F := Ideal) u i = Cert.Lorentz.norm2 (n := 1024) u i := by
  have e : k12_pay3 (F := Ideal) u = concatenate S1024x512 1
      [⟨S1024x256, normProg (n := 1024) (extractStridedSlice S1024x256 ![0, 0] u slices_S1024x512_o0_0_S1024x256)
          slices_S1024x256_o0_0_S1024x1 slices_S1024x256_o0_1_S1024x255 reduces_S1024x255_S1024 (.inl rfl) rfl
          shapeCasts_S1024_S1024x1 broadcasts_S1024x1_S1024x256⟩,
       ⟨S1024x256, normProg (n := 1024) (extractStridedSlice S1024x256 ![0, 256] u slices_S1024x512_o0_256_S1024x256)
          slices_S1024x256_o0_0_S1024x1 slices_S1024x256_o0_1_S1024x255 reduces_S1024x255_S1024 (.inl rfl) rfl
          shapeCasts_S1024_S1024x1 broadcasts_S1024x1_S1024x256⟩]
      concatenates_S1024x256_S1024x256_S1024x512_d1 := rfl
  have eL := normProg_eq (n := 1024) (extractStridedSlice S1024x256 ![0, 0] u slices_S1024x512_o0_0_S1024x256)
    slices_S1024x256_o0_0_S1024x1 slices_S1024x256_o0_1_S1024x255 reduces_S1024x255_S1024 (.inl rfl) rfl
    shapeCasts_S1024_S1024x1 broadcasts_S1024x1_S1024x256
  have eR := normProg_eq (n := 1024) (extractStridedSlice S1024x256 ![0, 256] u slices_S1024x512_o0_256_S1024x256)
    slices_S1024x256_o0_0_S1024x1 slices_S1024x256_o0_1_S1024x255 reduces_S1024x255_S1024 (.inl rfl) rfl
    shapeCasts_S1024_S1024x1 broadcasts_S1024x1_S1024x256
  rw [e, eL, eR, slice_left, slice_right]
  unfold Cert.Lorentz.norm2 beside
  by_cases hq : (i 1).val < 256
  · rw [dif_pos hq]
    refine concatenate_pair_apply_left (t := S1024x512) (s₁ := S1024x256) (s₂ := S1024x256) 1 _ _
      concatenates_S1024x256_S1024x256_S1024x512_d1 i rfl (ix2 (rowOf i) ⟨(i 1).val, hq⟩) (fun b => ?_)
    match b with
    | ⟨0, _⟩ => rfl
    | ⟨1, _⟩ => rfl
  · rw [dif_neg hq]
    refine concatenate_pair_apply_right (t := S1024x512) (s₁ := S1024x256) (s₂ := S1024x256) 1 _ _
      concatenates_S1024x256_S1024x256_S1024x512_d1 i rfl rfl
      (ix2 (rowOf i) ⟨(i 1).val - 256, by have := idx2_lt1 i; omega⟩) (fun b hb => ?_) ?_
    · match b with
      | ⟨0, _⟩ => rfl
      | ⟨1, _⟩ => exact absurd rfl hb
    · show (i 1).val - 256 + 256 = (i 1).val
      omega

end Cert.KernelIdeal.Val

end
-- ==== Proof.LibMaskedTiles.lean ====
/-
  A sum taken tile by tile, the last tile hanging over the end.

  A reduction axis of length `K` is cut into `n` tiles of width `w`, `K ≤ n * w`; the last tile
  may reach past `K`, and there its entries are replaced by zero before they are used.  The
  facts below say that the tile-by-tile sum of the masked entries is the plain sum over the axis,
  in any commutative additive monoid (so on the extended reals with no finiteness assumption), and
  that a zeroed factor kills whatever it multiplies, an infinity included.

  * `sum_tiles_masked`      : `∑_{k<n} ∑_{c<w} [k·w + c < K] f (k·w + c) = ∑_{j<K} f j`;
  * `sum_fin_tiles_masked`  : the same over `Fin n`, `Fin w`, `Fin K`;
  * `running_sum`           : an accumulator that starts at zero and adds tile `k` at step `k`
                               holds `∑_{k<n} tile k` after `n` steps;
  * `masked_mul`            : `(if p then x else 0) * y = if p then x * y else 0` in any
                               `MulZeroClass`: the masked factor needs nothing of `y`.
-/
import Mathlib.Algebra.BigOperators.Fin
import Mathlib.Algebra.BigOperators.Intervals
import Mathlib.Data.EReal.Basic

namespace Cert.LibMaskedTiles

open scoped BigOperators

/-- A masked factor needs nothing of what it multiplies: zero times anything is zero. -/
theorem masked_mul {α : Type*} [MulZeroClass α] (p : Prop) [Decidable p] (x y : α) :
    (if p then x else 0) * y = if p then x * y else 0 := by
  split_ifs <;> simp

/-- The same with the mask on the right factor. -/
theorem mul_masked {α : Type*} [MulZeroClass α] (p : Prop) [Decidable p] (x y : α) :
    x * (if p then y else 0) = if p then x * y else 0 := by
  split_ifs <;> simp

/-- Summing the first `n * w` entries tile by tile. -/
theorem sum_range_tiles {β : Type*} [AddCommMonoid β] (n w : ℕ) (g : ℕ → β) :
    (∑ k ∈ Finset.range n, ∑ c ∈ Finset.range w, g (k * w + c)) = ∑ j ∈ Finset.range (n * w), g j := by
  induction n with
  | zero => simp
  | succ n ih =>
    rw [Finset.sum_range_succ, ih, Nat.succ_mul, Finset.sum_range_add]

/-- Entries past `K` replaced by zero: the sum over a longer range is the sum up to `K`. -/
theorem sum_range_masked {β : Type*} [AddCommMonoid β] {K N : ℕ} (h : K ≤ N) (f : ℕ → β) :
    (∑ j ∈ Finset.range N, if j < K then f j else 0) = ∑ j ∈ Finset.range K, f j := by
  obtain ⟨d, rfl⟩ := Nat.exists_eq_add_of_le h
  rw [Finset.sum_range_add]
  have h1 : (∑ j ∈ Finset.range K, if j < K then f j else 0) = ∑ j ∈ Finset.range K, f j :=
    Finset.sum_congr rfl fun j hj => if_pos (Finset.mem_range.mp hj)
  have h2 : (∑ j ∈ Finset.range d, if K + j < K then f (K + j) else 0) = 0 :=
    Finset.sum_eq_zero fun j _ => if_neg (by omega)
  rw [h1, h2, add_zero]

/-- The tile-by-tile sum of the masked entries is the plain sum over the axis. -/
theorem sum_tiles_masked {β : Type*} [AddCommMonoid β] {n w K : ℕ} (h : K ≤ n * w) (f : ℕ → β) :
    (∑ k ∈ Finset.range n, ∑ c ∈ Finset.range w, if k * w + c < K then f (k * w + c) else 0)
      = ∑ j ∈ Finset.range K, f j := by
  rw [sum_range_tiles n w fun j => if j < K then f j else 0, sum_range_masked h]

/-- The same over `Fin`-indexed tiles, lanes and axis. -/
theorem sum_fin_tiles_masked {β : Type*} [AddCommMonoid β] {n w K : ℕ} (h : K ≤ n * w) (f : ℕ → β) :
    (∑ k : Fin n, ∑ c : Fin w, if k.val * w + c.val < K then f (k.val * w + c.val) else 0)
      = ∑ j : Fin K, f j.val := by
  rw [Finset.sum_fin_eq_sum_range, Fin.sum_univ_eq_sum_range (fun j => f j) K, ← sum_tiles_masked h f]
  refine Finset.sum_congr rfl fun k hk => ?_
  rw [dif_pos (Finset.mem_range.mp hk)]
  exact Fin.sum_univ_eq_sum_range (fun c => if k * w + c < K then f (k * w + c) else 0) w

/-- An accumulator that starts at zero and adds tile `k` at step `k` holds the sum of the tiles. -/
theorem running_sum {β : Type*} [AddCommMonoid β] (tile acc : ℕ → β) (h0 : acc 0 = 0)
    (hs : ∀ k, acc (k + 1) = acc k + tile k) (n : ℕ) : acc n = ∑ k ∈ Finset.range n, tile k := by
  induction n with
  | zero => simpa using h0
  | succ n ih => rw [hs, ih, Finset.sum_range_succ]

end Cert.LibMaskedTiles
-- ==== Proof.Val.AggTiles.lean ====
/-
  A row-column product taken tile by tile along the contracted axis.

  The contracted axis of length K = m·w is cut into m tiles of width w.  Entry (P, q) of the product is the sum over
  the whole axis of A(P, j)·X(j, q); a tile's product of the matching blocks is the part of that sum over the tile's
  positions k·w, …, k·w + w − 1; and an accumulator that starts from zero and adds one tile's product after another
  holds, after the last tile, the whole sum.  Everything is a finite sum in the commutative monoid of the extended
  reals under addition, so nothing is asked of the entries.
-/
import proofs.«103499_j73031623901527_2_alg».proof.Proof.LibRowsLayer
import proofs.«103499_j73031623901527_2_alg».proof.Proof.LibMaskedTiles

noncomputable section

namespace Cert.KernelIdeal.Val

open Cert.Sage Idealize.ShloMosaic Idealize.ShloMosaic.ValueIdx
open scoped BigOperators

variable {n K c : Nat}

/-- The product's term at contraction position `j` of entry (P, q); zero past the end of the axis. -/
def term (A : Arr2 n K) (X : Arr2 K c) (P : Fin n) (q : Fin c) (j : ℕ) : EReal :=
  if h : j < K then A (ix2 P ⟨j, h⟩) * X (ix2 ⟨j, h⟩ q) else 0

/-- An entry of the product is the sum of its terms along the contracted axis. -/
theorem rowsMul_eq_sum_term (A : Arr2 n K) (X : Arr2 K c) (P : Fin n) (q : Fin c) :
    rowsMul A X (ix2 P q) = ∑ j ∈ Finset.range K, term A X P q j := by
  unfold rowsMul
  rw [Finset.sum_fin_eq_sum_range]
  refine Finset.sum_congr rfl fun j hj => ?_
  unfold term
  rw [dif_pos (Finset.mem_range.mp hj), dif_pos (Finset.mem_range.mp hj)]
  rfl

/-- The sum of the terms of tile `k` (positions k·w + j, j < w) of entry (P, q). -/
def tileSum (A : Arr2 n K) (X : Arr2 K c) (w : ℕ) (P : Fin n) (q : Fin c) (k : ℕ) : EReal :=
  ∑ j ∈ Finset.range w, term A X P q (k * w + j)

/-- A tile's own product: when the block `a` holds the rows of `A` from row `P − p` on and the columns of tile `k`,
    and the block `x` holds the rows of `X` of tile `k`, entry (p, q) of the blocks' product is tile `k`'s part of
    entry (P, q). -/
theorem rowsMul_block {r w : ℕ} (A : Arr2 n K) (X : Arr2 K c) (a : Arr2 r w) (x : Arr2 w c) (k : ℕ)
    (P : Fin n) (p : Fin r) (q : Fin c)
    (ha : ∀ (j : Fin w) (J : Fin K), J.val = k * w + j.val → a (ix2 p j) = A (ix2 P J))
    (hx : ∀ (j : Fin w) (J : Fin K), J.val = k * w + j.val → x (ix2 j q) = X (ix2 J q))
    (hk : k * w + w ≤ K) :
    rowsMul a x (ix2 p q) = tileSum A X w P q k := by
  unfold rowsMul tileSum
  rw [Finset.sum_fin_eq_sum_range]
  refine Finset.sum_congr rfl fun j hj => ?_
  have hjw : j < w := Finset.mem_range.mp hj
  have hJ : k * w + j < K := by omega
  unfold term
  rw [dif_pos hjw, dif_pos hJ]
  have e1 := ha ⟨j, hjw⟩ ⟨k * w + j, hJ⟩ rfl
  have e2 := hx ⟨j, hjw⟩ ⟨k * w + j, hJ⟩ rfl
  show a (ix2 p ⟨j, hjw⟩) * x (ix2 ⟨j, hjw⟩ q) = _
  rw [e1, e2]

/-- All the tiles together: the sum over the m tiles of the tile sums is the entry of the whole product. -/
theorem sum_tileSum (A : Arr2 n K) (X : Arr2 K c) (m w : ℕ) (hK : K = m * w) (P : Fin n) (q : Fin c) :
    (∑ k ∈ Finset.range m, tileSum A X w P q k) = rowsMul A X (ix2 P q) := by
  subst hK
  rw [rowsMul_eq_sum_term]
  unfold tileSum
  exact Cert.LibMaskedTiles.sum_range_tiles m w (term A X P q)

/-- The first step of a running sum that starts from zero. -/
theorem sum_range_one_zero_add (f : ℕ → EReal) : 0 + f 0 = ∑ k ∈ Finset.range (0 + 1), f k := by
  rw [zero_add, Finset.sum_range_one]

end Cert.KernelIdeal.Val

end
-- ==== Proof.Val.AggRegion1.lean ====
/-
  The aggregation region 1: what its output array holds after the run, as one function of the two arrays the region
  finds.

  The grid is 1 row tiles by 1 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 1 row tiles cover the array.
-/
import proofs.«103499_j73031623901527_2_alg».proof.Proof.KI.AggDef1
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_1 : (![0, 0] : Fin 2 → Nat) = fun _ => 0 := funext fun a => by fin_cases a <;> rfl

/-- The adjacency and the features as the region finds them. -/
abbrev adj1 (c : Dev nD) : Arr2 2048 2048 := V c (Pipeline.arrRef spec1 0)
abbrev x1 (c : Dev nD) : Arr2 2048 256 := V c (Pipeline.arrRef spec1 1)

/-- The printed index maps over the grid: the adjacency's block is (row tile, inner step), the features' block is
    (inner step, 0), the output's block is (row tile, 0); the point number is row tile × 1 + inner step. -/
theorem idx_facts1 : ∀ t : Fin cfg1.N, win1_0.index t (0 : Fin 2) = t.val / 1 ∧ win1_0.index t (1 : Fin 2) = t.val % 1
    ∧ win1_1.index t (0 : Fin 2) = t.val % 1 ∧ win1_1.index t (1 : Fin 2) = 0
    ∧ win1_2.index t (0 : Fin 2) = t.val / 1 ∧ win1_2.index t (1 : Fin 2) = 0 :=
  (by decide +kernel : ∀ t : Fin grid1.N, _)

/-- The adjacency's block at point `t`, entry by entry. -/
theorem iblk1_0_apply (c : Dev nD) (t : Fin cfg1.N) (x : S2048x2048.Idx) (k : S2048x2048.Idx)
    (hk0 : (k 0).val = 2048 * (t.val / 1) + (x 0).val) (hk1 : (k 1).val = 2048 * (t.val % 1) + (x 1).val) :
    (iblk1 V c 0 t : Vec Ideal S2048x2048 .bf16) x = (V c (Pipeline.arrRef spec1 0) : S2048x2048.Idx → EReal) k := by
  obtain ⟨e0, e1, -, -, -, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 2048 + 1 * (x 0).val = (k 0).val; rw [e0, hk0]; omega
  | ⟨1, _⟩ => show win1_0.index t 1 * 2048 + 1 * (x 1).val = (k 1).val; rw [e1, hk1]; omega

/-- The features' block at point `t`, entry by entry. -/
theorem iblk1_1_apply (c : Dev nD) (t : Fin cfg1.N) (x : S2048x256.Idx) (k : S2048x256.Idx)
    (hk0 : (k 0).val = 2048 * (t.val % 1) + (x 0).val) (hk1 : (k 1).val = (x 1).val) :
    (iblk1 V c 1 t : Vec Ideal S2048x256 .bf16) x = (V c (Pipeline.arrRef spec1 1) : S2048x256.Idx → EReal) k := by
  obtain ⟨-, -, e0, e1, -, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 2048 + 1 * (x 0).val = (k 0).val; rw [e0, hk0]; omega
  | ⟨1, _⟩ => show win1_1.index t 1 * 256 + 1 * (x 1).val = (k 1).val; rw [e1, hk1]; omega

/-- The product of the point's two blocks is the point's tile of the whole product's entry. -/
theorem tile1 (c : Dev nD) (t : Fin cfg1.N) (p : Fin 2048) (q : Fin 256) (P : Fin 2048)
    (hP : P.val = 2048 * (t.val / 1) + p.val) :
    rowsMul (n := 2048) (k := 2048) (c := 256) (iblk1 V c 0 t : Vec Ideal S2048x2048 .bf16) (iblk1 V c 1 t : Vec Ideal S2048x256 .bf16) (ix2 p q)
      = tileSum (adj1 V c) (x1 V c) 2048 P q (t.val % 1) := by
  have hN : cfg1.N = 1 := N_1
  have ht := t.isLt
  refine rowsMul_block (adj1 V c) (x1 V c) _ _ (t.val % 1) P p q (fun j J hJ => ?_) (fun j J hJ => ?_) (by omega)
  · exact iblk1_0_apply V c t (ix2 p j) (ix2 P J) hP (by show J.val = _; rw [hJ]; show _ = 2048 * (t.val % 1) + j.val; omega)
  · exact iblk1_1_apply V c t (ix2 j q) (ix2 J q) (by show J.val = _; rw [hJ]; show _ = 2048 * (t.val % 1) + j.val; omega) rfl

/-- The accumulator's last payload at the one point: the whole entry of the product, as the sum of its one tile. -/
theorem acc_inv1 (c : Dev nD) (n : ℕ) (hn : n < cfg1.N) (p : Fin 2048) (q : Fin 256) (P : Fin 2048)
    (hP : P.val = 2048 * (n / 1) + p.val) :
    accP1 (F := Ideal) V c n hn (ix2 p q) = ∑ k ∈ Finset.range (n % 1 + 1), tileSum (adj1 V c) (x1 V c) 2048 P q k := by
  have e : _ = tileSum (adj1 V c) (x1 V c) 2048 P q (n % 1) := tile1 V c ⟨n, hn⟩ p q P hP
  have hf : accP1 (F := Ideal) V c n hn = _ := accP1_first (F := Ideal) V c ⟨n, hn⟩ (Nat.mod_one _)
  rw [hf, k1_pay2_apply, k1_pay1_apply, zero_add]
  simp only [View.ld_unit_zero (S := S2048x2048) hz_1, View.ld_unit_zero (S := S2048x256) hz_1]
  rw [e, Nat.mod_one, Nat.zero_add, Finset.sum_range_one]

/-- An index of the output array is in point `t`'s block iff each coordinate is in the block's range on its axis. -/
theorem mem_blk1 (t : Fin cfg1.N) (i : S2048x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v18).slice (win1_2.rect t)).set ↔ _
  rw [View.set_slice_whole, Rect.mem_set_unit]
  exact Iff.rfl

/-- What a storing point writes back is its block of rows of the normalised product. -/
theorem flushed1_eq (c : Dev nD) (t : Fin cfg1.N) (hf : (cfg1.win 2).flush t = true) :
    (dat1 (F := Ideal) V c).flushed 2 t = ((cfg1.win 2).blk t).view.read (Elt Ideal) (Cert.Lorentz.agg (n := 2048) (k := 2048) (adj1 V c) (x1 V c)) := by
  have hN : cfg1.N = 1 := N_1
  have ht := t.isLt
  have hlast : t.val % 1 = 0 := Nat.mod_one _
  obtain ⟨-, -, -, -, e0, e1⟩ := idx_facts1 t
  show (cfg1.win 2).cut (grid1.coords t) ((dat1 V c).after 2 t) = _
  rw [after1_2_last V c t hlast, View.canon_unit_zero hz_1]
  funext j
  show k1_pay3 (F := Ideal) (accP1 V c t.val t.isLt) j = (Cert.Lorentz.agg (n := 2048) (k := 2048) (adj1 V c) (x1 V c)) (((cfg1.win 2).blk t).view.emb j)
  rw [k1_pay3_apply]
  have hj0 : (j 0).val < 2048 := (j 0).isLt
  have hj1 : (j 1).val < 256 := (j 1).isLt
  have hE0 : ((((cfg1.win 2).blk t).view.emb j) 0).val = 2048 * (t.val / 1) + (j 0).val := by
    show win1_2.index t 0 * 2048 + 1 * (j 0).val = _; rw [e0]; omega
  have hE1 : ((((cfg1.win 2).blk t).view.emb j) 1).val = (j 1).val := by
    show win1_2.index t 1 * 256 + 1 * (j 1).val = _; rw [e1]; omega
  have hrows : ∀ q : Fin 256, rowsMul (n := 2048) (k := 2048) (c := 256) (adj1 V c) (x1 V c) (ix2 (rowOf (((cfg1.win 2).blk t).view.emb j)) q)
      = accP1 (F := Ideal) V c t.val t.isLt (ix2 (rowOf j) q) := by
    intro q
    rw [acc_inv1 V c t.val t.isLt (rowOf j) q (rowOf (((cfg1.win 2).blk t).view.emb j)) hE0, hlast]
    exact (sum_tileSum (adj1 V c) (x1 V c) 1 2048 (by norm_num) _ q).symm
  unfold Cert.Lorentz.agg
  exact (norm_rows (N := 2048) (n := 2048) _ _ _ j hE1 hrows).symm

/-- Every row of the output array is in the block some storing point writes back. -/
theorem cover1 (i : S2048x256.Idx) : ∃ t : Fin cfg1.N, (cfg1.win 2).flush t = true ∧ i ∈ ((cfg1.win 2).blk t).view.set := by
  have hN : cfg1.N = 1 := N_1
  have hi0 : (i 0).val < 2048 := (i 0).isLt
  have hi1 : (i 1).val < 256 := (i 1).isLt
  let t : Fin cfg1.N := ⟨(i 0).val / 2048 * 1 + 0, by rw [hN]; omega⟩
  have htv : t.val = (i 0).val / 2048 * 1 + 0 := rfl
  obtain ⟨-, -, -, -, e0, e1⟩ := idx_facts1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; rw [e0, htv]; omega
  | ⟨1, _⟩ => show win1_2.index t (1 : Fin 2) * 256 ≤ (i 1).val ∧ (i 1).val < win1_2.index t (1 : Fin 2) * 256 + 256; rw [e1]; omega

/-- The region's output array after the run: the Lorentz aggregation of the two arrays the region finds. -/
theorem agg_arrAt1 (c : Dev nD) : (dat1 (F := Ideal) V c).arrAt 2 cfg1.N = Cert.Lorentz.agg (n := 2048) (k := 2048) (adj1 V c) (x1 V c) :=
  (dat1 (F := Ideal) V c).arrAt_eq_of_cover 2 (Cert.Lorentz.agg (n := 2048) (k := 2048) (adj1 V c) (x1 V c)) (flushed1_eq V c) cover1

end Cert.KernelIdeal.Val

end
-- ==== Proof.Val.AggRegion3.lean ====
/-
  The aggregation region 3: what its output array holds after the run, as one function of the two arrays the region
  finds.

  The grid is 1 row tiles by 1 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 1 row tiles cover the array.
-/
import proofs.«103499_j73031623901527_2_alg».proof.Proof.KI.AggDef3
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_3 : (![0, 0] : Fin 2 → Nat) = fun _ => 0 := funext fun a => by fin_cases a <;> rfl

/-- The adjacency and the features as the region finds them. -/
abbrev adj3 (c : Dev nD) : Arr2 2048 2048 := V c (Pipeline.arrRef spec3 0)
abbrev x3 (c : Dev nD) : Arr2 2048 256 := V c (Pipeline.arrRef spec3 1)

/-- The printed index maps over the grid: the adjacency's block is (row tile, inner step), the features' block is
    (inner step, 0), the output's block is (row tile, 0); the point number is row tile × 1 + inner step. -/
theorem idx_facts3 : ∀ t : Fin cfg3.N, win3_0.index t (0 : Fin 2) = t.val / 1 ∧ win3_0.index t (1 : Fin 2) = t.val % 1
    ∧ win3_1.index t (0 : Fin 2) = t.val % 1 ∧ win3_1.index t (1 : Fin 2) = 0
    ∧ win3_2.index t (0 : Fin 2) = t.val / 1 ∧ win3_2.index t (1 : Fin 2) = 0 :=
  (by decide +kernel : ∀ t : Fin grid3.N, _)

/-- The adjacency's block at point `t`, entry by entry. -/
theorem iblk3_0_apply (c : Dev nD) (t : Fin cfg3.N) (x : S2048x2048.Idx) (k : S2048x2048.Idx)
    (hk0 : (k 0).val = 2048 * (t.val / 1) + (x 0).val) (hk1 : (k 1).val = 2048 * (t.val % 1) + (x 1).val) :
    (iblk3 V c 0 t : Vec Ideal S2048x2048 .bf16) x = (V c (Pipeline.arrRef spec3 0) : S2048x2048.Idx → EReal) k := by
  obtain ⟨e0, e1, -, -, -, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t 0 * 2048 + 1 * (x 0).val = (k 0).val; rw [e0, hk0]; omega
  | ⟨1, _⟩ => show win3_0.index t 1 * 2048 + 1 * (x 1).val = (k 1).val; rw [e1, hk1]; omega

/-- The features' block at point `t`, entry by entry. -/
theorem iblk3_1_apply (c : Dev nD) (t : Fin cfg3.N) (x : S2048x256.Idx) (k : S2048x256.Idx)
    (hk0 : (k 0).val = 2048 * (t.val % 1) + (x 0).val) (hk1 : (k 1).val = (x 1).val) :
    (iblk3 V c 1 t : Vec Ideal S2048x256 .bf16) x = (V c (Pipeline.arrRef spec3 1) : S2048x256.Idx → EReal) k := by
  obtain ⟨-, -, e0, e1, -, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t 0 * 2048 + 1 * (x 0).val = (k 0).val; rw [e0, hk0]; omega
  | ⟨1, _⟩ => show win3_1.index t 1 * 256 + 1 * (x 1).val = (k 1).val; rw [e1, hk1]; omega

/-- The product of the point's two blocks is the point's tile of the whole product's entry. -/
theorem tile3 (c : Dev nD) (t : Fin cfg3.N) (p : Fin 2048) (q : Fin 256) (P : Fin 2048)
    (hP : P.val = 2048 * (t.val / 1) + p.val) :
    rowsMul (n := 2048) (k := 2048) (c := 256) (iblk3 V c 0 t : Vec Ideal S2048x2048 .bf16) (iblk3 V c 1 t : Vec Ideal S2048x256 .bf16) (ix2 p q)
      = tileSum (adj3 V c) (x3 V c) 2048 P q (t.val % 1) := by
  have hN : cfg3.N = 1 := N_3
  have ht := t.isLt
  refine rowsMul_block (adj3 V c) (x3 V c) _ _ (t.val % 1) P p q (fun j J hJ => ?_) (fun j J hJ => ?_) (by omega)
  · exact iblk3_0_apply V c t (ix2 p j) (ix2 P J) hP (by show J.val = _; rw [hJ]; show _ = 2048 * (t.val % 1) + j.val; omega)
  · exact iblk3_1_apply V c t (ix2 j q) (ix2 J q) (by show J.val = _; rw [hJ]; show _ = 2048 * (t.val % 1) + j.val; omega) rfl

/-- The accumulator's last payload at the one point: the whole entry of the product, as the sum of its one tile. -/
theorem acc_inv3 (c : Dev nD) (n : ℕ) (hn : n < cfg3.N) (p : Fin 2048) (q : Fin 256) (P : Fin 2048)
    (hP : P.val = 2048 * (n / 1) + p.val) :
    accP3 (F := Ideal) V c n hn (ix2 p q) = ∑ k ∈ Finset.range (n % 1 + 1), tileSum (adj3 V c) (x3 V c) 2048 P q k := by
  have e : _ = tileSum (adj3 V c) (x3 V c) 2048 P q (n % 1) := tile3 V c ⟨n, hn⟩ p q P hP
  have hf : accP3 (F := Ideal) V c n hn = _ := accP3_first (F := Ideal) V c ⟨n, hn⟩ (Nat.mod_one _)
  rw [hf, k3_pay2_eq, k3_pay1_eq, k1_pay2_apply, k1_pay1_apply, zero_add]
  simp only [View.ld_unit_zero (S := S2048x2048) hz_3, View.ld_unit_zero (S := S2048x256) hz_3]
  rw [e, Nat.mod_one, Nat.zero_add, Finset.sum_range_one]

/-- An index of the output array is in point `t`'s block iff each coordinate is in the block's range on its axis. -/
theorem mem_blk3 (t : Fin cfg3.N) (i : S2048x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v32).slice (win3_2.rect t)).set ↔ _
  rw [View.set_slice_whole, Rect.mem_set_unit]
  exact Iff.rfl

/-- What a storing point writes back is its block of rows of the normalised product. -/
theorem flushed3_eq (c : Dev nD) (t : Fin cfg3.N) (hf : (cfg3.win 2).flush t = true) :
    (dat3 (F := Ideal) V c).flushed 2 t = ((cfg3.win 2).blk t).view.read (Elt Ideal) (Cert.Lorentz.agg (n := 2048) (k := 2048) (adj3 V c) (x3 V c)) := by
  have hN : cfg3.N = 1 := N_3
  have ht := t.isLt
  have hlast : t.val % 1 = 0 := Nat.mod_one _
  obtain ⟨-, -, -, -, e0, e1⟩ := idx_facts3 t
  show (cfg3.win 2).cut (grid3.coords t) ((dat3 V c).after 2 t) = _
  rw [after3_2_last V c t hlast, View.canon_unit_zero hz_3]
  funext j
  show k3_pay3 (F := Ideal) (accP3 V c t.val t.isLt) j = (Cert.Lorentz.agg (n := 2048) (k := 2048) (adj3 V c) (x3 V c)) (((cfg3.win 2).blk t).view.emb j)
  rw [k3_pay3_eq, k1_pay3_apply]
  have hj0 : (j 0).val < 2048 := (j 0).isLt
  have hj1 : (j 1).val < 256 := (j 1).isLt
  have hE0 : ((((cfg3.win 2).blk t).view.emb j) 0).val = 2048 * (t.val / 1) + (j 0).val := by
    show win3_2.index t 0 * 2048 + 1 * (j 0).val = _; rw [e0]; omega
  have hE1 : ((((cfg3.win 2).blk t).view.emb j) 1).val = (j 1).val := by
    show win3_2.index t 1 * 256 + 1 * (j 1).val = _; rw [e1]; omega
  have hrows : ∀ q : Fin 256, rowsMul (n := 2048) (k := 2048) (c := 256) (adj3 V c) (x3 V c) (ix2 (rowOf (((cfg3.win 2).blk t).view.emb j)) q)
      = accP3 (F := Ideal) V c t.val t.isLt (ix2 (rowOf j) q) := by
    intro q
    rw [acc_inv3 V c t.val t.isLt (rowOf j) q (rowOf (((cfg3.win 2).blk t).view.emb j)) hE0, hlast]
    exact (sum_tileSum (adj3 V c) (x3 V c) 1 2048 (by norm_num) _ q).symm
  unfold Cert.Lorentz.agg
  exact (norm_rows (N := 2048) (n := 2048) _ _ _ j hE1 hrows).symm

/-- Every row of the output array is in the block some storing point writes back. -/
theorem cover3 (i : S2048x256.Idx) : ∃ t : Fin cfg3.N, (cfg3.win 2).flush t = true ∧ i ∈ ((cfg3.win 2).blk t).view.set := by
  have hN : cfg3.N = 1 := N_3
  have hi0 : (i 0).val < 2048 := (i 0).isLt
  have hi1 : (i 1).val < 256 := (i 1).isLt
  let t : Fin cfg3.N := ⟨(i 0).val / 2048 * 1 + 0, by rw [hN]; omega⟩
  have htv : t.val = (i 0).val / 2048 * 1 + 0 := rfl
  obtain ⟨-, -, -, -, e0, e1⟩ := idx_facts3 t
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; rw [e0, htv]; omega
  | ⟨1, _⟩ => show win3_2.index t (1 : Fin 2) * 256 ≤ (i 1).val ∧ (i 1).val < win3_2.index t (1 : Fin 2) * 256 + 256; rw [e1]; omega

/-- The region's output array after the run: the Lorentz aggregation of the two arrays the region finds. -/
theorem agg_arrAt3 (c : Dev nD) : (dat3 (F := Ideal) V c).arrAt 2 cfg3.N = Cert.Lorentz.agg (n := 2048) (k := 2048) (adj3 V c) (x3 V c) :=
  (dat3 (F := Ideal) V c).arrAt_eq_of_cover 2 (Cert.Lorentz.agg (n := 2048) (k := 2048) (adj3 V c) (x3 V c)) (flushed3_eq V c) cover3

end Cert.KernelIdeal.Val

end
-- ==== Proof.Val.BridgeA.lean ====
/- The kernel side of the value bridge, the interaction-graph chain: regions 0 to 3 and the stretches between them;
   the result buffer `main_v32` at the return. -/
import proofs.«103499_j73031623901527_2_alg».proof.Proof.Val.Bridge1
import proofs.«103499_j73031623901527_2_alg».proof.Proof.Val.LinRegion0
import proofs.«103499_j73031623901527_2_alg».proof.Proof.Val.LinRegion2
import proofs.«103499_j73031623901527_2_alg».proof.Proof.Val.AggRegion1
import proofs.«103499_j73031623901527_2_alg».proof.Proof.Val.AggRegion3

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-- Region 0 leaves the Lorentz linear layer of its operands in `main_v16`. -/
theorem val_v16_2 : (W2 m ρ c (Proc.devRef .tc main_v16) : S2048x256.Idx → EReal) = mL0 m c := by
  have h1 : (W2 m ρ c (Proc.devRef .tc main_v16) : S2048x256.Idx → EReal) = (dat0 (F := Ideal) (V1 m ρ) c).arrAt 4 cfg0.N := W2_arr m ρ c 4
  have h2 : (dat0 (F := Ideal) (V1 m ρ) c).arrAt 4 cfg0.N = linear (n := 2048) (W1 m ρ c (Proc.devRef .tc main_v11) : S2048x256.Idx → EReal) (W1 m ρ c (Proc.devRef .tc main_v12) : S256x256.Idx → EReal)
      (rowVec (W1 m ρ c (Proc.devRef .tc main_v13) : S1x256.Idx → EReal)) ((W1 m ρ c (Proc.devRef .tc main_v15) : S1x1.Idx → EReal) (ix2 (0 : Fin 1) (0 : Fin 1))) := lin_arrAt0 (V1 m ρ) c
  rw [h1, h2, val_v11_1, val_v12_1, val_v13_1, val_v15_1]

/-- `main_v17` is `main_v16` (the rounding to the narrower format is the identity on the reals). -/
theorem val_v17_3 : (W3 m ρ c (Proc.devRef .tc main_v17) : S2048x256.Idx → EReal) = mL0 m c := by
  have h : (W3 m ρ c (Proc.devRef .tc main_v17) : S2048x256.Idx → EReal) = (W2 m ρ c (Proc.devRef .tc main_v16) : S2048x256.Idx → EReal) := by
    after_results; rfl
  exact h.trans (val_v16_2 m ρ c)

/-- `main_v3` is not written between boundaries 1 and 3. -/
theorem val_v3_3 : (W3 m ρ c (Proc.devRef .tc main_v3) : S2048x2048.Idx → EReal) = aDdi m c := by
  have hk : W3 m ρ c (Proc.devRef .tc main_v3) = W1 m ρ c (Proc.devRef .tc main_v3) :=
    (W3_of m ρ c main_v3 (by decide)).trans ((W2_of_ne m ρ c main_v3 (by decide)))
  rw [hk]; exact val_v3_1 m ρ c

/-- Region 1 leaves the aggregation of its operands in `main_v18`. -/
theorem val_v18_4 : (W4 m ρ c (Proc.devRef .tc main_v18) : S2048x256.Idx → EReal) = mD1 m c := by
  have h1 : (W4 m ρ c (Proc.devRef .tc main_v18) : S2048x256.Idx → EReal) = (dat1 (F := Ideal) (V3 m ρ) c).arrAt 2 cfg1.N := W4_arr m ρ c 2
  have h2 : (dat1 (F := Ideal) (V3 m ρ) c).arrAt 2 cfg1.N = agg (n := 2048) (k := 2048) (W3 m ρ c (Proc.devRef .tc main_v3) : S2048x2048.Idx → EReal) (W3 m ρ c (Proc.devRef .tc main_v17) : S2048x256.Idx → EReal) := agg_arrAt1 (V3 m ρ) c
  rw [h1, h2, val_v3_3, val_v17_3]

/-- `main_v25` is `main_v18` (the rounding to the narrower format is the identity on the reals). -/
theorem val_v25_5 : (W5 m ρ c (Proc.devRef .tc main_v25) : S2048x256.Idx → EReal) = mD1 m c := by
  have h : (W5 m ρ c (Proc.devRef .tc main_v25) : S2048x256.Idx → EReal) = (W4 m ρ c (Proc.devRef .tc main_v18) : S2048x256.Idx → EReal) := by
    after_results; rfl
  exact h.trans (val_v18_4 m ρ c)

theorem arg_18_4 : W4 m ρ c (Proc.devRef .tc main_arg18) = m ((c : Thread nD τ).loc main_arg18) :=
  ((W4_of_ne m ρ c main_arg18 (by decide)).trans ((W3_of m ρ c main_arg18 (by decide)).trans ((W2_of_ne m ρ c main_arg18 (by decide)).trans ((W1_of m ρ c main_arg18 (by decide)))))).trans rfl

theorem arg_19_4 : W4 m ρ c (Proc.devRef .tc main_arg19) = m ((c : Thread nD τ).loc main_arg19) :=
  ((W4_of_ne m ρ c main_arg19 (by decide)).trans ((W3_of m ρ c main_arg19 (by decide)).trans ((W2_of_ne m ρ c main_arg19 (by decide)).trans ((W1_of m ρ c main_arg19 (by decide)))))).trans rfl

theorem arg_20_4 : W4 m ρ c (Proc.devRef .tc main_arg20) = m ((c : Thread nD τ).loc main_arg20) :=
  ((W4_of_ne m ρ c main_arg20 (by decide)).trans ((W3_of m ρ c main_arg20 (by decide)).trans ((W2_of_ne m ρ c main_arg20 (by decide)).trans ((W1_of m ρ c main_arg20 (by decide)))))).trans rfl

/-- Matrix 1 of the stack, sliced out and recast. -/
theorem val_v26_5 : (W5 m ρ c (Proc.devRef .tc main_v26) : S256x256.Idx → EReal) = layerW (aWd m c) 1 := by
  after_results
  rw [arg_18_4]
  refine Eq.trans (truncf_ideal _ _) ?_
  exact slice_layerW _ 1 1 rfl _ _

/-- Bias row 1 of the stack, sliced out and recast as one row. -/
theorem val_v27_5 : rowVec (W5 m ρ c (Proc.devRef .tc main_v27) : S1x256.Idx → EReal) = layerB (aBd m c) 1 := by
  after_results
  rw [arg_19_4]
  exact (rowVec_shapeCast _ _).trans (slice_layerB _ 1 1 rfl _ _)

/-- The exponential of log-scale 1 of the stack. -/
theorem val_v29_5 : (W5 m ρ c (Proc.devRef .tc main_v29) : S1x1.Idx → EReal) (ix2 (0 : Fin 1) (0 : Fin 1)) = layerS (aSd m c) 1 := by
  after_results
  rw [arg_20_4]
  exact (shapeCast_scalar_11 _ _).trans (slice_layerS _ 1 1 rfl _ _)

/-- Region 2 leaves the Lorentz linear layer of its operands in `main_v30`. -/
theorem val_v30_6 : (W6 m ρ c (Proc.devRef .tc main_v30) : S2048x256.Idx → EReal) = mL2 m c := by
  have h1 : (W6 m ρ c (Proc.devRef .tc main_v30) : S2048x256.Idx → EReal) = (dat2 (F := Ideal) (V5 m ρ) c).arrAt 4 cfg2.N := W6_arr m ρ c 4
  have h2 : (dat2 (F := Ideal) (V5 m ρ) c).arrAt 4 cfg2.N = linear (n := 2048) (W5 m ρ c (Proc.devRef .tc main_v25) : S2048x256.Idx → EReal) (W5 m ρ c (Proc.devRef .tc main_v26) : S256x256.Idx → EReal)
      (rowVec (W5 m ρ c (Proc.devRef .tc main_v27) : S1x256.Idx → EReal)) ((W5 m ρ c (Proc.devRef .tc main_v29) : S1x1.Idx → EReal) (ix2 (0 : Fin 1) (0 : Fin 1))) := lin_arrAt2 (V5 m ρ) c
  rw [h1, h2, val_v25_5, val_v26_5, val_v27_5, val_v29_5]

/-- `main_v31` is `main_v30` (the rounding to the narrower format is the identity on the reals). -/
theorem val_v31_7 : (W7 m ρ c (Proc.devRef .tc main_v31) : S2048x256.Idx → EReal) = mL2 m c := by
  have h : (W7 m ρ c (Proc.devRef .tc main_v31) : S2048x256.Idx → EReal) = (W6 m ρ c (Proc.devRef .tc main_v30) : S2048x256.Idx → EReal) := by
    after_results; rfl
  exact h.trans (val_v30_6 m ρ c)

/-- `main_v3` is not written between boundaries 1 and 7. -/
theorem val_v3_7 : (W7 m ρ c (Proc.devRef .tc main_v3) : S2048x2048.Idx → EReal) = aDdi m c := by
  have hk : W7 m ρ c (Proc.devRef .tc main_v3) = W1 m ρ c (Proc.devRef .tc main_v3) :=
    (W7_of m ρ c main_v3 (by decide)).trans ((W6_of_ne m ρ c main_v3 (by decide)).trans ((W5_of m ρ c main_v3 (by decide)).trans (((W4_arr m ρ c 0).trans (((dat1 (F := Ideal) (V3 m ρ) c).arrAt_in 0 rfl _).trans (A_eq1 (V3 m ρ) c 0))).trans ((W3_of m ρ c main_v3 (by decide)).trans ((W2_of_ne m ρ c main_v3 (by decide)))))))
  rw [hk]; exact val_v3_1 m ρ c

/-- Region 3 leaves the aggregation of its operands in `main_v32`. -/
theorem val_v32_8 : (W8 m ρ c (Proc.devRef .tc main_v32) : S2048x256.Idx → EReal) = mD3 m c := by
  have h1 : (W8 m ρ c (Proc.devRef .tc main_v32) : S2048x256.Idx → EReal) = (dat3 (F := Ideal) (V7 m ρ) c).arrAt 2 cfg3.N := W8_arr m ρ c 2
  have h2 : (dat3 (F := Ideal) (V7 m ρ) c).arrAt 2 cfg3.N = agg (n := 2048) (k := 2048) (W7 m ρ c (Proc.devRef .tc main_v3) : S2048x2048.Idx → EReal) (W7 m ρ c (Proc.devRef .tc main_v31) : S2048x256.Idx → EReal) := agg_arrAt3 (V7 m ρ) c
  rw [h1, h2, val_v3_7, val_v31_7]

/-- `main_v32` is not written between boundaries 8 and 35. -/
theorem val_v32_35 : (W35 m ρ c (Proc.devRef .tc main_v32) : S2048x256.Idx → EReal) = mD3 m c := by
  have hk : W35 m ρ c (Proc.devRef .tc main_v32) = W8 m ρ c (Proc.devRef .tc main_v32) :=
    (W35_of m ρ c main_v32 (by decide)).trans ((W34_of_ne m ρ c main_v32 (by decide)).trans ((W33_of m ρ c main_v32 (by decide)).trans ((W32_of_ne m ρ c main_v32 (by decide)).trans ((W31_of m ρ c main_v32 (by decide)).trans ((W30_of_ne m ρ c main_v32 (by decide)).trans ((W29_of m ρ c main_v32 (by decide)).trans ((W28_of_ne m ρ c main_v32 (by decide)).trans ((W27_of m ρ c main_v32 (by decide)).trans ((W26_of_ne m ρ c main_v32 (by decide)).trans ((W25_of m ρ c main_v32 (by decide)).trans ((W24_of_ne m ρ c main_v32 (by decide)).trans ((W23_of m ρ c main_v32 (by decide)).trans ((W22_of_ne m ρ c main_v32 (by decide)).trans ((W21_of m ρ c main_v32 (by decide)).trans ((W20_of_ne m ρ c main_v32 (by decide)).trans ((W19_of m ρ c main_v32 (by decide)).trans ((W18_of_ne m ρ c main_v32 (by decide)).trans ((W17_of m ρ c main_v32 (by decide)).trans ((W16_of_ne m ρ c main_v32 (by decide)).trans ((W15_of m ρ c main_v32 (by decide)).trans ((W14_of_ne m ρ c main_v32 (by decide)).trans ((W13_of m ρ c main_v32 (by decide)).trans ((W12_of_ne m ρ c main_v32 (by decide)).trans ((W11_of m ρ c main_v32 (by decide)).trans ((W10_of_ne m ρ c main_v32 (by decide)).trans ((W9_of m ρ c main_v32 (by decide))))))))))))))))))))))))))))
  rw [hk]; exact val_v32_8 m ρ c

end Cert.KernelIdeal.Val

end
-- ==== Proof.Val.LinRegion4.lean ====
/-
  Region 4 of the program: a Lorentz linear layer over 16384 rows, computed in 8 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin4
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- The layer of the arrays region 4 finds: input rows, weights, bias row, scale. -/
def G4 (c : Dev nD) : S16384x256.Idx → EReal :=
  linear (n := 16384) (V c (Pipeline.arrRef spec4 0) : S16384x256.Idx → EReal) (V c (Pipeline.arrRef spec4 1) : S256x256.Idx → EReal)
    (rowVec (V c (Pipeline.arrRef spec4 2) : S1x256.Idx → EReal)) ((V c (Pipeline.arrRef spec4 3) : S1x1.Idx → EReal) (ix2 (0 : Fin 1) (0 : Fin 1)))

/-- The printed index maps, decided over the grid: the row windows are at block (t, 0), the others at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The input window's block at point t is rows 2048·t … of the input array. -/
theorem iblk4_0_apply (c : Dev nD) (t : Fin cfg4.N) (x : S2048x256.Idx) (k : S16384x256.Idx)
    (hk0 : (k 0).val = 2048 * t.val + (x 0).val) (hk1 : (k 1).val = (x 1).val) :
    (iblk4 V c 0 t : S2048x256.Idx → EReal) x = (V c (Pipeline.arrRef spec4 0) : S16384x256.Idx → EReal) k := by
  obtain ⟨e0, e1, -⟩ := idx_facts4 t
  unfold iblk4
  rw [View.read_apply]
  show (V c (Pipeline.arrRef spec4 0) : S16384x256.Idx → EReal) _ = _
  congr 1
  funext a
  apply Fin.ext
  match a with
  | ⟨0, _⟩ => show win4_0.index t (0 : Fin 2) * 2048 + 1 * (x 0).val = (k 0).val; rw [e0, hk0]; omega
  | ⟨1, _⟩ => show win4_0.index t (1 : Fin 2) * 256 + 1 * (x 1).val = (k 1).val; rw [e1, hk1]; omega

/-- The weights', bias row's and scale's windows are the whole arrays at every point. -/
theorem iblk4_1_eq (c : Dev nD) (t : Fin cfg4.N) :
    (iblk4 V c 1 t : S256x256.Idx → EReal) = (V c (Pipeline.arrRef spec4 1) : S256x256.Idx → EReal) := by
  obtain ⟨-, -, e0, e1, -⟩ := idx_facts4 t
  funext x
  unfold iblk4
  rw [View.read_apply]
  show (V c (Pipeline.arrRef spec4 1) : S256x256.Idx → EReal) _ = _
  congr 1
  funext a
  apply Fin.ext
  match a with
  | ⟨0, _⟩ => show win4_1.index t (0 : Fin 2) * 256 + 1 * (x 0).val = (x 0).val; rw [e0]; omega
  | ⟨1, _⟩ => show win4_1.index t (1 : Fin 2) * 256 + 1 * (x 1).val = (x 1).val; rw [e1]; omega

theorem iblk4_2_eq (c : Dev nD) (t : Fin cfg4.N) :
    (iblk4 V c 2 t : S1x256.Idx → EReal) = (V c (Pipeline.arrRef spec4 2) : S1x256.Idx → EReal) := by
  obtain ⟨-, -, -, -, e0, e1, -⟩ := idx_facts4 t
  funext x
  unfold iblk4
  rw [View.read_apply]
  show (V c (Pipeline.arrRef spec4 2) : S1x256.Idx → EReal) _ = _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 256 + 1 * (x 1).val = (x 1).val; rw [e1]; omega

theorem iblk4_3_eq (c : Dev nD) (t : Fin cfg4.N) :
    (iblk4 V c 3 t : S1x1.Idx → EReal) = (V c (Pipeline.arrRef spec4 3) : S1x1.Idx → EReal) := by
  obtain ⟨-, -, -, -, -, -, e0, e1, -⟩ := idx_facts4 t
  funext x
  unfold iblk4
  rw [View.read_apply]
  show (V c (Pipeline.arrRef spec4 3) : S1x1.Idx → EReal) _ = _
  congr 1
  funext a
  apply Fin.ext
  match a with
  | ⟨0, _⟩ => show win4_3.index t (0 : Fin 2) * 1 + 1 * (x 0).val = (x 0).val; rw [e0]; omega
  | ⟨1, _⟩ => show win4_3.index t (1 : Fin 2) * 1 + 1 * (x 1).val = (x 1).val; rw [e1]; omega

/-- What the body leaves at point t is the layer of the four blocks. -/
theorem out4_4_eq (x0 : Vec Ideal S2048x256 .bf16) (x1 : Vec Ideal S256x256 .bf16) (x2 : Vec Ideal S1x256 .f32) (x3 : Vec Ideal S1x1 .f32) :
    out4_4 (F := Ideal) x0 x1 x2 x3 = linear (n := 2048) x0 x1 (rowVec x2) (x3 (ix2 (0 : Fin 1) (0 : Fin 1))) := by
  unfold out4_4
  rw [View.canon_unit_zero hz4]
  simp only [View.ld_unit_zero (S := S2048x256) hz4, View.ld_unit_zero (S := S256x256) hz4, View.ld_unit_zero (S := S1x256) hz4,
    View.ld_unit_zero (S := S1x1) hz4]
  exact k0_pay1_eq x0 x1 x2 x3

/-- WHAT POINT t WRITES BACK is block t of the layer of the whole arrays. -/
theorem flushed4_eq (c : Dev nD) (t : Fin cfg4.N) :
    (dat4 (F := Ideal) V c).flushed 4 t = ((cfg4.win 4).blk t).view.read (Elt Ideal) (G4 V c) := by
  show (cfg4.win 4).cut (grid4.coords t) ((dat4 (F := Ideal) V c).after 4 t) = _
  rw [after4_4, out4_4_eq, iblk4_1_eq, iblk4_2_eq, iblk4_3_eq]
  obtain ⟨-, -, -, -, -, -, -, -, e0, e1⟩ := idx_facts4 t
  funext j
  show linear (n := 2048) (iblk4 V c 0 t : S2048x256.Idx → EReal) _ _ _ j = G4 V c (((cfg4.win 4).blk t).view.emb j)
  unfold G4
  have h0 : ((((cfg4.win 4).blk t).view.emb j : S16384x256.Idx) 0).val = 2048 * t.val + (j 0).val := by
    show win4_4.index t (0 : Fin 2) * 2048 + 1 * (j 0).val = _; rw [e0]; omega
  have h1 : ((((cfg4.win 4).blk t).view.emb j : S16384x256.Idx) 1).val = (j 1).val := by
    show win4_4.index t (1 : Fin 2) * 256 + 1 * (j 1).val = _; rw [e1]; omega
  refine (linear_rows (N := 16384) (n := 2048) _ _ _ _ _ (((cfg4.win 4).blk t).view.emb j) j h1 fun q => ?_).symm
  exact (iblk4_0_apply V c t (ix2 (rowOf j) q) (ix2 (rowOf (((cfg4.win 4).blk t).view.emb j : S16384x256.Idx)) q) h0 rfl).symm

/-- An index of the output array is in point t's block iff each coordinate is in the block's range on its axis. -/
theorem mem_blk4 (t : Fin cfg4.N) (i : S16384x256.Idx) :
    i ∈ ((cfg4.win 4).blk t).view.set ↔ ∀ a : Fin 2, win4_4.index t a * S2048x256.size a ≤ (i a).val ∧ (i a).val < win4_4.index t a * S2048x256.size a + S2048x256.size a := by
  show i ∈ ((View.whole main_v38).slice (win4_4.rect t)).set ↔ _
  rw [View.set_slice_whole, Rect.mem_set_unit]
  exact Iff.rfl

/-- THE ARRAY after the run: the layer of the arrays the region found. -/
theorem lin_arrAt4_G (c : Dev nD) : (dat4 (F := Ideal) V c).arrAt 4 cfg4.N = G4 V c := by
  refine (dat4 (F := Ideal) V c).arrAt_eq_of_cover 4 (G4 V c) (fun t _ => flushed4_eq V c t) fun i => ?_
  have hi0 : (i 0).val < 16384 := (i 0).isLt
  have hi1 : (i 1).val < 256 := (i 1).isLt
  refine ⟨⟨(i 0).val / 2048, by show (i 0).val / 2048 < 8; omega⟩, flush4_4 _, ?_⟩
  rw [mem_blk4]
  obtain ⟨-, -, -, -, -, -, -, -, e0, e1⟩ := idx_facts4 ⟨(i 0).val / 2048, by show (i 0).val / 2048 < 8; omega⟩
  intro a
  match a with
  | ⟨0, _⟩ =>
    show win4_4.index _ (0 : Fin 2) * 2048 ≤ (i 0).val ∧ (i 0).val < win4_4.index _ (0 : Fin 2) * 2048 + 2048
    rw [e0]; show (i 0).val / 2048 * 2048 ≤ (i 0).val ∧ (i 0).val < (i 0).val / 2048 * 2048 + 2048; omega
  | ⟨1, _⟩ =>
    show win4_4.index _ (1 : Fin 2) * 256 ≤ (i 1).val ∧ (i 1).val < win4_4.index _ (1 : Fin 2) * 256 + 256
    rw [e1]; omega

/-- The same, with the layer written out. -/
theorem lin_arrAt4 (c : Dev nD) : (dat4 (F := Ideal) V c).arrAt 4 cfg4.N
    = linear (n := 16384) (V c (Pipeline.arrRef spec4 0) : S16384x256.Idx → EReal) (V c (Pipeline.arrRef spec4 1) : S256x256.Idx → EReal)
        (rowVec (V c (Pipeline.arrRef spec4 2) : S1x256.Idx → EReal))
        ((V c (Pipeline.arrRef spec4 3) : S1x1.Idx → EReal) (ix2 (0 : Fin 1) (0 : Fin 1))) :=
  lin_arrAt4_G V c

end Cert.KernelIdeal.Val

end
-- ==== Proof.Val.LinRegion5.lean ====
/-
  Region 5 of the program: a Lorentz linear layer over 16384 rows, computed in 8 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin5
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-- The layer of the arrays region 5 finds: input rows, weights, bias row, scale. -/
def G5 (c : Dev nD) : S16384x256.Idx → EReal :=
  linear (n := 16384) (V c (Pipeline.arrRef spec5 0) : S16384x256.Idx → EReal) (V c (Pipeline.arrRef spec5 1) : S256x256.Idx → EReal)
    (rowVec (V c (Pipeline.arrRef spec5 2) : S1x256.Idx → EReal)) ((V c (Pipeline.arrRef spec5 3) : S1x1.Idx → EReal) (ix2 (0 : Fin 1) (0 : Fin 1)))

/-- The printed index maps, decided over the grid: the row windows are at block (t, 0), the others at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The input window's block at point t is rows 2048·t … of the input array. -/
theorem iblk5_0_apply (c : Dev nD) (t : Fin cfg5.N) (x : S2048x256.Idx) (k : S16384x256.Idx)
    (hk0 : (k 0).val = 2048 * t.val + (x 0).val) (hk1 : (k 1).val = (x 1).val) :
    (iblk5 V c 0 t : S2048x256.Idx → EReal) x = (V c (Pipeline.arrRef spec5 0) : S16384x256.Idx → EReal) k := by
  obtain ⟨e0, e1, -⟩ := idx_facts5 t
  unfold iblk5
  rw [View.read_apply]
  show (V c (Pipeline.arrRef spec5 0) : S16384x256.Idx → EReal) _ = _
  congr 1
  funext a
  apply Fin.ext
  match a with
  | ⟨0, _⟩ => show win5_0.index t (0 : Fin 2) * 2048 + 1 * (x 0).val = (k 0).val; rw [e0, hk0]; omega
  | ⟨1, _⟩ => show win5_0.index t (1 : Fin 2) * 256 + 1 * (x 1).val = (k 1).val; rw [e1, hk1]; omega

/-- The weights', bias row's and scale's windows are the whole arrays at every point. -/
theorem iblk5_1_eq (c : Dev nD) (t : Fin cfg5.N) :
    (iblk5 V c 1 t : S256x256.Idx → EReal) = (V c (Pipeline.arrRef spec5 1) : S256x256.Idx → EReal) := by
  obtain ⟨-, -, e0, e1, -⟩ := idx_facts5 t
  funext x
  unfold iblk5
  rw [View.read_apply]
  show (V c (Pipeline.arrRef spec5 1) : S256x256.Idx → EReal) _ = _
  congr 1
  funext a
  apply Fin.ext
  match a with
  | ⟨0, _⟩ => show win5_1.index t (0 : Fin 2) * 256 + 1 * (x 0).val = (x 0).val; rw [e0]; omega
  | ⟨1, _⟩ => show win5_1.index t (1 : Fin 2) * 256 + 1 * (x 1).val = (x 1).val; rw [e1]; omega

theorem iblk5_2_eq (c : Dev nD) (t : Fin cfg5.N) :
    (iblk5 V c 2 t : S1x256.Idx → EReal) = (V c (Pipeline.arrRef spec5 2) : S1x256.Idx → EReal) := by
  obtain ⟨-, -, -, -, e0, e1, -⟩ := idx_facts5 t
  funext x
  unfold iblk5
  rw [View.read_apply]
  show (V c (Pipeline.arrRef spec5 2) : S1x256.Idx → EReal) _ = _
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 256 + 1 * (x 1).val = (x 1).val; rw [e1]; omega

theorem iblk5_3_eq (c : Dev nD) (t : Fin cfg5.N) :
    (iblk5 V c 3 t : S1x1.Idx → EReal) = (V c (Pipeline.arrRef spec5 3) : S1x1.Idx → EReal) := by
  obtain ⟨-, -, -, -, -, -, e0, e1, -⟩ := idx_facts5 t
  funext x
  unfold iblk5
  rw [View.read_apply]
  show (V c (Pipeline.arrRef spec5 3) : S1x1.Idx → EReal) _ = _
  congr 1
  funext a
  apply Fin.ext
  match a with
  | ⟨0, _⟩ => show win5_3.index t (0 : Fin 2) * 1 + 1 * (x 0).val = (x 0).val; rw [e0]; omega
  | ⟨1, _⟩ => show win5_3.index t (1 : Fin 2) * 1 + 1 * (x 1).val = (x 1).val; rw [e1]; omega

/-- What the body leaves at point t is the layer of the four blocks. -/
theorem out5_4_eq (x0 : Vec Ideal S2048x256 .bf16) (x1 : Vec Ideal S256x256 .bf16) (x2 : Vec Ideal S1x256 .f32) (x3 : Vec Ideal S1x1 .f32) :
    out5_4 (F := Ideal) x0 x1 x2 x3 = linear (n := 2048) x0 x1 (rowVec x2) (x3 (ix2 (0 : Fin 1) (0 : Fin 1))) := by
  unfold out5_4
  rw [View.canon_unit_zero hz5]
  simp only [View.ld_unit_zero (S := S2048x256) hz5, View.ld_unit_zero (S := S256x256) hz5, View.ld_unit_zero (S := S1x256) hz5,
    View.ld_unit_zero (S := S1x1) hz5]
  exact k0_pay1_eq x0 x1 x2 x3

/-- WHAT POINT t WRITES BACK is block t of the layer of the whole arrays. -/
theorem flushed5_eq (c : Dev nD) (t : Fin cfg5.N) :
    (dat5 (F := Ideal) V c).flushed 4 t = ((cfg5.win 4).blk t).view.read (Elt Ideal) (G5 V c) := by
  show (cfg5.win 4).cut (grid5.coords t) ((dat5 (F := Ideal) V c).after 4 t) = _
  rw [after5_4, out5_4_eq, iblk5_1_eq, iblk5_2_eq, iblk5_3_eq]
  obtain ⟨-, -, -, -, -, -, -, -, e0, e1⟩ := idx_facts5 t
  funext j
  show linear (n := 2048) (iblk5 V c 0 t : S2048x256.Idx → EReal) _ _ _ j = G5 V c (((cfg5.win 4).blk t).view.emb j)
  unfold G5
  have h0 : ((((cfg5.win 4).blk t).view.emb j : S16384x256.Idx) 0).val = 2048 * t.val + (j 0).val := by
    show win5_4.index t (0 : Fin 2) * 2048 + 1 * (j 0).val = _; rw [e0]; omega
  have h1 : ((((cfg5.win 4).blk t).view.emb j : S16384x256.Idx) 1).val = (j 1).val := by
    show win5_4.index t (1 : Fin 2) * 256 + 1 * (j 1).val = _; rw [e1]; omega
  refine (linear_rows (N := 16384) (n := 2048) _ _ _ _ _ (((cfg5.win 4).blk t).view.emb j) j h1 fun q => ?_).symm
  exact (iblk5_0_apply V c t (ix2 (rowOf j) q) (ix2 (rowOf (((cfg5.win 4).blk t).view.emb j : S16384x256.Idx)) q) h0 rfl).symm

/-- An index of the output array is in point t's block iff each coordinate is in the block's range on its axis. -/
theorem mem_blk5 (t : Fin cfg5.N) (i : S16384x256.Idx) :
    i ∈ ((cfg5.win 4).blk t).view.set ↔ ∀ a : Fin 2, win5_4.index t a * S2048x256.size a ≤ (i a).val ∧ (i a).val < win5_4.index t a * S2048x256.size a + S2048x256.size a := by
  show i ∈ ((View.whole main_v51).slice (win5_4.rect t)).set ↔ _
  rw [View.set_slice_whole, Rect.mem_set_unit]
  exact Iff.rfl

/-- THE ARRAY after the run: the layer of the arrays the region found. -/
theorem lin_arrAt5_G (c : Dev nD) : (dat5 (F := Ideal) V c).arrAt 4 cfg5.N = G5 V c := by
  refine (dat5 (F := Ideal) V c).arrAt_eq_of_cover 4 (G5 V c) (fun t _ => flushed5_eq V c t) fun i => ?_
  have hi0 : (i 0).val < 16384 := (i 0).isLt
  have hi1 : (i 1).val < 256 := (i 1).isLt
  refine ⟨⟨(i 0).val / 2048, by show (i 0).val / 2048 < 8; omega⟩, flush5_4 _, ?_⟩
  rw [mem_blk5]
  obtain ⟨-, -, -, -, -, -, -, -, e0, e1⟩ := idx_facts5 ⟨(i 0).val / 2048, by show (i 0).val / 2048 < 8; omega⟩
  intro a
  match a with
  | ⟨0, _⟩ =>
    show win5_4.index _ (0 : Fin 2) * 2048 ≤ (i 0).val ∧ (i 0).val < win5_4.index _ (0 : Fin 2) * 2048 + 2048
    rw [e0]; show (i 0).val / 2048 * 2048 ≤ (i 0).val ∧ (i 0).val < (i 0).val / 2048 * 2048 + 2048; omega
  | ⟨1, _⟩ =>
    show win5_4.index _ (1 : Fin 2) * 256 ≤ (i 1).val ∧ (i 1).val < win5_4.index _ (1 : Fin 2) * 256 + 256
    rw [e1]; omega

/-- The same, with the layer written out. -/
theorem lin_arrAt5 (c : Dev nD) : (dat5 (F := Ideal) V c).arrAt 4 cfg5.N
    = linear (n := 16384) (V c (Pipeline.arrRef spec5 0) : S16384x256.Idx → EReal) (V c (Pipeline.arrRef spec5 1) : S256x256.Idx → EReal)
        (rowVec (V c (Pipeline.arrRef spec5 2) : S1x256.Idx → EReal))
        ((V c (Pipeline.arrRef spec5 3) : S1x1.Idx → EReal) (ix2 (0 : Fin 1) (0 : Fin 1))) :=
  lin_arrAt5_G V c

end Cert.KernelIdeal.Val

end
-- ==== Proof.Val.LinRegion6.lean ====
/-
  Region 6 of the program: a Lorentz linear layer over 16384 rows, computed in 8 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin6
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-- The layer of the arrays region 6 finds: input rows, weights, bias row, scale. -/
def G6 (c : Dev nD) : S16384x256.Idx → EReal :=
  linear (n := 16384) (V c (Pipeline.arrRef spec6 0) : S16384x256.Idx → EReal) (V c (Pipeline.arrRef spec6 1) : S256x256.Idx → EReal)
    (rowVec (V c (Pipeline.arrRef spec6 2) : S1x256.Idx → EReal)) ((V c (Pipeline.arrRef spec6 3) : S1x1.Idx → EReal) (ix2 (0 : Fin 1) (0 : Fin 1)))

/-- The printed index maps, decided over the grid: the row windows are at block (t, 0), the others at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The input window's block at point t is rows 2048·t … of the input array. -/
theorem iblk6_0_apply (c : Dev nD) (t : Fin cfg6.N) (x : S2048x256.Idx) (k : S16384x256.Idx)
    (hk0 : (k 0).val = 2048 * t.val + (x 0).val) (hk1 : (k 1).val = (x 1).val) :
    (iblk6 V c 0 t : S2048x256.Idx → EReal) x = (V c (Pipeline.arrRef spec6 0) : S16384x256.Idx → EReal) k := by
  obtain ⟨e0, e1, -⟩ := idx_facts6 t
  unfold iblk6
  rw [View.read_apply]
  show (V c (Pipeline.arrRef spec6 0) : S16384x256.Idx → EReal) _ = _
  congr 1
  funext a
  apply Fin.ext
  match a with
  | ⟨0, _⟩ => show win6_0.index t (0 : Fin 2) * 2048 + 1 * (x 0).val = (k 0).val; rw [e0, hk0]; omega
  | ⟨1, _⟩ => show win6_0.index t (1 : Fin 2) * 256 + 1 * (x 1).val = (k 1).val; rw [e1, hk1]; omega

/-- The weights', bias row's and scale's windows are the whole arrays at every point. -/
theorem iblk6_1_eq (c : Dev nD) (t : Fin cfg6.N) :
    (iblk6 V c 1 t : S256x256.Idx → EReal) = (V c (Pipeline.arrRef spec6 1) : S256x256.Idx → EReal) := by
  obtain ⟨-, -, e0, e1, -⟩ := idx_facts6 t
  funext x
  unfold iblk6
  rw [View.read_apply]
  show (V c (Pipeline.arrRef spec6 1) : S256x256.Idx → EReal) _ = _
  congr 1
  funext a
  apply Fin.ext
  match a with
  | ⟨0, _⟩ => show win6_1.index t (0 : Fin 2) * 256 + 1 * (x 0).val = (x 0).val; rw [e0]; omega
  | ⟨1, _⟩ => show win6_1.index t (1 : Fin 2) * 256 + 1 * (x 1).val = (x 1).val; rw [e1]; omega

theorem iblk6_2_eq (c : Dev nD) (t : Fin cfg6.N) :
    (iblk6 V c 2 t : S1x256.Idx → EReal) = (V c (Pipeline.arrRef spec6 2) : S1x256.Idx → EReal) := by
  obtain ⟨-, -, -, -, e0, e1, -⟩ := idx_facts6 t
  funext x
  unfold iblk6
  rw [View.read_apply]
  show (V c (Pipeline.arrRef spec6 2) : S1x256.Idx → EReal) _ = _
  congr 1
  funext a
  apply Fin.ext
  match a with
  | ⟨0, _⟩ => show win6_2.index t (0 : Fin 2) * 1 + 1 * (x 0).val = (x 0).val; rw [e0]; omega
  | ⟨1, _⟩ => show win6_2.index t (1 : Fin 2) * 256 + 1 * (x 1).val = (x 1).val; rw [e1]; omega

theorem iblk6_3_eq (c : Dev nD) (t : Fin cfg6.N) :
    (iblk6 V c 3 t : S1x1.Idx → EReal) = (V c (Pipeline.arrRef spec6 3) : S1x1.Idx → EReal) := by
  obtain ⟨-, -, -, -, -, -, e0, e1, -⟩ := idx_facts6 t
  funext x
  unfold iblk6
  rw [View.read_apply]
  show (V c (Pipeline.arrRef spec6 3) : S1x1.Idx → EReal) _ = _
  congr 1
  funext a
  apply Fin.ext
  match a with
  | ⟨0, _⟩ => show win6_3.index t (0 : Fin 2) * 1 + 1 * (x 0).val = (x 0).val; rw [e0]; omega
  | ⟨1, _⟩ => show win6_3.index t (1 : Fin 2) * 1 + 1 * (x 1).val = (x 1).val; rw [e1]; omega

/-- What the body leaves at point t is the layer of the four blocks. -/
theorem out6_4_eq (x0 : Vec Ideal S2048x256 .bf16) (x1 : Vec Ideal S256x256 .bf16) (x2 : Vec Ideal S1x256 .f32) (x3 : Vec Ideal S1x1 .f32) :
    out6_4 (F := Ideal) x0 x1 x2 x3 = linear (n := 2048) x0 x1 (rowVec x2) (x3 (ix2 (0 : Fin 1) (0 : Fin 1))) := by
  unfold out6_4
  rw [View.canon_unit_zero hz6]
  simp only [View.ld_unit_zero (S := S2048x256) hz6, View.ld_unit_zero (S := S256x256) hz6, View.ld_unit_zero (S := S1x256) hz6,
    View.ld_unit_zero (S := S1x1) hz6]
  exact k0_pay1_eq x0 x1 x2 x3

/-- WHAT POINT t WRITES BACK is block t of the layer of the whole arrays. -/
theorem flushed6_eq (c : Dev nD) (t : Fin cfg6.N) :
    (dat6 (F := Ideal) V c).flushed 4 t = ((cfg6.win 4).blk t).view.read (Elt Ideal) (G6 V c) := by
  show (cfg6.win 4).cut (grid6.coords t) ((dat6 (F := Ideal) V c).after 4 t) = _
  rw [after6_4, out6_4_eq, iblk6_1_eq, iblk6_2_eq, iblk6_3_eq]
  obtain ⟨-, -, -, -, -, -, -, -, e0, e1⟩ := idx_facts6 t
  funext j
  show linear (n := 2048) (iblk6 V c 0 t : S2048x256.Idx → EReal) _ _ _ j = G6 V c (((cfg6.win 4).blk t).view.emb j)
  unfold G6
  have h0 : ((((cfg6.win 4).blk t).view.emb j : S16384x256.Idx) 0).val = 2048 * t.val + (j 0).val := by
    show win6_4.index t (0 : Fin 2) * 2048 + 1 * (j 0).val = _; rw [e0]; omega
  have h1 : ((((cfg6.win 4).blk t).view.emb j : S16384x256.Idx) 1).val = (j 1).val := by
    show win6_4.index t (1 : Fin 2) * 256 + 1 * (j 1).val = _; rw [e1]; omega
  refine (linear_rows (N := 16384) (n := 2048) _ _ _ _ _ (((cfg6.win 4).blk t).view.emb j) j h1 fun q => ?_).symm
  exact (iblk6_0_apply V c t (ix2 (rowOf j) q) (ix2 (rowOf (((cfg6.win 4).blk t).view.emb j : S16384x256.Idx)) q) h0 rfl).symm

/-- An index of the output array is in point t's block iff each coordinate is in the block's range on its axis. -/
theorem mem_blk6 (t : Fin cfg6.N) (i : S16384x256.Idx) :
    i ∈ ((cfg6.win 4).blk t).view.set ↔ ∀ a : Fin 2, win6_4.index t a * S2048x256.size a ≤ (i a).val ∧ (i a).val < win6_4.index t a * S2048x256.size a + S2048x256.size a := by
  show i ∈ ((View.whole main_v70).slice (win6_4.rect t)).set ↔ _
  rw [View.set_slice_whole, Rect.mem_set_unit]
  exact Iff.rfl

/-- THE ARRAY after the run: the layer of the arrays the region found. -/
theorem lin_arrAt6_G (c : Dev nD) : (dat6 (F := Ideal) V c).arrAt 4 cfg6.N = G6 V c := by
  refine (dat6 (F := Ideal) V c).arrAt_eq_of_cover 4 (G6 V c) (fun t _ => flushed6_eq V c t) fun i => ?_
  have hi0 : (i 0).val < 16384 := (i 0).isLt
  have hi1 : (i 1).val < 256 := (i 1).isLt
  refine ⟨⟨(i 0).val / 2048, by show (i 0).val / 2048 < 8; omega⟩, flush6_4 _, ?_⟩
  rw [mem_blk6]
  obtain ⟨-, -, -, -, -, -, -, -, e0, e1⟩ := idx_facts6 ⟨(i 0).val / 2048, by show (i 0).val / 2048 < 8; omega⟩
  intro a
  match a with
  | ⟨0, _⟩ =>
    show win6_4.index _ (0 : Fin 2) * 2048 ≤ (i 0).val ∧ (i 0).val < win6_4.index _ (0 : Fin 2) * 2048 + 2048
    rw [e0]; show (i 0).val / 2048 * 2048 ≤ (i 0).val ∧ (i 0).val < (i 0).val / 2048 * 2048 + 2048; omega
  | ⟨1, _⟩ =>
    show win6_4.index _ (1 : Fin 2) * 256 ≤ (i 1).val ∧ (i 1).val < win6_4.index _ (1 : Fin 2) * 256 + 256
    rw [e1]; omega

/-- The same, with the layer written out. -/
theorem lin_arrAt6 (c : Dev nD) : (dat6 (F := Ideal) V c).arrAt 4 cfg6.N
    = linear (n := 16384) (V c (Pipeline.arrRef spec6 0) : S16384x256.Idx → EReal) (V c (Pipeline.arrRef spec6 1) : S256x256.Idx → EReal)
        (rowVec (V c (Pipeline.arrRef spec6 2) : S1x256.Idx → EReal))
        ((V c (Pipeline.arrRef spec6 3) : S1x1.Idx → EReal) (ix2 (0 : Fin 1) (0 : Fin 1))) :=
  lin_arrAt6_G V c

end Cert.KernelIdeal.Val

end
-- ==== Proof.Val.BridgeB1.lean ====
/- The kernel side of the value bridge, the gates: regions 4 to 6 and the stretches around them (the two gated copies of
   the stacked embeddings, the first hypergraph layer's linear layer). -/
import proofs.«103499_j73031623901527_2_alg».proof.Proof.Val.Bridge1
import proofs.«103499_j73031623901527_2_alg».proof.Proof.Val.LinRegion4
import proofs.«103499_j73031623901527_2_alg».proof.Proof.Val.LinRegion5
import proofs.«103499_j73031623901527_2_alg».proof.Proof.Val.LinRegion6

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-- `main_v4` is not written between boundaries 1 and 8. -/
theorem val_v4_8 : (W8 m ρ c (Proc.devRef .tc main_v4) : S16384x256.Idx → EReal) = mE m c := by
  have hk : W8 m ρ c (Proc.devRef .tc main_v4) = W1 m ρ c (Proc.devRef .tc main_v4) :=
    (W8_of_ne m ρ c main_v4 (by decide)).trans ((W7_of m ρ c main_v4 (by decide)).trans ((W6_of_ne m ρ c main_v4 (by decide)).trans ((W5_of m ρ c main_v4 (by decide)).trans ((W4_of_ne m ρ c main_v4 (by decide)).trans ((W3_of m ρ c main_v4 (by decide)).trans ((W2_of_ne m ρ c main_v4 (by decide))))))))
  rw [hk]; exact val_v4_1 m ρ c

/-- `main_v33` is `main_v4` (the rounding to the narrower format is the identity on the reals). -/
theorem val_v33_9 : (W9 m ρ c (Proc.devRef .tc main_v33) : S16384x256.Idx → EReal) = mE m c := by
  have h : (W9 m ρ c (Proc.devRef .tc main_v33) : S16384x256.Idx → EReal) = (W8 m ρ c (Proc.devRef .tc main_v4) : S16384x256.Idx → EReal) := by
    after_results; rfl
  exact h.trans (val_v4_8 m ρ c)

theorem arg_6_8 : W8 m ρ c (Proc.devRef .tc main_arg6) = m ((c : Thread nD τ).loc main_arg6) :=
  ((W8_of_ne m ρ c main_arg6 (by decide)).trans ((W7_of m ρ c main_arg6 (by decide)).trans ((W6_of_ne m ρ c main_arg6 (by decide)).trans ((W5_of m ρ c main_arg6 (by decide)).trans ((W4_of_ne m ρ c main_arg6 (by decide)).trans ((W3_of m ρ c main_arg6 (by decide)).trans ((W2_of_ne m ρ c main_arg6 (by decide)).trans ((W1_of m ρ c main_arg6 (by decide)))))))))).trans rfl

/-- The weights, as launched. -/
theorem val_v34_9 : (W9 m ρ c (Proc.devRef .tc main_v34) : S256x256.Idx → EReal) = aWh m c := by
  after_results
  rw [arg_6_8]
  rfl

theorem arg_7_8 : W8 m ρ c (Proc.devRef .tc main_arg7) = m ((c : Thread nD τ).loc main_arg7) :=
  ((W8_of_ne m ρ c main_arg7 (by decide)).trans ((W7_of m ρ c main_arg7 (by decide)).trans ((W6_of_ne m ρ c main_arg7 (by decide)).trans ((W5_of m ρ c main_arg7 (by decide)).trans ((W4_of_ne m ρ c main_arg7 (by decide)).trans ((W3_of m ρ c main_arg7 (by decide)).trans ((W2_of_ne m ρ c main_arg7 (by decide)).trans ((W1_of m ρ c main_arg7 (by decide)))))))))).trans rfl

/-- The bias, recast as one row. -/
theorem val_v35_9 : rowVec (W9 m ρ c (Proc.devRef .tc main_v35) : S1x256.Idx → EReal) = aBh m c := by
  after_results
  rw [arg_7_8]
  exact rowVec_shapeCast _ _

theorem arg_8_8 : W8 m ρ c (Proc.devRef .tc main_arg8) = m ((c : Thread nD τ).loc main_arg8) :=
  ((W8_of_ne m ρ c main_arg8 (by decide)).trans ((W7_of m ρ c main_arg8 (by decide)).trans ((W6_of_ne m ρ c main_arg8 (by decide)).trans ((W5_of m ρ c main_arg8 (by decide)).trans ((W4_of_ne m ρ c main_arg8 (by decide)).trans ((W3_of m ρ c main_arg8 (by decide)).trans ((W2_of_ne m ρ c main_arg8 (by decide)).trans ((W1_of m ρ c main_arg8 (by decide)))))))))).trans rfl

/-- The exponential of the log-scale. -/
theorem val_v37_9 : (W9 m ρ c (Proc.devRef .tc main_v37) : S1x1.Idx → EReal) (ix2 (0 : Fin 1) (0 : Fin 1)) = scalarS (aSh m c) := by
  after_results
  rw [arg_8_8]
  exact (shapeCast_scalar_11 _ _).trans rfl

/-- Region 4 leaves the Lorentz linear layer of its operands in `main_v38`. -/
theorem val_v38_10 : (W10 m ρ c (Proc.devRef .tc main_v38) : S16384x256.Idx → EReal) = mG4 m c := by
  have h1 : (W10 m ρ c (Proc.devRef .tc main_v38) : S16384x256.Idx → EReal) = (dat4 (F := Ideal) (V9 m ρ) c).arrAt 4 cfg4.N := W10_arr m ρ c 4
  have h2 : (dat4 (F := Ideal) (V9 m ρ) c).arrAt 4 cfg4.N = linear (n := 16384) (W9 m ρ c (Proc.devRef .tc main_v33) : S16384x256.Idx → EReal) (W9 m ρ c (Proc.devRef .tc main_v34) : S256x256.Idx → EReal)
      (rowVec (W9 m ρ c (Proc.devRef .tc main_v35) : S1x256.Idx → EReal)) ((W9 m ρ c (Proc.devRef .tc main_v37) : S1x1.Idx → EReal) (ix2 (0 : Fin 1) (0 : Fin 1))) := lin_arrAt4 (V9 m ρ) c
  rw [h1, h2, val_v33_9, val_v34_9, val_v35_9, val_v37_9]

/-- `main_v4` is not written between boundaries 1 and 10. -/
theorem val_v4_10 : (W10 m ρ c (Proc.devRef .tc main_v4) : S16384x256.Idx → EReal) = mE m c := by
  have hk : W10 m ρ c (Proc.devRef .tc main_v4) = W1 m ρ c (Proc.devRef .tc main_v4) :=
    (W10_of_ne m ρ c main_v4 (by decide)).trans ((W9_of m ρ c main_v4 (by decide)).trans ((W8_of_ne m ρ c main_v4 (by decide)).trans ((W7_of m ρ c main_v4 (by decide)).trans ((W6_of_ne m ρ c main_v4 (by decide)).trans ((W5_of m ρ c main_v4 (by decide)).trans ((W4_of_ne m ρ c main_v4 (by decide)).trans ((W3_of m ρ c main_v4 (by decide)).trans ((W2_of_ne m ρ c main_v4 (by decide))))))))))
  rw [hk]; exact val_v4_1 m ρ c

/-- The first gate: σ(layer)·embeddings entry by entry. -/
theorem val_v45_11 : (W11 m ρ c (Proc.devRef .tc main_v45) : S16384x256.Idx → EReal) = mHG m c := by
  after_results
  rw [val_v38_10, val_v4_10]
  exact host_gate _ _ _

/-- `main_v46` is `main_v4` (the rounding to the narrower format is the identity on the reals). -/
theorem val_v46_11 : (W11 m ρ c (Proc.devRef .tc main_v46) : S16384x256.Idx → EReal) = mE m c := by
  have h : (W11 m ρ c (Proc.devRef .tc main_v46) : S16384x256.Idx → EReal) = (W10 m ρ c (Proc.devRef .tc main_v4) : S16384x256.Idx → EReal) := by
    after_results; rfl
  exact h.trans (val_v4_10 m ρ c)

theorem arg_9_10 : W10 m ρ c (Proc.devRef .tc main_arg9) = m ((c : Thread nD τ).loc main_arg9) :=
  ((W10_of_ne m ρ c main_arg9 (by decide)).trans ((W9_of m ρ c main_arg9 (by decide)).trans ((W8_of_ne m ρ c main_arg9 (by decide)).trans ((W7_of m ρ c main_arg9 (by decide)).trans ((W6_of_ne m ρ c main_arg9 (by decide)).trans ((W5_of m ρ c main_arg9 (by decide)).trans ((W4_of_ne m ρ c main_arg9 (by decide)).trans ((W3_of m ρ c main_arg9 (by decide)).trans ((W2_of_ne m ρ c main_arg9 (by decide)).trans ((W1_of m ρ c main_arg9 (by decide)))))))))))).trans rfl

/-- The weights, as launched. -/
theorem val_v47_11 : (W11 m ρ c (Proc.devRef .tc main_v47) : S256x256.Idx → EReal) = aWl m c := by
  after_results
  rw [arg_9_10]
  rfl

theorem arg_10_10 : W10 m ρ c (Proc.devRef .tc main_arg10) = m ((c : Thread nD τ).loc main_arg10) :=
  ((W10_of_ne m ρ c main_arg10 (by decide)).trans ((W9_of m ρ c main_arg10 (by decide)).trans ((W8_of_ne m ρ c main_arg10 (by decide)).trans ((W7_of m ρ c main_arg10 (by decide)).trans ((W6_of_ne m ρ c main_arg10 (by decide)).trans ((W5_of m ρ c main_arg10 (by decide)).trans ((W4_of_ne m ρ c main_arg10 (by decide)).trans ((W3_of m ρ c main_arg10 (by decide)).trans ((W2_of_ne m ρ c main_arg10 (by decide)).trans ((W1_of m ρ c main_arg10 (by decide)))))))))))).trans rfl

/-- The bias, recast as one row. -/
theorem val_v48_11 : rowVec (W11 m ρ c (Proc.devRef .tc main_v48) : S1x256.Idx → EReal) = aBl m c := by
  after_results
  rw [arg_10_10]
  exact rowVec_shapeCast _ _

theorem arg_11_10 : W10 m ρ c (Proc.devRef .tc main_arg11) = m ((c : Thread nD τ).loc main_arg11) :=
  ((W10_of_ne m ρ c main_arg11 (by decide)).trans ((W9_of m ρ c main_arg11 (by decide)).trans ((W8_of_ne m ρ c main_arg11 (by decide)).trans ((W7_of m ρ c main_arg11 (by decide)).trans ((W6_of_ne m ρ c main_arg11 (by decide)).trans ((W5_of m ρ c main_arg11 (by decide)).trans ((W4_of_ne m ρ c main_arg11 (by decide)).trans ((W3_of m ρ c main_arg11 (by decide)).trans ((W2_of_ne m ρ c main_arg11 (by decide)).trans ((W1_of m ρ c main_arg11 (by decide)))))))))))).trans rfl

/-- The exponential of the log-scale. -/
theorem val_v50_11 : (W11 m ρ c (Proc.devRef .tc main_v50) : S1x1.Idx → EReal) (ix2 (0 : Fin 1) (0 : Fin 1)) = scalarS (aSl m c) := by
  after_results
  rw [arg_11_10]
  exact (shapeCast_scalar_11 _ _).trans rfl

/-- Region 5 leaves the Lorentz linear layer of its operands in `main_v51`. -/
theorem val_v51_12 : (W12 m ρ c (Proc.devRef .tc main_v51) : S16384x256.Idx → EReal) = mG5 m c := by
  have h1 : (W12 m ρ c (Proc.devRef .tc main_v51) : S16384x256.Idx → EReal) = (dat5 (F := Ideal) (V11 m ρ) c).arrAt 4 cfg5.N := W12_arr m ρ c 4
  have h2 : (dat5 (F := Ideal) (V11 m ρ) c).arrAt 4 cfg5.N = linear (n := 16384) (W11 m ρ c (Proc.devRef .tc main_v46) : S16384x256.Idx → EReal) (W11 m ρ c (Proc.devRef .tc main_v47) : S256x256.Idx → EReal)
      (rowVec (W11 m ρ c (Proc.devRef .tc main_v48) : S1x256.Idx → EReal)) ((W11 m ρ c (Proc.devRef .tc main_v50) : S1x1.Idx → EReal) (ix2 (0 : Fin 1) (0 : Fin 1))) := lin_arrAt5 (V11 m ρ) c
  rw [h1, h2, val_v46_11, val_v47_11, val_v48_11, val_v50_11]

/-- `main_v4` is not written between boundaries 1 and 12. -/
theorem val_v4_12 : (W12 m ρ c (Proc.devRef .tc main_v4) : S16384x256.Idx → EReal) = mE m c := by
  have hk : W12 m ρ c (Proc.devRef .tc main_v4) = W1 m ρ c (Proc.devRef .tc main_v4) :=
    (W12_of_ne m ρ c main_v4 (by decide)).trans ((W11_of m ρ c main_v4 (by decide)).trans ((W10_of_ne m ρ c main_v4 (by decide)).trans ((W9_of m ρ c main_v4 (by decide)).trans ((W8_of_ne m ρ c main_v4 (by decide)).trans ((W7_of m ρ c main_v4 (by decide)).trans ((W6_of_ne m ρ c main_v4 (by decide)).trans ((W5_of m ρ c main_v4 (by decide)).trans ((W4_of_ne m ρ c main_v4 (by decide)).trans ((W3_of m ρ c main_v4 (by decide)).trans ((W2_of_ne m ρ c main_v4 (by decide))))))))))))
  rw [hk]; exact val_v4_1 m ρ c

/-- The second gate. -/
theorem val_v58_13 : (W13 m ρ c (Proc.devRef .tc main_v58) : S16384x256.Idx → EReal) = mLG m c := by
  after_results
  rw [val_v51_12, val_v4_12]
  exact host_gate _ _ _

/-- `main_v45` is not written between boundaries 11 and 12. -/
theorem val_v45_12 : (W12 m ρ c (Proc.devRef .tc main_v45) : S16384x256.Idx → EReal) = mHG m c := by
  have hk : W12 m ρ c (Proc.devRef .tc main_v45) = W11 m ρ c (Proc.devRef .tc main_v45) :=
    (W12_of_ne m ρ c main_v45 (by decide))
  rw [hk]; exact val_v45_11 m ρ c

/-- `main_v65` is `main_v45` (the rounding to the narrower format is the identity on the reals). -/
theorem val_v65_13 : (W13 m ρ c (Proc.devRef .tc main_v65) : S16384x256.Idx → EReal) = mHG m c := by
  have h : (W13 m ρ c (Proc.devRef .tc main_v65) : S16384x256.Idx → EReal) = (W12 m ρ c (Proc.devRef .tc main_v45) : S16384x256.Idx → EReal) := by
    after_results; rfl
  exact h.trans (val_v45_12 m ρ c)

theorem arg_12_12 : W12 m ρ c (Proc.devRef .tc main_arg12) = m ((c : Thread nD τ).loc main_arg12) :=
  ((W12_of_ne m ρ c main_arg12 (by decide)).trans ((W11_of m ρ c main_arg12 (by decide)).trans ((W10_of_ne m ρ c main_arg12 (by decide)).trans ((W9_of m ρ c main_arg12 (by decide)).trans ((W8_of_ne m ρ c main_arg12 (by decide)).trans ((W7_of m ρ c main_arg12 (by decide)).trans ((W6_of_ne m ρ c main_arg12 (by decide)).trans ((W5_of m ρ c main_arg12 (by decide)).trans ((W4_of_ne m ρ c main_arg12 (by decide)).trans ((W3_of m ρ c main_arg12 (by decide)).trans ((W2_of_ne m ρ c main_arg12 (by decide)).trans ((W1_of m ρ c main_arg12 (by decide)))))))))))))).trans rfl

theorem arg_13_12 : W12 m ρ c (Proc.devRef .tc main_arg13) = m ((c : Thread nD τ).loc main_arg13) :=
  ((W12_of_ne m ρ c main_arg13 (by decide)).trans ((W11_of m ρ c main_arg13 (by decide)).trans ((W10_of_ne m ρ c main_arg13 (by decide)).trans ((W9_of m ρ c main_arg13 (by decide)).trans ((W8_of_ne m ρ c main_arg13 (by decide)).trans ((W7_of m ρ c main_arg13 (by decide)).trans ((W6_of_ne m ρ c main_arg13 (by decide)).trans ((W5_of m ρ c main_arg13 (by decide)).trans ((W4_of_ne m ρ c main_arg13 (by decide)).trans ((W3_of m ρ c main_arg13 (by decide)).trans ((W2_of_ne m ρ c main_arg13 (by decide)).trans ((W1_of m ρ c main_arg13 (by decide)))))))))))))).trans rfl

theorem arg_14_12 : W12 m ρ c (Proc.devRef .tc main_arg14) = m ((c : Thread nD τ).loc main_arg14) :=
  ((W12_of_ne m ρ c main_arg14 (by decide)).trans ((W11_of m ρ c main_arg14 (by decide)).trans ((W10_of_ne m ρ c main_arg14 (by decide)).trans ((W9_of m ρ c main_arg14 (by decide)).trans ((W8_of_ne m ρ c main_arg14 (by decide)).trans ((W7_of m ρ c main_arg14 (by decide)).trans ((W6_of_ne m ρ c main_arg14 (by decide)).trans ((W5_of m ρ c main_arg14 (by decide)).trans ((W4_of_ne m ρ c main_arg14 (by decide)).trans ((W3_of m ρ c main_arg14 (by decide)).trans ((W2_of_ne m ρ c main_arg14 (by decide)).trans ((W1_of m ρ c main_arg14 (by decide)))))))))))))).trans rfl

/-- Matrix 0 of the stack, sliced out and recast. -/
theorem val_v66_13 : (W13 m ρ c (Proc.devRef .tc main_v66) : S256x256.Idx → EReal) = layerW (aWhg m c) 0 := by
  after_results
  rw [arg_12_12]
  refine Eq.trans (truncf_ideal _ _) ?_
  exact slice_layerW _ 0 0 rfl _ _

/-- Bias row 0 of the stack, sliced out and recast as one row. -/
theorem val_v67_13 : rowVec (W13 m ρ c (Proc.devRef .tc main_v67) : S1x256.Idx → EReal) = layerB (aBhg m c) 0 := by
  after_results
  rw [arg_13_12]
  exact (rowVec_shapeCast _ _).trans (slice_layerB _ 0 0 rfl _ _)

/-- The exponential of log-scale 0 of the stack. -/
theorem val_v69_13 : (W13 m ρ c (Proc.devRef .tc main_v69) : S1x1.Idx → EReal) (ix2 (0 : Fin 1) (0 : Fin 1)) = layerS (aShg m c) 0 := by
  after_results
  rw [arg_14_12]
  exact (shapeCast_scalar_11 _ _).trans (slice_layerS _ 0 0 rfl _ _)

/-- Region 6 leaves the Lorentz linear layer of its operands in `main_v70`. -/
theorem val_v70_14 : (W14 m ρ c (Proc.devRef .tc main_v70) : S16384x256.Idx → EReal) = mL6 m c := by
  have h1 : (W14 m ρ c (Proc.devRef .tc main_v70) : S16384x256.Idx → EReal) = (dat6 (F := Ideal) (V13 m ρ) c).arrAt 4 cfg6.N := W14_arr m ρ c 4
  have h2 : (dat6 (F := Ideal) (V13 m ρ) c).arrAt 4 cfg6.N = linear (n := 16384) (W13 m ρ c (Proc.devRef .tc main_v65) : S16384x256.Idx → EReal) (W13 m ρ c (Proc.devRef .tc main_v66) : S256x256.Idx → EReal)
      (rowVec (W13 m ρ c (Proc.devRef .tc main_v67) : S1x256.Idx → EReal)) ((W13 m ρ c (Proc.devRef .tc main_v69) : S1x1.Idx → EReal) (ix2 (0 : Fin 1) (0 : Fin 1))) := lin_arrAt6 (V13 m ρ) c
  rw [h1, h2, val_v65_13, val_v66_13, val_v67_13, val_v69_13]

end Cert.KernelIdeal.Val

end
-- ==== Proof.Val.AggRegion7.lean ====
/-
  The aggregation region 7: what its output array holds after the run, as one function of the two arrays the region
  finds.

  The grid is 4 row tiles by 8 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 4 row tiles cover the array.
-/
import proofs.«103499_j73031623901527_2_alg».proof.Proof.KI.AggDef7
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_7 : (![0, 0] : Fin 2 → Nat) = fun _ => 0 := funext fun a => by fin_cases a <;> rfl

/-- The adjacency and the features as the region finds them. -/
abbrev adj7 (c : Dev nD) : Arr2 8192 16384 := V c (Pipeline.arrRef spec7 0)
abbrev x7 (c : Dev nD) : Arr2 16384 256 := V c (Pipeline.arrRef spec7 1)

/-- The printed index maps over the grid: the adjacency's block is (row tile, inner step), the features' block is
    (inner step, 0), the output's block is (row tile, 0); the point number is row tile × 8 + inner step. -/
theorem idx_facts7 : ∀ t : Fin cfg7.N, win7_0.index t (0 : Fin 2) = t.val / 8 ∧ win7_0.index t (1 : Fin 2) = t.val % 8
    ∧ win7_1.index t (0 : Fin 2) = t.val % 8 ∧ win7_1.index t (1 : Fin 2) = 0
    ∧ win7_2.index t (0 : Fin 2) = t.val / 8 ∧ win7_2.index t (1 : Fin 2) = 0 :=
  (by decide +kernel : ∀ t : Fin grid7.N, _)

/-- The adjacency's block at point `t`, entry by entry. -/
theorem iblk7_0_apply (c : Dev nD) (t : Fin cfg7.N) (x : S2048x2048.Idx) (k : S8192x16384.Idx)
    (hk0 : (k 0).val = 2048 * (t.val / 8) + (x 0).val) (hk1 : (k 1).val = 2048 * (t.val % 8) + (x 1).val) :
    (iblk7 V c 0 t : Vec Ideal S2048x2048 .bf16) x = (V c (Pipeline.arrRef spec7 0) : S8192x16384.Idx → EReal) k := by
  obtain ⟨e0, e1, -, -, -, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t 0 * 2048 + 1 * (x 0).val = (k 0).val; rw [e0, hk0]; omega
  | ⟨1, _⟩ => show win7_0.index t 1 * 2048 + 1 * (x 1).val = (k 1).val; rw [e1, hk1]; omega

/-- The features' block at point `t`, entry by entry. -/
theorem iblk7_1_apply (c : Dev nD) (t : Fin cfg7.N) (x : S2048x256.Idx) (k : S16384x256.Idx)
    (hk0 : (k 0).val = 2048 * (t.val % 8) + (x 0).val) (hk1 : (k 1).val = (x 1).val) :
    (iblk7 V c 1 t : Vec Ideal S2048x256 .bf16) x = (V c (Pipeline.arrRef spec7 1) : S16384x256.Idx → EReal) k := by
  obtain ⟨-, -, e0, e1, -, -⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t 0 * 2048 + 1 * (x 0).val = (k 0).val; rw [e0, hk0]; omega
  | ⟨1, _⟩ => show win7_1.index t 1 * 256 + 1 * (x 1).val = (k 1).val; rw [e1, hk1]; omega

/-- The product of the point's two blocks is the point's tile of the whole product's entry. -/
theorem tile7 (c : Dev nD) (t : Fin cfg7.N) (p : Fin 2048) (q : Fin 256) (P : Fin 8192)
    (hP : P.val = 2048 * (t.val / 8) + p.val) :
    rowsMul (n := 2048) (k := 2048) (c := 256) (iblk7 V c 0 t : Vec Ideal S2048x2048 .bf16) (iblk7 V c 1 t : Vec Ideal S2048x256 .bf16) (ix2 p q)
      = tileSum (adj7 V c) (x7 V c) 2048 P q (t.val % 8) := by
  have hN : cfg7.N = 32 := N_7
  have ht := t.isLt
  refine rowsMul_block (adj7 V c) (x7 V c) _ _ (t.val % 8) P p q (fun j J hJ => ?_) (fun j J hJ => ?_) (by omega)
  · exact iblk7_0_apply V c t (ix2 p j) (ix2 P J) hP (by show J.val = _; rw [hJ]; show _ = 2048 * (t.val % 8) + j.val; omega)
  · exact iblk7_1_apply V c t (ix2 j q) (ix2 J q) (by show J.val = _; rw [hJ]; show _ = 2048 * (t.val % 8) + j.val; omega) rfl

/-- At the first inner step the accumulator's payload is tile 0 of the entry. -/
theorem acc_first7 (c : Dev nD) (n : ℕ) (hn : n < cfg7.N) (h0 : n % 8 = 0) (p : Fin 2048) (q : Fin 256) (P : Fin 8192)
    (hP : P.val = 2048 * (n / 8) + p.val) :
    accP7 (F := Ideal) V c n hn (ix2 p q) = ∑ k ∈ Finset.range (n % 8 + 1), tileSum (adj7 V c) (x7 V c) 2048 P q k := by
  have e : _ = tileSum (adj7 V c) (x7 V c) 2048 P q (n % 8) := tile7 V c ⟨n, hn⟩ p q P hP
  have hf : accP7 (F := Ideal) V c n hn = _ := accP7_first (F := Ideal) V c ⟨n, hn⟩ h0
  rw [hf, k7_pay2_eq, k7_pay1_eq, k1_pay2_apply, k1_pay1_apply, zero_add]
  simp only [View.ld_unit_zero (S := S2048x2048) hz_7, View.ld_unit_zero (S := S2048x256) hz_7, View.ld_unit_zero (S := S2048x256) hz_7]
  rw [e, h0, Nat.zero_add, Finset.sum_range_one]

/-- At a later inner step it is what the step before left plus the step's tile. -/
theorem acc_step7 (c : Dev nD) (n : ℕ) (hn : n + 1 < cfg7.N) (h0 : ¬(n + 1) % 8 = 0) (p : Fin 2048) (q : Fin 256) (P : Fin 8192)
    (hP : P.val = 2048 * ((n + 1) / 8) + p.val)
    (ih : accP7 (F := Ideal) V c n (Nat.lt_of_succ_lt hn) (ix2 p q) = ∑ k ∈ Finset.range (n % 8 + 1), tileSum (adj7 V c) (x7 V c) 2048 P q k) :
    accP7 (F := Ideal) V c (n + 1) hn (ix2 p q) = ∑ k ∈ Finset.range ((n + 1) % 8 + 1), tileSum (adj7 V c) (x7 V c) 2048 P q k := by
  have e : _ = tileSum (adj7 V c) (x7 V c) 2048 P q ((n + 1) % 8) := tile7 V c ⟨n + 1, hn⟩ p q P hP
  have hs : accP7 (F := Ideal) V c (n + 1) hn = k7_pay2 (View.ld (acc7 (F := Ideal) V c n (Nat.lt_of_succ_lt hn)) r7_out)
      (View.ld (iblk7 V c 0 ⟨n + 1, hn⟩ : Vec Ideal S2048x2048 .bf16) r7_A) (View.ld (iblk7 V c 1 ⟨n + 1, hn⟩ : Vec Ideal S2048x256 .bf16) r7_X) :=
    accP7_step (F := Ideal) V c ⟨n + 1, hn⟩ h0
  have hmod : (n + 1) % 8 = n % 8 + 1 := by omega
  rw [hs, k7_pay2_eq, k1_pay2_apply]
  simp only [View.ld_unit_zero (S := S2048x2048) hz_7, View.ld_unit_zero (S := S2048x256) hz_7, View.ld_unit_zero (S := S2048x256) hz_7]
  rw [e]
  unfold acc7
  rw [View.canon_unit_zero hz_7, View.ld_unit_zero (S := S2048x256) hz_7, ih, hmod, Finset.sum_range_succ _ (n % 8 + 1)]

/-- After point `n` the accumulator's payload holds, at every entry of its rows, the tiles 0..(n mod 8) of the product. -/
theorem acc_inv7 (c : Dev nD) : ∀ (n : ℕ) (hn : n < cfg7.N) (p : Fin 2048) (q : Fin 256) (P : Fin 8192)
    (hP : P.val = 2048 * (n / 8) + p.val),
    accP7 (F := Ideal) V c n hn (ix2 p q) = ∑ k ∈ Finset.range (n % 8 + 1), tileSum (adj7 V c) (x7 V c) 2048 P q k := by
  intro n
  induction n with
  | zero => exact fun hn p q P hP => acc_first7 V c 0 hn (Nat.zero_mod _) p q P hP
  | succ n ih =>
    intro hn p q P hP
    by_cases h0 : (n + 1) % 8 = 0
    · exact acc_first7 V c (n + 1) hn h0 p q P hP
    · refine acc_step7 V c n hn h0 p q P hP (ih (Nat.lt_of_succ_lt hn) p q P ?_)
      rw [hP]
      have hd : (n + 1) / 8 = n / 8 := by omega
      rw [hd]

/-- An index of the output array is in point `t`'s block iff each coordinate is in the block's range on its axis. -/
theorem mem_blk7 (t : Fin cfg7.N) (i : S8192x256.Idx) :
    i ∈ ((cfg7.win 2).blk t).view.set ↔ ∀ a : Fin 2, win7_2.index t a * S2048x256.size a ≤ (i a).val ∧ (i a).val < win7_2.index t a * S2048x256.size a + S2048x256.size a := by
  show i ∈ ((View.whole main_v72).slice (win7_2.rect t)).set ↔ _
  rw [View.set_slice_whole, Rect.mem_set_unit]
  exact Iff.rfl

/-- What a storing point writes back is its block of rows of the normalised product. -/
theorem flushed7_eq (c : Dev nD) (t : Fin cfg7.N) (hf : (cfg7.win 2).flush t = true) :
    (dat7 (F := Ideal) V c).flushed 2 t = ((cfg7.win 2).blk t).view.read (Elt Ideal) (Cert.Lorentz.agg (n := 8192) (k := 16384) (adj7 V c) (x7 V c)) := by
  have hN : cfg7.N = 32 := N_7
  have ht := t.isLt
  have hlast : t.val % 8 = 7 := (flush7_2 t).mp hf
  obtain ⟨-, -, -, -, e0, e1⟩ := idx_facts7 t
  show (cfg7.win 2).cut (grid7.coords t) ((dat7 V c).after 2 t) = _
  rw [after7_2_last V c t hlast, View.canon_unit_zero hz_7]
  funext j
  show k7_pay3 (F := Ideal) (accP7 V c t.val t.isLt) j = (Cert.Lorentz.agg (n := 8192) (k := 16384) (adj7 V c) (x7 V c)) (((cfg7.win 2).blk t).view.emb j)
  rw [k7_pay3_eq, k1_pay3_apply]
  have hj0 : (j 0).val < 2048 := (j 0).isLt
  have hj1 : (j 1).val < 256 := (j 1).isLt
  have hE0 : ((((cfg7.win 2).blk t).view.emb j) 0).val = 2048 * (t.val / 8) + (j 0).val := by
    show win7_2.index t 0 * 2048 + 1 * (j 0).val = _; rw [e0]; omega
  have hE1 : ((((cfg7.win 2).blk t).view.emb j) 1).val = (j 1).val := by
    show win7_2.index t 1 * 256 + 1 * (j 1).val = _; rw [e1]; omega
  have hrows : ∀ q : Fin 256, rowsMul (n := 8192) (k := 16384) (c := 256) (adj7 V c) (x7 V c) (ix2 (rowOf (((cfg7.win 2).blk t).view.emb j)) q)
      = accP7 (F := Ideal) V c t.val t.isLt (ix2 (rowOf j) q) := by
    intro q
    rw [acc_inv7 V c t.val t.isLt (rowOf j) q (rowOf (((cfg7.win 2).blk t).view.emb j)) hE0, hlast]
    exact (sum_tileSum (adj7 V c) (x7 V c) 8 2048 (by norm_num) _ q).symm
  unfold Cert.Lorentz.agg
  exact (norm_rows (N := 8192) (n := 2048) _ _ _ j hE1 hrows).symm

/-- Every row of the output array is in the block some storing point writes back. -/
theorem cover7 (i : S8192x256.Idx) : ∃ t : Fin cfg7.N, (cfg7.win 2).flush t = true ∧ i ∈ ((cfg7.win 2).blk t).view.set := by
  have hN : cfg7.N = 32 := N_7
  have hi0 : (i 0).val < 8192 := (i 0).isLt
  have hi1 : (i 1).val < 256 := (i 1).isLt
  let t : Fin cfg7.N := ⟨(i 0).val / 2048 * 8 + 7, by rw [hN]; omega⟩
  have htv : t.val = (i 0).val / 2048 * 8 + 7 := rfl
  obtain ⟨-, -, -, -, e0, e1⟩ := idx_facts7 t
  refine ⟨t, (flush7_2 t).mpr (by rw [htv]; omega), ?_⟩
  rw [mem_blk7]
  intro a
  match a with
  | ⟨0, _⟩ => show win7_2.index t (0 : Fin 2) * 2048 ≤ (i 0).val ∧ (i 0).val < win7_2.index t (0 : Fin 2) * 2048 + 2048; rw [e0, htv]; omega
  | ⟨1, _⟩ => show win7_2.index t (1 : Fin 2) * 256 ≤ (i 1).val ∧ (i 1).val < win7_2.index t (1 : Fin 2) * 256 + 256; rw [e1]; omega

/-- The region's output array after the run: the Lorentz aggregation of the two arrays the region finds. -/
theorem agg_arrAt7 (c : Dev nD) : (dat7 (F := Ideal) V c).arrAt 2 cfg7.N = Cert.Lorentz.agg (n := 8192) (k := 16384) (adj7 V c) (x7 V c) :=
  (dat7 (F := Ideal) V c).arrAt_eq_of_cover 2 (Cert.Lorentz.agg (n := 8192) (k := 16384) (adj7 V c) (x7 V c)) (flushed7_eq V c) cover7

end Cert.KernelIdeal.Val

end
-- ==== Proof.Val.AggRegion8.lean ====
/-
  The aggregation region 8: what its output array holds after the run, as one function of the two arrays the region
  finds.

  The grid is 8 row tiles by 4 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 8 row tiles cover the array.
-/
import proofs.«103499_j73031623901527_2_alg».proof.Proof.KI.AggDef8
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_8 : (![0, 0] : Fin 2 → Nat) = fun _ => 0 := funext fun a => by fin_cases a <;> rfl

/-- The adjacency and the features as the region finds them. -/
abbrev adj8 (c : Dev nD) : Arr2 16384 8192 := V c (Pipeline.arrRef spec8 0)
abbrev x8 (c : Dev nD) : Arr2 8192 256 := V c (Pipeline.arrRef spec8 1)

/-- The printed index maps over the grid: the adjacency's block is (row tile, inner step), the features' block is
    (inner step, 0), the output's block is (row tile, 0); the point number is row tile × 4 + inner step. -/
theorem idx_facts8 : ∀ t : Fin cfg8.N, win8_0.index t (0 : Fin 2) = t.val / 4 ∧ win8_0.index t (1 : Fin 2) = t.val % 4
    ∧ win8_1.index t (0 : Fin 2) = t.val % 4 ∧ win8_1.index t (1 : Fin 2) = 0
    ∧ win8_2.index t (0 : Fin 2) = t.val / 4 ∧ win8_2.index t (1 : Fin 2) = 0 :=
  (by decide +kernel : ∀ t : Fin grid8.N, _)

/-- The adjacency's block at point `t`, entry by entry. -/
theorem iblk8_0_apply (c : Dev nD) (t : Fin cfg8.N) (x : S2048x2048.Idx) (k : S16384x8192.Idx)
    (hk0 : (k 0).val = 2048 * (t.val / 4) + (x 0).val) (hk1 : (k 1).val = 2048 * (t.val % 4) + (x 1).val) :
    (iblk8 V c 0 t : Vec Ideal S2048x2048 .bf16) x = (V c (Pipeline.arrRef spec8 0) : S16384x8192.Idx → EReal) k := by
  obtain ⟨e0, e1, -, -, -, -⟩ := idx_facts8 t
  unfold iblk8
  rw [View.read_apply]
  show V c (Pipeline.arrRef spec8 0) _ = V c (Pipeline.arrRef spec8 0) _
  congr 1
  funext a
  apply Fin.ext
  match a with
  | ⟨0, _⟩ => show win8_0.index t 0 * 2048 + 1 * (x 0).val = (k 0).val; rw [e0, hk0]; omega
  | ⟨1, _⟩ => show win8_0.index t 1 * 2048 + 1 * (x 1).val = (k 1).val; rw [e1, hk1]; omega

/-- The features' block at point `t`, entry by entry. -/
theorem iblk8_1_apply (c : Dev nD) (t : Fin cfg8.N) (x : S2048x256.Idx) (k : S8192x256.Idx)
    (hk0 : (k 0).val = 2048 * (t.val % 4) + (x 0).val) (hk1 : (k 1).val = (x 1).val) :
    (iblk8 V c 1 t : Vec Ideal S2048x256 .bf16) x = (V c (Pipeline.arrRef spec8 1) : S8192x256.Idx → EReal) k := by
  obtain ⟨-, -, e0, e1, -, -⟩ := idx_facts8 t
  unfold iblk8
  rw [View.read_apply]
  show V c (Pipeline.arrRef spec8 1) _ = V c (Pipeline.arrRef spec8 1) _
  congr 1
  funext a
  apply Fin.ext
  match a with
  | ⟨0, _⟩ => show win8_1.index t 0 * 2048 + 1 * (x 0).val = (k 0).val; rw [e0, hk0]; omega
  | ⟨1, _⟩ => show win8_1.index t 1 * 256 + 1 * (x 1).val = (k 1).val; rw [e1, hk1]; omega

/-- The product of the point's two blocks is the point's tile of the whole product's entry. -/
theorem tile8 (c : Dev nD) (t : Fin cfg8.N) (p : Fin 2048) (q : Fin 256) (P : Fin 16384)
    (hP : P.val = 2048 * (t.val / 4) + p.val) :
    rowsMul (n := 2048) (k := 2048) (c := 256) (iblk8 V c 0 t : Vec Ideal S2048x2048 .bf16) (iblk8 V c 1 t : Vec Ideal S2048x256 .bf16) (ix2 p q)
      = tileSum (adj8 V c) (x8 V c) 2048 P q (t.val % 4) := by
  have hN : cfg8.N = 32 := N_8
  have ht := t.isLt
  refine rowsMul_block (adj8 V c) (x8 V c) _ _ (t.val % 4) P p q (fun j J hJ => ?_) (fun j J hJ => ?_) (by omega)
  · exact iblk8_0_apply V c t (ix2 p j) (ix2 P J) hP (by show J.val = _; rw [hJ]; show _ = 2048 * (t.val % 4) + j.val; omega)
  · exact iblk8_1_apply V c t (ix2 j q) (ix2 J q) (by show J.val = _; rw [hJ]; show _ = 2048 * (t.val % 4) + j.val; omega) rfl

/-- At the first inner step the accumulator's payload is tile 0 of the entry. -/
theorem acc_first8 (c : Dev nD) (n : ℕ) (hn : n < cfg8.N) (h0 : n % 4 = 0) (p : Fin 2048) (q : Fin 256) (P : Fin 16384)
    (hP : P.val = 2048 * (n / 4) + p.val) :
    accP8 (F := Ideal) V c n hn (ix2 p q) = ∑ k ∈ Finset.range (n % 4 + 1), tileSum (adj8 V c) (x8 V c) 2048 P q k := by
  have e : _ = tileSum (adj8 V c) (x8 V c) 2048 P q (n % 4) := tile8 V c ⟨n, hn⟩ p q P hP
  have hf : accP8 (F := Ideal) V c n hn = _ := accP8_first (F := Ideal) V c ⟨n, hn⟩ h0
  rw [hf, k8_pay2_eq, k8_pay1_eq, k1_pay2_apply, k1_pay1_apply, zero_add]
  simp only [View.ld_unit_zero (S := S2048x2048) hz_8, View.ld_unit_zero (S := S2048x256) hz_8, View.ld_unit_zero (S := S2048x256) hz_8]
  rw [e, h0, Nat.zero_add, Finset.sum_range_one]

/-- At a later inner step it is what the step before left plus the step's tile. -/
theorem acc_step8 (c : Dev nD) (n : ℕ) (hn : n + 1 < cfg8.N) (h0 : ¬(n + 1) % 4 = 0) (p : Fin 2048) (q : Fin 256) (P : Fin 16384)
    (hP : P.val = 2048 * ((n + 1) / 4) + p.val)
    (ih : accP8 (F := Ideal) V c n (Nat.lt_of_succ_lt hn) (ix2 p q) = ∑ k ∈ Finset.range (n % 4 + 1), tileSum (adj8 V c) (x8 V c) 2048 P q k) :
    accP8 (F := Ideal) V c (n + 1) hn (ix2 p q) = ∑ k ∈ Finset.range ((n + 1) % 4 + 1), tileSum (adj8 V c) (x8 V c) 2048 P q k := by
  have e : _ = tileSum (adj8 V c) (x8 V c) 2048 P q ((n + 1) % 4) := tile8 V c ⟨n + 1, hn⟩ p q P hP
  have hs : accP8 (F := Ideal) V c (n + 1) hn = k8_pay2 (View.ld (acc8 (F := Ideal) V c n (Nat.lt_of_succ_lt hn)) r8_out)
      (View.ld (iblk8 V c 0 ⟨n + 1, hn⟩ : Vec Ideal S2048x2048 .bf16) r8_A) (View.ld (iblk8 V c 1 ⟨n + 1, hn⟩ : Vec Ideal S2048x256 .bf16) r8_X) :=
    accP8_step (F := Ideal) V c ⟨n + 1, hn⟩ h0
  have hmod : (n + 1) % 4 = n % 4 + 1 := by omega
  rw [hs, k8_pay2_eq, k1_pay2_apply]
  simp only [View.ld_unit_zero (S := S2048x2048) hz_8, View.ld_unit_zero (S := S2048x256) hz_8, View.ld_unit_zero (S := S2048x256) hz_8]
  rw [e]
  unfold acc8
  rw [View.canon_unit_zero hz_8, View.ld_unit_zero (S := S2048x256) hz_8, ih, hmod, Finset.sum_range_succ _ (n % 4 + 1)]

/-- After point `n` the accumulator's payload holds, at every entry of its rows, the tiles 0..(n mod 4) of the product. -/
theorem acc_inv8 (c : Dev nD) : ∀ (n : ℕ) (hn : n < cfg8.N) (p : Fin 2048) (q : Fin 256) (P : Fin 16384)
    (hP : P.val = 2048 * (n / 4) + p.val),
    accP8 (F := Ideal) V c n hn (ix2 p q) = ∑ k ∈ Finset.range (n % 4 + 1), tileSum (adj8 V c) (x8 V c) 2048 P q k := by
  intro n
  induction n with
  | zero => exact fun hn p q P hP => acc_first8 V c 0 hn (Nat.zero_mod _) p q P hP
  | succ n ih =>
    intro hn p q P hP
    by_cases h0 : (n + 1) % 4 = 0
    · exact acc_first8 V c (n + 1) hn h0 p q P hP
    · refine acc_step8 V c n hn h0 p q P hP (ih (Nat.lt_of_succ_lt hn) p q P ?_)
      rw [hP]
      have hd : (n + 1) / 4 = n / 4 := by omega
      rw [hd]

/-- An index of the output array is in point `t`'s block iff each coordinate is in the block's range on its axis. -/
theorem mem_blk8 (t : Fin cfg8.N) (i : S16384x256.Idx) :
    i ∈ ((cfg8.win 2).blk t).view.set ↔ ∀ a : Fin 2, win8_2.index t a * S2048x256.size a ≤ (i a).val ∧ (i a).val < win8_2.index t a * S2048x256.size a + S2048x256.size a := by
  show i ∈ ((View.whole main_v74).slice (win8_2.rect t)).set ↔ _
  rw [View.set_slice_whole, Rect.mem_set_unit]
  exact Iff.rfl

/-- What a storing point writes back is its block of rows of the normalised product. -/
theorem flushed8_eq (c : Dev nD) (t : Fin cfg8.N) (hf : (cfg8.win 2).flush t = true) :
    (dat8 (F := Ideal) V c).flushed 2 t = ((cfg8.win 2).blk t).view.read (Elt Ideal) (Cert.Lorentz.agg (n := 16384) (k := 8192) (adj8 V c) (x8 V c)) := by
  have hN : cfg8.N = 32 := N_8
  have ht := t.isLt
  have hlast : t.val % 4 = 3 := (flush8_2 t).mp hf
  obtain ⟨-, -, -, -, e0, e1⟩ := idx_facts8 t
  show (cfg8.win 2).cut (grid8.coords t) ((dat8 V c).after 2 t) = _
  rw [after8_2_last V c t hlast, View.canon_unit_zero hz_8]
  funext j
  show k8_pay3 (F := Ideal) (accP8 V c t.val t.isLt) j = (Cert.Lorentz.agg (n := 16384) (k := 8192) (adj8 V c) (x8 V c)) (((cfg8.win 2).blk t).view.emb j)
  rw [k8_pay3_eq, k1_pay3_apply]
  have hj0 : (j 0).val < 2048 := (j 0).isLt
  have hj1 : (j 1).val < 256 := (j 1).isLt
  have hE0 : ((((cfg8.win 2).blk t).view.emb j) 0).val = 2048 * (t.val / 4) + (j 0).val := by
    show win8_2.index t 0 * 2048 + 1 * (j 0).val = _; rw [e0]; omega
  have hE1 : ((((cfg8.win 2).blk t).view.emb j) 1).val = (j 1).val := by
    show win8_2.index t 1 * 256 + 1 * (j 1).val = _; rw [e1]; omega
  have hrows : ∀ q : Fin 256, rowsMul (n := 16384) (k := 8192) (c := 256) (adj8 V c) (x8 V c) (ix2 (rowOf (((cfg8.win 2).blk t).view.emb j)) q)
      = accP8 (F := Ideal) V c t.val t.isLt (ix2 (rowOf j) q) := by
    intro q
    rw [acc_inv8 V c t.val t.isLt (rowOf j) q (rowOf (((cfg8.win 2).blk t).view.emb j)) hE0, hlast]
    exact (sum_tileSum (adj8 V c) (x8 V c) 4 2048 (by norm_num) _ q).symm
  unfold Cert.Lorentz.agg
  exact (norm_rows (N := 16384) (n := 2048) _ _ _ j hE1 hrows).symm

/-- Every row of the output array is in the block some storing point writes back. -/
theorem cover8 (i : S16384x256.Idx) : ∃ t : Fin cfg8.N, (cfg8.win 2).flush t = true ∧ i ∈ ((cfg8.win 2).blk t).view.set := by
  have hN : cfg8.N = 32 := N_8
  have hi0 : (i 0).val < 16384 := (i 0).isLt
  have hi1 : (i 1).val < 256 := (i 1).isLt
  let t : Fin cfg8.N := ⟨(i 0).val / 2048 * 4 + 3, by rw [hN]; omega⟩
  have htv : t.val = (i 0).val / 2048 * 4 + 3 := rfl
  obtain ⟨-, -, -, -, e0, e1⟩ := idx_facts8 t
  refine ⟨t, (flush8_2 t).mpr (by rw [htv]; omega), ?_⟩
  rw [mem_blk8]
  intro a
  match a with
  | ⟨0, _⟩ => show win8_2.index t (0 : Fin 2) * 2048 ≤ (i 0).val ∧ (i 0).val < win8_2.index t (0 : Fin 2) * 2048 + 2048; rw [e0, htv]; omega
  | ⟨1, _⟩ => show win8_2.index t (1 : Fin 2) * 256 ≤ (i 1).val ∧ (i 1).val < win8_2.index t (1 : Fin 2) * 256 + 256; rw [e1]; omega

/-- The region's output array after the run: the Lorentz aggregation of the two arrays the region finds. -/
theorem agg_arrAt8 (c : Dev nD) : (dat8 (F := Ideal) V c).arrAt 2 cfg8.N = Cert.Lorentz.agg (n := 16384) (k := 8192) (adj8 V c) (x8 V c) :=
  (dat8 (F := Ideal) V c).arrAt_eq_of_cover 2 (Cert.Lorentz.agg (n := 16384) (k := 8192) (adj8 V c) (x8 V c)) (flushed8_eq V c) cover8

end Cert.KernelIdeal.Val

end
-- ==== Proof.Val.LinRegion9.lean ====
/-
  Region 9 of the program: a Lorentz linear layer over 16384 rows, computed in 8 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin9
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz9 : (![0, 0] : Fin 2 → Nat) = fun _ => 0 := funext fun a => by fin_cases a <;> rfl

/-- The layer of the arrays region 9 finds: input rows, weights, bias row, scale. -/
def G9 (c : Dev nD) : S16384x256.Idx → EReal :=
  linear (n := 16384) (V c (Pipeline.arrRef spec9 0) : S16384x256.Idx → EReal) (V c (Pipeline.arrRef spec9 1) : S256x256.Idx → EReal)
    (rowVec (V c (Pipeline.arrRef spec9 2) : S1x256.Idx → EReal)) ((V c (Pipeline.arrRef spec9 3) : S1x1.Idx → EReal) (ix2 (0 : Fin 1) (0 : Fin 1)))

/-- The printed index maps, decided over the grid: the row windows are at block (t, 0), the others at block (0, 0). -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- The input window's block at point t is rows 2048·t … of the input array. -/
theorem iblk9_0_apply (c : Dev nD) (t : Fin cfg9.N) (x : S2048x256.Idx) (k : S16384x256.Idx)
    (hk0 : (k 0).val = 2048 * t.val + (x 0).val) (hk1 : (k 1).val = (x 1).val) :
    (iblk9 V c 0 t : S2048x256.Idx → EReal) x = (V c (Pipeline.arrRef spec9 0) : S16384x256.Idx → EReal) k := by
  obtain ⟨e0, e1, -⟩ := idx_facts9 t
  unfold iblk9
  rw [View.read_apply]
  show (V c (Pipeline.arrRef spec9 0) : S16384x256.Idx → EReal) _ = _
  congr 1
  funext a
  apply Fin.ext
  match a with
  | ⟨0, _⟩ => show win9_0.index t (0 : Fin 2) * 2048 + 1 * (x 0).val = (k 0).val; rw [e0, hk0]; omega
  | ⟨1, _⟩ => show win9_0.index t (1 : Fin 2) * 256 + 1 * (x 1).val = (k 1).val; rw [e1, hk1]; omega

/-- The weights', bias row's and scale's windows are the whole arrays at every point. -/
theorem iblk9_1_eq (c : Dev nD) (t : Fin cfg9.N) :
    (iblk9 V c 1 t : S256x256.Idx → EReal) = (V c (Pipeline.arrRef spec9 1) : S256x256.Idx → EReal) := by
  obtain ⟨-, -, e0, e1, -⟩ := idx_facts9 t
  funext x
  unfold iblk9
  rw [View.read_apply]
  show (V c (Pipeline.arrRef spec9 1) : S256x256.Idx → EReal) _ = _
  congr 1
  funext a
  apply Fin.ext
  match a with
  | ⟨0, _⟩ => show win9_1.index t (0 : Fin 2) * 256 + 1 * (x 0).val = (x 0).val; rw [e0]; omega
  | ⟨1, _⟩ => show win9_1.index t (1 : Fin 2) * 256 + 1 * (x 1).val = (x 1).val; rw [e1]; omega

theorem iblk9_2_eq (c : Dev nD) (t : Fin cfg9.N) :
    (iblk9 V c 2 t : S1x256.Idx → EReal) = (V c (Pipeline.arrRef spec9 2) : S1x256.Idx → EReal) := by
  obtain ⟨-, -, -, -, e0, e1, -⟩ := idx_facts9 t
  funext x
  unfold iblk9
  rw [View.read_apply]
  show (V c (Pipeline.arrRef spec9 2) : S1x256.Idx → EReal) _ = _
  congr 1
  funext a
  apply Fin.ext
  match a with
  | ⟨0, _⟩ => show win9_2.index t (0 : Fin 2) * 1 + 1 * (x 0).val = (x 0).val; rw [e0]; omega
  | ⟨1, _⟩ => show win9_2.index t (1 : Fin 2) * 256 + 1 * (x 1).val = (x 1).val; rw [e1]; omega

theorem iblk9_3_eq (c : Dev nD) (t : Fin cfg9.N) :
    (iblk9 V c 3 t : S1x1.Idx → EReal) = (V c (Pipeline.arrRef spec9 3) : S1x1.Idx → EReal) := by
  obtain ⟨-, -, -, -, -, -, e0, e1, -⟩ := idx_facts9 t
  funext x
  unfold iblk9
  rw [View.read_apply]
  show (V c (Pipeline.arrRef spec9 3) : S1x1.Idx → EReal) _ = _
  congr 1
  funext a
  apply Fin.ext
  match a with
  | ⟨0, _⟩ => show win9_3.index t (0 : Fin 2) * 1 + 1 * (x 0).val = (x 0).val; rw [e0]; omega
  | ⟨1, _⟩ => show win9_3.index t (1 : Fin 2) * 1 + 1 * (x 1).val = (x 1).val; rw [e1]; omega

/-- What the body leaves at point t is the layer of the four blocks. -/
theorem out9_4_eq (x0 : Vec Ideal S2048x256 .bf16) (x1 : Vec Ideal S256x256 .bf16) (x2 : Vec Ideal S1x256 .f32) (x3 : Vec Ideal S1x1 .f32) :
    out9_4 (F := Ideal) x0 x1 x2 x3 = linear (n := 2048) x0 x1 (rowVec x2) (x3 (ix2 (0 : Fin 1) (0 : Fin 1))) := by
  unfold out9_4
  rw [View.canon_unit_zero hz9]
  simp only [View.ld_unit_zero (S := S2048x256) hz9, View.ld_unit_zero (S := S256x256) hz9, View.ld_unit_zero (S := S1x256) hz9,
    View.ld_unit_zero (S := S1x1) hz9]
  exact k0_pay1_eq x0 x1 x2 x3

/-- WHAT POINT t WRITES BACK is block t of the layer of the whole arrays. -/
theorem flushed9_eq (c : Dev nD) (t : Fin cfg9.N) :
    (dat9 (F := Ideal) V c).flushed 4 t = ((cfg9.win 4).blk t).view.read (Elt Ideal) (G9 V c) := by
  show (cfg9.win 4).cut (grid9.coords t) ((dat9 (F := Ideal) V c).after 4 t) = _
  rw [after9_4, out9_4_eq, iblk9_1_eq, iblk9_2_eq, iblk9_3_eq]
  obtain ⟨-, -, -, -, -, -, -, -, e0, e1⟩ := idx_facts9 t
  funext j
  show linear (n := 2048) (iblk9 V c 0 t : S2048x256.Idx → EReal) _ _ _ j = G9 V c (((cfg9.win 4).blk t).view.emb j)
  unfold G9
  have h0 : ((((cfg9.win 4).blk t).view.emb j : S16384x256.Idx) 0).val = 2048 * t.val + (j 0).val := by
    show win9_4.index t (0 : Fin 2) * 2048 + 1 * (j 0).val = _; rw [e0]; omega
  have h1 : ((((cfg9.win 4).blk t).view.emb j : S16384x256.Idx) 1).val = (j 1).val := by
    show win9_4.index t (1 : Fin 2) * 256 + 1 * (j 1).val = _; rw [e1]; omega
  refine (linear_rows (N := 16384) (n := 2048) _ _ _ _ _ (((cfg9.win 4).blk t).view.emb j) j h1 fun q => ?_).symm
  exact (iblk9_0_apply V c t (ix2 (rowOf j) q) (ix2 (rowOf (((cfg9.win 4).blk t).view.emb j : S16384x256.Idx)) q) h0 rfl).symm

/-- An index of the output array is in point t's block iff each coordinate is in the block's range on its axis. -/
theorem mem_blk9 (t : Fin cfg9.N) (i : S16384x256.Idx) :
    i ∈ ((cfg9.win 4).blk t).view.set ↔ ∀ a : Fin 2, win9_4.index t a * S2048x256.size a ≤ (i a).val ∧ (i a).val < win9_4.index t a * S2048x256.size a + S2048x256.size a := by
  show i ∈ ((View.whole main_v86).slice (win9_4.rect t)).set ↔ _
  rw [View.set_slice_whole, Rect.mem_set_unit]
  exact Iff.rfl

/-- THE ARRAY after the run: the layer of the arrays the region found. -/
theorem lin_arrAt9_G (c : Dev nD) : (dat9 (F := Ideal) V c).arrAt 4 cfg9.N = G9 V c := by
  refine (dat9 (F := Ideal) V c).arrAt_eq_of_cover 4 (G9 V c) (fun t _ => flushed9_eq V c t) fun i => ?_
  have hi0 : (i 0).val < 16384 := (i 0).isLt
  have hi1 : (i 1).val < 256 := (i 1).isLt
  refine ⟨⟨(i 0).val / 2048, by show (i 0).val / 2048 < 8; omega⟩, flush9_4 _, ?_⟩
  rw [mem_blk9]
  obtain ⟨-, -, -, -, -, -, -, -, e0, e1⟩ := idx_facts9 ⟨(i 0).val / 2048, by show (i 0).val / 2048 < 8; omega⟩
  intro a
  match a with
  | ⟨0, _⟩ =>
    show win9_4.index _ (0 : Fin 2) * 2048 ≤ (i 0).val ∧ (i 0).val < win9_4.index _ (0 : Fin 2) * 2048 + 2048
    rw [e0]; show (i 0).val / 2048 * 2048 ≤ (i 0).val ∧ (i 0).val < (i 0).val / 2048 * 2048 + 2048; omega
  | ⟨1, _⟩ =>
    show win9_4.index _ (1 : Fin 2) * 256 ≤ (i 1).val ∧ (i 1).val < win9_4.index _ (1 : Fin 2) * 256 + 256
    rw [e1]; omega

/-- The same, with the layer written out. -/
theorem lin_arrAt9 (c : Dev nD) : (dat9 (F := Ideal) V c).arrAt 4 cfg9.N
    = linear (n := 16384) (V c (Pipeline.arrRef spec9 0) : S16384x256.Idx → EReal) (V c (Pipeline.arrRef spec9 1) : S256x256.Idx → EReal)
        (rowVec (V c (Pipeline.arrRef spec9 2) : S1x256.Idx → EReal))
        ((V c (Pipeline.arrRef spec9 3) : S1x1.Idx → EReal) (ix2 (0 : Fin 1) (0 : Fin 1))) :=
  lin_arrAt9_G V c

end Cert.KernelIdeal.Val

end
-- ==== Proof.Val.AggRegion10.lean ====
/-
  The aggregation region 10: what its output array holds after the run, as one function of the two arrays the region
  finds.

  The grid is 4 row tiles by 8 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 4 row tiles cover the array.
-/
import proofs.«103499_j73031623901527_2_alg».proof.Proof.KI.AggDef10
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_10 : (![0, 0] : Fin 2 → Nat) = fun _ => 0 := funext fun a => by fin_cases a <;> rfl

/-- The adjacency and the features as the region finds them. -/
abbrev adj10 (c : Dev nD) : Arr2 8192 16384 := V c (Pipeline.arrRef spec10 0)
abbrev x10 (c : Dev nD) : Arr2 16384 256 := V c (Pipeline.arrRef spec10 1)

/-- The printed index maps over the grid: the adjacency's block is (row tile, inner step), the features' block is
    (inner step, 0), the output's block is (row tile, 0); the point number is row tile × 8 + inner step. -/
theorem idx_facts10 : ∀ t : Fin cfg10.N, win10_0.index t (0 : Fin 2) = t.val / 8 ∧ win10_0.index t (1 : Fin 2) = t.val % 8
    ∧ win10_1.index t (0 : Fin 2) = t.val % 8 ∧ win10_1.index t (1 : Fin 2) = 0
    ∧ win10_2.index t (0 : Fin 2) = t.val / 8 ∧ win10_2.index t (1 : Fin 2) = 0 :=
  (by decide +kernel : ∀ t : Fin grid10.N, _)

/-- The adjacency's block at point `t`, entry by entry. -/
theorem iblk10_0_apply (c : Dev nD) (t : Fin cfg10.N) (x : S2048x2048.Idx) (k : S8192x16384.Idx)
    (hk0 : (k 0).val = 2048 * (t.val / 8) + (x 0).val) (hk1 : (k 1).val = 2048 * (t.val % 8) + (x 1).val) :
    (iblk10 V c 0 t : Vec Ideal S2048x2048 .bf16) x = (V c (Pipeline.arrRef spec10 0) : S8192x16384.Idx → EReal) k := by
  obtain ⟨e0, e1, -, -, -, -⟩ := idx_facts10 t
  unfold iblk10
  rw [View.read_apply]
  show V c (Pipeline.arrRef spec10 0) _ = V c (Pipeline.arrRef spec10 0) _
  congr 1
  funext a
  apply Fin.ext
  match a with
  | ⟨0, _⟩ => show win10_0.index t 0 * 2048 + 1 * (x 0).val = (k 0).val; rw [e0, hk0]; omega
  | ⟨1, _⟩ => show win10_0.index t 1 * 2048 + 1 * (x 1).val = (k 1).val; rw [e1, hk1]; omega

/-- The features' block at point `t`, entry by entry. -/
theorem iblk10_1_apply (c : Dev nD) (t : Fin cfg10.N) (x : S2048x256.Idx) (k : S16384x256.Idx)
    (hk0 : (k 0).val = 2048 * (t.val % 8) + (x 0).val) (hk1 : (k 1).val = (x 1).val) :
    (iblk10 V c 1 t : Vec Ideal S2048x256 .bf16) x = (V c (Pipeline.arrRef spec10 1) : S16384x256.Idx → EReal) k := by
  obtain ⟨-, -, e0, e1, -, -⟩ := idx_facts10 t
  unfold iblk10
  rw [View.read_apply]
  show V c (Pipeline.arrRef spec10 1) _ = V c (Pipeline.arrRef spec10 1) _
  congr 1
  funext a
  apply Fin.ext
  match a with
  | ⟨0, _⟩ => show win10_1.index t 0 * 2048 + 1 * (x 0).val = (k 0).val; rw [e0, hk0]; omega
  | ⟨1, _⟩ => show win10_1.index t 1 * 256 + 1 * (x 1).val = (k 1).val; rw [e1, hk1]; omega

/-- The product of the point's two blocks is the point's tile of the whole product's entry. -/
theorem tile10 (c : Dev nD) (t : Fin cfg10.N) (p : Fin 2048) (q : Fin 256) (P : Fin 8192)
    (hP : P.val = 2048 * (t.val / 8) + p.val) :
    rowsMul (n := 2048) (k := 2048) (c := 256) (iblk10 V c 0 t : Vec Ideal S2048x2048 .bf16) (iblk10 V c 1 t : Vec Ideal S2048x256 .bf16) (ix2 p q)
      = tileSum (adj10 V c) (x10 V c) 2048 P q (t.val % 8) := by
  have hN : cfg10.N = 32 := N_10
  have ht := t.isLt
  refine rowsMul_block (adj10 V c) (x10 V c) _ _ (t.val % 8) P p q (fun j J hJ => ?_) (fun j J hJ => ?_) (by omega)
  · exact iblk10_0_apply V c t (ix2 p j) (ix2 P J) hP (by show J.val = _; rw [hJ]; show _ = 2048 * (t.val % 8) + j.val; omega)
  · exact iblk10_1_apply V c t (ix2 j q) (ix2 J q) (by show J.val = _; rw [hJ]; show _ = 2048 * (t.val % 8) + j.val; omega) rfl

/-- At the first inner step the accumulator's payload is tile 0 of the entry. -/
theorem acc_first10 (c : Dev nD) (n : ℕ) (hn : n < cfg10.N) (h0 : n % 8 = 0) (p : Fin 2048) (q : Fin 256) (P : Fin 8192)
    (hP : P.val = 2048 * (n / 8) + p.val) :
    accP10 (F := Ideal) V c n hn (ix2 p q) = ∑ k ∈ Finset.range (n % 8 + 1), tileSum (adj10 V c) (x10 V c) 2048 P q k := by
  have e : _ = tileSum (adj10 V c) (x10 V c) 2048 P q (n % 8) := tile10 V c ⟨n, hn⟩ p q P hP
  have hf : accP10 (F := Ideal) V c n hn = _ := accP10_first (F := Ideal) V c ⟨n, hn⟩ h0
  rw [hf, k10_pay2_eq, k10_pay1_eq, k1_pay2_apply, k1_pay1_apply, zero_add]
  simp only [View.ld_unit_zero (S := S2048x2048) hz_10, View.ld_unit_zero (S := S2048x256) hz_10, View.ld_unit_zero (S := S2048x256) hz_10]
  rw [e, h0, Nat.zero_add, Finset.sum_range_one]

/-- At a later inner step it is what the step before left plus the step's tile. -/
theorem acc_step10 (c : Dev nD) (n : ℕ) (hn : n + 1 < cfg10.N) (h0 : ¬(n + 1) % 8 = 0) (p : Fin 2048) (q : Fin 256) (P : Fin 8192)
    (hP : P.val = 2048 * ((n + 1) / 8) + p.val)
    (ih : accP10 (F := Ideal) V c n (Nat.lt_of_succ_lt hn) (ix2 p q) = ∑ k ∈ Finset.range (n % 8 + 1), tileSum (adj10 V c) (x10 V c) 2048 P q k) :
    accP10 (F := Ideal) V c (n + 1) hn (ix2 p q) = ∑ k ∈ Finset.range ((n + 1) % 8 + 1), tileSum (adj10 V c) (x10 V c) 2048 P q k := by
  have e : _ = tileSum (adj10 V c) (x10 V c) 2048 P q ((n + 1) % 8) := tile10 V c ⟨n + 1, hn⟩ p q P hP
  have hs : accP10 (F := Ideal) V c (n + 1) hn = k10_pay2 (View.ld (acc10 (F := Ideal) V c n (Nat.lt_of_succ_lt hn)) r10_out)
      (View.ld (iblk10 V c 0 ⟨n + 1, hn⟩ : Vec Ideal S2048x2048 .bf16) r10_A) (View.ld (iblk10 V c 1 ⟨n + 1, hn⟩ : Vec Ideal S2048x256 .bf16) r10_X) :=
    accP10_step (F := Ideal) V c ⟨n + 1, hn⟩ h0
  have hmod : (n + 1) % 8 = n % 8 + 1 := by omega
  rw [hs, k10_pay2_eq, k1_pay2_apply]
  simp only [View.ld_unit_zero (S := S2048x2048) hz_10, View.ld_unit_zero (S := S2048x256) hz_10, View.ld_unit_zero (S := S2048x256) hz_10]
  rw [e]
  unfold acc10
  rw [View.canon_unit_zero hz_10, View.ld_unit_zero (S := S2048x256) hz_10, ih, hmod, Finset.sum_range_succ _ (n % 8 + 1)]

/-- After point `n` the accumulator's payload holds, at every entry of its rows, the tiles 0..(n mod 8) of the product. -/
theorem acc_inv10 (c : Dev nD) : ∀ (n : ℕ) (hn : n < cfg10.N) (p : Fin 2048) (q : Fin 256) (P : Fin 8192)
    (hP : P.val = 2048 * (n / 8) + p.val),
    accP10 (F := Ideal) V c n hn (ix2 p q) = ∑ k ∈ Finset.range (n % 8 + 1), tileSum (adj10 V c) (x10 V c) 2048 P q k := by
  intro n
  induction n with
  | zero => exact fun hn p q P hP => acc_first10 V c 0 hn (Nat.zero_mod _) p q P hP
  | succ n ih =>
    intro hn p q P hP
    by_cases h0 : (n + 1) % 8 = 0
    · exact acc_first10 V c (n + 1) hn h0 p q P hP
    · refine acc_step10 V c n hn h0 p q P hP (ih (Nat.lt_of_succ_lt hn) p q P ?_)
      rw [hP]
      have hd : (n + 1) / 8 = n / 8 := by omega
      rw [hd]

/-- An index of the output array is in point `t`'s block iff each coordinate is in the block's range on its axis. -/
theorem mem_blk10 (t : Fin cfg10.N) (i : S8192x256.Idx) :
    i ∈ ((cfg10.win 2).blk t).view.set ↔ ∀ a : Fin 2, win10_2.index t a * S2048x256.size a ≤ (i a).val ∧ (i a).val < win10_2.index t a * S2048x256.size a + S2048x256.size a := by
  show i ∈ ((View.whole main_v88).slice (win10_2.rect t)).set ↔ _
  rw [View.set_slice_whole, Rect.mem_set_unit]
  exact Iff.rfl

/-- What a storing point writes back is its block of rows of the normalised product. -/
theorem flushed10_eq (c : Dev nD) (t : Fin cfg10.N) (hf : (cfg10.win 2).flush t = true) :
    (dat10 (F := Ideal) V c).flushed 2 t = ((cfg10.win 2).blk t).view.read (Elt Ideal) (Cert.Lorentz.agg (n := 8192) (k := 16384) (adj10 V c) (x10 V c)) := by
  have hN : cfg10.N = 32 := N_10
  have ht := t.isLt
  have hlast : t.val % 8 = 7 := (flush10_2 t).mp hf
  obtain ⟨-, -, -, -, e0, e1⟩ := idx_facts10 t
  show (cfg10.win 2).cut (grid10.coords t) ((dat10 V c).after 2 t) = _
  rw [after10_2_last V c t hlast, View.canon_unit_zero hz_10]
  funext j
  show k10_pay3 (F := Ideal) (accP10 V c t.val t.isLt) j = (Cert.Lorentz.agg (n := 8192) (k := 16384) (adj10 V c) (x10 V c)) (((cfg10.win 2).blk t).view.emb j)
  rw [k10_pay3_eq, k1_pay3_apply]
  have hj0 : (j 0).val < 2048 := (j 0).isLt
  have hj1 : (j 1).val < 256 := (j 1).isLt
  have hE0 : ((((cfg10.win 2).blk t).view.emb j) 0).val = 2048 * (t.val / 8) + (j 0).val := by
    show win10_2.index t 0 * 2048 + 1 * (j 0).val = _; rw [e0]; omega
  have hE1 : ((((cfg10.win 2).blk t).view.emb j) 1).val = (j 1).val := by
    show win10_2.index t 1 * 256 + 1 * (j 1).val = _; rw [e1]; omega
  have hrows : ∀ q : Fin 256, rowsMul (n := 8192) (k := 16384) (c := 256) (adj10 V c) (x10 V c) (ix2 (rowOf (((cfg10.win 2).blk t).view.emb j)) q)
      = accP10 (F := Ideal) V c t.val t.isLt (ix2 (rowOf j) q) := by
    intro q
    rw [acc_inv10 V c t.val t.isLt (rowOf j) q (rowOf (((cfg10.win 2).blk t).view.emb j)) hE0, hlast]
    exact (sum_tileSum (adj10 V c) (x10 V c) 8 2048 (by norm_num) _ q).symm
  unfold Cert.Lorentz.agg
  exact (norm_rows (N := 8192) (n := 2048) _ _ _ j hE1 hrows).symm

/-- Every row of the output array is in the block some storing point writes back. -/
theorem cover10 (i : S8192x256.Idx) : ∃ t : Fin cfg10.N, (cfg10.win 2).flush t = true ∧ i ∈ ((cfg10.win 2).blk t).view.set := by
  have hN : cfg10.N = 32 := N_10
  have hi0 : (i 0).val < 8192 := (i 0).isLt
  have hi1 : (i 1).val < 256 := (i 1).isLt
  let t : Fin cfg10.N := ⟨(i 0).val / 2048 * 8 + 7, by rw [hN]; omega⟩
  have htv : t.val = (i 0).val / 2048 * 8 + 7 := rfl
  obtain ⟨-, -, -, -, e0, e1⟩ := idx_facts10 t
  refine ⟨t, (flush10_2 t).mpr (by rw [htv]; omega), ?_⟩
  rw [mem_blk10]
  intro a
  match a with
  | ⟨0, _⟩ => show win10_2.index t (0 : Fin 2) * 2048 ≤ (i 0).val ∧ (i 0).val < win10_2.index t (0 : Fin 2) * 2048 + 2048; rw [e0, htv]; omega
  | ⟨1, _⟩ => show win10_2.index t (1 : Fin 2) * 256 ≤ (i 1).val ∧ (i 1).val < win10_2.index t (1 : Fin 2) * 256 + 256; rw [e1]; omega

/-- The region's output array after the run: the Lorentz aggregation of the two arrays the region finds. -/
theorem agg_arrAt10 (c : Dev nD) : (dat10 (F := Ideal) V c).arrAt 2 cfg10.N = Cert.Lorentz.agg (n := 8192) (k := 16384) (adj10 V c) (x10 V c) :=
  (dat10 (F := Ideal) V c).arrAt_eq_of_cover 2 (Cert.Lorentz.agg (n := 8192) (k := 16384) (adj10 V c) (x10 V c)) (flushed10_eq V c) cover10

end Cert.KernelIdeal.Val

end
-- ==== Proof.Val.AggRegion11.lean ====
/-
  The aggregation region 11: what its output array holds after the run, as one function of the two arrays the region
  finds.

  The grid is 8 row tiles by 4 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 8 row tiles cover the array.
-/
import proofs.«103499_j73031623901527_2_alg».proof.Proof.KI.AggDef11
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_11 : (![0, 0] : Fin 2 → Nat) = fun _ => 0 := funext fun a => by fin_cases a <;> rfl

/-- The adjacency and the features as the region finds them. -/
abbrev adj11 (c : Dev nD) : Arr2 16384 8192 := V c (Pipeline.arrRef spec11 0)
abbrev x11 (c : Dev nD) : Arr2 8192 256 := V c (Pipeline.arrRef spec11 1)

/-- The printed index maps over the grid: the adjacency's block is (row tile, inner step), the features' block is
    (inner step, 0), the output's block is (row tile, 0); the point number is row tile × 4 + inner step. -/
theorem idx_facts11 : ∀ t : Fin cfg11.N, win11_0.index t (0 : Fin 2) = t.val / 4 ∧ win11_0.index t (1 : Fin 2) = t.val % 4
    ∧ win11_1.index t (0 : Fin 2) = t.val % 4 ∧ win11_1.index t (1 : Fin 2) = 0
    ∧ win11_2.index t (0 : Fin 2) = t.val / 4 ∧ win11_2.index t (1 : Fin 2) = 0 :=
  (by decide +kernel : ∀ t : Fin grid11.N, _)

/-- The adjacency's block at point `t`, entry by entry. -/
theorem iblk11_0_apply (c : Dev nD) (t : Fin cfg11.N) (x : S2048x2048.Idx) (k : S16384x8192.Idx)
    (hk0 : (k 0).val = 2048 * (t.val / 4) + (x 0).val) (hk1 : (k 1).val = 2048 * (t.val % 4) + (x 1).val) :
    (iblk11 V c 0 t : Vec Ideal S2048x2048 .bf16) x = (V c (Pipeline.arrRef spec11 0) : S16384x8192.Idx → EReal) k := by
  obtain ⟨e0, e1, -, -, -, -⟩ := idx_facts11 t
  unfold iblk11
  rw [View.read_apply]
  show V c (Pipeline.arrRef spec11 0) _ = V c (Pipeline.arrRef spec11 0) _
  congr 1
  funext a
  apply Fin.ext
  match a with
  | ⟨0, _⟩ => show win11_0.index t 0 * 2048 + 1 * (x 0).val = (k 0).val; rw [e0, hk0]; omega
  | ⟨1, _⟩ => show win11_0.index t 1 * 2048 + 1 * (x 1).val = (k 1).val; rw [e1, hk1]; omega

/-- The features' block at point `t`, entry by entry. -/
theorem iblk11_1_apply (c : Dev nD) (t : Fin cfg11.N) (x : S2048x256.Idx) (k : S8192x256.Idx)
    (hk0 : (k 0).val = 2048 * (t.val % 4) + (x 0).val) (hk1 : (k 1).val = (x 1).val) :
    (iblk11 V c 1 t : Vec Ideal S2048x256 .bf16) x = (V c (Pipeline.arrRef spec11 1) : S8192x256.Idx → EReal) k := by
  obtain ⟨-, -, e0, e1, -, -⟩ := idx_facts11 t
  unfold iblk11
  rw [View.read_apply]
  show V c (Pipeline.arrRef spec11 1) _ = V c (Pipeline.arrRef spec11 1) _
  congr 1
  funext a
  apply Fin.ext
  match a with
  | ⟨0, _⟩ => show win11_1.index t 0 * 2048 + 1 * (x 0).val = (k 0).val; rw [e0, hk0]; omega
  | ⟨1, _⟩ => show win11_1.index t 1 * 256 + 1 * (x 1).val = (k 1).val; rw [e1, hk1]; omega

/-- The product of the point's two blocks is the point's tile of the whole product's entry. -/
theorem tile11 (c : Dev nD) (t : Fin cfg11.N) (p : Fin 2048) (q : Fin 256) (P : Fin 16384)
    (hP : P.val = 2048 * (t.val / 4) + p.val) :
    rowsMul (n := 2048) (k := 2048) (c := 256) (iblk11 V c 0 t : Vec Ideal S2048x2048 .bf16) (iblk11 V c 1 t : Vec Ideal S2048x256 .bf16) (ix2 p q)
      = tileSum (adj11 V c) (x11 V c) 2048 P q (t.val % 4) := by
  have hN : cfg11.N = 32 := N_11
  have ht := t.isLt
  refine rowsMul_block (adj11 V c) (x11 V c) _ _ (t.val % 4) P p q (fun j J hJ => ?_) (fun j J hJ => ?_) (by omega)
  · exact iblk11_0_apply V c t (ix2 p j) (ix2 P J) hP (by show J.val = _; rw [hJ]; show _ = 2048 * (t.val % 4) + j.val; omega)
  · exact iblk11_1_apply V c t (ix2 j q) (ix2 J q) (by show J.val = _; rw [hJ]; show _ = 2048 * (t.val % 4) + j.val; omega) rfl

/-- At the first inner step the accumulator's payload is tile 0 of the entry. -/
theorem acc_first11 (c : Dev nD) (n : ℕ) (hn : n < cfg11.N) (h0 : n % 4 = 0) (p : Fin 2048) (q : Fin 256) (P : Fin 16384)
    (hP : P.val = 2048 * (n / 4) + p.val) :
    accP11 (F := Ideal) V c n hn (ix2 p q) = ∑ k ∈ Finset.range (n % 4 + 1), tileSum (adj11 V c) (x11 V c) 2048 P q k := by
  have e : _ = tileSum (adj11 V c) (x11 V c) 2048 P q (n % 4) := tile11 V c ⟨n, hn⟩ p q P hP
  have hf : accP11 (F := Ideal) V c n hn = _ := accP11_first (F := Ideal) V c ⟨n, hn⟩ h0
  rw [hf, k11_pay2_eq, k11_pay1_eq, k1_pay2_apply, k1_pay1_apply, zero_add]
  simp only [View.ld_unit_zero (S := S2048x2048) hz_11, View.ld_unit_zero (S := S2048x256) hz_11, View.ld_unit_zero (S := S2048x256) hz_11]
  rw [e, h0, Nat.zero_add, Finset.sum_range_one]

/-- At a later inner step it is what the step before left plus the step's tile. -/
theorem acc_step11 (c : Dev nD) (n : ℕ) (hn : n + 1 < cfg11.N) (h0 : ¬(n + 1) % 4 = 0) (p : Fin 2048) (q : Fin 256) (P : Fin 16384)
    (hP : P.val = 2048 * ((n + 1) / 4) + p.val)
    (ih : accP11 (F := Ideal) V c n (Nat.lt_of_succ_lt hn) (ix2 p q) = ∑ k ∈ Finset.range (n % 4 + 1), tileSum (adj11 V c) (x11 V c) 2048 P q k) :
    accP11 (F := Ideal) V c (n + 1) hn (ix2 p q) = ∑ k ∈ Finset.range ((n + 1) % 4 + 1), tileSum (adj11 V c) (x11 V c) 2048 P q k := by
  have e : _ = tileSum (adj11 V c) (x11 V c) 2048 P q ((n + 1) % 4) := tile11 V c ⟨n + 1, hn⟩ p q P hP
  have hs : accP11 (F := Ideal) V c (n + 1) hn = k11_pay2 (View.ld (acc11 (F := Ideal) V c n (Nat.lt_of_succ_lt hn)) r11_out)
      (View.ld (iblk11 V c 0 ⟨n + 1, hn⟩ : Vec Ideal S2048x2048 .bf16) r11_A) (View.ld (iblk11 V c 1 ⟨n + 1, hn⟩ : Vec Ideal S2048x256 .bf16) r11_X) :=
    accP11_step (F := Ideal) V c ⟨n + 1, hn⟩ h0
  have hmod : (n + 1) % 4 = n % 4 + 1 := by omega
  rw [hs, k11_pay2_eq, k1_pay2_apply]
  simp only [View.ld_unit_zero (S := S2048x2048) hz_11, View.ld_unit_zero (S := S2048x256) hz_11, View.ld_unit_zero (S := S2048x256) hz_11]
  rw [e]
  unfold acc11
  rw [View.canon_unit_zero hz_11, View.ld_unit_zero (S := S2048x256) hz_11, ih, hmod, Finset.sum_range_succ _ (n % 4 + 1)]

/-- After point `n` the accumulator's payload holds, at every entry of its rows, the tiles 0..(n mod 4) of the product. -/
theorem acc_inv11 (c : Dev nD) : ∀ (n : ℕ) (hn : n < cfg11.N) (p : Fin 2048) (q : Fin 256) (P : Fin 16384)
    (hP : P.val = 2048 * (n / 4) + p.val),
    accP11 (F := Ideal) V c n hn (ix2 p q) = ∑ k ∈ Finset.range (n % 4 + 1), tileSum (adj11 V c) (x11 V c) 2048 P q k := by
  intro n
  induction n with
  | zero => exact fun hn p q P hP => acc_first11 V c 0 hn (Nat.zero_mod _) p q P hP
  | succ n ih =>
    intro hn p q P hP
    by_cases h0 : (n + 1) % 4 = 0
    · exact acc_first11 V c (n + 1) hn h0 p q P hP
    · refine acc_step11 V c n hn h0 p q P hP (ih (Nat.lt_of_succ_lt hn) p q P ?_)
      rw [hP]
      have hd : (n + 1) / 4 = n / 4 := by omega
      rw [hd]

/-- An index of the output array is in point `t`'s block iff each coordinate is in the block's range on its axis. -/
theorem mem_blk11 (t : Fin cfg11.N) (i : S16384x256.Idx) :
    i ∈ ((cfg11.win 2).blk t).view.set ↔ ∀ a : Fin 2, win11_2.index t a * S2048x256.size a ≤ (i a).val ∧ (i a).val < win11_2.index t a * S2048x256.size a + S2048x256.size a := by
  show i ∈ ((View.whole main_v90).slice (win11_2.rect t)).set ↔ _
  rw [View.set_slice_whole, Rect.mem_set_unit]
  exact Iff.rfl

/-- What a storing point writes back is its block of rows of the normalised product. -/
theorem flushed11_eq (c : Dev nD) (t : Fin cfg11.N) (hf : (cfg11.win 2).flush t = true) :
    (dat11 (F := Ideal) V c).flushed 2 t = ((cfg11.win 2).blk t).view.read (Elt Ideal) (Cert.Lorentz.agg (n := 16384) (k := 8192) (adj11 V c) (x11 V c)) := by
  have hN : cfg11.N = 32 := N_11
  have ht := t.isLt
  have hlast : t.val % 4 = 3 := (flush11_2 t).mp hf
  obtain ⟨-, -, -, -, e0, e1⟩ := idx_facts11 t
  show (cfg11.win 2).cut (grid11.coords t) ((dat11 V c).after 2 t) = _
  rw [after11_2_last V c t hlast, View.canon_unit_zero hz_11]
  funext j
  show k11_pay3 (F := Ideal) (accP11 V c t.val t.isLt) j = (Cert.Lorentz.agg (n := 16384) (k := 8192) (adj11 V c) (x11 V c)) (((cfg11.win 2).blk t).view.emb j)
  rw [k11_pay3_eq, k1_pay3_apply]
  have hj0 : (j 0).val < 2048 := (j 0).isLt
  have hj1 : (j 1).val < 256 := (j 1).isLt
  have hE0 : ((((cfg11.win 2).blk t).view.emb j) 0).val = 2048 * (t.val / 4) + (j 0).val := by
    show win11_2.index t 0 * 2048 + 1 * (j 0).val = _; rw [e0]; omega
  have hE1 : ((((cfg11.win 2).blk t).view.emb j) 1).val = (j 1).val := by
    show win11_2.index t 1 * 256 + 1 * (j 1).val = _; rw [e1]; omega
  have hrows : ∀ q : Fin 256, rowsMul (n := 16384) (k := 8192) (c := 256) (adj11 V c) (x11 V c) (ix2 (rowOf (((cfg11.win 2).blk t).view.emb j)) q)
      = accP11 (F := Ideal) V c t.val t.isLt (ix2 (rowOf j) q) := by
    intro q
    rw [acc_inv11 V c t.val t.isLt (rowOf j) q (rowOf (((cfg11.win 2).blk t).view.emb j)) hE0, hlast]
    exact (sum_tileSum (adj11 V c) (x11 V c) 4 2048 (by norm_num) _ q).symm
  unfold Cert.Lorentz.agg
  exact (norm_rows (N := 16384) (n := 2048) _ _ _ j hE1 hrows).symm

/-- Every row of the output array is in the block some storing point writes back. -/
theorem cover11 (i : S16384x256.Idx) : ∃ t : Fin cfg11.N, (cfg11.win 2).flush t = true ∧ i ∈ ((cfg11.win 2).blk t).view.set := by
  have hN : cfg11.N = 32 := N_11
  have hi0 : (i 0).val < 16384 := (i 0).isLt
  have hi1 : (i 1).val < 256 := (i 1).isLt
  let t : Fin cfg11.N := ⟨(i 0).val / 2048 * 4 + 3, by rw [hN]; omega⟩
  have htv : t.val = (i 0).val / 2048 * 4 + 3 := rfl
  obtain ⟨-, -, -, -, e0, e1⟩ := idx_facts11 t
  refine ⟨t, (flush11_2 t).mpr (by rw [htv]; omega), ?_⟩
  rw [mem_blk11]
  intro a
  match a with
  | ⟨0, _⟩ => show win11_2.index t (0 : Fin 2) * 2048 ≤ (i 0).val ∧ (i 0).val < win11_2.index t (0 : Fin 2) * 2048 + 2048; rw [e0, htv]; omega
  | ⟨1, _⟩ => show win11_2.index t (1 : Fin 2) * 256 ≤ (i 1).val ∧ (i 1).val < win11_2.index t (1 : Fin 2) * 256 + 256; rw [e1]; omega

/-- The region's output array after the run: the Lorentz aggregation of the two arrays the region finds. -/
theorem agg_arrAt11 (c : Dev nD) : (dat11 (F := Ideal) V c).arrAt 2 cfg11.N = Cert.Lorentz.agg (n := 16384) (k := 8192) (adj11 V c) (x11 V c) :=
  (dat11 (F := Ideal) V c).arrAt_eq_of_cover 2 (Cert.Lorentz.agg (n := 16384) (k := 8192) (adj11 V c) (x11 V c)) (flushed11_eq V c) cover11

end Cert.KernelIdeal.Val

end
-- ==== Proof.Val.BridgeB2.lean ====
/- The kernel side of the value bridge, the two hypergraph layers: regions 7 to 11 and the stretches between them; the
   node embeddings in `main_v90`. -/
import proofs.«103499_j73031623901527_2_alg».proof.Proof.Val.BridgeB1
import proofs.«103499_j73031623901527_2_alg».proof.Proof.Val.AggRegion7
import proofs.«103499_j73031623901527_2_alg».proof.Proof.Val.AggRegion8
import proofs.«103499_j73031623901527_2_alg».proof.Proof.Val.LinRegion9
import proofs.«103499_j73031623901527_2_alg».proof.Proof.Val.AggRegion10
import proofs.«103499_j73031623901527_2_alg».proof.Proof.Val.AggRegion11

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-- `main_v71` is `main_v70` (the rounding to the narrower format is the identity on the reals). -/
theorem val_v71_15 : (W15 m ρ c (Proc.devRef .tc main_v71) : S16384x256.Idx → EReal) = mL6 m c := by
  have h : (W15 m ρ c (Proc.devRef .tc main_v71) : S16384x256.Idx → EReal) = (W14 m ρ c (Proc.devRef .tc main_v70) : S16384x256.Idx → EReal) := by
    after_results; rfl
  exact h.trans (val_v70_14 m ρ c)

/-- `main_v1` is not written between boundaries 1 and 15. -/
theorem val_v1_15 : (W15 m ρ c (Proc.devRef .tc main_v1) : S8192x16384.Idx → EReal) = tr (aH m c) := by
  have hk : W15 m ρ c (Proc.devRef .tc main_v1) = W1 m ρ c (Proc.devRef .tc main_v1) :=
    (W15_of m ρ c main_v1 (by decide)).trans ((W14_of_ne m ρ c main_v1 (by decide)).trans ((W13_of m ρ c main_v1 (by decide)).trans ((W12_of_ne m ρ c main_v1 (by decide)).trans ((W11_of m ρ c main_v1 (by decide)).trans ((W10_of_ne m ρ c main_v1 (by decide)).trans ((W9_of m ρ c main_v1 (by decide)).trans ((W8_of_ne m ρ c main_v1 (by decide)).trans ((W7_of m ρ c main_v1 (by decide)).trans ((W6_of_ne m ρ c main_v1 (by decide)).trans ((W5_of m ρ c main_v1 (by decide)).trans ((W4_of_ne m ρ c main_v1 (by decide)).trans ((W3_of m ρ c main_v1 (by decide)).trans ((W2_of_ne m ρ c main_v1 (by decide)))))))))))))))
  rw [hk]; exact val_v1_1 m ρ c

/-- Region 7 leaves the aggregation of its operands in `main_v72`. -/
theorem val_v72_16 : (W16 m ρ c (Proc.devRef .tc main_v72) : S8192x256.Idx → EReal) = mA7 m c := by
  have h1 : (W16 m ρ c (Proc.devRef .tc main_v72) : S8192x256.Idx → EReal) = (dat7 (F := Ideal) (V15 m ρ) c).arrAt 2 cfg7.N := W16_arr m ρ c 2
  have h2 : (dat7 (F := Ideal) (V15 m ρ) c).arrAt 2 cfg7.N = agg (n := 8192) (k := 16384) (W15 m ρ c (Proc.devRef .tc main_v1) : S8192x16384.Idx → EReal) (W15 m ρ c (Proc.devRef .tc main_v71) : S16384x256.Idx → EReal) := agg_arrAt7 (V15 m ρ) c
  rw [h1, h2, val_v1_15, val_v71_15]

/-- `main_v73` is `main_v72` (the rounding to the narrower format is the identity on the reals). -/
theorem val_v73_17 : (W17 m ρ c (Proc.devRef .tc main_v73) : S8192x256.Idx → EReal) = mA7 m c := by
  have h : (W17 m ρ c (Proc.devRef .tc main_v73) : S8192x256.Idx → EReal) = (W16 m ρ c (Proc.devRef .tc main_v72) : S8192x256.Idx → EReal) := by
    after_results; rfl
  exact h.trans (val_v72_16 m ρ c)

/-- `main_v0` is not written between boundaries 1 and 17. -/
theorem val_v0_17 : (W17 m ρ c (Proc.devRef .tc main_v0) : S16384x8192.Idx → EReal) = aH m c := by
  have hk : W17 m ρ c (Proc.devRef .tc main_v0) = W1 m ρ c (Proc.devRef .tc main_v0) :=
    (W17_of m ρ c main_v0 (by decide)).trans ((W16_of_ne m ρ c main_v0 (by decide)).trans ((W15_of m ρ c main_v0 (by decide)).trans ((W14_of_ne m ρ c main_v0 (by decide)).trans ((W13_of m ρ c main_v0 (by decide)).trans ((W12_of_ne m ρ c main_v0 (by decide)).trans ((W11_of m ρ c main_v0 (by decide)).trans ((W10_of_ne m ρ c main_v0 (by decide)).trans ((W9_of m ρ c main_v0 (by decide)).trans ((W8_of_ne m ρ c main_v0 (by decide)).trans ((W7_of m ρ c main_v0 (by decide)).trans ((W6_of_ne m ρ c main_v0 (by decide)).trans ((W5_of m ρ c main_v0 (by decide)).trans ((W4_of_ne m ρ c main_v0 (by decide)).trans ((W3_of m ρ c main_v0 (by decide)).trans ((W2_of_ne m ρ c main_v0 (by decide)))))))))))))))))
  rw [hk]; exact val_v0_1 m ρ c

/-- Region 8 leaves the aggregation of its operands in `main_v74`. -/
theorem val_v74_18 : (W18 m ρ c (Proc.devRef .tc main_v74) : S16384x256.Idx → EReal) = mA8 m c := by
  have h1 : (W18 m ρ c (Proc.devRef .tc main_v74) : S16384x256.Idx → EReal) = (dat8 (F := Ideal) (V17 m ρ) c).arrAt 2 cfg8.N := W18_arr m ρ c 2
  have h2 : (dat8 (F := Ideal) (V17 m ρ) c).arrAt 2 cfg8.N = agg (n := 16384) (k := 8192) (W17 m ρ c (Proc.devRef .tc main_v0) : S16384x8192.Idx → EReal) (W17 m ρ c (Proc.devRef .tc main_v73) : S8192x256.Idx → EReal) := agg_arrAt8 (V17 m ρ) c
  rw [h1, h2, val_v0_17, val_v73_17]

/-- `main_v81` is `main_v74` (the rounding to the narrower format is the identity on the reals). -/
theorem val_v81_19 : (W19 m ρ c (Proc.devRef .tc main_v81) : S16384x256.Idx → EReal) = mA8 m c := by
  have h : (W19 m ρ c (Proc.devRef .tc main_v81) : S16384x256.Idx → EReal) = (W18 m ρ c (Proc.devRef .tc main_v74) : S16384x256.Idx → EReal) := by
    after_results; rfl
  exact h.trans (val_v74_18 m ρ c)

theorem arg_12_18 : W18 m ρ c (Proc.devRef .tc main_arg12) = m ((c : Thread nD τ).loc main_arg12) :=
  ((W18_of_ne m ρ c main_arg12 (by decide)).trans ((W17_of m ρ c main_arg12 (by decide)).trans ((W16_of_ne m ρ c main_arg12 (by decide)).trans ((W15_of m ρ c main_arg12 (by decide)).trans ((W14_of_ne m ρ c main_arg12 (by decide)).trans ((W13_of m ρ c main_arg12 (by decide)).trans ((W12_of_ne m ρ c main_arg12 (by decide)).trans ((W11_of m ρ c main_arg12 (by decide)).trans ((W10_of_ne m ρ c main_arg12 (by decide)).trans ((W9_of m ρ c main_arg12 (by decide)).trans ((W8_of_ne m ρ c main_arg12 (by decide)).trans ((W7_of m ρ c main_arg12 (by decide)).trans ((W6_of_ne m ρ c main_arg12 (by decide)).trans ((W5_of m ρ c main_arg12 (by decide)).trans ((W4_of_ne m ρ c main_arg12 (by decide)).trans ((W3_of m ρ c main_arg12 (by decide)).trans ((W2_of_ne m ρ c main_arg12 (by decide)).trans ((W1_of m ρ c main_arg12 (by decide)))))))))))))))))))).trans rfl

theorem arg_13_18 : W18 m ρ c (Proc.devRef .tc main_arg13) = m ((c : Thread nD τ).loc main_arg13) :=
  ((W18_of_ne m ρ c main_arg13 (by decide)).trans ((W17_of m ρ c main_arg13 (by decide)).trans ((W16_of_ne m ρ c main_arg13 (by decide)).trans ((W15_of m ρ c main_arg13 (by decide)).trans ((W14_of_ne m ρ c main_arg13 (by decide)).trans ((W13_of m ρ c main_arg13 (by decide)).trans ((W12_of_ne m ρ c main_arg13 (by decide)).trans ((W11_of m ρ c main_arg13 (by decide)).trans ((W10_of_ne m ρ c main_arg13 (by decide)).trans ((W9_of m ρ c main_arg13 (by decide)).trans ((W8_of_ne m ρ c main_arg13 (by decide)).trans ((W7_of m ρ c main_arg13 (by decide)).trans ((W6_of_ne m ρ c main_arg13 (by decide)).trans ((W5_of m ρ c main_arg13 (by decide)).trans ((W4_of_ne m ρ c main_arg13 (by decide)).trans ((W3_of m ρ c main_arg13 (by decide)).trans ((W2_of_ne m ρ c main_arg13 (by decide)).trans ((W1_of m ρ c main_arg13 (by decide)))))))))))))))))))).trans rfl

theorem arg_14_18 : W18 m ρ c (Proc.devRef .tc main_arg14) = m ((c : Thread nD τ).loc main_arg14) :=
  ((W18_of_ne m ρ c main_arg14 (by decide)).trans ((W17_of m ρ c main_arg14 (by decide)).trans ((W16_of_ne m ρ c main_arg14 (by decide)).trans ((W15_of m ρ c main_arg14 (by decide)).trans ((W14_of_ne m ρ c main_arg14 (by decide)).trans ((W13_of m ρ c main_arg14 (by decide)).trans ((W12_of_ne m ρ c main_arg14 (by decide)).trans ((W11_of m ρ c main_arg14 (by decide)).trans ((W10_of_ne m ρ c main_arg14 (by decide)).trans ((W9_of m ρ c main_arg14 (by decide)).trans ((W8_of_ne m ρ c main_arg14 (by decide)).trans ((W7_of m ρ c main_arg14 (by decide)).trans ((W6_of_ne m ρ c main_arg14 (by decide)).trans ((W5_of m ρ c main_arg14 (by decide)).trans ((W4_of_ne m ρ c main_arg14 (by decide)).trans ((W3_of m ρ c main_arg14 (by decide)).trans ((W2_of_ne m ρ c main_arg14 (by decide)).trans ((W1_of m ρ c main_arg14 (by decide)))))))))))))))))))).trans rfl

/-- Matrix 1 of the stack, sliced out and recast. -/
theorem val_v82_19 : (W19 m ρ c (Proc.devRef .tc main_v82) : S256x256.Idx → EReal) = layerW (aWhg m c) 1 := by
  after_results
  rw [arg_12_18]
  refine Eq.trans (truncf_ideal _ _) ?_
  exact slice_layerW _ 1 1 rfl _ _

/-- Bias row 1 of the stack, sliced out and recast as one row. -/
theorem val_v83_19 : rowVec (W19 m ρ c (Proc.devRef .tc main_v83) : S1x256.Idx → EReal) = layerB (aBhg m c) 1 := by
  after_results
  rw [arg_13_18]
  exact (rowVec_shapeCast _ _).trans (slice_layerB _ 1 1 rfl _ _)

/-- The exponential of log-scale 1 of the stack. -/
theorem val_v85_19 : (W19 m ρ c (Proc.devRef .tc main_v85) : S1x1.Idx → EReal) (ix2 (0 : Fin 1) (0 : Fin 1)) = layerS (aShg m c) 1 := by
  after_results
  rw [arg_14_18]
  exact (shapeCast_scalar_11 _ _).trans (slice_layerS _ 1 1 rfl _ _)

/-- Region 9 leaves the Lorentz linear layer of its operands in `main_v86`. -/
theorem val_v86_20 : (W20 m ρ c (Proc.devRef .tc main_v86) : S16384x256.Idx → EReal) = mL9 m c := by
  have h1 : (W20 m ρ c (Proc.devRef .tc main_v86) : S16384x256.Idx → EReal) = (dat9 (F := Ideal) (V19 m ρ) c).arrAt 4 cfg9.N := W20_arr m ρ c 4
  have h2 : (dat9 (F := Ideal) (V19 m ρ) c).arrAt 4 cfg9.N = linear (n := 16384) (W19 m ρ c (Proc.devRef .tc main_v81) : S16384x256.Idx → EReal) (W19 m ρ c (Proc.devRef .tc main_v82) : S256x256.Idx → EReal)
      (rowVec (W19 m ρ c (Proc.devRef .tc main_v83) : S1x256.Idx → EReal)) ((W19 m ρ c (Proc.devRef .tc main_v85) : S1x1.Idx → EReal) (ix2 (0 : Fin 1) (0 : Fin 1))) := lin_arrAt9 (V19 m ρ) c
  rw [h1, h2, val_v81_19, val_v82_19, val_v83_19, val_v85_19]

/-- `main_v87` is `main_v86` (the rounding to the narrower format is the identity on the reals). -/
theorem val_v87_21 : (W21 m ρ c (Proc.devRef .tc main_v87) : S16384x256.Idx → EReal) = mL9 m c := by
  have h : (W21 m ρ c (Proc.devRef .tc main_v87) : S16384x256.Idx → EReal) = (W20 m ρ c (Proc.devRef .tc main_v86) : S16384x256.Idx → EReal) := by
    after_results; rfl
  exact h.trans (val_v86_20 m ρ c)

/-- `main_v1` is not written between boundaries 1 and 21. -/
theorem val_v1_21 : (W21 m ρ c (Proc.devRef .tc main_v1) : S8192x16384.Idx → EReal) = tr (aH m c) := by
  have hk : W21 m ρ c (Proc.devRef .tc main_v1) = W1 m ρ c (Proc.devRef .tc main_v1) :=
    (W21_of m ρ c main_v1 (by decide)).trans ((W20_of_ne m ρ c main_v1 (by decide)).trans ((W19_of m ρ c main_v1 (by decide)).trans ((W18_of_ne m ρ c main_v1 (by decide)).trans ((W17_of m ρ c main_v1 (by decide)).trans (((W16_arr m ρ c 0).trans (((dat7 (F := Ideal) (V15 m ρ) c).arrAt_in 0 rfl _).trans (A_eq7 (V15 m ρ) c 0))).trans ((W15_of m ρ c main_v1 (by decide)).trans ((W14_of_ne m ρ c main_v1 (by decide)).trans ((W13_of m ρ c main_v1 (by decide)).trans ((W12_of_ne m ρ c main_v1 (by decide)).trans ((W11_of m ρ c main_v1 (by decide)).trans ((W10_of_ne m ρ c main_v1 (by decide)).trans ((W9_of m ρ c main_v1 (by decide)).trans ((W8_of_ne m ρ c main_v1 (by decide)).trans ((W7_of m ρ c main_v1 (by decide)).trans ((W6_of_ne m ρ c main_v1 (by decide)).trans ((W5_of m ρ c main_v1 (by decide)).trans ((W4_of_ne m ρ c main_v1 (by decide)).trans ((W3_of m ρ c main_v1 (by decide)).trans ((W2_of_ne m ρ c main_v1 (by decide)))))))))))))))))))))
  rw [hk]; exact val_v1_1 m ρ c

/-- Region 10 leaves the aggregation of its operands in `main_v88`. -/
theorem val_v88_22 : (W22 m ρ c (Proc.devRef .tc main_v88) : S8192x256.Idx → EReal) = mA10 m c := by
  have h1 : (W22 m ρ c (Proc.devRef .tc main_v88) : S8192x256.Idx → EReal) = (dat10 (F := Ideal) (V21 m ρ) c).arrAt 2 cfg10.N := W22_arr m ρ c 2
  have h2 : (dat10 (F := Ideal) (V21 m ρ) c).arrAt 2 cfg10.N = agg (n := 8192) (k := 16384) (W21 m ρ c (Proc.devRef .tc main_v1) : S8192x16384.Idx → EReal) (W21 m ρ c (Proc.devRef .tc main_v87) : S16384x256.Idx → EReal) := agg_arrAt10 (V21 m ρ) c
  rw [h1, h2, val_v1_21, val_v87_21]

/-- `main_v89` is `main_v88` (the rounding to the narrower format is the identity on the reals). -/
theorem val_v89_23 : (W23 m ρ c (Proc.devRef .tc main_v89) : S8192x256.Idx → EReal) = mA10 m c := by
  have h : (W23 m ρ c (Proc.devRef .tc main_v89) : S8192x256.Idx → EReal) = (W22 m ρ c (Proc.devRef .tc main_v88) : S8192x256.Idx → EReal) := by
    after_results; rfl
  exact h.trans (val_v88_22 m ρ c)

/-- `main_v0` is not written between boundaries 1 and 23. -/
theorem val_v0_23 : (W23 m ρ c (Proc.devRef .tc main_v0) : S16384x8192.Idx → EReal) = aH m c := by
  have hk : W23 m ρ c (Proc.devRef .tc main_v0) = W1 m ρ c (Proc.devRef .tc main_v0) :=
    (W23_of m ρ c main_v0 (by decide)).trans ((W22_of_ne m ρ c main_v0 (by decide)).trans ((W21_of m ρ c main_v0 (by decide)).trans ((W20_of_ne m ρ c main_v0 (by decide)).trans ((W19_of m ρ c main_v0 (by decide)).trans (((W18_arr m ρ c 0).trans (((dat8 (F := Ideal) (V17 m ρ) c).arrAt_in 0 rfl _).trans (A_eq8 (V17 m ρ) c 0))).trans ((W17_of m ρ c main_v0 (by decide)).trans ((W16_of_ne m ρ c main_v0 (by decide)).trans ((W15_of m ρ c main_v0 (by decide)).trans ((W14_of_ne m ρ c main_v0 (by decide)).trans ((W13_of m ρ c main_v0 (by decide)).trans ((W12_of_ne m ρ c main_v0 (by decide)).trans ((W11_of m ρ c main_v0 (by decide)).trans ((W10_of_ne m ρ c main_v0 (by decide)).trans ((W9_of m ρ c main_v0 (by decide)).trans ((W8_of_ne m ρ c main_v0 (by decide)).trans ((W7_of m ρ c main_v0 (by decide)).trans ((W6_of_ne m ρ c main_v0 (by decide)).trans ((W5_of m ρ c main_v0 (by decide)).trans ((W4_of_ne m ρ c main_v0 (by decide)).trans ((W3_of m ρ c main_v0 (by decide)).trans ((W2_of_ne m ρ c main_v0 (by decide)))))))))))))))))))))))
  rw [hk]; exact val_v0_1 m ρ c

/-- Region 11 leaves the aggregation of its operands in `main_v90`. -/
theorem val_v90_24 : (W24 m ρ c (Proc.devRef .tc main_v90) : S16384x256.Idx → EReal) = mA11 m c := by
  have h1 : (W24 m ρ c (Proc.devRef .tc main_v90) : S16384x256.Idx → EReal) = (dat11 (F := Ideal) (V23 m ρ) c).arrAt 2 cfg11.N := W24_arr m ρ c 2
  have h2 : (dat11 (F := Ideal) (V23 m ρ) c).arrAt 2 cfg11.N = agg (n := 16384) (k := 8192) (W23 m ρ c (Proc.devRef .tc main_v0) : S16384x8192.Idx → EReal) (W23 m ρ c (Proc.devRef .tc main_v89) : S8192x256.Idx → EReal) := agg_arrAt11 (V23 m ρ) c
  rw [h1, h2, val_v0_23, val_v89_23]

end Cert.KernelIdeal.Val

end
-- ==== Proof.Val.AggRegion12.lean ====
/-
  The aggregation region 12: what its output array holds after the run, as one function of the two arrays the region
  finds.

  The grid is 8 row tiles by 8 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 8 row tiles cover the array.
-/
import proofs.«103499_j73031623901527_2_alg».proof.Proof.KI.AggDef12
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_12 : (![0, 0] : Fin 2 → Nat) = fun _ => 0 := funext fun a => by fin_cases a <;> rfl

/-- The adjacency and the features as the region finds them. -/
abbrev adj12 (c : Dev nD) : Arr2 8192 16384 := V c (Pipeline.arrRef spec12 0)
abbrev x12 (c : Dev nD) : Arr2 16384 512 := V c (Pipeline.arrRef spec12 1)

/-- The printed index maps over the grid: the adjacency's block is (row tile, inner step), the features' block is
    (inner step, 0), the output's block is (row tile, 0); the point number is row tile × 8 + inner step. -/
theorem idx_facts12 : ∀ t : Fin cfg12.N, win12_0.index t (0 : Fin 2) = t.val / 8 ∧ win12_0.index t (1 : Fin 2) = t.val % 8
    ∧ win12_1.index t (0 : Fin 2) = t.val % 8 ∧ win12_1.index t (1 : Fin 2) = 0
    ∧ win12_2.index t (0 : Fin 2) = t.val / 8 ∧ win12_2.index t (1 : Fin 2) = 0 :=
  (by decide +kernel : ∀ t : Fin grid12.N, _)

/-- The adjacency's block at point `t`, entry by entry. -/
theorem iblk12_0_apply (c : Dev nD) (t : Fin cfg12.N) (x : S1024x2048.Idx) (k : S8192x16384.Idx)
    (hk0 : (k 0).val = 1024 * (t.val / 8) + (x 0).val) (hk1 : (k 1).val = 2048 * (t.val % 8) + (x 1).val) :
    (iblk12 V c 0 t : Vec Ideal S1024x2048 .bf16) x = (V c (Pipeline.arrRef spec12 0) : S8192x16384.Idx → EReal) k := by
  obtain ⟨e0, e1, -, -, -, -⟩ := idx_facts12 t
  unfold iblk12
  rw [View.read_apply]
  show V c (Pipeline.arrRef spec12 0) _ = V c (Pipeline.arrRef spec12 0) _
  congr 1
  funext a
  apply Fin.ext
  match a with
  | ⟨0, _⟩ => show win12_0.index t 0 * 1024 + 1 * (x 0).val = (k 0).val; rw [e0, hk0]; omega
  | ⟨1, _⟩ => show win12_0.index t 1 * 2048 + 1 * (x 1).val = (k 1).val; rw [e1, hk1]; omega

/-- The features' block at point `t`, entry by entry. -/
theorem iblk12_1_apply (c : Dev nD) (t : Fin cfg12.N) (x : S2048x512.Idx) (k : S16384x512.Idx)
    (hk0 : (k 0).val = 2048 * (t.val % 8) + (x 0).val) (hk1 : (k 1).val = (x 1).val) :
    (iblk12 V c 1 t : Vec Ideal S2048x512 .bf16) x = (V c (Pipeline.arrRef spec12 1) : S16384x512.Idx → EReal) k := by
  obtain ⟨-, -, e0, e1, -, -⟩ := idx_facts12 t
  unfold iblk12
  rw [View.read_apply]
  show V c (Pipeline.arrRef spec12 1) _ = V c (Pipeline.arrRef spec12 1) _
  congr 1
  funext a
  apply Fin.ext
  match a with
  | ⟨0, _⟩ => show win12_1.index t 0 * 2048 + 1 * (x 0).val = (k 0).val; rw [e0, hk0]; omega
  | ⟨1, _⟩ => show win12_1.index t 1 * 512 + 1 * (x 1).val = (k 1).val; rw [e1, hk1]; omega

/-- The product of the point's two blocks is the point's tile of the whole product's entry. -/
theorem tile12 (c : Dev nD) (t : Fin cfg12.N) (p : Fin 1024) (q : Fin 512) (P : Fin 8192)
    (hP : P.val = 1024 * (t.val / 8) + p.val) :
    rowsMul (n := 1024) (k := 2048) (c := 512) (iblk12 V c 0 t : Vec Ideal S1024x2048 .bf16) (iblk12 V c 1 t : Vec Ideal S2048x512 .bf16) (ix2 p q)
      = tileSum (adj12 V c) (x12 V c) 2048 P q (t.val % 8) := by
  have hN : cfg12.N = 64 := N_12
  have ht := t.isLt
  refine rowsMul_block (adj12 V c) (x12 V c) _ _ (t.val % 8) P p q (fun j J hJ => ?_) (fun j J hJ => ?_) (by omega)
  · exact iblk12_0_apply V c t (ix2 p j) (ix2 P J) hP (by show J.val = _; rw [hJ]; show _ = 2048 * (t.val % 8) + j.val; omega)
  · exact iblk12_1_apply V c t (ix2 j q) (ix2 J q) (by show J.val = _; rw [hJ]; show _ = 2048 * (t.val % 8) + j.val; omega) rfl

/-- At the first inner step the accumulator's payload is tile 0 of the entry. -/
theorem acc_first12 (c : Dev nD) (n : ℕ) (hn : n < cfg12.N) (h0 : n % 8 = 0) (p : Fin 1024) (q : Fin 512) (P : Fin 8192)
    (hP : P.val = 1024 * (n / 8) + p.val) :
    accP12 (F := Ideal) V c n hn (ix2 p q) = ∑ k ∈ Finset.range (n % 8 + 1), tileSum (adj12 V c) (x12 V c) 2048 P q k := by
  have e : _ = tileSum (adj12 V c) (x12 V c) 2048 P q (n % 8) := tile12 V c ⟨n, hn⟩ p q P hP
  have hf : accP12 (F := Ideal) V c n hn = _ := accP12_first (F := Ideal) V c ⟨n, hn⟩ h0
  rw [hf, k12_pay2_apply, k12_pay1_apply, zero_add]
  simp only [View.ld_unit_zero (S := S1024x2048) hz_12, View.ld_unit_zero (S := S2048x512) hz_12, View.ld_unit_zero (S := S1024x512) hz_12]
  rw [e, h0, Nat.zero_add, Finset.sum_range_one]

/-- At a later inner step it is what the step before left plus the step's tile. -/
theorem acc_step12 (c : Dev nD) (n : ℕ) (hn : n + 1 < cfg12.N) (h0 : ¬(n + 1) % 8 = 0) (p : Fin 1024) (q : Fin 512) (P : Fin 8192)
    (hP : P.val = 1024 * ((n + 1) / 8) + p.val)
    (ih : accP12 (F := Ideal) V c n (Nat.lt_of_succ_lt hn) (ix2 p q) = ∑ k ∈ Finset.range (n % 8 + 1), tileSum (adj12 V c) (x12 V c) 2048 P q k) :
    accP12 (F := Ideal) V c (n + 1) hn (ix2 p q) = ∑ k ∈ Finset.range ((n + 1) % 8 + 1), tileSum (adj12 V c) (x12 V c) 2048 P q k := by
  have e : _ = tileSum (adj12 V c) (x12 V c) 2048 P q ((n + 1) % 8) := tile12 V c ⟨n + 1, hn⟩ p q P hP
  have hs : accP12 (F := Ideal) V c (n + 1) hn = k12_pay2 (View.ld (acc12 (F := Ideal) V c n (Nat.lt_of_succ_lt hn)) r12_out)
      (View.ld (iblk12 V c 0 ⟨n + 1, hn⟩ : Vec Ideal S1024x2048 .bf16) r12_A) (View.ld (iblk12 V c 1 ⟨n + 1, hn⟩ : Vec Ideal S2048x512 .bf16) r12_X) :=
    accP12_step (F := Ideal) V c ⟨n + 1, hn⟩ h0
  have hmod : (n + 1) % 8 = n % 8 + 1 := by omega
  rw [hs, k12_pay2_apply]
  simp only [View.ld_unit_zero (S := S1024x2048) hz_12, View.ld_unit_zero (S := S2048x512) hz_12, View.ld_unit_zero (S := S1024x512) hz_12]
  rw [e]
  unfold acc12
  rw [View.canon_unit_zero hz_12, View.ld_unit_zero (S := S1024x512) hz_12, ih, hmod, Finset.sum_range_succ _ (n % 8 + 1)]

/-- After point `n` the accumulator's payload holds, at every entry of its rows, the tiles 0..(n mod 8) of the product. -/
theorem acc_inv12 (c : Dev nD) : ∀ (n : ℕ) (hn : n < cfg12.N) (p : Fin 1024) (q : Fin 512) (P : Fin 8192)
    (hP : P.val = 1024 * (n / 8) + p.val),
    accP12 (F := Ideal) V c n hn (ix2 p q) = ∑ k ∈ Finset.range (n % 8 + 1), tileSum (adj12 V c) (x12 V c) 2048 P q k := by
  intro n
  induction n with
  | zero => exact fun hn p q P hP => acc_first12 V c 0 hn (Nat.zero_mod _) p q P hP
  | succ n ih =>
    intro hn p q P hP
    by_cases h0 : (n + 1) % 8 = 0
    · exact acc_first12 V c (n + 1) hn h0 p q P hP
    · refine acc_step12 V c n hn h0 p q P hP (ih (Nat.lt_of_succ_lt hn) p q P ?_)
      rw [hP]
      have hd : (n + 1) / 8 = n / 8 := by omega
      rw [hd]

/-- The two-half normalisation looks at one row only: a block of rows of the result is the function of that block of rows. -/
theorem norm2_rows {N n : Nat} (U : Arr2 N 512) (u : Arr2 n 512) (I : (⟨2, ![N, 512]⟩ : Shape).Idx)
    (i : (⟨2, ![n, 512]⟩ : Shape).Idx) (hc : (I 1).val = (i 1).val)
    (hu : ∀ q : Fin 512, U (ix2 (rowOf I) q) = u (ix2 (rowOf i) q)) : norm2 U I = norm2 u i := by
  have hi1 : (i 1).val < 512 := idx2_lt1 i
  unfold norm2 beside
  by_cases hq : (i 1).val < 256
  · have hQ : (I 1).val < 256 := by omega
    rw [dif_pos hq, dif_pos hQ]
    exact norm_rows (leftHalf U) (leftHalf u) _ _ hc (fun q => hu ⟨q.val, by have := q.isLt; omega⟩)
  · have hQ : ¬(I 1).val < 256 := by omega
    rw [dif_neg hq, dif_neg hQ]
    exact norm_rows (rightHalf U) (rightHalf u) _ _ (by show (I 1).val - 256 = (i 1).val - 256; rw [hc])
      (fun q => hu ⟨q.val + 256, by have := q.isLt; omega⟩)

/-- An index of the output array is in point `t`'s block iff each coordinate is in the block's range on its axis. -/
theorem mem_blk12 (t : Fin cfg12.N) (i : S8192x512.Idx) :
    i ∈ ((cfg12.win 2).blk t).view.set ↔ ∀ a : Fin 2, win12_2.index t a * S1024x512.size a ≤ (i a).val ∧ (i a).val < win12_2.index t a * S1024x512.size a + S1024x512.size a := by
  show i ∈ ((View.whole main_v93).slice (win12_2.rect t)).set ↔ _
  rw [View.set_slice_whole, Rect.mem_set_unit]
  exact Iff.rfl

/-- What a storing point writes back is its block of rows of the normalised product. -/
theorem flushed12_eq (c : Dev nD) (t : Fin cfg12.N) (hf : (cfg12.win 2).flush t = true) :
    (dat12 (F := Ideal) V c).flushed 2 t = ((cfg12.win 2).blk t).view.read (Elt Ideal) (Cert.Lorentz.norm2 (n := 8192) (rowsMul (n := 8192) (k := 16384) (c := 512) (adj12 V c) (x12 V c))) := by
  have hN : cfg12.N = 64 := N_12
  have ht := t.isLt
  have hlast : t.val % 8 = 7 := (flush12_2 t).mp hf
  obtain ⟨-, -, -, -, e0, e1⟩ := idx_facts12 t
  show (cfg12.win 2).cut (grid12.coords t) ((dat12 V c).after 2 t) = _
  rw [after12_2_last V c t hlast, View.canon_unit_zero hz_12]
  funext j
  show k12_pay3 (F := Ideal) (accP12 V c t.val t.isLt) j = (Cert.Lorentz.norm2 (n := 8192) (rowsMul (n := 8192) (k := 16384) (c := 512) (adj12 V c) (x12 V c))) (((cfg12.win 2).blk t).view.emb j)
  rw [k12_pay3_apply]
  have hj0 : (j 0).val < 1024 := (j 0).isLt
  have hj1 : (j 1).val < 512 := (j 1).isLt
  have hE0 : ((((cfg12.win 2).blk t).view.emb j) 0).val = 1024 * (t.val / 8) + (j 0).val := by
    show win12_2.index t 0 * 1024 + 1 * (j 0).val = _; rw [e0]; omega
  have hE1 : ((((cfg12.win 2).blk t).view.emb j) 1).val = (j 1).val := by
    show win12_2.index t 1 * 512 + 1 * (j 1).val = _; rw [e1]; omega
  have hrows : ∀ q : Fin 512, rowsMul (n := 8192) (k := 16384) (c := 512) (adj12 V c) (x12 V c) (ix2 (rowOf (((cfg12.win 2).blk t).view.emb j)) q)
      = accP12 (F := Ideal) V c t.val t.isLt (ix2 (rowOf j) q) := by
    intro q
    rw [acc_inv12 V c t.val t.isLt (rowOf j) q (rowOf (((cfg12.win 2).blk t).view.emb j)) hE0, hlast]
    exact (sum_tileSum (adj12 V c) (x12 V c) 8 2048 (by norm_num) _ q).symm
  exact (norm2_rows (N := 8192) (n := 1024) _ _ _ j hE1 hrows).symm

/-- Every row of the output array is in the block some storing point writes back. -/
theorem cover12 (i : S8192x512.Idx) : ∃ t : Fin cfg12.N, (cfg12.win 2).flush t = true ∧ i ∈ ((cfg12.win 2).blk t).view.set := by
  have hN : cfg12.N = 64 := N_12
  have hi0 : (i 0).val < 8192 := (i 0).isLt
  have hi1 : (i 1).val < 512 := (i 1).isLt
  let t : Fin cfg12.N := ⟨(i 0).val / 1024 * 8 + 7, by rw [hN]; omega⟩
  have htv : t.val = (i 0).val / 1024 * 8 + 7 := rfl
  obtain ⟨-, -, -, -, e0, e1⟩ := idx_facts12 t
  refine ⟨t, (flush12_2 t).mpr (by rw [htv]; omega), ?_⟩
  rw [mem_blk12]
  intro a
  match a with
  | ⟨0, _⟩ => show win12_2.index t (0 : Fin 2) * 1024 ≤ (i 0).val ∧ (i 0).val < win12_2.index t (0 : Fin 2) * 1024 + 1024; rw [e0, htv]; omega
  | ⟨1, _⟩ => show win12_2.index t (1 : Fin 2) * 512 ≤ (i 1).val ∧ (i 1).val < win12_2.index t (1 : Fin 2) * 512 + 512; rw [e1]; omega

/-- The region's output array after the run: each half of every row of the product normalised. -/
theorem agg_arrAt12 (c : Dev nD) : (dat12 (F := Ideal) V c).arrAt 2 cfg12.N = Cert.Lorentz.norm2 (n := 8192) (rowsMul (n := 8192) (k := 16384) (c := 512) (adj12 V c) (x12 V c)) :=
  (dat12 (F := Ideal) V c).arrAt_eq_of_cover 2 (Cert.Lorentz.norm2 (n := 8192) (rowsMul (n := 8192) (k := 16384) (c := 512) (adj12 V c) (x12 V c))) (flushed12_eq V c) cover12

end Cert.KernelIdeal.Val

end
-- ==== Proof.Val.LinRegion13.lean ====
/-
  Region 13 of the program: a Lorentz linear layer over 8192 rows, computed in 4 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin13
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz13 : (![0, 0] : Fin 2 → Nat) = fun _ => 0 := funext fun a => by fin_cases a <;> rfl

/-- The layer of the arrays region 13 finds: input rows, weights, bias row, scale. -/
def G13 (c : Dev nD) : S8192x256.Idx → EReal :=
  linear (n := 8192) (V c (Pipeline.arrRef spec13 0) : S8192x256.Idx → EReal) (V c (Pipeline.arrRef spec13 1) : S256x256.Idx → EReal)
    (rowVec (V c (Pipeline.arrRef spec13 2) : S1x256.Idx → EReal)) ((V c (Pipeline.arrRef spec13 3) : S1x1.Idx → EReal) (ix2 (0 : Fin 1) (0 : Fin 1)))

/-- The printed index maps, decided over the grid: the row windows are at block (t, 0), the others at block (0, 0). -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

/-- The input window's block at point t is rows 2048·t … of the input array. -/
theorem iblk13_0_apply (c : Dev nD) (t : Fin cfg13.N) (x : S2048x256.Idx) (k : S8192x256.Idx)
    (hk0 : (k 0).val = 2048 * t.val + (x 0).val) (hk1 : (k 1).val = (x 1).val) :
    (iblk13 V c 0 t : S2048x256.Idx → EReal) x = (V c (Pipeline.arrRef spec13 0) : S8192x256.Idx → EReal) k := by
  obtain ⟨e0, e1, -⟩ := idx_facts13 t
  unfold iblk13
  rw [View.read_apply]
  show (V c (Pipeline.arrRef spec13 0) : S8192x256.Idx → EReal) _ = _
  congr 1
  funext a
  apply Fin.ext
  match a with
  | ⟨0, _⟩ => show win13_0.index t (0 : Fin 2) * 2048 + 1 * (x 0).val = (k 0).val; rw [e0, hk0]; omega
  | ⟨1, _⟩ => show win13_0.index t (1 : Fin 2) * 256 + 1 * (x 1).val = (k 1).val; rw [e1, hk1]; omega

/-- The weights', bias row's and scale's windows are the whole arrays at every point. -/
theorem iblk13_1_eq (c : Dev nD) (t : Fin cfg13.N) :
    (iblk13 V c 1 t : S256x256.Idx → EReal) = (V c (Pipeline.arrRef spec13 1) : S256x256.Idx → EReal) := by
  obtain ⟨-, -, e0, e1, -⟩ := idx_facts13 t
  funext x
  unfold iblk13
  rw [View.read_apply]
  show (V c (Pipeline.arrRef spec13 1) : S256x256.Idx → EReal) _ = _
  congr 1
  funext a
  apply Fin.ext
  match a with
  | ⟨0, _⟩ => show win13_1.index t (0 : Fin 2) * 256 + 1 * (x 0).val = (x 0).val; rw [e0]; omega
  | ⟨1, _⟩ => show win13_1.index t (1 : Fin 2) * 256 + 1 * (x 1).val = (x 1).val; rw [e1]; omega

theorem iblk13_2_eq (c : Dev nD) (t : Fin cfg13.N) :
    (iblk13 V c 2 t : S1x256.Idx → EReal) = (V c (Pipeline.arrRef spec13 2) : S1x256.Idx → EReal) := by
  obtain ⟨-, -, -, -, e0, e1, -⟩ := idx_facts13 t
  funext x
  unfold iblk13
  rw [View.read_apply]
  show (V c (Pipeline.arrRef spec13 2) : S1x256.Idx → EReal) _ = _
  congr 1
  funext a
  apply Fin.ext
  match a with
  | ⟨0, _⟩ => show win13_2.index t (0 : Fin 2) * 1 + 1 * (x 0).val = (x 0).val; rw [e0]; omega
  | ⟨1, _⟩ => show win13_2.index t (1 : Fin 2) * 256 + 1 * (x 1).val = (x 1).val; rw [e1]; omega

theorem iblk13_3_eq (c : Dev nD) (t : Fin cfg13.N) :
    (iblk13 V c 3 t : S1x1.Idx → EReal) = (V c (Pipeline.arrRef spec13 3) : S1x1.Idx → EReal) := by
  obtain ⟨-, -, -, -, -, -, e0, e1, -⟩ := idx_facts13 t
  funext x
  unfold iblk13
  rw [View.read_apply]
  show (V c (Pipeline.arrRef spec13 3) : S1x1.Idx → EReal) _ = _
  congr 1
  funext a
  apply Fin.ext
  match a with
  | ⟨0, _⟩ => show win13_3.index t (0 : Fin 2) * 1 + 1 * (x 0).val = (x 0).val; rw [e0]; omega
  | ⟨1, _⟩ => show win13_3.index t (1 : Fin 2) * 1 + 1 * (x 1).val = (x 1).val; rw [e1]; omega

/-- What the body leaves at point t is the layer of the four blocks. -/
theorem out13_4_eq (x0 : Vec Ideal S2048x256 .bf16) (x1 : Vec Ideal S256x256 .bf16) (x2 : Vec Ideal S1x256 .f32) (x3 : Vec Ideal S1x1 .f32) :
    out13_4 (F := Ideal) x0 x1 x2 x3 = linear (n := 2048) x0 x1 (rowVec x2) (x3 (ix2 (0 : Fin 1) (0 : Fin 1))) := by
  unfold out13_4
  rw [View.canon_unit_zero hz13]
  simp only [View.ld_unit_zero (S := S2048x256) hz13, View.ld_unit_zero (S := S256x256) hz13, View.ld_unit_zero (S := S1x256) hz13,
    View.ld_unit_zero (S := S1x1) hz13]
  exact k0_pay1_eq x0 x1 x2 x3

/-- WHAT POINT t WRITES BACK is block t of the layer of the whole arrays. -/
theorem flushed13_eq (c : Dev nD) (t : Fin cfg13.N) :
    (dat13 (F := Ideal) V c).flushed 4 t = ((cfg13.win 4).blk t).view.read (Elt Ideal) (G13 V c) := by
  show (cfg13.win 4).cut (grid13.coords t) ((dat13 (F := Ideal) V c).after 4 t) = _
  rw [after13_4, out13_4_eq, iblk13_1_eq, iblk13_2_eq, iblk13_3_eq]
  obtain ⟨-, -, -, -, -, -, -, -, e0, e1⟩ := idx_facts13 t
  funext j
  show linear (n := 2048) (iblk13 V c 0 t : S2048x256.Idx → EReal) _ _ _ j = G13 V c (((cfg13.win 4).blk t).view.emb j)
  unfold G13
  have h0 : ((((cfg13.win 4).blk t).view.emb j : S8192x256.Idx) 0).val = 2048 * t.val + (j 0).val := by
    show win13_4.index t (0 : Fin 2) * 2048 + 1 * (j 0).val = _; rw [e0]; omega
  have h1 : ((((cfg13.win 4).blk t).view.emb j : S8192x256.Idx) 1).val = (j 1).val := by
    show win13_4.index t (1 : Fin 2) * 256 + 1 * (j 1).val = _; rw [e1]; omega
  refine (linear_rows (N := 8192) (n := 2048) _ _ _ _ _ (((cfg13.win 4).blk t).view.emb j) j h1 fun q => ?_).symm
  exact (iblk13_0_apply V c t (ix2 (rowOf j) q) (ix2 (rowOf (((cfg13.win 4).blk t).view.emb j : S8192x256.Idx)) q) h0 rfl).symm

/-- An index of the output array is in point t's block iff each coordinate is in the block's range on its axis. -/
theorem mem_blk13 (t : Fin cfg13.N) (i : S8192x256.Idx) :
    i ∈ ((cfg13.win 4).blk t).view.set ↔ ∀ a : Fin 2, win13_4.index t a * S2048x256.size a ≤ (i a).val ∧ (i a).val < win13_4.index t a * S2048x256.size a + S2048x256.size a := by
  show i ∈ ((View.whole main_v107).slice (win13_4.rect t)).set ↔ _
  rw [View.set_slice_whole, Rect.mem_set_unit]
  exact Iff.rfl

/-- THE ARRAY after the run: the layer of the arrays the region found. -/
theorem lin_arrAt13_G (c : Dev nD) : (dat13 (F := Ideal) V c).arrAt 4 cfg13.N = G13 V c := by
  refine (dat13 (F := Ideal) V c).arrAt_eq_of_cover 4 (G13 V c) (fun t _ => flushed13_eq V c t) fun i => ?_
  have hi0 : (i 0).val < 8192 := (i 0).isLt
  have hi1 : (i 1).val < 256 := (i 1).isLt
  refine ⟨⟨(i 0).val / 2048, by show (i 0).val / 2048 < 4; omega⟩, flush13_4 _, ?_⟩
  rw [mem_blk13]
  obtain ⟨-, -, -, -, -, -, -, -, e0, e1⟩ := idx_facts13 ⟨(i 0).val / 2048, by show (i 0).val / 2048 < 4; omega⟩
  intro a
  match a with
  | ⟨0, _⟩ =>
    show win13_4.index _ (0 : Fin 2) * 2048 ≤ (i 0).val ∧ (i 0).val < win13_4.index _ (0 : Fin 2) * 2048 + 2048
    rw [e0]; show (i 0).val / 2048 * 2048 ≤ (i 0).val ∧ (i 0).val < (i 0).val / 2048 * 2048 + 2048; omega
  | ⟨1, _⟩ =>
    show win13_4.index _ (1 : Fin 2) * 256 ≤ (i 1).val ∧ (i 1).val < win13_4.index _ (1 : Fin 2) * 256 + 256
    rw [e1]; omega

/-- The same, with the layer written out. -/
theorem lin_arrAt13 (c : Dev nD) : (dat13 (F := Ideal) V c).arrAt 4 cfg13.N
    = linear (n := 8192) (V c (Pipeline.arrRef spec13 0) : S8192x256.Idx → EReal) (V c (Pipeline.arrRef spec13 1) : S256x256.Idx → EReal)
        (rowVec (V c (Pipeline.arrRef spec13 2) : S1x256.Idx → EReal))
        ((V c (Pipeline.arrRef spec13 3) : S1x1.Idx → EReal) (ix2 (0 : Fin 1) (0 : Fin 1))) :=
  lin_arrAt13_G V c

end Cert.KernelIdeal.Val

end
-- ==== Proof.Val.AggRegion14.lean ====
/-
  The aggregation region 14: what its output array holds after the run, as one function of the two arrays the region
  finds.

  The grid is 4 row tiles by 4 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 4 row tiles cover the array.
-/
import proofs.«103499_j73031623901527_2_alg».proof.Proof.KI.AggDef14
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_14 : (![0, 0] : Fin 2 → Nat) = fun _ => 0 := funext fun a => by fin_cases a <;> rfl

/-- The adjacency and the features as the region finds them. -/
abbrev adj14 (c : Dev nD) : Arr2 8192 8192 := V c (Pipeline.arrRef spec14 0)
abbrev x14 (c : Dev nD) : Arr2 8192 256 := V c (Pipeline.arrRef spec14 1)

/-- The printed index maps over the grid: the adjacency's block is (row tile, inner step), the features' block is
    (inner step, 0), the output's block is (row tile, 0); the point number is row tile × 4 + inner step. -/
theorem idx_facts14 : ∀ t : Fin cfg14.N, win14_0.index t (0 : Fin 2) = t.val / 4 ∧ win14_0.index t (1 : Fin 2) = t.val % 4
    ∧ win14_1.index t (0 : Fin 2) = t.val % 4 ∧ win14_1.index t (1 : Fin 2) = 0
    ∧ win14_2.index t (0 : Fin 2) = t.val / 4 ∧ win14_2.index t (1 : Fin 2) = 0 :=
  (by decide +kernel : ∀ t : Fin grid14.N, _)

/-- The adjacency's block at point `t`, entry by entry. -/
theorem iblk14_0_apply (c : Dev nD) (t : Fin cfg14.N) (x : S2048x2048.Idx) (k : S8192x8192.Idx)
    (hk0 : (k 0).val = 2048 * (t.val / 4) + (x 0).val) (hk1 : (k 1).val = 2048 * (t.val % 4) + (x 1).val) :
    (iblk14 V c 0 t : Vec Ideal S2048x2048 .bf16) x = (V c (Pipeline.arrRef spec14 0) : S8192x8192.Idx → EReal) k := by
  obtain ⟨e0, e1, -, -, -, -⟩ := idx_facts14 t
  unfold iblk14
  rw [View.read_apply]
  show V c (Pipeline.arrRef spec14 0) _ = V c (Pipeline.arrRef spec14 0) _
  congr 1
  funext a
  apply Fin.ext
  match a with
  | ⟨0, _⟩ => show win14_0.index t 0 * 2048 + 1 * (x 0).val = (k 0).val; rw [e0, hk0]; omega
  | ⟨1, _⟩ => show win14_0.index t 1 * 2048 + 1 * (x 1).val = (k 1).val; rw [e1, hk1]; omega

/-- The features' block at point `t`, entry by entry. -/
theorem iblk14_1_apply (c : Dev nD) (t : Fin cfg14.N) (x : S2048x256.Idx) (k : S8192x256.Idx)
    (hk0 : (k 0).val = 2048 * (t.val % 4) + (x 0).val) (hk1 : (k 1).val = (x 1).val) :
    (iblk14 V c 1 t : Vec Ideal S2048x256 .bf16) x = (V c (Pipeline.arrRef spec14 1) : S8192x256.Idx → EReal) k := by
  obtain ⟨-, -, e0, e1, -, -⟩ := idx_facts14 t
  unfold iblk14
  rw [View.read_apply]
  show V c (Pipeline.arrRef spec14 1) _ = V c (Pipeline.arrRef spec14 1) _
  congr 1
  funext a
  apply Fin.ext
  match a with
  | ⟨0, _⟩ => show win14_1.index t 0 * 2048 + 1 * (x 0).val = (k 0).val; rw [e0, hk0]; omega
  | ⟨1, _⟩ => show win14_1.index t 1 * 256 + 1 * (x 1).val = (k 1).val; rw [e1, hk1]; omega

/-- The product of the point's two blocks is the point's tile of the whole product's entry. -/
theorem tile14 (c : Dev nD) (t : Fin cfg14.N) (p : Fin 2048) (q : Fin 256) (P : Fin 8192)
    (hP : P.val = 2048 * (t.val / 4) + p.val) :
    rowsMul (n := 2048) (k := 2048) (c := 256) (iblk14 V c 0 t : Vec Ideal S2048x2048 .bf16) (iblk14 V c 1 t : Vec Ideal S2048x256 .bf16) (ix2 p q)
      = tileSum (adj14 V c) (x14 V c) 2048 P q (t.val % 4) := by
  have hN : cfg14.N = 16 := N_14
  have ht := t.isLt
  refine rowsMul_block (adj14 V c) (x14 V c) _ _ (t.val % 4) P p q (fun j J hJ => ?_) (fun j J hJ => ?_) (by omega)
  · exact iblk14_0_apply V c t (ix2 p j) (ix2 P J) hP (by show J.val = _; rw [hJ]; show _ = 2048 * (t.val % 4) + j.val; omega)
  · exact iblk14_1_apply V c t (ix2 j q) (ix2 J q) (by show J.val = _; rw [hJ]; show _ = 2048 * (t.val % 4) + j.val; omega) rfl

/-- At the first inner step the accumulator's payload is tile 0 of the entry. -/
theorem acc_first14 (c : Dev nD) (n : ℕ) (hn : n < cfg14.N) (h0 : n % 4 = 0) (p : Fin 2048) (q : Fin 256) (P : Fin 8192)
    (hP : P.val = 2048 * (n / 4) + p.val) :
    accP14 (F := Ideal) V c n hn (ix2 p q) = ∑ k ∈ Finset.range (n % 4 + 1), tileSum (adj14 V c) (x14 V c) 2048 P q k := by
  have e : _ = tileSum (adj14 V c) (x14 V c) 2048 P q (n % 4) := tile14 V c ⟨n, hn⟩ p q P hP
  have hf : accP14 (F := Ideal) V c n hn = _ := accP14_first (F := Ideal) V c ⟨n, hn⟩ h0
  rw [hf, k14_pay2_eq, k14_pay1_eq, k1_pay2_apply, k1_pay1_apply, zero_add]
  simp only [View.ld_unit_zero (S := S2048x2048) hz_14, View.ld_unit_zero (S := S2048x256) hz_14, View.ld_unit_zero (S := S2048x256) hz_14]
  rw [e, h0, Nat.zero_add, Finset.sum_range_one]

/-- At a later inner step it is what the step before left plus the step's tile. -/
theorem acc_step14 (c : Dev nD) (n : ℕ) (hn : n + 1 < cfg14.N) (h0 : ¬(n + 1) % 4 = 0) (p : Fin 2048) (q : Fin 256) (P : Fin 8192)
    (hP : P.val = 2048 * ((n + 1) / 4) + p.val)
    (ih : accP14 (F := Ideal) V c n (Nat.lt_of_succ_lt hn) (ix2 p q) = ∑ k ∈ Finset.range (n % 4 + 1), tileSum (adj14 V c) (x14 V c) 2048 P q k) :
    accP14 (F := Ideal) V c (n + 1) hn (ix2 p q) = ∑ k ∈ Finset.range ((n + 1) % 4 + 1), tileSum (adj14 V c) (x14 V c) 2048 P q k := by
  have e : _ = tileSum (adj14 V c) (x14 V c) 2048 P q ((n + 1) % 4) := tile14 V c ⟨n + 1, hn⟩ p q P hP
  have hs : accP14 (F := Ideal) V c (n + 1) hn = k14_pay2 (View.ld (acc14 (F := Ideal) V c n (Nat.lt_of_succ_lt hn)) r14_out)
      (View.ld (iblk14 V c 0 ⟨n + 1, hn⟩ : Vec Ideal S2048x2048 .bf16) r14_A) (View.ld (iblk14 V c 1 ⟨n + 1, hn⟩ : Vec Ideal S2048x256 .bf16) r14_X) :=
    accP14_step (F := Ideal) V c ⟨n + 1, hn⟩ h0
  have hmod : (n + 1) % 4 = n % 4 + 1 := by omega
  rw [hs, k14_pay2_eq, k1_pay2_apply]
  simp only [View.ld_unit_zero (S := S2048x2048) hz_14, View.ld_unit_zero (S := S2048x256) hz_14, View.ld_unit_zero (S := S2048x256) hz_14]
  rw [e]
  unfold acc14
  rw [View.canon_unit_zero hz_14, View.ld_unit_zero (S := S2048x256) hz_14, ih, hmod, Finset.sum_range_succ _ (n % 4 + 1)]

/-- After point `n` the accumulator's payload holds, at every entry of its rows, the tiles 0..(n mod 4) of the product. -/
theorem acc_inv14 (c : Dev nD) : ∀ (n : ℕ) (hn : n < cfg14.N) (p : Fin 2048) (q : Fin 256) (P : Fin 8192)
    (hP : P.val = 2048 * (n / 4) + p.val),
    accP14 (F := Ideal) V c n hn (ix2 p q) = ∑ k ∈ Finset.range (n % 4 + 1), tileSum (adj14 V c) (x14 V c) 2048 P q k := by
  intro n
  induction n with
  | zero => exact fun hn p q P hP => acc_first14 V c 0 hn (Nat.zero_mod _) p q P hP
  | succ n ih =>
    intro hn p q P hP
    by_cases h0 : (n + 1) % 4 = 0
    · exact acc_first14 V c (n + 1) hn h0 p q P hP
    · refine acc_step14 V c n hn h0 p q P hP (ih (Nat.lt_of_succ_lt hn) p q P ?_)
      rw [hP]
      have hd : (n + 1) / 4 = n / 4 := by omega
      rw [hd]

/-- An index of the output array is in point `t`'s block iff each coordinate is in the block's range on its axis. -/
theorem mem_blk14 (t : Fin cfg14.N) (i : S8192x256.Idx) :
    i ∈ ((cfg14.win 2).blk t).view.set ↔ ∀ a : Fin 2, win14_2.index t a * S2048x256.size a ≤ (i a).val ∧ (i a).val < win14_2.index t a * S2048x256.size a + S2048x256.size a := by
  show i ∈ ((View.whole main_v109).slice (win14_2.rect t)).set ↔ _
  rw [View.set_slice_whole, Rect.mem_set_unit]
  exact Iff.rfl

/-- What a storing point writes back is its block of rows of the normalised product. -/
theorem flushed14_eq (c : Dev nD) (t : Fin cfg14.N) (hf : (cfg14.win 2).flush t = true) :
    (dat14 (F := Ideal) V c).flushed 2 t = ((cfg14.win 2).blk t).view.read (Elt Ideal) (Cert.Lorentz.agg (n := 8192) (k := 8192) (adj14 V c) (x14 V c)) := by
  have hN : cfg14.N = 16 := N_14
  have ht := t.isLt
  have hlast : t.val % 4 = 3 := (flush14_2 t).mp hf
  obtain ⟨-, -, -, -, e0, e1⟩ := idx_facts14 t
  show (cfg14.win 2).cut (grid14.coords t) ((dat14 V c).after 2 t) = _
  rw [after14_2_last V c t hlast, View.canon_unit_zero hz_14]
  funext j
  show k14_pay3 (F := Ideal) (accP14 V c t.val t.isLt) j = (Cert.Lorentz.agg (n := 8192) (k := 8192) (adj14 V c) (x14 V c)) (((cfg14.win 2).blk t).view.emb j)
  rw [k14_pay3_eq, k1_pay3_apply]
  have hj0 : (j 0).val < 2048 := (j 0).isLt
  have hj1 : (j 1).val < 256 := (j 1).isLt
  have hE0 : ((((cfg14.win 2).blk t).view.emb j) 0).val = 2048 * (t.val / 4) + (j 0).val := by
    show win14_2.index t 0 * 2048 + 1 * (j 0).val = _; rw [e0]; omega
  have hE1 : ((((cfg14.win 2).blk t).view.emb j) 1).val = (j 1).val := by
    show win14_2.index t 1 * 256 + 1 * (j 1).val = _; rw [e1]; omega
  have hrows : ∀ q : Fin 256, rowsMul (n := 8192) (k := 8192) (c := 256) (adj14 V c) (x14 V c) (ix2 (rowOf (((cfg14.win 2).blk t).view.emb j)) q)
      = accP14 (F := Ideal) V c t.val t.isLt (ix2 (rowOf j) q) := by
    intro q
    rw [acc_inv14 V c t.val t.isLt (rowOf j) q (rowOf (((cfg14.win 2).blk t).view.emb j)) hE0, hlast]
    exact (sum_tileSum (adj14 V c) (x14 V c) 4 2048 (by norm_num) _ q).symm
  unfold Cert.Lorentz.agg
  exact (norm_rows (N := 8192) (n := 2048) _ _ _ j hE1 hrows).symm

/-- Every row of the output array is in the block some storing point writes back. -/
theorem cover14 (i : S8192x256.Idx) : ∃ t : Fin cfg14.N, (cfg14.win 2).flush t = true ∧ i ∈ ((cfg14.win 2).blk t).view.set := by
  have hN : cfg14.N = 16 := N_14
  have hi0 : (i 0).val < 8192 := (i 0).isLt
  have hi1 : (i 1).val < 256 := (i 1).isLt
  let t : Fin cfg14.N := ⟨(i 0).val / 2048 * 4 + 3, by rw [hN]; omega⟩
  have htv : t.val = (i 0).val / 2048 * 4 + 3 := rfl
  obtain ⟨-, -, -, -, e0, e1⟩ := idx_facts14 t
  refine ⟨t, (flush14_2 t).mpr (by rw [htv]; omega), ?_⟩
  rw [mem_blk14]
  intro a
  match a with
  | ⟨0, _⟩ => show win14_2.index t (0 : Fin 2) * 2048 ≤ (i 0).val ∧ (i 0).val < win14_2.index t (0 : Fin 2) * 2048 + 2048; rw [e0, htv]; omega
  | ⟨1, _⟩ => show win14_2.index t (1 : Fin 2) * 256 ≤ (i 1).val ∧ (i 1).val < win14_2.index t (1 : Fin 2) * 256 + 256; rw [e1]; omega

/-- The region's output array after the run: the Lorentz aggregation of the two arrays the region finds. -/
theorem agg_arrAt14 (c : Dev nD) : (dat14 (F := Ideal) V c).arrAt 2 cfg14.N = Cert.Lorentz.agg (n := 8192) (k := 8192) (adj14 V c) (x14 V c) :=
  (dat14 (F := Ideal) V c).arrAt_eq_of_cover 2 (Cert.Lorentz.agg (n := 8192) (k := 8192) (adj14 V c) (x14 V c)) (flushed14_eq V c) cover14

end Cert.KernelIdeal.Val

end
-- ==== Proof.Val.LinRegion15.lean ====
/-
  Region 15 of the program: a Lorentz linear layer over 8192 rows, computed in 4 blocks of 2048 rows.

  Every point of the grid runs the layer's body on rows 2048·t … 2048·t + 2047 of the input, with the whole weight
  matrix, bias row and scale, and writes the result back to the same rows of the output. The layer is a function of
  one row, so block t of the layer of the whole input is the layer of block t; the blocks cover the output, so after
  the run the output array holds the layer of the arrays the region found.
-/
import proofs.«103499_j73031623901527_2_alg».proof.Proof.KI.Lin15
import proofs.«103499_j73031623901527_2_alg».proof.Proof.Val.LinPay
import Idealize.ShloMosaic.Lib.Pipeline.Value

set_option maxRecDepth 16384

noncomputable section

namespace Cert.KernelIdeal.Val

open Cert.KernelIdeal Cert.KernelIdeal.Gen Cert.KernelIdeal.Hand Cert.Lorentz Cert.Sage Idealize.ShloMosaic Idealize.ShloMosaic.ValueIdx
open Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

theorem hz15 : (![0, 0] : Fin 2 → Nat) = fun _ => 0 := funext fun a => by fin_cases a <;> rfl

/-- The layer of the arrays region 15 finds: input rows, weights, bias row, scale. -/
def G15 (c : Dev nD) : S8192x256.Idx → EReal :=
  linear (n := 8192) (V c (Pipeline.arrRef spec15 0) : S8192x256.Idx → EReal) (V c (Pipeline.arrRef spec15 1) : S256x256.Idx → EReal)
    (rowVec (V c (Pipeline.arrRef spec15 2) : S1x256.Idx → EReal)) ((V c (Pipeline.arrRef spec15 3) : S1x1.Idx → EReal) (ix2 (0 : Fin 1) (0 : Fin 1)))

/-- The printed index maps, decided over the grid: the row windows are at block (t, 0), the others at block (0, 0). -/
theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 :=
  (by decide +kernel : ∀ t : Fin grid15.N, _)

/-- The input window's block at point t is rows 2048·t … of the input array. -/
theorem iblk15_0_apply (c : Dev nD) (t : Fin cfg15.N) (x : S2048x256.Idx) (k : S8192x256.Idx)
    (hk0 : (k 0).val = 2048 * t.val + (x 0).val) (hk1 : (k 1).val = (x 1).val) :
    (iblk15 V c 0 t : S2048x256.Idx → EReal) x = (V c (Pipeline.arrRef spec15 0) : S8192x256.Idx → EReal) k := by
  obtain ⟨e0, e1, -⟩ := idx_facts15 t
  unfold iblk15
  rw [View.read_apply]
  show (V c (Pipeline.arrRef spec15 0) : S8192x256.Idx → EReal) _ = _
  congr 1
  funext a
  apply Fin.ext
  match a with
  | ⟨0, _⟩ => show win15_0.index t (0 : Fin 2) * 2048 + 1 * (x 0).val = (k 0).val; rw [e0, hk0]; omega
  | ⟨1, _⟩ => show win15_0.index t (1 : Fin 2) * 256 + 1 * (x 1).val = (k 1).val; rw [e1, hk1]; omega

/-- The weights', bias row's and scale's windows are the whole arrays at every point. -/
theorem iblk15_1_eq (c : Dev nD) (t : Fin cfg15.N) :
    (iblk15 V c 1 t : S256x256.Idx → EReal) = (V c (Pipeline.arrRef spec15 1) : S256x256.Idx → EReal) := by
  obtain ⟨-, -, e0, e1, -⟩ := idx_facts15 t
  funext x
  unfold iblk15
  rw [View.read_apply]
  show (V c (Pipeline.arrRef spec15 1) : S256x256.Idx → EReal) _ = _
  congr 1
  funext a
  apply Fin.ext
  match a with
  | ⟨0, _⟩ => show win15_1.index t (0 : Fin 2) * 256 + 1 * (x 0).val = (x 0).val; rw [e0]; omega
  | ⟨1, _⟩ => show win15_1.index t (1 : Fin 2) * 256 + 1 * (x 1).val = (x 1).val; rw [e1]; omega

theorem iblk15_2_eq (c : Dev nD) (t : Fin cfg15.N) :
    (iblk15 V c 2 t : S1x256.Idx → EReal) = (V c (Pipeline.arrRef spec15 2) : S1x256.Idx → EReal) := by
  obtain ⟨-, -, -, -, e0, e1, -⟩ := idx_facts15 t
  funext x
  unfold iblk15
  rw [View.read_apply]
  show (V c (Pipeline.arrRef spec15 2) : S1x256.Idx → EReal) _ = _
  congr 1
  funext a
  apply Fin.ext
  match a with
  | ⟨0, _⟩ => show win15_2.index t (0 : Fin 2) * 1 + 1 * (x 0).val = (x 0).val; rw [e0]; omega
  | ⟨1, _⟩ => show win15_2.index t (1 : Fin 2) * 256 + 1 * (x 1).val = (x 1).val; rw [e1]; omega

theorem iblk15_3_eq (c : Dev nD) (t : Fin cfg15.N) :
    (iblk15 V c 3 t : S1x1.Idx → EReal) = (V c (Pipeline.arrRef spec15 3) : S1x1.Idx → EReal) := by
  obtain ⟨-, -, -, -, -, -, e0, e1, -⟩ := idx_facts15 t
  funext x
  unfold iblk15
  rw [View.read_apply]
  show (V c (Pipeline.arrRef spec15 3) : S1x1.Idx → EReal) _ = _
  congr 1
  funext a
  apply Fin.ext
  match a with
  | ⟨0, _⟩ => show win15_3.index t (0 : Fin 2) * 1 + 1 * (x 0).val = (x 0).val; rw [e0]; omega
  | ⟨1, _⟩ => show win15_3.index t (1 : Fin 2) * 1 + 1 * (x 1).val = (x 1).val; rw [e1]; omega

/-- What the body leaves at point t is the layer of the four blocks. -/
theorem out15_4_eq (x0 : Vec Ideal S2048x256 .bf16) (x1 : Vec Ideal S256x256 .bf16) (x2 : Vec Ideal S1x256 .f32) (x3 : Vec Ideal S1x1 .f32) :
    out15_4 (F := Ideal) x0 x1 x2 x3 = linear (n := 2048) x0 x1 (rowVec x2) (x3 (ix2 (0 : Fin 1) (0 : Fin 1))) := by
  unfold out15_4
  rw [View.canon_unit_zero hz15]
  simp only [View.ld_unit_zero (S := S2048x256) hz15, View.ld_unit_zero (S := S256x256) hz15, View.ld_unit_zero (S := S1x256) hz15,
    View.ld_unit_zero (S := S1x1) hz15]
  exact k0_pay1_eq x0 x1 x2 x3

/-- WHAT POINT t WRITES BACK is block t of the layer of the whole arrays. -/
theorem flushed15_eq (c : Dev nD) (t : Fin cfg15.N) :
    (dat15 (F := Ideal) V c).flushed 4 t = ((cfg15.win 4).blk t).view.read (Elt Ideal) (G15 V c) := by
  show (cfg15.win 4).cut (grid15.coords t) ((dat15 (F := Ideal) V c).after 4 t) = _
  rw [after15_4, out15_4_eq, iblk15_1_eq, iblk15_2_eq, iblk15_3_eq]
  obtain ⟨-, -, -, -, -, -, -, -, e0, e1⟩ := idx_facts15 t
  funext j
  show linear (n := 2048) (iblk15 V c 0 t : S2048x256.Idx → EReal) _ _ _ j = G15 V c (((cfg15.win 4).blk t).view.emb j)
  unfold G15
  have h0 : ((((cfg15.win 4).blk t).view.emb j : S8192x256.Idx) 0).val = 2048 * t.val + (j 0).val := by
    show win15_4.index t (0 : Fin 2) * 2048 + 1 * (j 0).val = _; rw [e0]; omega
  have h1 : ((((cfg15.win 4).blk t).view.emb j : S8192x256.Idx) 1).val = (j 1).val := by
    show win15_4.index t (1 : Fin 2) * 256 + 1 * (j 1).val = _; rw [e1]; omega
  refine (linear_rows (N := 8192) (n := 2048) _ _ _ _ _ (((cfg15.win 4).blk t).view.emb j) j h1 fun q => ?_).symm
  exact (iblk15_0_apply V c t (ix2 (rowOf j) q) (ix2 (rowOf (((cfg15.win 4).blk t).view.emb j : S8192x256.Idx)) q) h0 rfl).symm

/-- An index of the output array is in point t's block iff each coordinate is in the block's range on its axis. -/
theorem mem_blk15 (t : Fin cfg15.N) (i : S8192x256.Idx) :
    i ∈ ((cfg15.win 4).blk t).view.set ↔ ∀ a : Fin 2, win15_4.index t a * S2048x256.size a ≤ (i a).val ∧ (i a).val < win15_4.index t a * S2048x256.size a + S2048x256.size a := by
  show i ∈ ((View.whole main_v121).slice (win15_4.rect t)).set ↔ _
  rw [View.set_slice_whole, Rect.mem_set_unit]
  exact Iff.rfl

/-- THE ARRAY after the run: the layer of the arrays the region found. -/
theorem lin_arrAt15_G (c : Dev nD) : (dat15 (F := Ideal) V c).arrAt 4 cfg15.N = G15 V c := by
  refine (dat15 (F := Ideal) V c).arrAt_eq_of_cover 4 (G15 V c) (fun t _ => flushed15_eq V c t) fun i => ?_
  have hi0 : (i 0).val < 8192 := (i 0).isLt
  have hi1 : (i 1).val < 256 := (i 1).isLt
  refine ⟨⟨(i 0).val / 2048, by show (i 0).val / 2048 < 4; omega⟩, flush15_4 _, ?_⟩
  rw [mem_blk15]
  obtain ⟨-, -, -, -, -, -, -, -, e0, e1⟩ := idx_facts15 ⟨(i 0).val / 2048, by show (i 0).val / 2048 < 4; omega⟩
  intro a
  match a with
  | ⟨0, _⟩ =>
    show win15_4.index _ (0 : Fin 2) * 2048 ≤ (i 0).val ∧ (i 0).val < win15_4.index _ (0 : Fin 2) * 2048 + 2048
    rw [e0]; show (i 0).val / 2048 * 2048 ≤ (i 0).val ∧ (i 0).val < (i 0).val / 2048 * 2048 + 2048; omega
  | ⟨1, _⟩ =>
    show win15_4.index _ (1 : Fin 2) * 256 ≤ (i 1).val ∧ (i 1).val < win15_4.index _ (1 : Fin 2) * 256 + 256
    rw [e1]; omega

/-- The same, with the layer written out. -/
theorem lin_arrAt15 (c : Dev nD) : (dat15 (F := Ideal) V c).arrAt 4 cfg15.N
    = linear (n := 8192) (V c (Pipeline.arrRef spec15 0) : S8192x256.Idx → EReal) (V c (Pipeline.arrRef spec15 1) : S256x256.Idx → EReal)
        (rowVec (V c (Pipeline.arrRef spec15 2) : S1x256.Idx → EReal))
        ((V c (Pipeline.arrRef spec15 3) : S1x1.Idx → EReal) (ix2 (0 : Fin 1) (0 : Fin 1))) :=
  lin_arrAt15_G V c

end Cert.KernelIdeal.Val

end
-- ==== Proof.Val.AggRegion16.lean ====
/-
  The aggregation region 16: what its output array holds after the run, as one function of the two arrays the region
  finds.

  The grid is 4 row tiles by 4 tiles of the contracted axis, the contracted axis innermost.  At inner step k of row
  tile i the accumulator receives the product of block (i, k) of the adjacency with block k of the features; by
  induction on the point it holds the sum of the tiles 0..k of the entries of its rows, and after the last inner step
  the whole row-column product.  The output block of row tile i is stored then, every row divided by its Lorentz
  norm, which looks at one row only; the 4 row tiles cover the array.
-/
import proofs.«103499_j73031623901527_2_alg».proof.Proof.KI.AggDef16
import proofs.«103499_j73031623901527_2_alg».proof.Proof.Val.AggPay
import proofs.«103499_j73031623901527_2_alg».proof.Proof.Val.AggTiles
import Idealize.ShloMosaic.Lib.Pipeline.Value

set_option maxRecDepth 65536

noncomputable section

namespace Cert.KernelIdeal.Val

open Cert.KernelIdeal Cert.KernelIdeal.Gen Cert.KernelIdeal.Hand Cert.Lorentz Cert.Sage
open Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

theorem hz_16 : (![0, 0] : Fin 2 → Nat) = fun _ => 0 := funext fun a => by fin_cases a <;> rfl

/-- The adjacency and the features as the region finds them. -/
abbrev adj16 (c : Dev nD) : Arr2 8192 8192 := V c (Pipeline.arrRef spec16 0)
abbrev x16 (c : Dev nD) : Arr2 8192 256 := V c (Pipeline.arrRef spec16 1)

/-- The printed index maps over the grid: the adjacency's block is (row tile, inner step), the features' block is
    (inner step, 0), the output's block is (row tile, 0); the point number is row tile × 4 + inner step. -/
theorem idx_facts16 : ∀ t : Fin cfg16.N, win16_0.index t (0 : Fin 2) = t.val / 4 ∧ win16_0.index t (1 : Fin 2) = t.val % 4
    ∧ win16_1.index t (0 : Fin 2) = t.val % 4 ∧ win16_1.index t (1 : Fin 2) = 0
    ∧ win16_2.index t (0 : Fin 2) = t.val / 4 ∧ win16_2.index t (1 : Fin 2) = 0 :=
  (by decide +kernel : ∀ t : Fin grid16.N, _)

/-- The adjacency's block at point `t`, entry by entry. -/
theorem iblk16_0_apply (c : Dev nD) (t : Fin cfg16.N) (x : S2048x2048.Idx) (k : S8192x8192.Idx)
    (hk0 : (k 0).val = 2048 * (t.val / 4) + (x 0).val) (hk1 : (k 1).val = 2048 * (t.val % 4) + (x 1).val) :
    (iblk16 V c 0 t : Vec Ideal S2048x2048 .bf16) x = (V c (Pipeline.arrRef spec16 0) : S8192x8192.Idx → EReal) k := by
  obtain ⟨e0, e1, -, -, -, -⟩ := idx_facts16 t
  unfold iblk16
  rw [View.read_apply]
  show V c (Pipeline.arrRef spec16 0) _ = V c (Pipeline.arrRef spec16 0) _
  congr 1
  funext a
  apply Fin.ext
  match a with
  | ⟨0, _⟩ => show win16_0.index t 0 * 2048 + 1 * (x 0).val = (k 0).val; rw [e0, hk0]; omega
  | ⟨1, _⟩ => show win16_0.index t 1 * 2048 + 1 * (x 1).val = (k 1).val; rw [e1, hk1]; omega

/-- The features' block at point `t`, entry by entry. -/
theorem iblk16_1_apply (c : Dev nD) (t : Fin cfg16.N) (x : S2048x256.Idx) (k : S8192x256.Idx)
    (hk0 : (k 0).val = 2048 * (t.val % 4) + (x 0).val) (hk1 : (k 1).val = (x 1).val) :
    (iblk16 V c 1 t : Vec Ideal S2048x256 .bf16) x = (V c (Pipeline.arrRef spec16 1) : S8192x256.Idx → EReal) k := by
  obtain ⟨-, -, e0, e1, -, -⟩ := idx_facts16 t
  unfold iblk16
  rw [View.read_apply]
  show V c (Pipeline.arrRef spec16 1) _ = V c (Pipeline.arrRef spec16 1) _
  congr 1
  funext a
  apply Fin.ext
  match a with
  | ⟨0, _⟩ => show win16_1.index t 0 * 2048 + 1 * (x 0).val = (k 0).val; rw [e0, hk0]; omega
  | ⟨1, _⟩ => show win16_1.index t 1 * 256 + 1 * (x 1).val = (k 1).val; rw [e1, hk1]; omega

/-- The product of the point's two blocks is the point's tile of the whole product's entry. -/
theorem tile16 (c : Dev nD) (t : Fin cfg16.N) (p : Fin 2048) (q : Fin 256) (P : Fin 8192)
    (hP : P.val = 2048 * (t.val / 4) + p.val) :
    rowsMul (n := 2048) (k := 2048) (c := 256) (iblk16 V c 0 t : Vec Ideal S2048x2048 .bf16) (iblk16 V c 1 t : Vec Ideal S2048x256 .bf16) (ix2 p q)
      = tileSum (adj16 V c) (x16 V c) 2048 P q (t.val % 4) := by
  have hN : cfg16.N = 16 := N_16
  have ht := t.isLt
  refine rowsMul_block (adj16 V c) (x16 V c) _ _ (t.val % 4) P p q (fun j J hJ => ?_) (fun j J hJ => ?_) (by omega)
  · exact iblk16_0_apply V c t (ix2 p j) (ix2 P J) hP (by show J.val = _; rw [hJ]; show _ = 2048 * (t.val % 4) + j.val; omega)
  · exact iblk16_1_apply V c t (ix2 j q) (ix2 J q) (by show J.val = _; rw [hJ]; show _ = 2048 * (t.val % 4) + j.val; omega) rfl

/-- At the first inner step the accumulator's payload is tile 0 of the entry. -/
theorem acc_first16 (c : Dev nD) (n : ℕ) (hn : n < cfg16.N) (h0 : n % 4 = 0) (p : Fin 2048) (q : Fin 256) (P : Fin 8192)
    (hP : P.val = 2048 * (n / 4) + p.val) :
    accP16 (F := Ideal) V c n hn (ix2 p q) = ∑ k ∈ Finset.range (n % 4 + 1), tileSum (adj16 V c) (x16 V c) 2048 P q k := by
  have e : _ = tileSum (adj16 V c) (x16 V c) 2048 P q (n % 4) := tile16 V c ⟨n, hn⟩ p q P hP
  have hf : accP16 (F := Ideal) V c n hn = _ := accP16_first (F := Ideal) V c ⟨n, hn⟩ h0
  rw [hf, k16_pay2_eq, k16_pay1_eq, k1_pay2_apply, k1_pay1_apply, zero_add]
  simp only [View.ld_unit_zero (S := S2048x2048) hz_16, View.ld_unit_zero (S := S2048x256) hz_16, View.ld_unit_zero (S := S2048x256) hz_16]
  rw [e, h0, Nat.zero_add, Finset.sum_range_one]

/-- At a later inner step it is what the step before left plus the step's tile. -/
theorem acc_step16 (c : Dev nD) (n : ℕ) (hn : n + 1 < cfg16.N) (h0 : ¬(n + 1) % 4 = 0) (p : Fin 2048) (q : Fin 256) (P : Fin 8192)
    (hP : P.val = 2048 * ((n + 1) / 4) + p.val)
    (ih : accP16 (F := Ideal) V c n (Nat.lt_of_succ_lt hn) (ix2 p q) = ∑ k ∈ Finset.range (n % 4 + 1), tileSum (adj16 V c) (x16 V c) 2048 P q k) :
    accP16 (F := Ideal) V c (n + 1) hn (ix2 p q) = ∑ k ∈ Finset.range ((n + 1) % 4 + 1), tileSum (adj16 V c) (x16 V c) 2048 P q k := by
  have e : _ = tileSum (adj16 V c) (x16 V c) 2048 P q ((n + 1) % 4) := tile16 V c ⟨n + 1, hn⟩ p q P hP
  have hs : accP16 (F := Ideal) V c (n + 1) hn = k16_pay2 (View.ld (acc16 (F := Ideal) V c n (Nat.lt_of_succ_lt hn)) r16_out)
      (View.ld (iblk16 V c 0 ⟨n + 1, hn⟩ : Vec Ideal S2048x2048 .bf16) r16_A) (View.ld (iblk16 V c 1 ⟨n + 1, hn⟩ : Vec Ideal S2048x256 .bf16) r16_X) :=
    accP16_step (F := Ideal) V c ⟨n + 1, hn⟩ h0
  have hmod : (n + 1) % 4 = n % 4 + 1 := by omega
  rw [hs, k16_pay2_eq, k1_pay2_apply]
  simp only [View.ld_unit_zero (S := S2048x2048) hz_16, View.ld_unit_zero (S := S2048x256) hz_16, View.ld_unit_zero (S := S2048x256) hz_16]
  rw [e]
  unfold acc16
  rw [View.canon_unit_zero hz_16, View.ld_unit_zero (S := S2048x256) hz_16, ih, hmod, Finset.sum_range_succ _ (n % 4 + 1)]

/-- After point `n` the accumulator's payload holds, at every entry of its rows, the tiles 0..(n mod 4) of the product. -/
theorem acc_inv16 (c : Dev nD) : ∀ (n : ℕ) (hn : n < cfg16.N) (p : Fin 2048) (q : Fin 256) (P : Fin 8192)
    (hP : P.val = 2048 * (n / 4) + p.val),
    accP16 (F := Ideal) V c n hn (ix2 p q) = ∑ k ∈ Finset.range (n % 4 + 1), tileSum (adj16 V c) (x16 V c) 2048 P q k := by
  intro n
  induction n with
  | zero => exact fun hn p q P hP => acc_first16 V c 0 hn (Nat.zero_mod _) p q P hP
  | succ n ih =>
    intro hn p q P hP
    by_cases h0 : (n + 1) % 4 = 0
    · exact acc_first16 V c (n + 1) hn h0 p q P hP
    · refine acc_step16 V c n hn h0 p q P hP (ih (Nat.lt_of_succ_lt hn) p q P ?_)
      rw [hP]
      have hd : (n + 1) / 4 = n / 4 := by omega
      rw [hd]

/-- An index of the output array is in point `t`'s block iff each coordinate is in the block's range on its axis. -/
theorem mem_blk16 (t : Fin cfg16.N) (i : S8192x256.Idx) :
    i ∈ ((cfg16.win 2).blk t).view.set ↔ ∀ a : Fin 2, win16_2.index t a * S2048x256.size a ≤ (i a).val ∧ (i a).val < win16_2.index t a * S2048x256.size a + S2048x256.size a := by
  show i ∈ ((View.whole main_v123).slice (win16_2.rect t)).set ↔ _
  rw [View.set_slice_whole, Rect.mem_set_unit]
  exact Iff.rfl

/-- What a storing point writes back is its block of rows of the normalised product. -/
theorem flushed16_eq (c : Dev nD) (t : Fin cfg16.N) (hf : (cfg16.win 2).flush t = true) :
    (dat16 (F := Ideal) V c).flushed 2 t = ((cfg16.win 2).blk t).view.read (Elt Ideal) (Cert.Lorentz.agg (n := 8192) (k := 8192) (adj16 V c) (x16 V c)) := by
  have hN : cfg16.N = 16 := N_16
  have ht := t.isLt
  have hlast : t.val % 4 = 3 := (flush16_2 t).mp hf
  obtain ⟨-, -, -, -, e0, e1⟩ := idx_facts16 t
  show (cfg16.win 2).cut (grid16.coords t) ((dat16 V c).after 2 t) = _
  rw [after16_2_last V c t hlast, View.canon_unit_zero hz_16]
  funext j
  show k16_pay3 (F := Ideal) (accP16 V c t.val t.isLt) j = (Cert.Lorentz.agg (n := 8192) (k := 8192) (adj16 V c) (x16 V c)) (((cfg16.win 2).blk t).view.emb j)
  rw [k16_pay3_eq, k1_pay3_apply]
  have hj0 : (j 0).val < 2048 := (j 0).isLt
  have hj1 : (j 1).val < 256 := (j 1).isLt
  have hE0 : ((((cfg16.win 2).blk t).view.emb j) 0).val = 2048 * (t.val / 4) + (j 0).val := by
    show win16_2.index t 0 * 2048 + 1 * (j 0).val = _; rw [e0]; omega
  have hE1 : ((((cfg16.win 2).blk t).view.emb j) 1).val = (j 1).val := by
    show win16_2.index t 1 * 256 + 1 * (j 1).val = _; rw [e1]; omega
  have hrows : ∀ q : Fin 256, rowsMul (n := 8192) (k := 8192) (c := 256) (adj16 V c) (x16 V c) (ix2 (rowOf (((cfg16.win 2).blk t).view.emb j)) q)
      = accP16 (F := Ideal) V c t.val t.isLt (ix2 (rowOf j) q) := by
    intro q
    rw [acc_inv16 V c t.val t.isLt (rowOf j) q (rowOf (((cfg16.win 2).blk t).view.emb j)) hE0, hlast]
    exact (sum_tileSum (adj16 V c) (x16 V c) 4 2048 (by norm_num) _ q).symm
  unfold Cert.Lorentz.agg
  exact (norm_rows (N := 8192) (n := 2048) _ _ _ j hE1 hrows).symm

/-- Every row of the output array is in the block some storing point writes back. -/
theorem cover16 (i : S8192x256.Idx) : ∃ t : Fin cfg16.N, (cfg16.win 2).flush t = true ∧ i ∈ ((cfg16.win 2).blk t).view.set := by
  have hN : cfg16.N = 16 := N_16
  have hi0 : (i 0).val < 8192 := (i 0).isLt
  have hi1 : (i 1).val < 256 := (i 1).isLt
  let t : Fin cfg16.N := ⟨(i 0).val / 2048 * 4 + 3, by rw [hN]; omega⟩
  have htv : t.val = (i 0).val / 2048 * 4 + 3 := rfl
  obtain ⟨-, -, -, -, e0, e1⟩ := idx_facts16 t
  refine ⟨t, (flush16_2 t).mpr (by rw [htv]; omega), ?_⟩
  rw [mem_blk16]
  intro a
  match a with
  | ⟨0, _⟩ => show win16_2.index t (0 : Fin 2) * 2048 ≤ (i 0).val ∧ (i 0).val < win16_2.index t (0 : Fin 2) * 2048 + 2048; rw [e0, htv]; omega
  | ⟨1, _⟩ => show win16_2.index t (1 : Fin 2) * 256 ≤ (i 1).val ∧ (i 1).val < win16_2.index t (1 : Fin 2) * 256 + 256; rw [e1]; omega

/-- The region's output array after the run: the Lorentz aggregation of the two arrays the region finds. -/
theorem agg_arrAt16 (c : Dev nD) : (dat16 (F := Ideal) V c).arrAt 2 cfg16.N = Cert.Lorentz.agg (n := 8192) (k := 8192) (adj16 V c) (x16 V c) :=
  (dat16 (F := Ideal) V c).arrAt_eq_of_cover 2 (Cert.Lorentz.agg (n := 8192) (k := 8192) (adj16 V c) (x16 V c)) (flushed16_eq V c) cover16

end Cert.KernelIdeal.Val

end
-- ==== Proof.Val.BridgeC.lean ====
/- The kernel side of the value bridge, the hyperedge side: region 12 (both halves at once), the two graph layers
   (regions 13 to 16), the last stretch's row blocks of the node embeddings; the result buffers at the return. -/
import proofs.«103499_j73031623901527_2_alg».proof.Proof.Val.BridgeB2
import proofs.«103499_j73031623901527_2_alg».proof.Proof.Val.AggRegion12
import proofs.«103499_j73031623901527_2_alg».proof.Proof.Val.LinRegion13
import proofs.«103499_j73031623901527_2_alg».proof.Proof.Val.AggRegion14
import proofs.«103499_j73031623901527_2_alg».proof.Proof.Val.LinRegion15
import proofs.«103499_j73031623901527_2_alg».proof.Proof.Val.AggRegion16

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-- `main_v58` is not written between boundaries 13 and 24. -/
theorem val_v58_24 : (W24 m ρ c (Proc.devRef .tc main_v58) : S16384x256.Idx → EReal) = mLG m c := by
  have hk : W24 m ρ c (Proc.devRef .tc main_v58) = W13 m ρ c (Proc.devRef .tc main_v58) :=
    (W24_of_ne m ρ c main_v58 (by decide)).trans ((W23_of m ρ c main_v58 (by decide)).trans ((W22_of_ne m ρ c main_v58 (by decide)).trans ((W21_of m ρ c main_v58 (by decide)).trans ((W20_of_ne m ρ c main_v58 (by decide)).trans ((W19_of m ρ c main_v58 (by decide)).trans ((W18_of_ne m ρ c main_v58 (by decide)).trans ((W17_of m ρ c main_v58 (by decide)).trans ((W16_of_ne m ρ c main_v58 (by decide)).trans ((W15_of m ρ c main_v58 (by decide)).trans ((W14_of_ne m ρ c main_v58 (by decide))))))))))))
  rw [hk]; exact val_v58_13 m ρ c

/-- The node embeddings and the second gated copy side by side. -/
theorem val_v92_25 : (W25 m ρ c (Proc.devRef .tc main_v92) : S16384x512.Idx → EReal) = mB12 m c := by
  after_results
  rw [val_v90_24, val_v58_24]
  refine Eq.trans (truncf_ideal _ _) ?_
  exact concat_beside _ _ _

/-- `main_v1` is not written between boundaries 1 and 25. -/
theorem val_v1_25 : (W25 m ρ c (Proc.devRef .tc main_v1) : S8192x16384.Idx → EReal) = tr (aH m c) := by
  have hk : W25 m ρ c (Proc.devRef .tc main_v1) = W1 m ρ c (Proc.devRef .tc main_v1) :=
    (W25_of m ρ c main_v1 (by decide)).trans ((W24_of_ne m ρ c main_v1 (by decide)).trans ((W23_of m ρ c main_v1 (by decide)).trans (((W22_arr m ρ c 0).trans (((dat10 (F := Ideal) (V21 m ρ) c).arrAt_in 0 rfl _).trans (A_eq10 (V21 m ρ) c 0))).trans ((W21_of m ρ c main_v1 (by decide)).trans ((W20_of_ne m ρ c main_v1 (by decide)).trans ((W19_of m ρ c main_v1 (by decide)).trans ((W18_of_ne m ρ c main_v1 (by decide)).trans ((W17_of m ρ c main_v1 (by decide)).trans (((W16_arr m ρ c 0).trans (((dat7 (F := Ideal) (V15 m ρ) c).arrAt_in 0 rfl _).trans (A_eq7 (V15 m ρ) c 0))).trans ((W15_of m ρ c main_v1 (by decide)).trans ((W14_of_ne m ρ c main_v1 (by decide)).trans ((W13_of m ρ c main_v1 (by decide)).trans ((W12_of_ne m ρ c main_v1 (by decide)).trans ((W11_of m ρ c main_v1 (by decide)).trans ((W10_of_ne m ρ c main_v1 (by decide)).trans ((W9_of m ρ c main_v1 (by decide)).trans ((W8_of_ne m ρ c main_v1 (by decide)).trans ((W7_of m ρ c main_v1 (by decide)).trans ((W6_of_ne m ρ c main_v1 (by decide)).trans ((W5_of m ρ c main_v1 (by decide)).trans ((W4_of_ne m ρ c main_v1 (by decide)).trans ((W3_of m ρ c main_v1 (by decide)).trans ((W2_of_ne m ρ c main_v1 (by decide)))))))))))))))))))))))))
  rw [hk]; exact val_v1_1 m ρ c

/-- Region 12 leaves the aggregation of its operands in `main_v93`. -/
theorem val_v93_26 : (W26 m ρ c (Proc.devRef .tc main_v93) : S8192x512.Idx → EReal) = mN12 m c := by
  have h1 : (W26 m ρ c (Proc.devRef .tc main_v93) : S8192x512.Idx → EReal) = (dat12 (F := Ideal) (V25 m ρ) c).arrAt 2 cfg12.N := W26_arr m ρ c 2
  have h2 : (dat12 (F := Ideal) (V25 m ρ) c).arrAt 2 cfg12.N = norm2 (n := 8192) (rowsMul (n := 8192) (k := 16384) (c := 512) (W25 m ρ c (Proc.devRef .tc main_v1) : S8192x16384.Idx → EReal) (W25 m ρ c (Proc.devRef .tc main_v92) : S16384x512.Idx → EReal)) := agg_arrAt12 (V25 m ρ) c
  rw [h1, h2, val_v1_25, val_v92_25]

/-- The left half of region 12's result: the hyperedge representation. -/
theorem val_v94_27 : (W27 m ρ c (Proc.devRef .tc main_v94) : S8192x256.Idx → EReal) = mR1 m c := by
  after_results
  rw [val_v93_26]
  exact (slice_leftHalf _ _).trans (leftHalf_agg2 _ _ _)

/-- The right half: the second gated copy carried to the hyperedges. -/
theorem val_v102_27 : (W27 m ρ c (Proc.devRef .tc main_v102) : S8192x256.Idx → EReal) = mP13 m c := by
  after_results
  rw [val_v93_26]
  refine Eq.trans (truncf_ideal _ _) ?_
  exact (slice_rightHalf _ _).trans (rightHalf_agg2 _ _ _)

theorem arg_15_26 : W26 m ρ c (Proc.devRef .tc main_arg15) = m ((c : Thread nD τ).loc main_arg15) :=
  ((W26_of_ne m ρ c main_arg15 (by decide)).trans ((W25_of m ρ c main_arg15 (by decide)).trans ((W24_of_ne m ρ c main_arg15 (by decide)).trans ((W23_of m ρ c main_arg15 (by decide)).trans ((W22_of_ne m ρ c main_arg15 (by decide)).trans ((W21_of m ρ c main_arg15 (by decide)).trans ((W20_of_ne m ρ c main_arg15 (by decide)).trans ((W19_of m ρ c main_arg15 (by decide)).trans ((W18_of_ne m ρ c main_arg15 (by decide)).trans ((W17_of m ρ c main_arg15 (by decide)).trans ((W16_of_ne m ρ c main_arg15 (by decide)).trans ((W15_of m ρ c main_arg15 (by decide)).trans ((W14_of_ne m ρ c main_arg15 (by decide)).trans ((W13_of m ρ c main_arg15 (by decide)).trans ((W12_of_ne m ρ c main_arg15 (by decide)).trans ((W11_of m ρ c main_arg15 (by decide)).trans ((W10_of_ne m ρ c main_arg15 (by decide)).trans ((W9_of m ρ c main_arg15 (by decide)).trans ((W8_of_ne m ρ c main_arg15 (by decide)).trans ((W7_of m ρ c main_arg15 (by decide)).trans ((W6_of_ne m ρ c main_arg15 (by decide)).trans ((W5_of m ρ c main_arg15 (by decide)).trans ((W4_of_ne m ρ c main_arg15 (by decide)).trans ((W3_of m ρ c main_arg15 (by decide)).trans ((W2_of_ne m ρ c main_arg15 (by decide)).trans ((W1_of m ρ c main_arg15 (by decide)))))))))))))))))))))))))))).trans rfl

theorem arg_16_26 : W26 m ρ c (Proc.devRef .tc main_arg16) = m ((c : Thread nD τ).loc main_arg16) :=
  ((W26_of_ne m ρ c main_arg16 (by decide)).trans ((W25_of m ρ c main_arg16 (by decide)).trans ((W24_of_ne m ρ c main_arg16 (by decide)).trans ((W23_of m ρ c main_arg16 (by decide)).trans ((W22_of_ne m ρ c main_arg16 (by decide)).trans ((W21_of m ρ c main_arg16 (by decide)).trans ((W20_of_ne m ρ c main_arg16 (by decide)).trans ((W19_of m ρ c main_arg16 (by decide)).trans ((W18_of_ne m ρ c main_arg16 (by decide)).trans ((W17_of m ρ c main_arg16 (by decide)).trans ((W16_of_ne m ρ c main_arg16 (by decide)).trans ((W15_of m ρ c main_arg16 (by decide)).trans ((W14_of_ne m ρ c main_arg16 (by decide)).trans ((W13_of m ρ c main_arg16 (by decide)).trans ((W12_of_ne m ρ c main_arg16 (by decide)).trans ((W11_of m ρ c main_arg16 (by decide)).trans ((W10_of_ne m ρ c main_arg16 (by decide)).trans ((W9_of m ρ c main_arg16 (by decide)).trans ((W8_of_ne m ρ c main_arg16 (by decide)).trans ((W7_of m ρ c main_arg16 (by decide)).trans ((W6_of_ne m ρ c main_arg16 (by decide)).trans ((W5_of m ρ c main_arg16 (by decide)).trans ((W4_of_ne m ρ c main_arg16 (by decide)).trans ((W3_of m ρ c main_arg16 (by decide)).trans ((W2_of_ne m ρ c main_arg16 (by decide)).trans ((W1_of m ρ c main_arg16 (by decide)))))))))))))))))))))))))))).trans rfl

theorem arg_17_26 : W26 m ρ c (Proc.devRef .tc main_arg17) = m ((c : Thread nD τ).loc main_arg17) :=
  ((W26_of_ne m ρ c main_arg17 (by decide)).trans ((W25_of m ρ c main_arg17 (by decide)).trans ((W24_of_ne m ρ c main_arg17 (by decide)).trans ((W23_of m ρ c main_arg17 (by decide)).trans ((W22_of_ne m ρ c main_arg17 (by decide)).trans ((W21_of m ρ c main_arg17 (by decide)).trans ((W20_of_ne m ρ c main_arg17 (by decide)).trans ((W19_of m ρ c main_arg17 (by decide)).trans ((W18_of_ne m ρ c main_arg17 (by decide)).trans ((W17_of m ρ c main_arg17 (by decide)).trans ((W16_of_ne m ρ c main_arg17 (by decide)).trans ((W15_of m ρ c main_arg17 (by decide)).trans ((W14_of_ne m ρ c main_arg17 (by decide)).trans ((W13_of m ρ c main_arg17 (by decide)).trans ((W12_of_ne m ρ c main_arg17 (by decide)).trans ((W11_of m ρ c main_arg17 (by decide)).trans ((W10_of_ne m ρ c main_arg17 (by decide)).trans ((W9_of m ρ c main_arg17 (by decide)).trans ((W8_of_ne m ρ c main_arg17 (by decide)).trans ((W7_of m ρ c main_arg17 (by decide)).trans ((W6_of_ne m ρ c main_arg17 (by decide)).trans ((W5_of m ρ c main_arg17 (by decide)).trans ((W4_of_ne m ρ c main_arg17 (by decide)).trans ((W3_of m ρ c main_arg17 (by decide)).trans ((W2_of_ne m ρ c main_arg17 (by decide)).trans ((W1_of m ρ c main_arg17 (by decide)))))))))))))))))))))))))))).trans rfl

/-- Matrix 0 of the stack, sliced out and recast. -/
theorem val_v103_27 : (W27 m ρ c (Proc.devRef .tc main_v103) : S256x256.Idx → EReal) = layerW (aWg m c) 0 := by
  after_results
  rw [arg_15_26]
  refine Eq.trans (truncf_ideal _ _) ?_
  exact slice_layerW _ 0 0 rfl _ _

/-- Bias row 0 of the stack, sliced out and recast as one row. -/
theorem val_v104_27 : rowVec (W27 m ρ c (Proc.devRef .tc main_v104) : S1x256.Idx → EReal) = layerB (aBg m c) 0 := by
  after_results
  rw [arg_16_26]
  exact (rowVec_shapeCast _ _).trans (slice_layerB _ 0 0 rfl _ _)

/-- The exponential of log-scale 0 of the stack. -/
theorem val_v106_27 : (W27 m ρ c (Proc.devRef .tc main_v106) : S1x1.Idx → EReal) (ix2 (0 : Fin 1) (0 : Fin 1)) = layerS (aSg m c) 0 := by
  after_results
  rw [arg_17_26]
  exact (shapeCast_scalar_11 _ _).trans (slice_layerS _ 0 0 rfl _ _)

/-- Region 13 leaves the Lorentz linear layer of its operands in `main_v107`. -/
theorem val_v107_28 : (W28 m ρ c (Proc.devRef .tc main_v107) : S8192x256.Idx → EReal) = mL13 m c := by
  have h1 : (W28 m ρ c (Proc.devRef .tc main_v107) : S8192x256.Idx → EReal) = (dat13 (F := Ideal) (V27 m ρ) c).arrAt 4 cfg13.N := W28_arr m ρ c 4
  have h2 : (dat13 (F := Ideal) (V27 m ρ) c).arrAt 4 cfg13.N = linear (n := 8192) (W27 m ρ c (Proc.devRef .tc main_v102) : S8192x256.Idx → EReal) (W27 m ρ c (Proc.devRef .tc main_v103) : S256x256.Idx → EReal)
      (rowVec (W27 m ρ c (Proc.devRef .tc main_v104) : S1x256.Idx → EReal)) ((W27 m ρ c (Proc.devRef .tc main_v106) : S1x1.Idx → EReal) (ix2 (0 : Fin 1) (0 : Fin 1))) := lin_arrAt13 (V27 m ρ) c
  rw [h1, h2, val_v102_27, val_v103_27, val_v104_27, val_v106_27]

/-- `main_v108` is `main_v107` (the rounding to the narrower format is the identity on the reals). -/
theorem val_v108_29 : (W29 m ρ c (Proc.devRef .tc main_v108) : S8192x256.Idx → EReal) = mL13 m c := by
  have h : (W29 m ρ c (Proc.devRef .tc main_v108) : S8192x256.Idx → EReal) = (W28 m ρ c (Proc.devRef .tc main_v107) : S8192x256.Idx → EReal) := by
    after_results; rfl
  exact h.trans (val_v107_28 m ρ c)

/-- `main_v2` is not written between boundaries 1 and 29. -/
theorem val_v2_29 : (W29 m ρ c (Proc.devRef .tc main_v2) : S8192x8192.Idx → EReal) = aA m c := by
  have hk : W29 m ρ c (Proc.devRef .tc main_v2) = W1 m ρ c (Proc.devRef .tc main_v2) :=
    (W29_of m ρ c main_v2 (by decide)).trans ((W28_of_ne m ρ c main_v2 (by decide)).trans ((W27_of m ρ c main_v2 (by decide)).trans ((W26_of_ne m ρ c main_v2 (by decide)).trans ((W25_of m ρ c main_v2 (by decide)).trans ((W24_of_ne m ρ c main_v2 (by decide)).trans ((W23_of m ρ c main_v2 (by decide)).trans ((W22_of_ne m ρ c main_v2 (by decide)).trans ((W21_of m ρ c main_v2 (by decide)).trans ((W20_of_ne m ρ c main_v2 (by decide)).trans ((W19_of m ρ c main_v2 (by decide)).trans ((W18_of_ne m ρ c main_v2 (by decide)).trans ((W17_of m ρ c main_v2 (by decide)).trans ((W16_of_ne m ρ c main_v2 (by decide)).trans ((W15_of m ρ c main_v2 (by decide)).trans ((W14_of_ne m ρ c main_v2 (by decide)).trans ((W13_of m ρ c main_v2 (by decide)).trans ((W12_of_ne m ρ c main_v2 (by decide)).trans ((W11_of m ρ c main_v2 (by decide)).trans ((W10_of_ne m ρ c main_v2 (by decide)).trans ((W9_of m ρ c main_v2 (by decide)).trans ((W8_of_ne m ρ c main_v2 (by decide)).trans ((W7_of m ρ c main_v2 (by decide)).trans ((W6_of_ne m ρ c main_v2 (by decide)).trans ((W5_of m ρ c main_v2 (by decide)).trans ((W4_of_ne m ρ c main_v2 (by decide)).trans ((W3_of m ρ c main_v2 (by decide)).trans ((W2_of_ne m ρ c main_v2 (by decide)))))))))))))))))))))))))))))
  rw [hk]; exact val_v2_1 m ρ c

/-- Region 14 leaves the aggregation of its operands in `main_v109`. -/
theorem val_v109_30 : (W30 m ρ c (Proc.devRef .tc main_v109) : S8192x256.Idx → EReal) = mA14 m c := by
  have h1 : (W30 m ρ c (Proc.devRef .tc main_v109) : S8192x256.Idx → EReal) = (dat14 (F := Ideal) (V29 m ρ) c).arrAt 2 cfg14.N := W30_arr m ρ c 2
  have h2 : (dat14 (F := Ideal) (V29 m ρ) c).arrAt 2 cfg14.N = agg (n := 8192) (k := 8192) (W29 m ρ c (Proc.devRef .tc main_v2) : S8192x8192.Idx → EReal) (W29 m ρ c (Proc.devRef .tc main_v108) : S8192x256.Idx → EReal) := agg_arrAt14 (V29 m ρ) c
  rw [h1, h2, val_v2_29, val_v108_29]

/-- `main_v116` is `main_v109` (the rounding to the narrower format is the identity on the reals). -/
theorem val_v116_31 : (W31 m ρ c (Proc.devRef .tc main_v116) : S8192x256.Idx → EReal) = mA14 m c := by
  have h : (W31 m ρ c (Proc.devRef .tc main_v116) : S8192x256.Idx → EReal) = (W30 m ρ c (Proc.devRef .tc main_v109) : S8192x256.Idx → EReal) := by
    after_results; rfl
  exact h.trans (val_v109_30 m ρ c)

theorem arg_15_30 : W30 m ρ c (Proc.devRef .tc main_arg15) = m ((c : Thread nD τ).loc main_arg15) :=
  ((W30_of_ne m ρ c main_arg15 (by decide)).trans ((W29_of m ρ c main_arg15 (by decide)).trans ((W28_of_ne m ρ c main_arg15 (by decide)).trans ((W27_of m ρ c main_arg15 (by decide)).trans ((W26_of_ne m ρ c main_arg15 (by decide)).trans ((W25_of m ρ c main_arg15 (by decide)).trans ((W24_of_ne m ρ c main_arg15 (by decide)).trans ((W23_of m ρ c main_arg15 (by decide)).trans ((W22_of_ne m ρ c main_arg15 (by decide)).trans ((W21_of m ρ c main_arg15 (by decide)).trans ((W20_of_ne m ρ c main_arg15 (by decide)).trans ((W19_of m ρ c main_arg15 (by decide)).trans ((W18_of_ne m ρ c main_arg15 (by decide)).trans ((W17_of m ρ c main_arg15 (by decide)).trans ((W16_of_ne m ρ c main_arg15 (by decide)).trans ((W15_of m ρ c main_arg15 (by decide)).trans ((W14_of_ne m ρ c main_arg15 (by decide)).trans ((W13_of m ρ c main_arg15 (by decide)).trans ((W12_of_ne m ρ c main_arg15 (by decide)).trans ((W11_of m ρ c main_arg15 (by decide)).trans ((W10_of_ne m ρ c main_arg15 (by decide)).trans ((W9_of m ρ c main_arg15 (by decide)).trans ((W8_of_ne m ρ c main_arg15 (by decide)).trans ((W7_of m ρ c main_arg15 (by decide)).trans ((W6_of_ne m ρ c main_arg15 (by decide)).trans ((W5_of m ρ c main_arg15 (by decide)).trans ((W4_of_ne m ρ c main_arg15 (by decide)).trans ((W3_of m ρ c main_arg15 (by decide)).trans ((W2_of_ne m ρ c main_arg15 (by decide)).trans ((W1_of m ρ c main_arg15 (by decide)))))))))))))))))))))))))))))))).trans rfl

theorem arg_16_30 : W30 m ρ c (Proc.devRef .tc main_arg16) = m ((c : Thread nD τ).loc main_arg16) :=
  ((W30_of_ne m ρ c main_arg16 (by decide)).trans ((W29_of m ρ c main_arg16 (by decide)).trans ((W28_of_ne m ρ c main_arg16 (by decide)).trans ((W27_of m ρ c main_arg16 (by decide)).trans ((W26_of_ne m ρ c main_arg16 (by decide)).trans ((W25_of m ρ c main_arg16 (by decide)).trans ((W24_of_ne m ρ c main_arg16 (by decide)).trans ((W23_of m ρ c main_arg16 (by decide)).trans ((W22_of_ne m ρ c main_arg16 (by decide)).trans ((W21_of m ρ c main_arg16 (by decide)).trans ((W20_of_ne m ρ c main_arg16 (by decide)).trans ((W19_of m ρ c main_arg16 (by decide)).trans ((W18_of_ne m ρ c main_arg16 (by decide)).trans ((W17_of m ρ c main_arg16 (by decide)).trans ((W16_of_ne m ρ c main_arg16 (by decide)).trans ((W15_of m ρ c main_arg16 (by decide)).trans ((W14_of_ne m ρ c main_arg16 (by decide)).trans ((W13_of m ρ c main_arg16 (by decide)).trans ((W12_of_ne m ρ c main_arg16 (by decide)).trans ((W11_of m ρ c main_arg16 (by decide)).trans ((W10_of_ne m ρ c main_arg16 (by decide)).trans ((W9_of m ρ c main_arg16 (by decide)).trans ((W8_of_ne m ρ c main_arg16 (by decide)).trans ((W7_of m ρ c main_arg16 (by decide)).trans ((W6_of_ne m ρ c main_arg16 (by decide)).trans ((W5_of m ρ c main_arg16 (by decide)).trans ((W4_of_ne m ρ c main_arg16 (by decide)).trans ((W3_of m ρ c main_arg16 (by decide)).trans ((W2_of_ne m ρ c main_arg16 (by decide)).trans ((W1_of m ρ c main_arg16 (by decide)))))))))))))))))))))))))))))))).trans rfl

theorem arg_17_30 : W30 m ρ c (Proc.devRef .tc main_arg17) = m ((c : Thread nD τ).loc main_arg17) :=
  ((W30_of_ne m ρ c main_arg17 (by decide)).trans ((W29_of m ρ c main_arg17 (by decide)).trans ((W28_of_ne m ρ c main_arg17 (by decide)).trans ((W27_of m ρ c main_arg17 (by decide)).trans ((W26_of_ne m ρ c main_arg17 (by decide)).trans ((W25_of m ρ c main_arg17 (by decide)).trans ((W24_of_ne m ρ c main_arg17 (by decide)).trans ((W23_of m ρ c main_arg17 (by decide)).trans ((W22_of_ne m ρ c main_arg17 (by decide)).trans ((W21_of m ρ c main_arg17 (by decide)).trans ((W20_of_ne m ρ c main_arg17 (by decide)).trans ((W19_of m ρ c main_arg17 (by decide)).trans ((W18_of_ne m ρ c main_arg17 (by decide)).trans ((W17_of m ρ c main_arg17 (by decide)).trans ((W16_of_ne m ρ c main_arg17 (by decide)).trans ((W15_of m ρ c main_arg17 (by decide)).trans ((W14_of_ne m ρ c main_arg17 (by decide)).trans ((W13_of m ρ c main_arg17 (by decide)).trans ((W12_of_ne m ρ c main_arg17 (by decide)).trans ((W11_of m ρ c main_arg17 (by decide)).trans ((W10_of_ne m ρ c main_arg17 (by decide)).trans ((W9_of m ρ c main_arg17 (by decide)).trans ((W8_of_ne m ρ c main_arg17 (by decide)).trans ((W7_of m ρ c main_arg17 (by decide)).trans ((W6_of_ne m ρ c main_arg17 (by decide)).trans ((W5_of m ρ c main_arg17 (by decide)).trans ((W4_of_ne m ρ c main_arg17 (by decide)).trans ((W3_of m ρ c main_arg17 (by decide)).trans ((W2_of_ne m ρ c main_arg17 (by decide)).trans ((W1_of m ρ c main_arg17 (by decide)))))))))))))))))))))))))))))))).trans rfl

/-- Matrix 1 of the stack, sliced out and recast. -/
theorem val_v117_31 : (W31 m ρ c (Proc.devRef .tc main_v117) : S256x256.Idx → EReal) = layerW (aWg m c) 1 := by
  after_results
  rw [arg_15_30]
  refine Eq.trans (truncf_ideal _ _) ?_
  exact slice_layerW _ 1 1 rfl _ _

/-- Bias row 1 of the stack, sliced out and recast as one row. -/
theorem val_v118_31 : rowVec (W31 m ρ c (Proc.devRef .tc main_v118) : S1x256.Idx → EReal) = layerB (aBg m c) 1 := by
  after_results
  rw [arg_16_30]
  exact (rowVec_shapeCast _ _).trans (slice_layerB _ 1 1 rfl _ _)

/-- The exponential of log-scale 1 of the stack. -/
theorem val_v120_31 : (W31 m ρ c (Proc.devRef .tc main_v120) : S1x1.Idx → EReal) (ix2 (0 : Fin 1) (0 : Fin 1)) = layerS (aSg m c) 1 := by
  after_results
  rw [arg_17_30]
  exact (shapeCast_scalar_11 _ _).trans (slice_layerS _ 1 1 rfl _ _)

/-- Region 15 leaves the Lorentz linear layer of its operands in `main_v121`. -/
theorem val_v121_32 : (W32 m ρ c (Proc.devRef .tc main_v121) : S8192x256.Idx → EReal) = mL15 m c := by
  have h1 : (W32 m ρ c (Proc.devRef .tc main_v121) : S8192x256.Idx → EReal) = (dat15 (F := Ideal) (V31 m ρ) c).arrAt 4 cfg15.N := W32_arr m ρ c 4
  have h2 : (dat15 (F := Ideal) (V31 m ρ) c).arrAt 4 cfg15.N = linear (n := 8192) (W31 m ρ c (Proc.devRef .tc main_v116) : S8192x256.Idx → EReal) (W31 m ρ c (Proc.devRef .tc main_v117) : S256x256.Idx → EReal)
      (rowVec (W31 m ρ c (Proc.devRef .tc main_v118) : S1x256.Idx → EReal)) ((W31 m ρ c (Proc.devRef .tc main_v120) : S1x1.Idx → EReal) (ix2 (0 : Fin 1) (0 : Fin 1))) := lin_arrAt15 (V31 m ρ) c
  rw [h1, h2, val_v116_31, val_v117_31, val_v118_31, val_v120_31]

/-- `main_v122` is `main_v121` (the rounding to the narrower format is the identity on the reals). -/
theorem val_v122_33 : (W33 m ρ c (Proc.devRef .tc main_v122) : S8192x256.Idx → EReal) = mL15 m c := by
  have h : (W33 m ρ c (Proc.devRef .tc main_v122) : S8192x256.Idx → EReal) = (W32 m ρ c (Proc.devRef .tc main_v121) : S8192x256.Idx → EReal) := by
    after_results; rfl
  exact h.trans (val_v121_32 m ρ c)

/-- `main_v2` is not written between boundaries 1 and 33. -/
theorem val_v2_33 : (W33 m ρ c (Proc.devRef .tc main_v2) : S8192x8192.Idx → EReal) = aA m c := by
  have hk : W33 m ρ c (Proc.devRef .tc main_v2) = W1 m ρ c (Proc.devRef .tc main_v2) :=
    (W33_of m ρ c main_v2 (by decide)).trans ((W32_of_ne m ρ c main_v2 (by decide)).trans ((W31_of m ρ c main_v2 (by decide)).trans (((W30_arr m ρ c 0).trans (((dat14 (F := Ideal) (V29 m ρ) c).arrAt_in 0 rfl _).trans (A_eq14 (V29 m ρ) c 0))).trans ((W29_of m ρ c main_v2 (by decide)).trans ((W28_of_ne m ρ c main_v2 (by decide)).trans ((W27_of m ρ c main_v2 (by decide)).trans ((W26_of_ne m ρ c main_v2 (by decide)).trans ((W25_of m ρ c main_v2 (by decide)).trans ((W24_of_ne m ρ c main_v2 (by decide)).trans ((W23_of m ρ c main_v2 (by decide)).trans ((W22_of_ne m ρ c main_v2 (by decide)).trans ((W21_of m ρ c main_v2 (by decide)).trans ((W20_of_ne m ρ c main_v2 (by decide)).trans ((W19_of m ρ c main_v2 (by decide)).trans ((W18_of_ne m ρ c main_v2 (by decide)).trans ((W17_of m ρ c main_v2 (by decide)).trans ((W16_of_ne m ρ c main_v2 (by decide)).trans ((W15_of m ρ c main_v2 (by decide)).trans ((W14_of_ne m ρ c main_v2 (by decide)).trans ((W13_of m ρ c main_v2 (by decide)).trans ((W12_of_ne m ρ c main_v2 (by decide)).trans ((W11_of m ρ c main_v2 (by decide)).trans ((W10_of_ne m ρ c main_v2 (by decide)).trans ((W9_of m ρ c main_v2 (by decide)).trans ((W8_of_ne m ρ c main_v2 (by decide)).trans ((W7_of m ρ c main_v2 (by decide)).trans ((W6_of_ne m ρ c main_v2 (by decide)).trans ((W5_of m ρ c main_v2 (by decide)).trans ((W4_of_ne m ρ c main_v2 (by decide)).trans ((W3_of m ρ c main_v2 (by decide)).trans ((W2_of_ne m ρ c main_v2 (by decide)))))))))))))))))))))))))))))))))
  rw [hk]; exact val_v2_1 m ρ c

/-- Region 16 leaves the aggregation of its operands in `main_v123`. -/
theorem val_v123_34 : (W34 m ρ c (Proc.devRef .tc main_v123) : S8192x256.Idx → EReal) = mA16 m c := by
  have h1 : (W34 m ρ c (Proc.devRef .tc main_v123) : S8192x256.Idx → EReal) = (dat16 (F := Ideal) (V33 m ρ) c).arrAt 2 cfg16.N := W34_arr m ρ c 2
  have h2 : (dat16 (F := Ideal) (V33 m ρ) c).arrAt 2 cfg16.N = agg (n := 8192) (k := 8192) (W33 m ρ c (Proc.devRef .tc main_v2) : S8192x8192.Idx → EReal) (W33 m ρ c (Proc.devRef .tc main_v122) : S8192x256.Idx → EReal) := agg_arrAt16 (V33 m ρ) c
  rw [h1, h2, val_v2_33, val_v122_33]

/-- `main_v90` is not written between boundaries 24 and 34. -/
theorem val_v90_34 : (W34 m ρ c (Proc.devRef .tc main_v90) : S16384x256.Idx → EReal) = mA11 m c := by
  have hk : W34 m ρ c (Proc.devRef .tc main_v90) = W24 m ρ c (Proc.devRef .tc main_v90) :=
    (W34_of_ne m ρ c main_v90 (by decide)).trans ((W33_of m ρ c main_v90 (by decide)).trans ((W32_of_ne m ρ c main_v90 (by decide)).trans ((W31_of m ρ c main_v90 (by decide)).trans ((W30_of_ne m ρ c main_v90 (by decide)).trans ((W29_of m ρ c main_v90 (by decide)).trans ((W28_of_ne m ρ c main_v90 (by decide)).trans ((W27_of m ρ c main_v90 (by decide)).trans ((W26_of_ne m ρ c main_v90 (by decide)).trans ((W25_of m ρ c main_v90 (by decide)))))))))))
  rw [hk]; exact val_v90_24 m ρ c

/-- Rows 0 … of the node embeddings. -/
theorem val_v124_35 : (W35 m ρ c (Proc.devRef .tc main_v124) : S8192x256.Idx → EReal) = rowsFrom 0 (mA11 m c) (by decide) := by
  after_results
  rw [val_v90_34]
  exact slice_rowsFrom 0 _ _ _

/-- Rows 8192 … of the node embeddings. -/
theorem val_v125_35 : (W35 m ρ c (Proc.devRef .tc main_v125) : S6144x256.Idx → EReal) = rowsFrom 8192 (mA11 m c) (by decide) := by
  after_results
  rw [val_v90_34]
  exact slice_rowsFrom 8192 _ _ _

/-- Rows 14336 … of the node embeddings. -/
theorem val_v126_35 : (W35 m ρ c (Proc.devRef .tc main_v126) : S2048x256.Idx → EReal) = rowsFrom 14336 (mA11 m c) (by decide) := by
  after_results
  rw [val_v90_34]
  exact slice_rowsFrom 14336 _ _ _

/-- `main_v94` is not written between boundaries 27 and 35. -/
theorem val_v94_35 : (W35 m ρ c (Proc.devRef .tc main_v94) : S8192x256.Idx → EReal) = mR1 m c := by
  have hk : W35 m ρ c (Proc.devRef .tc main_v94) = W27 m ρ c (Proc.devRef .tc main_v94) :=
    (W35_of m ρ c main_v94 (by decide)).trans ((W34_of_ne m ρ c main_v94 (by decide)).trans ((W33_of m ρ c main_v94 (by decide)).trans ((W32_of_ne m ρ c main_v94 (by decide)).trans ((W31_of m ρ c main_v94 (by decide)).trans ((W30_of_ne m ρ c main_v94 (by decide)).trans ((W29_of m ρ c main_v94 (by decide)).trans ((W28_of_ne m ρ c main_v94 (by decide)))))))))
  rw [hk]; exact val_v94_27 m ρ c

/-- `main_v123` is not written between boundaries 34 and 35. -/
theorem val_v123_35 : (W35 m ρ c (Proc.devRef .tc main_v123) : S8192x256.Idx → EReal) = mA16 m c := by
  have hk : W35 m ρ c (Proc.devRef .tc main_v123) = W34 m ρ c (Proc.devRef .tc main_v123) :=
    (W35_of m ρ c main_v123 (by decide))
  rw [hk]; exact val_v123_34 m ρ c

end Cert.KernelIdeal.Val

end
-- ==== Proof.Val.Bridge.lean ====
/- The kernel side of the value bridge: the six result buffers at the return hold the model's arrays. -/
import proofs.«103499_j73031623901527_2_alg».proof.Proof.Val.BridgeA
import proofs.«103499_j73031623901527_2_alg».proof.Proof.Val.BridgeC

set_option maxRecDepth 16384

noncomputable section

namespace Cert.KernelIdeal.Val

open Cert.KernelIdeal Cert.KernelIdeal.Gen Cert.KernelIdeal.GenP Cert.KernelIdeal.Hand Cert.Lorentz Cert.Sage
open Idealize.ShloMosaic Idealize.ShloMosaic.ValueIdx Idealize.ShloMosaic.TcCoe

variable (m : (ℓ : Loc nD τ sig) → Buf (Elt Ideal) ℓ) (ρ : Dev nD → PrngReg) (c : Dev nD)

/-- THE KERNEL'S RESULTS: what the six result buffers of core `c` hold at the return, as the model's arrays over the
    launch memory. -/
theorem kernel_results :
    (W35 m ρ c (Proc.devRef .tc main_v94) : S8192x256.Idx → EReal) = hyperRep (aDis m c) (aPro m c) (aMed m c) (aH m c) (aWh m c) (aBh m c) (aSh m c) (aWhg m c) (aBhg m c) (aShg m c)
    ∧ (W35 m ρ c (Proc.devRef .tc main_v123) : S8192x256.Idx → EReal) = linearRep (aDis m c) (aPro m c) (aMed m c) (aH m c) (aA m c) (aWl m c) (aBl m c) (aSl m c) (aWg m c) (aBg m c) (aSg m c)
    ∧ (W35 m ρ c (Proc.devRef .tc main_v124) : S8192x256.Idx → EReal) = rowsFrom 0 (hEmbed (aDis m c) (aPro m c) (aMed m c) (aH m c) (aWh m c) (aBh m c) (aSh m c) (aWhg m c) (aBhg m c) (aShg m c)) (by decide)
    ∧ (W35 m ρ c (Proc.devRef .tc main_v125) : S6144x256.Idx → EReal) = rowsFrom 8192 (hEmbed (aDis m c) (aPro m c) (aMed m c) (aH m c) (aWh m c) (aBh m c) (aSh m c) (aWhg m c) (aBhg m c) (aShg m c)) (by decide)
    ∧ (W35 m ρ c (Proc.devRef .tc main_v126) : S2048x256.Idx → EReal) = rowsFrom 14336 (hEmbed (aDis m c) (aPro m c) (aMed m c) (aH m c) (aWh m c) (aBh m c) (aSh m c) (aWhg m c) (aBhg m c) (aShg m c)) (by decide)
    ∧ (W35 m ρ c (Proc.devRef .tc main_v32) : S2048x256.Idx → EReal) = ddiMed (aMed m c) (aDdi m c) (aWd m c) (aBd m c) (aSd m c) :=
  ⟨(val_v94_35 m ρ c).trans rfl, (val_v123_35 m ρ c).trans rfl, (val_v124_35 m ρ c).trans rfl, (val_v125_35 m ρ c).trans rfl,
    (val_v126_35 m ρ c).trans rfl, (val_v32_35 m ρ c).trans rfl⟩

end Cert.KernelIdeal.Val

end
-- ==== Proof.LibGraphRows.lean ====
/-
  Row-wise pieces of a degree-normalised graph convolution, on the extended reals, beside the rows-against-columns
  product `rowsMul`:

    scaleRows h w   : entry (e, f) is h(e, f) · w(e, 0)            — every row of `h` scaled by that row's weight;
    addRowOf v b    : entry (r, c) is v(r, c) + b(0, c)            — one row vector added to every row;
    addRowClip v b  : entry (r, c) is max (v(r, c) + b(0, c)) 0    — the same, clipped below at the float zero.

  Each depends on row r of its row operand(s) only, so a block of consecutive rows of the result is the same
  function of the same block of rows (`scaleRows_rows`, `addRowOf_rows`, `addRowClip_rows`).
-/
import proofs.«103499_j73031623901527_2_alg».proof.Proof.LibRowsLayer

noncomputable section

namespace Cert.Sage

open Idealize.ShloMosaic Idealize.ShloMosaic.ValueIdx

variable {n N k c : Nat}

/-- Every row scaled by its own weight: entry (e, f) is h(e, f) · w(e, 0). -/
def scaleRows (h : Arr2 n c) (w : Arr2 n 1) : Arr2 n c :=
  fun i => h i * w (ix2 (rowOf i) (0 : Fin 1))

/-- A row vector, kept as a one-row array, added to every row. -/
def addRowOf (v : Arr2 n c) (b : Arr2 1 c) : Arr2 n c :=
  fun i => v i + b (ix2 (0 : Fin 1) (colOf i))

/-- The same, clipped below at the float zero. -/
def addRowClip (v : Arr2 n c) (b : Arr2 1 c) : Arr2 n c :=
  fun i => max (v i + b (ix2 (0 : Fin 1) (colOf i))) zeroF

/-- A block of rows of `scaleRows` is `scaleRows` of the blocks of rows. -/
theorem scaleRows_rows (H : Arr2 N c) (W : Arr2 N 1) (h : Arr2 n c) (w : Arr2 n 1)
    (I : (⟨2, ![N, c]⟩ : Shape).Idx) (i : (⟨2, ![n, c]⟩ : Shape).Idx)
    (hh : H I = h i) (hw : W (ix2 (rowOf I) (0 : Fin 1)) = w (ix2 (rowOf i) (0 : Fin 1))) :
    scaleRows H W I = scaleRows h w i := by
  unfold scaleRows; rw [hh, hw]

/-- A block of rows of `addRowOf` is `addRowOf` of the block of rows. -/
theorem addRowOf_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowOf V b I = addRowOf v b i := by
  unfold addRowOf
  have : colOf I = colOf i := Fin.ext hc
  rw [hv, this]

/-- A block of rows of `addRowClip` is `addRowClip` of the block of rows. -/
theorem addRowClip_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowClip V b I = addRowClip v b i := by
  unfold addRowClip
  have : colOf I = colOf i := Fin.ext hc
  rw [hv, this]

end Cert.Sage

end
-- ==== Proof.LibGraphHost.lean ====
/-
  The row-wise pieces of a graph convolution against the forms a host program writes them in, at the ideal values.

    a host `dot_general` contracting the second axis of [n, k] with the first of [k, c]      is `rowsMul`;
    rows times a weight vector broadcast first to a column and then along the rows             is `scaleRows` of the
                                                                                                 vector recast as a column;
    rows plus a bias vector broadcast first to one row and then down the rows                  is `addRowOf` of the
                                                                                                 vector recast as one row;
    the same clipped below at a broadcast float zero                                           is `addRowClip`.
-/
import proofs.«103499_j73031623901527_2_alg».proof.Proof.LibGraphRows
import proofs.«103499_j73031623901527_2_alg».proof.Proof.LibKeepdims
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx
open scoped BigOperators

/-- The host's matrix product, at entry (p, q), is the row–column sum. -/
theorem dotGeneral_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂) :
    Host.dotGeneral (F := Ideal) D prec a W = rowsMul (n := n) (k := k) (c := c) a W := by
  funext i
  obtain ⟨p, q, rfl⟩ : ∃ (p : Fin n) (q : Fin c), i = ix2 p q := ⟨i 0, i 1, eq_ix2 i⟩
  show FloatOps.dotGeneral D prec .single a W (ix2 p q) = _
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- A vector broadcast to a column and then along the rows reads, at (e, f), the vector at e. -/
theorem bcast_col_rows_apply {n c : Nat} {α : Type} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (f : Fin c) :
    broadcastInDim ⟨2, ![n, c]⟩ ![0, 1] h2 (broadcastInDim ⟨2, ![n, 1]⟩ ![0] h1 v) (ix2 e f) = v (ix1 e) := by
  refine (broadcastInDim_apply _ h2 _ (ix2 e f) (ix2 e (0 : Fin 1)) fun ax => ?_).trans
    (broadcastInDim_apply _ h1 v (ix2 e (0 : Fin 1)) (ix1 e) fun ax => ?_)
  · match ax with
    | ⟨0, _⟩ =>
      show e.val = if n = 1 then 0 else e.val
      split
      · have := e.isLt; omega
      · rfl
    | ⟨1, _⟩ => rfl
  · match ax with
    | ⟨0, _⟩ =>
      show e.val = if n = 1 then 0 else e.val
      split
      · have := e.isLt; omega
      · rfl

/-- A vector broadcast to one row and then down the rows reads, at (r, q), the vector at q. -/
theorem bcast_row_rows_apply {n c : Nat} {α : Type} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- Rows times the doubly broadcast weight vector: `scaleRows` of the vector recast as a column. -/
theorem scaleRows_col {n c : Nat} (H : FVec Ideal ⟨2, ![n, c]⟩ .f32) (v : FVec Ideal ⟨1, ![n]⟩ .f32)
    (hc : (⟨1, ![n]⟩ : Shape).ShapeCasts ⟨2, ![n, 1]⟩)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    scaleRows (n := n) (c := c) H (shapeCast ⟨2, ![n, 1]⟩ v hc)
      = mulf H (broadcastInDim ⟨2, ![n, c]⟩ ![0, 1] h2 (broadcastInDim ⟨2, ![n, 1]⟩ ![0] h1 v)) := by
  funext i
  obtain ⟨e, f, rfl⟩ : ∃ (e : Fin n) (f : Fin c), i = ix2 e f := ⟨i 0, i 1, eq_ix2 i⟩
  rw [mulf_apply, bcast_col_rows_apply v h1 h2 e f]
  unfold scaleRows
  have : rowOf (ix2 e f) = e := Fin.ext rfl
  rw [this, Cert.LibKeepdims.shapeCast_a_a1_apply v hc e (0 : Fin 1)]

/-- Rows plus the doubly broadcast bias vector: `addRowOf` of the vector recast as one row. -/
theorem addRowOf_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addRowOf (n := n) (c := c) A (shapeCast ⟨2, ![1, c]⟩ b hc)
      = addf A (broadcastInDim ⟨2, ![n, c]⟩ ![0, 1] h2 (broadcastInDim ⟨2, ![1, c]⟩ ![1] h1 b)) := by
  funext i
  obtain ⟨r, q, rfl⟩ : ∃ (r : Fin n) (q : Fin c), i = ix2 r q := ⟨i 0, i 1, eq_ix2 i⟩
  rw [addf_apply, bcast_row_rows_apply b h1 h2 r q]
  unfold addRowOf
  have : colOf (ix2 r q) = q := Fin.ext rfl
  rw [this, shapeCast_a_1a_apply b hc (0 : Fin 1) q]

/-- The same clipped below at a broadcast float zero: `addRowClip`. -/
theorem addRowClip_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    addRowClip (n := n) (c := c) A (shapeCast ⟨2, ![1, c]⟩ b hc)
      = maximumf (addf A (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 0x00000000#32)) := by
  funext i
  obtain ⟨r, q, rfl⟩ : ∃ (r : Fin n) (q : Fin c), i = ix2 r q := ⟨i 0, i 1, eq_ix2 i⟩
  rw [maximumf_apply, addf_apply, bcast_row_rows_apply b h1 h2 r q,
    broadcastInDim_apply _ h0 _ (ix2 r q) ix0 (fun ax => ax.elim0)]
  unfold addRowClip
  have : colOf (ix2 r q) = q := Fin.ext rfl
  rw [this, shapeCast_a_1a_apply b hc (0 : Fin 1) q]
  rfl

end Cert.Sage

end
-- ==== Proof.RefForms.lean ====
/-
  The host program's spellings of the row functions of Spec.lean, read at coordinates on the extended reals, for any
  number of rows n: a slice of column 0 and of columns 1..255, the sum of squares of the latter by a host reduce from the
  float zero, a scalar or a column spread over the rows, and the two pieces put side by side again.
-/
import proofs.«103499_j73031623901527_2_alg».proof.Proof.Spec
import proofs.«103499_j73031623901527_2_alg».proof.Proof.LibRowLanes
import proofs.«103499_j73031623901527_2_alg».proof.Proof.LibGraphHost
import Idealize.ShloMosaic.Lib.IdealHost
import Idealize.ShloMosaic.Lib.Pipeline.Value
import Idealize.ShloMosaic.PureOps.Ideal.Laws

noncomputable section

namespace Cert.Lorentz

open Idealize.ShloMosaic Idealize.ShloMosaic.ValueIdx Cert.Sage
open scoped BigOperators

variable {n : Nat}

/-! ## The host's elementwise operations, read at an index -/

theorem hostSqrt_apply {s : Shape} {φ : FTy} (v : FVec Ideal s φ) (i : s.Idx) : Host.sqrt v i = Ideal.sqrt (v i) := rfl
theorem hostAbsf_apply {s : Shape} {φ : FTy} (v : FVec Ideal s φ) (i : s.Idx) : Host.absf v i = max (v i) (-(v i)) := rfl
theorem hostNegf_apply {s : Shape} {φ : FTy} (v : FVec Ideal s φ) (i : s.Idx) : Host.negf v i = -(v i) := rfl
theorem hostExp_apply {s : Shape} {φ : FTy} (v : FVec Ideal s φ) (i : s.Idx) : Host.exp v i = Ideal.exp (v i) := rfl

/-- Column 0 of an [n,256] array, sliced out as [n,1], at row p. -/
theorem slice_col0 (u : Arr2 n 256) (h : (⟨2, ![n, 256]⟩ : Shape).Slices ![0, 0] ⟨2, ![n, 1]⟩) (p : Fin n) (z : Fin 1) :
    extractStridedSlice ⟨2, ![n, 1]⟩ ![0, 0] u h (ix2 p z) = u (ix2 p (0 : Fin 256)) :=
  extractStridedSlice_apply _ u h _ _ fun a => by
    match a with
    | ⟨0, _⟩ => exact (Nat.zero_add _).symm
    | ⟨1, _⟩ => have := z.isLt; show (0 : ℕ) = 0 + z.val; omega

/-- Columns 1..255 of an [n,256] array, sliced out as [n,255], at (p, j): the entry (p, j + 1). -/
theorem slice_tail (u : Arr2 n 256) (h : (⟨2, ![n, 256]⟩ : Shape).Slices ![0, 1] ⟨2, ![n, 255]⟩) (p : Fin n) (j : Fin 255) :
    extractStridedSlice ⟨2, ![n, 255]⟩ ![0, 1] u h (ix2 p j) = u (ix2 p (tailCol j)) :=
  extractStridedSlice_apply _ u h _ _ fun a => by
    match a with
    | ⟨0, _⟩ => exact (Nat.zero_add _).symm
    | ⟨1, _⟩ => show j.val + 1 = 1 + j.val; omega

/-- The host's sum of the squared tail of row p, from the float zero. -/
theorem host_tailSq (u : Arr2 n 256) (hs : (⟨2, ![n, 256]⟩ : Shape).Slices ![0, 1] ⟨2, ![n, 255]⟩)
    (hr' : (⟨2, ![n, 255]⟩ : Shape).ReducesTo [1] ⟨1, ![n]⟩) (hr : (⟨2, ![n, 255]⟩ : Shape).Reduces [1] ⟨1, ![n]⟩)
    (hu : 0 < (⟨0, ![]⟩ : Shape).numel) (p : Fin n) :
    Host.reduceAdd (F := Ideal) (φ := .f32)
        (mulf (extractStridedSlice ⟨2, ![n, 255]⟩ ![0, 1] u hs) (extractStridedSlice ⟨2, ![n, 255]⟩ ![0, 1] u hs))
        (constant (F := Ideal) ⟨0, ![]⟩ .f32 0x00000000#32) hr' hu (ix1 p) = tailSq u p := by
  rw [hostReduceAdd_apply, Ideal.hostReduceAdd_single hr' hr, constant_apply, Ideal.ofBits_zero_f32, zero_add]
  unfold tailSq
  exact Finset.sum_congr rfl fun (j : Fin 255) _ => by
    rw [Cert.LibRowLanes.lift_row hr p j, mulf_apply, slice_tail]

/-- A column [n,1] spread along rows to [n,c], at (p, q): the column at p. -/
theorem bcast_col_apply {c : Nat} {α : Type} (v : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h v (ix2 p q) = v (ix2 p (0 : Fin 1)) :=
  broadcastInDim_apply _ h v _ _ fun a => by
    match a with
    | ⟨0, _⟩ =>
      show p.val = if n = 1 then 0 else p.val
      split_ifs with hn
      · have := p.isLt; omega
      · rfl
    | ⟨1, _⟩ => rfl

/-- A vector [n] recast as the column [n,1] by a broadcast, at (p, z): the vector at p. -/
theorem bcast_vec_col_apply {α : Type} (v : (⟨1, ![n]⟩ : Shape).Idx → α)
    (h : (⟨1, ![n]⟩ : Shape).BroadcastsInDim ⟨2, ![n, 1]⟩ (![0] : Fin 1 → Fin 2)) (p : Fin n) (z : Fin 1) :
    broadcastInDim ⟨2, ![n, 1]⟩ ![0] h v (ix2 p z) = v (ix1 p) :=
  broadcastInDim_apply _ h v _ _ fun a => by
    match a with
    | ⟨0, _⟩ =>
      show p.val = if n = 1 then 0 else p.val
      split_ifs with hn
      · have := p.isLt; omega
      · rfl

/-- A scalar spread over a column [n,1], at (p, z): the scalar. -/
theorem bcast_scalar_col_apply {α : Type} (x : (⟨0, ![]⟩ : Shape).Idx → α)
    (h : (⟨0, ![]⟩ : Shape).BroadcastsInDim ⟨2, ![n, 1]⟩ ![]) (p : Fin n) (z : Fin 1) :
    broadcastInDim ⟨2, ![n, 1]⟩ ![] h x (ix2 p z) = x ix0 :=
  broadcastInDim_scalar_apply h x _

/-- The host's normalisation of the rows of u: u divided by the column sqrt(max(|u₀² − Σ_{j≥1} u_j²|, ε)) spread along rows. -/
theorem host_norm (u : Arr2 n 256)
    (h0 : (⟨2, ![n, 256]⟩ : Shape).Slices ![0, 0] ⟨2, ![n, 1]⟩) (h1 : (⟨2, ![n, 256]⟩ : Shape).Slices ![0, 1] ⟨2, ![n, 255]⟩)
    (hr' : (⟨2, ![n, 255]⟩ : Shape).ReducesTo [1] ⟨1, ![n]⟩) (hr : (⟨2, ![n, 255]⟩ : Shape).Reduces [1] ⟨1, ![n]⟩)
    (hu : 0 < (⟨0, ![]⟩ : Shape).numel)
    (hbc : (⟨1, ![n]⟩ : Shape).BroadcastsInDim ⟨2, ![n, 1]⟩ (![0] : Fin 1 → Fin 2))
    (hbe : (⟨0, ![]⟩ : Shape).BroadcastsInDim ⟨2, ![n, 1]⟩ ![])
    (hbw : (⟨2, ![n, 1]⟩ : Shape).BroadcastsInDim ⟨2, ![n, 256]⟩ (![0, 1] : Fin 2 → Fin 2)) :
    Host.divf (F := Ideal) (φ := .f32) u (broadcastInDim ⟨2, ![n, 256]⟩ ![0, 1] hbw
      (Host.sqrt (maximumf (Host.absf (subf
          (mulf (extractStridedSlice ⟨2, ![n, 1]⟩ ![0, 0] u h0) (extractStridedSlice ⟨2, ![n, 1]⟩ ![0, 0] u h0))
          (broadcastInDim ⟨2, ![n, 1]⟩ ![0] hbc (Host.reduceAdd
            (mulf (extractStridedSlice ⟨2, ![n, 255]⟩ ![0, 1] u h1) (extractStridedSlice ⟨2, ![n, 255]⟩ ![0, 1] u h1))
            (constant (F := Ideal) ⟨0, ![]⟩ .f32 0x00000000#32) hr' hu))))
        (broadcastInDim ⟨2, ![n, 1]⟩ ![] hbe (constant (F := Ideal) ⟨0, ![]⟩ .f32 0x322BCC77#32)))))
      = norm u := by
  funext i
  obtain ⟨p, q, rfl⟩ : ∃ (p : Fin n) (q : Fin 256), i = ix2 p q := ⟨_, _, eq_ix2 i⟩
  rw [hostDivf_apply, bcast_col_apply, hostSqrt_apply, maximumf_apply, hostAbsf_apply, subf_apply, mulf_apply,
    slice_col0, bcast_vec_col_apply, host_tailSq u h1 hr' hr hu p, bcast_scalar_col_apply, constant_apply]
  rfl

/-- The host's time column of y: σ(y₀)·s + 1.1 with σ(x) = 1 / (1 + e^(−x)), at row p. -/
theorem host_time (y : Arr2 n 256) (ls : (⟨0, ![]⟩ : Shape).Idx → EReal)
    (h0 : (⟨2, ![n, 256]⟩ : Shape).Slices ![0, 0] ⟨2, ![n, 1]⟩)
    (hbe : (⟨0, ![]⟩ : Shape).BroadcastsInDim ⟨2, ![n, 1]⟩ ![]) (p : Fin n) (z : Fin 1) :
    addf (F := Ideal) (φ := .f32) (mulf (Host.divf (broadcastInDim ⟨2, ![n, 1]⟩ ![] hbe (constant (F := Ideal) ⟨0, ![]⟩ .f32 0x3F800000#32))
        (addf (broadcastInDim ⟨2, ![n, 1]⟩ ![] hbe (constant (F := Ideal) ⟨0, ![]⟩ .f32 0x3F800000#32))
          (Host.exp (Host.negf (extractStridedSlice ⟨2, ![n, 1]⟩ ![0, 0] y h0)))))
        (broadcastInDim ⟨2, ![n, 1]⟩ ![] hbe (Host.exp (F := Ideal) (φ := .f32) ls)))
        (broadcastInDim ⟨2, ![n, 1]⟩ ![] hbe (constant (F := Ideal) ⟨0, ![]⟩ .f32 0x3F8CCCCD#32)) (ix2 p z)
      = timeOf y (Ideal.exp (ls ix0)) p := by
  rw [addf_apply, mulf_apply, hostDivf_apply, addf_apply, hostExp_apply, hostNegf_apply, slice_col0,
    bcast_scalar_col_apply, bcast_scalar_col_apply, bcast_scalar_col_apply, constant_apply, constant_apply, hostExp_apply,
    Ideal.ofBits_one_f32]
  unfold timeOf Ideal.logistic c11
  rfl

/-- The host's re-projection of the rows of y: the time column T beside the tail tl rescaled, for any T and tl that
    are the host's time column and tail slice of y. -/
theorem host_proj (y : Arr2 n 256) (ls : (⟨0, ![]⟩ : Shape).Idx → EReal)
    (h0 : (⟨2, ![n, 256]⟩ : Shape).Slices ![0, 0] ⟨2, ![n, 1]⟩) (h1 : (⟨2, ![n, 256]⟩ : Shape).Slices ![0, 1] ⟨2, ![n, 255]⟩)
    (hr' : (⟨2, ![n, 255]⟩ : Shape).ReducesTo [1] ⟨1, ![n]⟩) (hr : (⟨2, ![n, 255]⟩ : Shape).Reduces [1] ⟨1, ![n]⟩)
    (hu : 0 < (⟨0, ![]⟩ : Shape).numel)
    (hbc : (⟨1, ![n]⟩ : Shape).BroadcastsInDim ⟨2, ![n, 1]⟩ (![0] : Fin 1 → Fin 2))
    (hbe : (⟨0, ![]⟩ : Shape).BroadcastsInDim ⟨2, ![n, 1]⟩ ![])
    (hbt : (⟨2, ![n, 1]⟩ : Shape).BroadcastsInDim ⟨2, ![n, 255]⟩ (![0, 1] : Fin 2 → Fin 2))
    (hcat : Shape.Concatenates [(⟨2, ![n, 1]⟩ : Shape), ⟨2, ![n, 255]⟩] ⟨2, ![n, 256]⟩ 1)
    (T : (⟨2, ![n, 1]⟩ : Shape).Idx → EReal) (tl : (⟨2, ![n, 255]⟩ : Shape).Idx → EReal)
    (hT : T = addf (F := Ideal) (φ := .f32) (mulf (Host.divf (broadcastInDim ⟨2, ![n, 1]⟩ ![] hbe (constant (F := Ideal) ⟨0, ![]⟩ .f32 0x3F800000#32))
        (addf (broadcastInDim ⟨2, ![n, 1]⟩ ![] hbe (constant (F := Ideal) ⟨0, ![]⟩ .f32 0x3F800000#32))
          (Host.exp (Host.negf (extractStridedSlice ⟨2, ![n, 1]⟩ ![0, 0] y h0)))))
        (broadcastInDim ⟨2, ![n, 1]⟩ ![] hbe (Host.exp (F := Ideal) (φ := .f32) ls)))
        (broadcastInDim ⟨2, ![n, 1]⟩ ![] hbe (constant (F := Ideal) ⟨0, ![]⟩ .f32 0x3F8CCCCD#32)))
    (htl : tl = extractStridedSlice ⟨2, ![n, 255]⟩ ![0, 1] y h1) :
    concatenate ⟨2, ![n, 256]⟩ 1 [⟨⟨2, ![n, 1]⟩, T⟩,
      ⟨⟨2, ![n, 255]⟩, mulf (F := Ideal) (φ := .f32) tl
        (broadcastInDim ⟨2, ![n, 255]⟩ ![0, 1] hbt (Host.sqrt (Host.divf
          (subf (mulf T T) (broadcastInDim ⟨2, ![n, 1]⟩ ![] hbe (constant (F := Ideal) ⟨0, ![]⟩ .f32 0x3F800000#32)))
          (maximumf (broadcastInDim ⟨2, ![n, 1]⟩ ![0] hbc (Host.reduceAdd
              (mulf tl tl)
              (constant (F := Ideal) ⟨0, ![]⟩ .f32 0x00000000#32) hr' hu))
            (broadcastInDim ⟨2, ![n, 1]⟩ ![] hbe (constant (F := Ideal) ⟨0, ![]⟩ .f32 0x322BCC77#32))))))⟩] hcat
      = proj y (Ideal.exp (ls ix0)) := by
  have hTp : ∀ (p : Fin n) (z : Fin 1), T (ix2 p z) = timeOf y (Ideal.exp (ls ix0)) p := fun p z => by
    rw [hT]; exact host_time y ls h0 hbe p z
  subst htl
  funext i
  obtain ⟨p, q, rfl⟩ : ∃ (p : Fin n) (q : Fin 256), i = ix2 p q := ⟨_, _, eq_ix2 i⟩
  by_cases hq : q.val = 0
  · have hq0 : q = (0 : Fin 256) := Fin.ext hq
    subst hq0
    rw [concatenate_pair_apply_left (s₁ := ⟨2, ![n, 1]⟩) (s₂ := ⟨2, ![n, 255]⟩) (1 : Fin 2) T _ hcat (ix2 p (0 : Fin 256)) rfl
      (ix2 p (0 : Fin 1)) (fun b => by match b with | ⟨0, _⟩ => rfl | ⟨1, _⟩ => rfl)]
    rw [hTp]
    unfold proj
    rw [if_pos (show ((ix2 p (0 : Fin 256)) 1).val = 0 from rfl)]
    rfl
  · obtain ⟨j, rfl⟩ : ∃ j : Fin 255, q = tailCol j :=
      ⟨⟨q.val - 1, by have := q.isLt; omega⟩, Fin.ext (by show q.val = q.val - 1 + 1; omega)⟩
    rw [concatenate_pair_apply_right (s₁ := ⟨2, ![n, 1]⟩) (s₂ := ⟨2, ![n, 255]⟩) (1 : Fin 2) T _ hcat (ix2 p (tailCol j)) rfl rfl
      (ix2 p j)
      (fun b hb => by match b with | ⟨0, _⟩ => rfl | ⟨1, _⟩ => exact absurd rfl hb)
      (by show j.val + 1 = j.val + 1; rfl)]
    rw [mulf_apply, slice_tail, bcast_col_apply, hostSqrt_apply, hostDivf_apply, subf_apply, mulf_apply, maximumf_apply,
      hTp, bcast_vec_col_apply, host_tailSq y h1 hr' hr hu p,
      bcast_scalar_col_apply, bcast_scalar_col_apply, constant_apply, constant_apply]
    unfold proj
    rw [if_neg (show ¬ ((ix2 p (tailCol j)) 1).val = 0 from by show ¬ (j.val + 1 = 0); omega)]
    rfl

/-- The host's x·Wᵀ + b: a product against the transposed weights plus the bias spread over the rows. -/
theorem host_pre (x : Arr2 n 256) (W : Arr2 256 256) (b : Arr1 256)
    (D : DotDims ⟨2, ![n, 256]⟩ ⟨2, ![256, 256]⟩ ⟨2, ![n, 256]⟩) (hr : D.contr.rank = 1)
    (hs : D.contr.size ⟨0, by omega⟩ = 256)
    (l0 : ∀ (i : (⟨2, ![n, 256]⟩ : Shape).Idx) (q : D.contr.Idx), (D.lhsIdx i q 0).val = (i 0).val)
    (l1 : ∀ (i : (⟨2, ![n, 256]⟩ : Shape).Idx) (q : D.contr.Idx), (D.lhsIdx i q 1).val = (q ⟨0, by omega⟩).val)
    (r0 : ∀ (i : (⟨2, ![n, 256]⟩ : Shape).Idx) (q : D.contr.Idx), (D.rhsIdx i q 0).val = (q ⟨0, by omega⟩).val)
    (r1 : ∀ (i : (⟨2, ![n, 256]⟩ : Shape).Idx) (q : D.contr.Idx), (D.rhsIdx i q 1).val = (i 1).val)
    (ht : (⟨2, ![256, 256]⟩ : Shape).Transposes [1, 0] ⟨2, ![256, 256]⟩)
    (hb1 : (⟨1, ![256]⟩ : Shape).BroadcastsInDim ⟨2, ![1, 256]⟩ (![1] : Fin 1 → Fin 2))
    (hb2 : (⟨2, ![1, 256]⟩ : Shape).BroadcastsInDim ⟨2, ![n, 256]⟩ (![0, 1] : Fin 2 → Fin 2)) :
    addf (F := Ideal) (φ := .f32)
      (Host.dotGeneral (F := Ideal) (φ₁ := .f32) (φ₂ := .f32) D none x (transpose (α := EReal) ⟨2, ![256, 256]⟩ [1, 0] W ht))
      (broadcastInDim ⟨2, ![n, 256]⟩ ![0, 1] hb2 (broadcastInDim ⟨2, ![1, 256]⟩ ![1] hb1 b)) = pre x W b := by
  funext i
  obtain ⟨p, q, rfl⟩ : ∃ (p : Fin n) (q : Fin 256), i = ix2 p q := ⟨_, _, eq_ix2 i⟩
  rw [addf_apply, dotGeneral_rows D hr hs l0 l1 r0 r1, bcast_row_rows_apply]
  unfold pre rowsMul
  congr 1
  refine Finset.sum_congr rfl fun j _ => ?_
  congr 1
  exact transpose_apply _ W ht _ _ (fun b => by match b with | ⟨0, _⟩ => rfl | ⟨1, _⟩ => rfl)

end Cert.Lorentz

end
-- ==== Proof.Ref.RefValue.lean ====
/-
  The reference program's six results are the model's: each named intermediate of the reference's run, in program order, is
  the model's array — a Lorentz linear layer's x·Wᵀ + b, the product of an adjacency with the re-projected rows, its
  normalisation —, read back through the host forms of RefForms.lean and Ref/RefParts.lean.
-/
import proofs.«103499_j73031623901527_2_alg».proof.Proof.Gen.ReferenceIdeal.Run
import proofs.«103499_j73031623901527_2_alg».proof.Proof.RefForms
import proofs.«103499_j73031623901527_2_alg».proof.Proof.Ref.RefParts

noncomputable section

namespace Cert.ReferenceIdeal.RefValue

open Cert.ReferenceIdeal Cert.ReferenceIdeal.Gen Cert.ReferenceIdeal.Value Cert.Lorentz Cert.Sage
open Idealize.ShloMosaic Idealize.ShloMosaic.TcCoe Idealize.ShloMosaic.ValueIdx Idealize.SL.Sem Idealize.ShloMosaic.StableHlo

/-! ## The products' dimension numbers: each contracts the second axis of the left operand with the first of the right -/

theorem lin2048_l0 (i : (⟨2, ![2048, 256]⟩ : Shape).Idx) (q : dot_S2048x256_S256x256_S2048x256_1_0_0_1_n_n.contr.Idx) : (dot_S2048x256_S256x256_S2048x256_1_0_0_1_n_n.lhsIdx i q 0).val = (i 0).val := by
  simp [DotDims.lhsIdx, dot_S2048x256_S256x256_S2048x256_1_0_0_1_n_n]; rfl
theorem lin2048_l1 (i : (⟨2, ![2048, 256]⟩ : Shape).Idx) (q : dot_S2048x256_S256x256_S2048x256_1_0_0_1_n_n.contr.Idx) : (dot_S2048x256_S256x256_S2048x256_1_0_0_1_n_n.lhsIdx i q 1).val = (q ⟨0, by decide⟩).val := by
  simp [DotDims.lhsIdx, dot_S2048x256_S256x256_S2048x256_1_0_0_1_n_n]; rfl
theorem lin2048_r0 (i : (⟨2, ![2048, 256]⟩ : Shape).Idx) (q : dot_S2048x256_S256x256_S2048x256_1_0_0_1_n_n.contr.Idx) : (dot_S2048x256_S256x256_S2048x256_1_0_0_1_n_n.rhsIdx i q 0).val = (q ⟨0, by decide⟩).val := by
  simp [DotDims.rhsIdx, dot_S2048x256_S256x256_S2048x256_1_0_0_1_n_n]; rfl
theorem lin2048_r1 (i : (⟨2, ![2048, 256]⟩ : Shape).Idx) (q : dot_S2048x256_S256x256_S2048x256_1_0_0_1_n_n.contr.Idx) : (dot_S2048x256_S256x256_S2048x256_1_0_0_1_n_n.rhsIdx i q 1).val = (i 1).val := by
  simp [DotDims.rhsIdx, dot_S2048x256_S256x256_S2048x256_1_0_0_1_n_n]; rfl
/-- The host's product at these dimension numbers is the row–column sum. -/
theorem lin2048_rows (a : FVec Ideal ⟨2, ![2048, 256]⟩ .f32) (W : FVec Ideal ⟨2, ![256, 256]⟩ .f32) :
    Host.dotGeneral (F := Ideal) dot_S2048x256_S256x256_S2048x256_1_0_0_1_n_n none a W = rowsMul (n := 2048) (k := 256) (c := 256) a W :=
  dotGeneral_rows dot_S2048x256_S256x256_S2048x256_1_0_0_1_n_n rfl rfl lin2048_l0 lin2048_l1 lin2048_r0 lin2048_r1 none a W

theorem ddi_l0 (i : (⟨2, ![2048, 256]⟩ : Shape).Idx) (q : dot_S2048x2048_S2048x256_S2048x256_1_0_0_1_n_n.contr.Idx) : (dot_S2048x2048_S2048x256_S2048x256_1_0_0_1_n_n.lhsIdx i q 0).val = (i 0).val := by
  simp [DotDims.lhsIdx, dot_S2048x2048_S2048x256_S2048x256_1_0_0_1_n_n]; rfl
theorem ddi_l1 (i : (⟨2, ![2048, 256]⟩ : Shape).Idx) (q : dot_S2048x2048_S2048x256_S2048x256_1_0_0_1_n_n.contr.Idx) : (dot_S2048x2048_S2048x256_S2048x256_1_0_0_1_n_n.lhsIdx i q 1).val = (q ⟨0, by decide⟩).val := by
  simp [DotDims.lhsIdx, dot_S2048x2048_S2048x256_S2048x256_1_0_0_1_n_n]; rfl
theorem ddi_r0 (i : (⟨2, ![2048, 256]⟩ : Shape).Idx) (q : dot_S2048x2048_S2048x256_S2048x256_1_0_0_1_n_n.contr.Idx) : (dot_S2048x2048_S2048x256_S2048x256_1_0_0_1_n_n.rhsIdx i q 0).val = (q ⟨0, by decide⟩).val := by
  simp [DotDims.rhsIdx, dot_S2048x2048_S2048x256_S2048x256_1_0_0_1_n_n]; rfl
theorem ddi_r1 (i : (⟨2, ![2048, 256]⟩ : Shape).Idx) (q : dot_S2048x2048_S2048x256_S2048x256_1_0_0_1_n_n.contr.Idx) : (dot_S2048x2048_S2048x256_S2048x256_1_0_0_1_n_n.rhsIdx i q 1).val = (i 1).val := by
  simp [DotDims.rhsIdx, dot_S2048x2048_S2048x256_S2048x256_1_0_0_1_n_n]; rfl
/-- The host's product at these dimension numbers is the row–column sum. -/
theorem ddi_rows (a : FVec Ideal ⟨2, ![2048, 2048]⟩ .f32) (W : FVec Ideal ⟨2, ![2048, 256]⟩ .f32) :
    Host.dotGeneral (F := Ideal) dot_S2048x2048_S2048x256_S2048x256_1_0_0_1_n_n none a W = rowsMul (n := 2048) (k := 2048) (c := 256) a W :=
  dotGeneral_rows dot_S2048x2048_S2048x256_S2048x256_1_0_0_1_n_n rfl rfl ddi_l0 ddi_l1 ddi_r0 ddi_r1 none a W

theorem lin16384_l0 (i : (⟨2, ![16384, 256]⟩ : Shape).Idx) (q : dot_S16384x256_S256x256_S16384x256_1_0_0_1_n_n.contr.Idx) : (dot_S16384x256_S256x256_S16384x256_1_0_0_1_n_n.lhsIdx i q 0).val = (i 0).val := by
  simp [DotDims.lhsIdx, dot_S16384x256_S256x256_S16384x256_1_0_0_1_n_n]; rfl
theorem lin16384_l1 (i : (⟨2, ![16384, 256]⟩ : Shape).Idx) (q : dot_S16384x256_S256x256_S16384x256_1_0_0_1_n_n.contr.Idx) : (dot_S16384x256_S256x256_S16384x256_1_0_0_1_n_n.lhsIdx i q 1).val = (q ⟨0, by decide⟩).val := by
  simp [DotDims.lhsIdx, dot_S16384x256_S256x256_S16384x256_1_0_0_1_n_n]; rfl
theorem lin16384_r0 (i : (⟨2, ![16384, 256]⟩ : Shape).Idx) (q : dot_S16384x256_S256x256_S16384x256_1_0_0_1_n_n.contr.Idx) : (dot_S16384x256_S256x256_S16384x256_1_0_0_1_n_n.rhsIdx i q 0).val = (q ⟨0, by decide⟩).val := by
  simp [DotDims.rhsIdx, dot_S16384x256_S256x256_S16384x256_1_0_0_1_n_n]; rfl
theorem lin16384_r1 (i : (⟨2, ![16384, 256]⟩ : Shape).Idx) (q : dot_S16384x256_S256x256_S16384x256_1_0_0_1_n_n.contr.Idx) : (dot_S16384x256_S256x256_S16384x256_1_0_0_1_n_n.rhsIdx i q 1).val = (i 1).val := by
  simp [DotDims.rhsIdx, dot_S16384x256_S256x256_S16384x256_1_0_0_1_n_n]; rfl
/-- The host's product at these dimension numbers is the row–column sum. -/
theorem lin16384_rows (a : FVec Ideal ⟨2, ![16384, 256]⟩ .f32) (W : FVec Ideal ⟨2, ![256, 256]⟩ .f32) :
    Host.dotGeneral (F := Ideal) dot_S16384x256_S256x256_S16384x256_1_0_0_1_n_n none a W = rowsMul (n := 16384) (k := 256) (c := 256) a W :=
  dotGeneral_rows dot_S16384x256_S256x256_S16384x256_1_0_0_1_n_n rfl rfl lin16384_l0 lin16384_l1 lin16384_r0 lin16384_r1 none a W

theorem ht_l0 (i : (⟨2, ![8192, 256]⟩ : Shape).Idx) (q : dot_S8192x16384_S16384x256_S8192x256_1_0_0_1_n_n.contr.Idx) : (dot_S8192x16384_S16384x256_S8192x256_1_0_0_1_n_n.lhsIdx i q 0).val = (i 0).val := by
  simp [DotDims.lhsIdx, dot_S8192x16384_S16384x256_S8192x256_1_0_0_1_n_n]; rfl
theorem ht_l1 (i : (⟨2, ![8192, 256]⟩ : Shape).Idx) (q : dot_S8192x16384_S16384x256_S8192x256_1_0_0_1_n_n.contr.Idx) : (dot_S8192x16384_S16384x256_S8192x256_1_0_0_1_n_n.lhsIdx i q 1).val = (q ⟨0, by decide⟩).val := by
  simp [DotDims.lhsIdx, dot_S8192x16384_S16384x256_S8192x256_1_0_0_1_n_n]; rfl
theorem ht_r0 (i : (⟨2, ![8192, 256]⟩ : Shape).Idx) (q : dot_S8192x16384_S16384x256_S8192x256_1_0_0_1_n_n.contr.Idx) : (dot_S8192x16384_S16384x256_S8192x256_1_0_0_1_n_n.rhsIdx i q 0).val = (q ⟨0, by decide⟩).val := by
  simp [DotDims.rhsIdx, dot_S8192x16384_S16384x256_S8192x256_1_0_0_1_n_n]; rfl
theorem ht_r1 (i : (⟨2, ![8192, 256]⟩ : Shape).Idx) (q : dot_S8192x16384_S16384x256_S8192x256_1_0_0_1_n_n.contr.Idx) : (dot_S8192x16384_S16384x256_S8192x256_1_0_0_1_n_n.rhsIdx i q 1).val = (i 1).val := by
  simp [DotDims.rhsIdx, dot_S8192x16384_S16384x256_S8192x256_1_0_0_1_n_n]; rfl
/-- The host's product at these dimension numbers is the row–column sum. -/
theorem ht_rows (a : FVec Ideal ⟨2, ![8192, 16384]⟩ .f32) (W : FVec Ideal ⟨2, ![16384, 256]⟩ .f32) :
    Host.dotGeneral (F := Ideal) dot_S8192x16384_S16384x256_S8192x256_1_0_0_1_n_n none a W = rowsMul (n := 8192) (k := 16384) (c := 256) a W :=
  dotGeneral_rows dot_S8192x16384_S16384x256_S8192x256_1_0_0_1_n_n rfl rfl ht_l0 ht_l1 ht_r0 ht_r1 none a W

theorem h_l0 (i : (⟨2, ![16384, 256]⟩ : Shape).Idx) (q : dot_S16384x8192_S8192x256_S16384x256_1_0_0_1_n_n.contr.Idx) : (dot_S16384x8192_S8192x256_S16384x256_1_0_0_1_n_n.lhsIdx i q 0).val = (i 0).val := by
  simp [DotDims.lhsIdx, dot_S16384x8192_S8192x256_S16384x256_1_0_0_1_n_n]; rfl
theorem h_l1 (i : (⟨2, ![16384, 256]⟩ : Shape).Idx) (q : dot_S16384x8192_S8192x256_S16384x256_1_0_0_1_n_n.contr.Idx) : (dot_S16384x8192_S8192x256_S16384x256_1_0_0_1_n_n.lhsIdx i q 1).val = (q ⟨0, by decide⟩).val := by
  simp [DotDims.lhsIdx, dot_S16384x8192_S8192x256_S16384x256_1_0_0_1_n_n]; rfl
theorem h_r0 (i : (⟨2, ![16384, 256]⟩ : Shape).Idx) (q : dot_S16384x8192_S8192x256_S16384x256_1_0_0_1_n_n.contr.Idx) : (dot_S16384x8192_S8192x256_S16384x256_1_0_0_1_n_n.rhsIdx i q 0).val = (q ⟨0, by decide⟩).val := by
  simp [DotDims.rhsIdx, dot_S16384x8192_S8192x256_S16384x256_1_0_0_1_n_n]; rfl
theorem h_r1 (i : (⟨2, ![16384, 256]⟩ : Shape).Idx) (q : dot_S16384x8192_S8192x256_S16384x256_1_0_0_1_n_n.contr.Idx) : (dot_S16384x8192_S8192x256_S16384x256_1_0_0_1_n_n.rhsIdx i q 1).val = (i 1).val := by
  simp [DotDims.rhsIdx, dot_S16384x8192_S8192x256_S16384x256_1_0_0_1_n_n]; rfl
/-- The host's product at these dimension numbers is the row–column sum. -/
theorem h_rows (a : FVec Ideal ⟨2, ![16384, 8192]⟩ .f32) (W : FVec Ideal ⟨2, ![8192, 256]⟩ .f32) :
    Host.dotGeneral (F := Ideal) dot_S16384x8192_S8192x256_S16384x256_1_0_0_1_n_n none a W = rowsMul (n := 16384) (k := 8192) (c := 256) a W :=
  dotGeneral_rows dot_S16384x8192_S8192x256_S16384x256_1_0_0_1_n_n rfl rfl h_l0 h_l1 h_r0 h_r1 none a W

theorem lin8192_l0 (i : (⟨2, ![8192, 256]⟩ : Shape).Idx) (q : dot_S8192x256_S256x256_S8192x256_1_0_0_1_n_n.contr.Idx) : (dot_S8192x256_S256x256_S8192x256_1_0_0_1_n_n.lhsIdx i q 0).val = (i 0).val := by
  simp [DotDims.lhsIdx, dot_S8192x256_S256x256_S8192x256_1_0_0_1_n_n]; rfl
theorem lin8192_l1 (i : (⟨2, ![8192, 256]⟩ : Shape).Idx) (q : dot_S8192x256_S256x256_S8192x256_1_0_0_1_n_n.contr.Idx) : (dot_S8192x256_S256x256_S8192x256_1_0_0_1_n_n.lhsIdx i q 1).val = (q ⟨0, by decide⟩).val := by
  simp [DotDims.lhsIdx, dot_S8192x256_S256x256_S8192x256_1_0_0_1_n_n]; rfl
theorem lin8192_r0 (i : (⟨2, ![8192, 256]⟩ : Shape).Idx) (q : dot_S8192x256_S256x256_S8192x256_1_0_0_1_n_n.contr.Idx) : (dot_S8192x256_S256x256_S8192x256_1_0_0_1_n_n.rhsIdx i q 0).val = (q ⟨0, by decide⟩).val := by
  simp [DotDims.rhsIdx, dot_S8192x256_S256x256_S8192x256_1_0_0_1_n_n]; rfl
theorem lin8192_r1 (i : (⟨2, ![8192, 256]⟩ : Shape).Idx) (q : dot_S8192x256_S256x256_S8192x256_1_0_0_1_n_n.contr.Idx) : (dot_S8192x256_S256x256_S8192x256_1_0_0_1_n_n.rhsIdx i q 1).val = (i 1).val := by
  simp [DotDims.rhsIdx, dot_S8192x256_S256x256_S8192x256_1_0_0_1_n_n]; rfl
/-- The host's product at these dimension numbers is the row–column sum. -/
theorem lin8192_rows (a : FVec Ideal ⟨2, ![8192, 256]⟩ .f32) (W : FVec Ideal ⟨2, ![256, 256]⟩ .f32) :
    Host.dotGeneral (F := Ideal) dot_S8192x256_S256x256_S8192x256_1_0_0_1_n_n none a W = rowsMul (n := 8192) (k := 256) (c := 256) a W :=
  dotGeneral_rows dot_S8192x256_S256x256_S8192x256_1_0_0_1_n_n rfl rfl lin8192_l0 lin8192_l1 lin8192_r0 lin8192_r1 none a W

theorem a_l0 (i : (⟨2, ![8192, 256]⟩ : Shape).Idx) (q : dot_S8192x8192_S8192x256_S8192x256_1_0_0_1_n_n.contr.Idx) : (dot_S8192x8192_S8192x256_S8192x256_1_0_0_1_n_n.lhsIdx i q 0).val = (i 0).val := by
  simp [DotDims.lhsIdx, dot_S8192x8192_S8192x256_S8192x256_1_0_0_1_n_n]; rfl
theorem a_l1 (i : (⟨2, ![8192, 256]⟩ : Shape).Idx) (q : dot_S8192x8192_S8192x256_S8192x256_1_0_0_1_n_n.contr.Idx) : (dot_S8192x8192_S8192x256_S8192x256_1_0_0_1_n_n.lhsIdx i q 1).val = (q ⟨0, by decide⟩).val := by
  simp [DotDims.lhsIdx, dot_S8192x8192_S8192x256_S8192x256_1_0_0_1_n_n]; rfl
theorem a_r0 (i : (⟨2, ![8192, 256]⟩ : Shape).Idx) (q : dot_S8192x8192_S8192x256_S8192x256_1_0_0_1_n_n.contr.Idx) : (dot_S8192x8192_S8192x256_S8192x256_1_0_0_1_n_n.rhsIdx i q 0).val = (q ⟨0, by decide⟩).val := by
  simp [DotDims.rhsIdx, dot_S8192x8192_S8192x256_S8192x256_1_0_0_1_n_n]; rfl
theorem a_r1 (i : (⟨2, ![8192, 256]⟩ : Shape).Idx) (q : dot_S8192x8192_S8192x256_S8192x256_1_0_0_1_n_n.contr.Idx) : (dot_S8192x8192_S8192x256_S8192x256_1_0_0_1_n_n.rhsIdx i q 1).val = (i 1).val := by
  simp [DotDims.rhsIdx, dot_S8192x8192_S8192x256_S8192x256_1_0_0_1_n_n]; rfl
/-- The host's product at these dimension numbers is the row–column sum. -/
theorem a_rows (a : FVec Ideal ⟨2, ![8192, 8192]⟩ .f32) (W : FVec Ideal ⟨2, ![8192, 256]⟩ .f32) :
    Host.dotGeneral (F := Ideal) dot_S8192x8192_S8192x256_S8192x256_1_0_0_1_n_n none a W = rowsMul (n := 8192) (k := 8192) (c := 256) a W :=
  dotGeneral_rows dot_S8192x8192_S8192x256_S8192x256_1_0_0_1_n_n rfl rfl a_l0 a_l1 a_r0 a_r1 none a W

/-- A [n,255] array summed along its rows is a vector [n]. -/
theorem red2048 : S2048x255.Reduces [1] S2048 := by decide
theorem red8192 : S8192x255.Reduces [1] S8192 := by decide
theorem red16384 : S16384x255.Reduces [1] S16384 := by decide

variable (V0 : Valuation τ sig (Elt Ideal))

/-! ## The argument arrays, at the model's types -/

abbrev aDis : Arr2 8192 256 := V0 (Proc.devRef .tc main_arg0)
abbrev aPro : Arr2 6144 256 := V0 (Proc.devRef .tc main_arg1)
abbrev aMed : Arr2 2048 256 := V0 (Proc.devRef .tc main_arg2)
abbrev aH : Arr2 16384 8192 := V0 (Proc.devRef .tc main_arg3)
abbrev aA : Arr2 8192 8192 := V0 (Proc.devRef .tc main_arg4)
abbrev aDdi : Arr2 2048 2048 := V0 (Proc.devRef .tc main_arg5)
abbrev aWh : Arr2 256 256 := V0 (Proc.devRef .tc main_arg6)
abbrev aBh : Arr1 256 := V0 (Proc.devRef .tc main_arg7)
abbrev aSh : (⟨0, ![]⟩ : Shape).Idx → EReal := V0 (Proc.devRef .tc main_arg8)
abbrev aWl : Arr2 256 256 := V0 (Proc.devRef .tc main_arg9)
abbrev aBl : Arr1 256 := V0 (Proc.devRef .tc main_arg10)
abbrev aSl : (⟨0, ![]⟩ : Shape).Idx → EReal := V0 (Proc.devRef .tc main_arg11)
abbrev aWhg : (⟨3, ![2, 256, 256]⟩ : Shape).Idx → EReal := V0 (Proc.devRef .tc main_arg12)
abbrev aBhg : Arr2 2 256 := V0 (Proc.devRef .tc main_arg13)
abbrev aShg : Arr1 2 := V0 (Proc.devRef .tc main_arg14)
abbrev aWg : (⟨3, ![2, 256, 256]⟩ : Shape).Idx → EReal := V0 (Proc.devRef .tc main_arg15)
abbrev aBg : Arr2 2 256 := V0 (Proc.devRef .tc main_arg16)
abbrev aSg : Arr1 2 := V0 (Proc.devRef .tc main_arg17)
abbrev aWd : (⟨3, ![2, 256, 256]⟩ : Shape).Idx → EReal := V0 (Proc.devRef .tc main_arg18)
abbrev aBd : Arr2 2 256 := V0 (Proc.devRef .tc main_arg19)
abbrev aSd : Arr1 2 := V0 (Proc.devRef .tc main_arg20)

/-- The three embedding tables stacked. -/
theorem v0_eq : res_main_v0 V0 = stack3 (aDis V0) (aPro V0) (aMed V0) := by
  unfold res_main_v0
  exact ref_stack3 _ _ _ _

/-- The first drug-interaction layer's x·Wᵀ + b. -/
theorem v11_eq : res_main_v11 V0 = pre (aMed V0) (layerW (aWd V0) 0) (layerB (aBd V0) 0) := by
  unfold res_main_v11
  rw [ref_layerW (aWd V0) 0 (by decide) slices_S2x256x256_S1x256x256_0_0_0 shapeCasts_S1x256x256_S256x256,
    ref_layerB (aBd V0) 0 (by decide) slices_S2x256_S1x256_0_0 shapeCasts_S1x256_S256]
  exact host_pre (n := 2048) _ _ _ dot_S2048x256_S256x256_S2048x256_1_0_0_1_n_n rfl rfl lin2048_l0 lin2048_l1 lin2048_r0 lin2048_r1
    transposes_S256x256_S256x256_1_0 bcast_S256_S1x256_1 bcast_S1x256_S2048x256_0_1

/-- The drug-interaction graph times the first layer's rows. -/
theorem v38_eq : res_main_v38 V0 = rowsMul (aDdi V0) (linear (aMed V0) (layerW (aWd V0) 0) (layerB (aBd V0) 0) (layerS (aSd V0) 0)) := by
  unfold res_main_v38
  rw [host_proj (n := 2048) (pre (aMed V0) (layerW (aWd V0) 0) (layerB (aBd V0) 0)) (shapeCast S_ (extractStridedSlice S1 ![0] (aSd V0) slices_S2_S1_0) shapeCasts_S1_S_)
      slices_S2048x256_S2048x1_0_0 slices_S2048x256_S2048x255_0_1 reducesTo_S2048x255_S2048_d1 red2048 h_S_ bcast_S2048_S2048x1_0 bcast_S_S2048x1 bcast_S2048x1_S2048x255_0_1 concatenates_S2048x1_S2048x255_S2048x256_d1
      (res_main_v23 V0) (res_main_v24 V0)
      (by unfold res_main_v23; rw [v11_eq V0]) (by unfold res_main_v24; rw [v11_eq V0]),
    ddi_rows,
    ref_layerS (aSd V0) 0 (by decide) slices_S2_S1_0 shapeCasts_S1_S_]
  rfl

/-- Its normalisation: the first graph layer. -/
theorem n38_eq : Host.divf (F := Ideal) (φ := .f32) (res_main_v38 V0) (broadcastInDim S2048x256 ![0, 1] bcast_S2048x1_S2048x256_0_1 (Host.sqrt (maximumf (Host.absf (subf (mulf (res_main_v39 V0) (res_main_v39 V0)) (broadcastInDim S2048x1 ![0] bcast_S2048_S2048x1_0 (Host.reduceAdd (mulf (res_main_v41 V0) (res_main_v41 V0)) (constant S_ .f32 0x00000000#32) reducesTo_S2048x255_S2048_d1 h_S_)))) (broadcastInDim S2048x1 ![] bcast_S_S2048x1 (constant S_ .f32 0x322BCC77#32))))) = agg (aDdi V0) (linear (aMed V0) (layerW (aWd V0) 0) (layerB (aBd V0) 0) (layerS (aSd V0) 0)) := by
  unfold res_main_v39 res_main_v41
  rw [v38_eq V0]
  exact host_norm (n := 2048) _ slices_S2048x256_S2048x1_0_0 slices_S2048x256_S2048x255_0_1 reducesTo_S2048x255_S2048_d1 red2048 h_S_ bcast_S2048_S2048x1_0 bcast_S_S2048x1 bcast_S2048x1_S2048x256_0_1

/-- The second drug-interaction layer's x·Wᵀ + b. -/
theorem v62_eq : res_main_v62 V0 = pre (agg (aDdi V0) (linear (aMed V0) (layerW (aWd V0) 0) (layerB (aBd V0) 0) (layerS (aSd V0) 0))) (layerW (aWd V0) 1) (layerB (aBd V0) 1) := by
  unfold res_main_v62
  rw [n38_eq V0,
    ref_layerW (aWd V0) 1 (by decide) slices_S2x256x256_S1x256x256_1_0_0 shapeCasts_S1x256x256_S256x256,
    ref_layerB (aBd V0) 1 (by decide) slices_S2x256_S1x256_1_0 shapeCasts_S1x256_S256]
  exact host_pre (n := 2048) _ _ _ dot_S2048x256_S256x256_S2048x256_1_0_0_1_n_n rfl rfl lin2048_l0 lin2048_l1 lin2048_r0 lin2048_r1
    transposes_S256x256_S256x256_1_0 bcast_S256_S1x256_1 bcast_S1x256_S2048x256_0_1

/-- The drug-interaction graph times the second layer's rows. -/
theorem v89_eq : res_main_v89 V0 = rowsMul (aDdi V0) (linear (agg (aDdi V0) (linear (aMed V0) (layerW (aWd V0) 0) (layerB (aBd V0) 0) (layerS (aSd V0) 0))) (layerW (aWd V0) 1) (layerB (aBd V0) 1) (layerS (aSd V0) 1)) := by
  unfold res_main_v89
  rw [host_proj (n := 2048) (pre (agg (aDdi V0) (linear (aMed V0) (layerW (aWd V0) 0) (layerB (aBd V0) 0) (layerS (aSd V0) 0))) (layerW (aWd V0) 1) (layerB (aBd V0) 1)) (shapeCast S_ (extractStridedSlice S1 ![1] (aSd V0) slices_S2_S1_1) shapeCasts_S1_S_)
      slices_S2048x256_S2048x1_0_0 slices_S2048x256_S2048x255_0_1 reducesTo_S2048x255_S2048_d1 red2048 h_S_ bcast_S2048_S2048x1_0 bcast_S_S2048x1 bcast_S2048x1_S2048x255_0_1 concatenates_S2048x1_S2048x255_S2048x256_d1
      (res_main_v74 V0) (res_main_v75 V0)
      (by unfold res_main_v74; rw [v62_eq V0]) (by unfold res_main_v75; rw [v62_eq V0]),
    ddi_rows,
    ref_layerS (aSd V0) 1 (by decide) slices_S2_S1_1 shapeCasts_S1_S_]
  rfl

/-- Its normalisation: the second graph layer. -/
theorem n89_eq : Host.divf (F := Ideal) (φ := .f32) (res_main_v89 V0) (broadcastInDim S2048x256 ![0, 1] bcast_S2048x1_S2048x256_0_1 (Host.sqrt (maximumf (Host.absf (subf (mulf (res_main_v90 V0) (res_main_v90 V0)) (broadcastInDim S2048x1 ![0] bcast_S2048_S2048x1_0 (Host.reduceAdd (mulf (res_main_v92 V0) (res_main_v92 V0)) (constant S_ .f32 0x00000000#32) reducesTo_S2048x255_S2048_d1 h_S_)))) (broadcastInDim S2048x1 ![] bcast_S_S2048x1 (constant S_ .f32 0x322BCC77#32))))) = agg (aDdi V0) (linear (agg (aDdi V0) (linear (aMed V0) (layerW (aWd V0) 0) (layerB (aBd V0) 0) (layerS (aSd V0) 0))) (layerW (aWd V0) 1) (layerB (aBd V0) 1) (layerS (aSd V0) 1)) := by
  unfold res_main_v90 res_main_v92
  rw [v89_eq V0]
  exact host_norm (n := 2048) _ slices_S2048x256_S2048x1_0_0 slices_S2048x256_S2048x255_0_1 reducesTo_S2048x255_S2048_d1 red2048 h_S_ bcast_S2048_S2048x1_0 bcast_S_S2048x1 bcast_S2048x1_S2048x256_0_1

/-- The first gate's x·Wᵀ + b on the stacked tables. -/
theorem v107_eq : res_main_v107 V0 = pre (stack3 (aDis V0) (aPro V0) (aMed V0)) (aWh V0) (aBh V0) := by
  unfold res_main_v107
  rw [v0_eq V0]
  exact host_pre (n := 16384) _ _ _ dot_S16384x256_S256x256_S16384x256_1_0_0_1_n_n rfl rfl lin16384_l0 lin16384_l1 lin16384_r0 lin16384_r1
    transposes_S256x256_S256x256_1_0 bcast_S256_S1x256_1 bcast_S1x256_S16384x256_0_1

/-- The first hypergraph layer's x·Wᵀ + b on the first gated copy. -/
theorem v189_eq : res_main_v189 V0 = pre (gate (linear (stack3 (aDis V0) (aPro V0) (aMed V0)) (aWh V0) (aBh V0) (scalarS (aSh V0))) (stack3 (aDis V0) (aPro V0) (aMed V0))) (layerW (aWhg V0) 0) (layerB (aBhg V0) 0) := by
  unfold res_main_v189
  rw [host_proj (n := 16384) (pre (stack3 (aDis V0) (aPro V0) (aMed V0)) (aWh V0) (aBh V0)) (aSh V0)
      slices_S16384x256_S16384x1_0_0 slices_S16384x256_S16384x255_0_1 reducesTo_S16384x255_S16384_d1 red16384 h_S_ bcast_S16384_S16384x1_0 bcast_S_S16384x1 bcast_S16384x1_S16384x255_0_1 concatenates_S16384x1_S16384x255_S16384x256_d1
      (res_main_v119 V0) (res_main_v120 V0)
      (by unfold res_main_v119; rw [v107_eq V0]) (by unfold res_main_v120; rw [v107_eq V0]),
    v0_eq V0,
    ref_gate _ _ bcast_S_S16384x256,
    ref_layerW (aWhg V0) 0 (by decide) slices_S2x256x256_S1x256x256_0_0_0 shapeCasts_S1x256x256_S256x256,
    ref_layerB (aBhg V0) 0 (by decide) slices_S2x256_S1x256_0_0 shapeCasts_S1x256_S256]
  exact host_pre (n := 16384) _ _ _ dot_S16384x256_S256x256_S16384x256_1_0_0_1_n_n rfl rfl lin16384_l0 lin16384_l1 lin16384_r0 lin16384_r1
    transposes_S256x256_S256x256_1_0 bcast_S256_S1x256_1 bcast_S1x256_S16384x256_0_1

/-- Nodes to hyperedges: the transposed incidence matrix times the layer's rows. -/
theorem v217_eq : res_main_v217 V0 = rowsMul (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)) := by
  unfold res_main_v217
  rw [host_proj (n := 16384) (pre (gate (linear (stack3 (aDis V0) (aPro V0) (aMed V0)) (aWh V0) (aBh V0) (scalarS (aSh V0))) (stack3 (aDis V0) (aPro V0) (aMed V0))) (layerW (aWhg V0) 0) (layerB (aBhg V0) 0)) (shapeCast S_ (extractStridedSlice S1 ![0] (aShg V0) slices_S2_S1_0) shapeCasts_S1_S_)
      slices_S16384x256_S16384x1_0_0 slices_S16384x256_S16384x255_0_1 reducesTo_S16384x255_S16384_d1 red16384 h_S_ bcast_S16384_S16384x1_0 bcast_S_S16384x1 bcast_S16384x1_S16384x255_0_1 concatenates_S16384x1_S16384x255_S16384x256_d1
      (res_main_v201 V0) (res_main_v202 V0)
      (by unfold res_main_v201; rw [v189_eq V0]) (by unfold res_main_v202; rw [v189_eq V0]),
    ref_tr (aH V0) transposes_S16384x8192_S8192x16384_1_0,
    ht_rows,
    ref_layerS (aShg V0) 0 (by decide) slices_S2_S1_0 shapeCasts_S1_S_]
  rfl

/-- Its normalisation. -/
theorem n217_eq : Host.divf (F := Ideal) (φ := .f32) (res_main_v217 V0) (broadcastInDim S8192x256 ![0, 1] bcast_S8192x1_S8192x256_0_1 (Host.sqrt (maximumf (Host.absf (subf (mulf (res_main_v218 V0) (res_main_v218 V0)) (broadcastInDim S8192x1 ![0] bcast_S8192_S8192x1_0 (Host.reduceAdd (mulf (res_main_v220 V0) (res_main_v220 V0)) (constant S_ .f32 0x00000000#32) reducesTo_S8192x255_S8192_d1 h_S_)))) (broadcastInDim S8192x1 ![] bcast_S_S8192x1 (constant S_ .f32 0x322BCC77#32))))) = agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)) := by
  unfold res_main_v218 res_main_v220
  rw [v217_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-- Hyperedges back to nodes: the incidence matrix times the normalised rows. -/
theorem v231_eq : res_main_v231 V0 = rowsMul (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0))) := by
  unfold res_main_v231
  rw [n217_eq V0, h_rows]

/-- Its normalisation: the first hypergraph layer. -/
theorem n231_eq : Host.divf (F := Ideal) (φ := .f32) (res_main_v231 V0) (broadcastInDim S16384x256 ![0, 1] bcast_S16384x1_S16384x256_0_1 (Host.sqrt (maximumf (Host.absf (subf (mulf (res_main_v232 V0) (res_main_v232 V0)) (broadcastInDim S16384x1 ![0] bcast_S16384_S16384x1_0 (Host.reduceAdd (mulf (res_main_v234 V0) (res_main_v234 V0)) (constant S_ .f32 0x00000000#32) reducesTo_S16384x255_S16384_d1 h_S_)))) (broadcastInDim S16384x1 ![] bcast_S_S16384x1 (constant S_ .f32 0x322BCC77#32))))) = agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0))) := by
  unfold res_main_v232 res_main_v234
  rw [v231_eq V0]
  exact host_norm (n := 16384) _ slices_S16384x256_S16384x1_0_0 slices_S16384x256_S16384x255_0_1 reducesTo_S16384x255_S16384_d1 red16384 h_S_ bcast_S16384_S16384x1_0 bcast_S_S16384x1 bcast_S16384x1_S16384x256_0_1

/-- The second hypergraph layer's x·Wᵀ + b. -/
theorem v255_eq : res_main_v255 V0 = pre (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) := by
  unfold res_main_v255
  rw [n231_eq V0,
    ref_layerW (aWhg V0) 1 (by decide) slices_S2x256x256_S1x256x256_1_0_0 shapeCasts_S1x256x256_S256x256,
    ref_layerB (aBhg V0) 1 (by decide) slices_S2x256_S1x256_1_0 shapeCasts_S1x256_S256]
  exact host_pre (n := 16384) _ _ _ dot_S16384x256_S256x256_S16384x256_1_0_0_1_n_n rfl rfl lin16384_l0 lin16384_l1 lin16384_r0 lin16384_r1
    transposes_S256x256_S256x256_1_0 bcast_S256_S1x256_1 bcast_S1x256_S16384x256_0_1

/-- Nodes to hyperedges in the second layer. -/
theorem v283_eq : res_main_v283 V0 = rowsMul (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1)) := by
  unfold res_main_v283
  rw [host_proj (n := 16384) (pre (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1)) (shapeCast S_ (extractStridedSlice S1 ![1] (aShg V0) slices_S2_S1_1) shapeCasts_S1_S_)
      slices_S16384x256_S16384x1_0_0 slices_S16384x256_S16384x255_0_1 reducesTo_S16384x255_S16384_d1 red16384 h_S_ bcast_S16384_S16384x1_0 bcast_S_S16384x1 bcast_S16384x1_S16384x255_0_1 concatenates_S16384x1_S16384x255_S16384x256_d1
      (res_main_v267 V0) (res_main_v268 V0)
      (by unfold res_main_v267; rw [v255_eq V0]) (by unfold res_main_v268; rw [v255_eq V0]),
    ref_tr (aH V0) transposes_S16384x8192_S8192x16384_1_0,
    ht_rows,
    ref_layerS (aShg V0) 1 (by decide) slices_S2_S1_1 shapeCasts_S1_S_]
  rfl

/-- Its normalisation. -/
theorem n283_eq : Host.divf (F := Ideal) (φ := .f32) (res_main_v283 V0) (broadcastInDim S8192x256 ![0, 1] bcast_S8192x1_S8192x256_0_1 (Host.sqrt (maximumf (Host.absf (subf (mulf (res_main_v284 V0) (res_main_v284 V0)) (broadcastInDim S8192x1 ![0] bcast_S8192_S8192x1_0 (Host.reduceAdd (mulf (res_main_v286 V0) (res_main_v286 V0)) (constant S_ .f32 0x00000000#32) reducesTo_S8192x255_S8192_d1 h_S_)))) (broadcastInDim S8192x1 ![] bcast_S_S8192x1 (constant S_ .f32 0x322BCC77#32))))) = agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1)) := by
  unfold res_main_v284 res_main_v286
  rw [v283_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-- Hyperedges back to nodes in the second layer. -/
theorem v297_eq : res_main_v297 V0 = rowsMul (aH V0) (agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1))) := by
  unfold res_main_v297
  rw [n283_eq V0, h_rows]

/-- Its normalisation: the node embeddings after two hypergraph layers. -/
theorem n297_eq : Host.divf (F := Ideal) (φ := .f32) (res_main_v297 V0) (broadcastInDim S16384x256 ![0, 1] bcast_S16384x1_S16384x256_0_1 (Host.sqrt (maximumf (Host.absf (subf (mulf (res_main_v298 V0) (res_main_v298 V0)) (broadcastInDim S16384x1 ![0] bcast_S16384_S16384x1_0 (Host.reduceAdd (mulf (res_main_v300 V0) (res_main_v300 V0)) (constant S_ .f32 0x00000000#32) reducesTo_S16384x255_S16384_d1 h_S_)))) (broadcastInDim S16384x1 ![] bcast_S_S16384x1 (constant S_ .f32 0x322BCC77#32))))) = agg (aH V0) (agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1))) := by
  unfold res_main_v298 res_main_v300
  rw [v297_eq V0]
  exact host_norm (n := 16384) _ slices_S16384x256_S16384x1_0_0 slices_S16384x256_S16384x255_0_1 reducesTo_S16384x255_S16384_d1 red16384 h_S_ bcast_S16384_S16384x1_0 bcast_S_S16384x1 bcast_S16384x1_S16384x256_0_1

/-- The node embeddings, as the program names them. -/
theorem v310_eq : res_main_v310 V0 = agg (aH V0) (agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1))) := by
  unfold res_main_v310
  exact n297_eq V0

/-- The node embeddings carried to the hyperedges. -/
theorem v312_eq : res_main_v312 V0 = rowsMul (tr (aH V0)) (agg (aH V0) (agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1)))) := by
  unfold res_main_v312
  rw [v310_eq V0, ref_tr (aH V0) transposes_S16384x8192_S8192x16384_1_0, ht_rows]

/-- Its normalisation: the hyperedge representation. -/
theorem n312_eq : Host.divf (F := Ideal) (φ := .f32) (res_main_v312 V0) (broadcastInDim S8192x256 ![0, 1] bcast_S8192x1_S8192x256_0_1 (Host.sqrt (maximumf (Host.absf (subf (mulf (res_main_v313 V0) (res_main_v313 V0)) (broadcastInDim S8192x1 ![0] bcast_S8192_S8192x1_0 (Host.reduceAdd (mulf (res_main_v315 V0) (res_main_v315 V0)) (constant S_ .f32 0x00000000#32) reducesTo_S8192x255_S8192_d1 h_S_)))) (broadcastInDim S8192x1 ![] bcast_S_S8192x1 (constant S_ .f32 0x322BCC77#32))))) = agg (tr (aH V0)) (agg (aH V0) (agg (tr (aH V0)) (linear (agg (aH V0) (agg (tr (aH V0)) (linear (gate (linear (stack3 (aDis V0) (aPro V0) (aMed V0)) (aWh V0) (aBh V0) (scalarS (aSh V0))) (stack3 (aDis V0) (aPro V0) (aMed V0))) (layerW (aWhg V0) 0) (layerB (aBhg V0) 0) (layerS (aShg V0) 0)))) (layerW (aWhg V0) 1) (layerB (aBhg V0) 1) (layerS (aShg V0) 1)))) := by
  unfold res_main_v313 res_main_v315
  rw [v312_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-- The second gate's x·Wᵀ + b on the stacked tables. -/
theorem v145_eq : res_main_v145 V0 = pre (stack3 (aDis V0) (aPro V0) (aMed V0)) (aWl V0) (aBl V0) := by
  unfold res_main_v145
  rw [v0_eq V0]
  exact host_pre (n := 16384) _ _ _ dot_S16384x256_S256x256_S16384x256_1_0_0_1_n_n rfl rfl lin16384_l0 lin16384_l1 lin16384_r0 lin16384_r1
    transposes_S256x256_S256x256_1_0 bcast_S256_S1x256_1 bcast_S1x256_S16384x256_0_1

/-- The second gated copy carried to the hyperedges. -/
theorem v327_eq : res_main_v327 V0 = rowsMul (tr (aH V0)) (gate (linear (stack3 (aDis V0) (aPro V0) (aMed V0)) (aWl V0) (aBl V0) (scalarS (aSl V0))) (stack3 (aDis V0) (aPro V0) (aMed V0))) := by
  unfold res_main_v327
  rw [host_proj (n := 16384) (pre (stack3 (aDis V0) (aPro V0) (aMed V0)) (aWl V0) (aBl V0)) (aSl V0)
      slices_S16384x256_S16384x1_0_0 slices_S16384x256_S16384x255_0_1 reducesTo_S16384x255_S16384_d1 red16384 h_S_ bcast_S16384_S16384x1_0 bcast_S_S16384x1 bcast_S16384x1_S16384x255_0_1 concatenates_S16384x1_S16384x255_S16384x256_d1
      (res_main_v157 V0) (res_main_v158 V0)
      (by unfold res_main_v157; rw [v145_eq V0]) (by unfold res_main_v158; rw [v145_eq V0]),
    v0_eq V0,
    ref_gate _ _ bcast_S_S16384x256,
    ref_tr (aH V0) transposes_S16384x8192_S8192x16384_1_0,
    ht_rows]
  rfl

/-- Its normalisation. -/
theorem n327_eq : Host.divf (F := Ideal) (φ := .f32) (res_main_v327 V0) (broadcastInDim S8192x256 ![0, 1] bcast_S8192x1_S8192x256_0_1 (Host.sqrt (maximumf (Host.absf (subf (mulf (res_main_v328 V0) (res_main_v328 V0)) (broadcastInDim S8192x1 ![0] bcast_S8192_S8192x1_0 (Host.reduceAdd (mulf (res_main_v330 V0) (res_main_v330 V0)) (constant S_ .f32 0x00000000#32) reducesTo_S8192x255_S8192_d1 h_S_)))) (broadcastInDim S8192x1 ![] bcast_S_S8192x1 (constant S_ .f32 0x322BCC77#32))))) = agg (tr (aH V0)) (gate (linear (stack3 (aDis V0) (aPro V0) (aMed V0)) (aWl V0) (aBl V0) (scalarS (aSl V0))) (stack3 (aDis V0) (aPro V0) (aMed V0))) := by
  unfold res_main_v328 res_main_v330
  rw [v327_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-- The first hyperedge-graph layer's x·Wᵀ + b. -/
theorem v351_eq : res_main_v351 V0 = pre (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) := by
  unfold res_main_v351
  rw [n327_eq V0,
    ref_layerW (aWg V0) 0 (by decide) slices_S2x256x256_S1x256x256_0_0_0 shapeCasts_S1x256x256_S256x256,
    ref_layerB (aBg V0) 0 (by decide) slices_S2x256_S1x256_0_0 shapeCasts_S1x256_S256]
  exact host_pre (n := 8192) _ _ _ dot_S8192x256_S256x256_S8192x256_1_0_0_1_n_n rfl rfl lin8192_l0 lin8192_l1 lin8192_r0 lin8192_r1
    transposes_S256x256_S256x256_1_0 bcast_S256_S1x256_1 bcast_S1x256_S8192x256_0_1

/-- The hyperedge graph times the first layer's rows. -/
theorem v378_eq : res_main_v378 V0 = rowsMul (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0)) := by
  unfold res_main_v378
  rw [host_proj (n := 8192) (pre (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0)) (shapeCast S_ (extractStridedSlice S1 ![0] (aSg V0) slices_S2_S1_0) shapeCasts_S1_S_)
      slices_S8192x256_S8192x1_0_0 slices_S8192x256_S8192x255_0_1 reducesTo_S8192x255_S8192_d1 red8192 h_S_ bcast_S8192_S8192x1_0 bcast_S_S8192x1 bcast_S8192x1_S8192x255_0_1 concatenates_S8192x1_S8192x255_S8192x256_d1
      (res_main_v363 V0) (res_main_v364 V0)
      (by unfold res_main_v363; rw [v351_eq V0]) (by unfold res_main_v364; rw [v351_eq V0]),
    a_rows,
    ref_layerS (aSg V0) 0 (by decide) slices_S2_S1_0 shapeCasts_S1_S_]
  rfl

/-- Its normalisation: the first graph layer on the hyperedges. -/
theorem n378_eq : Host.divf (F := Ideal) (φ := .f32) (res_main_v378 V0) (broadcastInDim S8192x256 ![0, 1] bcast_S8192x1_S8192x256_0_1 (Host.sqrt (maximumf (Host.absf (subf (mulf (res_main_v379 V0) (res_main_v379 V0)) (broadcastInDim S8192x1 ![0] bcast_S8192_S8192x1_0 (Host.reduceAdd (mulf (res_main_v381 V0) (res_main_v381 V0)) (constant S_ .f32 0x00000000#32) reducesTo_S8192x255_S8192_d1 h_S_)))) (broadcastInDim S8192x1 ![] bcast_S_S8192x1 (constant S_ .f32 0x322BCC77#32))))) = agg (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0)) := by
  unfold res_main_v379 res_main_v381
  rw [v378_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-- The second hyperedge-graph layer's x·Wᵀ + b. -/
theorem v402_eq : res_main_v402 V0 = pre (agg (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0))) (layerW (aWg V0) 1) (layerB (aBg V0) 1) := by
  unfold res_main_v402
  rw [n378_eq V0,
    ref_layerW (aWg V0) 1 (by decide) slices_S2x256x256_S1x256x256_1_0_0 shapeCasts_S1x256x256_S256x256,
    ref_layerB (aBg V0) 1 (by decide) slices_S2x256_S1x256_1_0 shapeCasts_S1x256_S256]
  exact host_pre (n := 8192) _ _ _ dot_S8192x256_S256x256_S8192x256_1_0_0_1_n_n rfl rfl lin8192_l0 lin8192_l1 lin8192_r0 lin8192_r1
    transposes_S256x256_S256x256_1_0 bcast_S256_S1x256_1 bcast_S1x256_S8192x256_0_1

/-- The hyperedge graph times the second layer's rows. -/
theorem v429_eq : res_main_v429 V0 = rowsMul (aA V0) (linear (agg (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0))) (layerW (aWg V0) 1) (layerB (aBg V0) 1) (layerS (aSg V0) 1)) := by
  unfold res_main_v429
  rw [host_proj (n := 8192) (pre (agg (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0))) (layerW (aWg V0) 1) (layerB (aBg V0) 1)) (shapeCast S_ (extractStridedSlice S1 ![1] (aSg V0) slices_S2_S1_1) shapeCasts_S1_S_)
      slices_S8192x256_S8192x1_0_0 slices_S8192x256_S8192x255_0_1 reducesTo_S8192x255_S8192_d1 red8192 h_S_ bcast_S8192_S8192x1_0 bcast_S_S8192x1 bcast_S8192x1_S8192x255_0_1 concatenates_S8192x1_S8192x255_S8192x256_d1
      (res_main_v414 V0) (res_main_v415 V0)
      (by unfold res_main_v414; rw [v402_eq V0]) (by unfold res_main_v415; rw [v402_eq V0]),
    a_rows,
    ref_layerS (aSg V0) 1 (by decide) slices_S2_S1_1 shapeCasts_S1_S_]
  rfl

/-- Its normalisation: the second graph layer on the hyperedges. -/
theorem n429_eq : Host.divf (F := Ideal) (φ := .f32) (res_main_v429 V0) (broadcastInDim S8192x256 ![0, 1] bcast_S8192x1_S8192x256_0_1 (Host.sqrt (maximumf (Host.absf (subf (mulf (res_main_v430 V0) (res_main_v430 V0)) (broadcastInDim S8192x1 ![0] bcast_S8192_S8192x1_0 (Host.reduceAdd (mulf (res_main_v432 V0) (res_main_v432 V0)) (constant S_ .f32 0x00000000#32) reducesTo_S8192x255_S8192_d1 h_S_)))) (broadcastInDim S8192x1 ![] bcast_S_S8192x1 (constant S_ .f32 0x322BCC77#32))))) = agg (aA V0) (linear (agg (aA V0) (linear (agg (tr (aH V0)) (gate (linear (stack3 (aDis V0) (aPro V0) (aMed V0)) (aWl V0) (aBl V0) (scalarS (aSl V0))) (stack3 (aDis V0) (aPro V0) (aMed V0)))) (layerW (aWg V0) 0) (layerB (aBg V0) 0) (layerS (aSg V0) 0))) (layerW (aWg V0) 1) (layerB (aBg V0) 1) (layerS (aSg V0) 1)) := by
  unfold res_main_v430 res_main_v432
  rw [v429_eq V0]
  exact host_norm (n := 8192) _ slices_S8192x256_S8192x1_0_0 slices_S8192x256_S8192x255_0_1 reducesTo_S8192x255_S8192_d1 red8192 h_S_ bcast_S8192_S8192x1_0 bcast_S_S8192x1 bcast_S8192x1_S8192x256_0_1

/-! ## The six results -/

/-- The reference's six results, as the terms its run states them at, are the model's arrays of the 21 arguments. -/
theorem ref_results :
    let dis : Arr2 8192 256 := V0 (Proc.devRef .tc main_arg0)
    let pro : Arr2 6144 256 := V0 (Proc.devRef .tc main_arg1)
    let med : Arr2 2048 256 := V0 (Proc.devRef .tc main_arg2)
    let H : Arr2 16384 8192 := V0 (Proc.devRef .tc main_arg3)
    let A : Arr2 8192 8192 := V0 (Proc.devRef .tc main_arg4)
    let ddi : Arr2 2048 2048 := V0 (Proc.devRef .tc main_arg5)
    let Wh : Arr2 256 256 := V0 (Proc.devRef .tc main_arg6)
    let bh : Arr1 256 := V0 (Proc.devRef .tc main_arg7)
    let sh : (⟨0, ![]⟩ : Shape).Idx → EReal := V0 (Proc.devRef .tc main_arg8)
    let Wl : Arr2 256 256 := V0 (Proc.devRef .tc main_arg9)
    let bl : Arr1 256 := V0 (Proc.devRef .tc main_arg10)
    let sl : (⟨0, ![]⟩ : Shape).Idx → EReal := V0 (Proc.devRef .tc main_arg11)
    let Whg : (⟨3, ![2, 256, 256]⟩ : Shape).Idx → EReal := V0 (Proc.devRef .tc main_arg12)
    let bhg : Arr2 2 256 := V0 (Proc.devRef .tc main_arg13)
    let shg : Arr1 2 := V0 (Proc.devRef .tc main_arg14)
    let Wg : (⟨3, ![2, 256, 256]⟩ : Shape).Idx → EReal := V0 (Proc.devRef .tc main_arg15)
    let bg : Arr2 2 256 := V0 (Proc.devRef .tc main_arg16)
    let sg : Arr1 2 := V0 (Proc.devRef .tc main_arg17)
    let Wd : (⟨3, ![2, 256, 256]⟩ : Shape).Idx → EReal := V0 (Proc.devRef .tc main_arg18)
    let bd : Arr2 2 256 := V0 (Proc.devRef .tc main_arg19)
    let sd : Arr1 2 := V0 (Proc.devRef .tc main_arg20)
    (Host.divf (F := Ideal) (φ := .f32) (res_main_v312 V0) (broadcastInDim S8192x256 ![0, 1] bcast_S8192x1_S8192x256_0_1 (Host.sqrt (maximumf (Host.absf (subf (mulf (res_main_v313 V0) (res_main_v313 V0)) (broadcastInDim S8192x1 ![0] bcast_S8192_S8192x1_0 (Host.reduceAdd (mulf (res_main_v315 V0) (res_main_v315 V0)) (constant S_ .f32 0x00000000#32) reducesTo_S8192x255_S8192_d1 h_S_)))) (broadcastInDim S8192x1 ![] bcast_S_S8192x1 (constant S_ .f32 0x322BCC77#32)))))
        = hyperRep dis pro med H Wh bh sh Whg bhg shg)
    ∧ (Host.divf (F := Ideal) (φ := .f32) (res_main_v429 V0) (broadcastInDim S8192x256 ![0, 1] bcast_S8192x1_S8192x256_0_1 (Host.sqrt (maximumf (Host.absf (subf (mulf (res_main_v430 V0) (res_main_v430 V0)) (broadcastInDim S8192x1 ![0] bcast_S8192_S8192x1_0 (Host.reduceAdd (mulf (res_main_v432 V0) (res_main_v432 V0)) (constant S_ .f32 0x00000000#32) reducesTo_S8192x255_S8192_d1 h_S_)))) (broadcastInDim S8192x1 ![] bcast_S_S8192x1 (constant S_ .f32 0x322BCC77#32)))))
        = linearRep dis pro med H A Wl bl sl Wg bg sg)
    ∧ (extractStridedSlice (α := EReal) S8192x256 ![0, 0] (res_main_v310 V0) slices_S16384x256_S8192x256_0_0
        = rowsFrom (n := 8192) 0 (hEmbed dis pro med H Wh bh sh Whg bhg shg) (by decide))
    ∧ (extractStridedSlice (α := EReal) S6144x256 ![8192, 0] (res_main_v310 V0) slices_S16384x256_S6144x256_8192_0
        = rowsFrom (n := 6144) 8192 (hEmbed dis pro med H Wh bh sh Whg bhg shg) (by decide))
    ∧ (extractStridedSlice (α := EReal) S2048x256 ![14336, 0] (res_main_v310 V0) slices_S16384x256_S2048x256_14336_0
        = rowsFrom (n := 2048) 14336 (hEmbed dis pro med H Wh bh sh Whg bhg shg) (by decide))
    ∧ (Host.divf (F := Ideal) (φ := .f32) (res_main_v89 V0) (broadcastInDim S2048x256 ![0, 1] bcast_S2048x1_S2048x256_0_1 (Host.sqrt (maximumf (Host.absf (subf (mulf (res_main_v90 V0) (res_main_v90 V0)) (broadcastInDim S2048x1 ![0] bcast_S2048_S2048x1_0 (Host.reduceAdd (mulf (res_main_v92 V0) (res_main_v92 V0)) (constant S_ .f32 0x00000000#32) reducesTo_S2048x255_S2048_d1 h_S_)))) (broadcastInDim S2048x1 ![] bcast_S_S2048x1 (constant S_ .f32 0x322BCC77#32)))))
        = ddiMed med ddi Wd bd sd) := by
  intro dis pro med H A ddi Wh bh sh Wl bl sl Whg bhg shg Wg bg sg Wd bd sd
  refine ⟨n312_eq V0, n429_eq V0, ?_, ?_, ?_, n89_eq V0⟩
  · rw [v310_eq V0]; exact ref_rowsFrom (n := 8192) 0 _ _ _
  · rw [v310_eq V0]; exact ref_rowsFrom (n := 6144) 8192 _ _ _
  · rw [v310_eq V0]; exact ref_rowsFrom (n := 2048) 14336 _ _ _

end Cert.ReferenceIdeal.RefValue

end
-- ==== Proof.lean ====
/-
  The certificate of a Lorentz hypergraph embedding: seventeen kernel launches — eight fused Lorentz linear layers
  x ↦ proj(x·Wᵀ + b) and nine tiled aggregations x ↦ norm(adj·x), the matrix product accumulated tile by tile in a
  scratch buffer over the inner grid axis — against the same layers written as whole-array host operations.

  Frames. Each launch is a region of @main with its own proof data: a linear layer stores its whole output block
  at every grid point; an aggregation carries its accumulator from one inner step to the next and stores the
  normalised rows at the last one. The regions' records and the host stretches between them chain into the run of
  @main, which leaves every argument array as launched, at any float instance; the reference's frame is its run.

  Values, on the extended reals. A block of rows of proj, norm or a matrix product is the same function of that block
  of rows, and the product's sum over the contracted axis may be taken tile by tile, so every launch leaves the
  whole-array layer of the arrays it finds. Two feature arrays side by side share one product, A·[h | l] = [A·h | A·l],
  so the jointly computed, separately normalised halves are the two aggregations. Both programs therefore end at the
  same six arrays of the model: no finiteness of the inputs is used, since the two sides apply the same operations and
  differ only in how the sums are arranged.
-/
import proofs.«103499_j73031623901527_2_alg».proof.Defs
import proofs.«103499_j73031623901527_2_alg».proof.Proof.Gen.Kernel
import proofs.«103499_j73031623901527_2_alg».proof.Proof.Gen.KernelIdeal
import proofs.«103499_j73031623901527_2_alg».proof.Proof.Gen.ReferenceIdeal
import proofs.«103499_j73031623901527_2_alg».proof.Proof.Gen.Pre_finite_inputs
import proofs.«103499_j73031623901527_2_alg».proof.Proof.K.Run
import proofs.«103499_j73031623901527_2_alg».proof.Proof.KI.Run
import proofs.«103499_j73031623901527_2_alg».proof.Proof.RefFrame
import proofs.«103499_j73031623901527_2_alg».proof.Proof.Val.Bridge
import proofs.«103499_j73031623901527_2_alg».proof.Proof.Ref.RefValue

set_option maxRecDepth 16384

noncomputable section

namespace Cert.Proof

open Idealize.ShloMosaic Idealize.ShloMosaic.TcCoe Idealize.SL.Sem Cert.Lorentz Cert.Sage

theorem frame_k : Cert.frame_Kernel := fun m ρ _ => Cert.Kernel.Hand.frame m ρ
theorem frame_ki : Cert.frame_KernelIdeal := fun m ρ _ => Cert.KernelIdeal.Hand.frame m ρ

/-- Both idealized programs end at the model's six arrays: the kernel program's run leaves its final valuation at the
    result buffers, which the value bridge reads as the model; the reference's run states its results as terms that are
    the model's arrays of its arguments; and the two launch memories agree on the arguments. -/
theorem algebraic : Cert.algebraic_KernelIdeal_ReferenceIdeal := by
  intro m ρ m' ρ' _ hagree
  refine ⟨fun c => Cert.KernelIdeal.Hand.W35 m ρ c (Proc.devRef .tc Cert.KernelIdeal.main_v94),
    fun c => Cert.KernelIdeal.Hand.W35 m ρ c (Proc.devRef .tc Cert.KernelIdeal.main_v123),
    fun c => Cert.KernelIdeal.Hand.W35 m ρ c (Proc.devRef .tc Cert.KernelIdeal.main_v124),
    fun c => Cert.KernelIdeal.Hand.W35 m ρ c (Proc.devRef .tc Cert.KernelIdeal.main_v125),
    fun c => Cert.KernelIdeal.Hand.W35 m ρ c (Proc.devRef .tc Cert.KernelIdeal.main_v126),
    fun c => Cert.KernelIdeal.Hand.W35 m ρ c (Proc.devRef .tc Cert.KernelIdeal.main_v32), ?_, ?_⟩
  · refine (θ_run (Cert.KernelIdeal.defs (F := Ideal)) _ _).mono (fun r h c => ?_) (Cert.KernelIdeal.Hand.run_all (F := Ideal) m ρ)
    exact ⟨h c _ (Cert.KernelIdeal.Hand.mem_uc Cert.KernelIdeal.main_v94 (by decide)),
      h c _ (Cert.KernelIdeal.Hand.mem_uc Cert.KernelIdeal.main_v123 (by decide)),
      h c _ (Cert.KernelIdeal.Hand.mem_uc Cert.KernelIdeal.main_v124 (by decide)),
      h c _ (Cert.KernelIdeal.Hand.mem_uc Cert.KernelIdeal.main_v125 (by decide)),
      h c _ (Cert.KernelIdeal.Hand.mem_uc Cert.KernelIdeal.main_v126 (by decide)),
      h c _ (Cert.KernelIdeal.Hand.mem_uc Cert.KernelIdeal.main_v32 (by decide)),
      (h c _ (Cert.KernelIdeal.Hand.mem_uc Cert.KernelIdeal.main_arg0 (by decide))).trans (Cert.KernelIdeal.Hand.W35_main_arg0 m ρ c),
      (h c _ (Cert.KernelIdeal.Hand.mem_uc Cert.KernelIdeal.main_arg1 (by decide))).trans (Cert.KernelIdeal.Hand.W35_main_arg1 m ρ c),
      (h c _ (Cert.KernelIdeal.Hand.mem_uc Cert.KernelIdeal.main_arg2 (by decide))).trans (Cert.KernelIdeal.Hand.W35_main_arg2 m ρ c),
      (h c _ (Cert.KernelIdeal.Hand.mem_uc Cert.KernelIdeal.main_arg3 (by decide))).trans (Cert.KernelIdeal.Hand.W35_main_arg3 m ρ c),
      (h c _ (Cert.KernelIdeal.Hand.mem_uc Cert.KernelIdeal.main_arg4 (by decide))).trans (Cert.KernelIdeal.Hand.W35_main_arg4 m ρ c),
      (h c _ (Cert.KernelIdeal.Hand.mem_uc Cert.KernelIdeal.main_arg5 (by decide))).trans (Cert.KernelIdeal.Hand.W35_main_arg5 m ρ c),
      (h c _ (Cert.KernelIdeal.Hand.mem_uc Cert.KernelIdeal.main_arg6 (by decide))).trans (Cert.KernelIdeal.Hand.W35_main_arg6 m ρ c),
      (h c _ (Cert.KernelIdeal.Hand.mem_uc Cert.KernelIdeal.main_arg7 (by decide))).trans (Cert.KernelIdeal.Hand.W35_main_arg7 m ρ c),
      (h c _ (Cert.KernelIdeal.Hand.mem_uc Cert.KernelIdeal.main_arg8 (by decide))).trans (Cert.KernelIdeal.Hand.W35_main_arg8 m ρ c),
      (h c _ (Cert.KernelIdeal.Hand.mem_uc Cert.KernelIdeal.main_arg9 (by decide))).trans (Cert.KernelIdeal.Hand.W35_main_arg9 m ρ c),
      (h c _ (Cert.KernelIdeal.Hand.mem_uc Cert.KernelIdeal.main_arg10 (by decide))).trans (Cert.KernelIdeal.Hand.W35_main_arg10 m ρ c),
      (h c _ (Cert.KernelIdeal.Hand.mem_uc Cert.KernelIdeal.main_arg11 (by decide))).trans (Cert.KernelIdeal.Hand.W35_main_arg11 m ρ c),
      (h c _ (Cert.KernelIdeal.Hand.mem_uc Cert.KernelIdeal.main_arg12 (by decide))).trans (Cert.KernelIdeal.Hand.W35_main_arg12 m ρ c),
      (h c _ (Cert.KernelIdeal.Hand.mem_uc Cert.KernelIdeal.main_arg13 (by decide))).trans (Cert.KernelIdeal.Hand.W35_main_arg13 m ρ c),
      (h c _ (Cert.KernelIdeal.Hand.mem_uc Cert.KernelIdeal.main_arg14 (by decide))).trans (Cert.KernelIdeal.Hand.W35_main_arg14 m ρ c),
      (h c _ (Cert.KernelIdeal.Hand.mem_uc Cert.KernelIdeal.main_arg15 (by decide))).trans (Cert.KernelIdeal.Hand.W35_main_arg15 m ρ c),
      (h c _ (Cert.KernelIdeal.Hand.mem_uc Cert.KernelIdeal.main_arg16 (by decide))).trans (Cert.KernelIdeal.Hand.W35_main_arg16 m ρ c),
      (h c _ (Cert.KernelIdeal.Hand.mem_uc Cert.KernelIdeal.main_arg17 (by decide))).trans (Cert.KernelIdeal.Hand.W35_main_arg17 m ρ c),
      (h c _ (Cert.KernelIdeal.Hand.mem_uc Cert.KernelIdeal.main_arg18 (by decide))).trans (Cert.KernelIdeal.Hand.W35_main_arg18 m ρ c),
      (h c _ (Cert.KernelIdeal.Hand.mem_uc Cert.KernelIdeal.main_arg19 (by decide))).trans (Cert.KernelIdeal.Hand.W35_main_arg19 m ρ c),
      (h c _ (Cert.KernelIdeal.Hand.mem_uc Cert.KernelIdeal.main_arg20 (by decide))).trans (Cert.KernelIdeal.Hand.W35_main_arg20 m ρ c)⟩
  · refine (θ_run (Cert.ReferenceIdeal.defs (F := Ideal)) _ _).mono (fun r h c => ?_) (Cert.ReferenceIdeal.Value.run (F := Ideal) m' ρ')
    have hk := Cert.KernelIdeal.Val.kernel_results m ρ c
    have hr := Cert.ReferenceIdeal.RefValue.ref_results (StableHlo.launchContents m' c)
    obtain ⟨a0, a1, a2, a3, a4, a5, a6, a7, a8, a9, a10, a11, a12, a13, a14, a15, a16, a17, a18, a19, a20⟩ := hagree c
    dsimp only at hr
    rw [show StableHlo.launchContents m' c (Proc.devRef .tc Cert.ReferenceIdeal.main_arg0) = m ((c.tc : Thread Cert.KernelIdeal.nD Cert.KernelIdeal.τ).loc Cert.KernelIdeal.main_arg0) from a0,
      show StableHlo.launchContents m' c (Proc.devRef .tc Cert.ReferenceIdeal.main_arg1) = m ((c.tc : Thread Cert.KernelIdeal.nD Cert.KernelIdeal.τ).loc Cert.KernelIdeal.main_arg1) from a1,
      show StableHlo.launchContents m' c (Proc.devRef .tc Cert.ReferenceIdeal.main_arg2) = m ((c.tc : Thread Cert.KernelIdeal.nD Cert.KernelIdeal.τ).loc Cert.KernelIdeal.main_arg2) from a2,
      show StableHlo.launchContents m' c (Proc.devRef .tc Cert.ReferenceIdeal.main_arg3) = m ((c.tc : Thread Cert.KernelIdeal.nD Cert.KernelIdeal.τ).loc Cert.KernelIdeal.main_arg3) from a3,
      show StableHlo.launchContents m' c (Proc.devRef .tc Cert.ReferenceIdeal.main_arg4) = m ((c.tc : Thread Cert.KernelIdeal.nD Cert.KernelIdeal.τ).loc Cert.KernelIdeal.main_arg4) from a4,
      show StableHlo.launchContents m' c (Proc.devRef .tc Cert.ReferenceIdeal.main_arg5) = m ((c.tc : Thread Cert.KernelIdeal.nD Cert.KernelIdeal.τ).loc Cert.KernelIdeal.main_arg5) from a5,
      show StableHlo.launchContents m' c (Proc.devRef .tc Cert.ReferenceIdeal.main_arg6) = m ((c.tc : Thread Cert.KernelIdeal.nD Cert.KernelIdeal.τ).loc Cert.KernelIdeal.main_arg6) from a6,
      show StableHlo.launchContents m' c (Proc.devRef .tc Cert.ReferenceIdeal.main_arg7) = m ((c.tc : Thread Cert.KernelIdeal.nD Cert.KernelIdeal.τ).loc Cert.KernelIdeal.main_arg7) from a7,
      show StableHlo.launchContents m' c (Proc.devRef .tc Cert.ReferenceIdeal.main_arg8) = m ((c.tc : Thread Cert.KernelIdeal.nD Cert.KernelIdeal.τ).loc Cert.KernelIdeal.main_arg8) from a8,
      show StableHlo.launchContents m' c (Proc.devRef .tc Cert.ReferenceIdeal.main_arg9) = m ((c.tc : Thread Cert.KernelIdeal.nD Cert.KernelIdeal.τ).loc Cert.KernelIdeal.main_arg9) from a9,
      show StableHlo.launchContents m' c (Proc.devRef .tc Cert.ReferenceIdeal.main_arg10) = m ((c.tc : Thread Cert.KernelIdeal.nD Cert.KernelIdeal.τ).loc Cert.KernelIdeal.main_arg10) from a10,
      show StableHlo.launchContents m' c (Proc.devRef .tc Cert.ReferenceIdeal.main_arg11) = m ((c.tc : Thread Cert.KernelIdeal.nD Cert.KernelIdeal.τ).loc Cert.KernelIdeal.main_arg11) from a11,
      show StableHlo.launchContents m' c (Proc.devRef .tc Cert.ReferenceIdeal.main_arg12) = m ((c.tc : Thread Cert.KernelIdeal.nD Cert.KernelIdeal.τ).loc Cert.KernelIdeal.main_arg12) from a12,
      show StableHlo.launchContents m' c (Proc.devRef .tc Cert.ReferenceIdeal.main_arg13) = m ((c.tc : Thread Cert.KernelIdeal.nD Cert.KernelIdeal.τ).loc Cert.KernelIdeal.main_arg13) from a13,
      show StableHlo.launchContents m' c (Proc.devRef .tc Cert.ReferenceIdeal.main_arg14) = m ((c.tc : Thread Cert.KernelIdeal.nD Cert.KernelIdeal.τ).loc Cert.KernelIdeal.main_arg14) from a14,
      show StableHlo.launchContents m' c (Proc.devRef .tc Cert.ReferenceIdeal.main_arg15) = m ((c.tc : Thread Cert.KernelIdeal.nD Cert.KernelIdeal.τ).loc Cert.KernelIdeal.main_arg15) from a15,
      show StableHlo.launchContents m' c (Proc.devRef .tc Cert.ReferenceIdeal.main_arg16) = m ((c.tc : Thread Cert.KernelIdeal.nD Cert.KernelIdeal.τ).loc Cert.KernelIdeal.main_arg16) from a16,
      show StableHlo.launchContents m' c (Proc.devRef .tc Cert.ReferenceIdeal.main_arg17) = m ((c.tc : Thread Cert.KernelIdeal.nD Cert.KernelIdeal.τ).loc Cert.KernelIdeal.main_arg17) from a17,
      show StableHlo.launchContents m' c (Proc.devRef .tc Cert.ReferenceIdeal.main_arg18) = m ((c.tc : Thread Cert.KernelIdeal.nD Cert.KernelIdeal.τ).loc Cert.KernelIdeal.main_arg18) from a18,
      show StableHlo.launchContents m' c (Proc.devRef .tc Cert.ReferenceIdeal.main_arg19) = m ((c.tc : Thread Cert.KernelIdeal.nD Cert.KernelIdeal.τ).loc Cert.KernelIdeal.main_arg19) from a19,
      show StableHlo.launchContents m' c (Proc.devRef .tc Cert.ReferenceIdeal.main_arg20) = m ((c.tc : Thread Cert.KernelIdeal.nD Cert.KernelIdeal.τ).loc Cert.KernelIdeal.main_arg20) from a20] at hr
    obtain ⟨h0, h1, h2, h3, h4, h5, hargs⟩ := h c
    exact ⟨h0.trans (hr.1.trans hk.1.symm), h1.trans (hr.2.1.trans hk.2.1.symm), h2.trans (hr.2.2.1.trans hk.2.2.1.symm),
      h3.trans (hr.2.2.2.1.trans hk.2.2.2.1.symm), h4.trans (hr.2.2.2.2.1.trans hk.2.2.2.2.1.symm),
      h5.trans (hr.2.2.2.2.2.trans hk.2.2.2.2.2.symm), hargs⟩

/-- The five claims, under the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, algebraic⟩

end Cert.Proof

end
